-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.sign_bit.Statement Cert.KernelIdeal.S2000x1 .f32
  ∧ IdealRules.sign_bit.Statement Cert.KernelIdeal.S2000x1 .f32
  ∧ IdealRules.named_const.Statement Cert.KernelIdeal.κ "inv_800000" .f32 0x35A7C5AC#32 ((1 / 800000 : ℝ) : EReal)
  ∧ IdealRules.named_const.Statement Cert.KernelIdeal.κ "inv_800000" .f32 0x35A7C5AC#32 ((1 / 800000 : ℝ) : EReal)
  ∧ IdealRules.sign_bit.Statement Cert.KernelIdeal.S2000x1 .f32
  ∧ IdealRules.sign_bit.Statement Cert.KernelIdeal.S2000x1 .f32
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v38_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v38_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x4 : Shape := ⟨2, ![50000, 4]⟩
abbrev S800000 : Shape := ⟨1, ![800000]⟩
abbrev S50000x8 : Shape := ⟨2, ![50000, 8]⟩
abbrev S130x64 : Shape := ⟨2, ![130, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S136x64 : Shape := ⟨2, ![136, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S50000x8 : S_.BroadcastsInDim S50000x8 (![] : Fin 0 → Fin S50000x8.rank)
  reducesTo_S50000x8_S_d0_1 : S50000x8.ReducesTo [0, 1] S_
  bcast_S_S130x64 : S_.BroadcastsInDim S130x64 (![] : Fin 0 → Fin S130x64.rank)
  reducesTo_S130x64_S_d0_1 : S130x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S136x64 : S_.BroadcastsInDim S136x64 (![] : Fin 0 → Fin S136x64.rank)
  reducesTo_S136x64_S_d0_1 : S136x64.ReducesTo [0, 1] S_

variable [Facts]

def fn_part5 {F : FTy → Type} [FloatOps F] (main_arg20 : FVec F S64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg16 : FVec F S64 .f32) (main_arg17 : FVec F S64 .f32) (main_arg18 : FVec F S64 .f32) (main_arg19 : FVec F S64x64 .f32) (main_arg20 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S64 .f32) (main_arg14 : FVec F S64x1 .f32) (main_arg15 : FVec F S136x64 .f32) (main_arg16 : FVec F S64 .f32) (main_arg17 : FVec F S64 .f32) (main_arg18 : FVec F S64 .f32) (main_arg19 : FVec F S64x64 .f32) (main_arg20 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S136x64 .f32 := Host.absf main_arg15
  let main_cst_24 : FVec F S_ .f32 := constant S_ .f32 0x7F800000#32
  let main_v65 : FVec F S136x64 .f32 := broadcastInDim S136x64 ![] bcast_S_S136x64 main_cst_24
  let main_v66 : IVec S136x64 1 := cmpf .olt main_v64 main_v65
  let main_c_25 : IVec S_ 1 := constantI S_ 1 1#1
  let main_v67 : IVec S_ 1 := (fun x v => Host.reduce IntOp.andi x v reducesTo_S136x64_S_d0_1 h_S_) main_v66 main_c_25
  fn_part4 (F := F) main_arg16 main_arg17 main_arg18 main_arg19 main_arg20 main_v63 main_v67

def fn_part2 {F : FTy → Type} [FloatOps F] (main_arg9 : FVec F S64 .f32) (main_arg10 : FVec F S64x1 .f32) (main_arg11 : FVec F S1 .f32) (main_arg12 : FVec F S64x64 .f32) (main_arg13 : FVec F S64 .f32) (main_arg14 : FVec F S64x1 .f32) (main_arg15 : FVec F S136x64 .f32) (main_arg16 : FVec F S64 .f32) (main_arg17 : FVec F S64 .f32) (main_arg18 : FVec F S64 .f32) (main_arg19 : FVec F S64x64 .f32) (main_arg20 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_v48 main_v49 main_v50

def fn_part1 {F : FTy → Type} [FloatOps F] (main_arg6 : FVec F S64 .f32) (main_arg7 : FVec F S64 .f32) (main_arg8 : FVec F S64x64 .f32) (main_arg9 : FVec F S64 .f32) (main_arg10 : FVec F S64x1 .f32) (main_arg11 : FVec F S1 .f32) (main_arg12 : FVec F S64x64 .f32) (main_arg13 : FVec F S64 .f32) (main_arg14 : FVec F S64x1 .f32) (main_arg15 : FVec F S136x64 .f32) (main_arg16 : FVec F S64 .f32) (main_arg17 : FVec F S64 .f32) (main_arg18 : FVec F S64 .f32) (main_arg19 : FVec F S64x64 .f32) (main_arg20 : FVec F S64 .f32) (main_v13 : IVec S_ 1) (main_v16 : IVec S130x64 1) : IVec S_ 1 :=
  let main_c_5 : IVec S_ 1 := constantI S_ 1 1#1
  let main_v17 : IVec S_ 1 := (fun x v => Host.reduce IntOp.andi x v reducesTo_S130x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x64 .f32) (main_arg1 : FVec F S50000x4 .f32) (main_arg2 : IVec S800000 32) (main_arg3 : IVec S800000 32) (main_arg4 : FVec F S50000x8 .f32) (main_arg5 : FVec F S130x64 .f32) (main_arg6 : FVec F S64 .f32) (main_arg7 : FVec F S64 .f32) (main_arg8 : FVec F S64x64 .f32) (main_arg9 : FVec F S64 .f32) (main_arg10 : FVec F S64x1 .f32) (main_arg11 : FVec F S1 .f32) (main_arg12 : FVec F S64x64 .f32) (main_arg13 : FVec F S64 .f32) (main_arg14 : FVec F S64x1 .f32) (main_arg15 : FVec F S136x64 .f32) (main_arg16 : FVec F S64 .f32) (main_arg17 : FVec F S64 .f32) (main_arg18 : FVec F S64 .f32) (main_arg19 : FVec F S64x64 .f32) (main_arg20 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S50000x8 .f32 := Host.absf main_arg4
  let main_cst_2 : FVec F S_ .f32 := constant S_ .f32 0x7F800000#32
  let main_v10 : FVec F S50000x8 .f32 := broadcastInDim S50000x8 ![] bcast_S_S50000x8 main_cst_2
  let main_v11 : IVec S50000x8 1 := cmpf .olt main_v9 main_v10
  let main_c_3 : IVec S_ 1 := constantI S_ 1 1#1
  let main_v12 : IVec S_ 1 := (fun x v => Host.reduce IntOp.andi x v reducesTo_S50000x8_S_d0_1 h_S_) main_v11 main_c_3
  let main_v13 : IVec S_ 1 := andi main_v8 main_v12
  let main_v14 : FVec F S130x64 .f32 := Host.absf main_arg5
  let main_cst_4 : FVec F S_ .f32 := constant S_ .f32 0x7F800000#32
  let main_v15 : FVec F S130x64 .f32 := broadcastInDim S130x64 ![] bcast_S_S130x64 main_cst_4
  let main_v16 : IVec S130x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x64 : Shape := ⟨2, ![50000, 64]⟩
abbrev S50000x4 : Shape := ⟨2, ![50000, 4]⟩
abbrev S800000 : Shape := ⟨1, ![800000]⟩
abbrev S50000x8 : Shape := ⟨2, ![50000, 8]⟩
abbrev S130x64 : Shape := ⟨2, ![130, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S136x64 : Shape := ⟨2, ![136, 64]⟩
abbrev S_ : Shape := ⟨0, ![]⟩
abbrev S800000x1 : Shape := ⟨2, ![800000, 1]⟩
abbrev S800000x64 : Shape := ⟨2, ![800000, 64]⟩
abbrev S800000x4 : Shape := ⟨2, ![800000, 4]⟩
abbrev S1x64 : Shape := ⟨2, ![1, 64]⟩
abbrev S1x1 : Shape := ⟨2, ![1, 1]⟩
abbrev S2000x64 : Shape := ⟨2, ![2000, 64]⟩
abbrev S2000x4 : Shape := ⟨2, ![2000, 4]⟩
abbrev S2000x1 : Shape := ⟨2, ![2000, 1]⟩
abbrev S2000 : Shape := ⟨1, ![2000]⟩
abbrev S2000x130 : Shape := ⟨2, ![2000, 130]⟩
abbrev S50000 : Shape := ⟨1, ![50000]⟩
abbrev S50000x1 : Shape := ⟨2, ![50000, 1]⟩
abbrev S2000x8 : Shape := ⟨2, ![2000, 8]⟩
abbrev S2000x136 : Shape := ⟨2, ![2000, 136]⟩

abbrev nBuf : Space → Nat
  | .hbm => 97
  | .vmem => 65
  | .smem => 0
  | _ => 0

abbrev bufTy : (tb : Table) → Fin (tcTables nBuf tb) → BufTy
  | .hbm, ⟨0, _⟩ => ⟨S50000x64, .f32⟩
  | .hbm, ⟨1, _⟩ => ⟨S50000x4, .f32⟩
  | .hbm, ⟨2, _⟩ => ⟨S800000, .i32⟩
  | .hbm, ⟨3, _⟩ => ⟨S800000, .i32⟩
  | .hbm, ⟨4, _⟩ => ⟨S50000x8, .f32⟩
  | .hbm, ⟨5, _⟩ => ⟨S130x64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S136x64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x4, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x4, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x1, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S800000x64, .f32⟩
  | .hbm, ⟨69, _⟩ => ⟨S800000x4, .f32⟩
  | .hbm, ⟨70, _⟩ => ⟨S_, .f32⟩
  | .hbm, ⟨71, _⟩ => ⟨S50000x4, .f32⟩
  | .hbm, ⟨72, _⟩ => ⟨S800000x1, .i32⟩
  | .hbm, ⟨73, _⟩ => ⟨S50000x4, .f32⟩
  | .hbm, ⟨74, _⟩ => ⟨S_, .f32⟩
  | .hbm, ⟨75, _⟩ => ⟨S800000, .f32⟩
  | .hbm, ⟨76, _⟩ => ⟨S_, .f32⟩
  | .hbm, ⟨77, _⟩ => ⟨S50000, .f32⟩
  | .hbm, ⟨78, _⟩ => ⟨S800000x1, .i32⟩
  | .hbm, ⟨79, _⟩ => ⟨S50000, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S50000x1, .f32⟩
  | .hbm, ⟨84, _⟩ => ⟨S50000x4, .f32⟩
  | .hbm, ⟨85, _⟩ => ⟨S50000x4, .f32⟩
  | .hbm, ⟨86, _⟩ => ⟨S_, .f32⟩
  | .hbm, ⟨87, _⟩ => ⟨S50000x4, .f32⟩
  | .hbm, ⟨88, _⟩ => ⟨S50000x4, .f32⟩
  | .hbm, ⟨89, _⟩ => ⟨S50000x4, .f32⟩
  | .hbm, ⟨90, _⟩ => ⟨S_, .f32⟩
  | .hbm, ⟨91, _⟩ => ⟨S50000x64, .f32⟩
  | .hbm, ⟨92, _⟩ => ⟨S800000x1, .i32⟩
  | .hbm, ⟨93, _⟩ => ⟨S50000x64, .f32⟩
  | .hbm, ⟨94, _⟩ => ⟨S1x64, .f32⟩
  | .hbm, ⟨95, _⟩ => ⟨S1x64, .f32⟩
  | .hbm, ⟨96, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x4, .f32⟩
  | .local _ .vmem, ⟨5, _⟩ => ⟨S2000x4, .f32⟩
  | .local _ .vmem, ⟨6, _⟩ => ⟨S2000x4, .f32⟩
  | .local _ .vmem, ⟨7, _⟩ => ⟨S2000x4, .f32⟩
  | .local _ .vmem, ⟨8, _⟩ => ⟨S130x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x4, .f32⟩
  | .local _ .vmem, ⟨18, _⟩ => ⟨S2000x4, .f32⟩
  | .local _ .vmem, ⟨19, _⟩ => ⟨S2000x4, .f32⟩
  | .local _ .vmem, ⟨20, _⟩ => ⟨S2000x4, .f32⟩
  | .local _ .vmem, ⟨21, _⟩ => ⟨S130x64, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x1, .f32⟩
  | .local _ .vmem, ⟨29, _⟩ => ⟨S1x1, .f32⟩
  | .local _ .vmem, ⟨30, _⟩ => ⟨S64x64, .f32⟩
  | .local _ .vmem, ⟨31, _⟩ => ⟨S1x64, .f32⟩
  | .local _ .vmem, ⟨32, _⟩ => ⟨S64x1, .f32⟩
  | .local _ .vmem, ⟨33, _⟩ => ⟨S2000x64, .f32⟩
  | .local _ .vmem, ⟨34, _⟩ => ⟨S2000x64, .f32⟩
  | .local _ .vmem, ⟨35, _⟩ => ⟨S2000x4, .f32⟩
  | .local _ .vmem, ⟨36, _⟩ => ⟨S2000x4, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x8, .f32⟩
  | .local _ .vmem, ⟨42, _⟩ => ⟨S2000x8, .f32⟩
  | .local _ .vmem, ⟨43, _⟩ => ⟨S136x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x8, .f32⟩
  | .local _ .vmem, ⟨54, _⟩ => ⟨S2000x8, .f32⟩
  | .local _ .vmem, ⟨55, _⟩ => ⟨S136x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S64x64, .f32⟩
  | .local _ .vmem, ⟨62, _⟩ => ⟨S1x64, .f32⟩
  | .local _ .vmem, ⟨63, _⟩ => ⟨S2000x64, .f32⟩
  | .local _ .vmem, ⟨64, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_c_6 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37_0 : Ref sig .tc := ⟨.hbm, 66, rfl⟩
abbrev main_v37_1 : Ref sig .tc := ⟨.hbm, 67, rfl⟩
abbrev main_v38_0 : Ref sig .tc := ⟨.hbm, 68, rfl⟩
abbrev main_v38_1 : Ref sig .tc := ⟨.hbm, 69, rfl⟩
abbrev main_cst : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_cst_8 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_10 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_11 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57_0 : Ref sig .tc := ⟨.hbm, 94, rfl⟩
abbrev main_v57_1 : Ref sig .tc := ⟨.hbm, 95, rfl⟩
abbrev main_v58 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg15_0 : Ref sig .tc := ⟨.vmem, 32, rfl⟩
abbrev cc1_stg16_0 : Ref sig .tc := ⟨.vmem, 33, rfl⟩
abbrev cc1_stg16_1 : Ref sig .tc := ⟨.vmem, 34, rfl⟩
abbrev cc1_stg17_0 : Ref sig .tc := ⟨.vmem, 35, rfl⟩
abbrev cc1_stg17_1 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg6_0 : Ref sig .tc := ⟨.vmem, 46, rfl⟩
abbrev cc2_scratch0 : Ref sig .tc := ⟨.vmem, 47, rfl⟩
abbrev cc2_scratch1 : Ref sig .tc := ⟨.vmem, 48, rfl⟩
abbrev cc3_stg0_0 : Ref sig .tc := ⟨.vmem, 49, rfl⟩
abbrev cc3_stg0_1 : Ref sig .tc := ⟨.vmem, 50, rfl⟩
abbrev cc3_stg1_0 : Ref sig .tc := ⟨.vmem, 51, rfl⟩
abbrev cc3_stg1_1 : Ref sig .tc := ⟨.vmem, 52, rfl⟩
abbrev cc3_stg2_0 : Ref sig .tc := ⟨.vmem, 53, rfl⟩
abbrev cc3_stg2_1 : Ref sig .tc := ⟨.vmem, 54, rfl⟩
abbrev cc3_stg3_0 : Ref sig .tc := ⟨.vmem, 55, rfl⟩
abbrev cc3_stg4_0 : Ref sig .tc := ⟨.vmem, 56, rfl⟩
abbrev cc3_stg5_0 : Ref sig .tc := ⟨.vmem, 57, rfl⟩
abbrev cc3_stg6_0 : Ref sig .tc := ⟨.vmem, 58, rfl⟩
abbrev cc3_stg7_0 : Ref sig .tc := ⟨.vmem, 59, rfl⟩
abbrev cc3_stg8_0 : Ref sig .tc := ⟨.vmem, 60, rfl⟩
abbrev cc3_stg9_0 : Ref sig .tc := ⟨.vmem, 61, rfl⟩
abbrev cc3_stg10_0 : Ref sig .tc := ⟨.vmem, 62, rfl⟩
abbrev cc3_stg11_0 : Ref sig .tc := ⟨.vmem, 63, rfl⟩
abbrev cc3_stg11_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem15_0 : DmaSem sig := 30
abbrev cc1_sem16_0 : DmaSem sig := 31
abbrev cc1_sem16_1 : DmaSem sig := 32
abbrev cc1_sem17_0 : DmaSem sig := 33
abbrev cc1_sem17_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem4_0 : DmaSem sig := 42
abbrev cc2_sem5_0 : DmaSem sig := 43
abbrev cc2_sem6_0 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc3_sem8_0 : DmaSem sig := 56
abbrev cc3_sem9_0 : DmaSem sig := 57
abbrev cc3_sem10_0 : DmaSem sig := 58
abbrev cc3_sem11_0 : DmaSem sig := 59
abbrev cc3_sem11_1 : DmaSem sig := 60

abbrev nD : Nat := 1
abbrev τ : Topo := Topo.v7x

variable {F : FTy → Type} [BitOps F]

abbrev grid0 : Pipeline.Grid := ⟨1, ![400], ![false]⟩

def k0_cond2 (i : grid0.Coords) : BitVec 1 :=
  let arg0 : BitVec 32 := BitVec.ofNat 32 (i 0).val
  let c399_i32 : BitVec 32 := 399#32
  let v76 : BitVec 1 := Scalar.cmpi .eq arg0 c399_i32
  let v77 : BitVec 32 := Scalar.extui v76
  let c0_i32_30 : BitVec 32 := 0#32
  let v78 : BitVec 1 := Scalar.cmpi .ne v77 c0_i32_30
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S130x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S130x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S64x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S2000x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S2000x4 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v31 : BitVec 1 := Scalar.cmpi .eq arg0 c24_i32
  let v32 : BitVec 32 := Scalar.extui v31
  let c0_i32_20 : BitVec 32 := 0#32
  let v33 : BitVec 1 := Scalar.cmpi .ne v32 c0_i32_20
  v33

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S136x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S136x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  shapeCasts_S1_S1x1 : S1.ShapeCasts S1x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  slices_S2000x4_o0_0_S2000x1 : S2000x4.Slices ![0, 0] S2000x1
  reduces_S2000x4_S2000 : S2000x4.Reduces [1] S2000
  shapeCasts_S2000_S2000x1 : S2000.ShapeCasts S2000x1
  concatenates_S2000x64_S2000x64_S2000x1_S2000x1_S2000x130_d1 : Shape.Concatenates [S2000x64, S2000x64, S2000x1, S2000x1] S2000x130 1
  bitsLt_bf16_f32 : FTy.bits .bf16 < FTy.bits .f32
  inb_S130x64_S130x64_0_0 : ∀ a, (![0, 0] : Fin 2 → Nat) a + S130x64.size a ≤ S130x64.size a
  h_S130x64 : 0 < S130x64.numel
  reduces_S2000x64_S64 : S2000x64.Reduces [0] S64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x64 : S2000x1.Broadcasts S2000x64
  broadcasts_S2000x1_S2000x4 : S2000x1.Broadcasts S2000x4
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S50000x64 : S_.BroadcastsInDim S50000x64 (![] : Fin 0 → Fin S50000x64.rank)
  inb_S2000x8_S2000x8_0_0 : ∀ a, (![0, 0] : Fin 2 → Nat) a + S2000x8.size a ≤ S2000x8.size a
  h_S2000x8 : 0 < S2000x8.numel
  concatenates_S2000x64_S2000x64_S2000x8_S2000x136_d1 : Shape.Concatenates [S2000x64, S2000x64, S2000x8] S2000x136 1
  inb_S136x64_S136x64_0_0 : ∀ a, (![0, 0] : Fin 2 → Nat) a + S136x64.size a ≤ S136x64.size a
  h_S136x64 : 0 < S136x64.numel
  gather_S50000x64_S800000x1_S800000x64_1_0_n_n_0_1_164_wf : GatherDims.WF S50000x64 S800000x1 S800000x64 [1] [0] [] [0] [] 1 ![1, 64]
  gather_S50000x4_S800000x1_S800000x4_1_0_n_n_0_1_14_wf : GatherDims.WF S50000x4 S800000x1 S800000x4 [1] [0] [] [0] [] 1 ![1, 4]
  dot_S2000x130_S130x64_S2000x64_1_0_0_1_n_n_wf : DotDims.WF S2000x130 S130x64 S2000x64 [1] [0] [0] [1] [] []
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  scatter_S50000x4_S800000x1_S800000x4_1_0_0_1_wf : ScatterDims.WF S50000x4 S800000x1 S800000x4 [1] [0] [0] 1
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  dot_S2000x136_S136x64_S2000x64_1_0_0_1_n_n_wf : DotDims.WF S2000x136 S136x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S800000x64.size a
  hwx0_0 : ∀ i : grid0.Coords, EltTy.bits .f32 = 32 ∨ (Rect.block (s := S800000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S800000x64.size a
  hwx0_1 : ∀ i : grid0.Coords, EltTy.bits .f32 = 32 ∨ (Rect.block (s := S800000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x4.size a ≤ S800000x4.size a
  hwx0_2 : ∀ i : grid0.Coords, EltTy.bits .f32 = 32 ∨ (Rect.block (s := S800000x4) S2000x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x4.size a ≤ S800000x4.size a
  hwx0_3 : ∀ i : grid0.Coords, EltTy.bits .f32 = 32 ∨ (Rect.block (s := S800000x4) S2000x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S130x64.size a ≤ S130x64.size a
  hwx0_4 : ∀ i : grid0.Coords, EltTy.bits .f32 = 32 ∨ (Rect.block (s := S130x64) S130x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S800000x64.size a
  hwx1_0 : ∀ i : grid1.Coords, EltTy.bits .f32 = 32 ∨ (Rect.block (s := S800000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S800000x64.size a
  hwx1_1 : ∀ i : grid1.Coords, EltTy.bits .f32 = 32 ∨ (Rect.block (s := S800000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x4.size a ≤ S800000x4.size a
  hwx1_2 : ∀ i : grid1.Coords, EltTy.bits .f32 = 32 ∨ (Rect.block (s := S800000x4) S2000x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x4.size a ≤ S800000x4.size a
  hwx1_3 : ∀ i : grid1.Coords, EltTy.bits .f32 = 32 ∨ (Rect.block (s := S800000x4) S2000x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S130x64.size a ≤ S130x64.size a
  hwx1_4 : ∀ i : grid1.Coords, EltTy.bits .f32 = 32 ∨ (Rect.block (s := S130x64) S130x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x1.size a ≤ S64x1.size a
  hwx1_11 : ∀ i : grid1.Coords, EltTy.bits .f32 = 32 ∨ (Rect.block (s := S64x1) S64x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x64.size a ≤ S64x64.size a
  hwx1_13 : ∀ i : grid1.Coords, EltTy.bits .f32 = 32 ∨ (Rect.block (s := S64x64) S64x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S64x1.size a ≤ S64x1.size a
  hwx1_15 : ∀ i : grid1.Coords, EltTy.bits .f32 = 32 ∨ (Rect.block (s := S64x1) S64x1.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x64.size a ≤ S800000x64.size a
  hwx1_16 : ∀ i : grid1.Coords, EltTy.bits .f32 = 32 ∨ (Rect.block (s := S800000x64) S2000x64.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S2000x4.size a ≤ S800000x4.size a
  hwx1_17 : ∀ i : grid1.Coords, EltTy.bits .f32 = 32 ∨ (Rect.block (s := S800000x4) S2000x4.size (cc1_transform_17 i) (hinb1_17 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x8.size a ≤ S50000x8.size a
  hwx2_2 : ∀ i : grid2.Coords, EltTy.bits .f32 = 32 ∨ (Rect.block (s := S50000x8) S2000x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S136x64.size a ≤ S136x64.size a
  hwx2_3 : ∀ i : grid2.Coords, EltTy.bits .f32 = 32 ∨ (Rect.block (s := S136x64) S136x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x8.size a ≤ S50000x8.size a
  hwx3_2 : ∀ i : grid3.Coords, EltTy.bits .f32 = 32 ∨ (Rect.block (s := S50000x8) S2000x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S136x64.size a ≤ S136x64.size a
  hwx3_3 : ∀ i : grid3.Coords, EltTy.bits .f32 = 32 ∨ (Rect.block (s := S136x64) S136x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x64.size a ≤ S64x64.size a
  hwx3_9 : ∀ i : grid3.Coords, EltTy.bits .f32 = 32 ∨ (Rect.block (s := S64x64) S64x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x64.size a ≤ S50000x64.size a
  hwx3_11 : ∀ i : grid3.Coords, EltTy.bits .f32 = 32 ∨ (Rect.block (s := S50000x64) S2000x64.size (cc3_transform_11 i) (hinb3_11 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def dot_S2000x130_S130x64_S2000x64_1_0_0_1_n_n : DotDims S2000x130 S130x64 S2000x64 where
  lhsContracting := [1]
  rhsContracting := [0]
  lhsNonContracting := [0]
  rhsNonContracting := [1]
  lhsBatch := []
  rhsBatch := []
  wf := dot_S2000x130_S130x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x136_S136x64_S2000x64_1_0_0_1_n_n : DotDims S2000x136 S136x64 S2000x64 where
  lhsContracting := [1]
  rhsContracting := [0]
  lhsNonContracting := [0]
  rhsNonContracting := [1]
  lhsBatch := []
  rhsBatch := []
  wf := dot_S2000x136_S136x64_S2000x64_1_0_0_1_n_n_wf

abbrev win0_0 : Pipeline.Window sig grid0 :=
  Pipeline.Window.ofSpec (Memref.whole main_v6) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S130x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37_0) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37_1) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v6) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x4.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S130x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37_0) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37_1) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg10) S64x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v31) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg12) S64x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v32) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg14) S64x1.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v38_0) S2000x64.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v38_1) S2000x4.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

abbrev win2_0 : Pipeline.Window sig grid2 :=
  Pipeline.Window.ofSpec (Memref.whole main_arg0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S2000x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S136x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57_0) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57_1) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_arg0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S2000x8.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S136x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v34) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57_0) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v57_1) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg19) S64x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v36) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v58) S2000x64.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S50000x64 : Shape := ⟨2, ![50000, 64]⟩
abbrev S50000x4 : Shape := ⟨2, ![50000, 4]⟩
abbrev S800000 : Shape := ⟨1, ![800000]⟩
abbrev S50000x8 : Shape := ⟨2, ![50000, 8]⟩
abbrev S130x64 : Shape := ⟨2, ![130, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S136x64 : Shape := ⟨2, ![136, 64]⟩
abbrev S_ : Shape := ⟨0, ![]⟩
abbrev S800000x1 : Shape := ⟨2, ![800000, 1]⟩
abbrev S800000x4 : Shape := ⟨2, ![800000, 4]⟩
abbrev S800000x64 : Shape := ⟨2, ![800000, 64]⟩
abbrev S800000x130 : Shape := ⟨2, ![800000, 130]⟩
abbrev S1x64 : Shape := ⟨2, ![1, 64]⟩
abbrev S1x1 : Shape := ⟨2, ![1, 1]⟩
abbrev S50000 : Shape := ⟨1, ![50000]⟩
abbrev S50000x1 : Shape := ⟨2, ![50000, 1]⟩
abbrev S50000x136 : Shape := ⟨2, ![50000, 136]⟩

abbrev nBuf : Space → Nat
  | .hbm => 261
  | .vmem => 0
  | .smem => 0
  | _ => 0

abbrev hbmTy0_0 (i : Nat) : BufTy := match i % 128 with
  | 0 => ⟨S50000x64, .f32⟩
  | 1 => ⟨S50000x4, .f32⟩
  | 2 => ⟨S800000, .i32⟩
  | 3 => ⟨S800000, .i32⟩
  | 4 => ⟨S50000x8, .f32⟩
  | 5 => ⟨S130x64, .f32⟩
  | 6 => ⟨S64, .f32⟩
  | 7 => ⟨S64, .f32⟩
  | 8 => ⟨S64x64, .f32⟩
  | 9 => ⟨S64, .f32⟩
  | 10 => ⟨S64x1, .f32⟩
  | 11 => ⟨S1, .f32⟩
  | 12 => ⟨S64x64, .f32⟩
  | 13 => ⟨S64, .f32⟩
  | 14 => ⟨S64x1, .f32⟩
  | 15 => ⟨S136x64, .f32⟩
  | 16 => ⟨S64, .f32⟩
  | 17 => ⟨S64, .f32⟩
  | 18 => ⟨S64, .f32⟩
  | 19 => ⟨S64x64, .f32⟩
  | 20 => ⟨S64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x4, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x4, .f32⟩
  | 39 => ⟨S800000x4, .f32⟩
  | 40 => ⟨S800000x4, .f32⟩
  | 41 => ⟨S800000x1, .f32⟩
  | 42 => ⟨S800000, .f32⟩
  | 43 => ⟨S_, .f32⟩
  | 44 => ⟨S800000, .f32⟩
  | 45 => ⟨S800000, .f32⟩
  | 46 => ⟨S_, .f32⟩
  | 47 => ⟨S800000, .f32⟩
  | 48 => ⟨S800000, .f32⟩
  | 49 => ⟨S800000, .f32⟩
  | 50 => ⟨S800000, .f32⟩
  | 51 => ⟨S_, .f32⟩
  | 52 => ⟨S800000, .f32⟩
  | 53 => ⟨S800000, .f32⟩
  | 54 => ⟨S800000, .f32⟩
  | 55 => ⟨S800000, .f32⟩
  | 56 => ⟨S800000x1, .f32⟩
  | 57 => ⟨S800000x4, .f32⟩
  | 58 => ⟨S800000x1, .f32⟩
  | 59 => ⟨S800000, .f32⟩
  | 60 => ⟨S_, .f32⟩
  | 61 => ⟨S800000, .f32⟩
  | 62 => ⟨S800000, .f32⟩
  | 63 => ⟨S_, .f32⟩
  | 64 => ⟨S800000, .f32⟩
  | 65 => ⟨S800000, .f32⟩
  | 66 => ⟨S800000, .f32⟩
  | 67 => ⟨S800000, .f32⟩
  | 68 => ⟨S_, .f32⟩
  | 69 => ⟨S800000, .f32⟩
  | 70 => ⟨S800000, .f32⟩
  | 71 => ⟨S800000, .f32⟩
  | 72 => ⟨S800000, .f32⟩
  | 73 => ⟨S800000x1, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S800000x130, .f32⟩
  | 93 => ⟨S800000x64, .f32⟩
  | 94 => ⟨S_, .f32⟩
  | 95 => ⟨S64, .f32⟩
  | 96 => ⟨S_, .f32⟩
  | 97 => ⟨S64, .f32⟩
  | 98 => ⟨S64, .f32⟩
  | 99 => ⟨S_, .i32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S800000x64, .f32⟩
  | 107 => ⟨S800000x64, .f32⟩
  | 108 => ⟨S800000x64, .f32⟩
  | 109 => ⟨S_, .f32⟩
  | 110 => ⟨S_, .f32⟩
  | 111 => ⟨S_, .f32⟩
  | 112 => ⟨S_, .f32⟩
  | 113 => ⟨S64, .f32⟩
  | 114 => ⟨S64, .f32⟩
  | 115 => ⟨S64, .f32⟩
  | 116 => ⟨S_, .f32⟩
  | 117 => ⟨S_, .i1⟩
  | 118 => ⟨S_, .f32⟩
  | 119 => ⟨S_, .f32⟩
  | 120 => ⟨S64, .f32⟩
  | 121 => ⟨S64, .f32⟩
  | 122 => ⟨S1x64, .f32⟩
  | 123 => ⟨S800000x64, .f32⟩
  | 124 => ⟨S800000x64, .f32⟩
  | 125 => ⟨S_, .f32⟩
  | 126 => ⟨S64, .f32⟩
  | 127 => ⟨S64, .f32⟩
  | _ => ⟨S50000x64, .f32⟩

abbrev hbmTy0_1 (i : Nat) : BufTy := match i % 128 with
  | 0 => ⟨S64, .f32⟩
  | 1 => ⟨S1x64, .f32⟩
  | 2 => ⟨S800000x64, .f32⟩
  | 3 => ⟨S800000x64, .f32⟩
  | 4 => ⟨S1x64, .f32⟩
  | 5 => ⟨S800000x64, .f32⟩
  | 6 => ⟨S800000x64, .f32⟩
  | 7 => ⟨S1x64, .f32⟩
  | 8 => ⟨S800000x64, .f32⟩
  | 9 => ⟨S800000x64, .f32⟩
  | 10 => ⟨S_, .f32⟩
  | 11 => ⟨S800000x64, .f32⟩
  | 12 => ⟨S800000x64, .f32⟩
  | 13 => ⟨S800000x64, .f32⟩
  | 14 => ⟨S1x64, .f32⟩
  | 15 => ⟨S800000x64, .f32⟩
  | 16 => ⟨S800000x64, .f32⟩
  | 17 => ⟨S_, .f32⟩
  | 18 => ⟨S800000x64, .f32⟩
  | 19 => ⟨S800000x64, .f32⟩
  | 20 => ⟨S800000x1, .f32⟩
  | 21 => ⟨S1x1, .f32⟩
  | 22 => ⟨S800000x1, .f32⟩
  | 23 => ⟨S800000x1, .f32⟩
  | 24 => ⟨S800000x1, .f32⟩
  | 25 => ⟨S800000x1, .f32⟩
  | 26 => ⟨S_, .f32⟩
  | 27 => ⟨S800000x1, .f32⟩
  | 28 => ⟨S800000x1, .f32⟩
  | 29 => ⟨S_, .f32⟩
  | 30 => ⟨S800000x1, .f32⟩
  | 31 => ⟨S800000x1, .f32⟩
  | 32 => ⟨S800000x64, .f32⟩
  | 33 => ⟨S800000x64, .f32⟩
  | 34 => ⟨S800000x64, .f32⟩
  | 35 => ⟨S1x64, .f32⟩
  | 36 => ⟨S800000x64, .f32⟩
  | 37 => ⟨S800000x64, .f32⟩
  | 38 => ⟨S_, .f32⟩
  | 39 => ⟨S800000x64, .f32⟩
  | 40 => ⟨S800000x64, .f32⟩
  | 41 => ⟨S800000x1, .f32⟩
  | 42 => ⟨S800000x4, .f32⟩
  | 43 => ⟨S800000x4, .f32⟩
  | 44 => ⟨S_, .f32⟩
  | 45 => ⟨S_, .f32⟩
  | 46 => ⟨S_, .f32⟩
  | 47 => ⟨S800000x4, .f32⟩
  | 48 => ⟨S800000x4, .f32⟩
  | 49 => ⟨S_, .f32⟩
  | 50 => ⟨S800000x4, .f32⟩
  | 51 => ⟨S800000x4, .f32⟩
  | 52 => ⟨S_, .f32⟩
  | 53 => ⟨S50000x4, .f32⟩
  | 54 => ⟨S800000x1, .i32⟩
  | 55 => ⟨S50000x4, .f32⟩
  | 56 => ⟨S_, .f32⟩
  | 57 => ⟨S800000, .f32⟩
  | 58 => ⟨S_, .f32⟩
  | 59 => ⟨S50000, .f32⟩
  | 60 => ⟨S800000x1, .i32⟩
  | 61 => ⟨S50000, .f32⟩
  | 62 => ⟨S_, .f32⟩
  | 63 => ⟨S50000, .f32⟩
  | 64 => ⟨S50000, .f32⟩
  | 65 => ⟨S50000x1, .f32⟩
  | 66 => ⟨S50000x4, .f32⟩
  | 67 => ⟨S50000x4, .f32⟩
  | 68 => ⟨S_, .f32⟩
  | 69 => ⟨S50000x4, .f32⟩
  | 70 => ⟨S50000x4, .f32⟩
  | 71 => ⟨S50000x4, .f32⟩
  | 72 => ⟨S_, .f32⟩
  | 73 => ⟨S50000x64, .f32⟩
  | 74 => ⟨S800000x1, .i32⟩
  | 75 => ⟨S50000x64, .f32⟩
  | 76 => ⟨S50000x136, .f32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S64, .f32⟩
  | 83 => ⟨S_, .f32⟩
  | 84 => ⟨S64, .f32⟩
  | 85 => ⟨S64, .f32⟩
  | 86 => ⟨S_, .i32⟩
  | 87 => ⟨S_, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S50000x64, .f32⟩
  | 94 => ⟨S50000x64, .f32⟩
  | 95 => ⟨S50000x64, .f32⟩
  | 96 => ⟨S_, .f32⟩
  | 97 => ⟨S_, .f32⟩
  | 98 => ⟨S_, .f32⟩
  | 99 => ⟨S_, .f32⟩
  | 100 => ⟨S64, .f32⟩
  | 101 => ⟨S64, .f32⟩
  | 102 => ⟨S64, .f32⟩
  | 103 => ⟨S_, .f32⟩
  | 104 => ⟨S_, .i1⟩
  | 105 => ⟨S_, .f32⟩
  | 106 => ⟨S_, .f32⟩
  | 107 => ⟨S64, .f32⟩
  | 108 => ⟨S64, .f32⟩
  | 109 => ⟨S1x64, .f32⟩
  | 110 => ⟨S50000x64, .f32⟩
  | 111 => ⟨S50000x64, .f32⟩
  | 112 => ⟨S_, .f32⟩
  | 113 => ⟨S64, .f32⟩
  | 114 => ⟨S64, .f32⟩
  | 115 => ⟨S64, .f32⟩
  | 116 => ⟨S1x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x64, .f32⟩

abbrev hbmTy0_2 (i : Nat) : BufTy := match i % 128 with
  | 0 => ⟨S50000x64, .f32⟩
  | 1 => ⟨S1x64, .f32⟩
  | 2 => ⟨S50000x64, .f32⟩
  | 3 => ⟨S50000x64, .f32⟩
  | 4 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_8 : Ref sig .tc := ⟨.hbm, 74, rfl⟩
abbrev main_v43 : Ref sig .tc := ⟨.hbm, 75, rfl⟩
abbrev main_v44 : Ref sig .tc := ⟨.hbm, 76, rfl⟩
abbrev main_c_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_10 : Ref sig .tc := ⟨.hbm, 83, rfl⟩
abbrev main_v50 : Ref sig .tc := ⟨.hbm, 84, rfl⟩
abbrev main_v51 : Ref sig .tc := ⟨.hbm, 85, rfl⟩
abbrev main_c_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_v59 : Ref sig .tc := ⟨.hbm, 95, rfl⟩
abbrev main_cst_13 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_call0_cst : Ref sig .tc := ⟨.hbm, 100, rfl⟩
abbrev main_call0_v0 : Ref sig .tc := ⟨.hbm, 101, rfl⟩
abbrev main_call0_v1 : Ref sig .tc := ⟨.hbm, 102, rfl⟩
abbrev main_call0_cst_0 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_v6 : Ref sig .tc := ⟨.hbm, 108, rfl⟩
abbrev main_call0_v7 : Ref sig .tc := ⟨.hbm, 109, rfl⟩
abbrev main_call0_cst_1 : Ref sig .tc := ⟨.hbm, 110, rfl⟩
abbrev main_call0_v8 : Ref sig .tc := ⟨.hbm, 111, rfl⟩
abbrev main_call0_cst_2 : Ref sig .tc := ⟨.hbm, 112, rfl⟩
abbrev main_call0_v9 : Ref sig .tc := ⟨.hbm, 113, rfl⟩
abbrev main_call0_v10 : Ref sig .tc := ⟨.hbm, 114, rfl⟩
abbrev main_call0_v11 : Ref sig .tc := ⟨.hbm, 115, rfl⟩
abbrev main_call0_cst_3 : Ref sig .tc := ⟨.hbm, 116, rfl⟩
abbrev main_call0_v12 : Ref sig .tc := ⟨.hbm, 117, rfl⟩
abbrev main_call0_cst_4 : Ref sig .tc := ⟨.hbm, 118, rfl⟩
abbrev main_call0_call0_v0 : Ref sig .tc := ⟨.hbm, 119, rfl⟩
abbrev main_call0_call0_v1 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_15 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_call1_cst : Ref sig .tc := ⟨.hbm, 138, rfl⟩
abbrev main_call1_v0 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_call2_cst : Ref sig .tc := ⟨.hbm, 145, rfl⟩
abbrev main_call2_v0 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_16 : Ref sig .tc := ⟨.hbm, 154, rfl⟩
abbrev main_v90 : Ref sig .tc := ⟨.hbm, 155, rfl⟩
abbrev main_v91 : Ref sig .tc := ⟨.hbm, 156, rfl⟩
abbrev main_cst_17 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_call3_cst : Ref sig .tc := ⟨.hbm, 166, rfl⟩
abbrev main_call3_v0 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_cst_18 : Ref sig .tc := ⟨.hbm, 172, rfl⟩
abbrev main_cst_19 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_v104 : Ref sig .tc := ⟨.hbm, 179, rfl⟩
abbrev main_cst_20 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_cst_21 : Ref sig .tc := ⟨.hbm, 184, rfl⟩
abbrev main_v108 : Ref sig .tc := ⟨.hbm, 185, rfl⟩
abbrev main_cst_22 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_23 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_cst_24 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_cst_25 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_cst_26 : Ref sig .tc := ⟨.hbm, 209, rfl⟩
abbrev main_v128 : Ref sig .tc := ⟨.hbm, 210, rfl⟩
abbrev main_cst_27 : Ref sig .tc := ⟨.hbm, 211, rfl⟩
abbrev main_v129 : Ref sig .tc := ⟨.hbm, 212, rfl⟩
abbrev main_v130 : Ref sig .tc := ⟨.hbm, 213, rfl⟩
abbrev main_c_28 : Ref sig .tc := ⟨.hbm, 214, rfl⟩
abbrev main_call5_cst : Ref sig .tc := ⟨.hbm, 215, rfl⟩
abbrev main_call5_v0 : Ref sig .tc := ⟨.hbm, 216, rfl⟩
abbrev main_call5_v1 : Ref sig .tc := ⟨.hbm, 217, rfl⟩
abbrev main_call5_cst_0 : Ref sig .tc := ⟨.hbm, 218, rfl⟩
abbrev main_call5_v2 : Ref sig .tc := ⟨.hbm, 219, rfl⟩
abbrev main_call5_v3 : Ref sig .tc := ⟨.hbm, 220, rfl⟩
abbrev main_call5_v4 : Ref sig .tc := ⟨.hbm, 221, rfl⟩
abbrev main_call5_v5 : Ref sig .tc := ⟨.hbm, 222, rfl⟩
abbrev main_call5_v6 : Ref sig .tc := ⟨.hbm, 223, rfl⟩
abbrev main_call5_v7 : Ref sig .tc := ⟨.hbm, 224, rfl⟩
abbrev main_call5_cst_1 : Ref sig .tc := ⟨.hbm, 225, rfl⟩
abbrev main_call5_v8 : Ref sig .tc := ⟨.hbm, 226, rfl⟩
abbrev main_call5_cst_2 : Ref sig .tc := ⟨.hbm, 227, rfl⟩
abbrev main_call5_v9 : Ref sig .tc := ⟨.hbm, 228, rfl⟩
abbrev main_call5_v10 : Ref sig .tc := ⟨.hbm, 229, rfl⟩
abbrev main_call5_v11 : Ref sig .tc := ⟨.hbm, 230, rfl⟩
abbrev main_call5_cst_3 : Ref sig .tc := ⟨.hbm, 231, rfl⟩
abbrev main_call5_v12 : Ref sig .tc := ⟨.hbm, 232, rfl⟩
abbrev main_call5_cst_4 : Ref sig .tc := ⟨.hbm, 233, rfl⟩
abbrev main_call5_call0_v0 : Ref sig .tc := ⟨.hbm, 234, rfl⟩
abbrev main_call5_call0_v1 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_cst_29 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_call6_cst : Ref sig .tc := ⟨.hbm, 253, rfl⟩
abbrev main_call6_v0 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x4_S800000x1_0_0 : S800000x4.Slices ![0, 0] S800000x1
  shapeCasts_S800000x1_S800000 : S800000x1.ShapeCasts S800000
  reducesTo_S800000x4_S800000_d1 : S800000x4.ReducesTo [1] S800000
  h_S_ : 0 < S_.numel
  concatenates_S800000x64_S800000x64_S800000x1_S800000x1_S800000x130_d1 : Shape.Concatenates [S800000x64, S800000x64, S800000x1, S800000x1] S800000x130 1
  reducesTo_S800000x64_S64_d0 : S800000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  bcast_S800000x1_S800000x4_0_1 : S800000x1.BroadcastsInDim S800000x4 (![0, 1] : Fin 2 → Fin S800000x4.rank)
  bcast_S_S800000x4 : S_.BroadcastsInDim S800000x4 (![] : Fin 0 → Fin S800000x4.rank)
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S50000x64 : S_.BroadcastsInDim S50000x64 (![] : Fin 0 → Fin S50000x64.rank)
  concatenates_S50000x64_S50000x64_S50000x8_S50000x136_d1 : Shape.Concatenates [S50000x64, S50000x64, S50000x8] S50000x136 1
  bcast_S1x64_S50000x64_0_1 : S1x64.BroadcastsInDim S50000x64 (![0, 1] : Fin 2 → Fin S50000x64.rank)
  reducesTo_S50000x64_S64_d0 : S50000x64.ReducesTo [0] S64
  gather_S50000x4_S800000x1_S800000x4_1_0_n_n_0_1_14_wf : GatherDims.WF S50000x4 S800000x1 S800000x4 [1] [0] [] [0] [] 1 ![1, 4]
  gather_S50000x64_S800000x1_S800000x64_1_0_n_n_0_1_164_wf : GatherDims.WF S50000x64 S800000x1 S800000x64 [1] [0] [] [0] [] 1 ![1, 64]
  dot_S800000x130_S130x64_S800000x64_1_0_0_1_n_n_wf : DotDims.WF S800000x130 S130x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  scatter_S50000x4_S800000x1_S800000x4_1_0_0_1_wf : ScatterDims.WF S50000x4 S800000x1 S800000x4 [1] [0] [0] 1
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  dot_S50000x136_S136x64_S50000x64_1_0_0_1_n_n_wf : DotDims.WF S50000x136 S136x64 S50000x64 [1] [0] [0] [1] [] []
  dot_S50000x64_S64x64_S50000x64_1_0_0_1_n_n_wf : DotDims.WF S50000x64 S64x64 S50000x64 [1] [0] [0] [1] [] []

variable [Facts₀]

def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x130_S130x64_S800000x64_1_0_0_1_n_n : DotDims S800000x130 S130x64 S800000x64 where
  lhsContracting := [1]
  rhsContracting := [0]
  lhsNonContracting := [0]
  rhsNonContracting := [1]
  lhsBatch := []
  rhsBatch := []
  wf := dot_S800000x130_S130x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x136_S136x64_S50000x64_1_0_0_1_n_n : DotDims S50000x136 S136x64 S50000x64 where
  lhsContracting := [1]
  rhsContracting := [0]
  lhsNonContracting := [0]
  rhsNonContracting := [1]
  lhsBatch := []
  rhsBatch := []
  wf := dot_S50000x136_S136x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.WData.lean ====
import proofs.«110093_j8770323219157_1_alg».proof.Proof.Gen.Kernel.Launch
import proofs.«110093_j8770323219157_1_alg».proof.Proof.Gen.Kernel.Skeleton
import proofs.«110093_j8770323219157_1_alg».proof.Proof.Gen.Kernel.Points
import proofs.«110093_j8770323219157_1_alg».proof.Proof.Gen.Kernel.Regions
import Idealize.ShloMosaic.Lib.Pipeline.FrameBody
import Idealize.ShloMosaic.Lib.Pipeline.Frame
import Idealize.ShloMosaic.Lib.Pipeline.Regions
import Idealize.ShloMosaic.Lib.Pipeline.Kit
import Idealize.ShloMosaic.Lib.Tactic

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- A TensorCore's buffer contents, per core: what a region's proof data are stated at. -/
abbrev VT (F : FTy → Type) [BitOps F] : Type := (c : Dev nD) → (b : Ref sig .tc) → Buf (Elt F) ((c : Thread nD τ).loc b)

section Regions
variable (V : VT F)

/-! # Region 0: the edge statistics (grid 400; sum and sum of squares carried in two scratch rows) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's accumulation: the pair (sum, sum of squares) after the body at point `t`, from the pair before it. -/
def step0 (c : Dev nD) (t : Fin cfg0.N) (a : Vec F S1x64 .f32 × Vec F S1x64 .f32) : Vec F S1x64 .f32 × Vec F S1x64 .f32 :=
  (k0_pay14 (k0_pay5 (iblk0 V c 0 t)) (k0_pay6 (iblk0 V c 1 t)) (k0_pay9 (iblk0 V c 2 t) (iblk0 V c 3 t)) (k0_pay11 (iblk0 V c 2 t) (iblk0 V c 3 t)) (k0_pay12 (iblk0 V c 2 t) (iblk0 V c 3 t)) (iblk0 V c 4 t) a.1,
   k0_pay15 (k0_pay5 (iblk0 V c 0 t)) (k0_pay6 (iblk0 V c 1 t)) (k0_pay9 (iblk0 V c 2 t) (iblk0 V c 3 t)) (k0_pay11 (iblk0 V c 2 t) (iblk0 V c 3 t)) (k0_pay12 (iblk0 V c 2 t) (iblk0 V c 3 t)) (iblk0 V c 4 t) a.2)

/-- The two scratch rows after `n` points: zeroed at the first point, then one `step0` per point. -/
def acc0 (c : Dev nD) : ℕ → Vec F S1x64 .f32 × Vec F S1x64 .f32
  | 0 => (k0_pay3, k0_pay4)
  | n + 1 => if h : n < cfg0.N then step0 V c ⟨n, h⟩ (acc0 c n) else acc0 c n

theorem acc0_zero (c : Dev nD) : acc0 V c 0 = (k0_pay3, k0_pay4) := rfl
theorem acc0_succ (c : Dev nD) (t : Fin cfg0.N) : acc0 V c (t.val + 1) = step0 V c t (acc0 V c t.val) := by
  obtain ⟨n, hn⟩ := t; exact dif_pos hn

/-- The mean row and the variance row the last point stores, from the accumulated pair. -/
def mean0 (c : Dev nD) (n : ℕ) : Vec F S1x64 .f32 := k0_pay1 (acc0 V c n).1
def var0 (c : Dev nD) (n : ℕ) : Vec F S1x64 .f32 := k0_pay2 (acc0 V c n).1 (acc0 V c n).2

/-- The region invariant before position `n`: before the first point every scoped buffer that is no staging buffer at
    anything; afterwards the two scratch rows at the accumulated pair, the other such buffers at anything; the generator
    register at some state throughout. -/
def Phi0 (c : Dev nD) : ℕ → sProp 𝕄
  | 0 => Pipeline.ΦA spec0 c
  | n + 1 => iprop((owns (c : Thread nD τ) (Memref.whole cc0_scratch0) fullShare (acc0 V c (n + 1)).1
        ∗ owns (c : Thread nD τ) (Memref.whole cc0_scratch1) fullShare (acc0 V c (n + 1)).2)
      ∗ Pipeline.scopedRestBut (Ix := Unit) (Name := ℕ) (U := UR sig nD τ) (Lvl := ℕ) (Val := Elt F) spec0 c [cc0_scratch0, cc0_scratch1]
      ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => mean0 V c (t.val + 1)
    | ⟨6, _⟩ => var0 V c (t.val + 1)
  Φ t := Phi0 V c t.val
  q _ := fullShare
  owed _ := 0

/-! # Region 1: the edge MLP (grid 400; a function of the point's blocks alone) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden activation of the edge MLP at point `t` (the value both outputs are computed from). -/
def hid1 (c : Dev nD) (t : Fin cfg1.N) : Vec F S2000x64 .f32 :=
  k1_pay9 (k1_pay1 (iblk1 V c 0 t)) (k1_pay2 (iblk1 V c 1 t)) (k1_pay6 (iblk1 V c 2 t) (iblk1 V c 3 t)) (k1_pay7 (iblk1 V c 2 t) (iblk1 V c 3 t)) (k1_pay8 (iblk1 V c 2 t) (iblk1 V c 3 t)) 1065353216#32
    (iblk1 V c 4 t) (iblk1 V c 9 t) (iblk1 V c 10 t) (iblk1 V c 5 t) (iblk1 V c 6 t) (iblk1 V c 7 t)
/-- What the body leaves in the message window (16) and in the translation window (17) at point `t`. -/
def out1_16 (c : Dev nD) (t : Fin cfg1.N) : Vec F S2000x64 .f32 := k1_pay10 (hid1 V c t) (iblk1 V c 8 t) (iblk1 V c 11 t) (iblk1 V c 12 t)
def out1_17 (c : Dev nD) (t : Fin cfg1.N) : Vec F S2000x4 .f32 :=
  k1_pay11 (k1_pay5 (iblk1 V c 2 t) (iblk1 V c 3 t)) (hid1 V c t) (iblk1 V c 8 t) (iblk1 V c 11 t) (iblk1 V c 12 t) (iblk1 V c 13 t) (iblk1 V c 14 t) (iblk1 V c 15 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 V c t
    | ⟨17, _⟩ => out1_17 V c t
    | ⟨_ + 18, h⟩ => absurd h (Nat.not_lt.2 (Nat.le_add_left _ _))
  Φ _ := Pipeline.ΦA spec1 c
  q _ := fullShare
  owed _ := 0

/-! # Region 2: the node statistics (grid 25; the same carried pair) -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def step2 (c : Dev nD) (t : Fin cfg2.N) (a : Vec F S1x64 .f32 × Vec F S1x64 .f32) : Vec F S1x64 .f32 × Vec F S1x64 .f32 :=
  (k2_pay6 (iblk2 V c 0 t) (iblk2 V c 1 t) (iblk2 V c 2 t) (iblk2 V c 3 t) (iblk2 V c 4 t) a.1,
   k2_pay7 (iblk2 V c 0 t) (iblk2 V c 1 t) (iblk2 V c 2 t) (iblk2 V c 3 t) (iblk2 V c 4 t) a.2)

def acc2 (c : Dev nD) : ℕ → Vec F S1x64 .f32 × Vec F S1x64 .f32
  | 0 => (k2_pay3, k2_pay4)
  | n + 1 => if h : n < cfg2.N then step2 V c ⟨n, h⟩ (acc2 c n) else acc2 c n

theorem acc2_zero (c : Dev nD) : acc2 V c 0 = (k2_pay3, k2_pay4) := rfl
theorem acc2_succ (c : Dev nD) (t : Fin cfg2.N) : acc2 V c (t.val + 1) = step2 V c t (acc2 V c t.val) := by
  obtain ⟨n, hn⟩ := t; exact dif_pos hn

def mean2 (c : Dev nD) (n : ℕ) : Vec F S1x64 .f32 := k2_pay1 (acc2 V c n).1
def var2 (c : Dev nD) (n : ℕ) : Vec F S1x64 .f32 := k2_pay2 (acc2 V c n).1 (acc2 V c n).2

def Phi2 (c : Dev nD) : ℕ → sProp 𝕄
  | 0 => Pipeline.ΦA spec2 c
  | n + 1 => iprop((owns (c : Thread nD τ) (Memref.whole cc2_scratch0) fullShare (acc2 V c (n + 1)).1
        ∗ owns (c : Thread nD τ) (Memref.whole cc2_scratch1) fullShare (acc2 V c (n + 1)).2)
      ∗ Pipeline.scopedRestBut (Ix := Unit) (Name := ℕ) (U := UR sig nD τ) (Lvl := ℕ) (Val := Elt F) spec2 c [cc2_scratch0, cc2_scratch1]
      ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => mean2 V c (t.val + 1)
    | ⟨6, _⟩ => var2 V c (t.val + 1)
  Φ t := Phi2 V c t.val
  q _ := fullShare
  owed _ := 0

/-! # Region 3: the node MLP (grid 25; a function of the point's blocks alone) -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output window (11) at point `t`. -/
def out3_11 (c : Dev nD) (t : Fin cfg3.N) : Vec F S2000x64 .f32 :=
  k3_pay1 (iblk3 V c 0 t) (k3_pay2 (iblk3 V c 0 t) (iblk3 V c 1 t) (iblk3 V c 2 t) (iblk3 V c 3 t) (iblk3 V c 4 t) (iblk3 V c 7 t) (iblk3 V c 8 t) (iblk3 V c 5 t) (iblk3 V c 6 t)) (iblk3 V c 9 t) (iblk3 V c 10 t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 V c t
  Φ _ := Pipeline.ΦA spec3 c
  q _ := fullShare
  owed _ := 0

end Regions

/-! # What the regions leave, and the proof data at the run's own contents -/

variable (m : (ℓ : Loc nD τ sig) → Buf (Elt F) ℓ)

/-- Contents for a buffer no region's output: never read. -/
def obase : (r : Ref sig .tc) → (c : Dev nD) → Buf (Elt F) ((c : Thread nD τ).loc r) := fun r c => m ((c : Thread nD τ).loc r)

/-- Region 0's entry contents. -/
abbrev Vin0 : VT F := fun c b => V1 m c b
/-- What region 0 leaves in its two output arrays. -/
def o2 : (r : Ref sig .tc) → (c : Dev nD) → Buf (Elt F) ((c : Thread nD τ).loc r) :=
  Function.update (Function.update (obase m) main_v37_0 (fun c => (dat0 (Vin0 m) c).arrAt 5 cfg0.N)) main_v37_1 (fun c => (dat0 (Vin0 m) c).arrAt 6 cfg0.N)
/-- Region 1's entry contents. -/
abbrev Vin1 : VT F := fun c b => V2 m (fun _ => o2 m) c b
def o3 : (r : Ref sig .tc) → (c : Dev nD) → Buf (Elt F) ((c : Thread nD τ).loc r) :=
  Function.update (Function.update (obase m) main_v38_0 (fun c => (dat1 (Vin1 m) c).arrAt 16 cfg1.N)) main_v38_1 (fun c => (dat1 (Vin1 m) c).arrAt 17 cfg1.N)
/-- Region 2's entry contents. -/
abbrev Vin2 : VT F := fun c b => V4 m (fun | 3 => o3 m | _ => o2 m) c b
def o5 : (r : Ref sig .tc) → (c : Dev nD) → Buf (Elt F) ((c : Thread nD τ).loc r) :=
  Function.update (Function.update (obase m) main_v57_0 (fun c => (dat2 (Vin2 m) c).arrAt 5 cfg2.N)) main_v57_1 (fun c => (dat2 (Vin2 m) c).arrAt 6 cfg2.N)
/-- Region 3's entry contents. -/
abbrev Vin3 : VT F := fun c b => V5 m (fun | 3 => o3 m | 5 => o5 m | _ => o2 m) c b
def o6 : (r : Ref sig .tc) → (c : Dev nD) → Buf (Elt F) ((c : Thread nD τ).loc r) :=
  Function.update (obase m) main_v58 (fun c => (dat3 (Vin3 m) c).arrAt 11 cfg3.N)

/-- What the regions leave in their output arrays: the unknowns of the generated valuations, instantiated. -/
def outs : Gen.Outs (F := F) := fun
  | 3 => o3 m
  | 5 => o5 m
  | 6 => o6 m
  | _ => o2 m

theorem Vin1_eq : (fun c b => V2 m (outs m) c b : VT F) = Vin1 m := rfl
theorem Vin2_eq : (fun c b => V4 m (outs m) c b : VT F) = Vin2 m := rfl
theorem Vin3_eq : (fun c b => V5 m (outs m) c b : VT F) = Vin3 m := rfl

/-- Every pipeline's proof data, each at its region's entry contents: a literal match on the pipeline. -/
def pdats : (p : Fin 4) → (c : Dev nD) → Dat τ (Elt F) Unit ℕ (UR sig nD τ) ℕ (cfgs p) c
  | ⟨0, _⟩ => fun c => dat0 (fun c b => V1 m c b) c
  | ⟨1, _⟩ => fun c => dat1 (fun c b => V2 m (outs m) c b) c
  | ⟨2, _⟩ => fun c => dat2 (fun c b => V4 m (outs m) c b) c
  | ⟨3, _⟩ => fun c => dat3 (fun c b => V5 m (outs m) c b) c

end Cert.Kernel.WRun

end
-- ==== Proof.WLemmas.lean ====
import Idealize.ShloMosaic.Lib.Pipeline.FrameBody
import proofs.«110093_j8770323219157_1_alg».proof.Proof.Gen.Kernel
import proofs.«110093_j8770323219157_1_alg».proof.Proof.Gen.Kernel.Regions
import Idealize.ShloMosaic.Lib.Pipeline.Regions
import Idealize.ShloMosaic.Lib.Pipeline.Frame

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

/-- A store through the whole-shape unit rectangle at offset zero reads back as its payload, whatever was there. -/
theorem read_writes_full {sig' : RefSig} {κ : Kind} {sp : Space} {s : Shape} {e : EltTy} {Val : EltTy → Type} [∀ e, Nonempty (Val e)]
    (v : View sig' κ sp s e) (f : v.ty.Contents Val) (off : Fin s.rank → ℕ) (hoff : ∀ a, off a = 0)
    (inb : ∀ a, off a + s.size a ≤ s.size a) (p : (Rect.unit off s.size inb).shape.Idx → Val e) :
    v.read Val (v.writes Val f [⟨Rect.unit off s.size inb, p⟩]) = p := by
  funext y
  have hy : y ∈ (Rect.unit off s.size inb).set :=
    Rect.mem_set_unit.mpr fun a => ⟨by rw [hoff]; exact Nat.zero_le _, by rw [hoff, Nat.zero_add]; exact (y a).isLt⟩
  obtain ⟨x, rfl⟩ := (Rect.unit off s.size inb).exists_idx_of_mem hy
  refine (View.read_writes_cons_emb (v := v) (f := f) (Rect.unit off s.size inb) p [] x).trans ?_
  congr 1
  funext a
  apply Fin.ext
  simp [LoadRect.idx_apply, hoff]

/-- A load through the whole-shape unit rectangle at offset zero reads the contents as they are. -/
theorem readAt_full {sig' : RefSig} {κ : Kind} {sp : Space} {s : Shape} {e : EltTy} {Val : EltTy → Type}
    (v : View sig' κ sp s e) (f : v.ty.Contents Val) (off : Fin s.rank → ℕ) (hoff : ∀ a, off a = 0)
    (inb : ∀ a, off a + s.size a ≤ s.size a) :
    v.readAt Val (Rect.unit off s.size inb).toLoadRect f = v.read Val f := by
  funext x
  show v.read Val f ((Rect.unit off s.size inb).idx x) = v.read Val f x
  congr 1
  funext a
  apply Fin.ext
  simp [LoadRect.idx_apply, hoff]

theorem off00 : ∀ a : Fin 2, (![0, 0] : Fin 2 → ℕ) a = 0 := by decide

/-! The run's fixed choices: no variant, no level assigned (no core owes another anything). -/

abbrev 𝒱₀ : Variants := Variants.none
abbrev L : GSem nD τ sig → Finset Unit := fun _ => ∅
abbrev lv : GSem nD τ sig → Unit → ℕ := fun _ _ => 0
/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.WRun

end
-- ==== Proof.WBody0.lean ====
import proofs.«110093_j8770323219157_1_alg».proof.Proof.WData
import proofs.«110093_j8770323219157_1_alg».proof.Proof.WLemmas
import Idealize.ShloMosaic.Lib.Exec

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : VT F)

/-! ## Reading back through whole-shape rectangles -/

/-- A store through the whole-shape unit rectangle reads back as its payload, whatever the earlier stores were. -/
theorem read_writes_full_cons0 {sig' : RefSig} {κ : Kind} {sp : Space} {s : Shape} {e : EltTy} {Val : EltTy → Type} [∀ e, Nonempty (Val e)]
    (v : View sig' κ sp s e) (f : v.ty.Contents Val) (off : Fin s.rank → ℕ) (hoff : ∀ a, off a = 0)
    (inb : ∀ a, off a + s.size a ≤ s.size a) (p : (Rect.unit off s.size inb).shape.Idx → Val e) (L : List (View.Piece Val s e)) :
    v.read Val (v.writes Val f (⟨Rect.unit off s.size inb, p⟩ :: L)) = p := by
  funext y
  have hy : y ∈ (Rect.unit off s.size inb).set :=
    Rect.mem_set_unit.mpr fun a => ⟨by rw [hoff]; exact Nat.zero_le _, by rw [hoff, Nat.zero_add]; exact (y a).isLt⟩
  obtain ⟨x, rfl⟩ := (Rect.unit off s.size inb).exists_idx_of_mem hy
  refine (View.read_writes_cons_emb (v := v) (f := f) (Rect.unit off s.size inb) p L x).trans ?_
  congr 1
  funext a
  apply Fin.ext
  simp [LoadRect.idx_apply, hoff]

/-- A whole-shape load after a whole-shape store reads the store's payload. -/
theorem readCov_full0 {sig' : RefSig} {κ : Kind} {sp : Space} {s : Shape} {e : EltTy} {Val : EltTy → Type} [∀ e, Nonempty (Val e)]
    (v : View sig' κ sp s e) (off : Fin s.rank → ℕ) (hoff : ∀ a, off a = 0)
    (inb : ∀ a, off a + s.size a ≤ s.size a) (p : (Rect.unit off s.size inb).shape.Idx → Val e) (L : List (View.Piece Val s e)) :
    v.readCov (⟨Rect.unit off s.size inb, p⟩ :: L) (Rect.unit off s.size inb).toLoadRect = p := by
  unfold View.readCov
  rw [readAt_full v _ off hoff inb, read_writes_full_cons0 v _ off hoff inb p L]

/-! ## The proof data projected -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem after0_3 (c : Dev nD) (t : Fin cfg0.N) : (dat0 V c).after 3 t = iblk0 V c 3 t := by dsimp only [dat0]
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem after0_4 (c : Dev nD) (t : Fin cfg0.N) : (dat0 V c).after 4 t = iblk0 V c 4 t := by dsimp only [dat0]
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem after0_5 (c : Dev nD) (t : Fin cfg0.N) : (dat0 V c).after 5 t = mean0 V c (t.val + 1) := by dsimp only [dat0]
theorem after0_6 (c : Dev nD) (t : Fin cfg0.N) : (dat0 V c).after 6 t = var0 V c (t.val + 1) := by dsimp only [dat0]

theorem Phi0_succ (c : Dev nD) (n : ℕ) : Phi0 V c (n + 1)
    = iprop((owns (c : Thread nD τ) (Memref.whole cc0_scratch0) fullShare (acc0 V c (n + 1)).1
        ∗ owns (c : Thread nD τ) (Memref.whole cc0_scratch1) fullShare (acc0 V c (n + 1)).2)
      ∗ Pipeline.scopedRestBut (Ix := Unit) (Name := ℕ) (U := UR sig nD τ) (Lvl := ℕ) (Val := Elt F) spec0 c [cc0_scratch0, cc0_scratch1]
      ∗ ∃ r, prngReg c r) := rfl
theorem Phi0_pos (c : Dev nD) (n : ℕ) (h : n ≠ 0) : Phi0 V c n
    = iprop((owns (c : Thread nD τ) (Memref.whole cc0_scratch0) fullShare (acc0 V c n).1
        ∗ owns (c : Thread nD τ) (Memref.whole cc0_scratch1) fullShare (acc0 V c n).2)
      ∗ Pipeline.scopedRestBut (Ix := Unit) (Name := ℕ) (U := UR sig nD τ) (Lvl := ℕ) (Val := Elt F) spec0 c [cc0_scratch0, cc0_scratch1]
      ∗ ∃ r, prngReg c r) := by
  cases n with
  | zero => exact absurd rfl h
  | succ n => rfl

/-! ## The two conditions on the grid point -/

/-- The first point's condition, as the kernel computes it, -/
abbrev condF0 (i : grid0.Coords) : Prop := (Scalar.cmpi .ne (Scalar.extui (Scalar.cmpi .eq (BitVec.ofNat 32 (i 0).val) 0#32)) 0#32) = 1#1
/-- and the last point's. -/
abbrev condL0 (i : grid0.Coords) : Prop := k0_cond2 i = 1#1

theorem hcondF0 : ∀ t : Fin cfg0.N, condF0 (grid0.coords t) ↔ t.val = 0 :=
  (by decide +kernel : ∀ t : Fin grid0.N, condF0 (grid0.coords t) ↔ t.val = 0)
theorem hcondL0 : ∀ t : Fin cfg0.N, condL0 (grid0.coords t) ↔ t.val = 399 :=
  (by decide +kernel : ∀ t : Fin grid0.N, condL0 (grid0.coords t) ↔ t.val = 399)
theorem idle0_5 : ∀ t : Fin cfg0.N, t.val ≠ 399 → cfg0.idle 5 (grid0.coords t) = true :=
  (by decide +kernel : ∀ t : Fin grid0.N, t.val ≠ 399 → cfg0.idle 5 (grid0.coords t) = true)
theorem idle0_6 : ∀ t : Fin cfg0.N, t.val ≠ 399 → cfg0.idle 6 (grid0.coords t) = true :=
  (by decide +kernel : ∀ t : Fin grid0.N, t.val ≠ 399 → cfg0.idle 6 (grid0.coords t) = true)
theorem live0_5 : ∀ t : Fin cfg0.N, t.val = 399 → cfg0.idle 5 (grid0.coords t) = false :=
  (by decide +kernel : ∀ t : Fin grid0.N, t.val = 399 → cfg0.idle 5 (grid0.coords t) = false)
theorem live0_6 : ∀ t : Fin cfg0.N, t.val = 399 → cfg0.idle 6 (grid0.coords t) = false :=
  (by decide +kernel : ∀ t : Fin grid0.N, t.val = 399 → cfg0.idle 6 (grid0.coords t) = false)
theorem noflush0_5 (t : Fin cfg0.N) (h : t.val ≠ 399) : (cfg0.win 5).flush t = false := by
  have hN : t.val < 400 := lt_of_lt_of_eq t.isLt (show cfg0.N = 400 from N_0)
  cases hf : (cfg0.win 5).flush t with
  | false => rfl
  | true => exact absurd ((flush0_5 t).mp hf) (by omega)
theorem noflush0_6 (t : Fin cfg0.N) (h : t.val ≠ 399) : (cfg0.win 6).flush t = false := by
  have hN : t.val < 400 := lt_of_lt_of_eq t.isLt (show cfg0.N = 400 from N_0)
  cases hf : (cfg0.win 6).flush t with
  | false => rfl
  | true => exact absurd ((flush0_6 t).mp hf) (by omega)

/-! ## The kernel's triples, by case of the point -/

set_option maxHeartbeats 4000000 in
/-- FIRST point: the scratch rows, at anything, are zeroed and then take the point's contribution. -/
theorem sound_kernel0_A (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x4 .f32) (harg3 : arg3.IsWhole) (arg4 : Memref sig .tc .vmem S2000x4 .f32) (harg4 : arg4.IsWhole) (arg5 : Memref sig .tc .vmem S130x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : condF0 i) (hL : ¬ condL0 i)
    (x0 : Vec F S2000x64 .f32) (x1 : Vec F S2000x64 .f32) (x2 : Vec F S2000x4 .f32) (x3 : Vec F S2000x4 .f32) (x4 : Vec F S130x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k0_pay14 (k0_pay5 x0) (k0_pay6 x1) (k0_pay9 x2 x3) (k0_pay11 x2 x3) (k0_pay12 x2 x3) x4 (k0_pay3 (F := F))) ∗ owns (c : Thread nD τ) arg9 fullShare (k0_pay15 (k0_pay5 x0) (k0_pay6 x1) (k0_pay9 x2 x3) (k0_pay11 x2 x3) (k0_pay12 x2 x3) x4 (k0_pay4 (F := F)))) -∗ K ⟨⟩))
      ⊢ wp frame (wpE (defs₀ (F := F)) Variants.none c none) E (cc0__edge_stats_kernel i arg1 harg1 arg2 harg2 arg3 harg3 arg4 harg4 arg5 harg5 arg6 harg6 arg7 harg7 arg8 harg8 arg9 harg9) K := by
  sl_unfold [cc0__edge_stats_kernel]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (read_writes_full_cons0 arg8.view _ ![0, 0] off00 _ _ _).trans ?_
    show k0_pay14 (k0_pay5 (View.readAt (Elt F) arg1.view (Rect.unit (s := S2000x64) ![0, 0] S2000x64.size inb_S2000x64_S2000x64_0_0).toLoadRect f0)) (k0_pay6 (View.readAt (Elt F) arg2.view (Rect.unit (s := S2000x64) ![0, 0] S2000x64.size inb_S2000x64_S2000x64_0_0).toLoadRect f1)) (k0_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay11 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (arg8.view.readCov [⟨(Rect.unit (s := S1x64) ![0, 0] S1x64.size inb_S1x64_S1x64_0_0), (k0_pay3 (F := F))⟩] (Rect.unit (s := S1x64) ![0, 0] S1x64.size inb_S1x64_S1x64_0_0).toLoadRect) = _
    rw [readCov_full0 arg8.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00]
  iexists _; isplitr
  swap; · iexact H8
  ipureintro
  refine (read_writes_full_cons0 arg9.view _ ![0, 0] off00 _ _ _).trans ?_
  show k0_pay15 (k0_pay5 (View.readAt (Elt F) arg1.view (Rect.unit (s := S2000x64) ![0, 0] S2000x64.size inb_S2000x64_S2000x64_0_0).toLoadRect f0)) (k0_pay6 (View.readAt (Elt F) arg2.view (Rect.unit (s := S2000x64) ![0, 0] S2000x64.size inb_S2000x64_S2000x64_0_0).toLoadRect f1)) (k0_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay11 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (arg9.view.readCov [⟨(Rect.unit (s := S1x64) ![0, 0] S1x64.size inb_S1x64_S1x64_0_0), (k0_pay4 (F := F))⟩] (Rect.unit (s := S1x64) ![0, 0] S1x64.size inb_S1x64_S1x64_0_0).toLoadRect) = _
  rw [readCov_full0 arg9.view ![0, 0] off00]
  simp only [readAt_full arg1.view f0 ![0, 0] off00, readAt_full arg2.view f1 ![0, 0] off00, readAt_full arg3.view f2 ![0, 0] off00, readAt_full arg4.view f3 ![0, 0] off00, readAt_full arg5.view f4 ![0, 0] off00]

set_option maxHeartbeats 4000000 in
/-- A MIDDLE point: the scratch rows take the point's contribution. -/
theorem sound_kernel0_B (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x4 .f32) (harg3 : arg3.IsWhole) (arg4 : Memref sig .tc .vmem S2000x4 .f32) (harg4 : arg4.IsWhole) (arg5 : Memref sig .tc .vmem S130x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : ¬ condF0 i) (hL : ¬ condL0 i)
    (x0 : Vec F S2000x64 .f32) (x1 : Vec F S2000x64 .f32) (x2 : Vec F S2000x4 .f32) (x3 : Vec F S2000x4 .f32) (x4 : Vec F S130x64 .f32) (s1 s2 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k0_pay14 (k0_pay5 x0) (k0_pay6 x1) (k0_pay9 x2 x3) (k0_pay11 x2 x3) (k0_pay12 x2 x3) x4 s1) ∗ owns (c : Thread nD τ) arg9 fullShare (k0_pay15 (k0_pay5 x0) (k0_pay6 x1) (k0_pay9 x2 x3) (k0_pay11 x2 x3) (k0_pay12 x2 x3) x4 s2)) -∗ K ⟨⟩))
      ⊢ wp frame (wpE (defs₀ (F := F)) Variants.none c none) E (cc0__edge_stats_kernel i arg1 harg1 arg2 harg2 arg3 harg3 arg4 harg4 arg5 harg5 arg6 harg6 arg7 harg7 arg8 harg8 arg9 harg9) K := by
  sl_unfold [cc0__edge_stats_kernel]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  subst hf0 hf1 hf2 hf3 hf4 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (read_writes_full_cons0 arg8.view _ ![0, 0] off00 _ _ _).trans ?_
    show k0_pay14 (k0_pay5 (View.readAt (Elt F) arg1.view (Rect.unit (s := S2000x64) ![0, 0] S2000x64.size inb_S2000x64_S2000x64_0_0).toLoadRect f0)) (k0_pay6 (View.readAt (Elt F) arg2.view (Rect.unit (s := S2000x64) ![0, 0] S2000x64.size inb_S2000x64_S2000x64_0_0).toLoadRect f1)) (k0_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay11 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg8.view (Rect.unit (s := S1x64) ![0, 0] S1x64.size inb_S1x64_S1x64_0_0).toLoadRect f7) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  iexists _; isplitr
  swap; · iexact H8
  ipureintro
  refine (read_writes_full_cons0 arg9.view _ ![0, 0] off00 _ _ _).trans ?_
  show k0_pay15 (k0_pay5 (View.readAt (Elt F) arg1.view (Rect.unit (s := S2000x64) ![0, 0] S2000x64.size inb_S2000x64_S2000x64_0_0).toLoadRect f0)) (k0_pay6 (View.readAt (Elt F) arg2.view (Rect.unit (s := S2000x64) ![0, 0] S2000x64.size inb_S2000x64_S2000x64_0_0).toLoadRect f1)) (k0_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay11 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg9.view (Rect.unit (s := S1x64) ![0, 0] S1x64.size inb_S1x64_S1x64_0_0).toLoadRect f8) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]

set_option maxHeartbeats 4000000 in
/-- The LAST point: the scratch rows take the point's contribution, then the two output rows are stored from them. -/
theorem sound_kernel0_C (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x4 .f32) (harg3 : arg3.IsWhole) (arg4 : Memref sig .tc .vmem S2000x4 .f32) (harg4 : arg4.IsWhole) (arg5 : Memref sig .tc .vmem S130x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : ¬ condF0 i) (hL : condL0 i)
    (x0 : Vec F S2000x64 .f32) (x1 : Vec F S2000x64 .f32) (x2 : Vec F S2000x4 .f32) (x3 : Vec F S2000x4 .f32) (x4 : Vec F S130x64 .f32) (s1 s2 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay1 (k0_pay14 (k0_pay5 x0) (k0_pay6 x1) (k0_pay9 x2 x3) (k0_pay11 x2 x3) (k0_pay12 x2 x3) x4 s1)) ∗ owns (c : Thread nD τ) arg7 fullShare (k0_pay2 (k0_pay14 (k0_pay5 x0) (k0_pay6 x1) (k0_pay9 x2 x3) (k0_pay11 x2 x3) (k0_pay12 x2 x3) x4 s1) (k0_pay15 (k0_pay5 x0) (k0_pay6 x1) (k0_pay9 x2 x3) (k0_pay11 x2 x3) (k0_pay12 x2 x3) x4 s2))
            ∗ owns (c : Thread nD τ) arg8 fullShare (k0_pay14 (k0_pay5 x0) (k0_pay6 x1) (k0_pay9 x2 x3) (k0_pay11 x2 x3) (k0_pay12 x2 x3) x4 s1) ∗ owns (c : Thread nD τ) arg9 fullShare (k0_pay15 (k0_pay5 x0) (k0_pay6 x1) (k0_pay9 x2 x3) (k0_pay11 x2 x3) (k0_pay12 x2 x3) x4 s2)) -∗ K ⟨⟩))
      ⊢ wp frame (wpE (defs₀ (F := F)) Variants.none c none) E (cc0__edge_stats_kernel i arg1 harg1 arg2 harg2 arg3 harg3 arg4 harg4 arg5 harg5 arg6 harg6 arg7 harg7 arg8 harg8 arg9 harg9) K := by
  sl_unfold [cc0__edge_stats_kernel]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0 hf1 hf2 hf3 hf4 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_full_cons0 arg6.view _ ![0, 0] off00 _ _ _).trans ?_
    show k0_pay1 (arg8.view.readCov [⟨(Rect.unit (s := S1x64) ![0, 0] S1x64.size inb_S1x64_S1x64_0_0), k0_pay14 (k0_pay5 (View.readAt (Elt F) arg1.view (Rect.unit (s := S2000x64) ![0, 0] S2000x64.size inb_S2000x64_S2000x64_0_0).toLoadRect f0)) (k0_pay6 (View.readAt (Elt F) arg2.view (Rect.unit (s := S2000x64) ![0, 0] S2000x64.size inb_S2000x64_S2000x64_0_0).toLoadRect f1)) (k0_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay11 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg8.view (Rect.unit (s := S1x64) ![0, 0] S1x64.size inb_S1x64_S1x64_0_0).toLoadRect f7)⟩] (Rect.unit (s := S1x64) ![0, 0] S1x64.size inb_S1x64_S1x64_0_0).toLoadRect) = _
    rw [readCov_full0 arg8.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  isplitl [H6]
  · iexists _; isplitr
    swap; · iexact H6
    ipureintro
    refine (read_writes_full_cons0 arg7.view _ ![0, 0] off00 _ _ _).trans ?_
    show k0_pay2 (arg8.view.readCov [⟨(Rect.unit (s := S1x64) ![0, 0] S1x64.size inb_S1x64_S1x64_0_0), k0_pay14 (k0_pay5 (View.readAt (Elt F) arg1.view (Rect.unit (s := S2000x64) ![0, 0] S2000x64.size inb_S2000x64_S2000x64_0_0).toLoadRect f0)) (k0_pay6 (View.readAt (Elt F) arg2.view (Rect.unit (s := S2000x64) ![0, 0] S2000x64.size inb_S2000x64_S2000x64_0_0).toLoadRect f1)) (k0_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay11 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg8.view (Rect.unit (s := S1x64) ![0, 0] S1x64.size inb_S1x64_S1x64_0_0).toLoadRect f7)⟩] (Rect.unit (s := S1x64) ![0, 0] S1x64.size inb_S1x64_S1x64_0_0).toLoadRect) (arg9.view.readCov [⟨(Rect.unit (s := S1x64) ![0, 0] S1x64.size inb_S1x64_S1x64_0_0), k0_pay15 (k0_pay5 (View.readAt (Elt F) arg1.view (Rect.unit (s := S2000x64) ![0, 0] S2000x64.size inb_S2000x64_S2000x64_0_0).toLoadRect f0)) (k0_pay6 (View.readAt (Elt F) arg2.view (Rect.unit (s := S2000x64) ![0, 0] S2000x64.size inb_S2000x64_S2000x64_0_0).toLoadRect f1)) (k0_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay11 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg9.view (Rect.unit (s := S1x64) ![0, 0] S1x64.size inb_S1x64_S1x64_0_0).toLoadRect f8)⟩] (Rect.unit (s := S1x64) ![0, 0] S1x64.size inb_S1x64_S1x64_0_0).toLoadRect) = _
    rw [readCov_full0 arg8.view ![0, 0] off00, readCov_full0 arg9.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  isplitl [H7]
  · iexists _; isplitr
    swap; · iexact H7
    ipureintro
    refine (read_writes_full_cons0 arg8.view _ ![0, 0] off00 _ _ _).trans ?_
    show k0_pay14 (k0_pay5 (View.readAt (Elt F) arg1.view (Rect.unit (s := S2000x64) ![0, 0] S2000x64.size inb_S2000x64_S2000x64_0_0).toLoadRect f0)) (k0_pay6 (View.readAt (Elt F) arg2.view (Rect.unit (s := S2000x64) ![0, 0] S2000x64.size inb_S2000x64_S2000x64_0_0).toLoadRect f1)) (k0_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay11 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg8.view (Rect.unit (s := S1x64) ![0, 0] S1x64.size inb_S1x64_S1x64_0_0).toLoadRect f7) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  iexists _; isplitr
  swap; · iexact H8
  ipureintro
  refine (read_writes_full_cons0 arg9.view _ ![0, 0] off00 _ _ _).trans ?_
  show k0_pay15 (k0_pay5 (View.readAt (Elt F) arg1.view (Rect.unit (s := S2000x64) ![0, 0] S2000x64.size inb_S2000x64_S2000x64_0_0).toLoadRect f0)) (k0_pay6 (View.readAt (Elt F) arg2.view (Rect.unit (s := S2000x64) ![0, 0] S2000x64.size inb_S2000x64_S2000x64_0_0).toLoadRect f1)) (k0_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay11 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg9.view (Rect.unit (s := S1x64) ![0, 0] S1x64.size inb_S1x64_S1x64_0_0).toLoadRect f8) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (dat0 V c).leavesExact 5 t
    ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4]
  rw [show (dat0 V c).Φ t.succ = Phi0 V c (t.val + 1) from rfl, show (dat0 V c).Φ t.castSucc = Phi0 V c t.val from rfl, Phi0_succ]
  have hN : t.val < 400 := lt_of_lt_of_eq t.isLt (show cfg0.N = 400 from N_0)
  by_cases h0 : t.val = 0
  · -- the first point
    have hF : condF0 (grid0.coords t) := (hcondF0 t).mpr h0
    have hL : ¬ condL0 (grid0.coords t) := fun h => by have := (hcondL0 t).mp h; omega
    rw [Dat.leavesExact_idle (dat0 V c) 5 t (idle0_5 t (by omega)) (noflush0_5 t (by omega)),
      Dat.leavesExact_idle (dat0 V c) 6 t (idle0_6 t (by omega)) (noflush0_6 t (by omega))]
    rw [acc0_succ V c t, show acc0 V c t.val = (k0_pay3, k0_pay4) from by rw [h0]; rfl,
      show Phi0 V c t.val = Pipeline.ΦA spec0 c from by rw [h0]; rfl]
    unfold step0 Pipeline.ΦA
    rw [scopedRest0_split]
    iintro ⟨⟨⟨⟨⟨%g0, HS0⟩, ⟨%g1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ _ _ _ _ _ _ _ _ _ _ _ _ _ _ _ _ _ _ _ hF hL (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [HS0]; · iexists g0; rw [owns_whole]; iexact HS0
    isplitl [HS1]; · iexists g1; rw [owns_whole]; iexact HS1
    iintro ⟨H0, H1, H2, H3, H4, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 399
    · -- the last point
      have hF : ¬ condF0 (grid0.coords t) := fun h => h0 ((hcondF0 t).mp h)
      have hL : condL0 (grid0.coords t) := (hcondL0 t).mpr h1
      rw [show (dat0 V c).leavesExact 5 t = owns (c : Thread nD τ) (st0_5 t) fullShare ((dat0 V c).after 5 t) from by
          unfold Dat.leavesExact; rw [live0_5 t h1],
        show (dat0 V c).leavesExact 6 t = owns (c : Thread nD τ) (st0_6 t) fullShare ((dat0 V c).after 6 t) from by
          unfold Dat.leavesExact; rw [live0_6 t h1], after0_5, after0_6]
      unfold mean0 var0
      rw [acc0_succ V c t, Phi0_pos V c t.val h0]
      unfold step0
      iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_C c Set.univ _ _ _ _ _ _ _ _ _ _ _ _ _ _ _ _ _ _ _ hF hL (iblk0 V c 0 t) (iblk0 V c 1 t) (iblk0 V c 2 t) (iblk0 V c 3 t) (iblk0 V c 4 t) (acc0 V c t.val).1 (acc0 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hF : ¬ condF0 (grid0.coords t) := fun h => h0 ((hcondF0 t).mp h)
      have hL : ¬ condL0 (grid0.coords t) := fun h => h1 ((hcondL0 t).mp h)
      rw [Dat.leavesExact_idle (dat0 V c) 5 t (idle0_5 t h1) (noflush0_5 t h1),
        Dat.leavesExact_idle (dat0 V c) 6 t (idle0_6 t h1) (noflush0_6 t h1)]
      rw [acc0_succ V c t, Phi0_pos V c t.val h0]
      unfold step0
      iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_B c Set.univ _ _ _ _ _ _ _ _ _ _ _ _ _ _ _ _ _ _ _ hF hL (iblk0 V c 0 t) (iblk0 V c 1 t) (iblk0 V c 2 t) (iblk0 V c 3 t) (iblk0 V c 4 t) (acc0 V c t.val).1 (acc0 V c t.val).2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After the last point the invariant gives the class invariant back: the scratch rows' contents are forgotten. -/
theorem Phi0_out (c : Dev nD) (n : ℕ) (h : n ≠ 0) : Phi0 V c n ⊢ Pipeline.ΦA spec0 c := by
  rw [Phi0_pos V c n h]; unfold Pipeline.ΦA; rw [scopedRest0_split]
  iintro ⟨⟨HS0, HS1⟩, Hrest, Hg⟩
  isplitr [Hg]
  · isplitl [HS0 HS1]
    · isplitl [HS0]
      · iexists _; rw [← owns_whole]; iexact HS0
      iexists _; rw [← owns_whole]; iexact HS1
    iexact Hrest
  iexact Hg

end Cert.Kernel.WRun

end
-- ==== Proof.WOuts.lean ====
import proofs.«110093_j8770323219157_1_alg».proof.Proof.WData

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ)

/-! What the valuations hold at the regions' output arrays: the proof data's final arrays. -/

theorem o2_v37_0 (c : Dev nD) : o2 m main_v37_0 c = (dat0 (Vin0 m) c).arrAt 5 cfg0.N := by
  unfold o2; rw [Function.update_of_ne (by decide), Function.update_self]
theorem o2_v37_1 (c : Dev nD) : o2 m main_v37_1 c = (dat0 (Vin0 m) c).arrAt 6 cfg0.N := by
  unfold o2; rw [Function.update_self]
theorem o3_v38_0 (c : Dev nD) : o3 m main_v38_0 c = (dat1 (Vin1 m) c).arrAt 16 cfg1.N := by
  unfold o3; rw [Function.update_of_ne (by decide), Function.update_self]
theorem o3_v38_1 (c : Dev nD) : o3 m main_v38_1 c = (dat1 (Vin1 m) c).arrAt 17 cfg1.N := by
  unfold o3; rw [Function.update_self]
theorem o5_v57_0 (c : Dev nD) : o5 m main_v57_0 c = (dat2 (Vin2 m) c).arrAt 5 cfg2.N := by
  unfold o5; rw [Function.update_of_ne (by decide), Function.update_self]
theorem o5_v57_1 (c : Dev nD) : o5 m main_v57_1 c = (dat2 (Vin2 m) c).arrAt 6 cfg2.N := by
  unfold o5; rw [Function.update_self]
theorem o6_v58 (c : Dev nD) : o6 m main_v58 c = (dat3 (Vin3 m) c).arrAt 11 cfg3.N := by
  unfold o6; rw [Function.update_self]

theorem V2_v37_0 (c : Dev nD) : V2 m (outs m) c main_v37_0 = (dat0 (Vin0 m) c).arrAt 5 cfg0.N := by
  have h : V2 m (outs m) c main_v37_0 = outs m 2 main_v37_0 c := by
    simp only [V2, Function.update_of_ne (StableHlo.devRef_ne_of_ne (by decide) : (Proc.devRef .tc main_v37_0 : DevRef τ sig) ≠ Proc.devRef .tc main_v37_1), Function.update_self]
  exact h.trans (o2_v37_0 m c)
theorem V2_v37_1 (c : Dev nD) : V2 m (outs m) c main_v37_1 = (dat0 (Vin0 m) c).arrAt 6 cfg0.N := by
  have h : V2 m (outs m) c main_v37_1 = outs m 2 main_v37_1 c := by
    simp only [V2, Function.update_self]
  exact h.trans (o2_v37_1 m c)
theorem V3_v38_0 (c : Dev nD) : V3 m (outs m) c main_v38_0 = (dat1 (Vin1 m) c).arrAt 16 cfg1.N := by
  have h : V3 m (outs m) c main_v38_0 = outs m 3 main_v38_0 c := by
    simp only [V3, Function.update_of_ne (StableHlo.devRef_ne_of_ne (by decide) : (Proc.devRef .tc main_v38_0 : DevRef τ sig) ≠ Proc.devRef .tc main_v38_1), Function.update_self]
  exact h.trans (o3_v38_0 m c)
theorem V3_v38_1 (c : Dev nD) : V3 m (outs m) c main_v38_1 = (dat1 (Vin1 m) c).arrAt 17 cfg1.N := by
  have h : V3 m (outs m) c main_v38_1 = outs m 3 main_v38_1 c := by
    simp only [V3, Function.update_self]
  exact h.trans (o3_v38_1 m c)
theorem V5_v57_0 (c : Dev nD) : V5 m (outs m) c main_v57_0 = (dat2 (Vin2 m) c).arrAt 5 cfg2.N := by
  have h : V5 m (outs m) c main_v57_0 = outs m 5 main_v57_0 c := by
    simp only [V5, Function.update_of_ne (StableHlo.devRef_ne_of_ne (by decide) : (Proc.devRef .tc main_v57_0 : DevRef τ sig) ≠ Proc.devRef .tc main_v57_1), Function.update_self]
  exact h.trans (o5_v57_0 m c)
theorem V5_v57_1 (c : Dev nD) : V5 m (outs m) c main_v57_1 = (dat2 (Vin2 m) c).arrAt 6 cfg2.N := by
  have h : V5 m (outs m) c main_v57_1 = outs m 5 main_v57_1 c := by
    simp only [V5, Function.update_self]
  exact h.trans (o5_v57_1 m c)
theorem V6_v58 (c : Dev nD) : V6 m (outs m) c main_v58 = (dat3 (Vin3 m) c).arrAt 11 cfg3.N := by
  have h : V6 m (outs m) c main_v58 = outs m 6 main_v58 c := by
    simp only [V6, Function.update_self]
  exact h.trans (o6_v58 m c)

/-- The proof data family at each pipeline, as the region's data at its entry contents. -/
theorem pdats_0 (c : Dev nD) : pdats m 0 c = dat0 (Vin0 m) c := rfl
theorem pdats_1 (c : Dev nD) : pdats m 1 c = dat1 (Vin1 m) c := rfl
theorem pdats_2 (c : Dev nD) : pdats m 2 c = dat2 (Vin2 m) c := rfl
theorem pdats_3 (c : Dev nD) : pdats m 3 c = dat3 (Vin3 m) c := rfl

end Cert.Kernel.WRun

end
-- ==== Proof.WReg0.lean ====
import proofs.«110093_j8770323219157_1_alg».proof.Proof.WBody0
import proofs.«110093_j8770323219157_1_alg».proof.Proof.WOuts
import proofs.«110093_j8770323219157_1_alg».proof.Proof.WLemmas
import Idealize.ShloMosaic.Lib.Pipeline.RegionsLoop

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ)

/-- An input window's array is, in the proof data, the entry contents at its buffer; -/
theorem hA0 (c : Dev nD) (w : Fin cfg0.W) : (pdats m 0 c).A w = V1 m c (Pipeline.arrRef spec0 w) := rfl

/-- every window but the last two is an input, over a buffer other than the region's two output buffers. -/
theorem key0 : ∀ w : Fin cfg0.W, w ≠ 5 → w ≠ 6 → (cfg0.win w).isOut = false ∧ Pipeline.arrRef spec0 w ∉ ([main_v37_0, main_v37_1] : List (Ref sig .tc)) := by decide

/-- At region 0's exit each of its arrays holds what the pipeline leaves, -/
theorem hF0 (c : Dev nD) : ∀ w : Fin cfg0.W, (pdats m 0 c).arrAt w cfg0.N = (fun b => V2 m (outs m) c b : (b : Ref sig .tc) → Buf (Elt F) ((c : Thread nD τ).loc b)) (Pipeline.arrRef spec0 w) := by
  intro w
  by_cases h0 : w = 5
  · subst h0; exact (V2_v37_0 m c).symm
  by_cases h1 : w = 6
  · subst h1; exact (V2_v37_1 m c).symm
  obtain ⟨hin, hne⟩ := key0 w h0 h1
  exact ((pdats m 0 c).arrAt_in w hin _).trans ((hA0 m c w).trans (V2_of m (outs m) c _ hne).symm)
/-- and every other buffer what it held at entry. -/
theorem hrest0 (c : Dev nD) : ∀ b : Ref sig .tc, b ∉ Finset.univ.image (Pipeline.arrRef spec0) → V2 m (outs m) c b = V1 m c b :=
  fun b hb => V2_of m (outs m) c b fun hmem => hb (by
    simp only [List.mem_cons, List.not_mem_nil, or_false] at hmem
    rcases hmem with rfl | rfl
    · exact Finset.mem_image.mpr ⟨5, Finset.mem_univ _, rfl⟩
    · exact Finset.mem_image.mpr ⟨6, Finset.mem_univ _, rfl⟩)

/-- After the last point the invariant gives the class invariant back. -/
theorem Phi0_last (c : Dev nD) : (pdats m 0 c).Φ (Fin.last _) ⊢ Pipeline.ΦA spec0 c :=
  Phi0_out (fun c b => V1 m c b) c cfg0.N (by decide)

set_option backward.isDefEq.respectTransparency.types false in
/-- REGION 0 over the thread state: entered from every unscoped buffer at the contents before it, left at the contents
    after it. Its arrays split out of the unscoped buffers and put back at the exit contents; the generator register
    into the invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.WRun

end
-- ==== Proof.WBody1.lean ====
import proofs.«110093_j8770323219157_1_alg».proof.Proof.WData
import proofs.«110093_j8770323219157_1_alg».proof.Proof.WLemmas
import Idealize.ShloMosaic.Lib.Exec

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : VT F)

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem after1_4 (c : Dev nD) (t : Fin cfg1.N) : (dat1 V c).after 4 t = iblk1 V c 4 t := by dsimp only [dat1]
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem after1_5 (c : Dev nD) (t : Fin cfg1.N) : (dat1 V c).after 5 t = iblk1 V c 5 t := by dsimp only [dat1]
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem after1_6 (c : Dev nD) (t : Fin cfg1.N) : (dat1 V c).after 6 t = iblk1 V c 6 t := by dsimp only [dat1]
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem after1_7 (c : Dev nD) (t : Fin cfg1.N) : (dat1 V c).after 7 t = iblk1 V c 7 t := by dsimp only [dat1]
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem after1_8 (c : Dev nD) (t : Fin cfg1.N) : (dat1 V c).after 8 t = iblk1 V c 8 t := by dsimp only [dat1]
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem after1_9 (c : Dev nD) (t : Fin cfg1.N) : (dat1 V c).after 9 t = iblk1 V c 9 t := by dsimp only [dat1]
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem after1_10 (c : Dev nD) (t : Fin cfg1.N) : (dat1 V c).after 10 t = iblk1 V c 10 t := by dsimp only [dat1]
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem after1_11 (c : Dev nD) (t : Fin cfg1.N) : (dat1 V c).after 11 t = iblk1 V c 11 t := by dsimp only [dat1]
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
theorem after1_12 (c : Dev nD) (t : Fin cfg1.N) : (dat1 V c).after 12 t = iblk1 V c 12 t := by dsimp only [dat1]
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
theorem after1_13 (c : Dev nD) (t : Fin cfg1.N) : (dat1 V c).after 13 t = iblk1 V c 13 t := by dsimp only [dat1]
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)
theorem after1_14 (c : Dev nD) (t : Fin cfg1.N) : (dat1 V c).after 14 t = iblk1 V c 14 t := by dsimp only [dat1]
theorem before1_14 (c : Dev nD) (t : Fin cfg1.N) (d) : (dat1 V c).before 14 t d = iblk1 V c 14 t :=
  ((dat1 V c).before_in_eq_fetched 14 rfl (fun _ => rfl) (fun _ _ _ => rfl) (fun t => by rw [after1_14]; unfold Dat.blockOf iblk1; rw [A_eq1]; try rfl) t d).trans
    (by unfold Dat.fetched Dat.blockOf iblk1; rw [A_eq1]; try rfl)
theorem after1_15 (c : Dev nD) (t : Fin cfg1.N) : (dat1 V c).after 15 t = iblk1 V c 15 t := by dsimp only [dat1]
theorem before1_15 (c : Dev nD) (t : Fin cfg1.N) (d) : (dat1 V c).before 15 t d = iblk1 V c 15 t :=
  ((dat1 V c).before_in_eq_fetched 15 rfl (fun _ => rfl) (fun _ _ _ => rfl) (fun t => by rw [after1_15]; unfold Dat.blockOf iblk1; rw [A_eq1]; try rfl) t d).trans
    (by unfold Dat.fetched Dat.blockOf iblk1; rw [A_eq1]; try rfl)
theorem after1_16 (c : Dev nD) (t : Fin cfg1.N) : (dat1 V c).after 16 t = out1_16 V c t := by dsimp only [dat1]
theorem after1_17 (c : Dev nD) (t : Fin cfg1.N) : (dat1 V c).after 17 t = out1_17 V c t := by dsimp only [dat1]

set_option maxHeartbeats 4000000 in
/-- The kernel body on whole staging memrefs, the inputs' at read contents and the outputs' at anything, runs to the
    continuation holding the inputs' as they were and each output's at its payload of the inputs'. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S2000x4 .f32) (harg3 : arg3.IsWhole) (arg4 : Memref sig .tc .vmem S2000x4 .f32) (harg4 : arg4.IsWhole) (arg5 : Memref sig .tc .vmem S130x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S64x64 .f32) (harg14 : arg14.IsWhole) (arg15 : Memref sig .tc .vmem S1x64 .f32) (harg15 : arg15.IsWhole) (arg16 : Memref sig .tc .vmem S64x1 .f32) (harg16 : arg16.IsWhole) (arg17 : Memref sig .tc .vmem S2000x64 .f32) (harg17 : arg17.IsWhole) (arg18 : Memref sig .tc .vmem S2000x4 .f32) (harg18 : arg18.IsWhole)
    (x0 : Vec F S2000x64 .f32) (x1 : Vec F S2000x64 .f32) (x2 : Vec F S2000x4 .f32) (x3 : Vec F S2000x4 .f32) (x4 : Vec F S130x64 .f32) (x5 : Vec F S1x64 .f32) (x6 : Vec F S1x64 .f32) (x7 : Vec F S64x64 .f32) (x8 : Vec F S1x64 .f32) (x9 : Vec F S1x64 .f32) (x10 : Vec F S1x64 .f32) (x11 : Vec F S64x1 .f32) (x12 : Vec F S1x1 .f32) (x13 : Vec F S64x64 .f32) (x14 : Vec F S1x64 .f32) (x15 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
        ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
            ∗ owns (c : Thread nD τ) arg17 fullShare (k1_pay10 (k1_pay9 (k1_pay1 x0) (k1_pay2 x1) (k1_pay6 x2 x3) (k1_pay7 x2 x3) (k1_pay8 x2 x3) 1065353216#32 x4 x9 x10 x5 x6 x7) x8 x11 x12)
            ∗ owns (c : Thread nD τ) arg18 fullShare (k1_pay11 (k1_pay5 x2 x3) (k1_pay9 (k1_pay1 x0) (k1_pay2 x1) (k1_pay6 x2 x3) (k1_pay7 x2 x3) (k1_pay8 x2 x3) 1065353216#32 x4 x9 x10 x5 x6 x7) x8 x11 x12 x13 x14 x15)) -∗ K ⟨⟩))
      ⊢ wp frame (wpE (defs₀ (F := F)) Variants.none c none) E (cc1__edge_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  sl_unfold [cc1__edge_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (read_writes_full arg17.view _ ![0, 0] off00 _ _).trans ?_
    show k1_pay10 (k1_pay9 (k1_pay1 (View.readAt (Elt F) arg1.view (Rect.unit (s := S2000x64) ![0, 0] S2000x64.size inb_S2000x64_S2000x64_0_0).toLoadRect f0)) (k1_pay2 (View.readAt (Elt F) arg2.view (Rect.unit (s := S2000x64) ![0, 0] S2000x64.size inb_S2000x64_S2000x64_0_0).toLoadRect f1)) (k1_pay6 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay7 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay8 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) 1065353216#32 (View.readAt (Elt F) arg5.view (Rect.unit (s := S130x64) ![0, 0] S130x64.size inb_S130x64_S130x64_0_0).toLoadRect f4) (View.readAt (Elt F) arg10.view (Rect.unit (s := S1x64) ![0, 0] S1x64.size inb_S1x64_S1x64_0_0).toLoadRect f9) (View.readAt (Elt F) arg11.view (Rect.unit (s := S1x64) ![0, 0] S1x64.size inb_S1x64_S1x64_0_0).toLoadRect f10) (View.readAt (Elt F) arg6.view (Rect.unit (s := S1x64) ![0, 0] S1x64.size inb_S1x64_S1x64_0_0).toLoadRect f5) (View.readAt (Elt F) arg7.view (Rect.unit (s := S1x64) ![0, 0] S1x64.size inb_S1x64_S1x64_0_0).toLoadRect f6) (View.readAt (Elt F) arg8.view (Rect.unit (s := S64x64) ![0, 0] S64x64.size inb_S64x64_S64x64_0_0).toLoadRect f7)) (View.readAt (Elt F) arg9.view (Rect.unit (s := S1x64) ![0, 0] S1x64.size inb_S1x64_S1x64_0_0).toLoadRect f8) (View.readAt (Elt F) arg12.view (Rect.unit (s := S64x1) ![0, 0] S64x1.size inb_S64x1_S64x1_0_0).toLoadRect f11) (View.readAt (Elt F) arg13.view (Rect.unit (s := S1x1) ![0, 0] S1x1.size inb_S1x1_S1x1_0_0).toLoadRect f12) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg6.view f5 ![0, 0] off00, readAt_full arg7.view f6 ![0, 0] off00, readAt_full arg8.view f7 ![0, 0] off00, readAt_full arg9.view f8 ![0, 0] off00, readAt_full arg10.view f9 ![0, 0] off00, readAt_full arg11.view f10 ![0, 0] off00, readAt_full arg12.view f11 ![0, 0] off00, readAt_full arg13.view f12 ![0, 0] off00, readAt_full arg14.view f13 ![0, 0] off00, readAt_full arg15.view f14 ![0, 0] off00, readAt_full arg16.view f15 ![0, 0] off00]
  iexists _; isplitr
  swap; · iexact H17
  ipureintro
  refine (read_writes_full arg18.view _ ![0, 0] off00 _ _).trans ?_
  show k1_pay11 (k1_pay5 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay9 (k1_pay1 (View.readAt (Elt F) arg1.view (Rect.unit (s := S2000x64) ![0, 0] S2000x64.size inb_S2000x64_S2000x64_0_0).toLoadRect f0)) (k1_pay2 (View.readAt (Elt F) arg2.view (Rect.unit (s := S2000x64) ![0, 0] S2000x64.size inb_S2000x64_S2000x64_0_0).toLoadRect f1)) (k1_pay6 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay7 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay8 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) 1065353216#32 (View.readAt (Elt F) arg5.view (Rect.unit (s := S130x64) ![0, 0] S130x64.size inb_S130x64_S130x64_0_0).toLoadRect f4) (View.readAt (Elt F) arg10.view (Rect.unit (s := S1x64) ![0, 0] S1x64.size inb_S1x64_S1x64_0_0).toLoadRect f9) (View.readAt (Elt F) arg11.view (Rect.unit (s := S1x64) ![0, 0] S1x64.size inb_S1x64_S1x64_0_0).toLoadRect f10) (View.readAt (Elt F) arg6.view (Rect.unit (s := S1x64) ![0, 0] S1x64.size inb_S1x64_S1x64_0_0).toLoadRect f5) (View.readAt (Elt F) arg7.view (Rect.unit (s := S1x64) ![0, 0] S1x64.size inb_S1x64_S1x64_0_0).toLoadRect f6) (View.readAt (Elt F) arg8.view (Rect.unit (s := S64x64) ![0, 0] S64x64.size inb_S64x64_S64x64_0_0).toLoadRect f7)) (View.readAt (Elt F) arg9.view (Rect.unit (s := S1x64) ![0, 0] S1x64.size inb_S1x64_S1x64_0_0).toLoadRect f8) (View.readAt (Elt F) arg12.view (Rect.unit (s := S64x1) ![0, 0] S64x1.size inb_S64x1_S64x1_0_0).toLoadRect f11) (View.readAt (Elt F) arg13.view (Rect.unit (s := S1x1) ![0, 0] S1x1.size inb_S1x1_S1x1_0_0).toLoadRect f12) (View.readAt (Elt F) arg14.view (Rect.unit (s := S64x64) ![0, 0] S64x64.size inb_S64x64_S64x64_0_0).toLoadRect f13) (View.readAt (Elt F) arg15.view (Rect.unit (s := S1x64) ![0, 0] S1x64.size inb_S1x64_S1x64_0_0).toLoadRect f14) (View.readAt (Elt F) arg16.view (Rect.unit (s := S64x1) ![0, 0] S64x1.size inb_S64x1_S64x1_0_0).toLoadRect f15) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg6.view f5 ![0, 0] off00, readAt_full arg7.view f6 ![0, 0] off00, readAt_full arg8.view f7 ![0, 0] off00, readAt_full arg9.view f8 ![0, 0] off00, readAt_full arg10.view f9 ![0, 0] off00, readAt_full arg11.view f10 ![0, 0] off00, readAt_full arg12.view f11 ![0, 0] off00, readAt_full arg13.view f12 ![0, 0] off00, readAt_full arg14.view f13 ![0, 0] off00, readAt_full arg15.view f14 ![0, 0] off00, readAt_full arg16.view f15 ![0, 0] off00]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t))

set_option maxHeartbeats 4000000 in
/-- The body at any point: the inputs' memrefs hold their blocks, so the kernel's triple applies; the invariant and the
    core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17]
  unfold out1_16 out1_17 hid1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel1 c Set.univ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.WRun

end
-- ==== Proof.WReg1.lean ====
import proofs.«110093_j8770323219157_1_alg».proof.Proof.WBody1
import proofs.«110093_j8770323219157_1_alg».proof.Proof.WOuts
import proofs.«110093_j8770323219157_1_alg».proof.Proof.WLemmas
import Idealize.ShloMosaic.Lib.Pipeline.RegionsLoop

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ)

/-- An input window's array is, in the proof data, the entry contents at its buffer; -/
theorem hA1 (c : Dev nD) (w : Fin cfg1.W) : (pdats m 1 c).A w = V2 m (outs m) c (Pipeline.arrRef spec1 w) := rfl

/-- every window but the last two is an input, over a buffer other than the region's two output buffers. -/
theorem key1 : ∀ w : Fin cfg1.W, w ≠ 16 → w ≠ 17 → (cfg1.win w).isOut = false ∧ Pipeline.arrRef spec1 w ∉ ([main_v38_0, main_v38_1] : List (Ref sig .tc)) := by decide

/-- At region 1's exit each of its arrays holds what the pipeline leaves, -/
theorem hF1 (c : Dev nD) : ∀ w : Fin cfg1.W, (pdats m 1 c).arrAt w cfg1.N = (fun b => V3 m (outs m) c b : (b : Ref sig .tc) → Buf (Elt F) ((c : Thread nD τ).loc b)) (Pipeline.arrRef spec1 w) := by
  intro w
  by_cases h0 : w = 16
  · subst h0; exact (V3_v38_0 m c).symm
  by_cases h1 : w = 17
  · subst h1; exact (V3_v38_1 m c).symm
  obtain ⟨hin, hne⟩ := key1 w h0 h1
  exact ((pdats m 1 c).arrAt_in w hin _).trans ((hA1 m c w).trans (V3_of m (outs m) c _ hne).symm)
/-- and every other buffer what it held at entry. -/
theorem hrest1 (c : Dev nD) : ∀ b : Ref sig .tc, b ∉ Finset.univ.image (Pipeline.arrRef spec1) → V3 m (outs m) c b = V2 m (outs m) c b :=
  fun b hb => V3_of m (outs m) c b fun hmem => hb (by
    simp only [List.mem_cons, List.not_mem_nil, or_false] at hmem
    rcases hmem with rfl | rfl
    · exact Finset.mem_image.mpr ⟨16, Finset.mem_univ _, rfl⟩
    · exact Finset.mem_image.mpr ⟨17, Finset.mem_univ _, rfl⟩)

set_option backward.isDefEq.respectTransparency.types false in
/-- REGION 1 over the thread state: entered from every unscoped buffer at the contents before it, left at the contents
    after it. Its arrays split out of the unscoped buffers and put back at the exit contents; the generator register
    into the invariant and out; nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V2 m (outs m) c b) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => V2 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => V2 m (outs m) c b) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.WRun

end
-- ==== Proof.WBody2.lean ====
import proofs.«110093_j8770323219157_1_alg».proof.Proof.WData
import proofs.«110093_j8770323219157_1_alg».proof.Proof.WLemmas
import Idealize.ShloMosaic.Lib.Exec

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : VT F)

/-! ## Reading back through whole-shape rectangles -/

/-- A store through the whole-shape unit rectangle reads back as its payload, whatever the earlier stores were. -/
theorem read_writes_full_cons2 {sig' : RefSig} {κ : Kind} {sp : Space} {s : Shape} {e : EltTy} {Val : EltTy → Type} [∀ e, Nonempty (Val e)]
    (v : View sig' κ sp s e) (f : v.ty.Contents Val) (off : Fin s.rank → ℕ) (hoff : ∀ a, off a = 0)
    (inb : ∀ a, off a + s.size a ≤ s.size a) (p : (Rect.unit off s.size inb).shape.Idx → Val e) (L : List (View.Piece Val s e)) :
    v.read Val (v.writes Val f (⟨Rect.unit off s.size inb, p⟩ :: L)) = p := by
  funext y
  have hy : y ∈ (Rect.unit off s.size inb).set :=
    Rect.mem_set_unit.mpr fun a => ⟨by rw [hoff]; exact Nat.zero_le _, by rw [hoff, Nat.zero_add]; exact (y a).isLt⟩
  obtain ⟨x, rfl⟩ := (Rect.unit off s.size inb).exists_idx_of_mem hy
  refine (View.read_writes_cons_emb (v := v) (f := f) (Rect.unit off s.size inb) p L x).trans ?_
  congr 1
  funext a
  apply Fin.ext
  simp [LoadRect.idx_apply, hoff]

/-- A whole-shape load after a whole-shape store reads the store's payload. -/
theorem readCov_full2 {sig' : RefSig} {κ : Kind} {sp : Space} {s : Shape} {e : EltTy} {Val : EltTy → Type} [∀ e, Nonempty (Val e)]
    (v : View sig' κ sp s e) (off : Fin s.rank → ℕ) (hoff : ∀ a, off a = 0)
    (inb : ∀ a, off a + s.size a ≤ s.size a) (p : (Rect.unit off s.size inb).shape.Idx → Val e) (L : List (View.Piece Val s e)) :
    v.readCov (⟨Rect.unit off s.size inb, p⟩ :: L) (Rect.unit off s.size inb).toLoadRect = p := by
  unfold View.readCov
  rw [readAt_full v _ off hoff inb, read_writes_full_cons2 v _ off hoff inb p L]

/-! ## The proof data projected -/

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem after2_1 (c : Dev nD) (t : Fin cfg2.N) : (dat2 V c).after 1 t = iblk2 V c 1 t := by dsimp only [dat2]
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem after2_2 (c : Dev nD) (t : Fin cfg2.N) : (dat2 V c).after 2 t = iblk2 V c 2 t := by dsimp only [dat2]
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem after2_3 (c : Dev nD) (t : Fin cfg2.N) : (dat2 V c).after 3 t = iblk2 V c 3 t := by dsimp only [dat2]
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem after2_4 (c : Dev nD) (t : Fin cfg2.N) : (dat2 V c).after 4 t = iblk2 V c 4 t := by dsimp only [dat2]
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem after2_5 (c : Dev nD) (t : Fin cfg2.N) : (dat2 V c).after 5 t = mean2 V c (t.val + 1) := by dsimp only [dat2]
theorem after2_6 (c : Dev nD) (t : Fin cfg2.N) : (dat2 V c).after 6 t = var2 V c (t.val + 1) := by dsimp only [dat2]

theorem Phi2_succ (c : Dev nD) (n : ℕ) : Phi2 V c (n + 1)
    = iprop((owns (c : Thread nD τ) (Memref.whole cc2_scratch0) fullShare (acc2 V c (n + 1)).1
        ∗ owns (c : Thread nD τ) (Memref.whole cc2_scratch1) fullShare (acc2 V c (n + 1)).2)
      ∗ Pipeline.scopedRestBut (Ix := Unit) (Name := ℕ) (U := UR sig nD τ) (Lvl := ℕ) (Val := Elt F) spec2 c [cc2_scratch0, cc2_scratch1]
      ∗ ∃ r, prngReg c r) := rfl
theorem Phi2_pos (c : Dev nD) (n : ℕ) (h : n ≠ 0) : Phi2 V c n
    = iprop((owns (c : Thread nD τ) (Memref.whole cc2_scratch0) fullShare (acc2 V c n).1
        ∗ owns (c : Thread nD τ) (Memref.whole cc2_scratch1) fullShare (acc2 V c n).2)
      ∗ Pipeline.scopedRestBut (Ix := Unit) (Name := ℕ) (U := UR sig nD τ) (Lvl := ℕ) (Val := Elt F) spec2 c [cc2_scratch0, cc2_scratch1]
      ∗ ∃ r, prngReg c r) := by
  cases n with
  | zero => exact absurd rfl h
  | succ n => rfl

/-! ## The two conditions on the grid point -/

/-- The first point's condition, as the kernel computes it, -/
abbrev condF2 (i : grid2.Coords) : Prop := (Scalar.cmpi .ne (Scalar.extui (Scalar.cmpi .eq (BitVec.ofNat 32 (i 0).val) 0#32)) 0#32) = 1#1
/-- and the last point's. -/
abbrev condL2 (i : grid2.Coords) : Prop := k2_cond2 i = 1#1

theorem hcondF2 : ∀ t : Fin cfg2.N, condF2 (grid2.coords t) ↔ t.val = 0 :=
  (by decide +kernel : ∀ t : Fin grid2.N, condF2 (grid2.coords t) ↔ t.val = 0)
theorem hcondL2 : ∀ t : Fin cfg2.N, condL2 (grid2.coords t) ↔ t.val = 24 :=
  (by decide +kernel : ∀ t : Fin grid2.N, condL2 (grid2.coords t) ↔ t.val = 24)
theorem idle2_5 : ∀ t : Fin cfg2.N, t.val ≠ 24 → cfg2.idle 5 (grid2.coords t) = true :=
  (by decide +kernel : ∀ t : Fin grid2.N, t.val ≠ 24 → cfg2.idle 5 (grid2.coords t) = true)
theorem idle2_6 : ∀ t : Fin cfg2.N, t.val ≠ 24 → cfg2.idle 6 (grid2.coords t) = true :=
  (by decide +kernel : ∀ t : Fin grid2.N, t.val ≠ 24 → cfg2.idle 6 (grid2.coords t) = true)
theorem live2_5 : ∀ t : Fin cfg2.N, t.val = 24 → cfg2.idle 5 (grid2.coords t) = false :=
  (by decide +kernel : ∀ t : Fin grid2.N, t.val = 24 → cfg2.idle 5 (grid2.coords t) = false)
theorem live2_6 : ∀ t : Fin cfg2.N, t.val = 24 → cfg2.idle 6 (grid2.coords t) = false :=
  (by decide +kernel : ∀ t : Fin grid2.N, t.val = 24 → cfg2.idle 6 (grid2.coords t) = false)
theorem noflush2_5 (t : Fin cfg2.N) (h : t.val ≠ 24) : (cfg2.win 5).flush t = false := by
  have hN : t.val < 25 := lt_of_lt_of_eq t.isLt (show cfg2.N = 25 from N_2)
  cases hf : (cfg2.win 5).flush t with
  | false => rfl
  | true => exact absurd ((flush2_5 t).mp hf) (by omega)
theorem noflush2_6 (t : Fin cfg2.N) (h : t.val ≠ 24) : (cfg2.win 6).flush t = false := by
  have hN : t.val < 25 := lt_of_lt_of_eq t.isLt (show cfg2.N = 25 from N_2)
  cases hf : (cfg2.win 6).flush t with
  | false => rfl
  | true => exact absurd ((flush2_6 t).mp hf) (by omega)

/-! ## The kernel's triples, by case of the point -/

set_option maxHeartbeats 4000000 in
/-- FIRST point: the scratch rows, at anything, are zeroed and then take the point's contribution. -/
theorem sound_kernel2_A (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x8 .f32) (harg3 : arg3.IsWhole) (arg4 : Memref sig .tc .vmem S136x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : condF2 i) (hL : ¬ condL2 i)
    (x0 : Vec F S2000x64 .f32) (x1 : Vec F S2000x64 .f32) (x2 : Vec F S2000x8 .f32) (x3 : Vec F S136x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k2_pay6 x0 x1 x2 x3 x4 (k2_pay3 (F := F))) ∗ owns (c : Thread nD τ) arg9 fullShare (k2_pay7 x0 x1 x2 x3 x4 (k2_pay4 (F := F)))) -∗ K ⟨⟩))
      ⊢ wp frame (wpE (defs₀ (F := F)) Variants.none c none) E (cc2__node_stats_kernel i arg1 harg1 arg2 harg2 arg3 harg3 arg4 harg4 arg5 harg5 arg6 harg6 arg7 harg7 arg8 harg8 arg9 harg9) K := by
  sl_unfold [cc2__node_stats_kernel]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (read_writes_full_cons2 arg8.view _ ![0, 0] off00 _ _ _).trans ?_
    show k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (arg8.view.readCov [⟨(Rect.unit (s := S1x64) ![0, 0] S1x64.size inb_S1x64_S1x64_0_0), (k2_pay3 (F := F))⟩] (Rect.unit (s := S1x64) ![0, 0] S1x64.size inb_S1x64_S1x64_0_0).toLoadRect) = _
    rw [readCov_full2 arg8.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00]
  iexists _; isplitr
  swap; · iexact H8
  ipureintro
  refine (read_writes_full_cons2 arg9.view _ ![0, 0] off00 _ _ _).trans ?_
  show k2_pay7 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (arg9.view.readCov [⟨(Rect.unit (s := S1x64) ![0, 0] S1x64.size inb_S1x64_S1x64_0_0), (k2_pay4 (F := F))⟩] (Rect.unit (s := S1x64) ![0, 0] S1x64.size inb_S1x64_S1x64_0_0).toLoadRect) = _
  rw [readCov_full2 arg9.view ![0, 0] off00]
  simp only [readAt_full arg1.view f0 ![0, 0] off00, readAt_full arg2.view f1 ![0, 0] off00, readAt_full arg3.view f2 ![0, 0] off00, readAt_full arg4.view f3 ![0, 0] off00, readAt_full arg5.view f4 ![0, 0] off00]

set_option maxHeartbeats 4000000 in
/-- A MIDDLE point: the scratch rows take the point's contribution. -/
theorem sound_kernel2_B (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x8 .f32) (harg3 : arg3.IsWhole) (arg4 : Memref sig .tc .vmem S136x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : ¬ condF2 i) (hL : ¬ condL2 i)
    (x0 : Vec F S2000x64 .f32) (x1 : Vec F S2000x64 .f32) (x2 : Vec F S2000x8 .f32) (x3 : Vec F S136x64 .f32) (x4 : Vec F S1x64 .f32) (s1 s2 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k2_pay6 x0 x1 x2 x3 x4 s1) ∗ owns (c : Thread nD τ) arg9 fullShare (k2_pay7 x0 x1 x2 x3 x4 s2)) -∗ K ⟨⟩))
      ⊢ wp frame (wpE (defs₀ (F := F)) Variants.none c none) E (cc2__node_stats_kernel i arg1 harg1 arg2 harg2 arg3 harg3 arg4 harg4 arg5 harg5 arg6 harg6 arg7 harg7 arg8 harg8 arg9 harg9) K := by
  sl_unfold [cc2__node_stats_kernel]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  subst hf0 hf1 hf2 hf3 hf4 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (read_writes_full_cons2 arg8.view _ ![0, 0] off00 _ _ _).trans ?_
    show k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  iexists _; isplitr
  swap; · iexact H8
  ipureintro
  refine (read_writes_full_cons2 arg9.view _ ![0, 0] off00 _ _ _).trans ?_
  show k2_pay7 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg9.view (Rect.unit (s := S1x64) ![0, 0] S1x64.size inb_S1x64_S1x64_0_0).toLoadRect f8) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]

set_option maxHeartbeats 4000000 in
/-- The LAST point: the scratch rows take the point's contribution, then the two output rows are stored from them. -/
theorem sound_kernel2_C (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x8 .f32) (harg3 : arg3.IsWhole) (arg4 : Memref sig .tc .vmem S136x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : ¬ condF2 i) (hL : condL2 i)
    (x0 : Vec F S2000x64 .f32) (x1 : Vec F S2000x64 .f32) (x2 : Vec F S2000x8 .f32) (x3 : Vec F S136x64 .f32) (x4 : Vec F S1x64 .f32) (s1 s2 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay1 (k2_pay6 x0 x1 x2 x3 x4 s1)) ∗ owns (c : Thread nD τ) arg7 fullShare (k2_pay2 (k2_pay6 x0 x1 x2 x3 x4 s1) (k2_pay7 x0 x1 x2 x3 x4 s2))
            ∗ owns (c : Thread nD τ) arg8 fullShare (k2_pay6 x0 x1 x2 x3 x4 s1) ∗ owns (c : Thread nD τ) arg9 fullShare (k2_pay7 x0 x1 x2 x3 x4 s2)) -∗ K ⟨⟩))
      ⊢ wp frame (wpE (defs₀ (F := F)) Variants.none c none) E (cc2__node_stats_kernel i arg1 harg1 arg2 harg2 arg3 harg3 arg4 harg4 arg5 harg5 arg6 harg6 arg7 harg7 arg8 harg8 arg9 harg9) K := by
  sl_unfold [cc2__node_stats_kernel]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0 hf1 hf2 hf3 hf4 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_full_cons2 arg6.view _ ![0, 0] off00 _ _ _).trans ?_
    show k2_pay1 (arg8.view.readCov [⟨(Rect.unit (s := S1x64) ![0, 0] S1x64.size inb_S1x64_S1x64_0_0), k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7)⟩] (Rect.unit (s := S1x64) ![0, 0] S1x64.size inb_S1x64_S1x64_0_0).toLoadRect) = _
    rw [readCov_full2 arg8.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  isplitl [H6]
  · iexists _; isplitr
    swap; · iexact H6
    ipureintro
    refine (read_writes_full_cons2 arg7.view _ ![0, 0] off00 _ _ _).trans ?_
    show k2_pay2 (arg8.view.readCov [⟨(Rect.unit (s := S1x64) ![0, 0] S1x64.size inb_S1x64_S1x64_0_0), k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7)⟩] (Rect.unit (s := S1x64) ![0, 0] S1x64.size inb_S1x64_S1x64_0_0).toLoadRect) (arg9.view.readCov [⟨(Rect.unit (s := S1x64) ![0, 0] S1x64.size inb_S1x64_S1x64_0_0), k2_pay7 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg9.view (Rect.unit (s := S1x64) ![0, 0] S1x64.size inb_S1x64_S1x64_0_0).toLoadRect f8)⟩] (Rect.unit (s := S1x64) ![0, 0] S1x64.size inb_S1x64_S1x64_0_0).toLoadRect) = _
    rw [readCov_full2 arg8.view ![0, 0] off00, readCov_full2 arg9.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  isplitl [H7]
  · iexists _; isplitr
    swap; · iexact H7
    ipureintro
    refine (read_writes_full_cons2 arg8.view _ ![0, 0] off00 _ _ _).trans ?_
    show k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  iexists _; isplitr
  swap; · iexact H8
  ipureintro
  refine (read_writes_full_cons2 arg9.view _ ![0, 0] off00 _ _ _).trans ?_
  show k2_pay7 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg9.view (Rect.unit (s := S1x64) ![0, 0] S1x64.size inb_S1x64_S1x64_0_0).toLoadRect f8) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ (dat2 V c).leavesExact 5 t
    ∗ (dat2 V c).leavesExact 6 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    after2_0, after2_1, after2_2, after2_3, after2_4]
  rw [show (dat2 V c).Φ t.succ = Phi2 V c (t.val + 1) from rfl, show (dat2 V c).Φ t.castSucc = Phi2 V c t.val from rfl, Phi2_succ]
  have hN : t.val < 25 := lt_of_lt_of_eq t.isLt (show cfg2.N = 25 from N_2)
  by_cases h0 : t.val = 0
  · -- the first point
    have hF : condF2 (grid2.coords t) := (hcondF2 t).mpr h0
    have hL : ¬ condL2 (grid2.coords t) := fun h => by have := (hcondL2 t).mp h; omega
    rw [Dat.leavesExact_idle (dat2 V c) 5 t (idle2_5 t (by omega)) (noflush2_5 t (by omega)),
      Dat.leavesExact_idle (dat2 V c) 6 t (idle2_6 t (by omega)) (noflush2_6 t (by omega))]
    rw [acc2_succ V c t, show acc2 V c t.val = (k2_pay3, k2_pay4) from by rw [h0]; rfl,
      show Phi2 V c t.val = Pipeline.ΦA spec2 c from by rw [h0]; rfl]
    unfold step2 Pipeline.ΦA
    rw [scopedRest2_split]
    iintro ⟨⟨⟨⟨⟨%g0, HS0⟩, ⟨%g1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ _ _ _ _ _ _ _ _ _ _ _ _ _ _ _ _ _ _ _ hF hL (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [HS0]; · iexists g0; rw [owns_whole]; iexact HS0
    isplitl [HS1]; · iexists g1; rw [owns_whole]; iexact HS1
    iintro ⟨H0, H1, H2, H3, H4, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 24
    · -- the last point
      have hF : ¬ condF2 (grid2.coords t) := fun h => h0 ((hcondF2 t).mp h)
      have hL : condL2 (grid2.coords t) := (hcondL2 t).mpr h1
      rw [show (dat2 V c).leavesExact 5 t = owns (c : Thread nD τ) (st2_5 t) fullShare ((dat2 V c).after 5 t) from by
          unfold Dat.leavesExact; rw [live2_5 t h1],
        show (dat2 V c).leavesExact 6 t = owns (c : Thread nD τ) (st2_6 t) fullShare ((dat2 V c).after 6 t) from by
          unfold Dat.leavesExact; rw [live2_6 t h1], after2_5, after2_6]
      unfold mean2 var2
      rw [acc2_succ V c t, Phi2_pos V c t.val h0]
      unfold step2
      iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_C c Set.univ _ _ _ _ _ _ _ _ _ _ _ _ _ _ _ _ _ _ _ hF hL (iblk2 V c 0 t) (iblk2 V c 1 t) (iblk2 V c 2 t) (iblk2 V c 3 t) (iblk2 V c 4 t) (acc2 V c t.val).1 (acc2 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hF : ¬ condF2 (grid2.coords t) := fun h => h0 ((hcondF2 t).mp h)
      have hL : ¬ condL2 (grid2.coords t) := fun h => h1 ((hcondL2 t).mp h)
      rw [Dat.leavesExact_idle (dat2 V c) 5 t (idle2_5 t h1) (noflush2_5 t h1),
        Dat.leavesExact_idle (dat2 V c) 6 t (idle2_6 t h1) (noflush2_6 t h1)]
      rw [acc2_succ V c t, Phi2_pos V c t.val h0]
      unfold step2
      iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_B c Set.univ _ _ _ _ _ _ _ _ _ _ _ _ _ _ _ _ _ _ _ hF hL (iblk2 V c 0 t) (iblk2 V c 1 t) (iblk2 V c 2 t) (iblk2 V c 3 t) (iblk2 V c 4 t) (acc2 V c t.val).1 (acc2 V c t.val).2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After the last point the invariant gives the class invariant back: the scratch rows' contents are forgotten. -/
theorem Phi2_out (c : Dev nD) (n : ℕ) (h : n ≠ 0) : Phi2 V c n ⊢ Pipeline.ΦA spec2 c := by
  rw [Phi2_pos V c n h]; unfold Pipeline.ΦA; rw [scopedRest2_split]
  iintro ⟨⟨HS0, HS1⟩, Hrest, Hg⟩
  isplitr [Hg]
  · isplitl [HS0 HS1]
    · isplitl [HS0]
      · iexists _; rw [← owns_whole]; iexact HS0
      iexists _; rw [← owns_whole]; iexact HS1
    iexact Hrest
  iexact Hg

end Cert.Kernel.WRun

end
-- ==== Proof.WReg2.lean ====
import proofs.«110093_j8770323219157_1_alg».proof.Proof.WBody2
import proofs.«110093_j8770323219157_1_alg».proof.Proof.WOuts
import proofs.«110093_j8770323219157_1_alg».proof.Proof.WLemmas
import Idealize.ShloMosaic.Lib.Pipeline.RegionsLoop

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ)

/-- An input window's array is, in the proof data, the entry contents at its buffer; -/
theorem hA2 (c : Dev nD) (w : Fin cfg2.W) : (pdats m 2 c).A w = V4 m (outs m) c (Pipeline.arrRef spec2 w) := rfl

/-- every window but the last two is an input, over a buffer other than the region's two output buffers. -/
theorem key2 : ∀ w : Fin cfg2.W, w ≠ 5 → w ≠ 6 → (cfg2.win w).isOut = false ∧ Pipeline.arrRef spec2 w ∉ ([main_v57_0, main_v57_1] : List (Ref sig .tc)) := by decide

/-- At region 2's exit each of its arrays holds what the pipeline leaves, -/
theorem hF2 (c : Dev nD) : ∀ w : Fin cfg2.W, (pdats m 2 c).arrAt w cfg2.N = (fun b => V5 m (outs m) c b : (b : Ref sig .tc) → Buf (Elt F) ((c : Thread nD τ).loc b)) (Pipeline.arrRef spec2 w) := by
  intro w
  by_cases h5 : w = 5
  · subst h5; exact (V5_v57_0 m c).symm
  by_cases h6 : w = 6
  · subst h6; exact (V5_v57_1 m c).symm
  obtain ⟨hin, hne⟩ := key2 w h5 h6
  exact ((pdats m 2 c).arrAt_in w hin _).trans ((hA2 m c w).trans (V5_of m (outs m) c _ hne).symm)
/-- and every other buffer what it held at entry. -/
theorem hrest2 (c : Dev nD) : ∀ b : Ref sig .tc, b ∉ Finset.univ.image (Pipeline.arrRef spec2) → V5 m (outs m) c b = V4 m (outs m) c b :=
  fun b hb => V5_of m (outs m) c b fun hmem => hb (by
    simp only [List.mem_cons, List.not_mem_nil, or_false] at hmem
    rcases hmem with rfl | rfl
    · exact Finset.mem_image.mpr ⟨5, Finset.mem_univ _, rfl⟩
    · exact Finset.mem_image.mpr ⟨6, Finset.mem_univ _, rfl⟩)

/-- After the last point the invariant gives the class invariant back. -/
theorem Phi2_last (c : Dev nD) : (pdats m 2 c).Φ (Fin.last _) ⊢ Pipeline.ΦA spec2 c :=
  Phi2_out (fun c b => V4 m (outs m) c b) c cfg2.N (by decide)

set_option backward.isDefEq.respectTransparency.types false in
/-- REGION 2 over the thread state: entered from every unscoped buffer at the contents before it, left at the contents
    after it. Its arrays split out of the unscoped buffers and put back at the exit contents; the generator register
    into the invariant and out; nothing owed; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V4 m (outs m) c b) c).loose
  hwaits := Pipeline.hwaits_of_owed_zero _ _ _ _ L lv 2 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V4 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => V4 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi2_last m c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => V4 m (outs m) c b) (fun b => V5 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.WRun

end
-- ==== Proof.WBody3.lean ====
import proofs.«110093_j8770323219157_1_alg».proof.Proof.WData
import proofs.«110093_j8770323219157_1_alg».proof.Proof.WLemmas
import Idealize.ShloMosaic.Lib.Exec

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : VT F)

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem after3_1 (c : Dev nD) (t : Fin cfg3.N) : (dat3 V c).after 1 t = iblk3 V c 1 t := by dsimp only [dat3]
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem after3_2 (c : Dev nD) (t : Fin cfg3.N) : (dat3 V c).after 2 t = iblk3 V c 2 t := by dsimp only [dat3]
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem after3_3 (c : Dev nD) (t : Fin cfg3.N) : (dat3 V c).after 3 t = iblk3 V c 3 t := by dsimp only [dat3]
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem after3_4 (c : Dev nD) (t : Fin cfg3.N) : (dat3 V c).after 4 t = iblk3 V c 4 t := by dsimp only [dat3]
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem after3_5 (c : Dev nD) (t : Fin cfg3.N) : (dat3 V c).after 5 t = iblk3 V c 5 t := by dsimp only [dat3]
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem after3_6 (c : Dev nD) (t : Fin cfg3.N) : (dat3 V c).after 6 t = iblk3 V c 6 t := by dsimp only [dat3]
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem after3_7 (c : Dev nD) (t : Fin cfg3.N) : (dat3 V c).after 7 t = iblk3 V c 7 t := by dsimp only [dat3]
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
theorem after3_8 (c : Dev nD) (t : Fin cfg3.N) : (dat3 V c).after 8 t = iblk3 V c 8 t := by dsimp only [dat3]
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)
theorem after3_9 (c : Dev nD) (t : Fin cfg3.N) : (dat3 V c).after 9 t = iblk3 V c 9 t := by dsimp only [dat3]
theorem before3_9 (c : Dev nD) (t : Fin cfg3.N) (d) : (dat3 V c).before 9 t d = iblk3 V c 9 t :=
  ((dat3 V c).before_in_eq_fetched 9 rfl (fun _ => rfl) (fun _ _ _ => rfl) (fun t => by rw [after3_9]; unfold Dat.blockOf iblk3; rw [A_eq3]; try rfl) t d).trans
    (by unfold Dat.fetched Dat.blockOf iblk3; rw [A_eq3]; try rfl)
theorem after3_10 (c : Dev nD) (t : Fin cfg3.N) : (dat3 V c).after 10 t = iblk3 V c 10 t := by dsimp only [dat3]
theorem before3_10 (c : Dev nD) (t : Fin cfg3.N) (d) : (dat3 V c).before 10 t d = iblk3 V c 10 t :=
  ((dat3 V c).before_in_eq_fetched 10 rfl (fun _ => rfl) (fun _ _ _ => rfl) (fun t => by rw [after3_10]; unfold Dat.blockOf iblk3; rw [A_eq3]; try rfl) t d).trans
    (by unfold Dat.fetched Dat.blockOf iblk3; rw [A_eq3]; try rfl)
theorem after3_11 (c : Dev nD) (t : Fin cfg3.N) : (dat3 V c).after 11 t = out3_11 V c t := by dsimp only [dat3]

set_option maxHeartbeats 4000000 in
/-- The kernel body on whole staging memrefs, the inputs' at read contents and the output's at anything, runs to the
    continuation holding the inputs' as they were and the output's at its payload of the inputs'. -/
theorem sound_kernel3 (c : Dev nD) (E : Set ℕ) (i : grid3.Coords) (arg1 : Memref sig .tc .vmem S2000x64 .f32) (harg1 : arg1.IsWhole) (arg2 : Memref sig .tc .vmem S2000x64 .f32) (harg2 : arg2.IsWhole) (arg3 : Memref sig .tc .vmem S2000x8 .f32) (harg3 : arg3.IsWhole) (arg4 : Memref sig .tc .vmem S136x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S2000x64 .f32) (harg12 : arg12.IsWhole)
    (x0 : Vec F S2000x64 .f32) (x1 : Vec F S2000x64 .f32) (x2 : Vec F S2000x8 .f32) (x3 : Vec F S136x64 .f32) (x4 : Vec F S1x64 .f32) (x5 : Vec F S1x64 .f32) (x6 : Vec F S1x64 .f32) (x7 : Vec F S1x64 .f32) (x8 : Vec F S1x64 .f32) (x9 : Vec F S64x64 .f32) (x10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (k3_pay1 x0 (k3_pay2 x0 x1 x2 x3 x4 x7 x8 x5 x6) x9 x10)) -∗ K ⟨⟩))
      ⊢ wp frame (wpE (defs₀ (F := F)) Variants.none c none) E (cc3__node_mlp_kernel i arg1 harg1 arg2 harg2 arg3 harg3 arg4 harg4 arg5 harg5 arg6 harg6 arg7 harg7 arg8 harg8 arg9 harg9 arg10 harg10 arg11 harg11 arg12 harg12) K := by
  sl_unfold [cc3__node_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (read_writes_full arg12.view _ ![0, 0] off00 _ _).trans ?_
  show k3_pay1 (View.readAt (Elt F) arg1.view (Rect.unit (s := S2000x64) ![0, 0] S2000x64.size inb_S2000x64_S2000x64_0_0).toLoadRect f0) (k3_pay2 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7) (View.readAt (Elt F) arg9.view (Rect.unit (s := S1x64) ![0, 0] S1x64.size inb_S1x64_S1x64_0_0).toLoadRect f8) (View.readAt (Elt F) arg6.view (Rect.unit (s := S1x64) ![0, 0] S1x64.size inb_S1x64_S1x64_0_0).toLoadRect f5) (View.readAt (Elt F) arg7.view (Rect.unit (s := S1x64) ![0, 0] S1x64.size inb_S1x64_S1x64_0_0).toLoadRect f6)) (View.readAt (Elt F) arg10.view (Rect.unit (s := S64x64) ![0, 0] S64x64.size inb_S64x64_S64x64_0_0).toLoadRect f9) (View.readAt (Elt F) arg11.view (Rect.unit (s := S1x64) ![0, 0] S1x64.size inb_S1x64_S1x64_0_0).toLoadRect f10) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg6.view f5 ![0, 0] off00, readAt_full arg7.view f6 ![0, 0] off00, readAt_full arg8.view f7 ![0, 0] off00, readAt_full arg9.view f8 ![0, 0] off00, readAt_full arg10.view f9 ![0, 0] off00, readAt_full arg11.view f10 ![0, 0] off00]

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

set_option maxHeartbeats 4000000 in
/-- The body at any point: the inputs' memrefs hold their blocks, so the kernel's triple applies; the invariant and the
    core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  unfold out3_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.WRun

end
-- ==== Proof.WReg3.lean ====
import proofs.«110093_j8770323219157_1_alg».proof.Proof.WBody3
import proofs.«110093_j8770323219157_1_alg».proof.Proof.WOuts
import proofs.«110093_j8770323219157_1_alg».proof.Proof.WLemmas
import Idealize.ShloMosaic.Lib.Pipeline.RegionsLoop

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ)

/-- An input window's array is, in the proof data, the entry contents at its buffer; -/
theorem hA3 (c : Dev nD) (w : Fin cfg3.W) : (pdats m 3 c).A w = V5 m (outs m) c (Pipeline.arrRef spec3 w) := rfl

/-- every window but the last is an input, over a buffer other than the region's output buffer. -/
theorem key3 : ∀ w : Fin cfg3.W, w ≠ 11 → (cfg3.win w).isOut = false ∧ Pipeline.arrRef spec3 w ∉ ([main_v58] : List (Ref sig .tc)) := by decide

/-- At region 3's exit each of its arrays holds what the pipeline leaves, -/
theorem hF3 (c : Dev nD) : ∀ w : Fin cfg3.W, (pdats m 3 c).arrAt w cfg3.N = (fun b => V6 m (outs m) c b : (b : Ref sig .tc) → Buf (Elt F) ((c : Thread nD τ).loc b)) (Pipeline.arrRef spec3 w) := by
  intro w
  by_cases h : w = 11
  · subst h; exact (V6_v58 m c).symm
  · obtain ⟨hin, hne⟩ := key3 w h
    exact ((pdats m 3 c).arrAt_in w hin _).trans ((hA3 m c w).trans (V6_of m (outs m) c _ hne).symm)
/-- and every other buffer what it held at entry. -/
theorem hrest3 (c : Dev nD) : ∀ b : Ref sig .tc, b ∉ Finset.univ.image (Pipeline.arrRef spec3) → V6 m (outs m) c b = V5 m (outs m) c b :=
  fun b hb => V6_of m (outs m) c b fun hmem => hb (by
    simp only [List.mem_cons, List.not_mem_nil, or_false] at hmem
    rcases hmem with rfl
    exact Finset.mem_image.mpr ⟨11, Finset.mem_univ _, rfl⟩)

set_option backward.isDefEq.respectTransparency.types false in
/-- REGION 3 over the thread state: entered from every unscoped buffer at the contents before it, left at the contents
    after it. Its arrays split out of the unscoped buffers and put back at the exit contents; the generator register
    into the invariant and out; nothing owed; no semaphore of the kernel's own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V5 m (outs m) c b) c).loose
  hwaits := Pipeline.hwaits_of_owed_zero _ _ _ _ L lv 3 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V5 m (outs m) c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => V5 m (outs m) c b) (fun b => V6 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.WRun

end
-- ==== Proof.WRun.lean ====
import proofs.«110093_j8770323219157_1_alg».proof.Proof.WReg0
import proofs.«110093_j8770323219157_1_alg».proof.Proof.WReg1
import proofs.«110093_j8770323219157_1_alg».proof.Proof.WReg2
import proofs.«110093_j8770323219157_1_alg».proof.Proof.WReg3

set_option maxRecDepth 16384

noncomputable section

namespace Cert.Kernel.WRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The rest that rides beside the buffers between any two items: the same at every boundary. -/
abbrev ER : Fin 5 → Dev nD → sProp 𝕄 := fun _ c => R c

set_option backward.isDefEq.respectTransparency.types false in
set_option maxHeartbeats 4000000 in
/-- THE FRAME. From any memory with zero counters every weakly fair execution of @main terminates, nothing faulting,
    and every final memory holds each argument array as launched: the generated conditional frame at the four regions'
    records, the rest between items being the generator register at some state and the core owing nothing. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Gen.frame_cond (F := F) (m := m) (Ix := Unit) (U := UR sig nD τ) (Lvl := ℕ) (EP := emb₁) (ι := ()) (𝒱₀ := 𝒱₀) (L := L) (lv := lv)
    (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := ER (F := F))
    (hE0 := by
      refine Pipeline.initEach L lv fun c => ?_
      iintro ⟨⟨-, HO, -, Hp, -⟩, -⟩
      imodintro
      isplitl [Hp]; · iexists _; iexact Hp
      iexists ∅; iexact HO)
    (hE4 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

end Cert.Kernel.WRun

end
-- ==== Proof.PFrameW.lean ====
/- The word-level program's frame claim with the witnesses the certificate binds: from its run, at the machine floats. -/
import proofs.«110093_j8770323219157_1_alg».proof.Defs
import proofs.«110093_j8770323219157_1_alg».proof.Proof.Gen.Kernel
import proofs.«110093_j8770323219157_1_alg».proof.Proof.Gen.Pre_finite_inputs
import proofs.«110093_j8770323219157_1_alg».proof.Proof.WRun

noncomputable section

namespace Cert.Proof.Parts

open Idealize.ShloMosaic Idealize.SL.Sem

/-- `Kernel` runs and its argument arrays end unchanged. -/
theorem frame_w : Cert.frame_Kernel (hKernel := Cert.Kernel.Gen.facts)
    (hPre_finite_inputs := Cert.Pre_finite_inputs.Gen.facts) :=
  fun m g _ => Cert.Kernel.WRun.frame (F := Bits) m g

end Cert.Proof.Parts

end
-- ==== Proof.RefStages.lean ====
/- The reference program's host operations as pure functions of their operands' values, one named stage per
   operation (`st_‹buffer›`), the module-local functions (`_var`, `_where`, `relu`, `clip`) inlined at their call
   sites over the call's buffers; and each buffer's value as a function of the arguments it depends on
   (`val_‹buffer›`: the buffer's stage applied to its operands' values). No separation logic here. -/
import proofs.«110093_j8770323219157_1_alg».proof.Proof.Gen.ReferenceIdeal

noncomputable section

namespace Cert.ReferenceIdeal.RefRun

open Cert.ReferenceIdeal Cert.ReferenceIdeal.Gen Idealize.ShloMosaic

variable {F : FTy → Type} [FloatOps F]

/-! ## One stage per operation: the operation's function applied to its operands' values -/

def st_c : (⟨S_, .i32⟩ : BufTy).Contents (Elt F) :=
  constantI S_ 32 0#32
def st_v0 (c : (⟨S_, .i32⟩ : BufTy).Contents (Elt F)) : (⟨S800000, .i32⟩ : BufTy).Contents (Elt F) :=
  broadcastInDim S800000 ![] bcast_S_S800000 c
def st_v1 (a2 : (⟨S800000, .i32⟩ : BufTy).Contents (Elt F)) (v0 : (⟨S800000, .i32⟩ : BufTy).Contents (Elt F)) : (⟨S800000, .i1⟩ : BufTy).Contents (Elt F) :=
  cmpi .slt a2 v0
def st_c_0 : (⟨S_, .i32⟩ : BufTy).Contents (Elt F) :=
  constantI S_ 32 50000#32
def st_v2 (c_0 : (⟨S_, .i32⟩ : BufTy).Contents (Elt F)) : (⟨S800000, .i32⟩ : BufTy).Contents (Elt F) :=
  broadcastInDim S800000 ![] bcast_S_S800000 c_0
def st_v3 (a2 : (⟨S800000, .i32⟩ : BufTy).Contents (Elt F)) (v2 : (⟨S800000, .i32⟩ : BufTy).Contents (Elt F)) : (⟨S800000, .i32⟩ : BufTy).Contents (Elt F) :=
  addi a2 v2
def st_v4 (v1 : (⟨S800000, .i1⟩ : BufTy).Contents (Elt F)) (v3 : (⟨S800000, .i32⟩ : BufTy).Contents (Elt F)) (a2 : (⟨S800000, .i32⟩ : BufTy).Contents (Elt F)) : (⟨S800000, .i32⟩ : BufTy).Contents (Elt F) :=
  select v1 v3 a2
def st_v5 (v4 : (⟨S800000, .i32⟩ : BufTy).Contents (Elt F)) : (⟨S800000x1, .i32⟩ : BufTy).Contents (Elt F) :=
  broadcastInDim S800000x1 ![0] bcast_S800000_S800000x1_0 v4
def st_v6 (a1 : (⟨S50000x4, .f32⟩ : BufTy).Contents (Elt F)) (v5 : (⟨S800000x1, .i32⟩ : BufTy).Contents (Elt F)) : (⟨S800000x4, .f32⟩ : BufTy).Contents (Elt F) :=
  Host.gather gather_S50000x4_S800000x1_S800000x4_1_0_n_n_0_1_14 a1 v5
def st_c_1 : (⟨S_, .i32⟩ : BufTy).Contents (Elt F) :=
  constantI S_ 32 0#32
def st_v7 (c_1 : (⟨S_, .i32⟩ : BufTy).Contents (Elt F)) : (⟨S800000, .i32⟩ : BufTy).Contents (Elt F) :=
  broadcastInDim S800000 ![] bcast_S_S800000 c_1
def st_v8 (a3 : (⟨S800000, .i32⟩ : BufTy).Contents (Elt F)) (v7 : (⟨S800000, .i32⟩ : BufTy).Contents (Elt F)) : (⟨S800000, .i1⟩ : BufTy).Contents (Elt F) :=
  cmpi .slt a3 v7
def st_c_2 : (⟨S_, .i32⟩ : BufTy).Contents (Elt F) :=
  constantI S_ 32 50000#32
def st_v9 (c_2 : (⟨S_, .i32⟩ : BufTy).Contents (Elt F)) : (⟨S800000, .i32⟩ : BufTy).Contents (Elt F) :=
  broadcastInDim S800000 ![] bcast_S_S800000 c_2
def st_v10 (a3 : (⟨S800000, .i32⟩ : BufTy).Contents (Elt F)) (v9 : (⟨S800000, .i32⟩ : BufTy).Contents (Elt F)) : (⟨S800000, .i32⟩ : BufTy).Contents (Elt F) :=
  addi a3 v9
def st_v11 (v8 : (⟨S800000, .i1⟩ : BufTy).Contents (Elt F)) (v10 : (⟨S800000, .i32⟩ : BufTy).Contents (Elt F)) (a3 : (⟨S800000, .i32⟩ : BufTy).Contents (Elt F)) : (⟨S800000, .i32⟩ : BufTy).Contents (Elt F) :=
  select v8 v10 a3
def st_v12 (v11 : (⟨S800000, .i32⟩ : BufTy).Contents (Elt F)) : (⟨S800000x1, .i32⟩ : BufTy).Contents (Elt F) :=
  broadcastInDim S800000x1 ![0] bcast_S800000_S800000x1_0 v11
def st_v13 (a1 : (⟨S50000x4, .f32⟩ : BufTy).Contents (Elt F)) (v12 : (⟨S800000x1, .i32⟩ : BufTy).Contents (Elt F)) : (⟨S800000x4, .f32⟩ : BufTy).Contents (Elt F) :=
  Host.gather gather_S50000x4_S800000x1_S800000x4_1_0_n_n_0_1_14 a1 v12
def st_v14 (v6 : (⟨S800000x4, .f32⟩ : BufTy).Contents (Elt F)) (v13 : (⟨S800000x4, .f32⟩ : BufTy).Contents (Elt F)) : (⟨S800000x4, .f32⟩ : BufTy).Contents (Elt F) :=
  subf v6 v13
def st_v15 (v14 : (⟨S800000x4, .f32⟩ : BufTy).Contents (Elt F)) : (⟨S800000x4, .f32⟩ : BufTy).Contents (Elt F) :=
  mulf v14 v14
def st_v16 (v15 : (⟨S800000x4, .f32⟩ : BufTy).Contents (Elt F)) : (⟨S800000x1, .f32⟩ : BufTy).Contents (Elt F) :=
  extractStridedSlice S800000x1 ![0, 0] v15 slices_S800000x4_S800000x1_0_0
def st_v17 (v16 : (⟨S800000x1, .f32⟩ : BufTy).Contents (Elt F)) : (⟨S800000, .f32⟩ : BufTy).Contents (Elt F) :=
  shapeCast S800000 v16 shapeCasts_S800000x1_S800000
def st_cst : (⟨S_, .f32⟩ : BufTy).Contents (Elt F) :=
  constant S_ .f32 0x40000000#32
def st_v18 (cst : (⟨S_, .f32⟩ : BufTy).Contents (Elt F)) : (⟨S800000, .f32⟩ : BufTy).Contents (Elt F) :=
  broadcastInDim S800000 ![] bcast_S_S800000 cst
def st_v19 (v18 : (⟨S800000, .f32⟩ : BufTy).Contents (Elt F)) (v17 : (⟨S800000, .f32⟩ : BufTy).Contents (Elt F)) : (⟨S800000, .f32⟩ : BufTy).Contents (Elt F) :=
  mulf v18 v17
def st_cst_3 : (⟨S_, .f32⟩ : BufTy).Contents (Elt F) :=
  constant S_ .f32 0x00000000#32
def st_v20 (v15 : (⟨S800000x4, .f32⟩ : BufTy).Contents (Elt F)) (cst_3 : (⟨S_, .f32⟩ : BufTy).Contents (Elt F)) : (⟨S800000, .f32⟩ : BufTy).Contents (Elt F) :=
  Host.reduceAdd v15 cst_3 reducesTo_S800000x4_S800000_d1 h_S_
def st_v21 (v19 : (⟨S800000, .f32⟩ : BufTy).Contents (Elt F)) (v20 : (⟨S800000, .f32⟩ : BufTy).Contents (Elt F)) : (⟨S800000, .f32⟩ : BufTy).Contents (Elt F) :=
  subf v19 v20
def st_v22 (v21 : (⟨S800000, .f32⟩ : BufTy).Contents (Elt F)) : (⟨S800000, .f32⟩ : BufTy).Contents (Elt F) :=
  Host.sign v21
def st_v23 (v21 : (⟨S800000, .f32⟩ : BufTy).Contents (Elt F)) : (⟨S800000, .f32⟩ : BufTy).Contents (Elt F) :=
  Host.absf v21
def st_cst_4 : (⟨S_, .f32⟩ : BufTy).Contents (Elt F) :=
  constant S_ .f32 0x3F800000#32
def st_v24 (cst_4 : (⟨S_, .f32⟩ : BufTy).Contents (Elt F)) : (⟨S800000, .f32⟩ : BufTy).Contents (Elt F) :=
  broadcastInDim S800000 ![] bcast_S_S800000 cst_4
def st_v25 (v23 : (⟨S800000, .f32⟩ : BufTy).Contents (Elt F)) (v24 : (⟨S800000, .f32⟩ : BufTy).Contents (Elt F)) : (⟨S800000, .f32⟩ : BufTy).Contents (Elt F) :=
  addf v23 v24
def st_v26 (v25 : (⟨S800000, .f32⟩ : BufTy).Contents (Elt F)) : (⟨S800000, .f32⟩ : BufTy).Contents (Elt F) :=
  Host.log v25
def st_v27 (v22 : (⟨S800000, .f32⟩ : BufTy).Contents (Elt F)) (v26 : (⟨S800000, .f32⟩ : BufTy).Contents (Elt F)) : (⟨S800000, .f32⟩ : BufTy).Contents (Elt F) :=
  mulf v22 v26
def st_v28 (v27 : (⟨S800000, .f32⟩ : BufTy).Contents (Elt F)) : (⟨S800000x1, .f32⟩ : BufTy).Contents (Elt F) :=
  broadcastInDim S800000x1 ![0] bcast_S800000_S800000x1_0 v27
def st_v29 (v6 : (⟨S800000x4, .f32⟩ : BufTy).Contents (Elt F)) (v13 : (⟨S800000x4, .f32⟩ : BufTy).Contents (Elt F)) : (⟨S800000x4, .f32⟩ : BufTy).Contents (Elt F) :=
  mulf v6 v13
def st_v30 (v29 : (⟨S800000x4, .f32⟩ : BufTy).Contents (Elt F)) : (⟨S800000x1, .f32⟩ : BufTy).Contents (Elt F) :=
  extractStridedSlice S800000x1 ![0, 0] v29 slices_S800000x4_S800000x1_0_0
def st_v31 (v30 : (⟨S800000x1, .f32⟩ : BufTy).Contents (Elt F)) : (⟨S800000, .f32⟩ : BufTy).Contents (Elt F) :=
  shapeCast S800000 v30 shapeCasts_S800000x1_S800000
def st_cst_5 : (⟨S_, .f32⟩ : BufTy).Contents (Elt F) :=
  constant S_ .f32 0x40000000#32
def st_v32 (cst_5 : (⟨S_, .f32⟩ : BufTy).Contents (Elt F)) : (⟨S800000, .f32⟩ : BufTy).Contents (Elt F) :=
  broadcastInDim S800000 ![] bcast_S_S800000 cst_5
def st_v33 (v32 : (⟨S800000, .f32⟩ : BufTy).Contents (Elt F)) (v31 : (⟨S800000, .f32⟩ : BufTy).Contents (Elt F)) : (⟨S800000, .f32⟩ : BufTy).Contents (Elt F) :=
  mulf v32 v31
def st_cst_6 : (⟨S_, .f32⟩ : BufTy).Contents (Elt F) :=
  constant S_ .f32 0x00000000#32
def st_v34 (v29 : (⟨S800000x4, .f32⟩ : BufTy).Contents (Elt F)) (cst_6 : (⟨S_, .f32⟩ : BufTy).Contents (Elt F)) : (⟨S800000, .f32⟩ : BufTy).Contents (Elt F) :=
  Host.reduceAdd v29 cst_6 reducesTo_S800000x4_S800000_d1 h_S_
def st_v35 (v33 : (⟨S800000, .f32⟩ : BufTy).Contents (Elt F)) (v34 : (⟨S800000, .f32⟩ : BufTy).Contents (Elt F)) : (⟨S800000, .f32⟩ : BufTy).Contents (Elt F) :=
  subf v33 v34
def st_v36 (v35 : (⟨S800000, .f32⟩ : BufTy).Contents (Elt F)) : (⟨S800000, .f32⟩ : BufTy).Contents (Elt F) :=
  Host.sign v35
def st_v37 (v35 : (⟨S800000, .f32⟩ : BufTy).Contents (Elt F)) : (⟨S800000, .f32⟩ : BufTy).Contents (Elt F) :=
  Host.absf v35
def st_cst_7 : (⟨S_, .f32⟩ : BufTy).Contents (Elt F) :=
  constant S_ .f32 0x3F800000#32
def st_v38 (cst_7 : (⟨S_, .f32⟩ : BufTy).Contents (Elt F)) : (⟨S800000, .f32⟩ : BufTy).Contents (Elt F) :=
  broadcastInDim S800000 ![] bcast_S_S800000 cst_7
def st_v39 (v37 : (⟨S800000, .f32⟩ : BufTy).Contents (Elt F)) (v38 : (⟨S800000, .f32⟩ : BufTy).Contents (Elt F)) : (⟨S800000, .f32⟩ : BufTy).Contents (Elt F) :=
  addf v37 v38
def st_v40 (v39 : (⟨S800000, .f32⟩ : BufTy).Contents (Elt F)) : (⟨S800000, .f32⟩ : BufTy).Contents (Elt F) :=
  Host.log v39
def st_v41 (v36 : (⟨S800000, .f32⟩ : BufTy).Contents (Elt F)) (v40 : (⟨S800000, .f32⟩ : BufTy).Contents (Elt F)) : (⟨S800000, .f32⟩ : BufTy).Contents (Elt F) :=
  mulf v36 v40
def st_v42 (v41 : (⟨S800000, .f32⟩ : BufTy).Contents (Elt F)) : (⟨S800000x1, .f32⟩ : BufTy).Contents (Elt F) :=
  broadcastInDim S800000x1 ![0] bcast_S800000_S800000x1_0 v41
def st_c_8 : (⟨S_, .i32⟩ : BufTy).Contents (Elt F) :=
  constantI S_ 32 0#32
def st_v43 (c_8 : (⟨S_, .i32⟩ : BufTy).Contents (Elt F)) : (⟨S800000, .i32⟩ : BufTy).Contents (Elt F) :=
  broadcastInDim S800000 ![] bcast_S_S800000 c_8
def st_v44 (a2 : (⟨S800000, .i32⟩ : BufTy).Contents (Elt F)) (v43 : (⟨S800000, .i32⟩ : BufTy).Contents (Elt F)) : (⟨S800000, .i1⟩ : BufTy).Contents (Elt F) :=
  cmpi .slt a2 v43
def st_c_9 : (⟨S_, .i32⟩ : BufTy).Contents (Elt F) :=
  constantI S_ 32 50000#32
def st_v45 (c_9 : (⟨S_, .i32⟩ : BufTy).Contents (Elt F)) : (⟨S800000, .i32⟩ : BufTy).Contents (Elt F) :=
  broadcastInDim S800000 ![] bcast_S_S800000 c_9
def st_v46 (a2 : (⟨S800000, .i32⟩ : BufTy).Contents (Elt F)) (v45 : (⟨S800000, .i32⟩ : BufTy).Contents (Elt F)) : (⟨S800000, .i32⟩ : BufTy).Contents (Elt F) :=
  addi a2 v45
def st_v47 (v44 : (⟨S800000, .i1⟩ : BufTy).Contents (Elt F)) (v46 : (⟨S800000, .i32⟩ : BufTy).Contents (Elt F)) (a2 : (⟨S800000, .i32⟩ : BufTy).Contents (Elt F)) : (⟨S800000, .i32⟩ : BufTy).Contents (Elt F) :=
  select v44 v46 a2
def st_v48 (v47 : (⟨S800000, .i32⟩ : BufTy).Contents (Elt F)) : (⟨S800000x1, .i32⟩ : BufTy).Contents (Elt F) :=
  broadcastInDim S800000x1 ![0] bcast_S800000_S800000x1_0 v47
def st_v49 (a0 : (⟨S50000x64, .f32⟩ : BufTy).Contents (Elt F)) (v48 : (⟨S800000x1, .i32⟩ : BufTy).Contents (Elt F)) : (⟨S800000x64, .f32⟩ : BufTy).Contents (Elt F) :=
  Host.gather gather_S50000x64_S800000x1_S800000x64_1_0_n_n_0_1_164 a0 v48
def st_c_10 : (⟨S_, .i32⟩ : BufTy).Contents (Elt F) :=
  constantI S_ 32 0#32
def st_v50 (c_10 : (⟨S_, .i32⟩ : BufTy).Contents (Elt F)) : (⟨S800000, .i32⟩ : BufTy).Contents (Elt F) :=
  broadcastInDim S800000 ![] bcast_S_S800000 c_10
def st_v51 (a3 : (⟨S800000, .i32⟩ : BufTy).Contents (Elt F)) (v50 : (⟨S800000, .i32⟩ : BufTy).Contents (Elt F)) : (⟨S800000, .i1⟩ : BufTy).Contents (Elt F) :=
  cmpi .slt a3 v50
def st_c_11 : (⟨S_, .i32⟩ : BufTy).Contents (Elt F) :=
  constantI S_ 32 50000#32
def st_v52 (c_11 : (⟨S_, .i32⟩ : BufTy).Contents (Elt F)) : (⟨S800000, .i32⟩ : BufTy).Contents (Elt F) :=
  broadcastInDim S800000 ![] bcast_S_S800000 c_11
def st_v53 (a3 : (⟨S800000, .i32⟩ : BufTy).Contents (Elt F)) (v52 : (⟨S800000, .i32⟩ : BufTy).Contents (Elt F)) : (⟨S800000, .i32⟩ : BufTy).Contents (Elt F) :=
  addi a3 v52
def st_v54 (v51 : (⟨S800000, .i1⟩ : BufTy).Contents (Elt F)) (v53 : (⟨S800000, .i32⟩ : BufTy).Contents (Elt F)) (a3 : (⟨S800000, .i32⟩ : BufTy).Contents (Elt F)) : (⟨S800000, .i32⟩ : BufTy).Contents (Elt F) :=
  select v51 v53 a3
def st_v55 (v54 : (⟨S800000, .i32⟩ : BufTy).Contents (Elt F)) : (⟨S800000x1, .i32⟩ : BufTy).Contents (Elt F) :=
  broadcastInDim S800000x1 ![0] bcast_S800000_S800000x1_0 v54
def st_v56 (a0 : (⟨S50000x64, .f32⟩ : BufTy).Contents (Elt F)) (v55 : (⟨S800000x1, .i32⟩ : BufTy).Contents (Elt F)) : (⟨S800000x64, .f32⟩ : BufTy).Contents (Elt F) :=
  Host.gather gather_S50000x64_S800000x1_S800000x64_1_0_n_n_0_1_164 a0 v55
def st_v57 (v49 : (⟨S800000x64, .f32⟩ : BufTy).Contents (Elt F)) (v56 : (⟨S800000x64, .f32⟩ : BufTy).Contents (Elt F)) (v28 : (⟨S800000x1, .f32⟩ : BufTy).Contents (Elt F)) (v42 : (⟨S800000x1, .f32⟩ : BufTy).Contents (Elt F)) : (⟨S800000x130, .f32⟩ : BufTy).Contents (Elt F) :=
  concatenate S800000x130 1 [⟨S800000x64, v49⟩, ⟨S800000x64, v56⟩, ⟨S800000x1, v28⟩, ⟨S800000x1, v42⟩] concatenates_S800000x64_S800000x64_S800000x1_S800000x1_S800000x130_d1
def st_v58 (v57 : (⟨S800000x130, .f32⟩ : BufTy).Contents (Elt F)) (a5 : (⟨S130x64, .f32⟩ : BufTy).Contents (Elt F)) : (⟨S800000x64, .f32⟩ : BufTy).Contents (Elt F) :=
  Host.dotGeneral dot_S800000x130_S130x64_S800000x64_1_0_0_1_n_n none v57 a5
def st_cst_12 : (⟨S_, .f32⟩ : BufTy).Contents (Elt F) :=
  constant S_ .f32 0x00000000#32
def st_v59 (v58 : (⟨S800000x64, .f32⟩ : BufTy).Contents (Elt F)) (cst_12 : (⟨S_, .f32⟩ : BufTy).Contents (Elt F)) : (⟨S64, .f32⟩ : BufTy).Contents (Elt F) :=
  Host.reduceAdd v58 cst_12 reducesTo_S800000x64_S64_d0 h_S_
def st_cst_13 : (⟨S_, .f32⟩ : BufTy).Contents (Elt F) :=
  constant S_ .f32 0x49435000#32
def st_v60 (cst_13 : (⟨S_, .f32⟩ : BufTy).Contents (Elt F)) : (⟨S64, .f32⟩ : BufTy).Contents (Elt F) :=
  broadcastInDim S64 ![] bcast_S_S64 cst_13
def st_v61 (v59 : (⟨S64, .f32⟩ : BufTy).Contents (Elt F)) (v60 : (⟨S64, .f32⟩ : BufTy).Contents (Elt F)) : (⟨S64, .f32⟩ : BufTy).Contents (Elt F) :=
  Host.divf v59 v60
def st_c_14 : (⟨S_, .i32⟩ : BufTy).Contents (Elt F) :=
  constantI S_ 32 0#32
def st_call0_cst : (⟨S_, .f32⟩ : BufTy).Contents (Elt F) :=
  constant S_ .f32 0x00000000#32
def st_call0_v0 (v58 : (⟨S800000x64, .f32⟩ : BufTy).Contents (Elt F)) (call0_cst : (⟨S_, .f32⟩ : BufTy).Contents (Elt F)) : (⟨S64, .f32⟩ : BufTy).Contents (Elt F) :=
  Host.reduceAdd v58 call0_cst reducesTo_S800000x64_S64_d0 h_S_
def st_call0_v1 (call0_v0 : (⟨S64, .f32⟩ : BufTy).Contents (Elt F)) : (⟨S1x64, .f32⟩ : BufTy).Contents (Elt F) :=
  broadcastInDim S1x64 ![1] bcast_S64_S1x64_1 call0_v0
def st_call0_cst_0 : (⟨S_, .f32⟩ : BufTy).Contents (Elt F) :=
  constant S_ .f32 0x49435000#32
def st_call0_v2 (call0_cst_0 : (⟨S_, .f32⟩ : BufTy).Contents (Elt F)) : (⟨S1x64, .f32⟩ : BufTy).Contents (Elt F) :=
  broadcastInDim S1x64 ![] bcast_S_S1x64 call0_cst_0
def st_call0_v3 (call0_v1 : (⟨S1x64, .f32⟩ : BufTy).Contents (Elt F)) (call0_v2 : (⟨S1x64, .f32⟩ : BufTy).Contents (Elt F)) : (⟨S1x64, .f32⟩ : BufTy).Contents (Elt F) :=
  Host.divf call0_v1 call0_v2
def st_call0_v4 (call0_v3 : (⟨S1x64, .f32⟩ : BufTy).Contents (Elt F)) : (⟨S800000x64, .f32⟩ : BufTy).Contents (Elt F) :=
  broadcastInDim S800000x64 ![0, 1] bcast_S1x64_S800000x64_0_1 call0_v3
def st_call0_v5 (v58 : (⟨S800000x64, .f32⟩ : BufTy).Contents (Elt F)) (call0_v4 : (⟨S800000x64, .f32⟩ : BufTy).Contents (Elt F)) : (⟨S800000x64, .f32⟩ : BufTy).Contents (Elt F) :=
  subf v58 call0_v4
def st_call0_v6 (call0_v5 : (⟨S800000x64, .f32⟩ : BufTy).Contents (Elt F)) : (⟨S800000x64, .f32⟩ : BufTy).Contents (Elt F) :=
  mulf call0_v5 call0_v5
def st_call0_v7 (c_14 : (⟨S_, .i32⟩ : BufTy).Contents (Elt F)) : (⟨S_, .f32⟩ : BufTy).Contents (Elt F) :=
  sitofp .f32 c_14
def st_call0_cst_1 : (⟨S_, .f32⟩ : BufTy).Contents (Elt F) :=
  constant S_ .f32 0x49435000#32
def st_call0_v8 (call0_cst_1 : (⟨S_, .f32⟩ : BufTy).Contents (Elt F)) (call0_v7 : (⟨S_, .f32⟩ : BufTy).Contents (Elt F)) : (⟨S_, .f32⟩ : BufTy).Contents (Elt F) :=
  subf call0_cst_1 call0_v7
def st_call0_cst_2 : (⟨S_, .f32⟩ : BufTy).Contents (Elt F) :=
  constant S_ .f32 0x00000000#32
def st_call0_v9 (call0_v6 : (⟨S800000x64, .f32⟩ : BufTy).Contents (Elt F)) (call0_cst_2 : (⟨S_, .f32⟩ : BufTy).Contents (Elt F)) : (⟨S64, .f32⟩ : BufTy).Contents (Elt F) :=
  Host.reduceAdd call0_v6 call0_cst_2 reducesTo_S800000x64_S64_d0 h_S_
def st_call0_v10 (call0_v8 : (⟨S_, .f32⟩ : BufTy).Contents (Elt F)) : (⟨S64, .f32⟩ : BufTy).Contents (Elt F) :=
  broadcastInDim S64 ![] bcast_S_S64 call0_v8
def st_call0_v11 (call0_v9 : (⟨S64, .f32⟩ : BufTy).Contents (Elt F)) (call0_v10 : (⟨S64, .f32⟩ : BufTy).Contents (Elt F)) : (⟨S64, .f32⟩ : BufTy).Contents (Elt F) :=
  Host.divf call0_v9 call0_v10
def st_call0_cst_3 : (⟨S_, .f32⟩ : BufTy).Contents (Elt F) :=
  constant S_ .f32 0x00000000#32
def st_call0_v12 (call0_v8 : (⟨S_, .f32⟩ : BufTy).Contents (Elt F)) (call0_cst_3 : (⟨S_, .f32⟩ : BufTy).Contents (Elt F)) : (⟨S_, .i1⟩ : BufTy).Contents (Elt F) :=
  cmpf .ogt call0_v8 call0_cst_3
def st_call0_cst_4 : (⟨S_, .f32⟩ : BufTy).Contents (Elt F) :=
  constant S_ .f32 0x7FC00000#32
def st_call0_call0_v0 (call0_cst_4 : (⟨S_, .f32⟩ : BufTy).Contents (Elt F)) : (⟨S_, .f32⟩ : BufTy).Contents (Elt F) :=
  call0_cst_4
def st_call0_call0_v1 (call0_call0_v0 : (⟨S_, .f32⟩ : BufTy).Contents (Elt F)) : (⟨S64, .f32⟩ : BufTy).Contents (Elt F) :=
  broadcastInDim S64 ![] bcast_S_S64 call0_call0_v0
def st_v62 (call0_v12 : (⟨S_, .i1⟩ : BufTy).Contents (Elt F)) (call0_v11 : (⟨S64, .f32⟩ : BufTy).Contents (Elt F)) (call0_call0_v1 : (⟨S64, .f32⟩ : BufTy).Contents (Elt F)) : (⟨S64, .f32⟩ : BufTy).Contents (Elt F) :=
  select (broadcastInDim S64 ![] bcast_S_S64 call0_v12) call0_v11 call0_call0_v1
def st_v63 (v61 : (⟨S64, .f32⟩ : BufTy).Contents (Elt F)) : (⟨S1x64, .f32⟩ : BufTy).Contents (Elt F) :=
  broadcastInDim S1x64 ![1] bcast_S64_S1x64_1 v61
def st_v64 (v63 : (⟨S1x64, .f32⟩ : BufTy).Contents (Elt F)) : (⟨S800000x64, .f32⟩ : BufTy).Contents (Elt F) :=
  broadcastInDim S800000x64 ![0, 1] bcast_S1x64_S800000x64_0_1 v63
def st_v65 (v58 : (⟨S800000x64, .f32⟩ : BufTy).Contents (Elt F)) (v64 : (⟨S800000x64, .f32⟩ : BufTy).Contents (Elt F)) : (⟨S800000x64, .f32⟩ : BufTy).Contents (Elt F) :=
  subf v58 v64
def st_cst_15 : (⟨S_, .f32⟩ : BufTy).Contents (Elt F) :=
  constant S_ .f32 0x3727C5AC#32
def st_v66 (cst_15 : (⟨S_, .f32⟩ : BufTy).Contents (Elt F)) : (⟨S64, .f32⟩ : BufTy).Contents (Elt F) :=
  broadcastInDim S64 ![] bcast_S_S64 cst_15
def st_v67 (v62 : (⟨S64, .f32⟩ : BufTy).Contents (Elt F)) (v66 : (⟨S64, .f32⟩ : BufTy).Contents (Elt F)) : (⟨S64, .f32⟩ : BufTy).Contents (Elt F) :=
  addf v62 v66
def st_v68 (v67 : (⟨S64, .f32⟩ : BufTy).Contents (Elt F)) : (⟨S64, .f32⟩ : BufTy).Contents (Elt F) :=
  Host.sqrt v67
def st_v69 (v68 : (⟨S64, .f32⟩ : BufTy).Contents (Elt F)) : (⟨S1x64, .f32⟩ : BufTy).Contents (Elt F) :=
  broadcastInDim S1x64 ![1] bcast_S64_S1x64_1 v68
def st_v70 (v69 : (⟨S1x64, .f32⟩ : BufTy).Contents (Elt F)) : (⟨S800000x64, .f32⟩ : BufTy).Contents (Elt F) :=
  broadcastInDim S800000x64 ![0, 1] bcast_S1x64_S800000x64_0_1 v69
def st_v71 (v65 : (⟨S800000x64, .f32⟩ : BufTy).Contents (Elt F)) (v70 : (⟨S800000x64, .f32⟩ : BufTy).Contents (Elt F)) : (⟨S800000x64, .f32⟩ : BufTy).Contents (Elt F) :=
  Host.divf v65 v70
def st_v72 (a6 : (⟨S64, .f32⟩ : BufTy).Contents (Elt F)) : (⟨S1x64, .f32⟩ : BufTy).Contents (Elt F) :=
  broadcastInDim S1x64 ![1] bcast_S64_S1x64_1 a6
def st_v73 (v72 : (⟨S1x64, .f32⟩ : BufTy).Contents (Elt F)) : (⟨S800000x64, .f32⟩ : BufTy).Contents (Elt F) :=
  broadcastInDim S800000x64 ![0, 1] bcast_S1x64_S800000x64_0_1 v72
def st_v74 (v71 : (⟨S800000x64, .f32⟩ : BufTy).Contents (Elt F)) (v73 : (⟨S800000x64, .f32⟩ : BufTy).Contents (Elt F)) : (⟨S800000x64, .f32⟩ : BufTy).Contents (Elt F) :=
  mulf v71 v73
def st_v75 (a7 : (⟨S64, .f32⟩ : BufTy).Contents (Elt F)) : (⟨S1x64, .f32⟩ : BufTy).Contents (Elt F) :=
  broadcastInDim S1x64 ![1] bcast_S64_S1x64_1 a7
def st_v76 (v75 : (⟨S1x64, .f32⟩ : BufTy).Contents (Elt F)) : (⟨S800000x64, .f32⟩ : BufTy).Contents (Elt F) :=
  broadcastInDim S800000x64 ![0, 1] bcast_S1x64_S800000x64_0_1 v75
def st_v77 (v74 : (⟨S800000x64, .f32⟩ : BufTy).Contents (Elt F)) (v76 : (⟨S800000x64, .f32⟩ : BufTy).Contents (Elt F)) : (⟨S800000x64, .f32⟩ : BufTy).Contents (Elt F) :=
  addf v74 v76
def st_call1_cst : (⟨S_, .f32⟩ : BufTy).Contents (Elt F) :=
  constant S_ .f32 0x00000000#32
def st_call1_v0 (call1_cst : (⟨S_, .f32⟩ : BufTy).Contents (Elt F)) : (⟨S800000x64, .f32⟩ : BufTy).Contents (Elt F) :=
  broadcastInDim S800000x64 ![] bcast_S_S800000x64 call1_cst
def st_v78 (v77 : (⟨S800000x64, .f32⟩ : BufTy).Contents (Elt F)) (call1_v0 : (⟨S800000x64, .f32⟩ : BufTy).Contents (Elt F)) : (⟨S800000x64, .f32⟩ : BufTy).Contents (Elt F) :=
  maximumf v77 call1_v0
def st_v79 (v78 : (⟨S800000x64, .f32⟩ : BufTy).Contents (Elt F)) (a8 : (⟨S64x64, .f32⟩ : BufTy).Contents (Elt F)) : (⟨S800000x64, .f32⟩ : BufTy).Contents (Elt F) :=
  Host.dotGeneral dot_S800000x64_S64x64_S800000x64_1_0_0_1_n_n none v78 a8
def st_v80 (a9 : (⟨S64, .f32⟩ : BufTy).Contents (Elt F)) : (⟨S1x64, .f32⟩ : BufTy).Contents (Elt F) :=
  broadcastInDim S1x64 ![1] bcast_S64_S1x64_1 a9
def st_v81 (v80 : (⟨S1x64, .f32⟩ : BufTy).Contents (Elt F)) : (⟨S800000x64, .f32⟩ : BufTy).Contents (Elt F) :=
  broadcastInDim S800000x64 ![0, 1] bcast_S1x64_S800000x64_0_1 v80
def st_v82 (v79 : (⟨S800000x64, .f32⟩ : BufTy).Contents (Elt F)) (v81 : (⟨S800000x64, .f32⟩ : BufTy).Contents (Elt F)) : (⟨S800000x64, .f32⟩ : BufTy).Contents (Elt F) :=
  addf v79 v81
def st_call2_cst : (⟨S_, .f32⟩ : BufTy).Contents (Elt F) :=
  constant S_ .f32 0x00000000#32
def st_call2_v0 (call2_cst : (⟨S_, .f32⟩ : BufTy).Contents (Elt F)) : (⟨S800000x64, .f32⟩ : BufTy).Contents (Elt F) :=
  broadcastInDim S800000x64 ![] bcast_S_S800000x64 call2_cst
def st_v83 (v82 : (⟨S800000x64, .f32⟩ : BufTy).Contents (Elt F)) (call2_v0 : (⟨S800000x64, .f32⟩ : BufTy).Contents (Elt F)) : (⟨S800000x64, .f32⟩ : BufTy).Contents (Elt F) :=
  maximumf v82 call2_v0
def st_v84 (v83 : (⟨S800000x64, .f32⟩ : BufTy).Contents (Elt F)) (a10 : (⟨S64x1, .f32⟩ : BufTy).Contents (Elt F)) : (⟨S800000x1, .f32⟩ : BufTy).Contents (Elt F) :=
  Host.dotGeneral dot_S800000x64_S64x1_S800000x1_1_0_0_1_n_n none v83 a10
def st_v85 (a11 : (⟨S1, .f32⟩ : BufTy).Contents (Elt F)) : (⟨S1x1, .f32⟩ : BufTy).Contents (Elt F) :=
  broadcastInDim S1x1 ![1] bcast_S1_S1x1_1 a11
def st_v86 (v85 : (⟨S1x1, .f32⟩ : BufTy).Contents (Elt F)) : (⟨S800000x1, .f32⟩ : BufTy).Contents (Elt F) :=
  broadcastInDim S800000x1 ![0, 1] bcast_S1x1_S800000x1_0_1 v85
def st_v87 (v84 : (⟨S800000x1, .f32⟩ : BufTy).Contents (Elt F)) (v86 : (⟨S800000x1, .f32⟩ : BufTy).Contents (Elt F)) : (⟨S800000x1, .f32⟩ : BufTy).Contents (Elt F) :=
  addf v84 v86
def st_v88 (v87 : (⟨S800000x1, .f32⟩ : BufTy).Contents (Elt F)) : (⟨S800000x1, .f32⟩ : BufTy).Contents (Elt F) :=
  Host.negf v87
def st_v89 (v88 : (⟨S800000x1, .f32⟩ : BufTy).Contents (Elt F)) : (⟨S800000x1, .f32⟩ : BufTy).Contents (Elt F) :=
  Host.exp v88
def st_cst_16 : (⟨S_, .f32⟩ : BufTy).Contents (Elt F) :=
  constant S_ .f32 0x3F800000#32
def st_v90 (cst_16 : (⟨S_, .f32⟩ : BufTy).Contents (Elt F)) : (⟨S800000x1, .f32⟩ : BufTy).Contents (Elt F) :=
  broadcastInDim S800000x1 ![] bcast_S_S800000x1 cst_16
def st_v91 (v90 : (⟨S800000x1, .f32⟩ : BufTy).Contents (Elt F)) (v89 : (⟨S800000x1, .f32⟩ : BufTy).Contents (Elt F)) : (⟨S800000x1, .f32⟩ : BufTy).Contents (Elt F) :=
  addf v90 v89
def st_cst_17 : (⟨S_, .f32⟩ : BufTy).Contents (Elt F) :=
  constant S_ .f32 0x3F800000#32
def st_v92 (cst_17 : (⟨S_, .f32⟩ : BufTy).Contents (Elt F)) : (⟨S800000x1, .f32⟩ : BufTy).Contents (Elt F) :=
  broadcastInDim S800000x1 ![] bcast_S_S800000x1 cst_17
def st_v93 (v92 : (⟨S800000x1, .f32⟩ : BufTy).Contents (Elt F)) (v91 : (⟨S800000x1, .f32⟩ : BufTy).Contents (Elt F)) : (⟨S800000x1, .f32⟩ : BufTy).Contents (Elt F) :=
  Host.divf v92 v91
def st_v94 (v93 : (⟨S800000x1, .f32⟩ : BufTy).Contents (Elt F)) : (⟨S800000x64, .f32⟩ : BufTy).Contents (Elt F) :=
  broadcastInDim S800000x64 ![0, 1] bcast_S800000x1_S800000x64_0_1 v93
def st_v95 (v83 : (⟨S800000x64, .f32⟩ : BufTy).Contents (Elt F)) (v94 : (⟨S800000x64, .f32⟩ : BufTy).Contents (Elt F)) : (⟨S800000x64, .f32⟩ : BufTy).Contents (Elt F) :=
  mulf v83 v94
def st_v96 (v95 : (⟨S800000x64, .f32⟩ : BufTy).Contents (Elt F)) (a12 : (⟨S64x64, .f32⟩ : BufTy).Contents (Elt F)) : (⟨S800000x64, .f32⟩ : BufTy).Contents (Elt F) :=
  Host.dotGeneral dot_S800000x64_S64x64_S800000x64_1_0_0_1_n_n none v95 a12
def st_v97 (a13 : (⟨S64, .f32⟩ : BufTy).Contents (Elt F)) : (⟨S1x64, .f32⟩ : BufTy).Contents (Elt F) :=
  broadcastInDim S1x64 ![1] bcast_S64_S1x64_1 a13
def st_v98 (v97 : (⟨S1x64, .f32⟩ : BufTy).Contents (Elt F)) : (⟨S800000x64, .f32⟩ : BufTy).Contents (Elt F) :=
  broadcastInDim S800000x64 ![0, 1] bcast_S1x64_S800000x64_0_1 v97
def st_v99 (v96 : (⟨S800000x64, .f32⟩ : BufTy).Contents (Elt F)) (v98 : (⟨S800000x64, .f32⟩ : BufTy).Contents (Elt F)) : (⟨S800000x64, .f32⟩ : BufTy).Contents (Elt F) :=
  addf v96 v98
def st_call3_cst : (⟨S_, .f32⟩ : BufTy).Contents (Elt F) :=
  constant S_ .f32 0x00000000#32
def st_call3_v0 (call3_cst : (⟨S_, .f32⟩ : BufTy).Contents (Elt F)) : (⟨S800000x64, .f32⟩ : BufTy).Contents (Elt F) :=
  broadcastInDim S800000x64 ![] bcast_S_S800000x64 call3_cst
def st_v100 (v99 : (⟨S800000x64, .f32⟩ : BufTy).Contents (Elt F)) (call3_v0 : (⟨S800000x64, .f32⟩ : BufTy).Contents (Elt F)) : (⟨S800000x64, .f32⟩ : BufTy).Contents (Elt F) :=
  maximumf v99 call3_v0
def st_v101 (v100 : (⟨S800000x64, .f32⟩ : BufTy).Contents (Elt F)) (a14 : (⟨S64x1, .f32⟩ : BufTy).Contents (Elt F)) : (⟨S800000x1, .f32⟩ : BufTy).Contents (Elt F) :=
  Host.dotGeneral dot_S800000x64_S64x1_S800000x1_1_0_0_1_n_n none v100 a14
def st_v102 (v101 : (⟨S800000x1, .f32⟩ : BufTy).Contents (Elt F)) : (⟨S800000x4, .f32⟩ : BufTy).Contents (Elt F) :=
  broadcastInDim S800000x4 ![0, 1] bcast_S800000x1_S800000x4_0_1 v101
def st_v103 (v14 : (⟨S800000x4, .f32⟩ : BufTy).Contents (Elt F)) (v102 : (⟨S800000x4, .f32⟩ : BufTy).Contents (Elt F)) : (⟨S800000x4, .f32⟩ : BufTy).Contents (Elt F) :=
  mulf v14 v102
def st_cst_18 : (⟨S_, .f32⟩ : BufTy).Contents (Elt F) :=
  constant S_ .f32 0xC2C80000#32
def st_cst_19 : (⟨S_, .f32⟩ : BufTy).Contents (Elt F) :=
  constant S_ .f32 0x42C80000#32
def st_call4_v0 (cst_18 : (⟨S_, .f32⟩ : BufTy).Contents (Elt F)) : (⟨S_, .f32⟩ : BufTy).Contents (Elt F) :=
  cst_18
def st_call4_v1 (call4_v0 : (⟨S_, .f32⟩ : BufTy).Contents (Elt F)) : (⟨S800000x4, .f32⟩ : BufTy).Contents (Elt F) :=
  broadcastInDim S800000x4 ![] bcast_S_S800000x4 call4_v0
def st_call4_v2 (call4_v1 : (⟨S800000x4, .f32⟩ : BufTy).Contents (Elt F)) (v103 : (⟨S800000x4, .f32⟩ : BufTy).Contents (Elt F)) : (⟨S800000x4, .f32⟩ : BufTy).Contents (Elt F) :=
  maximumf call4_v1 v103
def st_call4_v3 (cst_19 : (⟨S_, .f32⟩ : BufTy).Contents (Elt F)) : (⟨S_, .f32⟩ : BufTy).Contents (Elt F) :=
  cst_19
def st_call4_v4 (call4_v3 : (⟨S_, .f32⟩ : BufTy).Contents (Elt F)) : (⟨S800000x4, .f32⟩ : BufTy).Contents (Elt F) :=
  broadcastInDim S800000x4 ![] bcast_S_S800000x4 call4_v3
def st_v104 (call4_v4 : (⟨S800000x4, .f32⟩ : BufTy).Contents (Elt F)) (call4_v2 : (⟨S800000x4, .f32⟩ : BufTy).Contents (Elt F)) : (⟨S800000x4, .f32⟩ : BufTy).Contents (Elt F) :=
  minimumf call4_v4 call4_v2
def st_cst_20 : (⟨S_, .f32⟩ : BufTy).Contents (Elt F) :=
  constant S_ .f32 0x00000000#32
def st_v105 (cst_20 : (⟨S_, .f32⟩ : BufTy).Contents (Elt F)) : (⟨S50000x4, .f32⟩ : BufTy).Contents (Elt F) :=
  broadcastInDim S50000x4 ![] bcast_S_S50000x4 cst_20
def st_v106 (a2 : (⟨S800000, .i32⟩ : BufTy).Contents (Elt F)) : (⟨S800000x1, .i32⟩ : BufTy).Contents (Elt F) :=
  broadcastInDim S800000x1 ![0] bcast_S800000_S800000x1_0 a2
def st_v107 (v105 : (⟨S50000x4, .f32⟩ : BufTy).Contents (Elt F)) (v106 : (⟨S800000x1, .i32⟩ : BufTy).Contents (Elt F)) (v104 : (⟨S800000x4, .f32⟩ : BufTy).Contents (Elt F)) : (⟨S50000x4, .f32⟩ : BufTy).Contents (Elt F) :=
  Host.scatterAdd scatter_S50000x4_S800000x1_S800000x4_1_0_0_1 v105 v106 v104
def st_cst_21 : (⟨S_, .f32⟩ : BufTy).Contents (Elt F) :=
  constant S_ .f32 0x3F800000#32
def st_v108 (cst_21 : (⟨S_, .f32⟩ : BufTy).Contents (Elt F)) : (⟨S800000, .f32⟩ : BufTy).Contents (Elt F) :=
  broadcastInDim S800000 ![] bcast_S_S800000 cst_21
def st_cst_22 : (⟨S_, .f32⟩ : BufTy).Contents (Elt F) :=
  constant S_ .f32 0x00000000#32
def st_v109 (cst_22 : (⟨S_, .f32⟩ : BufTy).Contents (Elt F)) : (⟨S50000, .f32⟩ : BufTy).Contents (Elt F) :=
  broadcastInDim S50000 ![] bcast_S_S50000 cst_22
def st_v110 (a2 : (⟨S800000, .i32⟩ : BufTy).Contents (Elt F)) : (⟨S800000x1, .i32⟩ : BufTy).Contents (Elt F) :=
  broadcastInDim S800000x1 ![0] bcast_S800000_S800000x1_0 a2
def st_v111 (v109 : (⟨S50000, .f32⟩ : BufTy).Contents (Elt F)) (v110 : (⟨S800000x1, .i32⟩ : BufTy).Contents (Elt F)) (v108 : (⟨S800000, .f32⟩ : BufTy).Contents (Elt F)) : (⟨S50000, .f32⟩ : BufTy).Contents (Elt F) :=
  Host.scatterAdd scatter_S50000_S800000x1_S800000_n_0_0_1 v109 v110 v108
def st_cst_23 : (⟨S_, .f32⟩ : BufTy).Contents (Elt F) :=
  constant S_ .f32 0x3F800000#32
def st_v112 (cst_23 : (⟨S_, .f32⟩ : BufTy).Contents (Elt F)) : (⟨S50000, .f32⟩ : BufTy).Contents (Elt F) :=
  broadcastInDim S50000 ![] bcast_S_S50000 cst_23
def st_v113 (v111 : (⟨S50000, .f32⟩ : BufTy).Contents (Elt F)) (v112 : (⟨S50000, .f32⟩ : BufTy).Contents (Elt F)) : (⟨S50000, .f32⟩ : BufTy).Contents (Elt F) :=
  maximumf v111 v112
def st_v114 (v113 : (⟨S50000, .f32⟩ : BufTy).Contents (Elt F)) : (⟨S50000x1, .f32⟩ : BufTy).Contents (Elt F) :=
  broadcastInDim S50000x1 ![0] bcast_S50000_S50000x1_0 v113
def st_v115 (v114 : (⟨S50000x1, .f32⟩ : BufTy).Contents (Elt F)) : (⟨S50000x4, .f32⟩ : BufTy).Contents (Elt F) :=
  broadcastInDim S50000x4 ![0, 1] bcast_S50000x1_S50000x4_0_1 v114
def st_v116 (v107 : (⟨S50000x4, .f32⟩ : BufTy).Contents (Elt F)) (v115 : (⟨S50000x4, .f32⟩ : BufTy).Contents (Elt F)) : (⟨S50000x4, .f32⟩ : BufTy).Contents (Elt F) :=
  Host.divf v107 v115
def st_cst_24 : (⟨S_, .f32⟩ : BufTy).Contents (Elt F) :=
  constant S_ .f32 0x3F800000#32
def st_v117 (cst_24 : (⟨S_, .f32⟩ : BufTy).Contents (Elt F)) : (⟨S50000x4, .f32⟩ : BufTy).Contents (Elt F) :=
  broadcastInDim S50000x4 ![] bcast_S_S50000x4 cst_24
def st_v118 (v116 : (⟨S50000x4, .f32⟩ : BufTy).Contents (Elt F)) (v117 : (⟨S50000x4, .f32⟩ : BufTy).Contents (Elt F)) : (⟨S50000x4, .f32⟩ : BufTy).Contents (Elt F) :=
  mulf v116 v117
def st_v119 (a1 : (⟨S50000x4, .f32⟩ : BufTy).Contents (Elt F)) (v118 : (⟨S50000x4, .f32⟩ : BufTy).Contents (Elt F)) : (⟨S50000x4, .f32⟩ : BufTy).Contents (Elt F) :=
  addf a1 v118
def st_cst_25 : (⟨S_, .f32⟩ : BufTy).Contents (Elt F) :=
  constant S_ .f32 0x00000000#32
def st_v120 (cst_25 : (⟨S_, .f32⟩ : BufTy).Contents (Elt F)) : (⟨S50000x64, .f32⟩ : BufTy).Contents (Elt F) :=
  broadcastInDim S50000x64 ![] bcast_S_S50000x64 cst_25
def st_v121 (a2 : (⟨S800000, .i32⟩ : BufTy).Contents (Elt F)) : (⟨S800000x1, .i32⟩ : BufTy).Contents (Elt F) :=
  broadcastInDim S800000x1 ![0] bcast_S800000_S800000x1_0 a2
def st_v122 (v120 : (⟨S50000x64, .f32⟩ : BufTy).Contents (Elt F)) (v121 : (⟨S800000x1, .i32⟩ : BufTy).Contents (Elt F)) (v95 : (⟨S800000x64, .f32⟩ : BufTy).Contents (Elt F)) : (⟨S50000x64, .f32⟩ : BufTy).Contents (Elt F) :=
  Host.scatterAdd scatter_S50000x64_S800000x1_S800000x64_1_0_0_1 v120 v121 v95
def st_v123 (a0 : (⟨S50000x64, .f32⟩ : BufTy).Contents (Elt F)) (v122 : (⟨S50000x64, .f32⟩ : BufTy).Contents (Elt F)) (a4 : (⟨S50000x8, .f32⟩ : BufTy).Contents (Elt F)) : (⟨S50000x136, .f32⟩ : BufTy).Contents (Elt F) :=
  concatenate S50000x136 1 [⟨S50000x64, a0⟩, ⟨S50000x64, v122⟩, ⟨S50000x8, a4⟩] concatenates_S50000x64_S50000x64_S50000x8_S50000x136_d1
def st_v124 (v123 : (⟨S50000x136, .f32⟩ : BufTy).Contents (Elt F)) (a15 : (⟨S136x64, .f32⟩ : BufTy).Contents (Elt F)) : (⟨S50000x64, .f32⟩ : BufTy).Contents (Elt F) :=
  Host.dotGeneral dot_S50000x136_S136x64_S50000x64_1_0_0_1_n_n none v123 a15
def st_v125 (a16 : (⟨S64, .f32⟩ : BufTy).Contents (Elt F)) : (⟨S1x64, .f32⟩ : BufTy).Contents (Elt F) :=
  broadcastInDim S1x64 ![1] bcast_S64_S1x64_1 a16
def st_v126 (v125 : (⟨S1x64, .f32⟩ : BufTy).Contents (Elt F)) : (⟨S50000x64, .f32⟩ : BufTy).Contents (Elt F) :=
  broadcastInDim S50000x64 ![0, 1] bcast_S1x64_S50000x64_0_1 v125
def st_v127 (v124 : (⟨S50000x64, .f32⟩ : BufTy).Contents (Elt F)) (v126 : (⟨S50000x64, .f32⟩ : BufTy).Contents (Elt F)) : (⟨S50000x64, .f32⟩ : BufTy).Contents (Elt F) :=
  addf v124 v126
def st_cst_26 : (⟨S_, .f32⟩ : BufTy).Contents (Elt F) :=
  constant S_ .f32 0x00000000#32
def st_v128 (v127 : (⟨S50000x64, .f32⟩ : BufTy).Contents (Elt F)) (cst_26 : (⟨S_, .f32⟩ : BufTy).Contents (Elt F)) : (⟨S64, .f32⟩ : BufTy).Contents (Elt F) :=
  Host.reduceAdd v127 cst_26 reducesTo_S50000x64_S64_d0 h_S_
def st_cst_27 : (⟨S_, .f32⟩ : BufTy).Contents (Elt F) :=
  constant S_ .f32 0x47435000#32
def st_v129 (cst_27 : (⟨S_, .f32⟩ : BufTy).Contents (Elt F)) : (⟨S64, .f32⟩ : BufTy).Contents (Elt F) :=
  broadcastInDim S64 ![] bcast_S_S64 cst_27
def st_v130 (v128 : (⟨S64, .f32⟩ : BufTy).Contents (Elt F)) (v129 : (⟨S64, .f32⟩ : BufTy).Contents (Elt F)) : (⟨S64, .f32⟩ : BufTy).Contents (Elt F) :=
  Host.divf v128 v129
def st_c_28 : (⟨S_, .i32⟩ : BufTy).Contents (Elt F) :=
  constantI S_ 32 0#32
def st_call5_cst : (⟨S_, .f32⟩ : BufTy).Contents (Elt F) :=
  constant S_ .f32 0x00000000#32
def st_call5_v0 (v127 : (⟨S50000x64, .f32⟩ : BufTy).Contents (Elt F)) (call5_cst : (⟨S_, .f32⟩ : BufTy).Contents (Elt F)) : (⟨S64, .f32⟩ : BufTy).Contents (Elt F) :=
  Host.reduceAdd v127 call5_cst reducesTo_S50000x64_S64_d0 h_S_
def st_call5_v1 (call5_v0 : (⟨S64, .f32⟩ : BufTy).Contents (Elt F)) : (⟨S1x64, .f32⟩ : BufTy).Contents (Elt F) :=
  broadcastInDim S1x64 ![1] bcast_S64_S1x64_1 call5_v0
def st_call5_cst_0 : (⟨S_, .f32⟩ : BufTy).Contents (Elt F) :=
  constant S_ .f32 0x47435000#32
def st_call5_v2 (call5_cst_0 : (⟨S_, .f32⟩ : BufTy).Contents (Elt F)) : (⟨S1x64, .f32⟩ : BufTy).Contents (Elt F) :=
  broadcastInDim S1x64 ![] bcast_S_S1x64 call5_cst_0
def st_call5_v3 (call5_v1 : (⟨S1x64, .f32⟩ : BufTy).Contents (Elt F)) (call5_v2 : (⟨S1x64, .f32⟩ : BufTy).Contents (Elt F)) : (⟨S1x64, .f32⟩ : BufTy).Contents (Elt F) :=
  Host.divf call5_v1 call5_v2
def st_call5_v4 (call5_v3 : (⟨S1x64, .f32⟩ : BufTy).Contents (Elt F)) : (⟨S50000x64, .f32⟩ : BufTy).Contents (Elt F) :=
  broadcastInDim S50000x64 ![0, 1] bcast_S1x64_S50000x64_0_1 call5_v3
def st_call5_v5 (v127 : (⟨S50000x64, .f32⟩ : BufTy).Contents (Elt F)) (call5_v4 : (⟨S50000x64, .f32⟩ : BufTy).Contents (Elt F)) : (⟨S50000x64, .f32⟩ : BufTy).Contents (Elt F) :=
  subf v127 call5_v4
def st_call5_v6 (call5_v5 : (⟨S50000x64, .f32⟩ : BufTy).Contents (Elt F)) : (⟨S50000x64, .f32⟩ : BufTy).Contents (Elt F) :=
  mulf call5_v5 call5_v5
def st_call5_v7 (c_28 : (⟨S_, .i32⟩ : BufTy).Contents (Elt F)) : (⟨S_, .f32⟩ : BufTy).Contents (Elt F) :=
  sitofp .f32 c_28
def st_call5_cst_1 : (⟨S_, .f32⟩ : BufTy).Contents (Elt F) :=
  constant S_ .f32 0x47435000#32
def st_call5_v8 (call5_cst_1 : (⟨S_, .f32⟩ : BufTy).Contents (Elt F)) (call5_v7 : (⟨S_, .f32⟩ : BufTy).Contents (Elt F)) : (⟨S_, .f32⟩ : BufTy).Contents (Elt F) :=
  subf call5_cst_1 call5_v7
def st_call5_cst_2 : (⟨S_, .f32⟩ : BufTy).Contents (Elt F) :=
  constant S_ .f32 0x00000000#32
def st_call5_v9 (call5_v6 : (⟨S50000x64, .f32⟩ : BufTy).Contents (Elt F)) (call5_cst_2 : (⟨S_, .f32⟩ : BufTy).Contents (Elt F)) : (⟨S64, .f32⟩ : BufTy).Contents (Elt F) :=
  Host.reduceAdd call5_v6 call5_cst_2 reducesTo_S50000x64_S64_d0 h_S_
def st_call5_v10 (call5_v8 : (⟨S_, .f32⟩ : BufTy).Contents (Elt F)) : (⟨S64, .f32⟩ : BufTy).Contents (Elt F) :=
  broadcastInDim S64 ![] bcast_S_S64 call5_v8
def st_call5_v11 (call5_v9 : (⟨S64, .f32⟩ : BufTy).Contents (Elt F)) (call5_v10 : (⟨S64, .f32⟩ : BufTy).Contents (Elt F)) : (⟨S64, .f32⟩ : BufTy).Contents (Elt F) :=
  Host.divf call5_v9 call5_v10
def st_call5_cst_3 : (⟨S_, .f32⟩ : BufTy).Contents (Elt F) :=
  constant S_ .f32 0x00000000#32
def st_call5_v12 (call5_v8 : (⟨S_, .f32⟩ : BufTy).Contents (Elt F)) (call5_cst_3 : (⟨S_, .f32⟩ : BufTy).Contents (Elt F)) : (⟨S_, .i1⟩ : BufTy).Contents (Elt F) :=
  cmpf .ogt call5_v8 call5_cst_3
def st_call5_cst_4 : (⟨S_, .f32⟩ : BufTy).Contents (Elt F) :=
  constant S_ .f32 0x7FC00000#32
def st_call5_call0_v0 (call5_cst_4 : (⟨S_, .f32⟩ : BufTy).Contents (Elt F)) : (⟨S_, .f32⟩ : BufTy).Contents (Elt F) :=
  call5_cst_4
def st_call5_call0_v1 (call5_call0_v0 : (⟨S_, .f32⟩ : BufTy).Contents (Elt F)) : (⟨S64, .f32⟩ : BufTy).Contents (Elt F) :=
  broadcastInDim S64 ![] bcast_S_S64 call5_call0_v0
def st_v131 (call5_v12 : (⟨S_, .i1⟩ : BufTy).Contents (Elt F)) (call5_v11 : (⟨S64, .f32⟩ : BufTy).Contents (Elt F)) (call5_call0_v1 : (⟨S64, .f32⟩ : BufTy).Contents (Elt F)) : (⟨S64, .f32⟩ : BufTy).Contents (Elt F) :=
  select (broadcastInDim S64 ![] bcast_S_S64 call5_v12) call5_v11 call5_call0_v1
def st_v132 (v130 : (⟨S64, .f32⟩ : BufTy).Contents (Elt F)) : (⟨S1x64, .f32⟩ : BufTy).Contents (Elt F) :=
  broadcastInDim S1x64 ![1] bcast_S64_S1x64_1 v130
def st_v133 (v132 : (⟨S1x64, .f32⟩ : BufTy).Contents (Elt F)) : (⟨S50000x64, .f32⟩ : BufTy).Contents (Elt F) :=
  broadcastInDim S50000x64 ![0, 1] bcast_S1x64_S50000x64_0_1 v132
def st_v134 (v127 : (⟨S50000x64, .f32⟩ : BufTy).Contents (Elt F)) (v133 : (⟨S50000x64, .f32⟩ : BufTy).Contents (Elt F)) : (⟨S50000x64, .f32⟩ : BufTy).Contents (Elt F) :=
  subf v127 v133
def st_cst_29 : (⟨S_, .f32⟩ : BufTy).Contents (Elt F) :=
  constant S_ .f32 0x3727C5AC#32
def st_v135 (cst_29 : (⟨S_, .f32⟩ : BufTy).Contents (Elt F)) : (⟨S64, .f32⟩ : BufTy).Contents (Elt F) :=
  broadcastInDim S64 ![] bcast_S_S64 cst_29
def st_v136 (v131 : (⟨S64, .f32⟩ : BufTy).Contents (Elt F)) (v135 : (⟨S64, .f32⟩ : BufTy).Contents (Elt F)) : (⟨S64, .f32⟩ : BufTy).Contents (Elt F) :=
  addf v131 v135
def st_v137 (v136 : (⟨S64, .f32⟩ : BufTy).Contents (Elt F)) : (⟨S64, .f32⟩ : BufTy).Contents (Elt F) :=
  Host.sqrt v136
def st_v138 (v137 : (⟨S64, .f32⟩ : BufTy).Contents (Elt F)) : (⟨S1x64, .f32⟩ : BufTy).Contents (Elt F) :=
  broadcastInDim S1x64 ![1] bcast_S64_S1x64_1 v137
def st_v139 (v138 : (⟨S1x64, .f32⟩ : BufTy).Contents (Elt F)) : (⟨S50000x64, .f32⟩ : BufTy).Contents (Elt F) :=
  broadcastInDim S50000x64 ![0, 1] bcast_S1x64_S50000x64_0_1 v138
def st_v140 (v134 : (⟨S50000x64, .f32⟩ : BufTy).Contents (Elt F)) (v139 : (⟨S50000x64, .f32⟩ : BufTy).Contents (Elt F)) : (⟨S50000x64, .f32⟩ : BufTy).Contents (Elt F) :=
  Host.divf v134 v139
def st_v141 (a17 : (⟨S64, .f32⟩ : BufTy).Contents (Elt F)) : (⟨S1x64, .f32⟩ : BufTy).Contents (Elt F) :=
  broadcastInDim S1x64 ![1] bcast_S64_S1x64_1 a17
def st_v142 (v141 : (⟨S1x64, .f32⟩ : BufTy).Contents (Elt F)) : (⟨S50000x64, .f32⟩ : BufTy).Contents (Elt F) :=
  broadcastInDim S50000x64 ![0, 1] bcast_S1x64_S50000x64_0_1 v141
def st_v143 (v140 : (⟨S50000x64, .f32⟩ : BufTy).Contents (Elt F)) (v142 : (⟨S50000x64, .f32⟩ : BufTy).Contents (Elt F)) : (⟨S50000x64, .f32⟩ : BufTy).Contents (Elt F) :=
  mulf v140 v142
def st_v144 (a18 : (⟨S64, .f32⟩ : BufTy).Contents (Elt F)) : (⟨S1x64, .f32⟩ : BufTy).Contents (Elt F) :=
  broadcastInDim S1x64 ![1] bcast_S64_S1x64_1 a18
def st_v145 (v144 : (⟨S1x64, .f32⟩ : BufTy).Contents (Elt F)) : (⟨S50000x64, .f32⟩ : BufTy).Contents (Elt F) :=
  broadcastInDim S50000x64 ![0, 1] bcast_S1x64_S50000x64_0_1 v144
def st_v146 (v143 : (⟨S50000x64, .f32⟩ : BufTy).Contents (Elt F)) (v145 : (⟨S50000x64, .f32⟩ : BufTy).Contents (Elt F)) : (⟨S50000x64, .f32⟩ : BufTy).Contents (Elt F) :=
  addf v143 v145
def st_call6_cst : (⟨S_, .f32⟩ : BufTy).Contents (Elt F) :=
  constant S_ .f32 0x00000000#32
def st_call6_v0 (call6_cst : (⟨S_, .f32⟩ : BufTy).Contents (Elt F)) : (⟨S50000x64, .f32⟩ : BufTy).Contents (Elt F) :=
  broadcastInDim S50000x64 ![] bcast_S_S50000x64 call6_cst
def st_v147 (v146 : (⟨S50000x64, .f32⟩ : BufTy).Contents (Elt F)) (call6_v0 : (⟨S50000x64, .f32⟩ : BufTy).Contents (Elt F)) : (⟨S50000x64, .f32⟩ : BufTy).Contents (Elt F) :=
  maximumf v146 call6_v0
def st_v148 (v147 : (⟨S50000x64, .f32⟩ : BufTy).Contents (Elt F)) (a19 : (⟨S64x64, .f32⟩ : BufTy).Contents (Elt F)) : (⟨S50000x64, .f32⟩ : BufTy).Contents (Elt F) :=
  Host.dotGeneral dot_S50000x64_S64x64_S50000x64_1_0_0_1_n_n none v147 a19
def st_v149 (a20 : (⟨S64, .f32⟩ : BufTy).Contents (Elt F)) : (⟨S1x64, .f32⟩ : BufTy).Contents (Elt F) :=
  broadcastInDim S1x64 ![1] bcast_S64_S1x64_1 a20
def st_v150 (v149 : (⟨S1x64, .f32⟩ : BufTy).Contents (Elt F)) : (⟨S50000x64, .f32⟩ : BufTy).Contents (Elt F) :=
  broadcastInDim S50000x64 ![0, 1] bcast_S1x64_S50000x64_0_1 v149
def st_v151 (v148 : (⟨S50000x64, .f32⟩ : BufTy).Contents (Elt F)) (v150 : (⟨S50000x64, .f32⟩ : BufTy).Contents (Elt F)) : (⟨S50000x64, .f32⟩ : BufTy).Contents (Elt F) :=
  addf v148 v150
def st_v152 (a0 : (⟨S50000x64, .f32⟩ : BufTy).Contents (Elt F)) (v151 : (⟨S50000x64, .f32⟩ : BufTy).Contents (Elt F)) : (⟨S50000x64, .f32⟩ : BufTy).Contents (Elt F) :=
  addf a0 v151

/-! ## Each buffer's value from the arguments it depends on -/

def val_c : (⟨S_, .i32⟩ : BufTy).Contents (Elt F) :=
  st_c
def val_v0 : (⟨S800000, .i32⟩ : BufTy).Contents (Elt F) :=
  st_v0 val_c
def val_v1 (a2 : (⟨S800000, .i32⟩ : BufTy).Contents (Elt F)) : (⟨S800000, .i1⟩ : BufTy).Contents (Elt F) :=
  st_v1 a2 val_v0
def val_c_0 : (⟨S_, .i32⟩ : BufTy).Contents (Elt F) :=
  st_c_0
def val_v2 : (⟨S800000, .i32⟩ : BufTy).Contents (Elt F) :=
  st_v2 val_c_0
def val_v3 (a2 : (⟨S800000, .i32⟩ : BufTy).Contents (Elt F)) : (⟨S800000, .i32⟩ : BufTy).Contents (Elt F) :=
  st_v3 a2 val_v2
def val_v4 (a2 : (⟨S800000, .i32⟩ : BufTy).Contents (Elt F)) : (⟨S800000, .i32⟩ : BufTy).Contents (Elt F) :=
  st_v4 (val_v1 a2) (val_v3 a2) a2
def val_v5 (a2 : (⟨S800000, .i32⟩ : BufTy).Contents (Elt F)) : (⟨S800000x1, .i32⟩ : BufTy).Contents (Elt F) :=
  st_v5 (val_v4 a2)
def val_v6 (a1 : (⟨S50000x4, .f32⟩ : BufTy).Contents (Elt F)) (a2 : (⟨S800000, .i32⟩ : BufTy).Contents (Elt F)) : (⟨S800000x4, .f32⟩ : BufTy).Contents (Elt F) :=
  st_v6 a1 (val_v5 a2)
def val_c_1 : (⟨S_, .i32⟩ : BufTy).Contents (Elt F) :=
  st_c_1
def val_v7 : (⟨S800000, .i32⟩ : BufTy).Contents (Elt F) :=
  st_v7 val_c_1
def val_v8 (a3 : (⟨S800000, .i32⟩ : BufTy).Contents (Elt F)) : (⟨S800000, .i1⟩ : BufTy).Contents (Elt F) :=
  st_v8 a3 val_v7
def val_c_2 : (⟨S_, .i32⟩ : BufTy).Contents (Elt F) :=
  st_c_2
def val_v9 : (⟨S800000, .i32⟩ : BufTy).Contents (Elt F) :=
  st_v9 val_c_2
def val_v10 (a3 : (⟨S800000, .i32⟩ : BufTy).Contents (Elt F)) : (⟨S800000, .i32⟩ : BufTy).Contents (Elt F) :=
  st_v10 a3 val_v9
def val_v11 (a3 : (⟨S800000, .i32⟩ : BufTy).Contents (Elt F)) : (⟨S800000, .i32⟩ : BufTy).Contents (Elt F) :=
  st_v11 (val_v8 a3) (val_v10 a3) a3
def val_v12 (a3 : (⟨S800000, .i32⟩ : BufTy).Contents (Elt F)) : (⟨S800000x1, .i32⟩ : BufTy).Contents (Elt F) :=
  st_v12 (val_v11 a3)
def val_v13 (a1 : (⟨S50000x4, .f32⟩ : BufTy).Contents (Elt F)) (a3 : (⟨S800000, .i32⟩ : BufTy).Contents (Elt F)) : (⟨S800000x4, .f32⟩ : BufTy).Contents (Elt F) :=
  st_v13 a1 (val_v12 a3)
def val_v14 (a1 : (⟨S50000x4, .f32⟩ : BufTy).Contents (Elt F)) (a2 : (⟨S800000, .i32⟩ : BufTy).Contents (Elt F)) (a3 : (⟨S800000, .i32⟩ : BufTy).Contents (Elt F)) : (⟨S800000x4, .f32⟩ : BufTy).Contents (Elt F) :=
  st_v14 (val_v6 a1 a2) (val_v13 a1 a3)
def val_v15 (a1 : (⟨S50000x4, .f32⟩ : BufTy).Contents (Elt F)) (a2 : (⟨S800000, .i32⟩ : BufTy).Contents (Elt F)) (a3 : (⟨S800000, .i32⟩ : BufTy).Contents (Elt F)) : (⟨S800000x4, .f32⟩ : BufTy).Contents (Elt F) :=
  st_v15 (val_v14 a1 a2 a3)
def val_v16 (a1 : (⟨S50000x4, .f32⟩ : BufTy).Contents (Elt F)) (a2 : (⟨S800000, .i32⟩ : BufTy).Contents (Elt F)) (a3 : (⟨S800000, .i32⟩ : BufTy).Contents (Elt F)) : (⟨S800000x1, .f32⟩ : BufTy).Contents (Elt F) :=
  st_v16 (val_v15 a1 a2 a3)
def val_v17 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v17 (val_v16 a1 a2 a3)
def val_cst : (⟨S_, .f32⟩ : BufTy).Contents (Elt F) :=
  st_cst
def val_v18 : (⟨S800000, .f32⟩ : BufTy).Contents (Elt F) :=
  st_v18 val_cst
def val_v19 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v19 val_v18 (val_v17 a1 a2 a3)
def val_cst_3 : (⟨S_, .f32⟩ : BufTy).Contents (Elt F) :=
  st_cst_3
def val_v20 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v20 (val_v15 a1 a2 a3) val_cst_3
def val_v21 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v21 (val_v19 a1 a2 a3) (val_v20 a1 a2 a3)
def val_v22 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v22 (val_v21 a1 a2 a3)
def val_v23 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v23 (val_v21 a1 a2 a3)
def val_cst_4 : (⟨S_, .f32⟩ : BufTy).Contents (Elt F) :=
  st_cst_4
def val_v24 : (⟨S800000, .f32⟩ : BufTy).Contents (Elt F) :=
  st_v24 val_cst_4
def val_v25 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v25 (val_v23 a1 a2 a3) val_v24
def val_v26 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v26 (val_v25 a1 a2 a3)
def val_v27 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v27 (val_v22 a1 a2 a3) (val_v26 a1 a2 a3)
def val_v28 (a1 : (⟨S50000x4, .f32⟩ : BufTy).Contents (Elt F)) (a2 : (⟨S800000, .i32⟩ : BufTy).Contents (Elt F)) (a3 : (⟨S800000, .i32⟩ : BufTy).Contents (Elt F)) : (⟨S800000x1, .f32⟩ : BufTy).Contents (Elt F) :=
  st_v28 (val_v27 a1 a2 a3)
def val_v29 (a1 : (⟨S50000x4, .f32⟩ : BufTy).Contents (Elt F)) (a2 : (⟨S800000, .i32⟩ : BufTy).Contents (Elt F)) (a3 : (⟨S800000, .i32⟩ : BufTy).Contents (Elt F)) : (⟨S800000x4, .f32⟩ : BufTy).Contents (Elt F) :=
  st_v29 (val_v6 a1 a2) (val_v13 a1 a3)
def val_v30 (a1 : (⟨S50000x4, .f32⟩ : BufTy).Contents (Elt F)) (a2 : (⟨S800000, .i32⟩ : BufTy).Contents (Elt F)) (a3 : (⟨S800000, .i32⟩ : BufTy).Contents (Elt F)) : (⟨S800000x1, .f32⟩ : BufTy).Contents (Elt F) :=
  st_v30 (val_v29 a1 a2 a3)
def val_v31 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v31 (val_v30 a1 a2 a3)
def val_cst_5 : (⟨S_, .f32⟩ : BufTy).Contents (Elt F) :=
  st_cst_5
def val_v32 : (⟨S800000, .f32⟩ : BufTy).Contents (Elt F) :=
  st_v32 val_cst_5
def val_v33 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v33 val_v32 (val_v31 a1 a2 a3)
def val_cst_6 : (⟨S_, .f32⟩ : BufTy).Contents (Elt F) :=
  st_cst_6
def val_v34 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v34 (val_v29 a1 a2 a3) val_cst_6
def val_v35 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v35 (val_v33 a1 a2 a3) (val_v34 a1 a2 a3)
def val_v36 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v36 (val_v35 a1 a2 a3)
def val_v37 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v37 (val_v35 a1 a2 a3)
def val_cst_7 : (⟨S_, .f32⟩ : BufTy).Contents (Elt F) :=
  st_cst_7
def val_v38 : (⟨S800000, .f32⟩ : BufTy).Contents (Elt F) :=
  st_v38 val_cst_7
def val_v39 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v39 (val_v37 a1 a2 a3) val_v38
def val_v40 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v40 (val_v39 a1 a2 a3)
def val_v41 (a1 : (⟨S50000x4, .f32⟩ : BufTy).Contents (Elt F)) (a2 : (⟨S800000, .i32⟩ : BufTy).Contents (Elt F)) (a3 : (⟨S800000, .i32⟩ : BufTy).Contents (Elt F)) : (⟨S800000, .f32⟩ : BufTy).Contents (Elt F) :=
  st_v41 (val_v36 a1 a2 a3) (val_v40 a1 a2 a3)
def val_v42 (a1 : (⟨S50000x4, .f32⟩ : BufTy).Contents (Elt F)) (a2 : (⟨S800000, .i32⟩ : BufTy).Contents (Elt F)) (a3 : (⟨S800000, .i32⟩ : BufTy).Contents (Elt F)) : (⟨S800000x1, .f32⟩ : BufTy).Contents (Elt F) :=
  st_v42 (val_v41 a1 a2 a3)
def val_c_8 : (⟨S_, .i32⟩ : BufTy).Contents (Elt F) :=
  st_c_8
def val_v43 : (⟨S800000, .i32⟩ : BufTy).Contents (Elt F) :=
  st_v43 val_c_8
def val_v44 (a2 : (⟨S800000, .i32⟩ : BufTy).Contents (Elt F)) : (⟨S800000, .i1⟩ : BufTy).Contents (Elt F) :=
  st_v44 a2 val_v43
def val_c_9 : (⟨S_, .i32⟩ : BufTy).Contents (Elt F) :=
  st_c_9
def val_v45 : (⟨S800000, .i32⟩ : BufTy).Contents (Elt F) :=
  st_v45 val_c_9
def val_v46 (a2 : (⟨S800000, .i32⟩ : BufTy).Contents (Elt F)) : (⟨S800000, .i32⟩ : BufTy).Contents (Elt F) :=
  st_v46 a2 val_v45
def val_v47 (a2 : (⟨S800000, .i32⟩ : BufTy).Contents (Elt F)) : (⟨S800000, .i32⟩ : BufTy).Contents (Elt F) :=
  st_v47 (val_v44 a2) (val_v46 a2) a2
def val_v48 (a2 : (⟨S800000, .i32⟩ : BufTy).Contents (Elt F)) : (⟨S800000x1, .i32⟩ : BufTy).Contents (Elt F) :=
  st_v48 (val_v47 a2)
def val_v49 (a0 : (⟨S50000x64, .f32⟩ : BufTy).Contents (Elt F)) (a2 : (⟨S800000, .i32⟩ : BufTy).Contents (Elt F)) : (⟨S800000x64, .f32⟩ : BufTy).Contents (Elt F) :=
  st_v49 a0 (val_v48 a2)
def val_c_10 : (⟨S_, .i32⟩ : BufTy).Contents (Elt F) :=
  st_c_10
def val_v50 : (⟨S800000, .i32⟩ : BufTy).Contents (Elt F) :=
  st_v50 val_c_10
def val_v51 (a3 : (⟨S800000, .i32⟩ : BufTy).Contents (Elt F)) : (⟨S800000, .i1⟩ : BufTy).Contents (Elt F) :=
  st_v51 a3 val_v50
def val_c_11 : (⟨S_, .i32⟩ : BufTy).Contents (Elt F) :=
  st_c_11
def val_v52 : (⟨S800000, .i32⟩ : BufTy).Contents (Elt F) :=
  st_v52 val_c_11
def val_v53 (a3 : (⟨S800000, .i32⟩ : BufTy).Contents (Elt F)) : (⟨S800000, .i32⟩ : BufTy).Contents (Elt F) :=
  st_v53 a3 val_v52
def val_v54 (a3 : (⟨S800000, .i32⟩ : BufTy).Contents (Elt F)) : (⟨S800000, .i32⟩ : BufTy).Contents (Elt F) :=
  st_v54 (val_v51 a3) (val_v53 a3) a3
def val_v55 (a3 : (⟨S800000, .i32⟩ : BufTy).Contents (Elt F)) : (⟨S800000x1, .i32⟩ : BufTy).Contents (Elt F) :=
  st_v55 (val_v54 a3)
def val_v56 (a0 : (⟨S50000x64, .f32⟩ : BufTy).Contents (Elt F)) (a3 : (⟨S800000, .i32⟩ : BufTy).Contents (Elt F)) : (⟨S800000x64, .f32⟩ : BufTy).Contents (Elt F) :=
  st_v56 a0 (val_v55 a3)
def val_v57 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) : (⟨S800000x130, .f32⟩ : BufTy).Contents (Elt F) :=
  st_v57 (val_v49 a0 a2) (val_v56 a0 a3) (val_v28 a1 a2 a3) (val_v42 a1 a2 a3)
def val_v58 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S800000x64, .f32⟩ : BufTy).Contents (Elt F) :=
  st_v58 (val_v57 a0 a1 a2 a3) a5
def val_cst_12 : (⟨S_, .f32⟩ : BufTy).Contents (Elt F) :=
  st_cst_12
def val_v59 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S64, .f32⟩ : BufTy).Contents (Elt F) :=
  st_v59 (val_v58 a0 a1 a2 a3 a5) val_cst_12
def val_cst_13 : (⟨S_, .f32⟩ : BufTy).Contents (Elt F) :=
  st_cst_13
def val_v60 : (⟨S64, .f32⟩ : BufTy).Contents (Elt F) :=
  st_v60 val_cst_13
def val_v61 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S64, .f32⟩ : BufTy).Contents (Elt F) :=
  st_v61 (val_v59 a0 a1 a2 a3 a5) val_v60
def val_c_14 : (⟨S_, .i32⟩ : BufTy).Contents (Elt F) :=
  st_c_14
def val_call0_cst : (⟨S_, .f32⟩ : BufTy).Contents (Elt F) :=
  st_call0_cst
def val_call0_v0 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S64, .f32⟩ : BufTy).Contents (Elt F) :=
  st_call0_v0 (val_v58 a0 a1 a2 a3 a5) val_call0_cst
def val_call0_v1 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S1x64, .f32⟩ : BufTy).Contents (Elt F) :=
  st_call0_v1 (val_call0_v0 a0 a1 a2 a3 a5)
def val_call0_cst_0 : (⟨S_, .f32⟩ : BufTy).Contents (Elt F) :=
  st_call0_cst_0
def val_call0_v2 : (⟨S1x64, .f32⟩ : BufTy).Contents (Elt F) :=
  st_call0_v2 val_call0_cst_0
def val_call0_v3 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S1x64, .f32⟩ : BufTy).Contents (Elt F) :=
  st_call0_v3 (val_call0_v1 a0 a1 a2 a3 a5) val_call0_v2
def val_call0_v4 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S800000x64, .f32⟩ : BufTy).Contents (Elt F) :=
  st_call0_v4 (val_call0_v3 a0 a1 a2 a3 a5)
def val_call0_v5 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S800000x64, .f32⟩ : BufTy).Contents (Elt F) :=
  st_call0_v5 (val_v58 a0 a1 a2 a3 a5) (val_call0_v4 a0 a1 a2 a3 a5)
def val_call0_v6 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S800000x64, .f32⟩ : BufTy).Contents (Elt F) :=
  st_call0_v6 (val_call0_v5 a0 a1 a2 a3 a5)
def val_call0_v7 : (⟨S_, .f32⟩ : BufTy).Contents (Elt F) :=
  st_call0_v7 val_c_14
def val_call0_cst_1 : (⟨S_, .f32⟩ : BufTy).Contents (Elt F) :=
  st_call0_cst_1
def val_call0_v8 : (⟨S_, .f32⟩ : BufTy).Contents (Elt F) :=
  st_call0_v8 val_call0_cst_1 val_call0_v7
def val_call0_cst_2 : (⟨S_, .f32⟩ : BufTy).Contents (Elt F) :=
  st_call0_cst_2
def val_call0_v9 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S64, .f32⟩ : BufTy).Contents (Elt F) :=
  st_call0_v9 (val_call0_v6 a0 a1 a2 a3 a5) val_call0_cst_2
def val_call0_v10 : (⟨S64, .f32⟩ : BufTy).Contents (Elt F) :=
  st_call0_v10 val_call0_v8
def val_call0_v11 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S64, .f32⟩ : BufTy).Contents (Elt F) :=
  st_call0_v11 (val_call0_v9 a0 a1 a2 a3 a5) val_call0_v10
def val_call0_cst_3 : (⟨S_, .f32⟩ : BufTy).Contents (Elt F) :=
  st_call0_cst_3
def val_call0_v12 : (⟨S_, .i1⟩ : BufTy).Contents (Elt F) :=
  st_call0_v12 val_call0_v8 val_call0_cst_3
def val_call0_cst_4 : (⟨S_, .f32⟩ : BufTy).Contents (Elt F) :=
  st_call0_cst_4
def val_call0_call0_v0 : (⟨S_, .f32⟩ : BufTy).Contents (Elt F) :=
  st_call0_call0_v0 val_call0_cst_4
def val_call0_call0_v1 : (⟨S64, .f32⟩ : BufTy).Contents (Elt F) :=
  st_call0_call0_v1 val_call0_call0_v0
def val_v62 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S64, .f32⟩ : BufTy).Contents (Elt F) :=
  st_v62 val_call0_v12 (val_call0_v11 a0 a1 a2 a3 a5) val_call0_call0_v1
def val_v63 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S1x64, .f32⟩ : BufTy).Contents (Elt F) :=
  st_v63 (val_v61 a0 a1 a2 a3 a5)
def val_v64 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S800000x64, .f32⟩ : BufTy).Contents (Elt F) :=
  st_v64 (val_v63 a0 a1 a2 a3 a5)
def val_v65 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S800000x64, .f32⟩ : BufTy).Contents (Elt F) :=
  st_v65 (val_v58 a0 a1 a2 a3 a5) (val_v64 a0 a1 a2 a3 a5)
def val_cst_15 : (⟨S_, .f32⟩ : BufTy).Contents (Elt F) :=
  st_cst_15
def val_v66 : (⟨S64, .f32⟩ : BufTy).Contents (Elt F) :=
  st_v66 val_cst_15
def val_v67 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S64, .f32⟩ : BufTy).Contents (Elt F) :=
  st_v67 (val_v62 a0 a1 a2 a3 a5) val_v66
def val_v68 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S64, .f32⟩ : BufTy).Contents (Elt F) :=
  st_v68 (val_v67 a0 a1 a2 a3 a5)
def val_v69 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S1x64, .f32⟩ : BufTy).Contents (Elt F) :=
  st_v69 (val_v68 a0 a1 a2 a3 a5)
def val_v70 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S800000x64, .f32⟩ : BufTy).Contents (Elt F) :=
  st_v70 (val_v69 a0 a1 a2 a3 a5)
def val_v71 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) : (⟨S800000x64, .f32⟩ : BufTy).Contents (Elt F) :=
  st_v71 (val_v65 a0 a1 a2 a3 a5) (val_v70 a0 a1 a2 a3 a5)
def val_v72 (a6 : (⟨S64, .f32⟩ : BufTy).Contents (Elt F)) : (⟨S1x64, .f32⟩ : BufTy).Contents (Elt F) :=
  st_v72 a6
def val_v73 (a6 : (⟨S64, .f32⟩ : BufTy).Contents (Elt F)) : (⟨S800000x64, .f32⟩ : BufTy).Contents (Elt F) :=
  st_v73 (val_v72 a6)
def val_v74 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) : (⟨S800000x64, .f32⟩ : BufTy).Contents (Elt F) :=
  st_v74 (val_v71 a0 a1 a2 a3 a5) (val_v73 a6)
def val_v75 (a7 : (⟨S64, .f32⟩ : BufTy).Contents (Elt F)) : (⟨S1x64, .f32⟩ : BufTy).Contents (Elt F) :=
  st_v75 a7
def val_v76 (a7 : (⟨S64, .f32⟩ : BufTy).Contents (Elt F)) : (⟨S800000x64, .f32⟩ : BufTy).Contents (Elt F) :=
  st_v76 (val_v75 a7)
def val_v77 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) : (⟨S800000x64, .f32⟩ : BufTy).Contents (Elt F) :=
  st_v77 (val_v74 a0 a1 a2 a3 a5 a6) (val_v76 a7)
def val_call1_cst : (⟨S_, .f32⟩ : BufTy).Contents (Elt F) :=
  st_call1_cst
def val_call1_v0 : (⟨S800000x64, .f32⟩ : BufTy).Contents (Elt F) :=
  st_call1_v0 val_call1_cst
def val_v78 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) : (⟨S800000x64, .f32⟩ : BufTy).Contents (Elt F) :=
  st_v78 (val_v77 a0 a1 a2 a3 a5 a6 a7) val_call1_v0
def val_v79 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) : (⟨S800000x64, .f32⟩ : BufTy).Contents (Elt F) :=
  st_v79 (val_v78 a0 a1 a2 a3 a5 a6 a7) a8
def val_v80 (a9 : (⟨S64, .f32⟩ : BufTy).Contents (Elt F)) : (⟨S1x64, .f32⟩ : BufTy).Contents (Elt F) :=
  st_v80 a9
def val_v81 (a9 : (⟨S64, .f32⟩ : BufTy).Contents (Elt F)) : (⟨S800000x64, .f32⟩ : BufTy).Contents (Elt F) :=
  st_v81 (val_v80 a9)
def val_v82 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) : (⟨S800000x64, .f32⟩ : BufTy).Contents (Elt F) :=
  st_v82 (val_v79 a0 a1 a2 a3 a5 a6 a7 a8) (val_v81 a9)
def val_call2_cst : (⟨S_, .f32⟩ : BufTy).Contents (Elt F) :=
  st_call2_cst
def val_call2_v0 : (⟨S800000x64, .f32⟩ : BufTy).Contents (Elt F) :=
  st_call2_v0 val_call2_cst
def val_v83 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) : (⟨S800000x64, .f32⟩ : BufTy).Contents (Elt F) :=
  st_v83 (val_v82 a0 a1 a2 a3 a5 a6 a7 a8 a9) val_call2_v0
def val_v84 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) : (⟨S800000x1, .f32⟩ : BufTy).Contents (Elt F) :=
  st_v84 (val_v83 a0 a1 a2 a3 a5 a6 a7 a8 a9) a10
def val_v85 (a11 : (⟨S1, .f32⟩ : BufTy).Contents (Elt F)) : (⟨S1x1, .f32⟩ : BufTy).Contents (Elt F) :=
  st_v85 a11
def val_v86 (a11 : (⟨S1, .f32⟩ : BufTy).Contents (Elt F)) : (⟨S800000x1, .f32⟩ : BufTy).Contents (Elt F) :=
  st_v86 (val_v85 a11)
def val_v87 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S800000x1, .f32⟩ : BufTy).Contents (Elt F) :=
  st_v87 (val_v84 a0 a1 a2 a3 a5 a6 a7 a8 a9 a10) (val_v86 a11)
def val_v88 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S800000x1, .f32⟩ : BufTy).Contents (Elt F) :=
  st_v88 (val_v87 a0 a1 a2 a3 a5 a6 a7 a8 a9 a10 a11)
def val_v89 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S800000x1, .f32⟩ : BufTy).Contents (Elt F) :=
  st_v89 (val_v88 a0 a1 a2 a3 a5 a6 a7 a8 a9 a10 a11)
def val_cst_16 : (⟨S_, .f32⟩ : BufTy).Contents (Elt F) :=
  st_cst_16
def val_v90 : (⟨S800000x1, .f32⟩ : BufTy).Contents (Elt F) :=
  st_v90 val_cst_16
def val_v91 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S800000x1, .f32⟩ : BufTy).Contents (Elt F) :=
  st_v91 val_v90 (val_v89 a0 a1 a2 a3 a5 a6 a7 a8 a9 a10 a11)
def val_cst_17 : (⟨S_, .f32⟩ : BufTy).Contents (Elt F) :=
  st_cst_17
def val_v92 : (⟨S800000x1, .f32⟩ : BufTy).Contents (Elt F) :=
  st_v92 val_cst_17
def val_v93 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S800000x1, .f32⟩ : BufTy).Contents (Elt F) :=
  st_v93 val_v92 (val_v91 a0 a1 a2 a3 a5 a6 a7 a8 a9 a10 a11)
def val_v94 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S800000x64, .f32⟩ : BufTy).Contents (Elt F) :=
  st_v94 (val_v93 a0 a1 a2 a3 a5 a6 a7 a8 a9 a10 a11)
def val_v95 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S800000x64, .f32⟩ : BufTy).Contents (Elt F) :=
  st_v95 (val_v83 a0 a1 a2 a3 a5 a6 a7 a8 a9) (val_v94 a0 a1 a2 a3 a5 a6 a7 a8 a9 a10 a11)
def val_v96 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) : (⟨S800000x64, .f32⟩ : BufTy).Contents (Elt F) :=
  st_v96 (val_v95 a0 a1 a2 a3 a5 a6 a7 a8 a9 a10 a11) a12
def val_v97 (a13 : (⟨S64, .f32⟩ : BufTy).Contents (Elt F)) : (⟨S1x64, .f32⟩ : BufTy).Contents (Elt F) :=
  st_v97 a13
def val_v98 (a13 : (⟨S64, .f32⟩ : BufTy).Contents (Elt F)) : (⟨S800000x64, .f32⟩ : BufTy).Contents (Elt F) :=
  st_v98 (val_v97 a13)
def val_v99 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) : (⟨S800000x64, .f32⟩ : BufTy).Contents (Elt F) :=
  st_v99 (val_v96 a0 a1 a2 a3 a5 a6 a7 a8 a9 a10 a11 a12) (val_v98 a13)
def val_call3_cst : (⟨S_, .f32⟩ : BufTy).Contents (Elt F) :=
  st_call3_cst
def val_call3_v0 : (⟨S800000x64, .f32⟩ : BufTy).Contents (Elt F) :=
  st_call3_v0 val_call3_cst
def val_v100 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) : (⟨S800000x64, .f32⟩ : BufTy).Contents (Elt F) :=
  st_v100 (val_v99 a0 a1 a2 a3 a5 a6 a7 a8 a9 a10 a11 a12 a13) val_call3_v0
def val_v101 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S800000x1, .f32⟩ : BufTy).Contents (Elt F) :=
  st_v101 (val_v100 a0 a1 a2 a3 a5 a6 a7 a8 a9 a10 a11 a12 a13) a14
def val_v102 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S800000x4, .f32⟩ : BufTy).Contents (Elt F) :=
  st_v102 (val_v101 a0 a1 a2 a3 a5 a6 a7 a8 a9 a10 a11 a12 a13 a14)
def val_v103 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S800000x4, .f32⟩ : BufTy).Contents (Elt F) :=
  st_v103 (val_v14 a1 a2 a3) (val_v102 a0 a1 a2 a3 a5 a6 a7 a8 a9 a10 a11 a12 a13 a14)
def val_cst_18 : (⟨S_, .f32⟩ : BufTy).Contents (Elt F) :=
  st_cst_18
def val_cst_19 : (⟨S_, .f32⟩ : BufTy).Contents (Elt F) :=
  st_cst_19
def val_call4_v0 : (⟨S_, .f32⟩ : BufTy).Contents (Elt F) :=
  st_call4_v0 val_cst_18
def val_call4_v1 : (⟨S800000x4, .f32⟩ : BufTy).Contents (Elt F) :=
  st_call4_v1 val_call4_v0
def val_call4_v2 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S800000x4, .f32⟩ : BufTy).Contents (Elt F) :=
  st_call4_v2 val_call4_v1 (val_v103 a0 a1 a2 a3 a5 a6 a7 a8 a9 a10 a11 a12 a13 a14)
def val_call4_v3 : (⟨S_, .f32⟩ : BufTy).Contents (Elt F) :=
  st_call4_v3 val_cst_19
def val_call4_v4 : (⟨S800000x4, .f32⟩ : BufTy).Contents (Elt F) :=
  st_call4_v4 val_call4_v3
def val_v104 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S800000x4, .f32⟩ : BufTy).Contents (Elt F) :=
  st_v104 val_call4_v4 (val_call4_v2 a0 a1 a2 a3 a5 a6 a7 a8 a9 a10 a11 a12 a13 a14)
def val_cst_20 : (⟨S_, .f32⟩ : BufTy).Contents (Elt F) :=
  st_cst_20
def val_v105 : (⟨S50000x4, .f32⟩ : BufTy).Contents (Elt F) :=
  st_v105 val_cst_20
def val_v106 (a2 : (⟨S800000, .i32⟩ : BufTy).Contents (Elt F)) : (⟨S800000x1, .i32⟩ : BufTy).Contents (Elt F) :=
  st_v106 a2
def val_v107 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S50000x4, .f32⟩ : BufTy).Contents (Elt F) :=
  st_v107 val_v105 (val_v106 a2) (val_v104 a0 a1 a2 a3 a5 a6 a7 a8 a9 a10 a11 a12 a13 a14)
def val_cst_21 : (⟨S_, .f32⟩ : BufTy).Contents (Elt F) :=
  st_cst_21
def val_v108 : (⟨S800000, .f32⟩ : BufTy).Contents (Elt F) :=
  st_v108 val_cst_21
def val_cst_22 : (⟨S_, .f32⟩ : BufTy).Contents (Elt F) :=
  st_cst_22
def val_v109 : (⟨S50000, .f32⟩ : BufTy).Contents (Elt F) :=
  st_v109 val_cst_22
def val_v110 (a2 : (⟨S800000, .i32⟩ : BufTy).Contents (Elt F)) : (⟨S800000x1, .i32⟩ : BufTy).Contents (Elt F) :=
  st_v110 a2
def val_v111 (a2 : (⟨S800000, .i32⟩ : BufTy).Contents (Elt F)) : (⟨S50000, .f32⟩ : BufTy).Contents (Elt F) :=
  st_v111 val_v109 (val_v110 a2) val_v108
def val_cst_23 : (⟨S_, .f32⟩ : BufTy).Contents (Elt F) :=
  st_cst_23
def val_v112 : (⟨S50000, .f32⟩ : BufTy).Contents (Elt F) :=
  st_v112 val_cst_23
def val_v113 (a2 : (⟨S800000, .i32⟩ : BufTy).Contents (Elt F)) : (⟨S50000, .f32⟩ : BufTy).Contents (Elt F) :=
  st_v113 (val_v111 a2) val_v112
def val_v114 (a2 : (⟨S800000, .i32⟩ : BufTy).Contents (Elt F)) : (⟨S50000x1, .f32⟩ : BufTy).Contents (Elt F) :=
  st_v114 (val_v113 a2)
def val_v115 (a2 : (⟨S800000, .i32⟩ : BufTy).Contents (Elt F)) : (⟨S50000x4, .f32⟩ : BufTy).Contents (Elt F) :=
  st_v115 (val_v114 a2)
def val_v116 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S50000x4, .f32⟩ : BufTy).Contents (Elt F) :=
  st_v116 (val_v107 a0 a1 a2 a3 a5 a6 a7 a8 a9 a10 a11 a12 a13 a14) (val_v115 a2)
def val_cst_24 : (⟨S_, .f32⟩ : BufTy).Contents (Elt F) :=
  st_cst_24
def val_v117 : (⟨S50000x4, .f32⟩ : BufTy).Contents (Elt F) :=
  st_v117 val_cst_24
def val_v118 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S50000x4, .f32⟩ : BufTy).Contents (Elt F) :=
  st_v118 (val_v116 a0 a1 a2 a3 a5 a6 a7 a8 a9 a10 a11 a12 a13 a14) val_v117
def val_v119 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S50000x4, .f32⟩ : BufTy).Contents (Elt F) :=
  st_v119 a1 (val_v118 a0 a1 a2 a3 a5 a6 a7 a8 a9 a10 a11 a12 a13 a14)
def val_cst_25 : (⟨S_, .f32⟩ : BufTy).Contents (Elt F) :=
  st_cst_25
def val_v120 : (⟨S50000x64, .f32⟩ : BufTy).Contents (Elt F) :=
  st_v120 val_cst_25
def val_v121 (a2 : (⟨S800000, .i32⟩ : BufTy).Contents (Elt F)) : (⟨S800000x1, .i32⟩ : BufTy).Contents (Elt F) :=
  st_v121 a2
def val_v122 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S50000x64, .f32⟩ : BufTy).Contents (Elt F) :=
  st_v122 val_v120 (val_v121 a2) (val_v95 a0 a1 a2 a3 a5 a6 a7 a8 a9 a10 a11)
def val_v123 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S50000x136, .f32⟩ : BufTy).Contents (Elt F) :=
  st_v123 a0 (val_v122 a0 a1 a2 a3 a5 a6 a7 a8 a9 a10 a11) a4
def val_v124 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) : (⟨S50000x64, .f32⟩ : BufTy).Contents (Elt F) :=
  st_v124 (val_v123 a0 a1 a2 a3 a4 a5 a6 a7 a8 a9 a10 a11) a15
def val_v125 (a16 : (⟨S64, .f32⟩ : BufTy).Contents (Elt F)) : (⟨S1x64, .f32⟩ : BufTy).Contents (Elt F) :=
  st_v125 a16
def val_v126 (a16 : (⟨S64, .f32⟩ : BufTy).Contents (Elt F)) : (⟨S50000x64, .f32⟩ : BufTy).Contents (Elt F) :=
  st_v126 (val_v125 a16)
def val_v127 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S50000x64, .f32⟩ : BufTy).Contents (Elt F) :=
  st_v127 (val_v124 a0 a1 a2 a3 a4 a5 a6 a7 a8 a9 a10 a11 a15) (val_v126 a16)
def val_cst_26 : (⟨S_, .f32⟩ : BufTy).Contents (Elt F) :=
  st_cst_26
def val_v128 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S64, .f32⟩ : BufTy).Contents (Elt F) :=
  st_v128 (val_v127 a0 a1 a2 a3 a4 a5 a6 a7 a8 a9 a10 a11 a15 a16) val_cst_26
def val_cst_27 : (⟨S_, .f32⟩ : BufTy).Contents (Elt F) :=
  st_cst_27
def val_v129 : (⟨S64, .f32⟩ : BufTy).Contents (Elt F) :=
  st_v129 val_cst_27
def val_v130 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S64, .f32⟩ : BufTy).Contents (Elt F) :=
  st_v130 (val_v128 a0 a1 a2 a3 a4 a5 a6 a7 a8 a9 a10 a11 a15 a16) val_v129
def val_c_28 : (⟨S_, .i32⟩ : BufTy).Contents (Elt F) :=
  st_c_28
def val_call5_cst : (⟨S_, .f32⟩ : BufTy).Contents (Elt F) :=
  st_call5_cst
def val_call5_v0 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S64, .f32⟩ : BufTy).Contents (Elt F) :=
  st_call5_v0 (val_v127 a0 a1 a2 a3 a4 a5 a6 a7 a8 a9 a10 a11 a15 a16) val_call5_cst
def val_call5_v1 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S1x64, .f32⟩ : BufTy).Contents (Elt F) :=
  st_call5_v1 (val_call5_v0 a0 a1 a2 a3 a4 a5 a6 a7 a8 a9 a10 a11 a15 a16)
def val_call5_cst_0 : (⟨S_, .f32⟩ : BufTy).Contents (Elt F) :=
  st_call5_cst_0
def val_call5_v2 : (⟨S1x64, .f32⟩ : BufTy).Contents (Elt F) :=
  st_call5_v2 val_call5_cst_0
def val_call5_v3 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S1x64, .f32⟩ : BufTy).Contents (Elt F) :=
  st_call5_v3 (val_call5_v1 a0 a1 a2 a3 a4 a5 a6 a7 a8 a9 a10 a11 a15 a16) val_call5_v2
def val_call5_v4 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S50000x64, .f32⟩ : BufTy).Contents (Elt F) :=
  st_call5_v4 (val_call5_v3 a0 a1 a2 a3 a4 a5 a6 a7 a8 a9 a10 a11 a15 a16)
def val_call5_v5 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S50000x64, .f32⟩ : BufTy).Contents (Elt F) :=
  st_call5_v5 (val_v127 a0 a1 a2 a3 a4 a5 a6 a7 a8 a9 a10 a11 a15 a16) (val_call5_v4 a0 a1 a2 a3 a4 a5 a6 a7 a8 a9 a10 a11 a15 a16)
def val_call5_v6 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S50000x64, .f32⟩ : BufTy).Contents (Elt F) :=
  st_call5_v6 (val_call5_v5 a0 a1 a2 a3 a4 a5 a6 a7 a8 a9 a10 a11 a15 a16)
def val_call5_v7 : (⟨S_, .f32⟩ : BufTy).Contents (Elt F) :=
  st_call5_v7 val_c_28
def val_call5_cst_1 : (⟨S_, .f32⟩ : BufTy).Contents (Elt F) :=
  st_call5_cst_1
def val_call5_v8 : (⟨S_, .f32⟩ : BufTy).Contents (Elt F) :=
  st_call5_v8 val_call5_cst_1 val_call5_v7
def val_call5_cst_2 : (⟨S_, .f32⟩ : BufTy).Contents (Elt F) :=
  st_call5_cst_2
def val_call5_v9 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S64, .f32⟩ : BufTy).Contents (Elt F) :=
  st_call5_v9 (val_call5_v6 a0 a1 a2 a3 a4 a5 a6 a7 a8 a9 a10 a11 a15 a16) val_call5_cst_2
def val_call5_v10 : (⟨S64, .f32⟩ : BufTy).Contents (Elt F) :=
  st_call5_v10 val_call5_v8
def val_call5_v11 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S64, .f32⟩ : BufTy).Contents (Elt F) :=
  st_call5_v11 (val_call5_v9 a0 a1 a2 a3 a4 a5 a6 a7 a8 a9 a10 a11 a15 a16) val_call5_v10
def val_call5_cst_3 : (⟨S_, .f32⟩ : BufTy).Contents (Elt F) :=
  st_call5_cst_3
def val_call5_v12 : (⟨S_, .i1⟩ : BufTy).Contents (Elt F) :=
  st_call5_v12 val_call5_v8 val_call5_cst_3
def val_call5_cst_4 : (⟨S_, .f32⟩ : BufTy).Contents (Elt F) :=
  st_call5_cst_4
def val_call5_call0_v0 : (⟨S_, .f32⟩ : BufTy).Contents (Elt F) :=
  st_call5_call0_v0 val_call5_cst_4
def val_call5_call0_v1 : (⟨S64, .f32⟩ : BufTy).Contents (Elt F) :=
  st_call5_call0_v1 val_call5_call0_v0
def val_v131 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S64, .f32⟩ : BufTy).Contents (Elt F) :=
  st_v131 val_call5_v12 (val_call5_v11 a0 a1 a2 a3 a4 a5 a6 a7 a8 a9 a10 a11 a15 a16) val_call5_call0_v1
def val_v132 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S1x64, .f32⟩ : BufTy).Contents (Elt F) :=
  st_v132 (val_v130 a0 a1 a2 a3 a4 a5 a6 a7 a8 a9 a10 a11 a15 a16)
def val_v133 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S50000x64, .f32⟩ : BufTy).Contents (Elt F) :=
  st_v133 (val_v132 a0 a1 a2 a3 a4 a5 a6 a7 a8 a9 a10 a11 a15 a16)
def val_v134 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S50000x64, .f32⟩ : BufTy).Contents (Elt F) :=
  st_v134 (val_v127 a0 a1 a2 a3 a4 a5 a6 a7 a8 a9 a10 a11 a15 a16) (val_v133 a0 a1 a2 a3 a4 a5 a6 a7 a8 a9 a10 a11 a15 a16)
def val_cst_29 : (⟨S_, .f32⟩ : BufTy).Contents (Elt F) :=
  st_cst_29
def val_v135 : (⟨S64, .f32⟩ : BufTy).Contents (Elt F) :=
  st_v135 val_cst_29
def val_v136 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S64, .f32⟩ : BufTy).Contents (Elt F) :=
  st_v136 (val_v131 a0 a1 a2 a3 a4 a5 a6 a7 a8 a9 a10 a11 a15 a16) val_v135
def val_v137 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S64, .f32⟩ : BufTy).Contents (Elt F) :=
  st_v137 (val_v136 a0 a1 a2 a3 a4 a5 a6 a7 a8 a9 a10 a11 a15 a16)
def val_v138 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S1x64, .f32⟩ : BufTy).Contents (Elt F) :=
  st_v138 (val_v137 a0 a1 a2 a3 a4 a5 a6 a7 a8 a9 a10 a11 a15 a16)
def val_v139 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S50000x64, .f32⟩ : BufTy).Contents (Elt F) :=
  st_v139 (val_v138 a0 a1 a2 a3 a4 a5 a6 a7 a8 a9 a10 a11 a15 a16)
def val_v140 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) : (⟨S50000x64, .f32⟩ : BufTy).Contents (Elt F) :=
  st_v140 (val_v134 a0 a1 a2 a3 a4 a5 a6 a7 a8 a9 a10 a11 a15 a16) (val_v139 a0 a1 a2 a3 a4 a5 a6 a7 a8 a9 a10 a11 a15 a16)
def val_v141 (a17 : (⟨S64, .f32⟩ : BufTy).Contents (Elt F)) : (⟨S1x64, .f32⟩ : BufTy).Contents (Elt F) :=
  st_v141 a17
def val_v142 (a17 : (⟨S64, .f32⟩ : BufTy).Contents (Elt F)) : (⟨S50000x64, .f32⟩ : BufTy).Contents (Elt F) :=
  st_v142 (val_v141 a17)
def val_v143 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) (a17 : (⟨S64, .f32⟩ : BufTy).Contents (Elt F)) : (⟨S50000x64, .f32⟩ : BufTy).Contents (Elt F) :=
  st_v143 (val_v140 a0 a1 a2 a3 a4 a5 a6 a7 a8 a9 a10 a11 a15 a16) (val_v142 a17)
def val_v144 (a18 : (⟨S64, .f32⟩ : BufTy).Contents (Elt F)) : (⟨S1x64, .f32⟩ : BufTy).Contents (Elt F) :=
  st_v144 a18
def val_v145 (a18 : (⟨S64, .f32⟩ : BufTy).Contents (Elt F)) : (⟨S50000x64, .f32⟩ : BufTy).Contents (Elt F) :=
  st_v145 (val_v144 a18)
def val_v146 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) (a17 : (⟨S64, .f32⟩ : BufTy).Contents (Elt F)) (a18 : (⟨S64, .f32⟩ : BufTy).Contents (Elt F)) : (⟨S50000x64, .f32⟩ : BufTy).Contents (Elt F) :=
  st_v146 (val_v143 a0 a1 a2 a3 a4 a5 a6 a7 a8 a9 a10 a11 a15 a16 a17) (val_v145 a18)
def val_call6_cst : (⟨S_, .f32⟩ : BufTy).Contents (Elt F) :=
  st_call6_cst
def val_call6_v0 : (⟨S50000x64, .f32⟩ : BufTy).Contents (Elt F) :=
  st_call6_v0 val_call6_cst
def val_v147 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) (a17 : (⟨S64, .f32⟩ : BufTy).Contents (Elt F)) (a18 : (⟨S64, .f32⟩ : BufTy).Contents (Elt F)) : (⟨S50000x64, .f32⟩ : BufTy).Contents (Elt F) :=
  st_v147 (val_v146 a0 a1 a2 a3 a4 a5 a6 a7 a8 a9 a10 a11 a15 a16 a17 a18) val_call6_v0
def val_v148 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) (a17 : (⟨S64, .f32⟩ : BufTy).Contents (Elt F)) (a18 : (⟨S64, .f32⟩ : BufTy).Contents (Elt F)) (a19 : (⟨S64x64, .f32⟩ : BufTy).Contents (Elt F)) : (⟨S50000x64, .f32⟩ : BufTy).Contents (Elt F) :=
  st_v148 (val_v147 a0 a1 a2 a3 a4 a5 a6 a7 a8 a9 a10 a11 a15 a16 a17 a18) a19
def val_v149 (a20 : (⟨S64, .f32⟩ : BufTy).Contents (Elt F)) : (⟨S1x64, .f32⟩ : BufTy).Contents (Elt F) :=
  st_v149 a20
def val_v150 (a20 : (⟨S64, .f32⟩ : BufTy).Contents (Elt F)) : (⟨S50000x64, .f32⟩ : BufTy).Contents (Elt F) :=
  st_v150 (val_v149 a20)
def val_v151 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) (a17 : (⟨S64, .f32⟩ : BufTy).Contents (Elt F)) (a18 : (⟨S64, .f32⟩ : BufTy).Contents (Elt F)) (a19 : (⟨S64x64, .f32⟩ : BufTy).Contents (Elt F)) (a20 : (⟨S64, .f32⟩ : BufTy).Contents (Elt F)) : (⟨S50000x64, .f32⟩ : BufTy).Contents (Elt F) :=
  st_v151 (val_v148 a0 a1 a2 a3 a4 a5 a6 a7 a8 a9 a10 a11 a15 a16 a17 a18 a19) (val_v150 a20)
def val_v152 (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) (a17 : (⟨S64, .f32⟩ : BufTy).Contents (Elt F)) (a18 : (⟨S64, .f32⟩ : BufTy).Contents (Elt F)) (a19 : (⟨S64x64, .f32⟩ : BufTy).Contents (Elt F)) (a20 : (⟨S64, .f32⟩ : BufTy).Contents (Elt F)) : (⟨S50000x64, .f32⟩ : BufTy).Contents (Elt F) :=
  st_v152 a0 (val_v151 a0 a1 a2 a3 a4 a5 a6 a7 a8 a9 a10 a11 a15 a16 a17 a18 a19 a20)

/-! ## The three results -/

/-- `h_new` (buffer `main_v152`). -/
def res_h (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) (a17 : (⟨S64, .f32⟩ : BufTy).Contents (Elt F)) (a18 : (⟨S64, .f32⟩ : BufTy).Contents (Elt F)) (a19 : (⟨S64x64, .f32⟩ : BufTy).Contents (Elt F)) (a20 : (⟨S64, .f32⟩ : BufTy).Contents (Elt F)) : (⟨S50000x64, .f32⟩ : BufTy).Contents (Elt F) :=
  val_v152 a0 a1 a2 a3 a4 a5 a6 a7 a8 a9 a10 a11 a15 a16 a17 a18 a19 a20
/-- `x_new` (buffer `main_v119`). -/
def res_x (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F)) : (⟨S50000x4, .f32⟩ : BufTy).Contents (Elt F) :=
  val_v119 a0 a1 a2 a3 a5 a6 a7 a8 a9 a10 a11 a12 a13 a14
/-- `m` (buffer `main_v95`). -/
def res_m (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S800000x64, .f32⟩ : BufTy).Contents (Elt F) :=
  val_v95 a0 a1 a2 a3 a5 a6 a7 a8 a9 a10 a11

end Cert.ReferenceIdeal.RefRun

end
-- ==== Proof.RefRun.Ops.lean ====
/- The reference program's @main as lists of its host operations, in order, in nine consecutive stretches (the
   module-local functions' operations in their calls' places, over the calls' buffers), and that @main is that line. -/
import proofs.«110093_j8770323219157_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 37 of 240. -/
abbrev chunk0 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg2 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg2 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg1 main_v5 main_v6 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    nullary main_c_1 (constantI S_ 32 0#32),
    unary main_c_1 main_v7 (broadcastInDim S800000 ![] bcast_S_S800000 : (⟨S_, .i32⟩ : BufTy).Contents (Elt F) → (⟨S800000, .i32⟩ : BufTy).Contents (Elt F)),
    binary main_arg3 main_v7 main_v8 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v9 (broadcastInDim S800000 ![] bcast_S_S800000 : (⟨S_, .i32⟩ : BufTy).Contents (Elt F) → (⟨S800000, .i32⟩ : BufTy).Contents (Elt F)),
    binary main_arg3 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg3 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    binary main_arg1 main_v12 main_v13 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    binary main_v6 main_v13 main_v14 (subf : (⟨S800000x4, .f32⟩ : BufTy).Contents (Elt F) → (⟨S800000x4, .f32⟩ : BufTy).Contents (Elt F) → (⟨S800000x4, .f32⟩ : BufTy).Contents (Elt F)),
    binary main_v14 main_v14 main_v15 (mulf : (⟨S800000x4, .f32⟩ : BufTy).Contents (Elt F) → (⟨S800000x4, .f32⟩ : BufTy).Contents (Elt F) → (⟨S800000x4, .f32⟩ : BufTy).Contents (Elt F)),
    unary main_v15 main_v16 ((extractStridedSlice S800000x1 ![0, 0] · slices_S800000x4_S800000x1_0_0) : (⟨S800000x4, .f32⟩ : BufTy).Contents (Elt F) → (⟨S800000x1, .f32⟩ : BufTy).Contents (Elt F)),
    reshape main_v16 main_v17 rfl shapeCasts_S800000x1_S800000,
    nullary main_cst (constant S_ .f32 0x40000000#32),
    unary main_cst main_v18 (broadcastInDim S800000 ![] bcast_S_S800000 : (⟨S_, .f32⟩ : BufTy).Contents (Elt F) → (⟨S800000, .f32⟩ : BufTy).Contents (Elt F)),
    binary main_v18 main_v17 main_v19 (mulf : (⟨S800000, .f32⟩ : BufTy).Contents (Elt F) → (⟨S800000, .f32⟩ : BufTy).Contents (Elt F) → (⟨S800000, .f32⟩ : BufTy).Contents (Elt F)),
    nullary main_cst_3 (constant S_ .f32 0x00000000#32),
    binary main_v15 main_cst_3 main_v20 ((fun x v => Host.reduceAdd x v reducesTo_S800000x4_S800000_d1 h_S_) : (⟨S800000x4, .f32⟩ : BufTy).Contents (Elt F) → (⟨S_, .f32⟩ : BufTy).Contents (Elt F) → (⟨S800000, .f32⟩ : BufTy).Contents (Elt F)),
    binary main_v19 main_v20 main_v21 (subf : (⟨S800000, .f32⟩ : BufTy).Contents (Elt F) → (⟨S800000, .f32⟩ : BufTy).Contents (Elt F) → (⟨S800000, .f32⟩ : BufTy).Contents (Elt F)),
    unary main_v21 main_v22 (Host.sign : (⟨S800000, .f32⟩ : BufTy).Contents (Elt F) → (⟨S800000, .f32⟩ : BufTy).Contents (Elt F)),
    unary main_v21 main_v23 (Host.absf : (⟨S800000, .f32⟩ : BufTy).Contents (Elt F) → (⟨S800000, .f32⟩ : BufTy).Contents (Elt F)),
    nullary main_cst_4 (constant S_ .f32 0x3F800000#32),
    unary main_cst_4 main_v24 (broadcastInDim S800000 ![] bcast_S_S800000 : (⟨S_, .f32⟩ : BufTy).Contents (Elt F) → (⟨S800000, .f32⟩ : BufTy).Contents (Elt F)),
    binary main_v23 main_v24 main_v25 (addf : (⟨S800000, .f32⟩ : BufTy).Contents (Elt F) → (⟨S800000, .f32⟩ : BufTy).Contents (Elt F) → (⟨S800000, .f32⟩ : BufTy).Contents (Elt F)),
    unary main_v25 main_v26 (Host.log : (⟨S800000, .f32⟩ : BufTy).Contents (Elt F) → (⟨S800000, .f32⟩ : BufTy).Contents (Elt F)),
    binary main_v22 main_v26 main_v27 (mulf : (⟨S800000, .f32⟩ : BufTy).Contents (Elt F) → (⟨S800000, .f32⟩ : BufTy).Contents (Elt F) → (⟨S800000, .f32⟩ : BufTy).Contents (Elt F)),
    unary main_v27 main_v28 (broadcastInDim S800000x1 ![0] bcast_S800000_S800000x1_0 : (⟨S800000, .f32⟩ : BufTy).Contents (Elt F) → (⟨S800000x1, .f32⟩ : BufTy).Contents (Elt F)),
    binary main_v6 main_v13 main_v29 (mulf : (⟨S800000x4, .f32⟩ : BufTy).Contents (Elt F) → (⟨S800000x4, .f32⟩ : BufTy).Contents (Elt F) → (⟨S800000x4, .f32⟩ : BufTy).Contents (Elt F)) ]

/-- Operations 38 … 60 of 240. -/
abbrev chunk1 : List (HloOp τ sig (Elt F)) :=
  [ unary main_v29 main_v30 ((extractStridedSlice S800000x1 ![0, 0] · slices_S800000x4_S800000x1_0_0) : (⟨S800000x4, .f32⟩ : BufTy).Contents (Elt F) → (⟨S800000x1, .f32⟩ : BufTy).Contents (Elt F)),
    reshape main_v30 main_v31 rfl shapeCasts_S800000x1_S800000,
    nullary main_cst_5 (constant S_ .f32 0x40000000#32),
    unary main_cst_5 main_v32 (broadcastInDim S800000 ![] bcast_S_S800000 : (⟨S_, .f32⟩ : BufTy).Contents (Elt F) → (⟨S800000, .f32⟩ : BufTy).Contents (Elt F)),
    binary main_v32 main_v31 main_v33 (mulf : (⟨S800000, .f32⟩ : BufTy).Contents (Elt F) → (⟨S800000, .f32⟩ : BufTy).Contents (Elt F) → (⟨S800000, .f32⟩ : BufTy).Contents (Elt F)),
    nullary main_cst_6 (constant S_ .f32 0x00000000#32),
    binary main_v29 main_cst_6 main_v34 ((fun x v => Host.reduceAdd x v reducesTo_S800000x4_S800000_d1 h_S_) : (⟨S800000x4, .f32⟩ : BufTy).Contents (Elt F) → (⟨S_, .f32⟩ : BufTy).Contents (Elt F) → (⟨S800000, .f32⟩ : BufTy).Contents (Elt F)),
    binary main_v33 main_v34 main_v35 (subf : (⟨S800000, .f32⟩ : BufTy).Contents (Elt F) → (⟨S800000, .f32⟩ : BufTy).Contents (Elt F) → (⟨S800000, .f32⟩ : BufTy).Contents (Elt F)),
    unary main_v35 main_v36 (Host.sign : (⟨S800000, .f32⟩ : BufTy).Contents (Elt F) → (⟨S800000, .f32⟩ : BufTy).Contents (Elt F)),
    unary main_v35 main_v37 (Host.absf : (⟨S800000, .f32⟩ : BufTy).Contents (Elt F) → (⟨S800000, .f32⟩ : BufTy).Contents (Elt F)),
    nullary main_cst_7 (constant S_ .f32 0x3F800000#32),
    unary main_cst_7 main_v38 (broadcastInDim S800000 ![] bcast_S_S800000 : (⟨S_, .f32⟩ : BufTy).Contents (Elt F) → (⟨S800000, .f32⟩ : BufTy).Contents (Elt F)),
    binary main_v37 main_v38 main_v39 (addf : (⟨S800000, .f32⟩ : BufTy).Contents (Elt F) → (⟨S800000, .f32⟩ : BufTy).Contents (Elt F) → (⟨S800000, .f32⟩ : BufTy).Contents (Elt F)),
    unary main_v39 main_v40 (Host.log : (⟨S800000, .f32⟩ : BufTy).Contents (Elt F) → (⟨S800000, .f32⟩ : BufTy).Contents (Elt F)),
    binary main_v36 main_v40 main_v41 (mulf : (⟨S800000, .f32⟩ : BufTy).Contents (Elt F) → (⟨S800000, .f32⟩ : BufTy).Contents (Elt F) → (⟨S800000, .f32⟩ : BufTy).Contents (Elt F)),
    unary main_v41 main_v42 (broadcastInDim S800000x1 ![0] bcast_S800000_S800000x1_0 : (⟨S800000, .f32⟩ : BufTy).Contents (Elt F) → (⟨S800000x1, .f32⟩ : BufTy).Contents (Elt F)),
    nullary main_c_8 (constantI S_ 32 0#32),
    unary main_c_8 main_v43 (broadcastInDim S800000 ![] bcast_S_S800000 : (⟨S_, .i32⟩ : BufTy).Contents (Elt F) → (⟨S800000, .i32⟩ : BufTy).Contents (Elt F)),
    binary main_arg2 main_v43 main_v44 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v45 (broadcastInDim S800000 ![] bcast_S_S800000 : (⟨S_, .i32⟩ : BufTy).Contents (Elt F) → (⟨S800000, .i32⟩ : BufTy).Contents (Elt F)),
    binary main_arg2 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_arg2 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

/-- Operations 61 … 73 of 240. -/
abbrev chunk2 : List (HloOp τ sig (Elt F)) :=
  [ unary main_v47 main_v48 (broadcastInDim S800000x1 ![0] bcast_S800000_S800000x1_0 : (⟨S800000, .i32⟩ : BufTy).Contents (Elt F) → (⟨S800000x1, .i32⟩ : BufTy).Contents (Elt F)),
    binary main_arg0 main_v48 main_v49 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_10 (constantI S_ 32 0#32),
    unary main_c_10 main_v50 (broadcastInDim S800000 ![] bcast_S_S800000 : (⟨S_, .i32⟩ : BufTy).Contents (Elt F) → (⟨S800000, .i32⟩ : BufTy).Contents (Elt F)),
    binary main_arg3 main_v50 main_v51 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v52 (broadcastInDim S800000 ![] bcast_S_S800000 : (⟨S_, .i32⟩ : BufTy).Contents (Elt F) → (⟨S800000, .i32⟩ : BufTy).Contents (Elt F)),
    binary main_arg3 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_arg3 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_arg0 main_v55 main_v56 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v49, main_v56, main_v28, main_v42] main_v57 (fun u => st_v57 (F := F) (u 0) (u 1) (u 2) (u 3)),
    binary main_v57 main_arg5 main_v58 ((fun l r => Host.dotGeneral dot_S800000x130_S130x64_S800000x64_1_0_0_1_n_n none l r) : (⟨S800000x130, .f32⟩ : BufTy).Contents (Elt F) → (⟨S130x64, .f32⟩ : BufTy).Contents (Elt F) → (⟨S800000x64, .f32⟩ : BufTy).Contents (Elt F)) ]

/-- Operations 74 … 111 of 240. -/
abbrev chunk3 : List (HloOp τ sig (Elt F)) :=
  [ nullary main_cst_12 (constant S_ .f32 0x00000000#32),
    binary main_v58 main_cst_12 main_v59 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    nullary main_cst_13 (constant S_ .f32 0x49435000#32),
    unary main_cst_13 main_v60 (broadcastInDim S64 ![] bcast_S_S64 : (⟨S_, .f32⟩ : BufTy).Contents (Elt F) → (⟨S64, .f32⟩ : BufTy).Contents (Elt F)),
    binary main_v59 main_v60 main_v61 (Host.divf : (⟨S64, .f32⟩ : BufTy).Contents (Elt F) → (⟨S64, .f32⟩ : BufTy).Contents (Elt F) → (⟨S64, .f32⟩ : BufTy).Contents (Elt F)),
    nullary main_c_14 (constantI S_ 32 0#32),
    nullary main_call0_cst (constant S_ .f32 0x00000000#32),
    binary main_v58 main_call0_cst main_call0_v0 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    unary main_call0_v0 main_call0_v1 (broadcastInDim S1x64 ![1] bcast_S64_S1x64_1 : (⟨S64, .f32⟩ : BufTy).Contents (Elt F) → (⟨S1x64, .f32⟩ : BufTy).Contents (Elt F)),
    nullary main_call0_cst_0 (constant S_ .f32 0x49435000#32),
    unary main_call0_cst_0 main_call0_v2 (broadcastInDim S1x64 ![] bcast_S_S1x64 : (⟨S_, .f32⟩ : BufTy).Contents (Elt F) → (⟨S1x64, .f32⟩ : BufTy).Contents (Elt F)),
    binary main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)),
    unary main_call0_v3 main_call0_v4 (broadcastInDim S800000x64 ![0, 1] bcast_S1x64_S800000x64_0_1 : (⟨S1x64, .f32⟩ : BufTy).Contents (Elt F) → (⟨S800000x64, .f32⟩ : BufTy).Contents (Elt F)),
    binary main_v58 main_call0_v4 main_call0_v5 (subf : (⟨S800000x64, .f32⟩ : BufTy).Contents (Elt F) → (⟨S800000x64, .f32⟩ : BufTy).Contents (Elt F) → (⟨S800000x64, .f32⟩ : BufTy).Contents (Elt F)),
    binary main_call0_v5 main_call0_v5 main_call0_v6 (mulf : (⟨S800000x64, .f32⟩ : BufTy).Contents (Elt F) → (⟨S800000x64, .f32⟩ : BufTy).Contents (Elt F) → (⟨S800000x64, .f32⟩ : BufTy).Contents (Elt F)),
    unary main_c_14 main_call0_v7 (sitofp .f32 : (⟨S_, .i32⟩ : BufTy).Contents (Elt F) → (⟨S_, .f32⟩ : BufTy).Contents (Elt F)),
    nullary main_call0_cst_1 (constant S_ .f32 0x49435000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    unary main_call0_v8 main_call0_v10 (broadcastInDim S64 ![] bcast_S_S64 : (⟨S_, .f32⟩ : BufTy).Contents (Elt F) → (⟨S64, .f32⟩ : BufTy).Contents (Elt F)),
    binary main_call0_v9 main_call0_v10 main_call0_v11 (Host.divf : (⟨S64, .f32⟩ : BufTy).Contents (Elt F) → (⟨S64, .f32⟩ : BufTy).Contents (Elt F) → (⟨S64, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S64 ![] bcast_S_S64 : (⟨S_, .f32⟩ : BufTy).Contents (Elt F) → (⟨S64, .f32⟩ : BufTy).Contents (Elt F)),
    ternary main_call0_v12 main_call0_v11 main_call0_call0_v1 main_v62 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v61 main_v63 (broadcastInDim S1x64 ![1] bcast_S64_S1x64_1 : (⟨S64, .f32⟩ : BufTy).Contents (Elt F) → (⟨S1x64, .f32⟩ : BufTy).Contents (Elt F)),
    unary main_v63 main_v64 (broadcastInDim S800000x64 ![0, 1] bcast_S1x64_S800000x64_0_1 : (⟨S1x64, .f32⟩ : BufTy).Contents (Elt F) → (⟨S800000x64, .f32⟩ : BufTy).Contents (Elt F)),
    binary main_v58 main_v64 main_v65 (subf : (⟨S800000x64, .f32⟩ : BufTy).Contents (Elt F) → (⟨S800000x64, .f32⟩ : BufTy).Contents (Elt F) → (⟨S800000x64, .f32⟩ : BufTy).Contents (Elt F)),
    nullary main_cst_15 (constant S_ .f32 0x3727C5AC#32),
    unary main_cst_15 main_v66 (broadcastInDim S64 ![] bcast_S_S64 : (⟨S_, .f32⟩ : BufTy).Contents (Elt F) → (⟨S64, .f32⟩ : BufTy).Contents (Elt F)),
    binary main_v62 main_v66 main_v67 (addf : (⟨S64, .f32⟩ : BufTy).Contents (Elt F) → (⟨S64, .f32⟩ : BufTy).Contents (Elt F) → (⟨S64, .f32⟩ : BufTy).Contents (Elt F)),
    unary main_v67 main_v68 (Host.sqrt : (⟨S64, .f32⟩ : BufTy).Contents (Elt F) → (⟨S64, .f32⟩ : BufTy).Contents (Elt F)),
    unary main_v68 main_v69 (broadcastInDim S1x64 ![1] bcast_S64_S1x64_1 : (⟨S64, .f32⟩ : BufTy).Contents (Elt F) → (⟨S1x64, .f32⟩ : BufTy).Contents (Elt F)),
    unary main_v69 main_v70 (broadcastInDim S800000x64 ![0, 1] bcast_S1x64_S800000x64_0_1 : (⟨S1x64, .f32⟩ : BufTy).Contents (Elt F) → (⟨S800000x64, .f32⟩ : BufTy).Contents (Elt F)),
    binary main_v65 main_v70 main_v71 (Host.divf : (⟨S800000x64, .f32⟩ : BufTy).Contents (Elt F) → (⟨S800000x64, .f32⟩ : BufTy).Contents (Elt F) → (⟨S800000x64, .f32⟩ : BufTy).Contents (Elt F)) ]

/-- Operations 112 … 145 of 240. -/
abbrev chunk4 : List (HloOp τ sig (Elt F)) :=
  [ unary main_arg6 main_v72 (broadcastInDim S1x64 ![1] bcast_S64_S1x64_1 : (⟨S64, .f32⟩ : BufTy).Contents (Elt F) → (⟨S1x64, .f32⟩ : BufTy).Contents (Elt F)),
    unary main_v72 main_v73 (broadcastInDim S800000x64 ![0, 1] bcast_S1x64_S800000x64_0_1 : (⟨S1x64, .f32⟩ : BufTy).Contents (Elt F) → (⟨S800000x64, .f32⟩ : BufTy).Contents (Elt F)),
    binary main_v71 main_v73 main_v74 (mulf : (⟨S800000x64, .f32⟩ : BufTy).Contents (Elt F) → (⟨S800000x64, .f32⟩ : BufTy).Contents (Elt F) → (⟨S800000x64, .f32⟩ : BufTy).Contents (Elt F)),
    unary main_arg7 main_v75 (broadcastInDim S1x64 ![1] bcast_S64_S1x64_1 : (⟨S64, .f32⟩ : BufTy).Contents (Elt F) → (⟨S1x64, .f32⟩ : BufTy).Contents (Elt F)),
    unary main_v75 main_v76 (broadcastInDim S800000x64 ![0, 1] bcast_S1x64_S800000x64_0_1 : (⟨S1x64, .f32⟩ : BufTy).Contents (Elt F) → (⟨S800000x64, .f32⟩ : BufTy).Contents (Elt F)),
    binary main_v74 main_v76 main_v77 (addf : (⟨S800000x64, .f32⟩ : BufTy).Contents (Elt F) → (⟨S800000x64, .f32⟩ : BufTy).Contents (Elt F) → (⟨S800000x64, .f32⟩ : BufTy).Contents (Elt F)),
    nullary main_call1_cst (constant S_ .f32 0x00000000#32),
    unary main_call1_cst main_call1_v0 (broadcastInDim S800000x64 ![] bcast_S_S800000x64 : (⟨S_, .f32⟩ : BufTy).Contents (Elt F) → (⟨S800000x64, .f32⟩ : BufTy).Contents (Elt F)),
    binary main_v77 main_call1_v0 main_v78 (maximumf : (⟨S800000x64, .f32⟩ : BufTy).Contents (Elt F) → (⟨S800000x64, .f32⟩ : BufTy).Contents (Elt F) → (⟨S800000x64, .f32⟩ : BufTy).Contents (Elt F)),
    binary main_v78 main_arg8 main_v79 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v80 (broadcastInDim S1x64 ![1] bcast_S64_S1x64_1 : (⟨S64, .f32⟩ : BufTy).Contents (Elt F) → (⟨S1x64, .f32⟩ : BufTy).Contents (Elt F)),
    unary main_v80 main_v81 (broadcastInDim S800000x64 ![0, 1] bcast_S1x64_S800000x64_0_1 : (⟨S1x64, .f32⟩ : BufTy).Contents (Elt F) → (⟨S800000x64, .f32⟩ : BufTy).Contents (Elt F)),
    binary main_v79 main_v81 main_v82 (addf : (⟨S800000x64, .f32⟩ : BufTy).Contents (Elt F) → (⟨S800000x64, .f32⟩ : BufTy).Contents (Elt F) → (⟨S800000x64, .f32⟩ : BufTy).Contents (Elt F)),
    nullary main_call2_cst (constant S_ .f32 0x00000000#32),
    unary main_call2_cst main_call2_v0 (broadcastInDim S800000x64 ![] bcast_S_S800000x64 : (⟨S_, .f32⟩ : BufTy).Contents (Elt F) → (⟨S800000x64, .f32⟩ : BufTy).Contents (Elt F)),
    binary main_v82 main_call2_v0 main_v83 (maximumf : (⟨S800000x64, .f32⟩ : BufTy).Contents (Elt F) → (⟨S800000x64, .f32⟩ : BufTy).Contents (Elt F) → (⟨S800000x64, .f32⟩ : BufTy).Contents (Elt F)),
    binary main_v83 main_arg10 main_v84 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    unary main_arg11 main_v85 (broadcastInDim S1x1 ![1] bcast_S1_S1x1_1 : (⟨S1, .f32⟩ : BufTy).Contents (Elt F) → (⟨S1x1, .f32⟩ : BufTy).Contents (Elt F)),
    unary main_v85 main_v86 (broadcastInDim S800000x1 ![0, 1] bcast_S1x1_S800000x1_0_1 : (⟨S1x1, .f32⟩ : BufTy).Contents (Elt F) → (⟨S800000x1, .f32⟩ : BufTy).Contents (Elt F)),
    binary main_v84 main_v86 main_v87 (addf : (⟨S800000x1, .f32⟩ : BufTy).Contents (Elt F) → (⟨S800000x1, .f32⟩ : BufTy).Contents (Elt F) → (⟨S800000x1, .f32⟩ : BufTy).Contents (Elt F)),
    unary main_v87 main_v88 (Host.negf : (⟨S800000x1, .f32⟩ : BufTy).Contents (Elt F) → (⟨S800000x1, .f32⟩ : BufTy).Contents (Elt F)),
    unary main_v88 main_v89 (Host.exp : (⟨S800000x1, .f32⟩ : BufTy).Contents (Elt F) → (⟨S800000x1, .f32⟩ : BufTy).Contents (Elt F)),
    nullary main_cst_16 (constant S_ .f32 0x3F800000#32),
    unary main_cst_16 main_v90 (broadcastInDim S800000x1 ![] bcast_S_S800000x1 : (⟨S_, .f32⟩ : BufTy).Contents (Elt F) → (⟨S800000x1, .f32⟩ : BufTy).Contents (Elt F)),
    binary main_v90 main_v89 main_v91 (addf : (⟨S800000x1, .f32⟩ : BufTy).Contents (Elt F) → (⟨S800000x1, .f32⟩ : BufTy).Contents (Elt F) → (⟨S800000x1, .f32⟩ : BufTy).Contents (Elt F)),
    nullary main_cst_17 (constant S_ .f32 0x3F800000#32),
    unary main_cst_17 main_v92 (broadcastInDim S800000x1 ![] bcast_S_S800000x1 : (⟨S_, .f32⟩ : BufTy).Contents (Elt F) → (⟨S800000x1, .f32⟩ : BufTy).Contents (Elt F)),
    binary main_v92 main_v91 main_v93 (Host.divf : (⟨S800000x1, .f32⟩ : BufTy).Contents (Elt F) → (⟨S800000x1, .f32⟩ : BufTy).Contents (Elt F) → (⟨S800000x1, .f32⟩ : BufTy).Contents (Elt F)),
    unary main_v93 main_v94 (broadcastInDim S800000x64 ![0, 1] bcast_S800000x1_S800000x64_0_1 : (⟨S800000x1, .f32⟩ : BufTy).Contents (Elt F) → (⟨S800000x64, .f32⟩ : BufTy).Contents (Elt F)),
    binary main_v83 main_v94 main_v95 (mulf : (⟨S800000x64, .f32⟩ : BufTy).Contents (Elt F) → (⟨S800000x64, .f32⟩ : BufTy).Contents (Elt F) → (⟨S800000x64, .f32⟩ : BufTy).Contents (Elt F)),
    binary main_v95 main_arg12 main_v96 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg13 main_v97 (broadcastInDim S1x64 ![1] bcast_S64_S1x64_1 : (⟨S64, .f32⟩ : BufTy).Contents (Elt F) → (⟨S1x64, .f32⟩ : BufTy).Contents (Elt F)),
    unary main_v97 main_v98 (broadcastInDim S800000x64 ![0, 1] bcast_S1x64_S800000x64_0_1 : (⟨S1x64, .f32⟩ : BufTy).Contents (Elt F) → (⟨S800000x64, .f32⟩ : BufTy).Contents (Elt F)),
    binary main_v96 main_v98 main_v99 (addf : (⟨S800000x64, .f32⟩ : BufTy).Contents (Elt F) → (⟨S800000x64, .f32⟩ : BufTy).Contents (Elt F) → (⟨S800000x64, .f32⟩ : BufTy).Contents (Elt F)) ]

/-- Operations 146 … 163 of 240. -/
abbrev chunk5 : List (HloOp τ sig (Elt F)) :=
  [ nullary main_call3_cst (constant S_ .f32 0x00000000#32),
    unary main_call3_cst main_call3_v0 (broadcastInDim S800000x64 ![] bcast_S_S800000x64 : (⟨S_, .f32⟩ : BufTy).Contents (Elt F) → (⟨S800000x64, .f32⟩ : BufTy).Contents (Elt F)),
    binary main_v99 main_call3_v0 main_v100 (maximumf : (⟨S800000x64, .f32⟩ : BufTy).Contents (Elt F) → (⟨S800000x64, .f32⟩ : BufTy).Contents (Elt F) → (⟨S800000x64, .f32⟩ : BufTy).Contents (Elt F)),
    binary main_v100 main_arg14 main_v101 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    unary main_v101 main_v102 (broadcastInDim S800000x4 ![0, 1] bcast_S800000x1_S800000x4_0_1 : (⟨S800000x1, .f32⟩ : BufTy).Contents (Elt F) → (⟨S800000x4, .f32⟩ : BufTy).Contents (Elt F)),
    binary main_v14 main_v102 main_v103 (mulf : (⟨S800000x4, .f32⟩ : BufTy).Contents (Elt F) → (⟨S800000x4, .f32⟩ : BufTy).Contents (Elt F) → (⟨S800000x4, .f32⟩ : BufTy).Contents (Elt F)),
    nullary main_cst_18 (constant S_ .f32 0xC2C80000#32),
    nullary main_cst_19 (constant S_ .f32 0x42C80000#32),
    unary main_cst_18 main_call4_v0 (id : (⟨S_, .f32⟩ : BufTy).Contents (Elt F) → (⟨S_, .f32⟩ : BufTy).Contents (Elt F)),
    unary main_call4_v0 main_call4_v1 (broadcastInDim S800000x4 ![] bcast_S_S800000x4 : (⟨S_, .f32⟩ : BufTy).Contents (Elt F) → (⟨S800000x4, .f32⟩ : BufTy).Contents (Elt F)),
    binary main_call4_v1 main_v103 main_call4_v2 (maximumf : (⟨S800000x4, .f32⟩ : BufTy).Contents (Elt F) → (⟨S800000x4, .f32⟩ : BufTy).Contents (Elt F) → (⟨S800000x4, .f32⟩ : BufTy).Contents (Elt F)),
    unary main_cst_19 main_call4_v3 (id : (⟨S_, .f32⟩ : BufTy).Contents (Elt F) → (⟨S_, .f32⟩ : BufTy).Contents (Elt F)),
    unary main_call4_v3 main_call4_v4 (broadcastInDim S800000x4 ![] bcast_S_S800000x4 : (⟨S_, .f32⟩ : BufTy).Contents (Elt F) → (⟨S800000x4, .f32⟩ : BufTy).Contents (Elt F)),
    binary main_call4_v4 main_call4_v2 main_v104 (minimumf : (⟨S800000x4, .f32⟩ : BufTy).Contents (Elt F) → (⟨S800000x4, .f32⟩ : BufTy).Contents (Elt F) → (⟨S800000x4, .f32⟩ : BufTy).Contents (Elt F)),
    nullary main_cst_20 (constant S_ .f32 0x00000000#32),
    unary main_cst_20 main_v105 (broadcastInDim S50000x4 ![] bcast_S_S50000x4 : (⟨S_, .f32⟩ : BufTy).Contents (Elt F) → (⟨S50000x4, .f32⟩ : BufTy).Contents (Elt F)),
    unary main_arg2 main_v106 (broadcastInDim S800000x1 ![0] bcast_S800000_S800000x1_0 : (⟨S800000, .i32⟩ : BufTy).Contents (Elt F) → (⟨S800000x1, .i32⟩ : BufTy).Contents (Elt F)),
    ternary main_v105 main_v106 main_v104 main_v107 ((fun x i u => Host.scatterAdd scatter_S50000x4_S800000x1_S800000x4_1_0_0_1 x i u) : (⟨S50000x4, .f32⟩ : BufTy).Contents (Elt F) → (⟨S800000x1, .i32⟩ : BufTy).Contents (Elt F) → (⟨S800000x4, .f32⟩ : BufTy).Contents (Elt F) → (⟨S50000x4, .f32⟩ : BufTy).Contents (Elt F)) ]

/-- Operations 164 … 188 of 240. -/
abbrev chunk6 : List (HloOp τ sig (Elt F)) :=
  [ nullary main_cst_21 (constant S_ .f32 0x3F800000#32),
    unary main_cst_21 main_v108 (broadcastInDim S800000 ![] bcast_S_S800000 : (⟨S_, .f32⟩ : BufTy).Contents (Elt F) → (⟨S800000, .f32⟩ : BufTy).Contents (Elt F)),
    nullary main_cst_22 (constant S_ .f32 0x00000000#32),
    unary main_cst_22 main_v109 (broadcastInDim S50000 ![] bcast_S_S50000 : (⟨S_, .f32⟩ : BufTy).Contents (Elt F) → (⟨S50000, .f32⟩ : BufTy).Contents (Elt F)),
    unary main_arg2 main_v110 (broadcastInDim S800000x1 ![0] bcast_S800000_S800000x1_0 : (⟨S800000, .i32⟩ : BufTy).Contents (Elt F) → (⟨S800000x1, .i32⟩ : BufTy).Contents (Elt F)),
    ternary main_v109 main_v110 main_v108 main_v111 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_23 (constant S_ .f32 0x3F800000#32),
    unary main_cst_23 main_v112 (broadcastInDim S50000 ![] bcast_S_S50000 : (⟨S_, .f32⟩ : BufTy).Contents (Elt F) → (⟨S50000, .f32⟩ : BufTy).Contents (Elt F)),
    binary main_v111 main_v112 main_v113 (maximumf : (⟨S50000, .f32⟩ : BufTy).Contents (Elt F) → (⟨S50000, .f32⟩ : BufTy).Contents (Elt F) → (⟨S50000, .f32⟩ : BufTy).Contents (Elt F)),
    unary main_v113 main_v114 (broadcastInDim S50000x1 ![0] bcast_S50000_S50000x1_0 : (⟨S50000, .f32⟩ : BufTy).Contents (Elt F) → (⟨S50000x1, .f32⟩ : BufTy).Contents (Elt F)),
    unary main_v114 main_v115 (broadcastInDim S50000x4 ![0, 1] bcast_S50000x1_S50000x4_0_1 : (⟨S50000x1, .f32⟩ : BufTy).Contents (Elt F) → (⟨S50000x4, .f32⟩ : BufTy).Contents (Elt F)),
    binary main_v107 main_v115 main_v116 (Host.divf : (⟨S50000x4, .f32⟩ : BufTy).Contents (Elt F) → (⟨S50000x4, .f32⟩ : BufTy).Contents (Elt F) → (⟨S50000x4, .f32⟩ : BufTy).Contents (Elt F)),
    nullary main_cst_24 (constant S_ .f32 0x3F800000#32),
    unary main_cst_24 main_v117 (broadcastInDim S50000x4 ![] bcast_S_S50000x4 : (⟨S_, .f32⟩ : BufTy).Contents (Elt F) → (⟨S50000x4, .f32⟩ : BufTy).Contents (Elt F)),
    binary main_v116 main_v117 main_v118 (mulf : (⟨S50000x4, .f32⟩ : BufTy).Contents (Elt F) → (⟨S50000x4, .f32⟩ : BufTy).Contents (Elt F) → (⟨S50000x4, .f32⟩ : BufTy).Contents (Elt F)),
    binary main_arg1 main_v118 main_v119 (addf : (⟨S50000x4, .f32⟩ : BufTy).Contents (Elt F) → (⟨S50000x4, .f32⟩ : BufTy).Contents (Elt F) → (⟨S50000x4, .f32⟩ : BufTy).Contents (Elt F)),
    nullary main_cst_25 (constant S_ .f32 0x00000000#32),
    unary main_cst_25 main_v120 (broadcastInDim S50000x64 ![] bcast_S_S50000x64 : (⟨S_, .f32⟩ : BufTy).Contents (Elt F) → (⟨S50000x64, .f32⟩ : BufTy).Contents (Elt F)),
    unary main_arg2 main_v121 (broadcastInDim S800000x1 ![0] bcast_S800000_S800000x1_0 : (⟨S800000, .i32⟩ : BufTy).Contents (Elt F) → (⟨S800000x1, .i32⟩ : BufTy).Contents (Elt F)),
    ternary main_v120 main_v121 main_v95 main_v122 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nary ![main_arg0, main_v122, main_arg4] main_v123 (fun u => st_v123 (F := F) (u 0) (u 1) (u 2)),
    binary main_v123 main_arg15 main_v124 ((fun l r => Host.dotGeneral dot_S50000x136_S136x64_S50000x64_1_0_0_1_n_n none l r) : (⟨S50000x136, .f32⟩ : BufTy).Contents (Elt F) → (⟨S136x64, .f32⟩ : BufTy).Contents (Elt F) → (⟨S50000x64, .f32⟩ : BufTy).Contents (Elt F)),
    unary main_arg16 main_v125 (broadcastInDim S1x64 ![1] bcast_S64_S1x64_1 : (⟨S64, .f32⟩ : BufTy).Contents (Elt F) → (⟨S1x64, .f32⟩ : BufTy).Contents (Elt F)),
    unary main_v125 main_v126 (broadcastInDim S50000x64 ![0, 1] bcast_S1x64_S50000x64_0_1 : (⟨S1x64, .f32⟩ : BufTy).Contents (Elt F) → (⟨S50000x64, .f32⟩ : BufTy).Contents (Elt F)),
    binary main_v124 main_v126 main_v127 (addf : (⟨S50000x64, .f32⟩ : BufTy).Contents (Elt F) → (⟨S50000x64, .f32⟩ : BufTy).Contents (Elt F) → (⟨S50000x64, .f32⟩ : BufTy).Contents (Elt F)) ]

/-- Operations 189 … 235 of 240. -/
abbrev chunk7 : List (HloOp τ sig (Elt F)) :=
  [ nullary main_cst_26 (constant S_ .f32 0x00000000#32),
    binary main_v127 main_cst_26 main_v128 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_27 (constant S_ .f32 0x47435000#32),
    unary main_cst_27 main_v129 (broadcastInDim S64 ![] bcast_S_S64 : (⟨S_, .f32⟩ : BufTy).Contents (Elt F) → (⟨S64, .f32⟩ : BufTy).Contents (Elt F)),
    binary main_v128 main_v129 main_v130 (Host.divf : (⟨S64, .f32⟩ : BufTy).Contents (Elt F) → (⟨S64, .f32⟩ : BufTy).Contents (Elt F) → (⟨S64, .f32⟩ : BufTy).Contents (Elt F)),
    nullary main_c_28 (constantI S_ 32 0#32),
    nullary main_call5_cst (constant S_ .f32 0x00000000#32),
    binary main_v127 main_call5_cst main_call5_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call5_v0 main_call5_v1 (broadcastInDim S1x64 ![1] bcast_S64_S1x64_1 : (⟨S64, .f32⟩ : BufTy).Contents (Elt F) → (⟨S1x64, .f32⟩ : BufTy).Contents (Elt F)),
    nullary main_call5_cst_0 (constant S_ .f32 0x47435000#32),
    unary main_call5_cst_0 main_call5_v2 (broadcastInDim S1x64 ![] bcast_S_S1x64 : (⟨S_, .f32⟩ : BufTy).Contents (Elt F) → (⟨S1x64, .f32⟩ : BufTy).Contents (Elt F)),
    binary main_call5_v1 main_call5_v2 main_call5_v3 (Host.divf : (⟨S1x64, .f32⟩ : BufTy).Contents (Elt F) → (⟨S1x64, .f32⟩ : BufTy).Contents (Elt F) → (⟨S1x64, .f32⟩ : BufTy).Contents (Elt F)),
    unary main_call5_v3 main_call5_v4 (broadcastInDim S50000x64 ![0, 1] bcast_S1x64_S50000x64_0_1 : (⟨S1x64, .f32⟩ : BufTy).Contents (Elt F) → (⟨S50000x64, .f32⟩ : BufTy).Contents (Elt F)),
    binary main_v127 main_call5_v4 main_call5_v5 (subf : (⟨S50000x64, .f32⟩ : BufTy).Contents (Elt F) → (⟨S50000x64, .f32⟩ : BufTy).Contents (Elt F) → (⟨S50000x64, .f32⟩ : BufTy).Contents (Elt F)),
    binary main_call5_v5 main_call5_v5 main_call5_v6 (mulf : (⟨S50000x64, .f32⟩ : BufTy).Contents (Elt F) → (⟨S50000x64, .f32⟩ : BufTy).Contents (Elt F) → (⟨S50000x64, .f32⟩ : BufTy).Contents (Elt F)),
    unary main_c_28 main_call5_v7 (sitofp .f32 : (⟨S_, .i32⟩ : BufTy).Contents (Elt F) → (⟨S_, .f32⟩ : BufTy).Contents (Elt F)),
    nullary main_call5_cst_1 (constant S_ .f32 0x47435000#32),
    binary main_call5_cst_1 main_call5_v7 main_call5_v8 (subf : (⟨S_, .f32⟩ : BufTy).Contents (Elt F) → (⟨S_, .f32⟩ : BufTy).Contents (Elt F) → (⟨S_, .f32⟩ : BufTy).Contents (Elt F)),
    nullary main_call5_cst_2 (constant S_ .f32 0x00000000#32),
    binary main_call5_v6 main_call5_cst_2 main_call5_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call5_v8 main_call5_v10 (broadcastInDim S64 ![] bcast_S_S64 : (⟨S_, .f32⟩ : BufTy).Contents (Elt F) → (⟨S64, .f32⟩ : BufTy).Contents (Elt F)),
    binary main_call5_v9 main_call5_v10 main_call5_v11 (Host.divf : (⟨S64, .f32⟩ : BufTy).Contents (Elt F) → (⟨S64, .f32⟩ : BufTy).Contents (Elt F) → (⟨S64, .f32⟩ : BufTy).Contents (Elt F)),
    nullary main_call5_cst_3 (constant S_ .f32 0x00000000#32),
    binary main_call5_v8 main_call5_cst_3 main_call5_v12 (cmpf .ogt : (⟨S_, .f32⟩ : BufTy).Contents (Elt F) → (⟨S_, .f32⟩ : BufTy).Contents (Elt F) → (⟨S_, .i1⟩ : BufTy).Contents (Elt F)),
    nullary main_call5_cst_4 (constant S_ .f32 0x7FC00000#32),
    unary main_call5_cst_4 main_call5_call0_v0 (id : (⟨S_, .f32⟩ : BufTy).Contents (Elt F) → (⟨S_, .f32⟩ : BufTy).Contents (Elt F)),
    unary main_call5_call0_v0 main_call5_call0_v1 (broadcastInDim S64 ![] bcast_S_S64 : (⟨S_, .f32⟩ : BufTy).Contents (Elt F) → (⟨S64, .f32⟩ : BufTy).Contents (Elt F)),
    ternary main_call5_v12 main_call5_v11 main_call5_call0_v1 main_v131 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v130 main_v132 (broadcastInDim S1x64 ![1] bcast_S64_S1x64_1 : (⟨S64, .f32⟩ : BufTy).Contents (Elt F) → (⟨S1x64, .f32⟩ : BufTy).Contents (Elt F)),
    unary main_v132 main_v133 (broadcastInDim S50000x64 ![0, 1] bcast_S1x64_S50000x64_0_1 : (⟨S1x64, .f32⟩ : BufTy).Contents (Elt F) → (⟨S50000x64, .f32⟩ : BufTy).Contents (Elt F)),
    binary main_v127 main_v133 main_v134 (subf : (⟨S50000x64, .f32⟩ : BufTy).Contents (Elt F) → (⟨S50000x64, .f32⟩ : BufTy).Contents (Elt F) → (⟨S50000x64, .f32⟩ : BufTy).Contents (Elt F)),
    nullary main_cst_29 (constant S_ .f32 0x3727C5AC#32),
    unary main_cst_29 main_v135 (broadcastInDim S64 ![] bcast_S_S64 : (⟨S_, .f32⟩ : BufTy).Contents (Elt F) → (⟨S64, .f32⟩ : BufTy).Contents (Elt F)),
    binary main_v131 main_v135 main_v136 (addf : (⟨S64, .f32⟩ : BufTy).Contents (Elt F) → (⟨S64, .f32⟩ : BufTy).Contents (Elt F) → (⟨S64, .f32⟩ : BufTy).Contents (Elt F)),
    unary main_v136 main_v137 (Host.sqrt : (⟨S64, .f32⟩ : BufTy).Contents (Elt F) → (⟨S64, .f32⟩ : BufTy).Contents (Elt F)),
    unary main_v137 main_v138 (broadcastInDim S1x64 ![1] bcast_S64_S1x64_1 : (⟨S64, .f32⟩ : BufTy).Contents (Elt F) → (⟨S1x64, .f32⟩ : BufTy).Contents (Elt F)),
    unary main_v138 main_v139 (broadcastInDim S50000x64 ![0, 1] bcast_S1x64_S50000x64_0_1 : (⟨S1x64, .f32⟩ : BufTy).Contents (Elt F) → (⟨S50000x64, .f32⟩ : BufTy).Contents (Elt F)),
    binary main_v134 main_v139 main_v140 (Host.divf : (⟨S50000x64, .f32⟩ : BufTy).Contents (Elt F) → (⟨S50000x64, .f32⟩ : BufTy).Contents (Elt F) → (⟨S50000x64, .f32⟩ : BufTy).Contents (Elt F)),
    unary main_arg17 main_v141 (broadcastInDim S1x64 ![1] bcast_S64_S1x64_1 : (⟨S64, .f32⟩ : BufTy).Contents (Elt F) → (⟨S1x64, .f32⟩ : BufTy).Contents (Elt F)),
    unary main_v141 main_v142 (broadcastInDim S50000x64 ![0, 1] bcast_S1x64_S50000x64_0_1 : (⟨S1x64, .f32⟩ : BufTy).Contents (Elt F) → (⟨S50000x64, .f32⟩ : BufTy).Contents (Elt F)),
    binary main_v140 main_v142 main_v143 (mulf : (⟨S50000x64, .f32⟩ : BufTy).Contents (Elt F) → (⟨S50000x64, .f32⟩ : BufTy).Contents (Elt F) → (⟨S50000x64, .f32⟩ : BufTy).Contents (Elt F)),
    unary main_arg18 main_v144 (broadcastInDim S1x64 ![1] bcast_S64_S1x64_1 : (⟨S64, .f32⟩ : BufTy).Contents (Elt F) → (⟨S1x64, .f32⟩ : BufTy).Contents (Elt F)),
    unary main_v144 main_v145 (broadcastInDim S50000x64 ![0, 1] bcast_S1x64_S50000x64_0_1 : (⟨S1x64, .f32⟩ : BufTy).Contents (Elt F) → (⟨S50000x64, .f32⟩ : BufTy).Contents (Elt F)),
    binary main_v143 main_v145 main_v146 (addf : (⟨S50000x64, .f32⟩ : BufTy).Contents (Elt F) → (⟨S50000x64, .f32⟩ : BufTy).Contents (Elt F) → (⟨S50000x64, .f32⟩ : BufTy).Contents (Elt F)),
    nullary main_call6_cst (constant S_ .f32 0x00000000#32),
    unary main_call6_cst main_call6_v0 (broadcastInDim S50000x64 ![] bcast_S_S50000x64 : (⟨S_, .f32⟩ : BufTy).Contents (Elt F) → (⟨S50000x64, .f32⟩ : BufTy).Contents (Elt F)),
    binary main_v146 main_call6_v0 main_v147 (maximumf : (⟨S50000x64, .f32⟩ : BufTy).Contents (Elt F) → (⟨S50000x64, .f32⟩ : BufTy).Contents (Elt F) → (⟨S50000x64, .f32⟩ : BufTy).Contents (Elt F)) ]

/-- Operations 236 … 240 of 240. -/
abbrev chunk8 : List (HloOp τ sig (Elt F)) :=
  [ binary main_v147 main_arg19 main_v148 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg20 main_v149 (broadcastInDim S1x64 ![1] bcast_S64_S1x64_1 : (⟨S64, .f32⟩ : BufTy).Contents (Elt F) → (⟨S1x64, .f32⟩ : BufTy).Contents (Elt F)),
    unary main_v149 main_v150 (broadcastInDim S50000x64 ![0, 1] bcast_S1x64_S50000x64_0_1 : (⟨S1x64, .f32⟩ : BufTy).Contents (Elt F) → (⟨S50000x64, .f32⟩ : BufTy).Contents (Elt F)),
    binary main_v148 main_v150 main_v151 (addf : (⟨S50000x64, .f32⟩ : BufTy).Contents (Elt F) → (⟨S50000x64, .f32⟩ : BufTy).Contents (Elt F) → (⟨S50000x64, .f32⟩ : BufTy).Contents (Elt F)),
    binary main_arg0 main_v151 main_v152 (addf : (⟨S50000x64, .f32⟩ : BufTy).Contents (Elt F) → (⟨S50000x64, .f32⟩ : BufTy).Contents (Elt F) → (⟨S50000x64, .f32⟩ : BufTy).Contents (Elt F)) ]

/-- The operations of window `main_part0`. -/
abbrev ops_part0 : List (HloOp τ sig (Elt F)) := chunk0 ++ (chunk1)

/-- The operations of window `main_part1`. -/
abbrev ops_part1 : List (HloOp τ sig (Elt F)) := chunk2 ++ (chunk3 ++ (chunk4))

/-- The operations of window `main_part2`. -/
abbrev ops_part2 : List (HloOp τ sig (Elt F)) := chunk5 ++ (chunk6 ++ (chunk7))

/-- The operations of window `main_part3`. -/
abbrev ops_part3 : List (HloOp τ sig (Elt F)) := chunk8

/-- @main's 240 operations, in order. -/
abbrev ops : List (HloOp τ sig (Elt F)) := ops_part0 ++ (ops_part1 ++ (ops_part2 ++ ops_part3))

set_option maxRecDepth 16384 in
theorem main_part0_eq (c : Dev nD) : main_part0 (F := F) c = seq ops_part0 := rfl

set_option maxRecDepth 16384 in
theorem main_part1_eq (c : Dev nD) : main_part1 (F := F) c = seq ops_part1 := rfl

set_option maxRecDepth 16384 in
theorem main_part2_eq (c : Dev nD) : main_part2 (F := F) c = seq ops_part2 := rfl

set_option maxRecDepth 16384 in
theorem main_part3_eq (c : Dev nD) : main_part3 (F := F) c = seq ops_part3 := rfl

set_option maxRecDepth 16384 in
/-- @main is the whole line: its four windows in order. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem chunk0_sub : (chunk0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., reshape_bufs_sub .., nullary_bufs_sub .., unary_bufs_sub .., binary_bufs_sub .., nullary_bufs_sub .., binary_bufs_sub .., binary_bufs_sub .., unary_bufs_sub .., unary_bufs_sub .., nullary_bufs_sub .., unary_bufs_sub .., binary_bufs_sub .., unary_bufs_sub .., binary_bufs_sub .., unary_bufs_sub .., binary_bufs_sub ..⟩

set_option maxRecDepth 16384 in
theorem chunk1_sub : (chunk1 : List (HloOp τ sig (Elt F))).Forall fun op => op.bufs ⊆ tcRefs τ sig :=
  ⟨unary_bufs_sub .., reshape_bufs_sub .., nullary_bufs_sub .., unary_bufs_sub .., binary_bufs_sub .., nullary_bufs_sub .., binary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩

set_option maxRecDepth 16384 in
theorem chunk2_sub : (chunk2 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub ..⟩

set_option maxRecDepth 16384 in
theorem chunk3_sub : (chunk3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

set_option maxRecDepth 16384 in
theorem chunk4_sub : (chunk4 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., binary_bufs_sub ..⟩

set_option maxRecDepth 16384 in
theorem chunk5_sub : (chunk5 : List (HloOp τ sig (Elt F))).Forall fun op => op.bufs ⊆ tcRefs τ sig :=
  ⟨nullary_bufs_sub .., unary_bufs_sub .., binary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., ternary_bufs_sub ..⟩

set_option maxRecDepth 16384 in
theorem chunk6_sub : (chunk6 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., unary_bufs_sub .., ternary_bufs_sub .., nary_bufs_sub .., binary_bufs_sub .., unary_bufs_sub .., unary_bufs_sub .., binary_bufs_sub ..⟩

set_option maxRecDepth 16384 in
theorem chunk7_sub : (chunk7 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 16384 in
theorem chunk8_sub : (chunk8 : List (HloOp τ sig (Elt F))).Forall fun op => op.bufs ⊆ tcRefs τ sig :=
  ⟨binary_bufs_sub .., unary_bufs_sub .., unary_bufs_sub .., binary_bufs_sub .., binary_bufs_sub ..⟩

/-- Every operation of the line touches TensorCore references only. -/
theorem ops_sub : (ops : List (HloOp τ sig (Elt F))).Forall fun op => op.bufs ⊆ tcRefs τ sig :=
  List.forall_iff_forall_mem.mpr fun op h => by
    simp only [ops, ops_part0, ops_part1, ops_part2, ops_part3, List.mem_append] at h
    rcases h with (h | h) | (h | h | h) | (h | h | h) | h
    exacts [List.forall_iff_forall_mem.mp chunk0_sub op h, List.forall_iff_forall_mem.mp chunk1_sub op h, List.forall_iff_forall_mem.mp chunk2_sub op h, List.forall_iff_forall_mem.mp chunk3_sub op h, List.forall_iff_forall_mem.mp chunk4_sub op h, List.forall_iff_forall_mem.mp chunk5_sub op h, List.forall_iff_forall_mem.mp chunk6_sub op h, List.forall_iff_forall_mem.mp chunk7_sub op h, List.forall_iff_forall_mem.mp chunk8_sub op h]

end Cert.ReferenceIdeal.RefRun

end
-- ==== Proof.RefRun.Keep.lean ====
/- The contents of the device's buffers after each stretch of the reference's line, and that a buffer a stretch does
   not write keeps its contents through it: the arguments through the whole line. -/
import proofs.«110093_j8770323219157_1_alg».proof.Proof.RefRun.Ops
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents before the first stretch. -/
def val0 (V0 : Valuation τ sig (Elt F)) : Valuation τ sig (Elt F) := V0

/-- The contents after the first 1 stretches. -/
def val1 (V0 : Valuation τ sig (Elt F)) : Valuation τ sig (Elt F) := after chunk0 (val0 V0)
/-- The buffers that stretch 0 writes. -/
abbrev chunk0_W : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_cst, main_v18, main_v19, main_cst_3, main_v20, main_v21, main_v22, main_v23, main_cst_4, main_v24, main_v25, main_v26, main_v27, main_v28, main_v29]
set_option maxRecDepth 16384 in
theorem chunk0_writes : (chunk0 : List (HloOp τ sig (Elt F))).Forall fun op => op.writes ⊆ (chunk0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 0 does not write keeps its contents through it. -/
theorem val1_keep (V0 : Valuation τ sig (Elt F)) (r : Ref sig .tc) (h : r ∉ chunk0_W) :
    val1 V0 (Proc.devRef .tc r) = val0 V0 (Proc.devRef .tc r) :=
  after_of_writes_sub chunk0 _ chunk0_writes h

/-- The contents after the first 2 stretches. -/
def val2 (V0 : Valuation τ sig (Elt F)) : Valuation τ sig (Elt F) := after chunk1 (val1 V0)
/-- The buffers that stretch 1 writes. -/
abbrev chunk1_W : List (Ref sig .tc) := [main_v30, main_v31, main_cst_5, main_v32, main_v33, main_cst_6, main_v34, main_v35, main_v36, main_v37, main_cst_7, main_v38, main_v39, main_v40, main_v41, main_v42, main_c_8, main_v43, main_v44, main_c_9, main_v45, main_v46, main_v47]
set_option maxRecDepth 16384 in
theorem chunk1_writes : (chunk1 : List (HloOp τ sig (Elt F))).Forall fun op => op.writes ⊆ (chunk1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 1 does not write keeps its contents through it. -/
theorem val2_keep (V0 : Valuation τ sig (Elt F)) (r : Ref sig .tc) (h : r ∉ chunk1_W) :
    val2 V0 (Proc.devRef .tc r) = val1 V0 (Proc.devRef .tc r) :=
  after_of_writes_sub chunk1 _ chunk1_writes h

/-- The contents after the first 3 stretches. -/
def val3 (V0 : Valuation τ sig (Elt F)) : Valuation τ sig (Elt F) := after chunk2 (val2 V0)
/-- The buffers that stretch 2 writes. -/
abbrev chunk2_W : List (Ref sig .tc) := [main_v48, main_v49, main_c_10, main_v50, main_v51, main_c_11, main_v52, main_v53, main_v54, main_v55, main_v56, main_v57, main_v58]
set_option maxRecDepth 16384 in
theorem chunk2_writes : (chunk2 : List (HloOp τ sig (Elt F))).Forall fun op => op.writes ⊆ (chunk2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 2 does not write keeps its contents through it. -/
theorem val3_keep (V0 : Valuation τ sig (Elt F)) (r : Ref sig .tc) (h : r ∉ chunk2_W) :
    val3 V0 (Proc.devRef .tc r) = val2 V0 (Proc.devRef .tc r) :=
  after_of_writes_sub chunk2 _ chunk2_writes h

/-- The contents after the first 4 stretches. -/
def val4 (V0 : Valuation τ sig (Elt F)) : Valuation τ sig (Elt F) := after chunk3 (val3 V0)
/-- The buffers that stretch 3 writes. -/
abbrev chunk3_W : List (Ref sig .tc) := [main_cst_12, main_v59, main_cst_13, main_v60, main_v61, main_c_14, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v62, main_v63, main_v64, main_v65, main_cst_15, main_v66, main_v67, main_v68, main_v69, main_v70, main_v71]
set_option maxRecDepth 16384 in
theorem chunk3_writes : (chunk3 : List (HloOp τ sig (Elt F))).Forall fun op => op.writes ⊆ (chunk3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 3 does not write keeps its contents through it. -/
theorem val4_keep (V0 : Valuation τ sig (Elt F)) (r : Ref sig .tc) (h : r ∉ chunk3_W) :
    val4 V0 (Proc.devRef .tc r) = val3 V0 (Proc.devRef .tc r) :=
  after_of_writes_sub chunk3 _ chunk3_writes h

/-- The contents after the first 5 stretches. -/
def val5 (V0 : Valuation τ sig (Elt F)) : Valuation τ sig (Elt F) := after chunk4 (val4 V0)
/-- The buffers that stretch 4 writes. -/
abbrev chunk4_W : List (Ref sig .tc) := [main_v72, main_v73, main_v74, main_v75, main_v76, main_v77, main_call1_cst, main_call1_v0, main_v78, main_v79, main_v80, main_v81, main_v82, main_call2_cst, main_call2_v0, main_v83, main_v84, main_v85, main_v86, main_v87, main_v88, main_v89, main_cst_16, main_v90, main_v91, main_cst_17, main_v92, main_v93, main_v94, main_v95, main_v96, main_v97, main_v98, main_v99]
set_option maxRecDepth 16384 in
theorem chunk4_writes : (chunk4 : List (HloOp τ sig (Elt F))).Forall fun op => op.writes ⊆ (chunk4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 4 does not write keeps its contents through it. -/
theorem val5_keep (V0 : Valuation τ sig (Elt F)) (r : Ref sig .tc) (h : r ∉ chunk4_W) :
    val5 V0 (Proc.devRef .tc r) = val4 V0 (Proc.devRef .tc r) :=
  after_of_writes_sub chunk4 _ chunk4_writes h

/-- The contents after the first 6 stretches. -/
def val6 (V0 : Valuation τ sig (Elt F)) : Valuation τ sig (Elt F) := after chunk5 (val5 V0)
/-- The buffers that stretch 5 writes. -/
abbrev chunk5_W : List (Ref sig .tc) := [main_call3_cst, main_call3_v0, main_v100, main_v101, main_v102, main_v103, main_cst_18, main_cst_19, main_call4_v0, main_call4_v1, main_call4_v2, main_call4_v3, main_call4_v4, main_v104, main_cst_20, main_v105, main_v106, main_v107]
set_option maxRecDepth 16384 in
theorem chunk5_writes : (chunk5 : List (HloOp τ sig (Elt F))).Forall fun op => op.writes ⊆ (chunk5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 5 does not write keeps its contents through it. -/
theorem val6_keep (V0 : Valuation τ sig (Elt F)) (r : Ref sig .tc) (h : r ∉ chunk5_W) :
    val6 V0 (Proc.devRef .tc r) = val5 V0 (Proc.devRef .tc r) :=
  after_of_writes_sub chunk5 _ chunk5_writes h

/-- The contents after the first 7 stretches. -/
def val7 (V0 : Valuation τ sig (Elt F)) : Valuation τ sig (Elt F) := after chunk6 (val6 V0)
/-- The buffers that stretch 6 writes. -/
abbrev chunk6_W : List (Ref sig .tc) := [main_cst_21, main_v108, main_cst_22, main_v109, main_v110, main_v111, main_cst_23, main_v112, main_v113, main_v114, main_v115, main_v116, main_cst_24, main_v117, main_v118, main_v119, main_cst_25, main_v120, main_v121, main_v122, main_v123, main_v124, main_v125, main_v126, main_v127]
set_option maxRecDepth 16384 in
theorem chunk6_writes : (chunk6 : List (HloOp τ sig (Elt F))).Forall fun op => op.writes ⊆ (chunk6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 6 does not write keeps its contents through it. -/
theorem val7_keep (V0 : Valuation τ sig (Elt F)) (r : Ref sig .tc) (h : r ∉ chunk6_W) :
    val7 V0 (Proc.devRef .tc r) = val6 V0 (Proc.devRef .tc r) :=
  after_of_writes_sub chunk6 _ chunk6_writes h

/-- The contents after the first 8 stretches. -/
def val8 (V0 : Valuation τ sig (Elt F)) : Valuation τ sig (Elt F) := after chunk7 (val7 V0)
/-- The buffers that stretch 7 writes. -/
abbrev chunk7_W : List (Ref sig .tc) := [main_cst_26, main_v128, main_cst_27, main_v129, main_v130, main_c_28, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v131, main_v132, main_v133, main_v134, main_cst_29, main_v135, main_v136, main_v137, main_v138, main_v139, main_v140, main_v141, main_v142, main_v143, main_v144, main_v145, main_v146, main_call6_cst, main_call6_v0, main_v147]
set_option maxRecDepth 16384 in
theorem chunk7_writes : (chunk7 : List (HloOp τ sig (Elt F))).Forall fun op => op.writes ⊆ (chunk7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 7 does not write keeps its contents through it. -/
theorem val8_keep (V0 : Valuation τ sig (Elt F)) (r : Ref sig .tc) (h : r ∉ chunk7_W) :
    val8 V0 (Proc.devRef .tc r) = val7 V0 (Proc.devRef .tc r) :=
  after_of_writes_sub chunk7 _ chunk7_writes h

/-- The contents after the first 9 stretches. -/
def val9 (V0 : Valuation τ sig (Elt F)) : Valuation τ sig (Elt F) := after chunk8 (val8 V0)
/-- The buffers that stretch 8 writes. -/
abbrev chunk8_W : List (Ref sig .tc) := [main_v148, main_v149, main_v150, main_v151, main_v152]
set_option maxRecDepth 16384 in
theorem chunk8_writes : (chunk8 : List (HloOp τ sig (Elt F))).Forall fun op => op.writes ⊆ (chunk8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch 8 does not write keeps its contents through it. -/
theorem val9_keep (V0 : Valuation τ sig (Elt F)) (r : Ref sig .tc) (h : r ∉ chunk8_W) :
    val9 V0 (Proc.devRef .tc r) = val8 V0 (Proc.devRef .tc r) :=
  after_of_writes_sub chunk8 _ chunk8_writes h

theorem val0_arg0 (V0 : Valuation τ sig (Elt F)) : val0 V0 (Proc.devRef .tc main_arg0) = V0 (Proc.devRef .tc main_arg0) := rfl
theorem val1_arg0 (V0 : Valuation τ sig (Elt F)) : val1 V0 (Proc.devRef .tc main_arg0) = V0 (Proc.devRef .tc main_arg0) :=
  (val1_keep V0 main_arg0 (by decide)).trans (val0_arg0 V0)
theorem val2_arg0 (V0 : Valuation τ sig (Elt F)) : val2 V0 (Proc.devRef .tc main_arg0) = V0 (Proc.devRef .tc main_arg0) :=
  (val2_keep V0 main_arg0 (by decide)).trans (val1_arg0 V0)
theorem val3_arg0 (V0 : Valuation τ sig (Elt F)) : val3 V0 (Proc.devRef .tc main_arg0) = V0 (Proc.devRef .tc main_arg0) :=
  (val3_keep V0 main_arg0 (by decide)).trans (val2_arg0 V0)
theorem val4_arg0 (V0 : Valuation τ sig (Elt F)) : val4 V0 (Proc.devRef .tc main_arg0) = V0 (Proc.devRef .tc main_arg0) :=
  (val4_keep V0 main_arg0 (by decide)).trans (val3_arg0 V0)
theorem val5_arg0 (V0 : Valuation τ sig (Elt F)) : val5 V0 (Proc.devRef .tc main_arg0) = V0 (Proc.devRef .tc main_arg0) :=
  (val5_keep V0 main_arg0 (by decide)).trans (val4_arg0 V0)
theorem val6_arg0 (V0 : Valuation τ sig (Elt F)) : val6 V0 (Proc.devRef .tc main_arg0) = V0 (Proc.devRef .tc main_arg0) :=
  (val6_keep V0 main_arg0 (by decide)).trans (val5_arg0 V0)
theorem val7_arg0 (V0 : Valuation τ sig (Elt F)) : val7 V0 (Proc.devRef .tc main_arg0) = V0 (Proc.devRef .tc main_arg0) :=
  (val7_keep V0 main_arg0 (by decide)).trans (val6_arg0 V0)
theorem val8_arg0 (V0 : Valuation τ sig (Elt F)) : val8 V0 (Proc.devRef .tc main_arg0) = V0 (Proc.devRef .tc main_arg0) :=
  (val8_keep V0 main_arg0 (by decide)).trans (val7_arg0 V0)
theorem val9_arg0 (V0 : Valuation τ sig (Elt F)) : val9 V0 (Proc.devRef .tc main_arg0) = V0 (Proc.devRef .tc main_arg0) :=
  (val9_keep V0 main_arg0 (by decide)).trans (val8_arg0 V0)

theorem val0_arg1 (V0 : Valuation τ sig (Elt F)) : val0 V0 (Proc.devRef .tc main_arg1) = V0 (Proc.devRef .tc main_arg1) := rfl
theorem val1_arg1 (V0 : Valuation τ sig (Elt F)) : val1 V0 (Proc.devRef .tc main_arg1) = V0 (Proc.devRef .tc main_arg1) :=
  (val1_keep V0 main_arg1 (by decide)).trans (val0_arg1 V0)
theorem val2_arg1 (V0 : Valuation τ sig (Elt F)) : val2 V0 (Proc.devRef .tc main_arg1) = V0 (Proc.devRef .tc main_arg1) :=
  (val2_keep V0 main_arg1 (by decide)).trans (val1_arg1 V0)
theorem val3_arg1 (V0 : Valuation τ sig (Elt F)) : val3 V0 (Proc.devRef .tc main_arg1) = V0 (Proc.devRef .tc main_arg1) :=
  (val3_keep V0 main_arg1 (by decide)).trans (val2_arg1 V0)
theorem val4_arg1 (V0 : Valuation τ sig (Elt F)) : val4 V0 (Proc.devRef .tc main_arg1) = V0 (Proc.devRef .tc main_arg1) :=
  (val4_keep V0 main_arg1 (by decide)).trans (val3_arg1 V0)
theorem val5_arg1 (V0 : Valuation τ sig (Elt F)) : val5 V0 (Proc.devRef .tc main_arg1) = V0 (Proc.devRef .tc main_arg1) :=
  (val5_keep V0 main_arg1 (by decide)).trans (val4_arg1 V0)
theorem val6_arg1 (V0 : Valuation τ sig (Elt F)) : val6 V0 (Proc.devRef .tc main_arg1) = V0 (Proc.devRef .tc main_arg1) :=
  (val6_keep V0 main_arg1 (by decide)).trans (val5_arg1 V0)
theorem val7_arg1 (V0 : Valuation τ sig (Elt F)) : val7 V0 (Proc.devRef .tc main_arg1) = V0 (Proc.devRef .tc main_arg1) :=
  (val7_keep V0 main_arg1 (by decide)).trans (val6_arg1 V0)
theorem val8_arg1 (V0 : Valuation τ sig (Elt F)) : val8 V0 (Proc.devRef .tc main_arg1) = V0 (Proc.devRef .tc main_arg1) :=
  (val8_keep V0 main_arg1 (by decide)).trans (val7_arg1 V0)
theorem val9_arg1 (V0 : Valuation τ sig (Elt F)) : val9 V0 (Proc.devRef .tc main_arg1) = V0 (Proc.devRef .tc main_arg1) :=
  (val9_keep V0 main_arg1 (by decide)).trans (val8_arg1 V0)

theorem val0_arg2 (V0 : Valuation τ sig (Elt F)) : val0 V0 (Proc.devRef .tc main_arg2) = V0 (Proc.devRef .tc main_arg2) := rfl
theorem val1_arg2 (V0 : Valuation τ sig (Elt F)) : val1 V0 (Proc.devRef .tc main_arg2) = V0 (Proc.devRef .tc main_arg2) :=
  (val1_keep V0 main_arg2 (by decide)).trans (val0_arg2 V0)
theorem val2_arg2 (V0 : Valuation τ sig (Elt F)) : val2 V0 (Proc.devRef .tc main_arg2) = V0 (Proc.devRef .tc main_arg2) :=
  (val2_keep V0 main_arg2 (by decide)).trans (val1_arg2 V0)
theorem val3_arg2 (V0 : Valuation τ sig (Elt F)) : val3 V0 (Proc.devRef .tc main_arg2) = V0 (Proc.devRef .tc main_arg2) :=
  (val3_keep V0 main_arg2 (by decide)).trans (val2_arg2 V0)
theorem val4_arg2 (V0 : Valuation τ sig (Elt F)) : val4 V0 (Proc.devRef .tc main_arg2) = V0 (Proc.devRef .tc main_arg2) :=
  (val4_keep V0 main_arg2 (by decide)).trans (val3_arg2 V0)
theorem val5_arg2 (V0 : Valuation τ sig (Elt F)) : val5 V0 (Proc.devRef .tc main_arg2) = V0 (Proc.devRef .tc main_arg2) :=
  (val5_keep V0 main_arg2 (by decide)).trans (val4_arg2 V0)
theorem val6_arg2 (V0 : Valuation τ sig (Elt F)) : val6 V0 (Proc.devRef .tc main_arg2) = V0 (Proc.devRef .tc main_arg2) :=
  (val6_keep V0 main_arg2 (by decide)).trans (val5_arg2 V0)
theorem val7_arg2 (V0 : Valuation τ sig (Elt F)) : val7 V0 (Proc.devRef .tc main_arg2) = V0 (Proc.devRef .tc main_arg2) :=
  (val7_keep V0 main_arg2 (by decide)).trans (val6_arg2 V0)
theorem val8_arg2 (V0 : Valuation τ sig (Elt F)) : val8 V0 (Proc.devRef .tc main_arg2) = V0 (Proc.devRef .tc main_arg2) :=
  (val8_keep V0 main_arg2 (by decide)).trans (val7_arg2 V0)
theorem val9_arg2 (V0 : Valuation τ sig (Elt F)) : val9 V0 (Proc.devRef .tc main_arg2) = V0 (Proc.devRef .tc main_arg2) :=
  (val9_keep V0 main_arg2 (by decide)).trans (val8_arg2 V0)

theorem val0_arg3 (V0 : Valuation τ sig (Elt F)) : val0 V0 (Proc.devRef .tc main_arg3) = V0 (Proc.devRef .tc main_arg3) := rfl
theorem val1_arg3 (V0 : Valuation τ sig (Elt F)) : val1 V0 (Proc.devRef .tc main_arg3) = V0 (Proc.devRef .tc main_arg3) :=
  (val1_keep V0 main_arg3 (by decide)).trans (val0_arg3 V0)
theorem val2_arg3 (V0 : Valuation τ sig (Elt F)) : val2 V0 (Proc.devRef .tc main_arg3) = V0 (Proc.devRef .tc main_arg3) :=
  (val2_keep V0 main_arg3 (by decide)).trans (val1_arg3 V0)
theorem val3_arg3 (V0 : Valuation τ sig (Elt F)) : val3 V0 (Proc.devRef .tc main_arg3) = V0 (Proc.devRef .tc main_arg3) :=
  (val3_keep V0 main_arg3 (by decide)).trans (val2_arg3 V0)
theorem val4_arg3 (V0 : Valuation τ sig (Elt F)) : val4 V0 (Proc.devRef .tc main_arg3) = V0 (Proc.devRef .tc main_arg3) :=
  (val4_keep V0 main_arg3 (by decide)).trans (val3_arg3 V0)
theorem val5_arg3 (V0 : Valuation τ sig (Elt F)) : val5 V0 (Proc.devRef .tc main_arg3) = V0 (Proc.devRef .tc main_arg3) :=
  (val5_keep V0 main_arg3 (by decide)).trans (val4_arg3 V0)
theorem val6_arg3 (V0 : Valuation τ sig (Elt F)) : val6 V0 (Proc.devRef .tc main_arg3) = V0 (Proc.devRef .tc main_arg3) :=
  (val6_keep V0 main_arg3 (by decide)).trans (val5_arg3 V0)
theorem val7_arg3 (V0 : Valuation τ sig (Elt F)) : val7 V0 (Proc.devRef .tc main_arg3) = V0 (Proc.devRef .tc main_arg3) :=
  (val7_keep V0 main_arg3 (by decide)).trans (val6_arg3 V0)
theorem val8_arg3 (V0 : Valuation τ sig (Elt F)) : val8 V0 (Proc.devRef .tc main_arg3) = V0 (Proc.devRef .tc main_arg3) :=
  (val8_keep V0 main_arg3 (by decide)).trans (val7_arg3 V0)
theorem val9_arg3 (V0 : Valuation τ sig (Elt F)) : val9 V0 (Proc.devRef .tc main_arg3) = V0 (Proc.devRef .tc main_arg3) :=
  (val9_keep V0 main_arg3 (by decide)).trans (val8_arg3 V0)

theorem val0_arg4 (V0 : Valuation τ sig (Elt F)) : val0 V0 (Proc.devRef .tc main_arg4) = V0 (Proc.devRef .tc main_arg4) := rfl
theorem val1_arg4 (V0 : Valuation τ sig (Elt F)) : val1 V0 (Proc.devRef .tc main_arg4) = V0 (Proc.devRef .tc main_arg4) :=
  (val1_keep V0 main_arg4 (by decide)).trans (val0_arg4 V0)
theorem val2_arg4 (V0 : Valuation τ sig (Elt F)) : val2 V0 (Proc.devRef .tc main_arg4) = V0 (Proc.devRef .tc main_arg4) :=
  (val2_keep V0 main_arg4 (by decide)).trans (val1_arg4 V0)
theorem val3_arg4 (V0 : Valuation τ sig (Elt F)) : val3 V0 (Proc.devRef .tc main_arg4) = V0 (Proc.devRef .tc main_arg4) :=
  (val3_keep V0 main_arg4 (by decide)).trans (val2_arg4 V0)
theorem val4_arg4 (V0 : Valuation τ sig (Elt F)) : val4 V0 (Proc.devRef .tc main_arg4) = V0 (Proc.devRef .tc main_arg4) :=
  (val4_keep V0 main_arg4 (by decide)).trans (val3_arg4 V0)
theorem val5_arg4 (V0 : Valuation τ sig (Elt F)) : val5 V0 (Proc.devRef .tc main_arg4) = V0 (Proc.devRef .tc main_arg4) :=
  (val5_keep V0 main_arg4 (by decide)).trans (val4_arg4 V0)
theorem val6_arg4 (V0 : Valuation τ sig (Elt F)) : val6 V0 (Proc.devRef .tc main_arg4) = V0 (Proc.devRef .tc main_arg4) :=
  (val6_keep V0 main_arg4 (by decide)).trans (val5_arg4 V0)
theorem val7_arg4 (V0 : Valuation τ sig (Elt F)) : val7 V0 (Proc.devRef .tc main_arg4) = V0 (Proc.devRef .tc main_arg4) :=
  (val7_keep V0 main_arg4 (by decide)).trans (val6_arg4 V0)
theorem val8_arg4 (V0 : Valuation τ sig (Elt F)) : val8 V0 (Proc.devRef .tc main_arg4) = V0 (Proc.devRef .tc main_arg4) :=
  (val8_keep V0 main_arg4 (by decide)).trans (val7_arg4 V0)
theorem val9_arg4 (V0 : Valuation τ sig (Elt F)) : val9 V0 (Proc.devRef .tc main_arg4) = V0 (Proc.devRef .tc main_arg4) :=
  (val9_keep V0 main_arg4 (by decide)).trans (val8_arg4 V0)

theorem val0_arg5 (V0 : Valuation τ sig (Elt F)) : val0 V0 (Proc.devRef .tc main_arg5) = V0 (Proc.devRef .tc main_arg5) := rfl
theorem val1_arg5 (V0 : Valuation τ sig (Elt F)) : val1 V0 (Proc.devRef .tc main_arg5) = V0 (Proc.devRef .tc main_arg5) :=
  (val1_keep V0 main_arg5 (by decide)).trans (val0_arg5 V0)
theorem val2_arg5 (V0 : Valuation τ sig (Elt F)) : val2 V0 (Proc.devRef .tc main_arg5) = V0 (Proc.devRef .tc main_arg5) :=
  (val2_keep V0 main_arg5 (by decide)).trans (val1_arg5 V0)
theorem val3_arg5 (V0 : Valuation τ sig (Elt F)) : val3 V0 (Proc.devRef .tc main_arg5) = V0 (Proc.devRef .tc main_arg5) :=
  (val3_keep V0 main_arg5 (by decide)).trans (val2_arg5 V0)
theorem val4_arg5 (V0 : Valuation τ sig (Elt F)) : val4 V0 (Proc.devRef .tc main_arg5) = V0 (Proc.devRef .tc main_arg5) :=
  (val4_keep V0 main_arg5 (by decide)).trans (val3_arg5 V0)
theorem val5_arg5 (V0 : Valuation τ sig (Elt F)) : val5 V0 (Proc.devRef .tc main_arg5) = V0 (Proc.devRef .tc main_arg5) :=
  (val5_keep V0 main_arg5 (by decide)).trans (val4_arg5 V0)
theorem val6_arg5 (V0 : Valuation τ sig (Elt F)) : val6 V0 (Proc.devRef .tc main_arg5) = V0 (Proc.devRef .tc main_arg5) :=
  (val6_keep V0 main_arg5 (by decide)).trans (val5_arg5 V0)
theorem val7_arg5 (V0 : Valuation τ sig (Elt F)) : val7 V0 (Proc.devRef .tc main_arg5) = V0 (Proc.devRef .tc main_arg5) :=
  (val7_keep V0 main_arg5 (by decide)).trans (val6_arg5 V0)
theorem val8_arg5 (V0 : Valuation τ sig (Elt F)) : val8 V0 (Proc.devRef .tc main_arg5) = V0 (Proc.devRef .tc main_arg5) :=
  (val8_keep V0 main_arg5 (by decide)).trans (val7_arg5 V0)
theorem val9_arg5 (V0 : Valuation τ sig (Elt F)) : val9 V0 (Proc.devRef .tc main_arg5) = V0 (Proc.devRef .tc main_arg5) :=
  (val9_keep V0 main_arg5 (by decide)).trans (val8_arg5 V0)

theorem val0_arg6 (V0 : Valuation τ sig (Elt F)) : val0 V0 (Proc.devRef .tc main_arg6) = V0 (Proc.devRef .tc main_arg6) := rfl
theorem val1_arg6 (V0 : Valuation τ sig (Elt F)) : val1 V0 (Proc.devRef .tc main_arg6) = V0 (Proc.devRef .tc main_arg6) :=
  (val1_keep V0 main_arg6 (by decide)).trans (val0_arg6 V0)
theorem val2_arg6 (V0 : Valuation τ sig (Elt F)) : val2 V0 (Proc.devRef .tc main_arg6) = V0 (Proc.devRef .tc main_arg6) :=
  (val2_keep V0 main_arg6 (by decide)).trans (val1_arg6 V0)
theorem val3_arg6 (V0 : Valuation τ sig (Elt F)) : val3 V0 (Proc.devRef .tc main_arg6) = V0 (Proc.devRef .tc main_arg6) :=
  (val3_keep V0 main_arg6 (by decide)).trans (val2_arg6 V0)
theorem val4_arg6 (V0 : Valuation τ sig (Elt F)) : val4 V0 (Proc.devRef .tc main_arg6) = V0 (Proc.devRef .tc main_arg6) :=
  (val4_keep V0 main_arg6 (by decide)).trans (val3_arg6 V0)
theorem val5_arg6 (V0 : Valuation τ sig (Elt F)) : val5 V0 (Proc.devRef .tc main_arg6) = V0 (Proc.devRef .tc main_arg6) :=
  (val5_keep V0 main_arg6 (by decide)).trans (val4_arg6 V0)
theorem val6_arg6 (V0 : Valuation τ sig (Elt F)) : val6 V0 (Proc.devRef .tc main_arg6) = V0 (Proc.devRef .tc main_arg6) :=
  (val6_keep V0 main_arg6 (by decide)).trans (val5_arg6 V0)
theorem val7_arg6 (V0 : Valuation τ sig (Elt F)) : val7 V0 (Proc.devRef .tc main_arg6) = V0 (Proc.devRef .tc main_arg6) :=
  (val7_keep V0 main_arg6 (by decide)).trans (val6_arg6 V0)
theorem val8_arg6 (V0 : Valuation τ sig (Elt F)) : val8 V0 (Proc.devRef .tc main_arg6) = V0 (Proc.devRef .tc main_arg6) :=
  (val8_keep V0 main_arg6 (by decide)).trans (val7_arg6 V0)
theorem val9_arg6 (V0 : Valuation τ sig (Elt F)) : val9 V0 (Proc.devRef .tc main_arg6) = V0 (Proc.devRef .tc main_arg6) :=
  (val9_keep V0 main_arg6 (by decide)).trans (val8_arg6 V0)

theorem val0_arg7 (V0 : Valuation τ sig (Elt F)) : val0 V0 (Proc.devRef .tc main_arg7) = V0 (Proc.devRef .tc main_arg7) := rfl
theorem val1_arg7 (V0 : Valuation τ sig (Elt F)) : val1 V0 (Proc.devRef .tc main_arg7) = V0 (Proc.devRef .tc main_arg7) :=
  (val1_keep V0 main_arg7 (by decide)).trans (val0_arg7 V0)
theorem val2_arg7 (V0 : Valuation τ sig (Elt F)) : val2 V0 (Proc.devRef .tc main_arg7) = V0 (Proc.devRef .tc main_arg7) :=
  (val2_keep V0 main_arg7 (by decide)).trans (val1_arg7 V0)
theorem val3_arg7 (V0 : Valuation τ sig (Elt F)) : val3 V0 (Proc.devRef .tc main_arg7) = V0 (Proc.devRef .tc main_arg7) :=
  (val3_keep V0 main_arg7 (by decide)).trans (val2_arg7 V0)
theorem val4_arg7 (V0 : Valuation τ sig (Elt F)) : val4 V0 (Proc.devRef .tc main_arg7) = V0 (Proc.devRef .tc main_arg7) :=
  (val4_keep V0 main_arg7 (by decide)).trans (val3_arg7 V0)
theorem val5_arg7 (V0 : Valuation τ sig (Elt F)) : val5 V0 (Proc.devRef .tc main_arg7) = V0 (Proc.devRef .tc main_arg7) :=
  (val5_keep V0 main_arg7 (by decide)).trans (val4_arg7 V0)
theorem val6_arg7 (V0 : Valuation τ sig (Elt F)) : val6 V0 (Proc.devRef .tc main_arg7) = V0 (Proc.devRef .tc main_arg7) :=
  (val6_keep V0 main_arg7 (by decide)).trans (val5_arg7 V0)
theorem val7_arg7 (V0 : Valuation τ sig (Elt F)) : val7 V0 (Proc.devRef .tc main_arg7) = V0 (Proc.devRef .tc main_arg7) :=
  (val7_keep V0 main_arg7 (by decide)).trans (val6_arg7 V0)
theorem val8_arg7 (V0 : Valuation τ sig (Elt F)) : val8 V0 (Proc.devRef .tc main_arg7) = V0 (Proc.devRef .tc main_arg7) :=
  (val8_keep V0 main_arg7 (by decide)).trans (val7_arg7 V0)
theorem val9_arg7 (V0 : Valuation τ sig (Elt F)) : val9 V0 (Proc.devRef .tc main_arg7) = V0 (Proc.devRef .tc main_arg7) :=
  (val9_keep V0 main_arg7 (by decide)).trans (val8_arg7 V0)

theorem val0_arg8 (V0 : Valuation τ sig (Elt F)) : val0 V0 (Proc.devRef .tc main_arg8) = V0 (Proc.devRef .tc main_arg8) := rfl
theorem val1_arg8 (V0 : Valuation τ sig (Elt F)) : val1 V0 (Proc.devRef .tc main_arg8) = V0 (Proc.devRef .tc main_arg8) :=
  (val1_keep V0 main_arg8 (by decide)).trans (val0_arg8 V0)
theorem val2_arg8 (V0 : Valuation τ sig (Elt F)) : val2 V0 (Proc.devRef .tc main_arg8) = V0 (Proc.devRef .tc main_arg8) :=
  (val2_keep V0 main_arg8 (by decide)).trans (val1_arg8 V0)
theorem val3_arg8 (V0 : Valuation τ sig (Elt F)) : val3 V0 (Proc.devRef .tc main_arg8) = V0 (Proc.devRef .tc main_arg8) :=
  (val3_keep V0 main_arg8 (by decide)).trans (val2_arg8 V0)
theorem val4_arg8 (V0 : Valuation τ sig (Elt F)) : val4 V0 (Proc.devRef .tc main_arg8) = V0 (Proc.devRef .tc main_arg8) :=
  (val4_keep V0 main_arg8 (by decide)).trans (val3_arg8 V0)
theorem val5_arg8 (V0 : Valuation τ sig (Elt F)) : val5 V0 (Proc.devRef .tc main_arg8) = V0 (Proc.devRef .tc main_arg8) :=
  (val5_keep V0 main_arg8 (by decide)).trans (val4_arg8 V0)
theorem val6_arg8 (V0 : Valuation τ sig (Elt F)) : val6 V0 (Proc.devRef .tc main_arg8) = V0 (Proc.devRef .tc main_arg8) :=
  (val6_keep V0 main_arg8 (by decide)).trans (val5_arg8 V0)
theorem val7_arg8 (V0 : Valuation τ sig (Elt F)) : val7 V0 (Proc.devRef .tc main_arg8) = V0 (Proc.devRef .tc main_arg8) :=
  (val7_keep V0 main_arg8 (by decide)).trans (val6_arg8 V0)
theorem val8_arg8 (V0 : Valuation τ sig (Elt F)) : val8 V0 (Proc.devRef .tc main_arg8) = V0 (Proc.devRef .tc main_arg8) :=
  (val8_keep V0 main_arg8 (by decide)).trans (val7_arg8 V0)
theorem val9_arg8 (V0 : Valuation τ sig (Elt F)) : val9 V0 (Proc.devRef .tc main_arg8) = V0 (Proc.devRef .tc main_arg8) :=
  (val9_keep V0 main_arg8 (by decide)).trans (val8_arg8 V0)

theorem val0_arg9 (V0 : Valuation τ sig (Elt F)) : val0 V0 (Proc.devRef .tc main_arg9) = V0 (Proc.devRef .tc main_arg9) := rfl
theorem val1_arg9 (V0 : Valuation τ sig (Elt F)) : val1 V0 (Proc.devRef .tc main_arg9) = V0 (Proc.devRef .tc main_arg9) :=
  (val1_keep V0 main_arg9 (by decide)).trans (val0_arg9 V0)
theorem val2_arg9 (V0 : Valuation τ sig (Elt F)) : val2 V0 (Proc.devRef .tc main_arg9) = V0 (Proc.devRef .tc main_arg9) :=
  (val2_keep V0 main_arg9 (by decide)).trans (val1_arg9 V0)
theorem val3_arg9 (V0 : Valuation τ sig (Elt F)) : val3 V0 (Proc.devRef .tc main_arg9) = V0 (Proc.devRef .tc main_arg9) :=
  (val3_keep V0 main_arg9 (by decide)).trans (val2_arg9 V0)
theorem val4_arg9 (V0 : Valuation τ sig (Elt F)) : val4 V0 (Proc.devRef .tc main_arg9) = V0 (Proc.devRef .tc main_arg9) :=
  (val4_keep V0 main_arg9 (by decide)).trans (val3_arg9 V0)
theorem val5_arg9 (V0 : Valuation τ sig (Elt F)) : val5 V0 (Proc.devRef .tc main_arg9) = V0 (Proc.devRef .tc main_arg9) :=
  (val5_keep V0 main_arg9 (by decide)).trans (val4_arg9 V0)
theorem val6_arg9 (V0 : Valuation τ sig (Elt F)) : val6 V0 (Proc.devRef .tc main_arg9) = V0 (Proc.devRef .tc main_arg9) :=
  (val6_keep V0 main_arg9 (by decide)).trans (val5_arg9 V0)
theorem val7_arg9 (V0 : Valuation τ sig (Elt F)) : val7 V0 (Proc.devRef .tc main_arg9) = V0 (Proc.devRef .tc main_arg9) :=
  (val7_keep V0 main_arg9 (by decide)).trans (val6_arg9 V0)
theorem val8_arg9 (V0 : Valuation τ sig (Elt F)) : val8 V0 (Proc.devRef .tc main_arg9) = V0 (Proc.devRef .tc main_arg9) :=
  (val8_keep V0 main_arg9 (by decide)).trans (val7_arg9 V0)
theorem val9_arg9 (V0 : Valuation τ sig (Elt F)) : val9 V0 (Proc.devRef .tc main_arg9) = V0 (Proc.devRef .tc main_arg9) :=
  (val9_keep V0 main_arg9 (by decide)).trans (val8_arg9 V0)

theorem val0_arg10 (V0 : Valuation τ sig (Elt F)) : val0 V0 (Proc.devRef .tc main_arg10) = V0 (Proc.devRef .tc main_arg10) := rfl
theorem val1_arg10 (V0 : Valuation τ sig (Elt F)) : val1 V0 (Proc.devRef .tc main_arg10) = V0 (Proc.devRef .tc main_arg10) :=
  (val1_keep V0 main_arg10 (by decide)).trans (val0_arg10 V0)
theorem val2_arg10 (V0 : Valuation τ sig (Elt F)) : val2 V0 (Proc.devRef .tc main_arg10) = V0 (Proc.devRef .tc main_arg10) :=
  (val2_keep V0 main_arg10 (by decide)).trans (val1_arg10 V0)
theorem val3_arg10 (V0 : Valuation τ sig (Elt F)) : val3 V0 (Proc.devRef .tc main_arg10) = V0 (Proc.devRef .tc main_arg10) :=
  (val3_keep V0 main_arg10 (by decide)).trans (val2_arg10 V0)
theorem val4_arg10 (V0 : Valuation τ sig (Elt F)) : val4 V0 (Proc.devRef .tc main_arg10) = V0 (Proc.devRef .tc main_arg10) :=
  (val4_keep V0 main_arg10 (by decide)).trans (val3_arg10 V0)
theorem val5_arg10 (V0 : Valuation τ sig (Elt F)) : val5 V0 (Proc.devRef .tc main_arg10) = V0 (Proc.devRef .tc main_arg10) :=
  (val5_keep V0 main_arg10 (by decide)).trans (val4_arg10 V0)
theorem val6_arg10 (V0 : Valuation τ sig (Elt F)) : val6 V0 (Proc.devRef .tc main_arg10) = V0 (Proc.devRef .tc main_arg10) :=
  (val6_keep V0 main_arg10 (by decide)).trans (val5_arg10 V0)
theorem val7_arg10 (V0 : Valuation τ sig (Elt F)) : val7 V0 (Proc.devRef .tc main_arg10) = V0 (Proc.devRef .tc main_arg10) :=
  (val7_keep V0 main_arg10 (by decide)).trans (val6_arg10 V0)
theorem val8_arg10 (V0 : Valuation τ sig (Elt F)) : val8 V0 (Proc.devRef .tc main_arg10) = V0 (Proc.devRef .tc main_arg10) :=
  (val8_keep V0 main_arg10 (by decide)).trans (val7_arg10 V0)
theorem val9_arg10 (V0 : Valuation τ sig (Elt F)) : val9 V0 (Proc.devRef .tc main_arg10) = V0 (Proc.devRef .tc main_arg10) :=
  (val9_keep V0 main_arg10 (by decide)).trans (val8_arg10 V0)

theorem val0_arg11 (V0 : Valuation τ sig (Elt F)) : val0 V0 (Proc.devRef .tc main_arg11) = V0 (Proc.devRef .tc main_arg11) := rfl
theorem val1_arg11 (V0 : Valuation τ sig (Elt F)) : val1 V0 (Proc.devRef .tc main_arg11) = V0 (Proc.devRef .tc main_arg11) :=
  (val1_keep V0 main_arg11 (by decide)).trans (val0_arg11 V0)
theorem val2_arg11 (V0 : Valuation τ sig (Elt F)) : val2 V0 (Proc.devRef .tc main_arg11) = V0 (Proc.devRef .tc main_arg11) :=
  (val2_keep V0 main_arg11 (by decide)).trans (val1_arg11 V0)
theorem val3_arg11 (V0 : Valuation τ sig (Elt F)) : val3 V0 (Proc.devRef .tc main_arg11) = V0 (Proc.devRef .tc main_arg11) :=
  (val3_keep V0 main_arg11 (by decide)).trans (val2_arg11 V0)
theorem val4_arg11 (V0 : Valuation τ sig (Elt F)) : val4 V0 (Proc.devRef .tc main_arg11) = V0 (Proc.devRef .tc main_arg11) :=
  (val4_keep V0 main_arg11 (by decide)).trans (val3_arg11 V0)
theorem val5_arg11 (V0 : Valuation τ sig (Elt F)) : val5 V0 (Proc.devRef .tc main_arg11) = V0 (Proc.devRef .tc main_arg11) :=
  (val5_keep V0 main_arg11 (by decide)).trans (val4_arg11 V0)
theorem val6_arg11 (V0 : Valuation τ sig (Elt F)) : val6 V0 (Proc.devRef .tc main_arg11) = V0 (Proc.devRef .tc main_arg11) :=
  (val6_keep V0 main_arg11 (by decide)).trans (val5_arg11 V0)
theorem val7_arg11 (V0 : Valuation τ sig (Elt F)) : val7 V0 (Proc.devRef .tc main_arg11) = V0 (Proc.devRef .tc main_arg11) :=
  (val7_keep V0 main_arg11 (by decide)).trans (val6_arg11 V0)
theorem val8_arg11 (V0 : Valuation τ sig (Elt F)) : val8 V0 (Proc.devRef .tc main_arg11) = V0 (Proc.devRef .tc main_arg11) :=
  (val8_keep V0 main_arg11 (by decide)).trans (val7_arg11 V0)
theorem val9_arg11 (V0 : Valuation τ sig (Elt F)) : val9 V0 (Proc.devRef .tc main_arg11) = V0 (Proc.devRef .tc main_arg11) :=
  (val9_keep V0 main_arg11 (by decide)).trans (val8_arg11 V0)

theorem val0_arg12 (V0 : Valuation τ sig (Elt F)) : val0 V0 (Proc.devRef .tc main_arg12) = V0 (Proc.devRef .tc main_arg12) := rfl
theorem val1_arg12 (V0 : Valuation τ sig (Elt F)) : val1 V0 (Proc.devRef .tc main_arg12) = V0 (Proc.devRef .tc main_arg12) :=
  (val1_keep V0 main_arg12 (by decide)).trans (val0_arg12 V0)
theorem val2_arg12 (V0 : Valuation τ sig (Elt F)) : val2 V0 (Proc.devRef .tc main_arg12) = V0 (Proc.devRef .tc main_arg12) :=
  (val2_keep V0 main_arg12 (by decide)).trans (val1_arg12 V0)
theorem val3_arg12 (V0 : Valuation τ sig (Elt F)) : val3 V0 (Proc.devRef .tc main_arg12) = V0 (Proc.devRef .tc main_arg12) :=
  (val3_keep V0 main_arg12 (by decide)).trans (val2_arg12 V0)
theorem val4_arg12 (V0 : Valuation τ sig (Elt F)) : val4 V0 (Proc.devRef .tc main_arg12) = V0 (Proc.devRef .tc main_arg12) :=
  (val4_keep V0 main_arg12 (by decide)).trans (val3_arg12 V0)
theorem val5_arg12 (V0 : Valuation τ sig (Elt F)) : val5 V0 (Proc.devRef .tc main_arg12) = V0 (Proc.devRef .tc main_arg12) :=
  (val5_keep V0 main_arg12 (by decide)).trans (val4_arg12 V0)
theorem val6_arg12 (V0 : Valuation τ sig (Elt F)) : val6 V0 (Proc.devRef .tc main_arg12) = V0 (Proc.devRef .tc main_arg12) :=
  (val6_keep V0 main_arg12 (by decide)).trans (val5_arg12 V0)
theorem val7_arg12 (V0 : Valuation τ sig (Elt F)) : val7 V0 (Proc.devRef .tc main_arg12) = V0 (Proc.devRef .tc main_arg12) :=
  (val7_keep V0 main_arg12 (by decide)).trans (val6_arg12 V0)
theorem val8_arg12 (V0 : Valuation τ sig (Elt F)) : val8 V0 (Proc.devRef .tc main_arg12) = V0 (Proc.devRef .tc main_arg12) :=
  (val8_keep V0 main_arg12 (by decide)).trans (val7_arg12 V0)
theorem val9_arg12 (V0 : Valuation τ sig (Elt F)) : val9 V0 (Proc.devRef .tc main_arg12) = V0 (Proc.devRef .tc main_arg12) :=
  (val9_keep V0 main_arg12 (by decide)).trans (val8_arg12 V0)

theorem val0_arg13 (V0 : Valuation τ sig (Elt F)) : val0 V0 (Proc.devRef .tc main_arg13) = V0 (Proc.devRef .tc main_arg13) := rfl
theorem val1_arg13 (V0 : Valuation τ sig (Elt F)) : val1 V0 (Proc.devRef .tc main_arg13) = V0 (Proc.devRef .tc main_arg13) :=
  (val1_keep V0 main_arg13 (by decide)).trans (val0_arg13 V0)
theorem val2_arg13 (V0 : Valuation τ sig (Elt F)) : val2 V0 (Proc.devRef .tc main_arg13) = V0 (Proc.devRef .tc main_arg13) :=
  (val2_keep V0 main_arg13 (by decide)).trans (val1_arg13 V0)
theorem val3_arg13 (V0 : Valuation τ sig (Elt F)) : val3 V0 (Proc.devRef .tc main_arg13) = V0 (Proc.devRef .tc main_arg13) :=
  (val3_keep V0 main_arg13 (by decide)).trans (val2_arg13 V0)
theorem val4_arg13 (V0 : Valuation τ sig (Elt F)) : val4 V0 (Proc.devRef .tc main_arg13) = V0 (Proc.devRef .tc main_arg13) :=
  (val4_keep V0 main_arg13 (by decide)).trans (val3_arg13 V0)
theorem val5_arg13 (V0 : Valuation τ sig (Elt F)) : val5 V0 (Proc.devRef .tc main_arg13) = V0 (Proc.devRef .tc main_arg13) :=
  (val5_keep V0 main_arg13 (by decide)).trans (val4_arg13 V0)
theorem val6_arg13 (V0 : Valuation τ sig (Elt F)) : val6 V0 (Proc.devRef .tc main_arg13) = V0 (Proc.devRef .tc main_arg13) :=
  (val6_keep V0 main_arg13 (by decide)).trans (val5_arg13 V0)
theorem val7_arg13 (V0 : Valuation τ sig (Elt F)) : val7 V0 (Proc.devRef .tc main_arg13) = V0 (Proc.devRef .tc main_arg13) :=
  (val7_keep V0 main_arg13 (by decide)).trans (val6_arg13 V0)
theorem val8_arg13 (V0 : Valuation τ sig (Elt F)) : val8 V0 (Proc.devRef .tc main_arg13) = V0 (Proc.devRef .tc main_arg13) :=
  (val8_keep V0 main_arg13 (by decide)).trans (val7_arg13 V0)
theorem val9_arg13 (V0 : Valuation τ sig (Elt F)) : val9 V0 (Proc.devRef .tc main_arg13) = V0 (Proc.devRef .tc main_arg13) :=
  (val9_keep V0 main_arg13 (by decide)).trans (val8_arg13 V0)

theorem val0_arg14 (V0 : Valuation τ sig (Elt F)) : val0 V0 (Proc.devRef .tc main_arg14) = V0 (Proc.devRef .tc main_arg14) := rfl
theorem val1_arg14 (V0 : Valuation τ sig (Elt F)) : val1 V0 (Proc.devRef .tc main_arg14) = V0 (Proc.devRef .tc main_arg14) :=
  (val1_keep V0 main_arg14 (by decide)).trans (val0_arg14 V0)
theorem val2_arg14 (V0 : Valuation τ sig (Elt F)) : val2 V0 (Proc.devRef .tc main_arg14) = V0 (Proc.devRef .tc main_arg14) :=
  (val2_keep V0 main_arg14 (by decide)).trans (val1_arg14 V0)
theorem val3_arg14 (V0 : Valuation τ sig (Elt F)) : val3 V0 (Proc.devRef .tc main_arg14) = V0 (Proc.devRef .tc main_arg14) :=
  (val3_keep V0 main_arg14 (by decide)).trans (val2_arg14 V0)
theorem val4_arg14 (V0 : Valuation τ sig (Elt F)) : val4 V0 (Proc.devRef .tc main_arg14) = V0 (Proc.devRef .tc main_arg14) :=
  (val4_keep V0 main_arg14 (by decide)).trans (val3_arg14 V0)
theorem val5_arg14 (V0 : Valuation τ sig (Elt F)) : val5 V0 (Proc.devRef .tc main_arg14) = V0 (Proc.devRef .tc main_arg14) :=
  (val5_keep V0 main_arg14 (by decide)).trans (val4_arg14 V0)
theorem val6_arg14 (V0 : Valuation τ sig (Elt F)) : val6 V0 (Proc.devRef .tc main_arg14) = V0 (Proc.devRef .tc main_arg14) :=
  (val6_keep V0 main_arg14 (by decide)).trans (val5_arg14 V0)
theorem val7_arg14 (V0 : Valuation τ sig (Elt F)) : val7 V0 (Proc.devRef .tc main_arg14) = V0 (Proc.devRef .tc main_arg14) :=
  (val7_keep V0 main_arg14 (by decide)).trans (val6_arg14 V0)
theorem val8_arg14 (V0 : Valuation τ sig (Elt F)) : val8 V0 (Proc.devRef .tc main_arg14) = V0 (Proc.devRef .tc main_arg14) :=
  (val8_keep V0 main_arg14 (by decide)).trans (val7_arg14 V0)
theorem val9_arg14 (V0 : Valuation τ sig (Elt F)) : val9 V0 (Proc.devRef .tc main_arg14) = V0 (Proc.devRef .tc main_arg14) :=
  (val9_keep V0 main_arg14 (by decide)).trans (val8_arg14 V0)

theorem val0_arg15 (V0 : Valuation τ sig (Elt F)) : val0 V0 (Proc.devRef .tc main_arg15) = V0 (Proc.devRef .tc main_arg15) := rfl
theorem val1_arg15 (V0 : Valuation τ sig (Elt F)) : val1 V0 (Proc.devRef .tc main_arg15) = V0 (Proc.devRef .tc main_arg15) :=
  (val1_keep V0 main_arg15 (by decide)).trans (val0_arg15 V0)
theorem val2_arg15 (V0 : Valuation τ sig (Elt F)) : val2 V0 (Proc.devRef .tc main_arg15) = V0 (Proc.devRef .tc main_arg15) :=
  (val2_keep V0 main_arg15 (by decide)).trans (val1_arg15 V0)
theorem val3_arg15 (V0 : Valuation τ sig (Elt F)) : val3 V0 (Proc.devRef .tc main_arg15) = V0 (Proc.devRef .tc main_arg15) :=
  (val3_keep V0 main_arg15 (by decide)).trans (val2_arg15 V0)
theorem val4_arg15 (V0 : Valuation τ sig (Elt F)) : val4 V0 (Proc.devRef .tc main_arg15) = V0 (Proc.devRef .tc main_arg15) :=
  (val4_keep V0 main_arg15 (by decide)).trans (val3_arg15 V0)
theorem val5_arg15 (V0 : Valuation τ sig (Elt F)) : val5 V0 (Proc.devRef .tc main_arg15) = V0 (Proc.devRef .tc main_arg15) :=
  (val5_keep V0 main_arg15 (by decide)).trans (val4_arg15 V0)
theorem val6_arg15 (V0 : Valuation τ sig (Elt F)) : val6 V0 (Proc.devRef .tc main_arg15) = V0 (Proc.devRef .tc main_arg15) :=
  (val6_keep V0 main_arg15 (by decide)).trans (val5_arg15 V0)
theorem val7_arg15 (V0 : Valuation τ sig (Elt F)) : val7 V0 (Proc.devRef .tc main_arg15) = V0 (Proc.devRef .tc main_arg15) :=
  (val7_keep V0 main_arg15 (by decide)).trans (val6_arg15 V0)
theorem val8_arg15 (V0 : Valuation τ sig (Elt F)) : val8 V0 (Proc.devRef .tc main_arg15) = V0 (Proc.devRef .tc main_arg15) :=
  (val8_keep V0 main_arg15 (by decide)).trans (val7_arg15 V0)
theorem val9_arg15 (V0 : Valuation τ sig (Elt F)) : val9 V0 (Proc.devRef .tc main_arg15) = V0 (Proc.devRef .tc main_arg15) :=
  (val9_keep V0 main_arg15 (by decide)).trans (val8_arg15 V0)

theorem val0_arg16 (V0 : Valuation τ sig (Elt F)) : val0 V0 (Proc.devRef .tc main_arg16) = V0 (Proc.devRef .tc main_arg16) := rfl
theorem val1_arg16 (V0 : Valuation τ sig (Elt F)) : val1 V0 (Proc.devRef .tc main_arg16) = V0 (Proc.devRef .tc main_arg16) :=
  (val1_keep V0 main_arg16 (by decide)).trans (val0_arg16 V0)
theorem val2_arg16 (V0 : Valuation τ sig (Elt F)) : val2 V0 (Proc.devRef .tc main_arg16) = V0 (Proc.devRef .tc main_arg16) :=
  (val2_keep V0 main_arg16 (by decide)).trans (val1_arg16 V0)
theorem val3_arg16 (V0 : Valuation τ sig (Elt F)) : val3 V0 (Proc.devRef .tc main_arg16) = V0 (Proc.devRef .tc main_arg16) :=
  (val3_keep V0 main_arg16 (by decide)).trans (val2_arg16 V0)
theorem val4_arg16 (V0 : Valuation τ sig (Elt F)) : val4 V0 (Proc.devRef .tc main_arg16) = V0 (Proc.devRef .tc main_arg16) :=
  (val4_keep V0 main_arg16 (by decide)).trans (val3_arg16 V0)
theorem val5_arg16 (V0 : Valuation τ sig (Elt F)) : val5 V0 (Proc.devRef .tc main_arg16) = V0 (Proc.devRef .tc main_arg16) :=
  (val5_keep V0 main_arg16 (by decide)).trans (val4_arg16 V0)
theorem val6_arg16 (V0 : Valuation τ sig (Elt F)) : val6 V0 (Proc.devRef .tc main_arg16) = V0 (Proc.devRef .tc main_arg16) :=
  (val6_keep V0 main_arg16 (by decide)).trans (val5_arg16 V0)
theorem val7_arg16 (V0 : Valuation τ sig (Elt F)) : val7 V0 (Proc.devRef .tc main_arg16) = V0 (Proc.devRef .tc main_arg16) :=
  (val7_keep V0 main_arg16 (by decide)).trans (val6_arg16 V0)
theorem val8_arg16 (V0 : Valuation τ sig (Elt F)) : val8 V0 (Proc.devRef .tc main_arg16) = V0 (Proc.devRef .tc main_arg16) :=
  (val8_keep V0 main_arg16 (by decide)).trans (val7_arg16 V0)
theorem val9_arg16 (V0 : Valuation τ sig (Elt F)) : val9 V0 (Proc.devRef .tc main_arg16) = V0 (Proc.devRef .tc main_arg16) :=
  (val9_keep V0 main_arg16 (by decide)).trans (val8_arg16 V0)

theorem val0_arg17 (V0 : Valuation τ sig (Elt F)) : val0 V0 (Proc.devRef .tc main_arg17) = V0 (Proc.devRef .tc main_arg17) := rfl
theorem val1_arg17 (V0 : Valuation τ sig (Elt F)) : val1 V0 (Proc.devRef .tc main_arg17) = V0 (Proc.devRef .tc main_arg17) :=
  (val1_keep V0 main_arg17 (by decide)).trans (val0_arg17 V0)
theorem val2_arg17 (V0 : Valuation τ sig (Elt F)) : val2 V0 (Proc.devRef .tc main_arg17) = V0 (Proc.devRef .tc main_arg17) :=
  (val2_keep V0 main_arg17 (by decide)).trans (val1_arg17 V0)
theorem val3_arg17 (V0 : Valuation τ sig (Elt F)) : val3 V0 (Proc.devRef .tc main_arg17) = V0 (Proc.devRef .tc main_arg17) :=
  (val3_keep V0 main_arg17 (by decide)).trans (val2_arg17 V0)
theorem val4_arg17 (V0 : Valuation τ sig (Elt F)) : val4 V0 (Proc.devRef .tc main_arg17) = V0 (Proc.devRef .tc main_arg17) :=
  (val4_keep V0 main_arg17 (by decide)).trans (val3_arg17 V0)
theorem val5_arg17 (V0 : Valuation τ sig (Elt F)) : val5 V0 (Proc.devRef .tc main_arg17) = V0 (Proc.devRef .tc main_arg17) :=
  (val5_keep V0 main_arg17 (by decide)).trans (val4_arg17 V0)
theorem val6_arg17 (V0 : Valuation τ sig (Elt F)) : val6 V0 (Proc.devRef .tc main_arg17) = V0 (Proc.devRef .tc main_arg17) :=
  (val6_keep V0 main_arg17 (by decide)).trans (val5_arg17 V0)
theorem val7_arg17 (V0 : Valuation τ sig (Elt F)) : val7 V0 (Proc.devRef .tc main_arg17) = V0 (Proc.devRef .tc main_arg17) :=
  (val7_keep V0 main_arg17 (by decide)).trans (val6_arg17 V0)
theorem val8_arg17 (V0 : Valuation τ sig (Elt F)) : val8 V0 (Proc.devRef .tc main_arg17) = V0 (Proc.devRef .tc main_arg17) :=
  (val8_keep V0 main_arg17 (by decide)).trans (val7_arg17 V0)
theorem val9_arg17 (V0 : Valuation τ sig (Elt F)) : val9 V0 (Proc.devRef .tc main_arg17) = V0 (Proc.devRef .tc main_arg17) :=
  (val9_keep V0 main_arg17 (by decide)).trans (val8_arg17 V0)

theorem val0_arg18 (V0 : Valuation τ sig (Elt F)) : val0 V0 (Proc.devRef .tc main_arg18) = V0 (Proc.devRef .tc main_arg18) := rfl
theorem val1_arg18 (V0 : Valuation τ sig (Elt F)) : val1 V0 (Proc.devRef .tc main_arg18) = V0 (Proc.devRef .tc main_arg18) :=
  (val1_keep V0 main_arg18 (by decide)).trans (val0_arg18 V0)
theorem val2_arg18 (V0 : Valuation τ sig (Elt F)) : val2 V0 (Proc.devRef .tc main_arg18) = V0 (Proc.devRef .tc main_arg18) :=
  (val2_keep V0 main_arg18 (by decide)).trans (val1_arg18 V0)
theorem val3_arg18 (V0 : Valuation τ sig (Elt F)) : val3 V0 (Proc.devRef .tc main_arg18) = V0 (Proc.devRef .tc main_arg18) :=
  (val3_keep V0 main_arg18 (by decide)).trans (val2_arg18 V0)
theorem val4_arg18 (V0 : Valuation τ sig (Elt F)) : val4 V0 (Proc.devRef .tc main_arg18) = V0 (Proc.devRef .tc main_arg18) :=
  (val4_keep V0 main_arg18 (by decide)).trans (val3_arg18 V0)
theorem val5_arg18 (V0 : Valuation τ sig (Elt F)) : val5 V0 (Proc.devRef .tc main_arg18) = V0 (Proc.devRef .tc main_arg18) :=
  (val5_keep V0 main_arg18 (by decide)).trans (val4_arg18 V0)
theorem val6_arg18 (V0 : Valuation τ sig (Elt F)) : val6 V0 (Proc.devRef .tc main_arg18) = V0 (Proc.devRef .tc main_arg18) :=
  (val6_keep V0 main_arg18 (by decide)).trans (val5_arg18 V0)
theorem val7_arg18 (V0 : Valuation τ sig (Elt F)) : val7 V0 (Proc.devRef .tc main_arg18) = V0 (Proc.devRef .tc main_arg18) :=
  (val7_keep V0 main_arg18 (by decide)).trans (val6_arg18 V0)
theorem val8_arg18 (V0 : Valuation τ sig (Elt F)) : val8 V0 (Proc.devRef .tc main_arg18) = V0 (Proc.devRef .tc main_arg18) :=
  (val8_keep V0 main_arg18 (by decide)).trans (val7_arg18 V0)
theorem val9_arg18 (V0 : Valuation τ sig (Elt F)) : val9 V0 (Proc.devRef .tc main_arg18) = V0 (Proc.devRef .tc main_arg18) :=
  (val9_keep V0 main_arg18 (by decide)).trans (val8_arg18 V0)

theorem val0_arg19 (V0 : Valuation τ sig (Elt F)) : val0 V0 (Proc.devRef .tc main_arg19) = V0 (Proc.devRef .tc main_arg19) := rfl
theorem val1_arg19 (V0 : Valuation τ sig (Elt F)) : val1 V0 (Proc.devRef .tc main_arg19) = V0 (Proc.devRef .tc main_arg19) :=
  (val1_keep V0 main_arg19 (by decide)).trans (val0_arg19 V0)
theorem val2_arg19 (V0 : Valuation τ sig (Elt F)) : val2 V0 (Proc.devRef .tc main_arg19) = V0 (Proc.devRef .tc main_arg19) :=
  (val2_keep V0 main_arg19 (by decide)).trans (val1_arg19 V0)
theorem val3_arg19 (V0 : Valuation τ sig (Elt F)) : val3 V0 (Proc.devRef .tc main_arg19) = V0 (Proc.devRef .tc main_arg19) :=
  (val3_keep V0 main_arg19 (by decide)).trans (val2_arg19 V0)
theorem val4_arg19 (V0 : Valuation τ sig (Elt F)) : val4 V0 (Proc.devRef .tc main_arg19) = V0 (Proc.devRef .tc main_arg19) :=
  (val4_keep V0 main_arg19 (by decide)).trans (val3_arg19 V0)
theorem val5_arg19 (V0 : Valuation τ sig (Elt F)) : val5 V0 (Proc.devRef .tc main_arg19) = V0 (Proc.devRef .tc main_arg19) :=
  (val5_keep V0 main_arg19 (by decide)).trans (val4_arg19 V0)
theorem val6_arg19 (V0 : Valuation τ sig (Elt F)) : val6 V0 (Proc.devRef .tc main_arg19) = V0 (Proc.devRef .tc main_arg19) :=
  (val6_keep V0 main_arg19 (by decide)).trans (val5_arg19 V0)
theorem val7_arg19 (V0 : Valuation τ sig (Elt F)) : val7 V0 (Proc.devRef .tc main_arg19) = V0 (Proc.devRef .tc main_arg19) :=
  (val7_keep V0 main_arg19 (by decide)).trans (val6_arg19 V0)
theorem val8_arg19 (V0 : Valuation τ sig (Elt F)) : val8 V0 (Proc.devRef .tc main_arg19) = V0 (Proc.devRef .tc main_arg19) :=
  (val8_keep V0 main_arg19 (by decide)).trans (val7_arg19 V0)
theorem val9_arg19 (V0 : Valuation τ sig (Elt F)) : val9 V0 (Proc.devRef .tc main_arg19) = V0 (Proc.devRef .tc main_arg19) :=
  (val9_keep V0 main_arg19 (by decide)).trans (val8_arg19 V0)

theorem val0_arg20 (V0 : Valuation τ sig (Elt F)) : val0 V0 (Proc.devRef .tc main_arg20) = V0 (Proc.devRef .tc main_arg20) := rfl
theorem val1_arg20 (V0 : Valuation τ sig (Elt F)) : val1 V0 (Proc.devRef .tc main_arg20) = V0 (Proc.devRef .tc main_arg20) :=
  (val1_keep V0 main_arg20 (by decide)).trans (val0_arg20 V0)
theorem val2_arg20 (V0 : Valuation τ sig (Elt F)) : val2 V0 (Proc.devRef .tc main_arg20) = V0 (Proc.devRef .tc main_arg20) :=
  (val2_keep V0 main_arg20 (by decide)).trans (val1_arg20 V0)
theorem val3_arg20 (V0 : Valuation τ sig (Elt F)) : val3 V0 (Proc.devRef .tc main_arg20) = V0 (Proc.devRef .tc main_arg20) :=
  (val3_keep V0 main_arg20 (by decide)).trans (val2_arg20 V0)
theorem val4_arg20 (V0 : Valuation τ sig (Elt F)) : val4 V0 (Proc.devRef .tc main_arg20) = V0 (Proc.devRef .tc main_arg20) :=
  (val4_keep V0 main_arg20 (by decide)).trans (val3_arg20 V0)
theorem val5_arg20 (V0 : Valuation τ sig (Elt F)) : val5 V0 (Proc.devRef .tc main_arg20) = V0 (Proc.devRef .tc main_arg20) :=
  (val5_keep V0 main_arg20 (by decide)).trans (val4_arg20 V0)
theorem val6_arg20 (V0 : Valuation τ sig (Elt F)) : val6 V0 (Proc.devRef .tc main_arg20) = V0 (Proc.devRef .tc main_arg20) :=
  (val6_keep V0 main_arg20 (by decide)).trans (val5_arg20 V0)
theorem val7_arg20 (V0 : Valuation τ sig (Elt F)) : val7 V0 (Proc.devRef .tc main_arg20) = V0 (Proc.devRef .tc main_arg20) :=
  (val7_keep V0 main_arg20 (by decide)).trans (val6_arg20 V0)
theorem val8_arg20 (V0 : Valuation τ sig (Elt F)) : val8 V0 (Proc.devRef .tc main_arg20) = V0 (Proc.devRef .tc main_arg20) :=
  (val8_keep V0 main_arg20 (by decide)).trans (val7_arg20 V0)
theorem val9_arg20 (V0 : Valuation τ sig (Elt F)) : val9 V0 (Proc.devRef .tc main_arg20) = V0 (Proc.devRef .tc main_arg20) :=
  (val9_keep V0 main_arg20 (by decide)).trans (val8_arg20 V0)

/-- The whole line's fold is the last stretch's. -/
theorem after_ops (V0 : Valuation τ sig (Elt F)) : after ops V0 = val9 V0 := by
  simp only [ops, ops_part0, ops_part1, ops_part2, ops_part3, after_append]
  rfl

end Cert.ReferenceIdeal.RefRun

end
-- ==== Proof.RefRun.Chunk0.lean ====
/- Operations 1 … 37 of the reference's line, read back: from any contents at which the buffers they read hold
   their values, each buffer a later operation reads holds its own value after them. -/
import proofs.«110093_j8770323219157_1_alg».proof.Proof.RefRun.Ops
import proofs.«110093_j8770323219157_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem chunk0_v14 (W : Valuation τ sig (Elt F)) (a1 : (⟨S50000x4, .f32⟩ : BufTy).Contents (Elt F)) (a2 : (⟨S800000, .i32⟩ : BufTy).Contents (Elt F)) (a3 : (⟨S800000, .i32⟩ : BufTy).Contents (Elt F))
    (h_a1 : W (Proc.devRef .tc main_arg1) = a1)
    (h_a2 : W (Proc.devRef .tc main_arg2) = a2)
    (h_a3 : W (Proc.devRef .tc main_arg3) = a3) :
    after chunk0 W (Proc.devRef .tc main_v14) = val_v14 a1 a2 a3 := by
  simp only [chunk0]
  after_results_simp
  simp only [h_a1, h_a2, h_a3]
  rfl

set_option maxRecDepth 16384 in
set_option maxHeartbeats 4000000 in
theorem chunk0_v28 (W : Valuation τ sig (Elt F)) (a1 : (⟨S50000x4, .f32⟩ : BufTy).Contents (Elt F)) (a2 : (⟨S800000, .i32⟩ : BufTy).Contents (Elt F)) (a3 : (⟨S800000, .i32⟩ : BufTy).Contents (Elt F))
    (h_a1 : W (Proc.devRef .tc main_arg1) = a1)
    (h_a2 : W (Proc.devRef .tc main_arg2) = a2)
    (h_a3 : W (Proc.devRef .tc main_arg3) = a3) :
    after chunk0 W (Proc.devRef .tc main_v28) = val_v28 a1 a2 a3 := by
  simp only [chunk0]
  after_results_simp
  simp only [h_a1, h_a2, h_a3]
  rfl

set_option maxRecDepth 16384 in
set_option maxHeartbeats 4000000 in
theorem chunk0_v29 (W : Valuation τ sig (Elt F)) (a1 : (⟨S50000x4, .f32⟩ : BufTy).Contents (Elt F)) (a2 : (⟨S800000, .i32⟩ : BufTy).Contents (Elt F)) (a3 : (⟨S800000, .i32⟩ : BufTy).Contents (Elt F))
    (h_a1 : W (Proc.devRef .tc main_arg1) = a1)
    (h_a2 : W (Proc.devRef .tc main_arg2) = a2)
    (h_a3 : W (Proc.devRef .tc main_arg3) = a3) :
    after chunk0 W (Proc.devRef .tc main_v29) = val_v29 a1 a2 a3 := by
  simp only [chunk0]
  after_results_simp
  simp only [h_a1, h_a2, h_a3]
  rfl

end Cert.ReferenceIdeal.RefRun

end
-- ==== Proof.RefRun.Chunk1.lean ====
/- Operations 38 … 60 of the reference's line, read back: from any contents at which the buffers they read hold
   their values, each buffer a later operation reads holds its own value after them. -/
import proofs.«110093_j8770323219157_1_alg».proof.Proof.RefRun.Ops
import proofs.«110093_j8770323219157_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem chunk1_v42 (W : Valuation τ sig (Elt F)) (a1 : (⟨S50000x4, .f32⟩ : BufTy).Contents (Elt F)) (a2 : (⟨S800000, .i32⟩ : BufTy).Contents (Elt F)) (a3 : (⟨S800000, .i32⟩ : BufTy).Contents (Elt F))
    (h_v29 : W (Proc.devRef .tc main_v29) = val_v29 a1 a2 a3) :
    after chunk1 W (Proc.devRef .tc main_v42) = val_v42 a1 a2 a3 := by
  simp only [chunk1]
  after_results_simp
  simp only [h_v29]
  rfl

set_option maxRecDepth 16384 in
set_option maxHeartbeats 4000000 in
theorem chunk1_v47 (W : Valuation τ sig (Elt F)) (a2 : (⟨S800000, .i32⟩ : BufTy).Contents (Elt F))
    (h_a2 : W (Proc.devRef .tc main_arg2) = a2) :
    after chunk1 W (Proc.devRef .tc main_v47) = val_v47 a2 := by
  simp only [chunk1]
  after_results_simp
  simp only [h_a2]
  rfl

end Cert.ReferenceIdeal.RefRun

end
-- ==== Proof.RefRun.Chunk2.lean ====
/- Operations 61 … 73 of the reference's line, read back: from any contents at which the buffers they read hold
   their values, each buffer a later operation reads holds its own value after them. -/
import proofs.«110093_j8770323219157_1_alg».proof.Proof.RefRun.Ops
import proofs.«110093_j8770323219157_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem chunk2_v58 (W : Valuation τ sig (Elt F)) (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F))
    (h_a0 : W (Proc.devRef .tc main_arg0) = a0)
    (h_v47 : W (Proc.devRef .tc main_v47) = val_v47 a2)
    (h_a3 : W (Proc.devRef .tc main_arg3) = a3)
    (h_v28 : W (Proc.devRef .tc main_v28) = val_v28 a1 a2 a3)
    (h_v42 : W (Proc.devRef .tc main_v42) = val_v42 a1 a2 a3)
    (h_a5 : W (Proc.devRef .tc main_arg5) = a5) :
    after chunk2 W (Proc.devRef .tc main_v58) = val_v58 a0 a1 a2 a3 a5 := by
  simp only [chunk2]
  after_results_simp
  try dsimp only [Matrix.cons_val]
  try after_results_simp
  simp only [h_a0, h_v47, h_a3, h_v28, h_v42, h_a5]
  rfl

end Cert.ReferenceIdeal.RefRun

end
-- ==== Proof.RefRun.Chunk3.lean ====
/- Operations 74 … 111 of the reference's line, read back: from any contents at which the buffers they read hold
   their values, each buffer a later operation reads holds its own value after them. -/
import proofs.«110093_j8770323219157_1_alg».proof.Proof.RefRun.Ops
import proofs.«110093_j8770323219157_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem chunk3_v71 (W : Valuation τ sig (Elt F)) (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F))
    (h_v58 : W (Proc.devRef .tc main_v58) = val_v58 a0 a1 a2 a3 a5) :
    after chunk3 W (Proc.devRef .tc main_v71) = val_v71 a0 a1 a2 a3 a5 := by
  simp only [chunk3]
  after_results_simp
  simp only [h_v58]
  rfl

end Cert.ReferenceIdeal.RefRun

end
-- ==== Proof.RefRun.Chunk4.lean ====
/- Operations 112 … 145 of the reference's line, read back: from any contents at which the buffers they read hold
   their values, each buffer a later operation reads holds its own value after them. -/
import proofs.«110093_j8770323219157_1_alg».proof.Proof.RefRun.Ops
import proofs.«110093_j8770323219157_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem chunk4_v95 (W : Valuation τ sig (Elt F)) (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F))
    (h_v71 : W (Proc.devRef .tc main_v71) = val_v71 a0 a1 a2 a3 a5)
    (h_a6 : W (Proc.devRef .tc main_arg6) = a6)
    (h_a7 : W (Proc.devRef .tc main_arg7) = a7)
    (h_a8 : W (Proc.devRef .tc main_arg8) = a8)
    (h_a9 : W (Proc.devRef .tc main_arg9) = a9)
    (h_a10 : W (Proc.devRef .tc main_arg10) = a10)
    (h_a11 : W (Proc.devRef .tc main_arg11) = a11) :
    after chunk4 W (Proc.devRef .tc main_v95) = val_v95 a0 a1 a2 a3 a5 a6 a7 a8 a9 a10 a11 := by
  simp only [chunk4]
  after_results_simp
  simp only [h_v71, h_a6, h_a7, h_a8, h_a9, h_a10, h_a11]
  rfl

set_option maxRecDepth 16384 in
set_option maxHeartbeats 4000000 in
theorem chunk4_v99 (W : Valuation τ sig (Elt F)) (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F))
    (h_v71 : W (Proc.devRef .tc main_v71) = val_v71 a0 a1 a2 a3 a5)
    (h_a6 : W (Proc.devRef .tc main_arg6) = a6)
    (h_a7 : W (Proc.devRef .tc main_arg7) = a7)
    (h_a8 : W (Proc.devRef .tc main_arg8) = a8)
    (h_a9 : W (Proc.devRef .tc main_arg9) = a9)
    (h_a10 : W (Proc.devRef .tc main_arg10) = a10)
    (h_a11 : W (Proc.devRef .tc main_arg11) = a11)
    (h_a12 : W (Proc.devRef .tc main_arg12) = a12)
    (h_a13 : W (Proc.devRef .tc main_arg13) = a13) :
    after chunk4 W (Proc.devRef .tc main_v99) = val_v99 a0 a1 a2 a3 a5 a6 a7 a8 a9 a10 a11 a12 a13 := by
  simp only [chunk4]
  after_results_simp
  simp only [h_v71, h_a6, h_a7, h_a8, h_a9, h_a10, h_a11, h_a12, h_a13]
  rfl

end Cert.ReferenceIdeal.RefRun

end
-- ==== Proof.RefRun.Chunk5.lean ====
/- Operations 146 … 163 of the reference's line, read back: from any contents at which the buffers they read hold
   their values, each buffer a later operation reads holds its own value after them. -/
import proofs.«110093_j8770323219157_1_alg».proof.Proof.RefRun.Ops
import proofs.«110093_j8770323219157_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem chunk5_v107 (W : Valuation τ sig (Elt F)) (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F))
    (h_a2 : W (Proc.devRef .tc main_arg2) = a2)
    (h_v14 : W (Proc.devRef .tc main_v14) = val_v14 a1 a2 a3)
    (h_v99 : W (Proc.devRef .tc main_v99) = val_v99 a0 a1 a2 a3 a5 a6 a7 a8 a9 a10 a11 a12 a13)
    (h_a14 : W (Proc.devRef .tc main_arg14) = a14) :
    after chunk5 W (Proc.devRef .tc main_v107) = val_v107 a0 a1 a2 a3 a5 a6 a7 a8 a9 a10 a11 a12 a13 a14 := by
  simp only [chunk5]
  after_results_simp
  simp only [h_a2, h_v14, h_v99, h_a14]
  rfl

end Cert.ReferenceIdeal.RefRun

end
-- ==== Proof.RefRun.Chunk6.lean ====
/- Operations 164 … 188 of the reference's line, read back: from any contents at which the buffers they read hold
   their values, each buffer a later operation reads holds its own value after them. -/
import proofs.«110093_j8770323219157_1_alg».proof.Proof.RefRun.Ops
import proofs.«110093_j8770323219157_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem chunk6_v119 (W : Valuation τ sig (Elt F)) (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a12 : (⟨S64x64, .f32⟩ : BufTy).Contents (Elt F)) (a13 : (⟨S64, .f32⟩ : BufTy).Contents (Elt F)) (a14 : (⟨S64x1, .f32⟩ : BufTy).Contents (Elt F))
    (h_a1 : W (Proc.devRef .tc main_arg1) = a1)
    (h_v107 : W (Proc.devRef .tc main_v107) = val_v107 a0 a1 a2 a3 a5 a6 a7 a8 a9 a10 a11 a12 a13 a14)
    (h_a2 : W (Proc.devRef .tc main_arg2) = a2) :
    after chunk6 W (Proc.devRef .tc main_v119) = val_v119 a0 a1 a2 a3 a5 a6 a7 a8 a9 a10 a11 a12 a13 a14 := by
  simp only [chunk6]
  after_results_simp
  try dsimp only [Matrix.cons_val]
  try after_results_simp
  simp only [h_a1, h_v107, h_a2]
  rfl

set_option maxRecDepth 16384 in
set_option maxHeartbeats 4000000 in
theorem chunk6_v127 (W : Valuation τ sig (Elt F)) (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F))
    (h_a0 : W (Proc.devRef .tc main_arg0) = a0)
    (h_a2 : W (Proc.devRef .tc main_arg2) = a2)
    (h_v95 : W (Proc.devRef .tc main_v95) = val_v95 a0 a1 a2 a3 a5 a6 a7 a8 a9 a10 a11)
    (h_a4 : W (Proc.devRef .tc main_arg4) = a4)
    (h_a15 : W (Proc.devRef .tc main_arg15) = a15)
    (h_a16 : W (Proc.devRef .tc main_arg16) = a16) :
    after chunk6 W (Proc.devRef .tc main_v127) = val_v127 a0 a1 a2 a3 a4 a5 a6 a7 a8 a9 a10 a11 a15 a16 := by
  simp only [chunk6]
  after_results_simp
  try dsimp only [Matrix.cons_val]
  try after_results_simp
  simp only [h_a0, h_a2, h_v95, h_a4, h_a15, h_a16]
  rfl

end Cert.ReferenceIdeal.RefRun

end
-- ==== Proof.RefRun.Chunk7.lean ====
/- Operations 189 … 235 of the reference's line, read back: from any contents at which the buffers they read hold
   their values, each buffer a later operation reads holds its own value after them. -/
import proofs.«110093_j8770323219157_1_alg».proof.Proof.RefRun.Ops
import proofs.«110093_j8770323219157_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem chunk7_v147 (W : Valuation τ sig (Elt F)) (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) (a17 : (⟨S64, .f32⟩ : BufTy).Contents (Elt F)) (a18 : (⟨S64, .f32⟩ : BufTy).Contents (Elt F))
    (h_v127 : W (Proc.devRef .tc main_v127) = val_v127 a0 a1 a2 a3 a4 a5 a6 a7 a8 a9 a10 a11 a15 a16)
    (h_a17 : W (Proc.devRef .tc main_arg17) = a17)
    (h_a18 : W (Proc.devRef .tc main_arg18) = a18) :
    after chunk7 W (Proc.devRef .tc main_v147) = val_v147 a0 a1 a2 a3 a4 a5 a6 a7 a8 a9 a10 a11 a15 a16 a17 a18 := by
  simp only [chunk7]
  after_results_simp
  simp only [h_v127, h_a17, h_a18]
  rfl

end Cert.ReferenceIdeal.RefRun

end
-- ==== Proof.RefRun.Chunk8.lean ====
/- Operations 236 … 240 of the reference's line, read back: from any contents at which the buffers they read hold
   their values, each buffer a later operation reads holds its own value after them. -/
import proofs.«110093_j8770323219157_1_alg».proof.Proof.RefRun.Ops
import proofs.«110093_j8770323219157_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem chunk8_v152 (W : Valuation τ sig (Elt F)) (a0 : (⟨S50000x64, .f32⟩ : BufTy).Contents (Elt F)) (a1 : (⟨S50000x4, .f32⟩ : BufTy).Contents (Elt F)) (a2 : (⟨S800000, .i32⟩ : BufTy).Contents (Elt F)) (a3 : (⟨S800000, .i32⟩ : BufTy).Contents (Elt F)) (a4 : (⟨S50000x8, .f32⟩ : BufTy).Contents (Elt F)) (a5 : (⟨S130x64, .f32⟩ : BufTy).Contents (Elt F)) (a6 : (⟨S64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) (a15 : (⟨S136x64, .f32⟩ : BufTy).Contents (Elt F)) (a16 : (⟨S64, .f32⟩ : BufTy).Contents (Elt F)) (a17 : (⟨S64, .f32⟩ : BufTy).Contents (Elt F)) (a18 : (⟨S64, .f32⟩ : BufTy).Contents (Elt F)) (a19 : (⟨S64x64, .f32⟩ : BufTy).Contents (Elt F)) (a20 : (⟨S64, .f32⟩ : BufTy).Contents (Elt F))
    (h_a0 : W (Proc.devRef .tc main_arg0) = a0)
    (h_v147 : W (Proc.devRef .tc main_v147) = val_v147 a0 a1 a2 a3 a4 a5 a6 a7 a8 a9 a10 a11 a15 a16 a17 a18)
    (h_a19 : W (Proc.devRef .tc main_arg19) = a19)
    (h_a20 : W (Proc.devRef .tc main_arg20) = a20) :
    after chunk8 W (Proc.devRef .tc main_v152) = val_v152 a0 a1 a2 a3 a4 a5 a6 a7 a8 a9 a10 a11 a15 a16 a17 a18 a19 a20 := by
  simp only [chunk8]
  after_results_simp
  simp only [h_a0, h_v147, h_a19, h_a20]
  rfl

end Cert.ReferenceIdeal.RefRun

end
-- ==== Proof.RefRun.lean ====
/- The reference program's run: on every device, from any memory with zero counters, every weakly fair execution of
   @main terminates with each result buffer at its value as a function of the arguments' launch contents
   (`res_h`, `res_x`, `res_m`), the arguments unchanged. -/
import proofs.«110093_j8770323219157_1_alg».proof.Proof.RefRun.Keep
import proofs.«110093_j8770323219157_1_alg».proof.Proof.RefStages
import proofs.«110093_j8770323219157_1_alg».proof.Proof.RefRun.Chunk0
import proofs.«110093_j8770323219157_1_alg».proof.Proof.RefRun.Chunk1
import proofs.«110093_j8770323219157_1_alg».proof.Proof.RefRun.Chunk2
import proofs.«110093_j8770323219157_1_alg».proof.Proof.RefRun.Chunk3
import proofs.«110093_j8770323219157_1_alg».proof.Proof.RefRun.Chunk4
import proofs.«110093_j8770323219157_1_alg».proof.Proof.RefRun.Chunk5
import proofs.«110093_j8770323219157_1_alg».proof.Proof.RefRun.Chunk6
import proofs.«110093_j8770323219157_1_alg».proof.Proof.RefRun.Chunk7
import proofs.«110093_j8770323219157_1_alg».proof.Proof.RefRun.Chunk8

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem val1_v14 (V0 : Valuation τ sig (Elt F)) : val1 V0 (Proc.devRef .tc main_v14) = val_v14 (V0 (Proc.devRef .tc main_arg1)) (V0 (Proc.devRef .tc main_arg2)) (V0 (Proc.devRef .tc main_arg3)) :=
  chunk0_v14 (val0 V0) (V0 (Proc.devRef .tc main_arg1)) (V0 (Proc.devRef .tc main_arg2)) (V0 (Proc.devRef .tc main_arg3)) (val0_arg1 V0) (val0_arg2 V0) (val0_arg3 V0)
theorem val2_v14 (V0 : Valuation τ sig (Elt F)) : val2 V0 (Proc.devRef .tc main_v14) = val_v14 (V0 (Proc.devRef .tc main_arg1)) (V0 (Proc.devRef .tc main_arg2)) (V0 (Proc.devRef .tc main_arg3)) :=
  (val2_keep V0 main_v14 (by decide)).trans (val1_v14 V0)
theorem val3_v14 (V0 : Valuation τ sig (Elt F)) : val3 V0 (Proc.devRef .tc main_v14) = val_v14 (V0 (Proc.devRef .tc main_arg1)) (V0 (Proc.devRef .tc main_arg2)) (V0 (Proc.devRef .tc main_arg3)) :=
  (val3_keep V0 main_v14 (by decide)).trans (val2_v14 V0)
theorem val4_v14 (V0 : Valuation τ sig (Elt F)) : val4 V0 (Proc.devRef .tc main_v14) = val_v14 (V0 (Proc.devRef .tc main_arg1)) (V0 (Proc.devRef .tc main_arg2)) (V0 (Proc.devRef .tc main_arg3)) :=
  (val4_keep V0 main_v14 (by decide)).trans (val3_v14 V0)
theorem val5_v14 (V0 : Valuation τ sig (Elt F)) : val5 V0 (Proc.devRef .tc main_v14) = val_v14 (V0 (Proc.devRef .tc main_arg1)) (V0 (Proc.devRef .tc main_arg2)) (V0 (Proc.devRef .tc main_arg3)) :=
  (val5_keep V0 main_v14 (by decide)).trans (val4_v14 V0)

theorem val1_v28 (V0 : Valuation τ sig (Elt F)) : val1 V0 (Proc.devRef .tc main_v28) = val_v28 (V0 (Proc.devRef .tc main_arg1)) (V0 (Proc.devRef .tc main_arg2)) (V0 (Proc.devRef .tc main_arg3)) :=
  chunk0_v28 (val0 V0) (V0 (Proc.devRef .tc main_arg1)) (V0 (Proc.devRef .tc main_arg2)) (V0 (Proc.devRef .tc main_arg3)) (val0_arg1 V0) (val0_arg2 V0) (val0_arg3 V0)
theorem val2_v28 (V0 : Valuation τ sig (Elt F)) : val2 V0 (Proc.devRef .tc main_v28) = val_v28 (V0 (Proc.devRef .tc main_arg1)) (V0 (Proc.devRef .tc main_arg2)) (V0 (Proc.devRef .tc main_arg3)) :=
  (val2_keep V0 main_v28 (by decide)).trans (val1_v28 V0)

theorem val1_v29 (V0 : Valuation τ sig (Elt F)) : val1 V0 (Proc.devRef .tc main_v29) = val_v29 (V0 (Proc.devRef .tc main_arg1)) (V0 (Proc.devRef .tc main_arg2)) (V0 (Proc.devRef .tc main_arg3)) :=
  chunk0_v29 (val0 V0) (V0 (Proc.devRef .tc main_arg1)) (V0 (Proc.devRef .tc main_arg2)) (V0 (Proc.devRef .tc main_arg3)) (val0_arg1 V0) (val0_arg2 V0) (val0_arg3 V0)

theorem val2_v42 (V0 : Valuation τ sig (Elt F)) : val2 V0 (Proc.devRef .tc main_v42) = val_v42 (V0 (Proc.devRef .tc main_arg1)) (V0 (Proc.devRef .tc main_arg2)) (V0 (Proc.devRef .tc main_arg3)) :=
  chunk1_v42 (val1 V0) (V0 (Proc.devRef .tc main_arg1)) (V0 (Proc.devRef .tc main_arg2)) (V0 (Proc.devRef .tc main_arg3)) (val1_v29 V0)

theorem val2_v47 (V0 : Valuation τ sig (Elt F)) : val2 V0 (Proc.devRef .tc main_v47) = val_v47 (V0 (Proc.devRef .tc main_arg2)) :=
  chunk1_v47 (val1 V0) (V0 (Proc.devRef .tc main_arg2)) (val1_arg2 V0)

theorem val3_v58 (V0 : Valuation τ sig (Elt F)) : val3 V0 (Proc.devRef .tc main_v58) = val_v58 (V0 (Proc.devRef .tc main_arg0)) (V0 (Proc.devRef .tc main_arg1)) (V0 (Proc.devRef .tc main_arg2)) (V0 (Proc.devRef .tc main_arg3)) (V0 (Proc.devRef .tc main_arg5)) :=
  chunk2_v58 (val2 V0) (V0 (Proc.devRef .tc main_arg0)) (V0 (Proc.devRef .tc main_arg1)) (V0 (Proc.devRef .tc main_arg2)) (V0 (Proc.devRef .tc main_arg3)) (V0 (Proc.devRef .tc main_arg5)) (val2_arg0 V0) (val2_v47 V0) (val2_arg3 V0) (val2_v28 V0) (val2_v42 V0) (val2_arg5 V0)

theorem val4_v71 (V0 : Valuation τ sig (Elt F)) : val4 V0 (Proc.devRef .tc main_v71) = val_v71 (V0 (Proc.devRef .tc main_arg0)) (V0 (Proc.devRef .tc main_arg1)) (V0 (Proc.devRef .tc main_arg2)) (V0 (Proc.devRef .tc main_arg3)) (V0 (Proc.devRef .tc main_arg5)) :=
  chunk3_v71 (val3 V0) (V0 (Proc.devRef .tc main_arg0)) (V0 (Proc.devRef .tc main_arg1)) (V0 (Proc.devRef .tc main_arg2)) (V0 (Proc.devRef .tc main_arg3)) (V0 (Proc.devRef .tc main_arg5)) (val3_v58 V0)

theorem val5_v95 (V0 : Valuation τ sig (Elt F)) : val5 V0 (Proc.devRef .tc main_v95) = val_v95 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  chunk4_v95 (val4 V0) (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (val4_v71 V0) (val4_arg6 V0) (val4_arg7 V0) (val4_arg8 V0) (val4_arg9 V0) (val4_arg10 V0) (val4_arg11 V0)
theorem val6_v95 (V0 : Valuation τ sig (Elt F)) : val6 V0 (Proc.devRef .tc main_v95) = val_v95 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  (val6_keep V0 main_v95 (by decide)).trans (val5_v95 V0)
theorem val7_v95 (V0 : Valuation τ sig (Elt F)) : val7 V0 (Proc.devRef .tc main_v95) = val_v95 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  (val7_keep V0 main_v95 (by decide)).trans (val6_v95 V0)
theorem val8_v95 (V0 : Valuation τ sig (Elt F)) : val8 V0 (Proc.devRef .tc main_v95) = val_v95 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  (val8_keep V0 main_v95 (by decide)).trans (val7_v95 V0)
theorem val9_v95 (V0 : Valuation τ sig (Elt F)) : val9 V0 (Proc.devRef .tc main_v95) = val_v95 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  (val9_keep V0 main_v95 (by decide)).trans (val8_v95 V0)

theorem val5_v99 (V0 : Valuation τ sig (Elt F)) : val5 V0 (Proc.devRef .tc main_v99) = val_v99 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) :=
  chunk4_v99 (val4 V0) (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (val4_v71 V0) (val4_arg6 V0) (val4_arg7 V0) (val4_arg8 V0) (val4_arg9 V0) (val4_arg10 V0) (val4_arg11 V0) (val4_arg12 V0) (val4_arg13 V0)

theorem val6_v107 (V0 : Valuation τ sig (Elt F)) : val6 V0 (Proc.devRef .tc main_v107) = val_v107 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  chunk5_v107 (val5 V0) (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (val5_arg2 V0) (val5_v14 V0) (val5_v99 V0) (val5_arg14 V0)

theorem val7_v119 (V0 : Valuation τ sig (Elt F)) : val7 V0 (Proc.devRef .tc main_v119) = val_v119 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  chunk6_v119 (val6 V0) (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (val6_arg1 V0) (val6_v107 V0) (val6_arg2 V0)
theorem val8_v119 (V0 : Valuation τ sig (Elt F)) : val8 V0 (Proc.devRef .tc main_v119) = val_v119 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  (val8_keep V0 main_v119 (by decide)).trans (val7_v119 V0)
theorem val9_v119 (V0 : Valuation τ sig (Elt F)) : val9 V0 (Proc.devRef .tc main_v119) = val_v119 (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) :=
  (val9_keep V0 main_v119 (by decide)).trans (val8_v119 V0)

theorem val7_v127 (V0 : Valuation τ sig (Elt F)) : val7 V0 (Proc.devRef .tc main_v127) = val_v127 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg15)) (V0 (Proc.devRef .tc main_arg16)) :=
  chunk6_v127 (val6 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg15)) (V0 (Proc.devRef .tc main_arg16)) (val6_arg0 V0) (val6_arg2 V0) (val6_v95 V0) (val6_arg4 V0) (val6_arg15 V0) (val6_arg16 V0)

theorem val8_v147 (V0 : Valuation τ sig (Elt F)) : val8 V0 (Proc.devRef .tc main_v147) = val_v147 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg15)) (V0 (Proc.devRef .tc main_arg16)) (V0 (Proc.devRef .tc main_arg17)) (V0 (Proc.devRef .tc main_arg18)) :=
  chunk7_v147 (val7 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg15)) (V0 (Proc.devRef .tc main_arg16)) (V0 (Proc.devRef .tc main_arg17)) (V0 (Proc.devRef .tc main_arg18)) (val7_v127 V0) (val7_arg17 V0) (val7_arg18 V0)

theorem val9_v152 (V0 : Valuation τ sig (Elt F)) : val9 V0 (Proc.devRef .tc main_v152) = val_v152 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) :=
  chunk8_v152 (val8 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (val8_arg0 V0) (val8_v147 V0) (val8_arg19 V0) (val8_arg20 V0)

/-- On every device, for any float values, from any memory with zero counters: every weakly fair execution of @main
    terminates with each result at its value of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v152) = res_h (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v119) = res_x (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v95) = res_m (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c main_v152).trans (by simp only [after_ops]; exact val9_v152 (launchContents m c)),
      (h c main_v119).trans (by simp only [after_ops]; exact val9_v119 (launchContents m c)),
      (h c main_v95).trans (by simp only [after_ops]; exact val9_v95 (launchContents m c)),
      (h c main_arg0).trans (by simp only [after_ops]; exact val9_arg0 (launchContents m c)),
      (h c main_arg1).trans (by simp only [after_ops]; exact val9_arg1 (launchContents m c)),
      (h c main_arg2).trans (by simp only [after_ops]; exact val9_arg2 (launchContents m c)),
      (h c main_arg3).trans (by simp only [after_ops]; exact val9_arg3 (launchContents m c)),
      (h c main_arg4).trans (by simp only [after_ops]; exact val9_arg4 (launchContents m c)),
      (h c main_arg5).trans (by simp only [after_ops]; exact val9_arg5 (launchContents m c)),
      (h c main_arg6).trans (by simp only [after_ops]; exact val9_arg6 (launchContents m c)),
      (h c main_arg7).trans (by simp only [after_ops]; exact val9_arg7 (launchContents m c)),
      (h c main_arg8).trans (by simp only [after_ops]; exact val9_arg8 (launchContents m c)),
      (h c main_arg9).trans (by simp only [after_ops]; exact val9_arg9 (launchContents m c)),
      (h c main_arg10).trans (by simp only [after_ops]; exact val9_arg10 (launchContents m c)),
      (h c main_arg11).trans (by simp only [after_ops]; exact val9_arg11 (launchContents m c)),
      (h c main_arg12).trans (by simp only [after_ops]; exact val9_arg12 (launchContents m c)),
      (h c main_arg13).trans (by simp only [after_ops]; exact val9_arg13 (launchContents m c)),
      (h c main_arg14).trans (by simp only [after_ops]; exact val9_arg14 (launchContents m c)),
      (h c main_arg15).trans (by simp only [after_ops]; exact val9_arg15 (launchContents m c)),
      (h c main_arg16).trans (by simp only [after_ops]; exact val9_arg16 (launchContents m c)),
      (h c main_arg17).trans (by simp only [after_ops]; exact val9_arg17 (launchContents m c)),
      (h c main_arg18).trans (by simp only [after_ops]; exact val9_arg18 (launchContents m c)),
      (h c main_arg19).trans (by simp only [after_ops]; exact val9_arg19 (launchContents m c)),
      (h c main_arg20).trans (by simp only [after_ops]; exact val9_arg20 (launchContents m c))⟩)
    (run_seq scopedRefs_eq scopedSems_eq defs main (fun _ => ops) main_eq (fun _ => ops_sub) m ρ)

/-- The same run, read at the arguments only: every weakly fair execution terminates and leaves them unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => (h c).2.2.2) (run m ρ)

end Cert.ReferenceIdeal.RefRun

end
-- ==== Proof.PFrameRef.lean ====
/- The reference's frame claim with the witnesses the certificate binds: from its run, at the ideal floats. -/
import proofs.«110093_j8770323219157_1_alg».proof.Defs
import proofs.«110093_j8770323219157_1_alg».proof.Proof.Gen.ReferenceIdeal
import proofs.«110093_j8770323219157_1_alg».proof.Proof.Gen.Pre_finite_inputs
import proofs.«110093_j8770323219157_1_alg».proof.Proof.RefRun

noncomputable section

namespace Cert.Proof.Parts

open Idealize.ShloMosaic Idealize.SL.Sem

/-- `ReferenceIdeal` runs and its argument arrays end unchanged. -/
theorem frame_ri : Cert.frame_ReferenceIdeal (hReferenceIdeal := Cert.ReferenceIdeal.Gen.facts)
    (hPre_finite_inputs := Cert.Pre_finite_inputs.Gen.facts) :=
  fun m g _ => Cert.ReferenceIdeal.RefRun.frame (F := Ideal) m g

end Cert.Proof.Parts

end
-- ==== Proof.PPreserves.lean ====
/-
  The idealized kernel is the kernel's sanctioned idealization: one statement per rewrite the ideal pass applied — four
  sign-bit reads (1.0 carrying a value's sign, printed as a select on the comparison with zero) and four named
  reciprocals (the words of f32(1/800000) and f32(1/50000), read as the exact fractions the source spells).
-/
import proofs.«110093_j8770323219157_1_alg».proof.Defs

noncomputable section

namespace Cert.Proof.Parts

open Idealize.ShloMosaic

theorem preserves : Cert.preserves_Kernel_KernelIdeal :=
  ⟨IdealRules.sign_bit.statement _ _, IdealRules.sign_bit.statement _ _,
   IdealRules.named_const.statement Cert.KernelIdeal.κ "inv_800000" .f32 0x35A7C5AC#32 ((1 / 800000 : ℝ) : EReal) rfl,
   IdealRules.named_const.statement Cert.KernelIdeal.κ "inv_800000" .f32 0x35A7C5AC#32 ((1 / 800000 : ℝ) : EReal) rfl,
   IdealRules.sign_bit.statement _ _, IdealRules.sign_bit.statement _ _,
   IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl⟩

end Cert.Proof.Parts

end
-- ==== Proof.KData.lean ====
import proofs.«110093_j8770323219157_1_alg».proof.Proof.Gen.KernelIdeal.Launch
import proofs.«110093_j8770323219157_1_alg».proof.Proof.Gen.KernelIdeal.Skeleton
import proofs.«110093_j8770323219157_1_alg».proof.Proof.Gen.KernelIdeal.Points
import proofs.«110093_j8770323219157_1_alg».proof.Proof.Gen.KernelIdeal.Regions
import Idealize.ShloMosaic.Lib.Pipeline.FrameBody
import Idealize.ShloMosaic.Lib.Pipeline.Frame
import Idealize.ShloMosaic.Lib.Pipeline.Regions
import Idealize.ShloMosaic.Lib.Pipeline.Kit
import Idealize.ShloMosaic.Lib.Tactic

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- A TensorCore's buffer contents, per core: what a region's proof data are stated at. -/
abbrev VT (F : FTy → Type) [FloatOps F] : Type := (c : Dev nD) → (b : Ref sig .tc) → Buf (Elt F) ((c : Thread nD τ).loc b)

section Regions
variable (V : VT F)

/-! # Region 0: the edge statistics (grid 400; sum and sum of squares carried in two scratch rows) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's accumulation: the pair (sum, sum of squares) after the body at point `t`, from the pair before it. -/
def step0 (c : Dev nD) (t : Fin cfg0.N) (a : Vec F S1x64 .f32 × Vec F S1x64 .f32) : Vec F S1x64 .f32 × Vec F S1x64 .f32 :=
  (k0_pay2 (k0_pay8 (iblk0 V c 0 t)) (k0_pay9 (iblk0 V c 1 t)) (k0_pay12 (iblk0 V c 2 t) (iblk0 V c 3 t)) (k0_pay13 (iblk0 V c 2 t) (iblk0 V c 3 t)) (iblk0 V c 4 t) a.1,
   k0_pay3 (k0_pay8 (iblk0 V c 0 t)) (k0_pay9 (iblk0 V c 1 t)) (k0_pay12 (iblk0 V c 2 t) (iblk0 V c 3 t)) (k0_pay13 (iblk0 V c 2 t) (iblk0 V c 3 t)) (iblk0 V c 4 t) a.2)

/-- The two scratch rows after `n` points: zeroed at the first point, then one `step0` per point. -/
def acc0 (c : Dev nD) : ℕ → Vec F S1x64 .f32 × Vec F S1x64 .f32
  | 0 => (k0_pay6, k0_pay7)
  | n + 1 => if h : n < cfg0.N then step0 V c ⟨n, h⟩ (acc0 c n) else acc0 c n

theorem acc0_zero (c : Dev nD) : acc0 V c 0 = (k0_pay6, k0_pay7) := rfl
theorem acc0_succ (c : Dev nD) (t : Fin cfg0.N) : acc0 V c (t.val + 1) = step0 V c t (acc0 V c t.val) := by
  obtain ⟨n, hn⟩ := t; exact dif_pos hn

/-- The mean row and the variance row the last point stores, from the accumulated pair. -/
def mean0 (c : Dev nD) (n : ℕ) : Vec F S1x64 .f32 := k0_pay4 (acc0 V c n).1
def var0 (c : Dev nD) (n : ℕ) : Vec F S1x64 .f32 := k0_pay5 (acc0 V c n).1 (acc0 V c n).2

/-- The region invariant before position `n`: before the first point every scoped buffer that is no staging buffer at
    anything; afterwards the two scratch rows at the accumulated pair, the other such buffers at anything; the generator
    register at some state throughout. -/
def Phi0 (c : Dev nD) : ℕ → sProp 𝕄
  | 0 => Pipeline.ΦA spec0 c
  | n + 1 => iprop((owns (c : Thread nD τ) (Memref.whole cc0_scratch0) fullShare (acc0 V c (n + 1)).1
        ∗ owns (c : Thread nD τ) (Memref.whole cc0_scratch1) fullShare (acc0 V c (n + 1)).2)
      ∗ Pipeline.scopedRestBut (Ix := Unit) (Name := ℕ) (U := UR sig nD τ) (Lvl := ℕ) (Val := Elt F) spec0 c [cc0_scratch0, cc0_scratch1]
      ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => mean0 V c (t.val + 1)
    | ⟨6, _⟩ => var0 V c (t.val + 1)
  Φ t := Phi0 V c t.val
  q _ := fullShare
  owed _ := 0

/-! # Region 1: the edge MLP (grid 400; a function of the point's blocks alone) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden activation of the edge MLP at point `t` (the value both outputs are computed from). -/
def hid1 (c : Dev nD) (t : Fin cfg1.N) : Vec F S2000x64 .f32 :=
  k1_pay11 (k1_pay1 (iblk1 V c 0 t)) (k1_pay2 (iblk1 V c 1 t)) (k1_pay6 (iblk1 V c 2 t) (iblk1 V c 3 t)) (k1_pay7 (iblk1 V c 2 t) (iblk1 V c 3 t)) (k1_pay8 (iblk1 V c 2 t) (iblk1 V c 3 t)) (k1_pay9 (iblk1 V c 2 t) (iblk1 V c 3 t)) (k1_pay10 (F := F))
    (iblk1 V c 4 t) (iblk1 V c 9 t) (iblk1 V c 10 t) (iblk1 V c 5 t) (iblk1 V c 6 t) (iblk1 V c 7 t) (iblk1 V c 8 t)
/-- What the body leaves in the message window (16) and in the translation window (17) at point `t`. -/
def out1_16 (c : Dev nD) (t : Fin cfg1.N) : Vec F S2000x64 .f32 := k1_pay12 (hid1 V c t) (iblk1 V c 11 t) (iblk1 V c 12 t)
def out1_17 (c : Dev nD) (t : Fin cfg1.N) : Vec F S2000x4 .f32 :=
  k1_pay13 (k1_pay5 (iblk1 V c 2 t) (iblk1 V c 3 t)) (hid1 V c t) (iblk1 V c 11 t) (iblk1 V c 12 t) (iblk1 V c 13 t) (iblk1 V c 14 t) (iblk1 V c 15 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 V c t
    | ⟨17, _⟩ => out1_17 V c t
    | ⟨_ + 18, h⟩ => absurd h (Nat.not_lt.2 (Nat.le_add_left _ _))
  Φ _ := Pipeline.ΦA spec1 c
  q _ := fullShare
  owed _ := 0

/-! # Region 2: the node statistics (grid 25; the same carried pair) -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def step2 (c : Dev nD) (t : Fin cfg2.N) (a : Vec F S1x64 .f32 × Vec F S1x64 .f32) : Vec F S1x64 .f32 × Vec F S1x64 .f32 :=
  (k2_pay6 (iblk2 V c 0 t) (iblk2 V c 1 t) (iblk2 V c 2 t) (iblk2 V c 3 t) (iblk2 V c 4 t) a.1,
   k2_pay7 (iblk2 V c 0 t) (iblk2 V c 1 t) (iblk2 V c 2 t) (iblk2 V c 3 t) (iblk2 V c 4 t) a.2)

def acc2 (c : Dev nD) : ℕ → Vec F S1x64 .f32 × Vec F S1x64 .f32
  | 0 => (k2_pay3, k2_pay4)
  | n + 1 => if h : n < cfg2.N then step2 V c ⟨n, h⟩ (acc2 c n) else acc2 c n

theorem acc2_zero (c : Dev nD) : acc2 V c 0 = (k2_pay3, k2_pay4) := rfl
theorem acc2_succ (c : Dev nD) (t : Fin cfg2.N) : acc2 V c (t.val + 1) = step2 V c t (acc2 V c t.val) := by
  obtain ⟨n, hn⟩ := t; exact dif_pos hn

def mean2 (c : Dev nD) (n : ℕ) : Vec F S1x64 .f32 := k2_pay1 (acc2 V c n).1
def var2 (c : Dev nD) (n : ℕ) : Vec F S1x64 .f32 := k2_pay2 (acc2 V c n).1 (acc2 V c n).2

def Phi2 (c : Dev nD) : ℕ → sProp 𝕄
  | 0 => Pipeline.ΦA spec2 c
  | n + 1 => iprop((owns (c : Thread nD τ) (Memref.whole cc2_scratch0) fullShare (acc2 V c (n + 1)).1
        ∗ owns (c : Thread nD τ) (Memref.whole cc2_scratch1) fullShare (acc2 V c (n + 1)).2)
      ∗ Pipeline.scopedRestBut (Ix := Unit) (Name := ℕ) (U := UR sig nD τ) (Lvl := ℕ) (Val := Elt F) spec2 c [cc2_scratch0, cc2_scratch1]
      ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => mean2 V c (t.val + 1)
    | ⟨6, _⟩ => var2 V c (t.val + 1)
  Φ t := Phi2 V c t.val
  q _ := fullShare
  owed _ := 0

/-! # Region 3: the node MLP (grid 25; a function of the point's blocks alone) -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output window (11) at point `t`. -/
def out3_11 (c : Dev nD) (t : Fin cfg3.N) : Vec F S2000x64 .f32 :=
  k3_pay1 (iblk3 V c 0 t) (k3_pay2 (iblk3 V c 0 t) (iblk3 V c 1 t) (iblk3 V c 2 t) (iblk3 V c 3 t) (iblk3 V c 4 t) (iblk3 V c 7 t) (iblk3 V c 8 t) (iblk3 V c 5 t) (iblk3 V c 6 t)) (iblk3 V c 9 t) (iblk3 V c 10 t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 V c t
  Φ _ := Pipeline.ΦA spec3 c
  q _ := fullShare
  owed _ := 0

end Regions

/-! # What the regions leave, and the proof data at the run's own contents -/

variable (m : (ℓ : Loc nD τ sig) → Buf (Elt F) ℓ)

/-- Contents for a buffer no region's output: never read. -/
def obase : (r : Ref sig .tc) → (c : Dev nD) → Buf (Elt F) ((c : Thread nD τ).loc r) := fun r c => m ((c : Thread nD τ).loc r)

/-- Region 0's entry contents. -/
abbrev Vin0 : VT F := fun c b => V1 m c b
/-- What region 0 leaves in its two output arrays. -/
def o2 : (r : Ref sig .tc) → (c : Dev nD) → Buf (Elt F) ((c : Thread nD τ).loc r) :=
  Function.update (Function.update (obase m) main_v37_0 (fun c => (dat0 (Vin0 m) c).arrAt 5 cfg0.N)) main_v37_1 (fun c => (dat0 (Vin0 m) c).arrAt 6 cfg0.N)
/-- Region 1's entry contents. -/
abbrev Vin1 : VT F := fun c b => V2 m (fun _ => o2 m) c b
def o3 : (r : Ref sig .tc) → (c : Dev nD) → Buf (Elt F) ((c : Thread nD τ).loc r) :=
  Function.update (Function.update (obase m) main_v38_0 (fun c => (dat1 (Vin1 m) c).arrAt 16 cfg1.N)) main_v38_1 (fun c => (dat1 (Vin1 m) c).arrAt 17 cfg1.N)
/-- Region 2's entry contents. -/
abbrev Vin2 : VT F := fun c b => V4 m (fun | 3 => o3 m | _ => o2 m) c b
def o5 : (r : Ref sig .tc) → (c : Dev nD) → Buf (Elt F) ((c : Thread nD τ).loc r) :=
  Function.update (Function.update (obase m) main_v57_0 (fun c => (dat2 (Vin2 m) c).arrAt 5 cfg2.N)) main_v57_1 (fun c => (dat2 (Vin2 m) c).arrAt 6 cfg2.N)
/-- Region 3's entry contents. -/
abbrev Vin3 : VT F := fun c b => V5 m (fun | 3 => o3 m | 5 => o5 m | _ => o2 m) c b
def o6 : (r : Ref sig .tc) → (c : Dev nD) → Buf (Elt F) ((c : Thread nD τ).loc r) :=
  Function.update (obase m) main_v58 (fun c => (dat3 (Vin3 m) c).arrAt 11 cfg3.N)

/-- What the regions leave in their output arrays: the unknowns of the generated valuations, instantiated. -/
def outs : Gen.Outs (F := F) := fun
  | 3 => o3 m
  | 5 => o5 m
  | 6 => o6 m
  | _ => o2 m

theorem Vin1_eq : (fun c b => V2 m (outs m) c b : VT F) = Vin1 m := rfl
theorem Vin2_eq : (fun c b => V4 m (outs m) c b : VT F) = Vin2 m := rfl
theorem Vin3_eq : (fun c b => V5 m (outs m) c b : VT F) = Vin3 m := rfl

/-- Every pipeline's proof data, each at its region's entry contents: a literal match on the pipeline. -/
def pdats : (p : Fin 4) → (c : Dev nD) → Dat τ (Elt F) Unit ℕ (UR sig nD τ) ℕ (cfgs p) c
  | ⟨0, _⟩ => fun c => dat0 (fun c b => V1 m c b) c
  | ⟨1, _⟩ => fun c => dat1 (fun c b => V2 m (outs m) c b) c
  | ⟨2, _⟩ => fun c => dat2 (fun c b => V4 m (outs m) c b) c
  | ⟨3, _⟩ => fun c => dat3 (fun c b => V5 m (outs m) c b) c

end Cert.KernelIdeal.KRun

end
-- ==== Proof.KLemmas.lean ====
import Idealize.ShloMosaic.Lib.Pipeline.FrameBody
import proofs.«110093_j8770323219157_1_alg».proof.Proof.Gen.KernelIdeal
import proofs.«110093_j8770323219157_1_alg».proof.Proof.Gen.KernelIdeal.Regions
import Idealize.ShloMosaic.Lib.Pipeline.Regions
import Idealize.ShloMosaic.Lib.Pipeline.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- A store through the whole-shape unit rectangle at offset zero reads back as its payload, whatever was there. -/
theorem read_writes_full {sig' : RefSig} {κ : Kind} {sp : Space} {s : Shape} {e : EltTy} {Val : EltTy → Type} [∀ e, Nonempty (Val e)]
    (v : View sig' κ sp s e) (f : v.ty.Contents Val) (off : Fin s.rank → ℕ) (hoff : ∀ a, off a = 0)
    (inb : ∀ a, off a + s.size a ≤ s.size a) (p : (Rect.unit off s.size inb).shape.Idx → Val e) :
    v.read Val (v.writes Val f [⟨Rect.unit off s.size inb, p⟩]) = p := by
  funext y
  have hy : y ∈ (Rect.unit off s.size inb).set :=
    Rect.mem_set_unit.mpr fun a => ⟨by rw [hoff]; exact Nat.zero_le _, by rw [hoff, Nat.zero_add]; exact (y a).isLt⟩
  obtain ⟨x, rfl⟩ := (Rect.unit off s.size inb).exists_idx_of_mem hy
  refine (View.read_writes_cons_emb (v := v) (f := f) (Rect.unit off s.size inb) p [] x).trans ?_
  congr 1
  funext a
  apply Fin.ext
  simp [LoadRect.idx_apply, hoff]

/-- A load through the whole-shape unit rectangle at offset zero reads the contents as they are. -/
theorem readAt_full {sig' : RefSig} {κ : Kind} {sp : Space} {s : Shape} {e : EltTy} {Val : EltTy → Type}
    (v : View sig' κ sp s e) (f : v.ty.Contents Val) (off : Fin s.rank → ℕ) (hoff : ∀ a, off a = 0)
    (inb : ∀ a, off a + s.size a ≤ s.size a) :
    v.readAt Val (Rect.unit off s.size inb).toLoadRect f = v.read Val f := by
  funext x
  show v.read Val f ((Rect.unit off s.size inb).idx x) = v.read Val f x
  congr 1
  funext a
  apply Fin.ext
  simp [LoadRect.idx_apply, hoff]

theorem off00 : ∀ a : Fin 2, (![0, 0] : Fin 2 → ℕ) a = 0 := by decide

/-! The run's fixed choices: no variant, no level assigned (no core owes another anything). -/

abbrev 𝒱₀ : Variants := Variants.none
abbrev L : GSem nD τ sig → Finset Unit := fun _ => ∅
abbrev lv : GSem nD τ sig → Unit → ℕ := fun _ _ => 0
/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.KRun

end
-- ==== Proof.KBody0.lean ====
import proofs.«110093_j8770323219157_1_alg».proof.Proof.KData
import proofs.«110093_j8770323219157_1_alg».proof.Proof.KLemmas
import Idealize.ShloMosaic.Lib.Exec

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : VT F)

/-! ## Reading back through whole-shape rectangles -/

/-- A store through the whole-shape unit rectangle reads back as its payload, whatever the earlier stores were. -/
theorem read_writes_full_cons0 {sig' : RefSig} {κ : Kind} {sp : Space} {s : Shape} {e : EltTy} {Val : EltTy → Type} [∀ e, Nonempty (Val e)]
    (v : View sig' κ sp s e) (f : v.ty.Contents Val) (off : Fin s.rank → ℕ) (hoff : ∀ a, off a = 0)
    (inb : ∀ a, off a + s.size a ≤ s.size a) (p : (Rect.unit off s.size inb).shape.Idx → Val e) (L : List (View.Piece Val s e)) :
    v.read Val (v.writes Val f (⟨Rect.unit off s.size inb, p⟩ :: L)) = p := by
  funext y
  have hy : y ∈ (Rect.unit off s.size inb).set :=
    Rect.mem_set_unit.mpr fun a => ⟨by rw [hoff]; exact Nat.zero_le _, by rw [hoff, Nat.zero_add]; exact (y a).isLt⟩
  obtain ⟨x, rfl⟩ := (Rect.unit off s.size inb).exists_idx_of_mem hy
  refine (View.read_writes_cons_emb (v := v) (f := f) (Rect.unit off s.size inb) p L x).trans ?_
  congr 1
  funext a
  apply Fin.ext
  simp [LoadRect.idx_apply, hoff]

/-- A whole-shape load after a whole-shape store reads the store's payload. -/
theorem readCov_full0 {sig' : RefSig} {κ : Kind} {sp : Space} {s : Shape} {e : EltTy} {Val : EltTy → Type} [∀ e, Nonempty (Val e)]
    (v : View sig' κ sp s e) (off : Fin s.rank → ℕ) (hoff : ∀ a, off a = 0)
    (inb : ∀ a, off a + s.size a ≤ s.size a) (p : (Rect.unit off s.size inb).shape.Idx → Val e) (L : List (View.Piece Val s e)) :
    v.readCov (⟨Rect.unit off s.size inb, p⟩ :: L) (Rect.unit off s.size inb).toLoadRect = p := by
  unfold View.readCov
  rw [readAt_full v _ off hoff inb, read_writes_full_cons0 v _ off hoff inb p L]

/-! ## The proof data projected -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem after0_3 (c : Dev nD) (t : Fin cfg0.N) : (dat0 V c).after 3 t = iblk0 V c 3 t := by dsimp only [dat0]
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem after0_4 (c : Dev nD) (t : Fin cfg0.N) : (dat0 V c).after 4 t = iblk0 V c 4 t := by dsimp only [dat0]
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem after0_5 (c : Dev nD) (t : Fin cfg0.N) : (dat0 V c).after 5 t = mean0 V c (t.val + 1) := by dsimp only [dat0]
theorem after0_6 (c : Dev nD) (t : Fin cfg0.N) : (dat0 V c).after 6 t = var0 V c (t.val + 1) := by dsimp only [dat0]

theorem Phi0_succ (c : Dev nD) (n : ℕ) : Phi0 V c (n + 1)
    = iprop((owns (c : Thread nD τ) (Memref.whole cc0_scratch0) fullShare (acc0 V c (n + 1)).1
        ∗ owns (c : Thread nD τ) (Memref.whole cc0_scratch1) fullShare (acc0 V c (n + 1)).2)
      ∗ Pipeline.scopedRestBut (Ix := Unit) (Name := ℕ) (U := UR sig nD τ) (Lvl := ℕ) (Val := Elt F) spec0 c [cc0_scratch0, cc0_scratch1]
      ∗ ∃ r, prngReg c r) := rfl
theorem Phi0_pos (c : Dev nD) (n : ℕ) (h : n ≠ 0) : Phi0 V c n
    = iprop((owns (c : Thread nD τ) (Memref.whole cc0_scratch0) fullShare (acc0 V c n).1
        ∗ owns (c : Thread nD τ) (Memref.whole cc0_scratch1) fullShare (acc0 V c n).2)
      ∗ Pipeline.scopedRestBut (Ix := Unit) (Name := ℕ) (U := UR sig nD τ) (Lvl := ℕ) (Val := Elt F) spec0 c [cc0_scratch0, cc0_scratch1]
      ∗ ∃ r, prngReg c r) := by
  cases n with
  | zero => exact absurd rfl h
  | succ n => rfl

/-! ## The two conditions on the grid point -/

/-- The first point's condition, as the kernel computes it, -/
abbrev condF0 (i : grid0.Coords) : Prop := (Scalar.cmpi .ne (Scalar.extui (Scalar.cmpi .eq (BitVec.ofNat 32 (i 0).val) 0#32)) 0#32) = 1#1
/-- and the last point's. -/
abbrev condL0 (i : grid0.Coords) : Prop := k0_cond2 i = 1#1

theorem hcondF0 : ∀ t : Fin cfg0.N, condF0 (grid0.coords t) ↔ t.val = 0 :=
  (by decide +kernel : ∀ t : Fin grid0.N, condF0 (grid0.coords t) ↔ t.val = 0)
theorem hcondL0 : ∀ t : Fin cfg0.N, condL0 (grid0.coords t) ↔ t.val = 399 :=
  (by decide +kernel : ∀ t : Fin grid0.N, condL0 (grid0.coords t) ↔ t.val = 399)
theorem idle0_5 : ∀ t : Fin cfg0.N, t.val ≠ 399 → cfg0.idle 5 (grid0.coords t) = true :=
  (by decide +kernel : ∀ t : Fin grid0.N, t.val ≠ 399 → cfg0.idle 5 (grid0.coords t) = true)
theorem idle0_6 : ∀ t : Fin cfg0.N, t.val ≠ 399 → cfg0.idle 6 (grid0.coords t) = true :=
  (by decide +kernel : ∀ t : Fin grid0.N, t.val ≠ 399 → cfg0.idle 6 (grid0.coords t) = true)
theorem live0_5 : ∀ t : Fin cfg0.N, t.val = 399 → cfg0.idle 5 (grid0.coords t) = false :=
  (by decide +kernel : ∀ t : Fin grid0.N, t.val = 399 → cfg0.idle 5 (grid0.coords t) = false)
theorem live0_6 : ∀ t : Fin cfg0.N, t.val = 399 → cfg0.idle 6 (grid0.coords t) = false :=
  (by decide +kernel : ∀ t : Fin grid0.N, t.val = 399 → cfg0.idle 6 (grid0.coords t) = false)
theorem noflush0_5 (t : Fin cfg0.N) (h : t.val ≠ 399) : (cfg0.win 5).flush t = false := by
  have hN : t.val < 400 := lt_of_lt_of_eq t.isLt (show cfg0.N = 400 from N_0)
  cases hf : (cfg0.win 5).flush t with
  | false => rfl
  | true => exact absurd ((flush0_5 t).mp hf) (by omega)
theorem noflush0_6 (t : Fin cfg0.N) (h : t.val ≠ 399) : (cfg0.win 6).flush t = false := by
  have hN : t.val < 400 := lt_of_lt_of_eq t.isLt (show cfg0.N = 400 from N_0)
  cases hf : (cfg0.win 6).flush t with
  | false => rfl
  | true => exact absurd ((flush0_6 t).mp hf) (by omega)

/-! ## The kernel's triples, by case of the point -/

set_option maxHeartbeats 4000000 in
/-- FIRST point: the scratch rows, at anything, are zeroed and then take the point's contribution. -/
theorem sound_kernel0_A (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x4 .f32) (harg3 : arg3.IsWhole) (arg4 : Memref sig .tc .vmem S2000x4 .f32) (harg4 : arg4.IsWhole) (arg5 : Memref sig .tc .vmem S130x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : condF0 i) (hL : ¬ condL0 i)
    (x0 : Vec F S2000x64 .f32) (x1 : Vec F S2000x64 .f32) (x2 : Vec F S2000x4 .f32) (x3 : Vec F S2000x4 .f32) (x4 : Vec F S130x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k0_pay2 (k0_pay8 x0) (k0_pay9 x1) (k0_pay12 x2 x3) (k0_pay13 x2 x3) x4 (k0_pay6 (F := F))) ∗ owns (c : Thread nD τ) arg9 fullShare (k0_pay3 (k0_pay8 x0) (k0_pay9 x1) (k0_pay12 x2 x3) (k0_pay13 x2 x3) x4 (k0_pay7 (F := F)))) -∗ K ⟨⟩))
      ⊢ wp frame (wpE (defs₀ (F := F)) Variants.none c none) E (cc0__edge_stats_kernel i arg1 harg1 arg2 harg2 arg3 harg3 arg4 harg4 arg5 harg5 arg6 harg6 arg7 harg7 arg8 harg8 arg9 harg9) K := by
  sl_unfold [cc0__edge_stats_kernel]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (read_writes_full_cons0 arg8.view _ ![0, 0] off00 _ _ _).trans ?_
    show k0_pay2 (k0_pay8 (View.readAt (Elt F) arg1.view (Rect.unit (s := S2000x64) ![0, 0] S2000x64.size inb_S2000x64_S2000x64_0_0).toLoadRect f0)) (k0_pay9 (View.readAt (Elt F) arg2.view (Rect.unit (s := S2000x64) ![0, 0] S2000x64.size inb_S2000x64_S2000x64_0_0).toLoadRect f1)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay13 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (arg8.view.readCov [⟨(Rect.unit (s := S1x64) ![0, 0] S1x64.size inb_S1x64_S1x64_0_0), (k0_pay6 (F := F))⟩] (Rect.unit (s := S1x64) ![0, 0] S1x64.size inb_S1x64_S1x64_0_0).toLoadRect) = _
    rw [readCov_full0 arg8.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00]
  iexists _; isplitr
  swap; · iexact H8
  ipureintro
  refine (read_writes_full_cons0 arg9.view _ ![0, 0] off00 _ _ _).trans ?_
  show k0_pay3 (k0_pay8 (View.readAt (Elt F) arg1.view (Rect.unit (s := S2000x64) ![0, 0] S2000x64.size inb_S2000x64_S2000x64_0_0).toLoadRect f0)) (k0_pay9 (View.readAt (Elt F) arg2.view (Rect.unit (s := S2000x64) ![0, 0] S2000x64.size inb_S2000x64_S2000x64_0_0).toLoadRect f1)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay13 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (arg9.view.readCov [⟨(Rect.unit (s := S1x64) ![0, 0] S1x64.size inb_S1x64_S1x64_0_0), (k0_pay7 (F := F))⟩] (Rect.unit (s := S1x64) ![0, 0] S1x64.size inb_S1x64_S1x64_0_0).toLoadRect) = _
  rw [readCov_full0 arg9.view ![0, 0] off00]
  simp only [readAt_full arg1.view f0 ![0, 0] off00, readAt_full arg2.view f1 ![0, 0] off00, readAt_full arg3.view f2 ![0, 0] off00, readAt_full arg4.view f3 ![0, 0] off00, readAt_full arg5.view f4 ![0, 0] off00]

set_option maxHeartbeats 4000000 in
/-- A MIDDLE point: the scratch rows take the point's contribution. -/
theorem sound_kernel0_B (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x4 .f32) (harg3 : arg3.IsWhole) (arg4 : Memref sig .tc .vmem S2000x4 .f32) (harg4 : arg4.IsWhole) (arg5 : Memref sig .tc .vmem S130x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : ¬ condF0 i) (hL : ¬ condL0 i)
    (x0 : Vec F S2000x64 .f32) (x1 : Vec F S2000x64 .f32) (x2 : Vec F S2000x4 .f32) (x3 : Vec F S2000x4 .f32) (x4 : Vec F S130x64 .f32) (s1 s2 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k0_pay2 (k0_pay8 x0) (k0_pay9 x1) (k0_pay12 x2 x3) (k0_pay13 x2 x3) x4 s1) ∗ owns (c : Thread nD τ) arg9 fullShare (k0_pay3 (k0_pay8 x0) (k0_pay9 x1) (k0_pay12 x2 x3) (k0_pay13 x2 x3) x4 s2)) -∗ K ⟨⟩))
      ⊢ wp frame (wpE (defs₀ (F := F)) Variants.none c none) E (cc0__edge_stats_kernel i arg1 harg1 arg2 harg2 arg3 harg3 arg4 harg4 arg5 harg5 arg6 harg6 arg7 harg7 arg8 harg8 arg9 harg9) K := by
  sl_unfold [cc0__edge_stats_kernel]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  subst hf0 hf1 hf2 hf3 hf4 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (read_writes_full_cons0 arg8.view _ ![0, 0] off00 _ _ _).trans ?_
    show k0_pay2 (k0_pay8 (View.readAt (Elt F) arg1.view (Rect.unit (s := S2000x64) ![0, 0] S2000x64.size inb_S2000x64_S2000x64_0_0).toLoadRect f0)) (k0_pay9 (View.readAt (Elt F) arg2.view (Rect.unit (s := S2000x64) ![0, 0] S2000x64.size inb_S2000x64_S2000x64_0_0).toLoadRect f1)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay13 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg8.view (Rect.unit (s := S1x64) ![0, 0] S1x64.size inb_S1x64_S1x64_0_0).toLoadRect f7) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  iexists _; isplitr
  swap; · iexact H8
  ipureintro
  refine (read_writes_full_cons0 arg9.view _ ![0, 0] off00 _ _ _).trans ?_
  show k0_pay3 (k0_pay8 (View.readAt (Elt F) arg1.view (Rect.unit (s := S2000x64) ![0, 0] S2000x64.size inb_S2000x64_S2000x64_0_0).toLoadRect f0)) (k0_pay9 (View.readAt (Elt F) arg2.view (Rect.unit (s := S2000x64) ![0, 0] S2000x64.size inb_S2000x64_S2000x64_0_0).toLoadRect f1)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay13 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg9.view (Rect.unit (s := S1x64) ![0, 0] S1x64.size inb_S1x64_S1x64_0_0).toLoadRect f8) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]

set_option maxHeartbeats 4000000 in
/-- The LAST point: the scratch rows take the point's contribution, then the two output rows are stored from them. -/
theorem sound_kernel0_C (c : Dev nD) (E : Set ℕ) (i : grid0.Coords) (arg1 : Memref sig .tc .vmem S2000x64 .f32) (harg1 : arg1.IsWhole) (arg2 : Memref sig .tc .vmem S2000x64 .f32) (harg2 : arg2.IsWhole) (arg3 : Memref sig .tc .vmem S2000x4 .f32) (harg3 : arg3.IsWhole) (arg4 : Memref sig .tc .vmem S2000x4 .f32) (harg4 : arg4.IsWhole) (arg5 : Memref sig .tc .vmem S130x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : ¬ condF0 i) (hL : condL0 i)
    (x0 : Vec F S2000x64 .f32) (x1 : Vec F S2000x64 .f32) (x2 : Vec F S2000x4 .f32) (x3 : Vec F S2000x4 .f32) (x4 : Vec F S130x64 .f32) (s1 s2 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay4 (k0_pay2 (k0_pay8 x0) (k0_pay9 x1) (k0_pay12 x2 x3) (k0_pay13 x2 x3) x4 s1)) ∗ owns (c : Thread nD τ) arg7 fullShare (k0_pay5 (k0_pay2 (k0_pay8 x0) (k0_pay9 x1) (k0_pay12 x2 x3) (k0_pay13 x2 x3) x4 s1) (k0_pay3 (k0_pay8 x0) (k0_pay9 x1) (k0_pay12 x2 x3) (k0_pay13 x2 x3) x4 s2))
            ∗ owns (c : Thread nD τ) arg8 fullShare (k0_pay2 (k0_pay8 x0) (k0_pay9 x1) (k0_pay12 x2 x3) (k0_pay13 x2 x3) x4 s1) ∗ owns (c : Thread nD τ) arg9 fullShare (k0_pay3 (k0_pay8 x0) (k0_pay9 x1) (k0_pay12 x2 x3) (k0_pay13 x2 x3) x4 s2)) -∗ K ⟨⟩))
      ⊢ wp frame (wpE (defs₀ (F := F)) Variants.none c none) E (cc0__edge_stats_kernel i arg1 harg1 arg2 harg2 arg3 harg3 arg4 harg4 arg5 harg5 arg6 harg6 arg7 harg7 arg8 harg8 arg9 harg9) K := by
  sl_unfold [cc0__edge_stats_kernel]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0 hf1 hf2 hf3 hf4 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_full_cons0 arg6.view _ ![0, 0] off00 _ _ _).trans ?_
    show k0_pay4 (arg8.view.readCov [⟨(Rect.unit (s := S1x64) ![0, 0] S1x64.size inb_S1x64_S1x64_0_0), k0_pay2 (k0_pay8 (View.readAt (Elt F) arg1.view (Rect.unit (s := S2000x64) ![0, 0] S2000x64.size inb_S2000x64_S2000x64_0_0).toLoadRect f0)) (k0_pay9 (View.readAt (Elt F) arg2.view (Rect.unit (s := S2000x64) ![0, 0] S2000x64.size inb_S2000x64_S2000x64_0_0).toLoadRect f1)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay13 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg8.view (Rect.unit (s := S1x64) ![0, 0] S1x64.size inb_S1x64_S1x64_0_0).toLoadRect f7)⟩] (Rect.unit (s := S1x64) ![0, 0] S1x64.size inb_S1x64_S1x64_0_0).toLoadRect) = _
    rw [readCov_full0 arg8.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  isplitl [H6]
  · iexists _; isplitr
    swap; · iexact H6
    ipureintro
    refine (read_writes_full_cons0 arg7.view _ ![0, 0] off00 _ _ _).trans ?_
    show k0_pay5 (arg8.view.readCov [⟨(Rect.unit (s := S1x64) ![0, 0] S1x64.size inb_S1x64_S1x64_0_0), k0_pay2 (k0_pay8 (View.readAt (Elt F) arg1.view (Rect.unit (s := S2000x64) ![0, 0] S2000x64.size inb_S2000x64_S2000x64_0_0).toLoadRect f0)) (k0_pay9 (View.readAt (Elt F) arg2.view (Rect.unit (s := S2000x64) ![0, 0] S2000x64.size inb_S2000x64_S2000x64_0_0).toLoadRect f1)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay13 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg8.view (Rect.unit (s := S1x64) ![0, 0] S1x64.size inb_S1x64_S1x64_0_0).toLoadRect f7)⟩] (Rect.unit (s := S1x64) ![0, 0] S1x64.size inb_S1x64_S1x64_0_0).toLoadRect) (arg9.view.readCov [⟨(Rect.unit (s := S1x64) ![0, 0] S1x64.size inb_S1x64_S1x64_0_0), k0_pay3 (k0_pay8 (View.readAt (Elt F) arg1.view (Rect.unit (s := S2000x64) ![0, 0] S2000x64.size inb_S2000x64_S2000x64_0_0).toLoadRect f0)) (k0_pay9 (View.readAt (Elt F) arg2.view (Rect.unit (s := S2000x64) ![0, 0] S2000x64.size inb_S2000x64_S2000x64_0_0).toLoadRect f1)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay13 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg9.view (Rect.unit (s := S1x64) ![0, 0] S1x64.size inb_S1x64_S1x64_0_0).toLoadRect f8)⟩] (Rect.unit (s := S1x64) ![0, 0] S1x64.size inb_S1x64_S1x64_0_0).toLoadRect) = _
    rw [readCov_full0 arg8.view ![0, 0] off00, readCov_full0 arg9.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  isplitl [H7]
  · iexists _; isplitr
    swap; · iexact H7
    ipureintro
    refine (read_writes_full_cons0 arg8.view _ ![0, 0] off00 _ _ _).trans ?_
    show k0_pay2 (k0_pay8 (View.readAt (Elt F) arg1.view (Rect.unit (s := S2000x64) ![0, 0] S2000x64.size inb_S2000x64_S2000x64_0_0).toLoadRect f0)) (k0_pay9 (View.readAt (Elt F) arg2.view (Rect.unit (s := S2000x64) ![0, 0] S2000x64.size inb_S2000x64_S2000x64_0_0).toLoadRect f1)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay13 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg8.view (Rect.unit (s := S1x64) ![0, 0] S1x64.size inb_S1x64_S1x64_0_0).toLoadRect f7) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  iexists _; isplitr
  swap; · iexact H8
  ipureintro
  refine (read_writes_full_cons0 arg9.view _ ![0, 0] off00 _ _ _).trans ?_
  show k0_pay3 (k0_pay8 (View.readAt (Elt F) arg1.view (Rect.unit (s := S2000x64) ![0, 0] S2000x64.size inb_S2000x64_S2000x64_0_0).toLoadRect f0)) (k0_pay9 (View.readAt (Elt F) arg2.view (Rect.unit (s := S2000x64) ![0, 0] S2000x64.size inb_S2000x64_S2000x64_0_0).toLoadRect f1)) (k0_pay12 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k0_pay13 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (View.readAt (Elt F) arg5.view (Rect.unit (s := S130x64) ![0, 0] S130x64.size inb_S130x64_S130x64_0_0).toLoadRect f4) (View.readAt (Elt F) arg9.view (Rect.unit (s := S1x64) ![0, 0] S1x64.size inb_S1x64_S1x64_0_0).toLoadRect f8) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (dat0 V c).leavesExact 5 t
    ∗ (dat0 V c).leavesExact 6 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4]
  rw [show (dat0 V c).Φ t.succ = Phi0 V c (t.val + 1) from rfl, show (dat0 V c).Φ t.castSucc = Phi0 V c t.val from rfl, Phi0_succ]
  have hN : t.val < 400 := lt_of_lt_of_eq t.isLt (show cfg0.N = 400 from N_0)
  by_cases h0 : t.val = 0
  · -- the first point
    have hF : condF0 (grid0.coords t) := (hcondF0 t).mpr h0
    have hL : ¬ condL0 (grid0.coords t) := fun h => by have := (hcondL0 t).mp h; omega
    rw [Dat.leavesExact_idle (dat0 V c) 5 t (idle0_5 t (by omega)) (noflush0_5 t (by omega)),
      Dat.leavesExact_idle (dat0 V c) 6 t (idle0_6 t (by omega)) (noflush0_6 t (by omega))]
    rw [acc0_succ V c t, show acc0 V c t.val = (k0_pay6, k0_pay7) from by rw [h0]; rfl,
      show Phi0 V c t.val = Pipeline.ΦA spec0 c from by rw [h0]; rfl]
    unfold step0 Pipeline.ΦA
    rw [scopedRest0_split]
    iintro ⟨⟨⟨⟨⟨%g0, HS0⟩, ⟨%g1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ _ _ _ _ _ _ _ _ _ _ _ _ _ _ _ _ _ _ _ hF hL (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [HS0]; · iexists g0; rw [owns_whole]; iexact HS0
    isplitl [HS1]; · iexists g1; rw [owns_whole]; iexact HS1
    iintro ⟨H0, H1, H2, H3, H4, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 399
    · -- the last point
      have hF : ¬ condF0 (grid0.coords t) := fun h => h0 ((hcondF0 t).mp h)
      have hL : condL0 (grid0.coords t) := (hcondL0 t).mpr h1
      rw [show (dat0 V c).leavesExact 5 t = owns (c : Thread nD τ) (st0_5 t) fullShare ((dat0 V c).after 5 t) from by
          unfold Dat.leavesExact; rw [live0_5 t h1],
        show (dat0 V c).leavesExact 6 t = owns (c : Thread nD τ) (st0_6 t) fullShare ((dat0 V c).after 6 t) from by
          unfold Dat.leavesExact; rw [live0_6 t h1], after0_5, after0_6]
      unfold mean0 var0
      rw [acc0_succ V c t, Phi0_pos V c t.val h0]
      unfold step0
      iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_C c Set.univ _ _ _ _ _ _ _ _ _ _ _ _ _ _ _ _ _ _ _ hF hL (iblk0 V c 0 t) (iblk0 V c 1 t) (iblk0 V c 2 t) (iblk0 V c 3 t) (iblk0 V c 4 t) (acc0 V c t.val).1 (acc0 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hF : ¬ condF0 (grid0.coords t) := fun h => h0 ((hcondF0 t).mp h)
      have hL : ¬ condL0 (grid0.coords t) := fun h => h1 ((hcondL0 t).mp h)
      rw [Dat.leavesExact_idle (dat0 V c) 5 t (idle0_5 t h1) (noflush0_5 t h1),
        Dat.leavesExact_idle (dat0 V c) 6 t (idle0_6 t h1) (noflush0_6 t h1)]
      rw [acc0_succ V c t, Phi0_pos V c t.val h0]
      unfold step0
      iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel0_B c Set.univ _ _ _ _ _ _ _ _ _ _ _ _ _ _ _ _ _ _ _ hF hL (iblk0 V c 0 t) (iblk0 V c 1 t) (iblk0 V c 2 t) (iblk0 V c 3 t) (iblk0 V c 4 t) (acc0 V c t.val).1 (acc0 V c t.val).2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After the last point the invariant gives the class invariant back: the scratch rows' contents are forgotten. -/
theorem Phi0_out (c : Dev nD) (n : ℕ) (h : n ≠ 0) : Phi0 V c n ⊢ Pipeline.ΦA spec0 c := by
  rw [Phi0_pos V c n h]; unfold Pipeline.ΦA; rw [scopedRest0_split]
  iintro ⟨⟨HS0, HS1⟩, Hrest, Hg⟩
  isplitr [Hg]
  · isplitl [HS0 HS1]
    · isplitl [HS0]
      · iexists _; rw [← owns_whole]; iexact HS0
      iexists _; rw [← owns_whole]; iexact HS1
    iexact Hrest
  iexact Hg

end Cert.KernelIdeal.KRun

end
-- ==== Proof.KOuts.lean ====
import proofs.«110093_j8770323219157_1_alg».proof.Proof.KData

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! What the valuations hold at the regions' output arrays: the proof data's final arrays. -/

theorem o2_v37_0 (c : Dev nD) : o2 m main_v37_0 c = (dat0 (Vin0 m) c).arrAt 5 cfg0.N := by
  unfold o2; rw [Function.update_of_ne (by decide), Function.update_self]
theorem o2_v37_1 (c : Dev nD) : o2 m main_v37_1 c = (dat0 (Vin0 m) c).arrAt 6 cfg0.N := by
  unfold o2; rw [Function.update_self]
theorem o3_v38_0 (c : Dev nD) : o3 m main_v38_0 c = (dat1 (Vin1 m) c).arrAt 16 cfg1.N := by
  unfold o3; rw [Function.update_of_ne (by decide), Function.update_self]
theorem o3_v38_1 (c : Dev nD) : o3 m main_v38_1 c = (dat1 (Vin1 m) c).arrAt 17 cfg1.N := by
  unfold o3; rw [Function.update_self]
theorem o5_v57_0 (c : Dev nD) : o5 m main_v57_0 c = (dat2 (Vin2 m) c).arrAt 5 cfg2.N := by
  unfold o5; rw [Function.update_of_ne (by decide), Function.update_self]
theorem o5_v57_1 (c : Dev nD) : o5 m main_v57_1 c = (dat2 (Vin2 m) c).arrAt 6 cfg2.N := by
  unfold o5; rw [Function.update_self]
theorem o6_v58 (c : Dev nD) : o6 m main_v58 c = (dat3 (Vin3 m) c).arrAt 11 cfg3.N := by
  unfold o6; rw [Function.update_self]

theorem V2_v37_0 (c : Dev nD) : V2 m (outs m) c main_v37_0 = (dat0 (Vin0 m) c).arrAt 5 cfg0.N := by
  have h : V2 m (outs m) c main_v37_0 = outs m 2 main_v37_0 c := by
    simp only [V2, Function.update_of_ne (StableHlo.devRef_ne_of_ne (by decide) : (Proc.devRef .tc main_v37_0 : DevRef τ sig) ≠ Proc.devRef .tc main_v37_1), Function.update_self]
  exact h.trans (o2_v37_0 m c)
theorem V2_v37_1 (c : Dev nD) : V2 m (outs m) c main_v37_1 = (dat0 (Vin0 m) c).arrAt 6 cfg0.N := by
  have h : V2 m (outs m) c main_v37_1 = outs m 2 main_v37_1 c := by
    simp only [V2, Function.update_self]
  exact h.trans (o2_v37_1 m c)
theorem V3_v38_0 (c : Dev nD) : V3 m (outs m) c main_v38_0 = (dat1 (Vin1 m) c).arrAt 16 cfg1.N := by
  have h : V3 m (outs m) c main_v38_0 = outs m 3 main_v38_0 c := by
    simp only [V3, Function.update_of_ne (StableHlo.devRef_ne_of_ne (by decide) : (Proc.devRef .tc main_v38_0 : DevRef τ sig) ≠ Proc.devRef .tc main_v38_1), Function.update_self]
  exact h.trans (o3_v38_0 m c)
theorem V3_v38_1 (c : Dev nD) : V3 m (outs m) c main_v38_1 = (dat1 (Vin1 m) c).arrAt 17 cfg1.N := by
  have h : V3 m (outs m) c main_v38_1 = outs m 3 main_v38_1 c := by
    simp only [V3, Function.update_self]
  exact h.trans (o3_v38_1 m c)
theorem V5_v57_0 (c : Dev nD) : V5 m (outs m) c main_v57_0 = (dat2 (Vin2 m) c).arrAt 5 cfg2.N := by
  have h : V5 m (outs m) c main_v57_0 = outs m 5 main_v57_0 c := by
    simp only [V5, Function.update_of_ne (StableHlo.devRef_ne_of_ne (by decide) : (Proc.devRef .tc main_v57_0 : DevRef τ sig) ≠ Proc.devRef .tc main_v57_1), Function.update_self]
  exact h.trans (o5_v57_0 m c)
theorem V5_v57_1 (c : Dev nD) : V5 m (outs m) c main_v57_1 = (dat2 (Vin2 m) c).arrAt 6 cfg2.N := by
  have h : V5 m (outs m) c main_v57_1 = outs m 5 main_v57_1 c := by
    simp only [V5, Function.update_self]
  exact h.trans (o5_v57_1 m c)
theorem V6_v58 (c : Dev nD) : V6 m (outs m) c main_v58 = (dat3 (Vin3 m) c).arrAt 11 cfg3.N := by
  have h : V6 m (outs m) c main_v58 = outs m 6 main_v58 c := by
    simp only [V6, Function.update_self]
  exact h.trans (o6_v58 m c)

/-- The proof data family at each pipeline, as the region's data at its entry contents. -/
theorem pdats_0 (c : Dev nD) : pdats m 0 c = dat0 (Vin0 m) c := rfl
theorem pdats_1 (c : Dev nD) : pdats m 1 c = dat1 (Vin1 m) c := rfl
theorem pdats_2 (c : Dev nD) : pdats m 2 c = dat2 (Vin2 m) c := rfl
theorem pdats_3 (c : Dev nD) : pdats m 3 c = dat3 (Vin3 m) c := rfl

end Cert.KernelIdeal.KRun

end
-- ==== Proof.KReg0.lean ====
import proofs.«110093_j8770323219157_1_alg».proof.Proof.KBody0
import proofs.«110093_j8770323219157_1_alg».proof.Proof.KOuts
import proofs.«110093_j8770323219157_1_alg».proof.Proof.KLemmas
import Idealize.ShloMosaic.Lib.Pipeline.RegionsLoop

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- An input window's array is, in the proof data, the entry contents at its buffer; -/
theorem hA0 (c : Dev nD) (w : Fin cfg0.W) : (pdats m 0 c).A w = V1 m c (Pipeline.arrRef spec0 w) := rfl

/-- every window but the two outputs' is an input, over a buffer other than the region's output buffers. -/
theorem key0 : ∀ w : Fin cfg0.W, w ≠ 5 → w ≠ 6 → (cfg0.win w).isOut = false ∧ Pipeline.arrRef spec0 w ∉ ([main_v37_0, main_v37_1] : List (Ref sig .tc)) := by decide

/-- At region 0's exit each of its arrays holds what the pipeline leaves, -/
theorem hF0 (c : Dev nD) : ∀ w : Fin cfg0.W, (pdats m 0 c).arrAt w cfg0.N = (fun b => V2 m (outs m) c b : (b : Ref sig .tc) → Buf (Elt F) ((c : Thread nD τ).loc b)) (Pipeline.arrRef spec0 w) := by
  intro w
  by_cases h0 : w = 5
  · subst h0; exact (V2_v37_0 m c).symm
  by_cases h1 : w = 6
  · subst h1; exact (V2_v37_1 m c).symm
  obtain ⟨hin, hne⟩ := key0 w h0 h1
  exact ((pdats m 0 c).arrAt_in w hin _).trans ((hA0 m c w).trans (V2_of m (outs m) c _ hne).symm)
/-- and every other buffer what it held at entry. -/
theorem hrest0 (c : Dev nD) : ∀ b : Ref sig .tc, b ∉ Finset.univ.image (Pipeline.arrRef spec0) → V2 m (outs m) c b = V1 m c b :=
  fun b hb => V2_of m (outs m) c b fun hmem => hb (by
    simp only [List.mem_cons, List.not_mem_nil, or_false] at hmem
    rcases hmem with rfl | rfl
    · exact Finset.mem_image.mpr ⟨5, Finset.mem_univ _, rfl⟩
    · exact Finset.mem_image.mpr ⟨6, Finset.mem_univ _, rfl⟩)

/-- After the last point the invariant gives the class invariant back. -/
theorem Phi0_last (c : Dev nD) : (pdats m 0 c).Φ (Fin.last _) ⊢ Pipeline.ΦA spec0 c :=
  Phi0_out (fun c b => V1 m c b) c cfg0.N (by decide)

set_option backward.isDefEq.respectTransparency.types false in
/-- REGION 0 over the thread state: entered from every unscoped buffer at the contents before it, left at the contents
    after it. Its arrays split out of the unscoped buffers and put back at the exit contents; the generator register
    into the invariant and out; nothing owed; no semaphore of the kernel's own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KRun

end
-- ==== Proof.KBody1.lean ====
import proofs.«110093_j8770323219157_1_alg».proof.Proof.KData
import proofs.«110093_j8770323219157_1_alg».proof.Proof.KLemmas
import Idealize.ShloMosaic.Lib.Exec

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : VT F)

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem after1_4 (c : Dev nD) (t : Fin cfg1.N) : (dat1 V c).after 4 t = iblk1 V c 4 t := by dsimp only [dat1]
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem after1_5 (c : Dev nD) (t : Fin cfg1.N) : (dat1 V c).after 5 t = iblk1 V c 5 t := by dsimp only [dat1]
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem after1_6 (c : Dev nD) (t : Fin cfg1.N) : (dat1 V c).after 6 t = iblk1 V c 6 t := by dsimp only [dat1]
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem after1_7 (c : Dev nD) (t : Fin cfg1.N) : (dat1 V c).after 7 t = iblk1 V c 7 t := by dsimp only [dat1]
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem after1_8 (c : Dev nD) (t : Fin cfg1.N) : (dat1 V c).after 8 t = iblk1 V c 8 t := by dsimp only [dat1]
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem after1_9 (c : Dev nD) (t : Fin cfg1.N) : (dat1 V c).after 9 t = iblk1 V c 9 t := by dsimp only [dat1]
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem after1_10 (c : Dev nD) (t : Fin cfg1.N) : (dat1 V c).after 10 t = iblk1 V c 10 t := by dsimp only [dat1]
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem after1_11 (c : Dev nD) (t : Fin cfg1.N) : (dat1 V c).after 11 t = iblk1 V c 11 t := by dsimp only [dat1]
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
theorem after1_12 (c : Dev nD) (t : Fin cfg1.N) : (dat1 V c).after 12 t = iblk1 V c 12 t := by dsimp only [dat1]
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
theorem after1_13 (c : Dev nD) (t : Fin cfg1.N) : (dat1 V c).after 13 t = iblk1 V c 13 t := by dsimp only [dat1]
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)
theorem after1_14 (c : Dev nD) (t : Fin cfg1.N) : (dat1 V c).after 14 t = iblk1 V c 14 t := by dsimp only [dat1]
theorem before1_14 (c : Dev nD) (t : Fin cfg1.N) (d) : (dat1 V c).before 14 t d = iblk1 V c 14 t :=
  ((dat1 V c).before_in_eq_fetched 14 rfl (fun _ => rfl) (fun _ _ _ => rfl) (fun t => by rw [after1_14]; unfold Dat.blockOf iblk1; rw [A_eq1]; try rfl) t d).trans
    (by unfold Dat.fetched Dat.blockOf iblk1; rw [A_eq1]; try rfl)
theorem after1_15 (c : Dev nD) (t : Fin cfg1.N) : (dat1 V c).after 15 t = iblk1 V c 15 t := by dsimp only [dat1]
theorem before1_15 (c : Dev nD) (t : Fin cfg1.N) (d) : (dat1 V c).before 15 t d = iblk1 V c 15 t :=
  ((dat1 V c).before_in_eq_fetched 15 rfl (fun _ => rfl) (fun _ _ _ => rfl) (fun t => by rw [after1_15]; unfold Dat.blockOf iblk1; rw [A_eq1]; try rfl) t d).trans
    (by unfold Dat.fetched Dat.blockOf iblk1; rw [A_eq1]; try rfl)
theorem after1_16 (c : Dev nD) (t : Fin cfg1.N) : (dat1 V c).after 16 t = out1_16 V c t := by dsimp only [dat1]
theorem after1_17 (c : Dev nD) (t : Fin cfg1.N) : (dat1 V c).after 17 t = out1_17 V c t := by dsimp only [dat1]

set_option maxHeartbeats 4000000 in
/-- The kernel body on whole staging memrefs, the inputs' at read contents and the outputs' at anything, runs to the
    continuation holding the inputs' as they were and each output's at its payload of the inputs'. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S2000x4 .f32) (harg3 : arg3.IsWhole) (arg4 : Memref sig .tc .vmem S2000x4 .f32) (harg4 : arg4.IsWhole) (arg5 : Memref sig .tc .vmem S130x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S64x64 .f32) (harg14 : arg14.IsWhole) (arg15 : Memref sig .tc .vmem S1x64 .f32) (harg15 : arg15.IsWhole) (arg16 : Memref sig .tc .vmem S64x1 .f32) (harg16 : arg16.IsWhole) (arg17 : Memref sig .tc .vmem S2000x64 .f32) (harg17 : arg17.IsWhole) (arg18 : Memref sig .tc .vmem S2000x4 .f32) (harg18 : arg18.IsWhole)
    (x0 : Vec F S2000x64 .f32) (x1 : Vec F S2000x64 .f32) (x2 : Vec F S2000x4 .f32) (x3 : Vec F S2000x4 .f32) (x4 : Vec F S130x64 .f32) (x5 : Vec F S1x64 .f32) (x6 : Vec F S1x64 .f32) (x7 : Vec F S64x64 .f32) (x8 : Vec F S1x64 .f32) (x9 : Vec F S1x64 .f32) (x10 : Vec F S1x64 .f32) (x11 : Vec F S64x1 .f32) (x12 : Vec F S1x1 .f32) (x13 : Vec F S64x64 .f32) (x14 : Vec F S1x64 .f32) (x15 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
        ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
            ∗ owns (c : Thread nD τ) arg17 fullShare (k1_pay12 (k1_pay11 (k1_pay1 x0) (k1_pay2 x1) (k1_pay6 x2 x3) (k1_pay7 x2 x3) (k1_pay8 x2 x3) (k1_pay9 x2 x3) (k1_pay10 (F := F)) x4 x9 x10 x5 x6 x7 x8) x11 x12)
            ∗ owns (c : Thread nD τ) arg18 fullShare (k1_pay13 (k1_pay5 x2 x3) (k1_pay11 (k1_pay1 x0) (k1_pay2 x1) (k1_pay6 x2 x3) (k1_pay7 x2 x3) (k1_pay8 x2 x3) (k1_pay9 x2 x3) (k1_pay10 (F := F)) x4 x9 x10 x5 x6 x7 x8) x11 x12 x13 x14 x15)) -∗ K ⟨⟩))
      ⊢ wp frame (wpE (defs₀ (F := F)) Variants.none c none) E (cc1__edge_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  sl_unfold [cc1__edge_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (read_writes_full arg17.view _ ![0, 0] off00 _ _).trans ?_
    show k1_pay12 (k1_pay11 (k1_pay1 (View.readAt (Elt F) arg1.view (Rect.unit (s := S2000x64) ![0, 0] S2000x64.size inb_S2000x64_S2000x64_0_0).toLoadRect f0)) (k1_pay2 (View.readAt (Elt F) arg2.view (Rect.unit (s := S2000x64) ![0, 0] S2000x64.size inb_S2000x64_S2000x64_0_0).toLoadRect f1)) (k1_pay6 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay7 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay8 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay10 (F := F)) (View.readAt (Elt F) arg5.view (Rect.unit (s := S130x64) ![0, 0] S130x64.size inb_S130x64_S130x64_0_0).toLoadRect f4) (View.readAt (Elt F) arg10.view (Rect.unit (s := S1x64) ![0, 0] S1x64.size inb_S1x64_S1x64_0_0).toLoadRect f9) (View.readAt (Elt F) arg11.view (Rect.unit (s := S1x64) ![0, 0] S1x64.size inb_S1x64_S1x64_0_0).toLoadRect f10) (View.readAt (Elt F) arg6.view (Rect.unit (s := S1x64) ![0, 0] S1x64.size inb_S1x64_S1x64_0_0).toLoadRect f5) (View.readAt (Elt F) arg7.view (Rect.unit (s := S1x64) ![0, 0] S1x64.size inb_S1x64_S1x64_0_0).toLoadRect f6) (View.readAt (Elt F) arg8.view (Rect.unit (s := S64x64) ![0, 0] S64x64.size inb_S64x64_S64x64_0_0).toLoadRect f7) (View.readAt (Elt F) arg9.view (Rect.unit (s := S1x64) ![0, 0] S1x64.size inb_S1x64_S1x64_0_0).toLoadRect f8)) (View.readAt (Elt F) arg12.view (Rect.unit (s := S64x1) ![0, 0] S64x1.size inb_S64x1_S64x1_0_0).toLoadRect f11) (View.readAt (Elt F) arg13.view (Rect.unit (s := S1x1) ![0, 0] S1x1.size inb_S1x1_S1x1_0_0).toLoadRect f12) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg6.view f5 ![0, 0] off00, readAt_full arg7.view f6 ![0, 0] off00, readAt_full arg8.view f7 ![0, 0] off00, readAt_full arg9.view f8 ![0, 0] off00, readAt_full arg10.view f9 ![0, 0] off00, readAt_full arg11.view f10 ![0, 0] off00, readAt_full arg12.view f11 ![0, 0] off00, readAt_full arg13.view f12 ![0, 0] off00, readAt_full arg14.view f13 ![0, 0] off00, readAt_full arg15.view f14 ![0, 0] off00, readAt_full arg16.view f15 ![0, 0] off00]
  iexists _; isplitr
  swap; · iexact H17
  ipureintro
  refine (read_writes_full arg18.view _ ![0, 0] off00 _ _).trans ?_
  show k1_pay13 (k1_pay5 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay11 (k1_pay1 (View.readAt (Elt F) arg1.view (Rect.unit (s := S2000x64) ![0, 0] S2000x64.size inb_S2000x64_S2000x64_0_0).toLoadRect f0)) (k1_pay2 (View.readAt (Elt F) arg2.view (Rect.unit (s := S2000x64) ![0, 0] S2000x64.size inb_S2000x64_S2000x64_0_0).toLoadRect f1)) (k1_pay6 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay7 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay8 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay9 (View.readAt (Elt F) arg3.view (Rect.unit (s := S2000x4) ![0, 0] S2000x4.size inb_S2000x4_S2000x4_0_0).toLoadRect f2) (View.readAt (Elt F) arg4.view (Rect.unit (s := S2000x4) ![0, 0] S2000x4.size inb_S2000x4_S2000x4_0_0).toLoadRect f3)) (k1_pay10 (F := F)) (View.readAt (Elt F) arg5.view (Rect.unit (s := S130x64) ![0, 0] S130x64.size inb_S130x64_S130x64_0_0).toLoadRect f4) (View.readAt (Elt F) arg10.view (Rect.unit (s := S1x64) ![0, 0] S1x64.size inb_S1x64_S1x64_0_0).toLoadRect f9) (View.readAt (Elt F) arg11.view (Rect.unit (s := S1x64) ![0, 0] S1x64.size inb_S1x64_S1x64_0_0).toLoadRect f10) (View.readAt (Elt F) arg6.view (Rect.unit (s := S1x64) ![0, 0] S1x64.size inb_S1x64_S1x64_0_0).toLoadRect f5) (View.readAt (Elt F) arg7.view (Rect.unit (s := S1x64) ![0, 0] S1x64.size inb_S1x64_S1x64_0_0).toLoadRect f6) (View.readAt (Elt F) arg8.view (Rect.unit (s := S64x64) ![0, 0] S64x64.size inb_S64x64_S64x64_0_0).toLoadRect f7) (View.readAt (Elt F) arg9.view (Rect.unit (s := S1x64) ![0, 0] S1x64.size inb_S1x64_S1x64_0_0).toLoadRect f8)) (View.readAt (Elt F) arg12.view (Rect.unit (s := S64x1) ![0, 0] S64x1.size inb_S64x1_S64x1_0_0).toLoadRect f11) (View.readAt (Elt F) arg13.view (Rect.unit (s := S1x1) ![0, 0] S1x1.size inb_S1x1_S1x1_0_0).toLoadRect f12) (View.readAt (Elt F) arg14.view (Rect.unit (s := S64x64) ![0, 0] S64x64.size inb_S64x64_S64x64_0_0).toLoadRect f13) (View.readAt (Elt F) arg15.view (Rect.unit (s := S1x64) ![0, 0] S1x64.size inb_S1x64_S1x64_0_0).toLoadRect f14) (View.readAt (Elt F) arg16.view (Rect.unit (s := S64x1) ![0, 0] S64x1.size inb_S64x1_S64x1_0_0).toLoadRect f15) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg6.view f5 ![0, 0] off00, readAt_full arg7.view f6 ![0, 0] off00, readAt_full arg8.view f7 ![0, 0] off00, readAt_full arg9.view f8 ![0, 0] off00, readAt_full arg10.view f9 ![0, 0] off00, readAt_full arg11.view f10 ![0, 0] off00, readAt_full arg12.view f11 ![0, 0] off00, readAt_full arg13.view f12 ![0, 0] off00, readAt_full arg14.view f13 ![0, 0] off00, readAt_full arg15.view f14 ![0, 0] off00, readAt_full arg16.view f15 ![0, 0] off00]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t))

set_option maxHeartbeats 4000000 in
/-- The body at any point: the inputs' memrefs hold their blocks, so the kernel's triple applies; the invariant and the
    core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17]
  unfold out1_16 out1_17 hid1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel1 c Set.univ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.KRun

end
-- ==== Proof.KReg1.lean ====
import proofs.«110093_j8770323219157_1_alg».proof.Proof.KBody1
import proofs.«110093_j8770323219157_1_alg».proof.Proof.KOuts
import proofs.«110093_j8770323219157_1_alg».proof.Proof.KLemmas
import Idealize.ShloMosaic.Lib.Pipeline.RegionsLoop

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- An input window's array is, in the proof data, the entry contents at its buffer; -/
theorem hA1 (c : Dev nD) (w : Fin cfg1.W) : (pdats m 1 c).A w = V2 m (outs m) c (Pipeline.arrRef spec1 w) := rfl

/-- every window but the two outputs' is an input, over a buffer other than the region's output buffers. -/
theorem key1 : ∀ w : Fin cfg1.W, w ≠ 16 → w ≠ 17 → (cfg1.win w).isOut = false ∧ Pipeline.arrRef spec1 w ∉ ([main_v38_0, main_v38_1] : List (Ref sig .tc)) := by decide

/-- At region 1's exit each of its arrays holds what the pipeline leaves, -/
theorem hF1 (c : Dev nD) : ∀ w : Fin cfg1.W, (pdats m 1 c).arrAt w cfg1.N = (fun b => V3 m (outs m) c b : (b : Ref sig .tc) → Buf (Elt F) ((c : Thread nD τ).loc b)) (Pipeline.arrRef spec1 w) := by
  intro w
  by_cases h0 : w = 16
  · subst h0; exact (V3_v38_0 m c).symm
  by_cases h1 : w = 17
  · subst h1; exact (V3_v38_1 m c).symm
  obtain ⟨hin, hne⟩ := key1 w h0 h1
  exact ((pdats m 1 c).arrAt_in w hin _).trans ((hA1 m c w).trans (V3_of m (outs m) c _ hne).symm)
/-- and every other buffer what it held at entry. -/
theorem hrest1 (c : Dev nD) : ∀ b : Ref sig .tc, b ∉ Finset.univ.image (Pipeline.arrRef spec1) → V3 m (outs m) c b = V2 m (outs m) c b :=
  fun b hb => V3_of m (outs m) c b fun hmem => hb (by
    simp only [List.mem_cons, List.not_mem_nil, or_false] at hmem
    rcases hmem with rfl | rfl
    · exact Finset.mem_image.mpr ⟨16, Finset.mem_univ _, rfl⟩
    · exact Finset.mem_image.mpr ⟨17, Finset.mem_univ _, rfl⟩)

set_option backward.isDefEq.respectTransparency.types false in
/-- REGION 1 over the thread state: entered from every unscoped buffer at the contents before it, left at the contents
    after it. Its arrays split out of the unscoped buffers and put back at the exit contents; the generator register
    into the invariant and out; nothing owed; no semaphore of the kernel's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V2 m (outs m) c b) c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V2 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => V2 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => V2 m (outs m) c b) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KRun

end
-- ==== Proof.KBody2.lean ====
import proofs.«110093_j8770323219157_1_alg».proof.Proof.KData
import proofs.«110093_j8770323219157_1_alg».proof.Proof.KLemmas
import Idealize.ShloMosaic.Lib.Exec

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : VT F)

/-! ## Reading back through whole-shape rectangles -/

/-- A store through the whole-shape unit rectangle reads back as its payload, whatever the earlier stores were. -/
theorem read_writes_full_cons2 {sig' : RefSig} {κ : Kind} {sp : Space} {s : Shape} {e : EltTy} {Val : EltTy → Type} [∀ e, Nonempty (Val e)]
    (v : View sig' κ sp s e) (f : v.ty.Contents Val) (off : Fin s.rank → ℕ) (hoff : ∀ a, off a = 0)
    (inb : ∀ a, off a + s.size a ≤ s.size a) (p : (Rect.unit off s.size inb).shape.Idx → Val e) (L : List (View.Piece Val s e)) :
    v.read Val (v.writes Val f (⟨Rect.unit off s.size inb, p⟩ :: L)) = p := by
  funext y
  have hy : y ∈ (Rect.unit off s.size inb).set :=
    Rect.mem_set_unit.mpr fun a => ⟨by rw [hoff]; exact Nat.zero_le _, by rw [hoff, Nat.zero_add]; exact (y a).isLt⟩
  obtain ⟨x, rfl⟩ := (Rect.unit off s.size inb).exists_idx_of_mem hy
  refine (View.read_writes_cons_emb (v := v) (f := f) (Rect.unit off s.size inb) p L x).trans ?_
  congr 1
  funext a
  apply Fin.ext
  simp [LoadRect.idx_apply, hoff]

/-- A whole-shape load after a whole-shape store reads the store's payload. -/
theorem readCov_full2 {sig' : RefSig} {κ : Kind} {sp : Space} {s : Shape} {e : EltTy} {Val : EltTy → Type} [∀ e, Nonempty (Val e)]
    (v : View sig' κ sp s e) (off : Fin s.rank → ℕ) (hoff : ∀ a, off a = 0)
    (inb : ∀ a, off a + s.size a ≤ s.size a) (p : (Rect.unit off s.size inb).shape.Idx → Val e) (L : List (View.Piece Val s e)) :
    v.readCov (⟨Rect.unit off s.size inb, p⟩ :: L) (Rect.unit off s.size inb).toLoadRect = p := by
  unfold View.readCov
  rw [readAt_full v _ off hoff inb, read_writes_full_cons2 v _ off hoff inb p L]

/-! ## The proof data projected -/

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem after2_1 (c : Dev nD) (t : Fin cfg2.N) : (dat2 V c).after 1 t = iblk2 V c 1 t := by dsimp only [dat2]
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem after2_2 (c : Dev nD) (t : Fin cfg2.N) : (dat2 V c).after 2 t = iblk2 V c 2 t := by dsimp only [dat2]
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem after2_3 (c : Dev nD) (t : Fin cfg2.N) : (dat2 V c).after 3 t = iblk2 V c 3 t := by dsimp only [dat2]
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem after2_4 (c : Dev nD) (t : Fin cfg2.N) : (dat2 V c).after 4 t = iblk2 V c 4 t := by dsimp only [dat2]
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem after2_5 (c : Dev nD) (t : Fin cfg2.N) : (dat2 V c).after 5 t = mean2 V c (t.val + 1) := by dsimp only [dat2]
theorem after2_6 (c : Dev nD) (t : Fin cfg2.N) : (dat2 V c).after 6 t = var2 V c (t.val + 1) := by dsimp only [dat2]

theorem Phi2_succ (c : Dev nD) (n : ℕ) : Phi2 V c (n + 1)
    = iprop((owns (c : Thread nD τ) (Memref.whole cc2_scratch0) fullShare (acc2 V c (n + 1)).1
        ∗ owns (c : Thread nD τ) (Memref.whole cc2_scratch1) fullShare (acc2 V c (n + 1)).2)
      ∗ Pipeline.scopedRestBut (Ix := Unit) (Name := ℕ) (U := UR sig nD τ) (Lvl := ℕ) (Val := Elt F) spec2 c [cc2_scratch0, cc2_scratch1]
      ∗ ∃ r, prngReg c r) := rfl
theorem Phi2_pos (c : Dev nD) (n : ℕ) (h : n ≠ 0) : Phi2 V c n
    = iprop((owns (c : Thread nD τ) (Memref.whole cc2_scratch0) fullShare (acc2 V c n).1
        ∗ owns (c : Thread nD τ) (Memref.whole cc2_scratch1) fullShare (acc2 V c n).2)
      ∗ Pipeline.scopedRestBut (Ix := Unit) (Name := ℕ) (U := UR sig nD τ) (Lvl := ℕ) (Val := Elt F) spec2 c [cc2_scratch0, cc2_scratch1]
      ∗ ∃ r, prngReg c r) := by
  cases n with
  | zero => exact absurd rfl h
  | succ n => rfl

/-! ## The two conditions on the grid point -/

/-- The first point's condition, as the kernel computes it, -/
abbrev condF2 (i : grid2.Coords) : Prop := (Scalar.cmpi .ne (Scalar.extui (Scalar.cmpi .eq (BitVec.ofNat 32 (i 0).val) 0#32)) 0#32) = 1#1
/-- and the last point's. -/
abbrev condL2 (i : grid2.Coords) : Prop := k2_cond2 i = 1#1

theorem hcondF2 : ∀ t : Fin cfg2.N, condF2 (grid2.coords t) ↔ t.val = 0 :=
  (by decide +kernel : ∀ t : Fin grid2.N, condF2 (grid2.coords t) ↔ t.val = 0)
theorem hcondL2 : ∀ t : Fin cfg2.N, condL2 (grid2.coords t) ↔ t.val = 24 :=
  (by decide +kernel : ∀ t : Fin grid2.N, condL2 (grid2.coords t) ↔ t.val = 24)
theorem idle2_5 : ∀ t : Fin cfg2.N, t.val ≠ 24 → cfg2.idle 5 (grid2.coords t) = true :=
  (by decide +kernel : ∀ t : Fin grid2.N, t.val ≠ 24 → cfg2.idle 5 (grid2.coords t) = true)
theorem idle2_6 : ∀ t : Fin cfg2.N, t.val ≠ 24 → cfg2.idle 6 (grid2.coords t) = true :=
  (by decide +kernel : ∀ t : Fin grid2.N, t.val ≠ 24 → cfg2.idle 6 (grid2.coords t) = true)
theorem live2_5 : ∀ t : Fin cfg2.N, t.val = 24 → cfg2.idle 5 (grid2.coords t) = false :=
  (by decide +kernel : ∀ t : Fin grid2.N, t.val = 24 → cfg2.idle 5 (grid2.coords t) = false)
theorem live2_6 : ∀ t : Fin cfg2.N, t.val = 24 → cfg2.idle 6 (grid2.coords t) = false :=
  (by decide +kernel : ∀ t : Fin grid2.N, t.val = 24 → cfg2.idle 6 (grid2.coords t) = false)
theorem noflush2_5 (t : Fin cfg2.N) (h : t.val ≠ 24) : (cfg2.win 5).flush t = false := by
  have hN : t.val < 25 := lt_of_lt_of_eq t.isLt (show cfg2.N = 25 from N_2)
  cases hf : (cfg2.win 5).flush t with
  | false => rfl
  | true => exact absurd ((flush2_5 t).mp hf) (by omega)
theorem noflush2_6 (t : Fin cfg2.N) (h : t.val ≠ 24) : (cfg2.win 6).flush t = false := by
  have hN : t.val < 25 := lt_of_lt_of_eq t.isLt (show cfg2.N = 25 from N_2)
  cases hf : (cfg2.win 6).flush t with
  | false => rfl
  | true => exact absurd ((flush2_6 t).mp hf) (by omega)

/-! ## The kernel's triples, by case of the point -/

set_option maxHeartbeats 4000000 in
/-- FIRST point: the scratch rows, at anything, are zeroed and then take the point's contribution. -/
theorem sound_kernel2_A (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x8 .f32) (harg3 : arg3.IsWhole) (arg4 : Memref sig .tc .vmem S136x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : condF2 i) (hL : ¬ condL2 i)
    (x0 : Vec F S2000x64 .f32) (x1 : Vec F S2000x64 .f32) (x2 : Vec F S2000x8 .f32) (x3 : Vec F S136x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k2_pay6 x0 x1 x2 x3 x4 (k2_pay3 (F := F))) ∗ owns (c : Thread nD τ) arg9 fullShare (k2_pay7 x0 x1 x2 x3 x4 (k2_pay4 (F := F)))) -∗ K ⟨⟩))
      ⊢ wp frame (wpE (defs₀ (F := F)) Variants.none c none) E (cc2__node_stats_kernel i arg1 harg1 arg2 harg2 arg3 harg3 arg4 harg4 arg5 harg5 arg6 harg6 arg7 harg7 arg8 harg8 arg9 harg9) K := by
  sl_unfold [cc2__node_stats_kernel]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (read_writes_full_cons2 arg8.view _ ![0, 0] off00 _ _ _).trans ?_
    show k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (arg8.view.readCov [⟨(Rect.unit (s := S1x64) ![0, 0] S1x64.size inb_S1x64_S1x64_0_0), (k2_pay3 (F := F))⟩] (Rect.unit (s := S1x64) ![0, 0] S1x64.size inb_S1x64_S1x64_0_0).toLoadRect) = _
    rw [readCov_full2 arg8.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00]
  iexists _; isplitr
  swap; · iexact H8
  ipureintro
  refine (read_writes_full_cons2 arg9.view _ ![0, 0] off00 _ _ _).trans ?_
  show k2_pay7 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (arg9.view.readCov [⟨(Rect.unit (s := S1x64) ![0, 0] S1x64.size inb_S1x64_S1x64_0_0), (k2_pay4 (F := F))⟩] (Rect.unit (s := S1x64) ![0, 0] S1x64.size inb_S1x64_S1x64_0_0).toLoadRect) = _
  rw [readCov_full2 arg9.view ![0, 0] off00]
  simp only [readAt_full arg1.view f0 ![0, 0] off00, readAt_full arg2.view f1 ![0, 0] off00, readAt_full arg3.view f2 ![0, 0] off00, readAt_full arg4.view f3 ![0, 0] off00, readAt_full arg5.view f4 ![0, 0] off00]

set_option maxHeartbeats 4000000 in
/-- A MIDDLE point: the scratch rows take the point's contribution. -/
theorem sound_kernel2_B (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x8 .f32) (harg3 : arg3.IsWhole) (arg4 : Memref sig .tc .vmem S136x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : ¬ condF2 i) (hL : ¬ condL2 i)
    (x0 : Vec F S2000x64 .f32) (x1 : Vec F S2000x64 .f32) (x2 : Vec F S2000x8 .f32) (x3 : Vec F S136x64 .f32) (x4 : Vec F S1x64 .f32) (s1 s2 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg8 fullShare (k2_pay6 x0 x1 x2 x3 x4 s1) ∗ owns (c : Thread nD τ) arg9 fullShare (k2_pay7 x0 x1 x2 x3 x4 s2)) -∗ K ⟨⟩))
      ⊢ wp frame (wpE (defs₀ (F := F)) Variants.none c none) E (cc2__node_stats_kernel i arg1 harg1 arg2 harg2 arg3 harg3 arg4 harg4 arg5 harg5 arg6 harg6 arg7 harg7 arg8 harg8 arg9 harg9) K := by
  sl_unfold [cc2__node_stats_kernel]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  subst hf0 hf1 hf2 hf3 hf4 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    refine (read_writes_full_cons2 arg8.view _ ![0, 0] off00 _ _ _).trans ?_
    show k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  iexists _; isplitr
  swap; · iexact H8
  ipureintro
  refine (read_writes_full_cons2 arg9.view _ ![0, 0] off00 _ _ _).trans ?_
  show k2_pay7 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg9.view (Rect.unit (s := S1x64) ![0, 0] S1x64.size inb_S1x64_S1x64_0_0).toLoadRect f8) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]

set_option maxHeartbeats 4000000 in
/-- The LAST point: the scratch rows take the point's contribution, then the two output rows are stored from them. -/
theorem sound_kernel2_C (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x8 .f32) (harg3 : arg3.IsWhole) (arg4 : Memref sig .tc .vmem S136x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (hF : ¬ condF2 i) (hL : condL2 i)
    (x0 : Vec F S2000x64 .f32) (x1 : Vec F S2000x64 .f32) (x2 : Vec F S2000x8 .f32) (x3 : Vec F S136x64 .f32) (x4 : Vec F S1x64 .f32) (s1 s2 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k2_pay1 (k2_pay6 x0 x1 x2 x3 x4 s1)) ∗ owns (c : Thread nD τ) arg7 fullShare (k2_pay2 (k2_pay6 x0 x1 x2 x3 x4 s1) (k2_pay7 x0 x1 x2 x3 x4 s2))
            ∗ owns (c : Thread nD τ) arg8 fullShare (k2_pay6 x0 x1 x2 x3 x4 s1) ∗ owns (c : Thread nD τ) arg9 fullShare (k2_pay7 x0 x1 x2 x3 x4 s2)) -∗ K ⟨⟩))
      ⊢ wp frame (wpE (defs₀ (F := F)) Variants.none c none) E (cc2__node_stats_kernel i arg1 harg1 arg2 harg2 arg3 harg3 arg4 harg4 arg5 harg5 arg6 harg6 arg7 harg7 arg8 harg8 arg9 harg9) K := by
  sl_unfold [cc2__node_stats_kernel]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  subst hf0 hf1 hf2 hf3 hf4 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_full_cons2 arg6.view _ ![0, 0] off00 _ _ _).trans ?_
    show k2_pay1 (arg8.view.readCov [⟨(Rect.unit (s := S1x64) ![0, 0] S1x64.size inb_S1x64_S1x64_0_0), k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7)⟩] (Rect.unit (s := S1x64) ![0, 0] S1x64.size inb_S1x64_S1x64_0_0).toLoadRect) = _
    rw [readCov_full2 arg8.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  isplitl [H6]
  · iexists _; isplitr
    swap; · iexact H6
    ipureintro
    refine (read_writes_full_cons2 arg7.view _ ![0, 0] off00 _ _ _).trans ?_
    show k2_pay2 (arg8.view.readCov [⟨(Rect.unit (s := S1x64) ![0, 0] S1x64.size inb_S1x64_S1x64_0_0), k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7)⟩] (Rect.unit (s := S1x64) ![0, 0] S1x64.size inb_S1x64_S1x64_0_0).toLoadRect) (arg9.view.readCov [⟨(Rect.unit (s := S1x64) ![0, 0] S1x64.size inb_S1x64_S1x64_0_0), k2_pay7 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg9.view (Rect.unit (s := S1x64) ![0, 0] S1x64.size inb_S1x64_S1x64_0_0).toLoadRect f8)⟩] (Rect.unit (s := S1x64) ![0, 0] S1x64.size inb_S1x64_S1x64_0_0).toLoadRect) = _
    rw [readCov_full2 arg8.view ![0, 0] off00, readCov_full2 arg9.view ![0, 0] off00]
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  isplitl [H7]
  · iexists _; isplitr
    swap; · iexact H7
    ipureintro
    refine (read_writes_full_cons2 arg8.view _ ![0, 0] off00 _ _ _).trans ?_
    show k2_pay6 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7) = _
    simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]
  iexists _; isplitr
  swap; · iexact H8
  ipureintro
  refine (read_writes_full_cons2 arg9.view _ ![0, 0] off00 _ _ _).trans ?_
  show k2_pay7 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg9.view (Rect.unit (s := S1x64) ![0, 0] S1x64.size inb_S1x64_S1x64_0_0).toLoadRect f8) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg8.view f7 ![0, 0] off00, readAt_full arg9.view f8 ![0, 0] off00]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ (dat2 V c).leavesExact 5 t
    ∗ (dat2 V c).leavesExact 6 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    after2_0, after2_1, after2_2, after2_3, after2_4]
  rw [show (dat2 V c).Φ t.succ = Phi2 V c (t.val + 1) from rfl, show (dat2 V c).Φ t.castSucc = Phi2 V c t.val from rfl, Phi2_succ]
  have hN : t.val < 25 := lt_of_lt_of_eq t.isLt (show cfg2.N = 25 from N_2)
  by_cases h0 : t.val = 0
  · -- the first point
    have hF : condF2 (grid2.coords t) := (hcondF2 t).mpr h0
    have hL : ¬ condL2 (grid2.coords t) := fun h => by have := (hcondL2 t).mp h; omega
    rw [Dat.leavesExact_idle (dat2 V c) 5 t (idle2_5 t (by omega)) (noflush2_5 t (by omega)),
      Dat.leavesExact_idle (dat2 V c) 6 t (idle2_6 t (by omega)) (noflush2_6 t (by omega))]
    rw [acc2_succ V c t, show acc2 V c t.val = (k2_pay3, k2_pay4) from by rw [h0]; rfl,
      show Phi2 V c t.val = Pipeline.ΦA spec2 c from by rw [h0]; rfl]
    unfold step2 Pipeline.ΦA
    rw [scopedRest2_split]
    iintro ⟨⟨⟨⟨⟨%g0, HS0⟩, ⟨%g1, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ _ _ _ _ _ _ _ _ _ _ _ _ _ _ _ _ _ _ _ hF hL (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [HS0]; · iexists g0; rw [owns_whole]; iexact HS0
    isplitl [HS1]; · iexists g1; rw [owns_whole]; iexact HS1
    iintro ⟨H0, H1, H2, H3, H4, HS0, HS1⟩
    isplitl [HS0 HS1 Hrest Hg]
    · isplitl [HS0 HS1]
      · isplitl [HS0]; · iexact HS0
        iexact HS1
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 24
    · -- the last point
      have hF : ¬ condF2 (grid2.coords t) := fun h => h0 ((hcondF2 t).mp h)
      have hL : condL2 (grid2.coords t) := (hcondL2 t).mpr h1
      rw [show (dat2 V c).leavesExact 5 t = owns (c : Thread nD τ) (st2_5 t) fullShare ((dat2 V c).after 5 t) from by
          unfold Dat.leavesExact; rw [live2_5 t h1],
        show (dat2 V c).leavesExact 6 t = owns (c : Thread nD τ) (st2_6 t) fullShare ((dat2 V c).after 6 t) from by
          unfold Dat.leavesExact; rw [live2_6 t h1], after2_5, after2_6]
      unfold mean2 var2
      rw [acc2_succ V c t, Phi2_pos V c t.val h0]
      unfold step2
      iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_C c Set.univ _ _ _ _ _ _ _ _ _ _ _ _ _ _ _ _ _ _ _ hF hL (iblk2 V c 0 t) (iblk2 V c 1 t) (iblk2 V c 2 t) (iblk2 V c 3 t) (iblk2 V c 4 t) (acc2 V c t.val).1 (acc2 V c t.val).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hF : ¬ condF2 (grid2.coords t) := fun h => h0 ((hcondF2 t).mp h)
      have hL : ¬ condL2 (grid2.coords t) := fun h => h1 ((hcondL2 t).mp h)
      rw [Dat.leavesExact_idle (dat2 V c) 5 t (idle2_5 t h1) (noflush2_5 t h1),
        Dat.leavesExact_idle (dat2 V c) 6 t (idle2_6 t h1) (noflush2_6 t h1)]
      rw [acc2_succ V c t, Phi2_pos V c t.val h0]
      unfold step2
      iintro ⟨⟨⟨HS0, HS1⟩, Hrest, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_B c Set.univ _ _ _ _ _ _ _ _ _ _ _ _ _ _ _ _ _ _ _ hF hL (iblk2 V c 0 t) (iblk2 V c 1 t) (iblk2 V c 2 t) (iblk2 V c 3 t) (iblk2 V c 4 t) (acc2 V c t.val).1 (acc2 V c t.val).2 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1]
        · isplitl [HS0]; · iexact HS0
          iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After the last point the invariant gives the class invariant back: the scratch rows' contents are forgotten. -/
theorem Phi2_out (c : Dev nD) (n : ℕ) (h : n ≠ 0) : Phi2 V c n ⊢ Pipeline.ΦA spec2 c := by
  rw [Phi2_pos V c n h]; unfold Pipeline.ΦA; rw [scopedRest2_split]
  iintro ⟨⟨HS0, HS1⟩, Hrest, Hg⟩
  isplitr [Hg]
  · isplitl [HS0 HS1]
    · isplitl [HS0]
      · iexists _; rw [← owns_whole]; iexact HS0
      iexists _; rw [← owns_whole]; iexact HS1
    iexact Hrest
  iexact Hg

end Cert.KernelIdeal.KRun

end
-- ==== Proof.KReg2.lean ====
import proofs.«110093_j8770323219157_1_alg».proof.Proof.KBody2
import proofs.«110093_j8770323219157_1_alg».proof.Proof.KOuts
import proofs.«110093_j8770323219157_1_alg».proof.Proof.KLemmas
import Idealize.ShloMosaic.Lib.Pipeline.RegionsLoop

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- An input window's array is, in the proof data, the entry contents at its buffer; -/
theorem hA2 (c : Dev nD) (w : Fin cfg2.W) : (pdats m 2 c).A w = V4 m (outs m) c (Pipeline.arrRef spec2 w) := rfl

/-- every window but the two outputs' is an input, over a buffer other than the region's output buffers. -/
theorem key2 : ∀ w : Fin cfg2.W, w ≠ 5 → w ≠ 6 → (cfg2.win w).isOut = false ∧ Pipeline.arrRef spec2 w ∉ ([main_v57_0, main_v57_1] : List (Ref sig .tc)) := by decide

/-- At region 2's exit each of its arrays holds what the pipeline leaves, -/
theorem hF2 (c : Dev nD) : ∀ w : Fin cfg2.W, (pdats m 2 c).arrAt w cfg2.N = (fun b => V5 m (outs m) c b : (b : Ref sig .tc) → Buf (Elt F) ((c : Thread nD τ).loc b)) (Pipeline.arrRef spec2 w) := by
  intro w
  by_cases h0 : w = 5
  · subst h0; exact (V5_v57_0 m c).symm
  by_cases h1 : w = 6
  · subst h1; exact (V5_v57_1 m c).symm
  obtain ⟨hin, hne⟩ := key2 w h0 h1
  exact ((pdats m 2 c).arrAt_in w hin _).trans ((hA2 m c w).trans (V5_of m (outs m) c _ hne).symm)
/-- and every other buffer what it held at entry. -/
theorem hrest2 (c : Dev nD) : ∀ b : Ref sig .tc, b ∉ Finset.univ.image (Pipeline.arrRef spec2) → V5 m (outs m) c b = V4 m (outs m) c b :=
  fun b hb => V5_of m (outs m) c b fun hmem => hb (by
    simp only [List.mem_cons, List.not_mem_nil, or_false] at hmem
    rcases hmem with rfl | rfl
    · exact Finset.mem_image.mpr ⟨5, Finset.mem_univ _, rfl⟩
    · exact Finset.mem_image.mpr ⟨6, Finset.mem_univ _, rfl⟩)

/-- After the last point the invariant gives the class invariant back. -/
theorem Phi2_last (c : Dev nD) : (pdats m 2 c).Φ (Fin.last _) ⊢ Pipeline.ΦA spec2 c :=
  Phi2_out (fun c b => V4 m (outs m) c b) c cfg2.N (by decide)

set_option backward.isDefEq.respectTransparency.types false in
/-- REGION 2 over the thread state: entered from every unscoped buffer at the contents before it, left at the contents
    after it. Its arrays split out of the unscoped buffers and put back at the exit contents; the generator register
    into the invariant and out; nothing owed; no semaphore of the kernel's own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V4 m (outs m) c b) c).loose
  hwaits := Pipeline.hwaits_of_owed_zero _ _ _ _ L lv 2 fun _ _ => rfl
  pre c := iprop(StableHlo.held (c : Thread nD τ) (Pipeline.ucRefs τ sig) (V4 m (outs m) c) ∗ R c)
  post c := iprop(StableHlo.held (c : Thread nD τ) (Pipeline.ucRefs τ sig) (V5 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V4 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (fun b => V4 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (Phi2_last m c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (fun b => V4 m (outs m) c b) (fun b => V5 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KRun

end
-- ==== Proof.KBody3.lean ====
import proofs.«110093_j8770323219157_1_alg».proof.Proof.KData
import proofs.«110093_j8770323219157_1_alg».proof.Proof.KLemmas
import Idealize.ShloMosaic.Lib.Exec

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : VT F)

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem after3_1 (c : Dev nD) (t : Fin cfg3.N) : (dat3 V c).after 1 t = iblk3 V c 1 t := by dsimp only [dat3]
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem after3_2 (c : Dev nD) (t : Fin cfg3.N) : (dat3 V c).after 2 t = iblk3 V c 2 t := by dsimp only [dat3]
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem after3_3 (c : Dev nD) (t : Fin cfg3.N) : (dat3 V c).after 3 t = iblk3 V c 3 t := by dsimp only [dat3]
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem after3_4 (c : Dev nD) (t : Fin cfg3.N) : (dat3 V c).after 4 t = iblk3 V c 4 t := by dsimp only [dat3]
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem after3_5 (c : Dev nD) (t : Fin cfg3.N) : (dat3 V c).after 5 t = iblk3 V c 5 t := by dsimp only [dat3]
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem after3_6 (c : Dev nD) (t : Fin cfg3.N) : (dat3 V c).after 6 t = iblk3 V c 6 t := by dsimp only [dat3]
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem after3_7 (c : Dev nD) (t : Fin cfg3.N) : (dat3 V c).after 7 t = iblk3 V c 7 t := by dsimp only [dat3]
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
theorem after3_8 (c : Dev nD) (t : Fin cfg3.N) : (dat3 V c).after 8 t = iblk3 V c 8 t := by dsimp only [dat3]
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)
theorem after3_9 (c : Dev nD) (t : Fin cfg3.N) : (dat3 V c).after 9 t = iblk3 V c 9 t := by dsimp only [dat3]
theorem before3_9 (c : Dev nD) (t : Fin cfg3.N) (d) : (dat3 V c).before 9 t d = iblk3 V c 9 t :=
  ((dat3 V c).before_in_eq_fetched 9 rfl (fun _ => rfl) (fun _ _ _ => rfl) (fun t => by rw [after3_9]; unfold Dat.blockOf iblk3; rw [A_eq3]; try rfl) t d).trans
    (by unfold Dat.fetched Dat.blockOf iblk3; rw [A_eq3]; try rfl)
theorem after3_10 (c : Dev nD) (t : Fin cfg3.N) : (dat3 V c).after 10 t = iblk3 V c 10 t := by dsimp only [dat3]
theorem before3_10 (c : Dev nD) (t : Fin cfg3.N) (d) : (dat3 V c).before 10 t d = iblk3 V c 10 t :=
  ((dat3 V c).before_in_eq_fetched 10 rfl (fun _ => rfl) (fun _ _ _ => rfl) (fun t => by rw [after3_10]; unfold Dat.blockOf iblk3; rw [A_eq3]; try rfl) t d).trans
    (by unfold Dat.fetched Dat.blockOf iblk3; rw [A_eq3]; try rfl)
theorem after3_11 (c : Dev nD) (t : Fin cfg3.N) : (dat3 V c).after 11 t = out3_11 V c t := by dsimp only [dat3]

set_option maxHeartbeats 4000000 in
/-- The kernel body on whole staging memrefs, the inputs' at read contents and the output's at anything, runs to the
    continuation holding the inputs' as they were and the output's at its payload of the inputs'. -/
theorem sound_kernel3 (c : Dev nD) (E : Set ℕ) (i : grid3.Coords) (arg1 : Memref sig .tc .vmem S2000x64 .f32) (harg1 : arg1.IsWhole) (arg2 : Memref sig .tc .vmem S2000x64 .f32) (harg2 : arg2.IsWhole) (arg3 : Memref sig .tc .vmem S2000x8 .f32) (harg3 : arg3.IsWhole) (arg4 : Memref sig .tc .vmem S136x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S2000x64 .f32) (harg12 : arg12.IsWhole)
    (x0 : Vec F S2000x64 .f32) (x1 : Vec F S2000x64 .f32) (x2 : Vec F S2000x8 .f32) (x3 : Vec F S136x64 .f32) (x4 : Vec F S1x64 .f32) (x5 : Vec F S1x64 .f32) (x6 : Vec F S1x64 .f32) (x7 : Vec F S1x64 .f32) (x8 : Vec F S1x64 .f32) (x9 : Vec F S64x64 .f32) (x10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (k3_pay1 x0 (k3_pay2 x0 x1 x2 x3 x4 x7 x8 x5 x6) x9 x10)) -∗ K ⟨⟩))
      ⊢ wp frame (wpE (defs₀ (F := F)) Variants.none c none) E (cc3__node_mlp_kernel i arg1 harg1 arg2 harg2 arg3 harg3 arg4 harg4 arg5 harg5 arg6 harg6 arg7 harg7 arg8 harg8 arg9 harg9 arg10 harg10 arg11 harg11 arg12 harg12) K := by
  sl_unfold [cc3__node_mlp_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (read_writes_full arg12.view _ ![0, 0] off00 _ _).trans ?_
  show k3_pay1 (View.readAt (Elt F) arg1.view (Rect.unit (s := S2000x64) ![0, 0] S2000x64.size inb_S2000x64_S2000x64_0_0).toLoadRect f0) (k3_pay2 (View.readAt (Elt F) arg1.view (Rect.unit (s := S2000x64) ![0, 0] S2000x64.size inb_S2000x64_S2000x64_0_0).toLoadRect f0) (View.readAt (Elt F) arg2.view (Rect.unit (s := S2000x64) ![0, 0] S2000x64.size inb_S2000x64_S2000x64_0_0).toLoadRect f1) (View.readAt (Elt F) arg3.view (Rect.unit (s := S2000x8) ![0, 0] S2000x8.size inb_S2000x8_S2000x8_0_0).toLoadRect f2) (View.readAt (Elt F) arg4.view (Rect.unit (s := S136x64) ![0, 0] S136x64.size inb_S136x64_S136x64_0_0).toLoadRect f3) (View.readAt (Elt F) arg5.view (Rect.unit (s := S1x64) ![0, 0] S1x64.size inb_S1x64_S1x64_0_0).toLoadRect f4) (View.readAt (Elt F) arg8.view (Rect.unit (s := S1x64) ![0, 0] S1x64.size inb_S1x64_S1x64_0_0).toLoadRect f7) (View.readAt (Elt F) arg9.view (Rect.unit (s := S1x64) ![0, 0] S1x64.size inb_S1x64_S1x64_0_0).toLoadRect f8) (View.readAt (Elt F) arg6.view (Rect.unit (s := S1x64) ![0, 0] S1x64.size inb_S1x64_S1x64_0_0).toLoadRect f5) (View.readAt (Elt F) arg7.view (Rect.unit (s := S1x64) ![0, 0] S1x64.size inb_S1x64_S1x64_0_0).toLoadRect f6)) (View.readAt (Elt F) arg10.view (Rect.unit (s := S64x64) ![0, 0] S64x64.size inb_S64x64_S64x64_0_0).toLoadRect f9) (View.readAt (Elt F) arg11.view (Rect.unit (s := S1x64) ![0, 0] S1x64.size inb_S1x64_S1x64_0_0).toLoadRect f10) = _
  simp only [readAt_full arg1.view f0 ![0, 0] off00, readAt_full arg2.view f1 ![0, 0] off00, readAt_full arg3.view f2 ![0, 0] off00, readAt_full arg4.view f3 ![0, 0] off00, readAt_full arg5.view f4 ![0, 0] off00, readAt_full arg6.view f5 ![0, 0] off00, readAt_full arg7.view f6 ![0, 0] off00, readAt_full arg8.view f7 ![0, 0] off00, readAt_full arg9.view f8 ![0, 0] off00, readAt_full arg10.view f9 ![0, 0] off00, readAt_full arg11.view f10 ![0, 0] off00]

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

set_option maxHeartbeats 4000000 in
/-- The body at any point: the inputs' memrefs hold their blocks, so the kernel's triple applies; the invariant and the
    core's tallies pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  unfold out3_11
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.KRun

end
-- ==== Proof.KReg3.lean ====
import proofs.«110093_j8770323219157_1_alg».proof.Proof.KBody3
import proofs.«110093_j8770323219157_1_alg».proof.Proof.KOuts
import proofs.«110093_j8770323219157_1_alg».proof.Proof.KLemmas
import Idealize.ShloMosaic.Lib.Pipeline.RegionsLoop

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- An input window's array is, in the proof data, the entry contents at its buffer; -/
theorem hA3 (c : Dev nD) (w : Fin cfg3.W) : (pdats m 3 c).A w = V5 m (outs m) c (Pipeline.arrRef spec3 w) := rfl

/-- every window but the last is an input, over a buffer other than the region's output buffer. -/
theorem key3 : ∀ w : Fin cfg3.W, w ≠ 11 → (cfg3.win w).isOut = false ∧ Pipeline.arrRef spec3 w ∉ ([main_v58] : List (Ref sig .tc)) := by decide

/-- At region 3's exit each of its arrays holds what the pipeline leaves, -/
theorem hF3 (c : Dev nD) : ∀ w : Fin cfg3.W, (pdats m 3 c).arrAt w cfg3.N = (fun b => V6 m (outs m) c b : (b : Ref sig .tc) → Buf (Elt F) ((c : Thread nD τ).loc b)) (Pipeline.arrRef spec3 w) := by
  intro w
  by_cases h : w = 11
  · subst h; exact (V6_v58 m c).symm
  · obtain ⟨hin, hne⟩ := key3 w h
    exact ((pdats m 3 c).arrAt_in w hin _).trans ((hA3 m c w).trans (V6_of m (outs m) c _ hne).symm)
/-- and every other buffer what it held at entry. -/
theorem hrest3 (c : Dev nD) : ∀ b : Ref sig .tc, b ∉ Finset.univ.image (Pipeline.arrRef spec3) → V6 m (outs m) c b = V5 m (outs m) c b :=
  fun b hb => V6_of m (outs m) c b fun hmem => hb (by
    simp only [List.mem_cons, List.not_mem_nil, or_false] at hmem
    rcases hmem with rfl
    exact Finset.mem_image.mpr ⟨11, Finset.mem_univ _, rfl⟩)

set_option backward.isDefEq.respectTransparency.types false in
/-- REGION 3 over the thread state: entered from every unscoped buffer at the contents before it, left at the contents
    after it. Its arrays split out of the unscoped buffers and put back at the exit contents; the generator register
    into the invariant and out; nothing owed; no semaphore of the kernel's own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V5 m (outs m) c b) c).loose
  hwaits := Pipeline.hwaits_of_owed_zero _ _ _ _ L lv 3 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => V5 m (outs m) c b)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (fun b => V5 m (outs m) c b) (fun b => V6 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.KRun

end
-- ==== Proof.KRun.lean ====
import proofs.«110093_j8770323219157_1_alg».proof.Proof.KReg0
import proofs.«110093_j8770323219157_1_alg».proof.Proof.KReg1
import proofs.«110093_j8770323219157_1_alg».proof.Proof.KReg2
import proofs.«110093_j8770323219157_1_alg».proof.Proof.KReg3
import Idealize.ShloMosaic.Lib.Pipeline.RegionsLoop

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The rest that rides beside the buffers between any two items: the same at every boundary. -/
abbrev ER : Fin 5 → Dev nD → sProp 𝕄 := fun _ c => R c

/-- @main's items as segments on core `c`: the generated host segments, the four regions' records. -/
abbrev rsegs (c : Dev nD) : List (Pipeline.Seg (pcfgs (F := F)) Gen.adm (pdats m) () defs₀ 𝒱₀ L lv) :=
  Gen.segs m (outs m) 𝒱₀ L lv (ER (F := F)) () (pdats m) (reg0 m) (reg1 m) (reg2 m) (reg3 m) c

set_option backward.isDefEq.respectTransparency.types false in
set_option maxHeartbeats 4000000 in
/-- THE RUN. From any memory with zero counters every weakly fair execution of @main terminates, and every final memory
    holds the three result arrays at the last valuation's contents and each argument array as launched. -/
theorem run_main : θ_run (defs (F := F)) (onTc (τ := τ) (main (F := F))) ⟨m, fun _ => 0, ρ⟩ (fun r => ∀ c : Dev nD,
      r.2.mem ((c.tc : Thread nD τ).loc main_v58) = V6 m (outs m) c main_v58
      ∧ r.2.mem ((c.tc : Thread nD τ).loc main_v53) = V6 m (outs m) c main_v53
      ∧ r.2.mem ((c.tc : Thread nD τ).loc main_v38_0) = V6 m (outs m) c main_v38_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit_dev (pcfgs (F := F)) Gen.adm (pdats m) () cellOf_inj emb₁ defs₀ 𝒱₀ L lv m ρ main
    (rsegs m)
    (fun c Q => by
      rewrite [main_chain c, Pipeline.Seg.run_eq_chain,
        show (rsegs m c).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          Prog.lift (.customCall (Pipeline.entry 3) ()) ] from rfl]
      exact .rfl)
    (fun c => by simp only [rsegs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V6 m (outs m) c) ∗ ∃ r, prngReg c r))
    (hch := fun c => ⟨.rfl, .rfl, .rfl, .rfl, .rfl, .rfl, by
      show iprop(StableHlo.held (c : Thread nD τ) (Pipeline.ucRefs τ sig) (V6 m (outs m) c) ∗ R c)
        ⊢ iprop((StableHlo.held (c : Thread nD τ) (Pipeline.ucRefs τ sig) (V6 m (outs m) c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V6 m (outs m) c) s')
      isplitl [Hh] <;> iassumption)
    (hQ := fun s h c =>
      ⟨h c _ (mem_uc main_v58 (by decide)),
        h c _ (mem_uc main_v53 (by decide)),
        h c _ (mem_uc main_v38_0 (by decide)),
        (h c _ (mem_uc main_arg0 (by decide))).trans (V6_main_arg0 m (outs m) c),
        (h c _ (mem_uc main_arg1 (by decide))).trans (V6_main_arg1 m (outs m) c),
        (h c _ (mem_uc main_arg2 (by decide))).trans (V6_main_arg2 m (outs m) c),
        (h c _ (mem_uc main_arg3 (by decide))).trans (V6_main_arg3 m (outs m) c),
        (h c _ (mem_uc main_arg4 (by decide))).trans (V6_main_arg4 m (outs m) c),
        (h c _ (mem_uc main_arg5 (by decide))).trans (V6_main_arg5 m (outs m) c),
        (h c _ (mem_uc main_arg6 (by decide))).trans (V6_main_arg6 m (outs m) c),
        (h c _ (mem_uc main_arg7 (by decide))).trans (V6_main_arg7 m (outs m) c),
        (h c _ (mem_uc main_arg8 (by decide))).trans (V6_main_arg8 m (outs m) c),
        (h c _ (mem_uc main_arg9 (by decide))).trans (V6_main_arg9 m (outs m) c),
        (h c _ (mem_uc main_arg10 (by decide))).trans (V6_main_arg10 m (outs m) c),
        (h c _ (mem_uc main_arg11 (by decide))).trans (V6_main_arg11 m (outs m) c),
        (h c _ (mem_uc main_arg12 (by decide))).trans (V6_main_arg12 m (outs m) c),
        (h c _ (mem_uc main_arg13 (by decide))).trans (V6_main_arg13 m (outs m) c),
        (h c _ (mem_uc main_arg14 (by decide))).trans (V6_main_arg14 m (outs m) c),
        (h c _ (mem_uc main_arg15 (by decide))).trans (V6_main_arg15 m (outs m) c),
        (h c _ (mem_uc main_arg16 (by decide))).trans (V6_main_arg16 m (outs m) c),
        (h c _ (mem_uc main_arg17 (by decide))).trans (V6_main_arg17 m (outs m) c),
        (h c _ (mem_uc main_arg18 (by decide))).trans (V6_main_arg18 m (outs m) c),
        (h c _ (mem_uc main_arg19 (by decide))).trans (V6_main_arg19 m (outs m) c),
        (h c _ (mem_uc main_arg20 (by decide))).trans (V6_main_arg20 m (outs m) c)⟩)

end Cert.KernelIdeal.KRun

end
-- ==== Proof.KvHost.lean ====
/-
  What the kernel program's two stretches of host operations leave in the buffers the kernel regions read, at Ideal, as
  terms of the launch contents: the four row gathers through the normalised index columns, the parameter rows as [1,n]
  arrays; and after the edge kernels the updated coordinates and the aggregated messages as scatter-adds of the edge
  kernels' two output arrays.
-/
import proofs.«110093_j8770323219157_1_alg».proof.Proof.Gen.KernelIdeal.Regions
import Idealize.ShloMosaic.Lib.StableHlo.Run

set_option maxHeartbeats 1600000

noncomputable section

namespace Cert.KernelIdeal.KHost

open Idealize.ShloMosaic Idealize.ShloMosaic.TcCoe Idealize.SL.Sem Cert.KernelIdeal Cert.KernelIdeal.Gen

/-- A node index array made non-negative (a negative entry is shifted by the number of nodes), as a column. -/
def normIdx (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The rows of the node features at the (normalised) indices. -/
def gatherH (h : FVec Ideal S50000x64 .f32) (a : IVec S800000 32) : FVec Ideal S800000x64 .f32 :=
  Host.gather gather_S50000x64_S800000x1_S800000x64_1_0_n_n_0_1_164 h (normIdx a)

/-- The rows of the node coordinates at the (normalised) indices. -/
def gatherX (x : FVec Ideal S50000x4 .f32) (a : IVec S800000 32) : FVec Ideal S800000x4 .f32 :=
  Host.gather gather_S50000x4_S800000x1_S800000x4_1_0_n_n_0_1_14 x (normIdx a)

/-- Segment sum of the translations over the receiving node, divided by max(count, 1), times 1, added to x. -/
def xnewOf (x : FVec Ideal S50000x4 .f32) (a : IVec S800000 32) (tr : FVec Ideal S800000x4 .f32) : FVec Ideal S50000x4 .f32 :=
  addf x (mulf
    (Host.divf
      (Host.scatterAdd scatter_S50000x4_S800000x1_S800000x4_1_0_0_1
        (broadcastInDim S50000x4 ![] bcast_S_S50000x4 (constant (F := Ideal) S_ .f32 0x00000000#32))
        (broadcastInDim S800000x1 ![0] bcast_S800000_S800000x1_0 a) tr)
      (broadcastInDim S50000x4 ![0, 1] bcast_S50000x1_S50000x4_0_1
        (broadcastInDim S50000x1 ![0] bcast_S50000_S50000x1_0
          (maximumf
            (Host.scatterAdd scatter_S50000_S800000x1_S800000_n_0_0_1
              (broadcastInDim S50000 ![] bcast_S_S50000 (constant (F := Ideal) S_ .f32 0x00000000#32))
              (broadcastInDim S800000x1 ![0] bcast_S800000_S800000x1_0 a)
              (broadcastInDim S800000 ![] bcast_S_S800000 (constant (F := Ideal) S_ .f32 0x3F800000#32)))
            (broadcastInDim S50000 ![] bcast_S_S50000 (constant (F := Ideal) S_ .f32 0x3F800000#32))))))
    (broadcastInDim S50000x4 ![] bcast_S_S50000x4 (constant (F := Ideal) S_ .f32 0x3F800000#32)))

/-- Segment sum of the messages over the receiving node. -/
def aggOf (a : IVec S800000 32) (mm : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 a) mm

variable (m : (ℓ : Loc nD τ sig) → Buf (Elt Ideal) ℓ) (outs : Outs (F := Ideal)) (c : Dev nD)

theorem V1_v6 : (V1 m c main_v6 : S800000x64.Idx → EReal) = gatherH (V0 m c main_arg0) (V0 m c main_arg2) := by
  dsimp only [V1, hostOps0]; after_results_simp; rfl
theorem V1_v13 : (V1 m c main_v13 : S800000x64.Idx → EReal) = gatherH (V0 m c main_arg0) (V0 m c main_arg3) := by
  dsimp only [V1, hostOps0]; after_results_simp; rfl
theorem V1_v20 : (V1 m c main_v20 : S800000x4.Idx → EReal) = gatherX (V0 m c main_arg1) (V0 m c main_arg2) := by
  dsimp only [V1, hostOps0]; after_results_simp; rfl
theorem V1_v27 : (V1 m c main_v27 : S800000x4.Idx → EReal) = gatherX (V0 m c main_arg1) (V0 m c main_arg3) := by
  dsimp only [V1, hostOps0]; after_results_simp; rfl
theorem V1_v28 : (V1 m c main_v28 : S1x64.Idx → EReal) = shapeCast S1x64 (V0 m c main_arg6 : S64.Idx → EReal) shapeCasts_S64_S1x64 := by
  dsimp only [V1, hostOps0]; after_results_simp; rfl
theorem V1_v29 : (V1 m c main_v29 : S1x64.Idx → EReal) = shapeCast S1x64 (V0 m c main_arg7 : S64.Idx → EReal) shapeCasts_S64_S1x64 := by
  dsimp only [V1, hostOps0]; after_results_simp; rfl
theorem V1_v30 : (V1 m c main_v30 : S1x64.Idx → EReal) = shapeCast S1x64 (V0 m c main_arg9 : S64.Idx → EReal) shapeCasts_S64_S1x64 := by
  dsimp only [V1, hostOps0]; after_results_simp; rfl
theorem V1_v31 : (V1 m c main_v31 : S1x1.Idx → EReal) = shapeCast S1x1 (V0 m c main_arg11 : S1.Idx → EReal) shapeCasts_S1_S1x1 := by
  dsimp only [V1, hostOps0]; after_results_simp; rfl
theorem V1_v32 : (V1 m c main_v32 : S1x64.Idx → EReal) = shapeCast S1x64 (V0 m c main_arg13 : S64.Idx → EReal) shapeCasts_S64_S1x64 := by
  dsimp only [V1, hostOps0]; after_results_simp; rfl
theorem V1_v33 : (V1 m c main_v33 : S1x64.Idx → EReal) = shapeCast S1x64 (V0 m c main_arg16 : S64.Idx → EReal) shapeCasts_S64_S1x64 := by
  dsimp only [V1, hostOps0]; after_results_simp; rfl
theorem V1_v34 : (V1 m c main_v34 : S1x64.Idx → EReal) = shapeCast S1x64 (V0 m c main_arg17 : S64.Idx → EReal) shapeCasts_S64_S1x64 := by
  dsimp only [V1, hostOps0]; after_results_simp; rfl
theorem V1_v35 : (V1 m c main_v35 : S1x64.Idx → EReal) = shapeCast S1x64 (V0 m c main_arg18 : S64.Idx → EReal) shapeCasts_S64_S1x64 := by
  dsimp only [V1, hostOps0]; after_results_simp; rfl
theorem V1_v36 : (V1 m c main_v36 : S1x64.Idx → EReal) = shapeCast S1x64 (V0 m c main_arg20 : S64.Idx → EReal) shapeCasts_S64_S1x64 := by
  dsimp only [V1, hostOps0]; after_results_simp; rfl

/-- The second host stretch from any contents W: the updated coordinates. -/
theorem after2_v53 (W : Valuation τ sig (Elt Ideal)) :
    (StableHlo.after hostOps2 W main_v53 : S50000x4.Idx → EReal) = xnewOf (W main_arg1) (W main_arg2) (W main_v38_1) := by
  dsimp only [hostOps2]; after_results_simp; rfl
/-- The second host stretch from any contents W: the aggregated messages. -/
theorem after2_v56 (W : Valuation τ sig (Elt Ideal)) :
    (StableHlo.after hostOps2 W main_v56 : S50000x64.Idx → EReal) = aggOf (W main_arg2) (W main_v38_0) := by
  dsimp only [hostOps2]; after_results_simp; rfl

theorem V4_v53 : (V4 m outs c main_v53 : S50000x4.Idx → EReal)
    = xnewOf (V3 m outs c main_arg1) (V3 m outs c main_arg2) (V3 m outs c main_v38_1) := after2_v53 _
theorem V4_v56 : (V4 m outs c main_v56 : S50000x64.Idx → EReal)
    = aggOf (V3 m outs c main_arg2) (V3 m outs c main_v38_0) := after2_v56 _

end Cert.KernelIdeal.KHost

end
-- ==== Proof.KArr1.lean ====
/- From blocks to arrays, region 1 (the edge MLP, grid 400): each input window's block as rows of its array as the region finds it,
   and each output array after the whole grid, index by index, from what every point left in its block. -/
import proofs.«110093_j8770323219157_1_alg».proof.Proof.KData
import Idealize.ShloMosaic.Lib.Pipeline.Value
import Idealize.ShloMosaic.Lib.ValueIdx

set_option maxRecDepth 16384

noncomputable section

namespace Cert.KernelIdeal.KArr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.KRun

variable {F : FTy → Type} [FloatOps F] [Named F]
variable (V : VT F)

/-- Window 0's printed index map, decided over the grid: block row `t`, block column 0. -/
theorem idx1_0 : ∀ t : Fin cfg1.N, win1_0.index t (0 : Fin 2) = t.val ∧ win1_0.index t (1 : Fin 2) = 0 :=
  (by decide +kernel : ∀ t : Fin grid1.N, _)

/-- Window 0's block at point `t` is rows `2000·t … 2000·t + 1999` of its array. -/
theorem iblk1_0_apply (c : Dev nD) (t : Fin cfg1.N) (r : Fin 2000) (q : Fin 64) :
    (iblk1 V c 0 t : Vec F S2000x64 .f32) (ix2 r q)
      = (V c (Pipeline.arrRef spec1 0) : S800000x64.Idx → Elt F .f32) (ix2 ⟨t.val * 2000 + r.val, by have := t.isLt; have hN : cfg1.N = 400 := N_1; have := r.isLt; omega⟩ q) := by
  obtain ⟨e0, e1⟩ := idx1_0 t
  unfold iblk1
  rw [View.read_apply]
  show V c main_v6 _ = V c main_v6 _
  congr 1
  funext a
  apply Fin.ext
  match a with
  | ⟨0, _⟩ => show win1_0.index t (0 : Fin 2) * 2000 + 1 * r.val = t.val * 2000 + r.val; rw [e0]; omega
  | ⟨1, _⟩ => show win1_0.index t (1 : Fin 2) * 64 + 1 * q.val = q.val; rw [e1]; omega

/-- Window 1's printed index map, decided over the grid: block row `t`, block column 0. -/
theorem idx1_1 : ∀ t : Fin cfg1.N, win1_1.index t (0 : Fin 2) = t.val ∧ win1_1.index t (1 : Fin 2) = 0 :=
  (by decide +kernel : ∀ t : Fin grid1.N, _)

/-- Window 1's block at point `t` is rows `2000·t … 2000·t + 1999` of its array. -/
theorem iblk1_1_apply (c : Dev nD) (t : Fin cfg1.N) (r : Fin 2000) (q : Fin 64) :
    (iblk1 V c 1 t : Vec F S2000x64 .f32) (ix2 r q)
      = (V c (Pipeline.arrRef spec1 1) : S800000x64.Idx → Elt F .f32) (ix2 ⟨t.val * 2000 + r.val, by have := t.isLt; have hN : cfg1.N = 400 := N_1; have := r.isLt; omega⟩ q) := by
  obtain ⟨e0, e1⟩ := idx1_1 t
  unfold iblk1
  rw [View.read_apply]
  show V c main_v13 _ = V c main_v13 _
  congr 1
  funext a
  apply Fin.ext
  match a with
  | ⟨0, _⟩ => show win1_1.index t (0 : Fin 2) * 2000 + 1 * r.val = t.val * 2000 + r.val; rw [e0]; omega
  | ⟨1, _⟩ => show win1_1.index t (1 : Fin 2) * 64 + 1 * q.val = q.val; rw [e1]; omega

/-- Window 2's printed index map, decided over the grid: block row `t`, block column 0. -/
theorem idx1_2 : ∀ t : Fin cfg1.N, win1_2.index t (0 : Fin 2) = t.val ∧ win1_2.index t (1 : Fin 2) = 0 :=
  (by decide +kernel : ∀ t : Fin grid1.N, _)

/-- Window 2's block at point `t` is rows `2000·t … 2000·t + 1999` of its array. -/
theorem iblk1_2_apply (c : Dev nD) (t : Fin cfg1.N) (r : Fin 2000) (q : Fin 4) :
    (iblk1 V c 2 t : Vec F S2000x4 .f32) (ix2 r q)
      = (V c (Pipeline.arrRef spec1 2) : S800000x4.Idx → Elt F .f32) (ix2 ⟨t.val * 2000 + r.val, by have := t.isLt; have hN : cfg1.N = 400 := N_1; have := r.isLt; omega⟩ q) := by
  obtain ⟨e0, e1⟩ := idx1_2 t
  unfold iblk1
  rw [View.read_apply]
  show V c main_v20 _ = V c main_v20 _
  congr 1
  funext a
  apply Fin.ext
  match a with
  | ⟨0, _⟩ => show win1_2.index t (0 : Fin 2) * 2000 + 1 * r.val = t.val * 2000 + r.val; rw [e0]; omega
  | ⟨1, _⟩ => show win1_2.index t (1 : Fin 2) * 4 + 1 * q.val = q.val; rw [e1]; omega

/-- Window 3's printed index map, decided over the grid: block row `t`, block column 0. -/
theorem idx1_3 : ∀ t : Fin cfg1.N, win1_3.index t (0 : Fin 2) = t.val ∧ win1_3.index t (1 : Fin 2) = 0 :=
  (by decide +kernel : ∀ t : Fin grid1.N, _)

/-- Window 3's block at point `t` is rows `2000·t … 2000·t + 1999` of its array. -/
theorem iblk1_3_apply (c : Dev nD) (t : Fin cfg1.N) (r : Fin 2000) (q : Fin 4) :
    (iblk1 V c 3 t : Vec F S2000x4 .f32) (ix2 r q)
      = (V c (Pipeline.arrRef spec1 3) : S800000x4.Idx → Elt F .f32) (ix2 ⟨t.val * 2000 + r.val, by have := t.isLt; have hN : cfg1.N = 400 := N_1; have := r.isLt; omega⟩ q) := by
  obtain ⟨e0, e1⟩ := idx1_3 t
  unfold iblk1
  rw [View.read_apply]
  show V c main_v27 _ = V c main_v27 _
  congr 1
  funext a
  apply Fin.ext
  match a with
  | ⟨0, _⟩ => show win1_3.index t (0 : Fin 2) * 2000 + 1 * r.val = t.val * 2000 + r.val; rw [e0]; omega
  | ⟨1, _⟩ => show win1_3.index t (1 : Fin 2) * 4 + 1 * q.val = q.val; rw [e1]; omega

/-- Window 4's printed index map, decided over the grid: block (0, 0) at every point. -/
theorem idx1_4 : ∀ t : Fin cfg1.N, win1_4.index t (0 : Fin 2) = 0 ∧ win1_4.index t (1 : Fin 2) = 0 :=
  (by decide +kernel : ∀ t : Fin grid1.N, _)

/-- Window 4's block is its whole array at every point. -/
theorem iblk1_4_eq (c : Dev nD) (t : Fin cfg1.N) :
    (iblk1 V c 4 t : Vec F S130x64 .f32) = (V c (Pipeline.arrRef spec1 4) : S130x64.Idx → Elt F .f32) := by
  obtain ⟨e0, e1⟩ := idx1_4 t
  funext j
  unfold iblk1
  rw [View.read_apply]
  show V c main_arg5 _ = V c main_arg5 j
  congr 1
  funext a
  apply Fin.ext
  match a with
  | ⟨0, _⟩ => show win1_4.index t (0 : Fin 2) * 130 + 1 * (j 0).val = (j 0).val; rw [e0]; omega
  | ⟨1, _⟩ => show win1_4.index t (1 : Fin 2) * 64 + 1 * (j 1).val = (j 1).val; rw [e1]; omega

/-- Window 5's printed index map, decided over the grid: block (0, 0) at every point. -/
theorem idx1_5 : ∀ t : Fin cfg1.N, win1_5.index t (0 : Fin 2) = 0 ∧ win1_5.index t (1 : Fin 2) = 0 :=
  (by decide +kernel : ∀ t : Fin grid1.N, _)

/-- Window 5's block is its whole array at every point. -/
theorem iblk1_5_eq (c : Dev nD) (t : Fin cfg1.N) :
    (iblk1 V c 5 t : Vec F S1x64 .f32) = (V c (Pipeline.arrRef spec1 5) : S1x64.Idx → Elt F .f32) := by
  obtain ⟨e0, e1⟩ := idx1_5 t
  funext j
  unfold iblk1
  rw [View.read_apply]
  show V c main_v28 _ = V c main_v28 j
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 64 + 1 * (j 1).val = (j 1).val; rw [e1]; omega

/-- Window 6's printed index map, decided over the grid: block (0, 0) at every point. -/
theorem idx1_6 : ∀ t : Fin cfg1.N, win1_6.index t (0 : Fin 2) = 0 ∧ win1_6.index t (1 : Fin 2) = 0 :=
  (by decide +kernel : ∀ t : Fin grid1.N, _)

/-- Window 6's block is its whole array at every point. -/
theorem iblk1_6_eq (c : Dev nD) (t : Fin cfg1.N) :
    (iblk1 V c 6 t : Vec F S1x64 .f32) = (V c (Pipeline.arrRef spec1 6) : S1x64.Idx → Elt F .f32) := by
  obtain ⟨e0, e1⟩ := idx1_6 t
  funext j
  unfold iblk1
  rw [View.read_apply]
  show V c main_v29 _ = V c main_v29 j
  congr 1
  funext a
  apply Fin.ext
  match a with
  | ⟨0, _⟩ => show win1_6.index t (0 : Fin 2) * 1 + 1 * (j 0).val = (j 0).val; rw [e0]; omega
  | ⟨1, _⟩ => show win1_6.index t (1 : Fin 2) * 64 + 1 * (j 1).val = (j 1).val; rw [e1]; omega

/-- Window 7's printed index map, decided over the grid: block (0, 0) at every point. -/
theorem idx1_7 : ∀ t : Fin cfg1.N, win1_7.index t (0 : Fin 2) = 0 ∧ win1_7.index t (1 : Fin 2) = 0 :=
  (by decide +kernel : ∀ t : Fin grid1.N, _)

/-- Window 7's block is its whole array at every point. -/
theorem iblk1_7_eq (c : Dev nD) (t : Fin cfg1.N) :
    (iblk1 V c 7 t : Vec F S64x64 .f32) = (V c (Pipeline.arrRef spec1 7) : S64x64.Idx → Elt F .f32) := by
  obtain ⟨e0, e1⟩ := idx1_7 t
  funext j
  unfold iblk1
  rw [View.read_apply]
  show V c main_arg8 _ = V c main_arg8 j
  congr 1
  funext a
  apply Fin.ext
  match a with
  | ⟨0, _⟩ => show win1_7.index t (0 : Fin 2) * 64 + 1 * (j 0).val = (j 0).val; rw [e0]; omega
  | ⟨1, _⟩ => show win1_7.index t (1 : Fin 2) * 64 + 1 * (j 1).val = (j 1).val; rw [e1]; omega

/-- Window 8's printed index map, decided over the grid: block (0, 0) at every point. -/
theorem idx1_8 : ∀ t : Fin cfg1.N, win1_8.index t (0 : Fin 2) = 0 ∧ win1_8.index t (1 : Fin 2) = 0 :=
  (by decide +kernel : ∀ t : Fin grid1.N, _)

/-- Window 8's block is its whole array at every point. -/
theorem iblk1_8_eq (c : Dev nD) (t : Fin cfg1.N) :
    (iblk1 V c 8 t : Vec F S1x64 .f32) = (V c (Pipeline.arrRef spec1 8) : S1x64.Idx → Elt F .f32) := by
  obtain ⟨e0, e1⟩ := idx1_8 t
  funext j
  unfold iblk1
  rw [View.read_apply]
  show V c main_v30 _ = V c main_v30 j
  congr 1
  funext a
  apply Fin.ext
  match a with
  | ⟨0, _⟩ => show win1_8.index t (0 : Fin 2) * 1 + 1 * (j 0).val = (j 0).val; rw [e0]; omega
  | ⟨1, _⟩ => show win1_8.index t (1 : Fin 2) * 64 + 1 * (j 1).val = (j 1).val; rw [e1]; omega

/-- Window 9's printed index map, decided over the grid: block (0, 0) at every point. -/
theorem idx1_9 : ∀ t : Fin cfg1.N, win1_9.index t (0 : Fin 2) = 0 ∧ win1_9.index t (1 : Fin 2) = 0 :=
  (by decide +kernel : ∀ t : Fin grid1.N, _)

/-- Window 9's block is its whole array at every point. -/
theorem iblk1_9_eq (c : Dev nD) (t : Fin cfg1.N) :
    (iblk1 V c 9 t : Vec F S1x64 .f32) = (V c (Pipeline.arrRef spec1 9) : S1x64.Idx → Elt F .f32) := by
  obtain ⟨e0, e1⟩ := idx1_9 t
  funext j
  unfold iblk1
  rw [View.read_apply]
  show V c main_v37_0 _ = V c main_v37_0 j
  congr 1
  funext a
  apply Fin.ext
  match a with
  | ⟨0, _⟩ => show win1_9.index t (0 : Fin 2) * 1 + 1 * (j 0).val = (j 0).val; rw [e0]; omega
  | ⟨1, _⟩ => show win1_9.index t (1 : Fin 2) * 64 + 1 * (j 1).val = (j 1).val; rw [e1]; omega

/-- Window 10's printed index map, decided over the grid: block (0, 0) at every point. -/
theorem idx1_10 : ∀ t : Fin cfg1.N, win1_10.index t (0 : Fin 2) = 0 ∧ win1_10.index t (1 : Fin 2) = 0 :=
  (by decide +kernel : ∀ t : Fin grid1.N, _)

/-- Window 10's block is its whole array at every point. -/
theorem iblk1_10_eq (c : Dev nD) (t : Fin cfg1.N) :
    (iblk1 V c 10 t : Vec F S1x64 .f32) = (V c (Pipeline.arrRef spec1 10) : S1x64.Idx → Elt F .f32) := by
  obtain ⟨e0, e1⟩ := idx1_10 t
  funext j
  unfold iblk1
  rw [View.read_apply]
  show V c main_v37_1 _ = V c main_v37_1 j
  congr 1
  funext a
  apply Fin.ext
  match a with
  | ⟨0, _⟩ => show win1_10.index t (0 : Fin 2) * 1 + 1 * (j 0).val = (j 0).val; rw [e0]; omega
  | ⟨1, _⟩ => show win1_10.index t (1 : Fin 2) * 64 + 1 * (j 1).val = (j 1).val; rw [e1]; omega

/-- Window 11's printed index map, decided over the grid: block (0, 0) at every point. -/
theorem idx1_11 : ∀ t : Fin cfg1.N, win1_11.index t (0 : Fin 2) = 0 ∧ win1_11.index t (1 : Fin 2) = 0 :=
  (by decide +kernel : ∀ t : Fin grid1.N, _)

/-- Window 11's block is its whole array at every point. -/
theorem iblk1_11_eq (c : Dev nD) (t : Fin cfg1.N) :
    (iblk1 V c 11 t : Vec F S64x1 .f32) = (V c (Pipeline.arrRef spec1 11) : S64x1.Idx → Elt F .f32) := by
  obtain ⟨e0, e1⟩ := idx1_11 t
  funext j
  unfold iblk1
  rw [View.read_apply]
  show V c main_arg10 _ = V c main_arg10 j
  congr 1
  funext a
  apply Fin.ext
  match a with
  | ⟨0, _⟩ => show win1_11.index t (0 : Fin 2) * 64 + 1 * (j 0).val = (j 0).val; rw [e0]; omega
  | ⟨1, _⟩ => show win1_11.index t (1 : Fin 2) * 1 + 1 * (j 1).val = (j 1).val; rw [e1]; omega

/-- Window 12's printed index map, decided over the grid: block (0, 0) at every point. -/
theorem idx1_12 : ∀ t : Fin cfg1.N, win1_12.index t (0 : Fin 2) = 0 ∧ win1_12.index t (1 : Fin 2) = 0 :=
  (by decide +kernel : ∀ t : Fin grid1.N, _)

/-- Window 12's block is its whole array at every point. -/
theorem iblk1_12_eq (c : Dev nD) (t : Fin cfg1.N) :
    (iblk1 V c 12 t : Vec F S1x1 .f32) = (V c (Pipeline.arrRef spec1 12) : S1x1.Idx → Elt F .f32) := by
  obtain ⟨e0, e1⟩ := idx1_12 t
  funext j
  unfold iblk1
  rw [View.read_apply]
  show V c main_v31 _ = V c main_v31 j
  congr 1
  funext a
  apply Fin.ext
  match a with
  | ⟨0, _⟩ => show win1_12.index t (0 : Fin 2) * 1 + 1 * (j 0).val = (j 0).val; rw [e0]; omega
  | ⟨1, _⟩ => show win1_12.index t (1 : Fin 2) * 1 + 1 * (j 1).val = (j 1).val; rw [e1]; omega

/-- Window 13's printed index map, decided over the grid: block (0, 0) at every point. -/
theorem idx1_13 : ∀ t : Fin cfg1.N, win1_13.index t (0 : Fin 2) = 0 ∧ win1_13.index t (1 : Fin 2) = 0 :=
  (by decide +kernel : ∀ t : Fin grid1.N, _)

/-- Window 13's block is its whole array at every point. -/
theorem iblk1_13_eq (c : Dev nD) (t : Fin cfg1.N) :
    (iblk1 V c 13 t : Vec F S64x64 .f32) = (V c (Pipeline.arrRef spec1 13) : S64x64.Idx → Elt F .f32) := by
  obtain ⟨e0, e1⟩ := idx1_13 t
  funext j
  unfold iblk1
  rw [View.read_apply]
  show V c main_arg12 _ = V c main_arg12 j
  congr 1
  funext a
  apply Fin.ext
  match a with
  | ⟨0, _⟩ => show win1_13.index t (0 : Fin 2) * 64 + 1 * (j 0).val = (j 0).val; rw [e0]; omega
  | ⟨1, _⟩ => show win1_13.index t (1 : Fin 2) * 64 + 1 * (j 1).val = (j 1).val; rw [e1]; omega

/-- Window 14's printed index map, decided over the grid: block (0, 0) at every point. -/
theorem idx1_14 : ∀ t : Fin cfg1.N, win1_14.index t (0 : Fin 2) = 0 ∧ win1_14.index t (1 : Fin 2) = 0 :=
  (by decide +kernel : ∀ t : Fin grid1.N, _)

/-- Window 14's block is its whole array at every point. -/
theorem iblk1_14_eq (c : Dev nD) (t : Fin cfg1.N) :
    (iblk1 V c 14 t : Vec F S1x64 .f32) = (V c (Pipeline.arrRef spec1 14) : S1x64.Idx → Elt F .f32) := by
  obtain ⟨e0, e1⟩ := idx1_14 t
  funext j
  unfold iblk1
  rw [View.read_apply]
  show V c main_v32 _ = V c main_v32 j
  congr 1
  funext a
  apply Fin.ext
  match a with
  | ⟨0, _⟩ => show win1_14.index t (0 : Fin 2) * 1 + 1 * (j 0).val = (j 0).val; rw [e0]; omega
  | ⟨1, _⟩ => show win1_14.index t (1 : Fin 2) * 64 + 1 * (j 1).val = (j 1).val; rw [e1]; omega

/-- Window 15's printed index map, decided over the grid: block (0, 0) at every point. -/
theorem idx1_15 : ∀ t : Fin cfg1.N, win1_15.index t (0 : Fin 2) = 0 ∧ win1_15.index t (1 : Fin 2) = 0 :=
  (by decide +kernel : ∀ t : Fin grid1.N, _)

/-- Window 15's block is its whole array at every point. -/
theorem iblk1_15_eq (c : Dev nD) (t : Fin cfg1.N) :
    (iblk1 V c 15 t : Vec F S64x1 .f32) = (V c (Pipeline.arrRef spec1 15) : S64x1.Idx → Elt F .f32) := by
  obtain ⟨e0, e1⟩ := idx1_15 t
  funext j
  unfold iblk1
  rw [View.read_apply]
  show V c main_arg14 _ = V c main_arg14 j
  congr 1
  funext a
  apply Fin.ext
  match a with
  | ⟨0, _⟩ => show win1_15.index t (0 : Fin 2) * 64 + 1 * (j 0).val = (j 0).val; rw [e0]; omega
  | ⟨1, _⟩ => show win1_15.index t (1 : Fin 2) * 1 + 1 * (j 1).val = (j 1).val; rw [e1]; omega

/-- Window 16's printed index map, decided over the grid: block row `t`, block column 0. -/
theorem idx1_16 : ∀ t : Fin cfg1.N, win1_16.index t (0 : Fin 2) = t.val ∧ win1_16.index t (1 : Fin 2) = 0 :=
  (by decide +kernel : ∀ t : Fin grid1.N, _)

/-- What window 16's array holds after the run, index by index: row `e` is row `e % 2000` of what point `e / 2000` left. -/
def G1_16 (c : Dev nD) : S800000x64.Idx → Elt F .f32 := fun i =>
  out1_16 V c ⟨(i 0).val / 2000, by have h : (i 0).val < 800000 := (i 0).isLt; have hN : cfg1.N = 400 := N_1; omega⟩
    (ix2 ⟨(i 0).val % 2000, Nat.mod_lt _ (by decide)⟩ ⟨(i 1).val, (i 1).isLt⟩)

/-- At an index of point `t`'s block it is that point's element. -/
theorem G1_16_at (c : Dev nD) (t : Fin cfg1.N) (j : S2000x64.Idx) (i : S800000x64.Idx)
    (h0 : (i 0).val = t.val * 2000 + (j 0).val) (h1 : (i 1).val = (j 1).val) : G1_16 V c i = out1_16 V c t j := by
  have hj : (j 0).val < 2000 := (j 0).isLt
  have key : ∀ (t' : Fin cfg1.N) (x : S2000x64.Idx), t' = t → x = j → out1_16 V c t' x = out1_16 V c t j := by
    rintro _ _ rfl rfl; rfl
  unfold G1_16
  refine key _ _ (Fin.ext ?_) (funext fun a => ?_)
  · show (i 0).val / 2000 = t.val; omega
  · match a with
    | ⟨0, _⟩ => exact Fin.ext (by show (i 0).val % 2000 = (j 0).val; omega)
    | ⟨1, _⟩ => exact Fin.ext h1

/-- What point `t` writes back is block `t` of that array. -/
theorem flushed1_16_eq (c : Dev nD) (t : Fin cfg1.N) :
    (dat1 V c).flushed 16 t = ((cfg1.win 16).blk t).view.read (Elt F) (G1_16 V c) := by
  obtain ⟨e0, e1⟩ := idx1_16 t
  funext j
  rw [View.read_apply]
  show out1_16 V c t j = G1_16 V c (((cfg1.win 16).blk t).view.emb j)
  refine (G1_16_at V c t j _ ?_ ?_).symm
  · show win1_16.index t (0 : Fin 2) * 2000 + 1 * (j 0).val = t.val * 2000 + (j 0).val; rw [e0]; omega
  · show win1_16.index t (1 : Fin 2) * 64 + 1 * (j 1).val = (j 1).val; rw [e1]; omega

/-- An index of the array is in point `t`'s block iff each coordinate is in the block's range on its axis. -/
theorem mem_blk1_16 (t : Fin cfg1.N) (i : S800000x64.Idx) :
    i ∈ ((cfg1.win 16).blk t).view.set ↔ ∀ a : Fin 2, win1_16.index t a * S2000x64.size a ≤ (i a).val ∧ (i a).val < win1_16.index t a * S2000x64.size a + S2000x64.size a := by
  show i ∈ ((View.whole main_v38_0).slice (win1_16.rect t)).set ↔ _
  rw [View.set_slice_whole, Rect.mem_set_unit]
  exact Iff.rfl

/-- Every index of the array is in the block of the point its row falls in. -/
theorem cover1_16 (i : S800000x64.Idx) :
    ∃ t : Fin cfg1.N, (cfg1.win 16).flush t = true ∧ i ∈ ((cfg1.win 16).blk t).view.set := by
  have hi0 : (i 0).val < 800000 := (i 0).isLt
  have hi1 : (i 1).val < 64 := (i 1).isLt
  have hN : cfg1.N = 400 := N_1
  obtain ⟨t, ht⟩ : ∃ t : Fin cfg1.N, t.val = (i 0).val / 2000 := ⟨⟨(i 0).val / 2000, by omega⟩, rfl⟩
  obtain ⟨e0, e1⟩ := idx1_16 t
  refine ⟨t, flush1_16 t, ?_⟩
  rw [mem_blk1_16]
  intro a
  match a with
  | ⟨0, _⟩ => show win1_16.index t (0 : Fin 2) * 2000 ≤ (i 0).val ∧ (i 0).val < win1_16.index t (0 : Fin 2) * 2000 + 2000; rw [e0]; omega
  | ⟨1, _⟩ => show win1_16.index t (1 : Fin 2) * 64 ≤ (i 1).val ∧ (i 1).val < win1_16.index t (1 : Fin 2) * 64 + 64; rw [e1]; omega

/-- THE ARRAY after the whole grid. -/
theorem arr1_16_eq (c : Dev nD) : (dat1 V c).arrAt 16 cfg1.N = G1_16 V c :=
  (dat1 V c).arrAt_eq_of_cover 16 (G1_16 V c) (fun t _ => flushed1_16_eq V c t) cover1_16

/-- The same, at an index given by its row and column. -/
theorem arr1_16 (c : Dev nD) (e : Fin 800000) (f : Fin 64) :
    ((dat1 V c).arrAt 16 cfg1.N : S800000x64.Idx → Elt F .f32) (ix2 e f)
      = out1_16 V c ⟨e.val / 2000, by have h := e.isLt; have hN : cfg1.N = 400 := N_1; omega⟩ (ix2 ⟨e.val % 2000, Nat.mod_lt _ (by decide)⟩ f) := by
  rw [arr1_16_eq]; rfl

/-- The same, at row `r` of point `t`'s block. -/
theorem arr1_16_blk (c : Dev nD) (t : Fin cfg1.N) (r : Fin 2000) (q : Fin 64) :
    ((dat1 V c).arrAt 16 cfg1.N : S800000x64.Idx → Elt F .f32) (ix2 ⟨t.val * 2000 + r.val, by have := t.isLt; have hN : cfg1.N = 400 := N_1; have := r.isLt; omega⟩ q)
      = out1_16 V c t (ix2 r q) := by
  rw [arr1_16_eq]; exact G1_16_at V c t (ix2 r q) _ rfl rfl

/-- Window 17's printed index map, decided over the grid: block row `t`, block column 0. -/
theorem idx1_17 : ∀ t : Fin cfg1.N, win1_17.index t (0 : Fin 2) = t.val ∧ win1_17.index t (1 : Fin 2) = 0 :=
  (by decide +kernel : ∀ t : Fin grid1.N, _)

/-- What window 17's array holds after the run, index by index: row `e` is row `e % 2000` of what point `e / 2000` left. -/
def G1_17 (c : Dev nD) : S800000x4.Idx → Elt F .f32 := fun i =>
  out1_17 V c ⟨(i 0).val / 2000, by have h : (i 0).val < 800000 := (i 0).isLt; have hN : cfg1.N = 400 := N_1; omega⟩
    (ix2 ⟨(i 0).val % 2000, Nat.mod_lt _ (by decide)⟩ ⟨(i 1).val, (i 1).isLt⟩)

/-- At an index of point `t`'s block it is that point's element. -/
theorem G1_17_at (c : Dev nD) (t : Fin cfg1.N) (j : S2000x4.Idx) (i : S800000x4.Idx)
    (h0 : (i 0).val = t.val * 2000 + (j 0).val) (h1 : (i 1).val = (j 1).val) : G1_17 V c i = out1_17 V c t j := by
  have hj : (j 0).val < 2000 := (j 0).isLt
  have key : ∀ (t' : Fin cfg1.N) (x : S2000x4.Idx), t' = t → x = j → out1_17 V c t' x = out1_17 V c t j := by
    rintro _ _ rfl rfl; rfl
  unfold G1_17
  refine key _ _ (Fin.ext ?_) (funext fun a => ?_)
  · show (i 0).val / 2000 = t.val; omega
  · match a with
    | ⟨0, _⟩ => exact Fin.ext (by show (i 0).val % 2000 = (j 0).val; omega)
    | ⟨1, _⟩ => exact Fin.ext h1

/-- What point `t` writes back is block `t` of that array. -/
theorem flushed1_17_eq (c : Dev nD) (t : Fin cfg1.N) :
    (dat1 V c).flushed 17 t = ((cfg1.win 17).blk t).view.read (Elt F) (G1_17 V c) := by
  obtain ⟨e0, e1⟩ := idx1_17 t
  funext j
  rw [View.read_apply]
  show out1_17 V c t j = G1_17 V c (((cfg1.win 17).blk t).view.emb j)
  refine (G1_17_at V c t j _ ?_ ?_).symm
  · show win1_17.index t (0 : Fin 2) * 2000 + 1 * (j 0).val = t.val * 2000 + (j 0).val; rw [e0]; omega
  · show win1_17.index t (1 : Fin 2) * 4 + 1 * (j 1).val = (j 1).val; rw [e1]; omega

/-- An index of the array is in point `t`'s block iff each coordinate is in the block's range on its axis. -/
theorem mem_blk1_17 (t : Fin cfg1.N) (i : S800000x4.Idx) :
    i ∈ ((cfg1.win 17).blk t).view.set ↔ ∀ a : Fin 2, win1_17.index t a * S2000x4.size a ≤ (i a).val ∧ (i a).val < win1_17.index t a * S2000x4.size a + S2000x4.size a := by
  show i ∈ ((View.whole main_v38_1).slice (win1_17.rect t)).set ↔ _
  rw [View.set_slice_whole, Rect.mem_set_unit]
  exact Iff.rfl

/-- Every index of the array is in the block of the point its row falls in. -/
theorem cover1_17 (i : S800000x4.Idx) :
    ∃ t : Fin cfg1.N, (cfg1.win 17).flush t = true ∧ i ∈ ((cfg1.win 17).blk t).view.set := by
  have hi0 : (i 0).val < 800000 := (i 0).isLt
  have hi1 : (i 1).val < 4 := (i 1).isLt
  have hN : cfg1.N = 400 := N_1
  obtain ⟨t, ht⟩ : ∃ t : Fin cfg1.N, t.val = (i 0).val / 2000 := ⟨⟨(i 0).val / 2000, by omega⟩, rfl⟩
  obtain ⟨e0, e1⟩ := idx1_17 t
  refine ⟨t, flush1_17 t, ?_⟩
  rw [mem_blk1_17]
  intro a
  match a with
  | ⟨0, _⟩ => show win1_17.index t (0 : Fin 2) * 2000 ≤ (i 0).val ∧ (i 0).val < win1_17.index t (0 : Fin 2) * 2000 + 2000; rw [e0]; omega
  | ⟨1, _⟩ => show win1_17.index t (1 : Fin 2) * 4 ≤ (i 1).val ∧ (i 1).val < win1_17.index t (1 : Fin 2) * 4 + 4; rw [e1]; omega

/-- THE ARRAY after the whole grid. -/
theorem arr1_17_eq (c : Dev nD) : (dat1 V c).arrAt 17 cfg1.N = G1_17 V c :=
  (dat1 V c).arrAt_eq_of_cover 17 (G1_17 V c) (fun t _ => flushed1_17_eq V c t) cover1_17

/-- The same, at an index given by its row and column. -/
theorem arr1_17 (c : Dev nD) (e : Fin 800000) (f : Fin 4) :
    ((dat1 V c).arrAt 17 cfg1.N : S800000x4.Idx → Elt F .f32) (ix2 e f)
      = out1_17 V c ⟨e.val / 2000, by have h := e.isLt; have hN : cfg1.N = 400 := N_1; omega⟩ (ix2 ⟨e.val % 2000, Nat.mod_lt _ (by decide)⟩ f) := by
  rw [arr1_17_eq]; rfl

/-- The same, at row `r` of point `t`'s block. -/
theorem arr1_17_blk (c : Dev nD) (t : Fin cfg1.N) (r : Fin 2000) (q : Fin 4) :
    ((dat1 V c).arrAt 17 cfg1.N : S800000x4.Idx → Elt F .f32) (ix2 ⟨t.val * 2000 + r.val, by have := t.isLt; have hN : cfg1.N = 400 := N_1; have := r.isLt; omega⟩ q)
      = out1_17 V c t (ix2 r q) := by
  rw [arr1_17_eq]; exact G1_17_at V c t (ix2 r q) _ rfl rfl

end Cert.KernelIdeal.KArr

end
-- ==== Proof.Spec.lean ====
/-
  The mathematics both programs compute, row by row, on the extended reals.
  An edge e carries two node rows h_i, h_j (64 entries each) and two coordinate 4-vectors x_i, x_j.
  Its Minkowski features are ψ(2·u₀ − Σₖ uₖ) for u = (x_i − x_j)² and for u = x_i·x_j (entrywise), with
  ψ(p) = sign p · log(|p| + 1); the feature row is (h_i, h_j, ψ-norm, ψ-dot), 130 entries.
  Float literals stay the words the programs print: the same word on both sides is never evaluated.
-/
import Idealize.ShloMosaic.PureOps.Ideal

noncomputable section

namespace Cert.Spec

open Idealize.ShloMosaic

/-- The literal 2.0 as printed. -/
abbrev two : EReal := Ideal.ofBits .f32 0x40000000#32
/-- The literal 1.0 as printed. -/
abbrev one : EReal := Ideal.ofBits .f32 0x3F800000#32

/-- 2·u₀ − Σₖ uₖ over a 4-vector: the Minkowski form of an entrywise product. -/
def mink (u : Fin 4 → EReal) : EReal := two * u 0 - ∑ k : Fin 4, u k

/-- ψ(p) = sign p · log(|p| + 1), with |p| = max p (−p). -/
def psi (p : EReal) : EReal := Ideal.sign p * Ideal.log (max p (-p) + one)

/-- The ψ-norm feature of an edge: ψ of the Minkowski form of (x_i − x_j)². -/
def normFeat (xi xj : Fin 4 → EReal) : EReal := psi (mink fun a => (xi a - xj a) * (xi a - xj a))

/-- The ψ-dot feature of an edge: ψ of the Minkowski form of x_i · x_j. -/
def dotFeat (xi xj : Fin 4 → EReal) : EReal := psi (mink fun a => xi a * xj a)

/-- The 130-entry feature row of an edge: h_i, h_j, the ψ-norm, the ψ-dot. -/
def feat (hi hj : Fin 64 → EReal) (xi xj : Fin 4 → EReal) (k : Fin 130) : EReal :=
  if h : k.val < 64 then hi ⟨k.val, h⟩
  else if h2 : k.val < 128 then hj ⟨k.val - 64, by omega⟩
  else if k.val = 128 then normFeat xi xj else dotFeat xi xj

/-- A row times a weight matrix: Σₖ rowₖ · W k f. -/
def rowDot {K N : ℕ} (row : Fin K → EReal) (W : Fin K → Fin N → EReal) (f : Fin N) : EReal := ∑ k : Fin K, row k * W k f

/-- The literal 0.0 as printed. -/
abbrev zeroW : EReal := Ideal.ofBits .f32 0x00000000#32
/-- The BatchNorm epsilon as printed (the word of 1e-5). -/
abbrev epsW : EReal := Ideal.ofBits .f32 0x3727C5AC#32
/-- The clip bounds ±100.0 as printed. -/
abbrev hiW : EReal := Ideal.ofBits .f32 0x42C80000#32
abbrev loW : EReal := Ideal.ofBits .f32 0xC2C80000#32

/-- relu x = max x 0. -/
def relu (x : EReal) : EReal := max x zeroW

/-- Normalise, scale and shift with a reciprocal square root: (o − μ)·rsqrt(v + ε)·g + b. -/
def bnK (o mean var g b : EReal) : EReal := (o - mean) * Ideal.rsqrt (var + epsW) * g + b

/-- Normalise, scale and shift with a quotient: (o − μ)/sqrt(v + ε)·g + b. -/
def bnR (o mean var g b : EReal) : EReal := Ideal.div (o - mean) (Ideal.sqrt (var + epsW)) * g + b

/-- The gate of a message: logistic(Σ o₂·W_m + b_m). -/
def gate (o2 : Fin 64 → EReal) (Wm : Fin 64 → Fin 1 → EReal) (bm : EReal) : EReal :=
  Ideal.logistic (rowDot o2 Wm 0 + bm)

/-- clip to [−100, 100]: min 100 (max (−100) x). -/
def clipT (x : EReal) : EReal := min hiW (max loW x)

/-- The edge message and translation of one edge from its pre-activation second layer `p2` (before relu):
    o₂ = relu p2, m = o₂·gate(o₂), and the coordinate update clip((x_i − x_j)·φ_x(m)). -/
def msg (p2 : Fin 64 → EReal) (Wm : Fin 64 → Fin 1 → EReal) (bm : EReal) (f : Fin 64) : EReal :=
  relu (p2 f) * gate (fun q => relu (p2 q)) Wm bm

def phx (m : Fin 64 → EReal) (Wx1 : Fin 64 → Fin 64 → EReal) (bx1 : Fin 64 → EReal) (Wx2 : Fin 64 → Fin 1 → EReal) : EReal :=
  rowDot (fun q => relu (rowDot m Wx1 q + bx1 q)) Wx2 0

def trans (xd : Fin 4 → EReal) (ph : EReal) (a : Fin 4) : EReal := clipT (xd a * ph)

end Cert.Spec

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibLayout.lean ====
/-
  Small layout facts read at an index, for two-dimensional arrays with a unit axis: a vector turned into a
  column, a column broadcast across columns. (The row forms and the plain transpose are in the library.)
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to the column shape `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element `[1]` array cast to `[1, 1]` reads the operand's one element. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show (0 : ℕ) = u.val * 1 + v.val
    rw [hu, hv])

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibLayout
-- ==== Proof.KvFeat.lean ====
/-
  The edge kernels' feature payloads read at a row: at Ideal the ψ-norm and the pre-ψ dot column of a block are the
  row-level functions of the block's coordinate rows.
-/
import proofs.«110093_j8770323219157_1_alg».proof.Proof.Gen.KernelIdeal.Skeleton
import proofs.«110093_j8770323219157_1_alg».proof.Proof.Spec
import proofs.«110093_j8770323219157_1_alg».proof.Proof.LibAxisFold
import proofs.«110093_j8770323219157_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen

/-- The kernel's spelling of sign p · log(|p| + 1) over a whole vector is ψ at each element. -/
theorem psi_vec {s : Shape} (p : FVec Ideal s .f32) (i : s.Idx) :
    mulf (select (cmpf .ogt (absf p) (broadcast s (FloatOps.ofBits .f32 0x00000000#32)))
           (select (cmpf .olt p (constant s .f32 0x00000000#32)) (constant s .f32 0xBF800000#32) (constant s .f32 0x3F800000#32)) p)
         (log (addf (absf p) (broadcast s (FloatOps.ofBits .f32 0x3F800000#32)))) i
      = Spec.psi (p i) :=
  congrArg₂ (· * ·) (Ideal.jnp_sign_eq_sign_f32 (p i)) rfl

/-- 2·u₀ − Σₖ uₖ of a [2000,4] block's row, as the kernels spell it (a slice of column 0, a lane sum, a cast to a column). -/
theorem mink_col (u : FVec Ideal S2000x4 .f32) (hφ : FKind.Formats .f32)
    (hacc : (0x00000000#32 : BitVec (FTy.f32).bits) = FKind.add.neutral .f32 hφ) (r : Fin 2000) :
    subf (mulf (broadcast S2000x1 (FloatOps.ofBits .f32 0x40000000#32))
            (extractStridedSlice S2000x1 ![0, 0] u slices_S2000x4_o0_0_S2000x1))
         (shapeCast S2000x1 (multiReduction .add [1] S2000 u 0x00000000#32 reduces_S2000x4_S2000 hφ hacc) shapeCasts_S2000_S2000x1)
         (ix2 r (0 : Fin 1))
      = Spec.mink fun k => u (ix2 r k) := by
  show _ * _ - _ = _
  rw [slice2_axis1_apply 0 u slices_S2000x4_o0_0_S2000x1 r (0 : Fin 1) (0 : Fin 4) rfl,
    Cert.LibLayout.shapeCast_a_a1_apply _ shapeCasts_S2000_S2000x1 r (0 : Fin 1),
    Cert.AxisFold.row_sum u reduces_S2000x4_S2000 hφ hacc r]
  rfl

/-- Region 0's ψ-norm column at row r is the ψ-norm feature of the block's coordinate rows. -/
theorem k0_pay12_apply (v7 v9 : Vec Ideal S2000x4 .f32) (r : Fin 2000) :
    k0_pay12 (F := Ideal) v7 v9 (ix2 r (0 : Fin 1)) = Spec.normFeat (fun k => v7 (ix2 r k)) (fun k => v9 (ix2 r k)) := by
  unfold k0_pay12 k0_pay10 k0_pay11
  simp only [shapeCast_self]
  refine (psi_vec _ _).trans (congrArg Spec.psi ?_)
  exact mink_col _ _ _ r

/-- Region 0's pre-ψ dot column at row r is the Minkowski form of the entrywise product of the coordinate rows. -/
theorem k0_pay13_apply (v7 v9 : Vec Ideal S2000x4 .f32) (r : Fin 2000) :
    k0_pay13 (F := Ideal) v7 v9 (ix2 r (0 : Fin 1)) = Spec.mink fun k => v7 (ix2 r k) * v9 (ix2 r k) := by
  unfold k0_pay13 k0_pay10 k0_pay11
  simp only [shapeCast_self]
  exact mink_col _ _ _ r

end Cert.KernelIdeal.KVal

end
-- ==== Proof.LibConcat.lean ====
/-
  A concatenation along the lane axis read at an index: which piece holds column k, and at which column of it.
  Two arrangements: rows of 64 + 64 + 1 + 1 = 130 entries, and rows of 64 + 64 + 8 = 136 entries; any number of rows.
-/
import Idealize.ShloMosaic.Lib.ValueIdx
import Idealize.ShloMosaic.Lib.Pipeline.Value

namespace Cert.LibConcat

open Idealize.ShloMosaic Idealize.ShloMosaic.ValueIdx

variable {α : Type}

/-- Column k of a row laid out as 64 + 64 + 1 + 1 entries. -/
def sel4 (a b : Fin 64 → α) (c d : α) (k : Fin 130) : α :=
  if h : k.val < 64 then a ⟨k.val, h⟩
  else if h2 : k.val < 128 then b ⟨k.val - 64, by omega⟩
  else if k.val = 128 then c else d

/-- Column k of a row laid out as 64 + 64 + 8 entries. -/
def sel3 (a b : Fin 64 → α) (c : Fin 8 → α) (k : Fin 136) : α :=
  if h : k.val < 64 then a ⟨k.val, h⟩
  else if h2 : k.val < 128 then b ⟨k.val - 64, by omega⟩
  else c ⟨k.val - 128, by omega⟩

/-- A [n,64] ++ [n,64] ++ [n,1] ++ [n,1] concatenation along axis 1 at (r, k) is the piece holding column k, at row r. -/
theorem concat4_apply {n : ℕ} (x1 x2 : (⟨2, ![n, 64]⟩ : Shape).Idx → α) (x3 x4 : (⟨2, ![n, 1]⟩ : Shape).Idx → α)
    (h : Shape.Concatenates [(⟨2, ![n, 64]⟩ : Shape), ⟨2, ![n, 64]⟩, ⟨2, ![n, 1]⟩, ⟨2, ![n, 1]⟩] ⟨2, ![n, 130]⟩ 1)
    (r : Fin n) (k : Fin 130) :
    concatenate ⟨2, ![n, 130]⟩ 1 [⟨⟨2, ![n, 64]⟩, x1⟩, ⟨⟨2, ![n, 64]⟩, x2⟩, ⟨⟨2, ![n, 1]⟩, x3⟩, ⟨⟨2, ![n, 1]⟩, x4⟩] h (ix2 r k)
      = sel4 (fun q => x1 (ix2 r q)) (fun q => x2 (ix2 r q)) (x3 (ix2 r (0 : Fin 1))) (x4 (ix2 r (0 : Fin 1))) k := by
  unfold sel4
  by_cases h1 : k.val < 64
  · rw [dif_pos h1]
    refine concatenate_apply_piece (t := ⟨2, ![n, 130]⟩) (1 : Fin 2) [⟨⟨2, ![n, 64]⟩, x1⟩, ⟨⟨2, ![n, 64]⟩, x2⟩, ⟨⟨2, ![n, 1]⟩, x3⟩, ⟨⟨2, ![n, 1]⟩, x4⟩] h (ix2 r k) 0 (by simp) ⟨2, ![n, 64]⟩ x1 rfl rfl 0 rfl (ix2 r ⟨k.val, h1⟩) ?_ ?_
    · intro b hb
      match b with
      | ⟨0, _⟩ => rfl
      | ⟨1, _⟩ => exact absurd rfl hb
    · show 0 + k.val = k.val
      omega
  · rw [dif_neg h1]
    by_cases h2 : k.val < 128
    · rw [dif_pos h2]
      refine concatenate_apply_piece (t := ⟨2, ![n, 130]⟩) (1 : Fin 2) [⟨⟨2, ![n, 64]⟩, x1⟩, ⟨⟨2, ![n, 64]⟩, x2⟩, ⟨⟨2, ![n, 1]⟩, x3⟩, ⟨⟨2, ![n, 1]⟩, x4⟩] h (ix2 r k) 1 (by simp) ⟨2, ![n, 64]⟩ x2 rfl rfl 64 rfl (ix2 r ⟨k.val - 64, by omega⟩) ?_ ?_
      · intro b hb
        match b with
        | ⟨0, _⟩ => rfl
        | ⟨1, _⟩ => exact absurd rfl hb
      · show 64 + (k.val - 64) = k.val
        omega
    · rw [dif_neg h2]
      by_cases h3 : k.val = 128
      · rw [if_pos h3]
        refine concatenate_apply_piece (t := ⟨2, ![n, 130]⟩) (1 : Fin 2) [⟨⟨2, ![n, 64]⟩, x1⟩, ⟨⟨2, ![n, 64]⟩, x2⟩, ⟨⟨2, ![n, 1]⟩, x3⟩, ⟨⟨2, ![n, 1]⟩, x4⟩] h (ix2 r k) 2 (by simp) ⟨2, ![n, 1]⟩ x3 rfl rfl 128 rfl (ix2 r (0 : Fin 1)) ?_ ?_
        · intro b hb
          match b with
          | ⟨0, _⟩ => rfl
          | ⟨1, _⟩ => exact absurd rfl hb
        · show 128 + 0 = k.val
          omega
      · rw [if_neg h3]
        have hk := k.isLt
        refine concatenate_apply_piece (t := ⟨2, ![n, 130]⟩) (1 : Fin 2) [⟨⟨2, ![n, 64]⟩, x1⟩, ⟨⟨2, ![n, 64]⟩, x2⟩, ⟨⟨2, ![n, 1]⟩, x3⟩, ⟨⟨2, ![n, 1]⟩, x4⟩] h (ix2 r k) 3 (by simp) ⟨2, ![n, 1]⟩ x4 rfl rfl 129 rfl (ix2 r (0 : Fin 1)) ?_ ?_
        · intro b hb
          match b with
          | ⟨0, _⟩ => rfl
          | ⟨1, _⟩ => exact absurd rfl hb
        · show 129 + 0 = k.val
          omega

/-- A [n,64] ++ [n,64] ++ [n,8] concatenation along axis 1 at (r, k) is the piece holding column k, at row r. -/
theorem concat3_apply {n : ℕ} (x1 x2 : (⟨2, ![n, 64]⟩ : Shape).Idx → α) (x3 : (⟨2, ![n, 8]⟩ : Shape).Idx → α)
    (h : Shape.Concatenates [(⟨2, ![n, 64]⟩ : Shape), ⟨2, ![n, 64]⟩, ⟨2, ![n, 8]⟩] ⟨2, ![n, 136]⟩ 1)
    (r : Fin n) (k : Fin 136) :
    concatenate ⟨2, ![n, 136]⟩ 1 [⟨⟨2, ![n, 64]⟩, x1⟩, ⟨⟨2, ![n, 64]⟩, x2⟩, ⟨⟨2, ![n, 8]⟩, x3⟩] h (ix2 r k)
      = sel3 (fun q => x1 (ix2 r q)) (fun q => x2 (ix2 r q)) (fun q => x3 (ix2 r q)) k := by
  unfold sel3
  by_cases h1 : k.val < 64
  · rw [dif_pos h1]
    refine concatenate_apply_piece (t := ⟨2, ![n, 136]⟩) (1 : Fin 2) [⟨⟨2, ![n, 64]⟩, x1⟩, ⟨⟨2, ![n, 64]⟩, x2⟩, ⟨⟨2, ![n, 8]⟩, x3⟩] h (ix2 r k) 0 (by simp) ⟨2, ![n, 64]⟩ x1 rfl rfl 0 rfl (ix2 r ⟨k.val, h1⟩) ?_ ?_
    · intro b hb
      match b with
      | ⟨0, _⟩ => rfl
      | ⟨1, _⟩ => exact absurd rfl hb
    · show 0 + k.val = k.val
      omega
  · rw [dif_neg h1]
    by_cases h2 : k.val < 128
    · rw [dif_pos h2]
      refine concatenate_apply_piece (t := ⟨2, ![n, 136]⟩) (1 : Fin 2) [⟨⟨2, ![n, 64]⟩, x1⟩, ⟨⟨2, ![n, 64]⟩, x2⟩, ⟨⟨2, ![n, 8]⟩, x3⟩] h (ix2 r k) 1 (by simp) ⟨2, ![n, 64]⟩ x2 rfl rfl 64 rfl (ix2 r ⟨k.val - 64, by omega⟩) ?_ ?_
      · intro b hb
        match b with
        | ⟨0, _⟩ => rfl
        | ⟨1, _⟩ => exact absurd rfl hb
      · show 64 + (k.val - 64) = k.val
        omega
    · rw [dif_neg h2]
      have hk := k.isLt
      refine concatenate_apply_piece (t := ⟨2, ![n, 136]⟩) (1 : Fin 2) [⟨⟨2, ![n, 64]⟩, x1⟩, ⟨⟨2, ![n, 64]⟩, x2⟩, ⟨⟨2, ![n, 8]⟩, x3⟩] h (ix2 r k) 2 (by simp) ⟨2, ![n, 8]⟩ x3 rfl rfl 128 rfl (ix2 r ⟨k.val - 128, by omega⟩) ?_ ?_
      · intro b hb
        match b with
        | ⟨0, _⟩ => rfl
        | ⟨1, _⟩ => exact absurd rfl hb
      · show 128 + (k.val - 128) = k.val
        omega

end Cert.LibConcat
-- ==== Proof.LibApply.lean ====
/-
  Elementwise operations read at an index at Ideal: each is the scalar operation of the operand's element.
  (The library states these for + − × max min and the format changes; here the remaining ones the two programs use.)
-/
import Idealize.ShloMosaic.Lib.ValueIdx
import Idealize.ShloMosaic.PureOps.Ideal.Laws

namespace Cert.LibApply

open Idealize.ShloMosaic

variable {s : Shape} {φ : FTy}

theorem rsqrt_apply (a : FVec Ideal s φ) (i : s.Idx) : rsqrt a i = Ideal.rsqrt (a i) := rfl
theorem logistic_apply (a : FVec Ideal s φ) (i : s.Idx) : logistic a i = Ideal.logistic (a i) := rfl
theorem log_apply (a : FVec Ideal s φ) (i : s.Idx) : log a i = Ideal.log (a i) := rfl
theorem absf_apply (a : FVec Ideal s φ) (i : s.Idx) : absf a i = max (a i) (-(a i)) := rfl

theorem host_sqrt_apply (a : FVec Ideal s φ) (i : s.Idx) : Host.sqrt a i = Ideal.sqrt (a i) := rfl
theorem host_log_apply (a : FVec Ideal s φ) (i : s.Idx) : Host.log a i = Ideal.log (a i) := rfl
theorem host_exp_apply (a : FVec Ideal s φ) (i : s.Idx) : Host.exp a i = Ideal.exp (a i) := rfl
theorem host_negf_apply (a : FVec Ideal s φ) (i : s.Idx) : Host.negf a i = -(a i) := rfl
theorem host_sign_apply (a : FVec Ideal s φ) (i : s.Idx) : Host.sign a i = Ideal.sign (a i) := rfl
theorem host_absf_apply (a : FVec Ideal s φ) (i : s.Idx) : Host.absf a i = max (a i) (-(a i)) := rfl
theorem host_divf_apply (a b : FVec Ideal s φ) (i : s.Idx) : Host.divf a b i = Ideal.div (a i) (b i) := rfl

end Cert.LibApply
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.KvEdge.lean ====
/-
  The edge MLP kernel's payloads read at an index. At Ideal the block's second-layer pre-activation at (r, f), its
  message at (r, f) and its clipped translation at (r, a) are the row-level functions of row r of the input blocks and of
  the weights: the matrix products are sums over the contracted coordinate, the [1,64] rows and [2000,1] columns are
  broadcast along the other axis, and the changes of float format are the identity.
-/
import proofs.«110093_j8770323219157_1_alg».proof.Proof.Gen.KernelIdeal.Skeleton
import proofs.«110093_j8770323219157_1_alg».proof.Proof.Spec
import proofs.«110093_j8770323219157_1_alg».proof.Proof.KvFeat
import proofs.«110093_j8770323219157_1_alg».proof.Proof.LibConcat
import proofs.«110093_j8770323219157_1_alg».proof.Proof.LibApply
import proofs.«110093_j8770323219157_1_alg».proof.Proof.LibPlainDot
import proofs.«110093_j8770323219157_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Idealize.ShloMosaic Idealize.ShloMosaic.ValueIdx Cert.KernelIdeal Cert.KernelIdeal.Gen Cert.LibApply

/-- The ψ-dot column as region 1's second part receives it: the select between the signed unit and the value, times the log. -/
def dcol (v37 v43 v44 v45 : FVec Ideal S2000x1 .f32) : FVec Ideal S2000x1 .f32 :=
  mulf (select (cmpf .ogt v44 v45) v43 v37) (log (addf (absf v37) (broadcast S2000x1 (FloatOps.ofBits .f32 0x3F800000#32))))

theorem plain_130 : Cert.PlainDot.IsPlain dot_S2000x130_S130x64_S2000x64_1_0_0_1_n_n := ⟨rfl, rfl, rfl, rfl, rfl, rfl⟩
theorem plain_64 : Cert.PlainDot.IsPlain dot_S2000x64_S64x64_S2000x64_1_0_0_1_n_n := ⟨rfl, rfl, rfl, rfl, rfl, rfl⟩
theorem plain_64x1 : Cert.PlainDot.IsPlain dot_S2000x64_S64x1_S2000x1_1_0_0_1_n_n := ⟨rfl, rfl, rfl, rfl, rfl, rfl⟩

/-- Region 1's second-layer pre-activation at (r, f): Σ_q relu(bn(Σ_k feat_k·W₁ k q))·W₂ q f + b₂ f. -/
theorem k1_pay11_apply (v1 v3 : FVec Ideal S2000x64 .f32) (v30 v37 v43 v44 v45 : FVec Ideal S2000x1 .f32)
    (v55 : Vec Ideal S130x64 .f32) (v58 v62 v69 v73 : Vec Ideal S1x64 .f32) (v80 : Vec Ideal S64x64 .f32) (v83 : Vec Ideal S1x64 .f32)
    (r : Fin 2000) (f : Fin 64) :
    k1_pay11 (F := Ideal) v1 v3 v30 v37 v43 v44 v45 v55 v58 v62 v69 v73 v80 v83 (ix2 r f)
      = Spec.rowDot (fun q => Spec.relu (Spec.bnK
            (Spec.rowDot (Cert.LibConcat.sel4 (fun q => v1 (ix2 r q)) (fun q => v3 (ix2 r q)) (v30 (ix2 r (0 : Fin 1)))
                (dcol v37 v43 v44 v45 (ix2 r (0 : Fin 1)))) (fun k q => v55 (ix2 k q)) q)
            (v58 (ix2 (0 : Fin 1) q)) (v62 (ix2 (0 : Fin 1) q)) (v69 (ix2 (0 : Fin 1) q)) (v73 (ix2 (0 : Fin 1) q))))
          (fun k q => v80 (ix2 k q)) f + v83 (ix2 (0 : Fin 1) f) := by
  unfold k1_pay11
  simp only [shapeCast_self, addf_apply, mulf_apply, subf_apply, maximumf_apply, truncf_apply, broadcast_apply, rsqrt_apply,
    broadcastTo_1b_ab_apply, Cert.PlainDot.matmul_apply _ plain_64, Cert.PlainDot.matmul_apply _ plain_130,
    Cert.LibConcat.concat4_apply]
  rfl

/-- Region 1's message at (r, f): relu(p₂ f)·logistic(Σ_q relu(p₂ q)·W_m q + b_m). -/
theorem k1_pay12_apply (v86 : FVec Ideal S2000x64 .f32) (v90 : Vec Ideal S64x1 .f32) (v93 : Vec Ideal S1x1 .f32)
    (r : Fin 2000) (f : Fin 64) :
    k1_pay12 (F := Ideal) v86 v90 v93 (ix2 r f)
      = Spec.msg (fun q => v86 (ix2 r q)) (fun k q => v90 (ix2 k q)) (v93 (ix2 (0 : Fin 1) (0 : Fin 1))) f := by
  unfold k1_pay12
  simp only [shapeCast_self, addf_apply, mulf_apply, maximumf_apply, truncf_apply, broadcast_apply, logistic_apply,
    broadcastTo_1b_ab_apply, Cert.LibLayout.broadcastTo_a1_ab_apply, Cert.PlainDot.matmul_apply _ plain_64x1]
  rfl

/-- Region 1's translation at (r, a): clip((x_i − x_j) a · φ_x(m)). -/
theorem k1_pay13_apply (v8 : FVec Ideal S2000x4 .f32) (v86 : FVec Ideal S2000x64 .f32) (v90 : Vec Ideal S64x1 .f32) (v93 : Vec Ideal S1x1 .f32)
    (v101 : Vec Ideal S64x64 .f32) (v104 : Vec Ideal S1x64 .f32) (v111 : Vec Ideal S64x1 .f32) (r : Fin 2000) (a : Fin 4) :
    k1_pay13 (F := Ideal) v8 v86 v90 v93 v101 v104 v111 (ix2 r a)
      = Spec.trans (fun a => v8 (ix2 r a))
          (Spec.phx (Spec.msg (fun q => v86 (ix2 r q)) (fun k q => v90 (ix2 k q)) (v93 (ix2 (0 : Fin 1) (0 : Fin 1))))
            (fun k q => v101 (ix2 k q)) (fun q => v104 (ix2 (0 : Fin 1) q)) (fun k q => v111 (ix2 k q))) a := by
  unfold k1_pay13
  simp only [shapeCast_self, addf_apply, mulf_apply, maximumf_apply, minimumf_apply, truncf_apply, broadcast_apply,
    broadcastTo_1b_ab_apply, Cert.LibLayout.broadcastTo_a1_ab_apply, Cert.PlainDot.matmul_apply _ plain_64x1,
    Cert.PlainDot.matmul_apply _ plain_64, k1_pay12_apply]
  rfl

/-- The ψ-dot column at the payloads region 1's first part hands on is the ψ-dot feature of the coordinate rows. -/
theorem dcol_apply (v4 v6 : Vec Ideal S2000x4 .f32) (r : Fin 2000) :
    dcol (k1_pay7 (F := Ideal) v4 v6) (k1_pay8 v4 v6) (k1_pay9 v4 v6) k1_pay10 (ix2 r (0 : Fin 1))
      = Spec.dotFeat (fun k => v4 (ix2 r k)) (fun k => v6 (ix2 r k)) := by
  unfold dcol k1_pay8 k1_pay9 k1_pay10
  refine (psi_vec _ _).trans (congrArg Spec.psi ?_)
  unfold k1_pay7 k1_pay3 k1_pay4
  simp only [shapeCast_self]
  exact mink_col _ _ _ r

/-- Region 1's ψ-norm column at row r. -/
theorem k1_pay6_apply (v4 v6 : Vec Ideal S2000x4 .f32) (r : Fin 2000) :
    k1_pay6 (F := Ideal) v4 v6 (ix2 r (0 : Fin 1)) = Spec.normFeat (fun k => v4 (ix2 r k)) (fun k => v6 (ix2 r k)) := by
  unfold k1_pay6 k1_pay5 k1_pay3 k1_pay4
  simp only [shapeCast_self]
  refine (psi_vec _ _).trans (congrArg Spec.psi ?_)
  exact mink_col _ _ _ r

end Cert.KernelIdeal.KVal

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.KvStats.lean ====
/-
  The two statistics kernels' payloads read at an index, at Ideal. The first-layer output of a block at (r, f) is the
  row's features times the weight column (plus the bias row for the node kernel); one accumulation step adds the block's
  column sum (of the outputs, or of their squares) to the carried row; the last point multiplies the carried sums by the
  named reciprocal of the number of rows: mean = S·κ, var = Q·κ − mean·mean.
-/
import proofs.«110093_j8770323219157_1_alg».proof.Proof.Gen.KernelIdeal.Skeleton
import proofs.«110093_j8770323219157_1_alg».proof.Proof.Spec
import proofs.«110093_j8770323219157_1_alg».proof.Proof.KvFeat
import proofs.«110093_j8770323219157_1_alg».proof.Proof.KvEdge
import proofs.«110093_j8770323219157_1_alg».proof.Proof.LibConcat
import proofs.«110093_j8770323219157_1_alg».proof.Proof.LibApply
import proofs.«110093_j8770323219157_1_alg».proof.Proof.LibPlainDot
import proofs.«110093_j8770323219157_1_alg».proof.Proof.LibLayout
import proofs.«110093_j8770323219157_1_alg».proof.Proof.LibColumnSum
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.KVal

open Idealize.ShloMosaic Idealize.ShloMosaic.ValueIdx Cert.KernelIdeal Cert.KernelIdeal.Gen Cert.LibApply

theorem plain_136 : Cert.PlainDot.IsPlain dot_S2000x136_S136x64_S2000x64_1_0_0_1_n_n := ⟨rfl, rfl, rfl, rfl, rfl, rfl⟩

/-- The named reciprocal of the number of edges denotes 1/800000. -/
theorem inv_E : Named.named (F := Ideal) κ "inv_800000" (φ := .f32) 0x35A7C5AC#32 = ((1 / 800000 : ℝ) : EReal) :=
  IdealRules.named_const.ideal_named_scalar _ _ _ _ rfl

/-- The named reciprocal of the number of nodes denotes 1/50000. -/
theorem inv_N : Named.named (F := Ideal) κ "inv_50000" (φ := .f32) 0x37A7C5AC#32 = ((1 / 50000 : ℝ) : EReal) :=
  IdealRules.named_const.ideal_named_scalar _ _ _ _ rfl

/-! ## The edge statistics kernel -/

/-- The first edge layer of a block at (r, f): the feature row (h_i, h_j, the ψ-norm entry, ψ of the pre-ψ dot entry)
    times column f of W₁. -/
theorem k0_pay1_apply (v4 v6 : FVec Ideal S2000x64 .f32) (v33 v40 : FVec Ideal S2000x1 .f32) (v58 : Vec Ideal S130x64 .f32)
    (r : Fin 2000) (f : Fin 64) :
    k0_pay1 (F := Ideal) v4 v6 v33 v40 v58 (ix2 r f)
      = Spec.rowDot (Cert.LibConcat.sel4 (fun q => v4 (ix2 r q)) (fun q => v6 (ix2 r q)) (v33 (ix2 r (0 : Fin 1)))
          (Spec.psi (v40 (ix2 r (0 : Fin 1))))) (fun k q => v58 (ix2 k q)) f := by
  unfold k0_pay1
  simp only [truncf_apply, Cert.PlainDot.matmul_apply _ plain_130, Cert.LibConcat.concat4_apply, psi_vec]
  rfl

/-- One accumulation step of the column sums: the carried row plus the block's column sum. -/
theorem k0_pay2_apply (v4 v6 : FVec Ideal S2000x64 .f32) (v33 v40 : FVec Ideal S2000x1 .f32) (v58 : Vec Ideal S130x64 .f32)
    (v61 : Vec Ideal S1x64 .f32) (f : Fin 64) :
    k0_pay2 (F := Ideal) v4 v6 v33 v40 v58 v61 (ix2 (0 : Fin 1) f)
      = v61 (ix2 (0 : Fin 1) f) + ∑ r : Fin 2000, k0_pay1 (F := Ideal) v4 v6 v33 v40 v58 (ix2 r f) := by
  unfold k0_pay2
  simp only [shapeCast_self, addf_apply, shapeCast_a_1a_apply]
  exact congrArg (_ + ·) (Cert.Lib.column_sum _ reduces_S2000x64_S64 _ _ f)

/-- One accumulation step of the column sums of squares. -/
theorem k0_pay3_apply (v4 v6 : FVec Ideal S2000x64 .f32) (v33 v40 : FVec Ideal S2000x1 .f32) (v58 : Vec Ideal S130x64 .f32)
    (v68 : Vec Ideal S1x64 .f32) (f : Fin 64) :
    k0_pay3 (F := Ideal) v4 v6 v33 v40 v58 v68 (ix2 (0 : Fin 1) f)
      = v68 (ix2 (0 : Fin 1) f) + ∑ r : Fin 2000, k0_pay1 (F := Ideal) v4 v6 v33 v40 v58 (ix2 r f) * k0_pay1 (F := Ideal) v4 v6 v33 v40 v58 (ix2 r f) := by
  unfold k0_pay3
  simp only [shapeCast_self, addf_apply, shapeCast_a_1a_apply]
  exact congrArg (_ + ·) (Cert.Lib.column_sum _ reduces_S2000x64_S64 _ _ f)

/-- The mean row: the carried sum times 1/800000. -/
theorem k0_pay4_apply (v79 : Vec Ideal S1x64 .f32) (i : S1x64.Idx) :
    k0_pay4 (F := Ideal) v79 i = v79 i * ((1 / 800000 : ℝ) : EReal) := by
  unfold k0_pay4
  simp only [mulf_apply, broadcast_apply, inv_E]

/-- The variance row: Q·κ − (S·κ)·(S·κ). -/
theorem k0_pay5_apply (v79 v82 : Vec Ideal S1x64 .f32) (i : S1x64.Idx) :
    k0_pay5 (F := Ideal) v79 v82 i
      = v82 i * ((1 / 800000 : ℝ) : EReal) - v79 i * ((1 / 800000 : ℝ) : EReal) * (v79 i * ((1 / 800000 : ℝ) : EReal)) := by
  unfold k0_pay5
  simp only [mulf_apply, subf_apply, broadcast_apply, inv_E, k0_pay4_apply]

/-- The carried rows start at zero. -/
theorem k0_pay6_apply (i : S1x64.Idx) : k0_pay6 (F := Ideal) i = 0 := by
  unfold k0_pay6
  simp only [shapeCast_self, broadcast_apply]
  exact Ideal.ofBits_zero_f32
theorem k0_pay7_apply (i : S1x64.Idx) : k0_pay7 (F := Ideal) i = 0 := by
  unfold k0_pay7
  simp only [shapeCast_self, broadcast_apply]
  exact Ideal.ofBits_zero_f32

/-! ## The node statistics kernel -/

/-- The first node layer of a block at (r, f): the row (h, the aggregated messages, the node attributes) times column f of
    W_h1, plus the bias. -/
theorem k2_pay5_apply (v3 v4 : Vec Ideal S2000x64 .f32) (v6 : Vec Ideal S2000x8 .f32) (v9 : Vec Ideal S136x64 .f32) (v12 : Vec Ideal S1x64 .f32)
    (r : Fin 2000) (f : Fin 64) :
    k2_pay5 (F := Ideal) v3 v4 v6 v9 v12 (ix2 r f)
      = Spec.rowDot (Cert.LibConcat.sel3 (fun q => v3 (ix2 r q)) (fun q => v4 (ix2 r q)) (fun q => v6 (ix2 r q))) (fun k q => v9 (ix2 k q)) f
        + v12 (ix2 (0 : Fin 1) f) := by
  unfold k2_pay5
  simp only [shapeCast_self, addf_apply, truncf_apply, broadcastTo_1b_ab_apply, Cert.PlainDot.matmul_apply _ plain_136,
    Cert.LibConcat.concat3_apply]
  rfl

theorem k2_pay6_apply (v3 v4 : Vec Ideal S2000x64 .f32) (v6 : Vec Ideal S2000x8 .f32) (v9 : Vec Ideal S136x64 .f32) (v12 v16 : Vec Ideal S1x64 .f32)
    (f : Fin 64) :
    k2_pay6 (F := Ideal) v3 v4 v6 v9 v12 v16 (ix2 (0 : Fin 1) f)
      = v16 (ix2 (0 : Fin 1) f) + ∑ r : Fin 2000, k2_pay5 (F := Ideal) v3 v4 v6 v9 v12 (ix2 r f) := by
  unfold k2_pay6
  simp only [shapeCast_self, addf_apply, shapeCast_a_1a_apply]
  exact congrArg (_ + ·) (Cert.Lib.column_sum _ reduces_S2000x64_S64 _ _ f)

theorem k2_pay7_apply (v3 v4 : Vec Ideal S2000x64 .f32) (v6 : Vec Ideal S2000x8 .f32) (v9 : Vec Ideal S136x64 .f32) (v12 v23 : Vec Ideal S1x64 .f32)
    (f : Fin 64) :
    k2_pay7 (F := Ideal) v3 v4 v6 v9 v12 v23 (ix2 (0 : Fin 1) f)
      = v23 (ix2 (0 : Fin 1) f) + ∑ r : Fin 2000, k2_pay5 (F := Ideal) v3 v4 v6 v9 v12 (ix2 r f) * k2_pay5 (F := Ideal) v3 v4 v6 v9 v12 (ix2 r f) := by
  unfold k2_pay7
  simp only [shapeCast_self, addf_apply, shapeCast_a_1a_apply]
  exact congrArg (_ + ·) (Cert.Lib.column_sum _ reduces_S2000x64_S64 _ _ f)

theorem k2_pay1_apply (v34 : Vec Ideal S1x64 .f32) (i : S1x64.Idx) :
    k2_pay1 (F := Ideal) v34 i = v34 i * ((1 / 50000 : ℝ) : EReal) := by
  unfold k2_pay1
  simp only [mulf_apply, broadcast_apply, inv_N]

theorem k2_pay2_apply (v34 v37 : Vec Ideal S1x64 .f32) (i : S1x64.Idx) :
    k2_pay2 (F := Ideal) v34 v37 i
      = v37 i * ((1 / 50000 : ℝ) : EReal) - v34 i * ((1 / 50000 : ℝ) : EReal) * (v34 i * ((1 / 50000 : ℝ) : EReal)) := by
  unfold k2_pay2
  simp only [mulf_apply, subf_apply, broadcast_apply, inv_N, k2_pay1_apply]

theorem k2_pay3_apply (i : S1x64.Idx) : k2_pay3 (F := Ideal) i = 0 := by
  unfold k2_pay3
  simp only [shapeCast_self, broadcast_apply]
  exact Ideal.ofBits_zero_f32
theorem k2_pay4_apply (i : S1x64.Idx) : k2_pay4 (F := Ideal) i = 0 := by
  unfold k2_pay4
  simp only [shapeCast_self, broadcast_apply]
  exact Ideal.ofBits_zero_f32

/-! ## The node MLP kernel -/

/-- The normalised, activated first node layer of a block at (r, q). -/
theorem k3_pay2_apply (v0 v1 : Vec Ideal S2000x64 .f32) (v3 : Vec Ideal S2000x8 .f32) (v6 : Vec Ideal S136x64 .f32)
    (v9 v13 v17 v24 v28 : Vec Ideal S1x64 .f32) (r : Fin 2000) (q : Fin 64) :
    k3_pay2 (F := Ideal) v0 v1 v3 v6 v9 v13 v17 v24 v28 (ix2 r q)
      = Spec.relu (Spec.bnK
          (Spec.rowDot (Cert.LibConcat.sel3 (fun q => v0 (ix2 r q)) (fun q => v1 (ix2 r q)) (fun q => v3 (ix2 r q))) (fun k q => v6 (ix2 k q)) q
            + v9 (ix2 (0 : Fin 1) q))
          (v13 (ix2 (0 : Fin 1) q)) (v17 (ix2 (0 : Fin 1) q)) (v24 (ix2 (0 : Fin 1) q)) (v28 (ix2 (0 : Fin 1) q))) := by
  unfold k3_pay2
  simp only [shapeCast_self, addf_apply, mulf_apply, subf_apply, maximumf_apply, truncf_apply, broadcast_apply, rsqrt_apply,
    broadcastTo_1b_ab_apply, Cert.PlainDot.matmul_apply _ plain_136, Cert.LibConcat.concat3_apply]
  rfl

/-- The updated node row at (r, f): h + (Σ_q a_q·W_h2 q f + b_h2 f). -/
theorem k3_pay1_apply (v0 : Vec Ideal S2000x64 .f32) (v34 : FVec Ideal S2000x64 .bf16) (v35 : Vec Ideal S64x64 .f32) (v38 : Vec Ideal S1x64 .f32)
    (r : Fin 2000) (f : Fin 64) :
    k3_pay1 (F := Ideal) v0 v34 v35 v38 (ix2 r f)
      = v0 (ix2 r f) + (Spec.rowDot (fun q => v34 (ix2 r q)) (fun k q => v35 (ix2 k q)) f + v38 (ix2 (0 : Fin 1) f)) := by
  unfold k3_pay1
  simp only [shapeCast_self, addf_apply, truncf_apply, broadcastTo_1b_ab_apply, Cert.PlainDot.matmul_apply _ plain_64]
  rfl

end Cert.KernelIdeal.KVal

end
-- ==== Proof.LibRealValued.lean ====
/-
  Extended reals that are real numbers, and the exact float operations that keep them so.

  At the exact instance a float is an extended real.  The algebraic laws that join two arrangements of one
  computation (distributing a product over a sum, cancelling) hold for real numbers and fail at the
  infinities, so a proof that uses one must first know that the values it is applied to are real.  This file
  names that property and shows it is kept by the sum, the difference, the product, the larger of two values,
  a finite sum, the quotient by a nonzero real, and the reciprocal square root of a positive real.
-/
import Idealize.ShloMosaic.PureOps.Ideal

open Idealize.ShloMosaic

namespace Cert.Lib

/-- The extended real `x` is a real number (neither infinity). -/
def IsReal (x : EReal) : Prop := ∃ r : ℝ, x = (r : EReal)

namespace IsReal

theorem coe (r : ℝ) : IsReal (r : EReal) := ⟨r, rfl⟩

theorem zero : IsReal (0 : EReal) := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

/-- The larger of two reals is one of them. -/
theorem max {x y : EReal} (hx : IsReal x) (hy : IsReal y) : IsReal (max x y) := by
  rcases le_total x y with h | h
  · rw [max_eq_right h]; exact hy
  · rw [max_eq_left h]; exact hx

theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- The exact quotient by a nonzero real is the product with its reciprocal, hence real. -/
theorem div_coe {x : EReal} (hx : IsReal x) {y : ℝ} (hy : y ≠ 0) : IsReal (Ideal.div x (y : EReal)) := by
  rw [Ideal.div_coe hy]; exact hx.mul (coe _)

/-- The reciprocal square root of a positive real is real. -/
theorem rsqrt_of_pos {r : ℝ} (hr : 0 < r) : IsReal (Ideal.rsqrt (r : EReal)) := by
  rw [Ideal.rsqrt_coe, if_neg (not_lt.mpr hr.le), if_neg hr.ne']; exact ⟨_, rfl⟩

end IsReal

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the coercion of a real family. -/
theorem exists_real_family {ι : Type*} {x : ι → EReal} (h : ∀ i, IsReal (x i)) : ∃ r : ι → ℝ, x = fun i => (r i : EReal) := by
  choose r hr using h
  exact ⟨r, funext hr⟩

end Cert.Lib
-- ==== Proof.LibVariance.lean ====
/-
  The variance of a finite family, computed in one pass and in two, at the exact instance.

  One program accumulates the sum `S` and the sum of squares `Q` of a column in a single sweep and forms
  `Q / n - (S / n) · (S / n)`; another first forms the mean `μ = S / n` and then sums the squared deviations,
  `(∑ (x - μ) · (x - μ)) / n`.  Over the real numbers the two are equal — expand the square:
  `∑ (x - μ)² = Q - 2 μ S + n μ²`, and `μ S = n μ²` — and the common value is nonnegative.  Over the extended
  reals the expansion needs every `x` to be real (a product does not distribute over a sum at the
  infinities), which is what the hypothesis asks.
-/
import proofs.«110093_j8770323219157_1_alg».proof.Proof.LibRealValued

open Idealize.ShloMosaic

namespace Cert.Lib

variable {ι : Type*} [Fintype ι]

/-- The real identity: the mean of the squared deviations is the mean of the squares less the squared mean,
    for a family indexed by a type of `n` elements. -/
theorem real_var_two_pass (r : ι → ℝ) {n : ℝ} (hn : n ≠ 0) (hcard : (Fintype.card ι : ℝ) = n) :
    (∑ i, (r i - (∑ j, r j) * (1 / n)) * (r i - (∑ j, r j) * (1 / n))) * (1 / n)
      = (∑ i, r i * r i) * (1 / n) - (∑ j, r j) * (1 / n) * ((∑ j, r j) * (1 / n)) := by
  set S := ∑ j, r j with hS
  set μ := S * (1 / n) with hμ
  have hexp : ∀ i, (r i - μ) * (r i - μ) = r i * r i - 2 * μ * r i + μ * μ := fun i => by ring
  have hsum : ∑ i, (r i - μ) * (r i - μ) = ∑ i, r i * r i - 2 * μ * S + n * (μ * μ) := by
    simp only [hexp, Finset.sum_add_distrib, Finset.sum_sub_distrib, ← Finset.mul_sum, Finset.sum_const,
      Finset.card_univ, nsmul_eq_mul, hcard, ← hS]
    ring
  rw [hsum, hμ]
  field_simp
  ring

/-- The two-pass variance of a real family is a nonnegative real. -/
theorem real_var_nonneg (r : ι → ℝ) {n : ℝ} (hn : 0 < n) :
    0 ≤ (∑ i, (r i - (∑ j, r j) * (1 / n)) * (r i - (∑ j, r j) * (1 / n))) * (1 / n) :=
  mul_nonneg (Finset.sum_nonneg fun i _ => mul_self_nonneg _) (by positivity)

/-- At the exact instance: for a family of real values indexed by a type of `n` elements, the sum of the
    squared deviations from `S / n`, divided by `n`, is `Q / n - (S / n) · (S / n)`; and the common value is a
    nonnegative real `v`. -/
theorem var_two_pass_eq_one_pass (x : ι → EReal) (hx : ∀ i, IsReal (x i)) {n : ℝ} (hn : 0 < n)
    (hcard : (Fintype.card ι : ℝ) = n) :
    ∃ v : ℝ, 0 ≤ v
      ∧ Ideal.div (∑ i, (x i - Ideal.div (∑ j, x j) (n : EReal)) * (x i - Ideal.div (∑ j, x j) (n : EReal))) (n : EReal) = (v : EReal)
      ∧ Ideal.div (∑ i, x i * x i) (n : EReal) - Ideal.div (∑ j, x j) (n : EReal) * Ideal.div (∑ j, x j) (n : EReal) = (v : EReal) := by
  obtain ⟨r, rfl⟩ := exists_real_family hx
  have hn' : n ≠ 0 := hn.ne'
  refine ⟨_, real_var_nonneg r hn, ?_, ?_⟩
  · simp only [Ideal.div_coe hn', ← coe_finset_sum, ← EReal.coe_mul, ← EReal.coe_sub]
  · simp only [Ideal.div_coe hn', ← coe_finset_sum, ← EReal.coe_mul, ← EReal.coe_sub]
    exact congrArg _ (real_var_two_pass r hn' hcard).symm

end Cert.Lib
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.LibTileStats.lean ====
/-
  Batch statistics of a long column gathered tile by tile.

  A column of `T * B` values is swept in `T` tiles of `B` consecutive values.  Each tile contributes the sum
  of its values and the sum of their squares; adding the tile sums gives the column's sum `S` and sum of
  squares `Q`, whatever the tiling (only commutativity and associativity of addition are used).  From them
  the mean is `S / n` and the one-pass variance `Q / n - (S / n) · (S / n)`.  When every value is a real number
  and `n = T * B` is positive this variance equals the two-pass one, the mean of the squared deviations from
  the mean, and the common value is a nonnegative real.
-/
import proofs.«110093_j8770323219157_1_alg».proof.Proof.LibVariance
import proofs.«110093_j8770323219157_1_alg».proof.Proof.LibBlockSum

open Idealize.ShloMosaic

namespace Cert.Lib

/-- The tile sums of a function of the position add up to the sum over all positions. -/
theorem tile_sum_eq (T B : ℕ) (x : Fin (T * B) → EReal) (f : ℕ → EReal)
    (hf : ∀ i : Fin (T * B), f i.val = x i) :
    ∑ s ∈ Finset.range T, ∑ r : Fin B, f (s * B + r.val) = ∑ i, x i :=
  (Cert.BlockSum.sum_blocks T B f).trans (Finset.sum_congr rfl fun i _ => hf i)

/-- Mean and one-pass variance from tile sums against mean and two-pass variance of the whole column, at
    the exact instance, for a column of real values: the means agree, the variances agree, and the variance
    is a nonnegative real `v`. -/
theorem tile_stats (T B : ℕ) (x : Fin (T * B) → EReal) (hx : ∀ i, IsReal (x i)) {n : ℝ} (hn : 0 < n)
    (hcard : ((T * B : ℕ) : ℝ) = n) (f : ℕ → EReal) (hf : ∀ i : Fin (T * B), f i.val = x i) :
    Ideal.div (∑ s ∈ Finset.range T, ∑ r : Fin B, f (s * B + r.val)) (n : EReal) = Ideal.div (∑ i, x i) (n : EReal)
    ∧ ∃ v : ℝ, 0 ≤ v
      ∧ Ideal.div (∑ s ∈ Finset.range T, ∑ r : Fin B, f (s * B + r.val) * f (s * B + r.val)) (n : EReal)
          - Ideal.div (∑ s ∈ Finset.range T, ∑ r : Fin B, f (s * B + r.val)) (n : EReal)
            * Ideal.div (∑ s ∈ Finset.range T, ∑ r : Fin B, f (s * B + r.val)) (n : EReal) = (v : EReal)
      ∧ Ideal.div (∑ i, (x i - Ideal.div (∑ j, x j) (n : EReal)) * (x i - Ideal.div (∑ j, x j) (n : EReal))) (n : EReal)
          = (v : EReal) := by
  have hS : ∑ s ∈ Finset.range T, ∑ r : Fin B, f (s * B + r.val) = ∑ i, x i := tile_sum_eq T B x f hf
  have hQ : ∑ s ∈ Finset.range T, ∑ r : Fin B, f (s * B + r.val) * f (s * B + r.val) = ∑ i, x i * x i :=
    tile_sum_eq T B (fun i => x i * x i) (fun k => f k * f k) (fun i => by rw [hf i])
  have hc : (Fintype.card (Fin (T * B)) : ℝ) = n := by rw [Fintype.card_fin]; exact hcard
  obtain ⟨v, hv, h2, h1⟩ := var_two_pass_eq_one_pass x hx hn hc
  exact ⟨by rw [hS], v, hv, by rw [hQ, hS]; exact h1, h2⟩

end Cert.Lib
-- ==== Proof.LawStats.lean ====
/-
  Batch statistics accumulated tile by tile against the mean and variance of the whole column, and the two
  spellings of the normalisation, at the exact instance.

  One program sweeps a column of T * B values in T tiles of B consecutive values, keeping a running total to
  which each tile adds the sum of its values (and a second one for the squares).  After the last tile the
  totals are the column's sum S and sum of squares Q, because addition of extended reals is commutative and
  associative.  It then forms the mean as S * k and the variance as Q * k - (S * k) * (S * k), where k is the
  real number 1 / n, and normalises a value y as (y - mean) * rsqrt (variance + eps).  The other program
  divides: mean S / n, variance the mean of the squared deviations from that mean, and normalised value
  (y - mean) / sqrt (variance + eps).  Multiplying by the real 1 / n is dividing by n at every extended real;
  the two variances agree when every entry of the column is a real number, and their common value is a
  nonnegative real v; and for v >= 0 and eps > 0 the number v + eps is a positive real, where the reciprocal
  square root is the reciprocal of the square root, so multiplying by the one is dividing by the other.
-/
import proofs.«110093_j8770323219157_1_alg».proof.Proof.LibTileStats

open Idealize.ShloMosaic

namespace Cert.Law

open Cert.Lib

/-! ## The running total -/

/-- A running total that starts at zero and adds g t at step t is, after k steps, the sum of g over the
    first k steps.  Only the monoid laws of addition are used. -/
theorem acc_eq_range_sum {β : Type*} [AddCommMonoid β] (acc g : ℕ → β) (T : ℕ) (h0 : acc 0 = 0)
    (hs : ∀ t, t < T → acc (t + 1) = acc t + g t) : ∀ k, k ≤ T → acc k = ∑ s ∈ Finset.range k, g s := by
  intro k
  induction k with
  | zero => intro _; simpa using h0
  | succ k ih =>
    intro hk
    rw [hs k (Nat.lt_of_succ_le hk), ih (Nat.le_of_succ_le hk), Finset.sum_range_succ]

/-- Position r of tile t, for t < T and r < B, is a position of the column of T * B values. -/
theorem tile_index_lt {T B t : ℕ} (ht : t < T) (r : Fin B) : t * B + r.val < T * B :=
  calc t * B + r.val < t * B + B := Nat.add_lt_add_left r.isLt _
    _ = (t + 1) * B := (Nat.succ_mul t B).symm
    _ ≤ T * B := Nat.mul_le_mul_right B ht

/-- The running total over T tiles of B values each, started at zero, ends at the sum of the whole column.
    The column is read through a function f of the position that agrees with it. -/
theorem acc_tiles_eq_sum (T B : ℕ) (x : Fin (T * B) → EReal) (f : ℕ → EReal)
    (hf : ∀ i : Fin (T * B), f i.val = x i) (acc : ℕ → EReal) (h0 : acc 0 = 0)
    (hs : ∀ t, t < T → acc (t + 1) = acc t + ∑ r : Fin B, f (t * B + r.val)) :
    acc T = ∑ i, x i := by
  rw [acc_eq_range_sum acc (fun t => ∑ r : Fin B, f (t * B + r.val)) T h0 hs T le_rfl]
  exact tile_sum_eq T B x f hf

/-- The same with the column read at its own indices. -/
theorem acc_tiles_fin_eq_sum (T B : ℕ) (x : Fin (T * B) → EReal) (acc : ℕ → EReal) (h0 : acc 0 = 0)
    (hs : ∀ t (ht : t < T), acc (t + 1) = acc t + ∑ r : Fin B, x ⟨t * B + r.val, tile_index_lt ht r⟩) :
    acc T = ∑ i, x i := by
  refine acc_tiles_eq_sum T B x (fun k => if h : k < T * B then x ⟨k, h⟩ else 0) (fun i => ?_) acc h0 ?_
  · simp only [i.isLt, dite_true]
  · intro t ht
    rw [hs t ht]
    refine congrArg _ (Finset.sum_congr rfl fun r _ => ?_)
    simp only [tile_index_lt ht r, dite_true]

/-- The same when each tile's sum carries the zero it was started from, and the first total is 0 + 0. -/
theorem acc_tiles_eq_sum_of_zero_add (T B : ℕ) (x : Fin (T * B) → EReal) (f : ℕ → EReal)
    (hf : ∀ i : Fin (T * B), f i.val = x i) (acc : ℕ → EReal) (h0 : acc 0 = 0 + 0)
    (hs : ∀ t, t < T → acc (t + 1) = acc t + (0 + ∑ r : Fin B, f (t * B + r.val))) :
    acc T = ∑ i, x i :=
  acc_tiles_eq_sum T B x f hf acc (by rw [h0, add_zero]) fun t ht => by rw [hs t ht, zero_add]

/-! ## The mean -/

/-- Multiplying by the real 1 / n is dividing by n, for every extended real S, the infinities included. -/
theorem mean_eq {n : ℝ} (hn : n ≠ 0) (S : EReal) : S * ((1 / n : ℝ) : EReal) = Ideal.div S (n : EReal) :=
  (Ideal.div_coe hn S).symm

/-- The mean of a column of reals is real. -/
theorem mean_isReal {ι : Type*} [Fintype ι] (x : ι → EReal) (hx : ∀ i, IsReal (x i)) (n : ℝ) :
    IsReal ((∑ i, x i) * ((1 / n : ℝ) : EReal)) :=
  (IsReal.sum _ _ fun i _ => hx i).mul (IsReal.coe _)

/-! ## The variance -/

/-- For a column of n > 0 real values with sum S and sum of squares Q, the one-pass variance
    Q * (1/n) - (S * (1/n)) * (S * (1/n)) and the two-pass variance, the sum of the squared deviations from
    S / n divided by n, are one nonnegative real v. -/
theorem var_eq {ι : Type*} [Fintype ι] (x : ι → EReal) (hx : ∀ i, IsReal (x i)) {n : ℝ} (hn : 0 < n)
    (hcard : (Fintype.card ι : ℝ) = n) :
    ∃ v : ℝ, 0 ≤ v
      ∧ (∑ i, x i * x i) * ((1 / n : ℝ) : EReal)
          - (∑ i, x i) * ((1 / n : ℝ) : EReal) * ((∑ i, x i) * ((1 / n : ℝ) : EReal)) = (v : EReal)
      ∧ Ideal.div (∑ i, (x i - Ideal.div (∑ j, x j) (n : EReal)) * (x i - Ideal.div (∑ j, x j) (n : EReal)))
          (n : EReal) = (v : EReal) := by
  obtain ⟨v, hv, h2, h1⟩ := var_two_pass_eq_one_pass x hx hn hcard
  refine ⟨v, hv, ?_, h2⟩
  rw [mean_eq hn.ne', mean_eq hn.ne']
  exact h1

/-- The equation alone: one-pass variance with the folded reciprocal = two-pass variance with divisions. -/
theorem var_eq' {ι : Type*} [Fintype ι] (x : ι → EReal) (hx : ∀ i, IsReal (x i)) {n : ℝ} (hn : 0 < n)
    (hcard : (Fintype.card ι : ℝ) = n) :
    (∑ i, x i * x i) * ((1 / n : ℝ) : EReal)
        - (∑ i, x i) * ((1 / n : ℝ) : EReal) * ((∑ i, x i) * ((1 / n : ℝ) : EReal))
      = Ideal.div (∑ i, (x i - Ideal.div (∑ j, x j) (n : EReal)) * (x i - Ideal.div (∑ j, x j) (n : EReal)))
          (n : EReal) := by
  obtain ⟨v, _, h1, h2⟩ := var_eq x hx hn hcard
  rw [h1, h2]

/-- The column indexed by its T * B positions: the cardinality hypothesis in the form n = T * B. -/
theorem var_eq_fin (T B : ℕ) (x : Fin (T * B) → EReal) (hx : ∀ i, IsReal (x i)) {n : ℝ} (hn : 0 < n)
    (hcard : ((T * B : ℕ) : ℝ) = n) :
    ∃ v : ℝ, 0 ≤ v
      ∧ (∑ i, x i * x i) * ((1 / n : ℝ) : EReal)
          - (∑ i, x i) * ((1 / n : ℝ) : EReal) * ((∑ i, x i) * ((1 / n : ℝ) : EReal)) = (v : EReal)
      ∧ Ideal.div (∑ i, (x i - Ideal.div (∑ j, x j) (n : EReal)) * (x i - Ideal.div (∑ j, x j) (n : EReal)))
          (n : EReal) = (v : EReal) :=
  var_eq x hx hn (by rw [Fintype.card_fin]; exact hcard)

/-! ## The normalisation -/

/-- For a real v >= 0 and a real eps > 0, multiplying by the reciprocal square root of v + eps is dividing by its
    square root, at every extended real y: v + eps is a positive real, its square root a positive real s, and
    both sides are y * (1 / s). -/
theorem norm_eq (y : EReal) {v ε : ℝ} (hv : 0 ≤ v) (hε : 0 < ε) :
    y * Ideal.rsqrt ((v : EReal) + (ε : EReal)) = Ideal.div y (Ideal.sqrt ((v : EReal) + (ε : EReal))) := by
  have hpos : 0 < v + ε := by linarith
  have hs : Real.sqrt (v + ε) ≠ 0 := (Real.sqrt_pos.mpr hpos).ne'
  rw [← EReal.coe_add, Ideal.rsqrt_coe, Ideal.sqrt_coe, if_neg (not_lt.mpr hpos.le), if_neg hpos.ne',
    if_neg (not_lt.mpr hpos.le), Ideal.div_coe hs, one_div]

/-- The reciprocal square root of v + eps is a positive real number's, hence real. -/
theorem rsqrt_add_isReal {v ε : ℝ} (hv : 0 ≤ v) (hε : 0 < ε) : IsReal (Ideal.rsqrt ((v : EReal) + (ε : EReal))) := by
  rw [← EReal.coe_add]; exact IsReal.rsqrt_of_pos (by linarith)

/-- The normalised value of a real y is real. -/
theorem norm_isReal {y : EReal} (hy : IsReal y) {v ε : ℝ} (hv : 0 ≤ v) (hε : 0 < ε) :
    IsReal (y * Ideal.rsqrt ((v : EReal) + (ε : EReal))) :=
  hy.mul (rsqrt_add_isReal hv hε)

/-- Training-mode batch normalisation of one value y against a column x of n > 0 reals, in its two spellings:
    mean and one-pass variance by the folded reciprocal 1 / n and a reciprocal square root, against mean and
    two-pass variance by divisions and a square root.  The scale g and shift b are arbitrary. -/
theorem batchnorm_eq {ι : Type*} [Fintype ι] (x : ι → EReal) (hx : ∀ i, IsReal (x i)) {n ε : ℝ} (hn : 0 < n)
    (hcard : (Fintype.card ι : ℝ) = n) (hε : 0 < ε) (y g b : EReal) :
    (y - (∑ i, x i) * ((1 / n : ℝ) : EReal))
          * Ideal.rsqrt ((∑ i, x i * x i) * ((1 / n : ℝ) : EReal)
              - (∑ i, x i) * ((1 / n : ℝ) : EReal) * ((∑ i, x i) * ((1 / n : ℝ) : EReal)) + (ε : EReal)) * g + b
      = Ideal.div (y - Ideal.div (∑ i, x i) (n : EReal))
          (Ideal.sqrt (Ideal.div (∑ i, (x i - Ideal.div (∑ j, x j) (n : EReal)) * (x i - Ideal.div (∑ j, x j) (n : EReal)))
              (n : EReal) + (ε : EReal))) * g + b := by
  obtain ⟨v, hv, h1, h2⟩ := var_eq x hx hn hcard
  rw [h1, h2, norm_eq _ hv hε, mean_eq hn.ne']

/-- The normalised, scaled and shifted value is real when y, g and b are and the column is. -/
theorem batchnorm_isReal {ι : Type*} [Fintype ι] (x : ι → EReal) (hx : ∀ i, IsReal (x i)) {n ε : ℝ} (hn : 0 < n)
    (hcard : (Fintype.card ι : ℝ) = n) (hε : 0 < ε) {y g b : EReal} (hy : IsReal y) (hg : IsReal g) (hb : IsReal b) :
    IsReal ((y - (∑ i, x i) * ((1 / n : ℝ) : EReal))
          * Ideal.rsqrt ((∑ i, x i * x i) * ((1 / n : ℝ) : EReal)
              - (∑ i, x i) * ((1 / n : ℝ) : EReal) * ((∑ i, x i) * ((1 / n : ℝ) : EReal)) + (ε : EReal)) * g + b) := by
  obtain ⟨v, hv, h1, _⟩ := var_eq x hx hn hcard
  rw [h1]
  exact (((hy.sub (mean_isReal x hx n)).mul (rsqrt_add_isReal hv hε)).mul hg).add hb

end Cert.Law
-- ==== Proof.KvAcc.lean ====
/-
  The statistics kernels' carried rows as sums. After k grid points the first scratch row holds, at column q, the sum over
  the first k points of the block's column sum of the first-layer outputs, and the second the same of their squares; so the
  mean and variance rows the last point stores are S·κ and Q·κ − (S·κ)², S and Q summed point by point.
-/
import proofs.«110093_j8770323219157_1_alg».proof.Proof.KData
import proofs.«110093_j8770323219157_1_alg».proof.Proof.KvStats
import proofs.«110093_j8770323219157_1_alg».proof.Proof.LawStats

noncomputable section

namespace Cert.KernelIdeal.KVal

open Idealize.ShloMosaic Idealize.ShloMosaic.ValueIdx Cert.KernelIdeal Cert.KernelIdeal.Gen Cert.KernelIdeal.KRun

variable (V : KRun.VT Ideal) (c : Dev nD)

/-! ## The edge statistics -/

/-- The first edge layer of the block at point t, at (r, q). -/
def o1blk (t : Fin cfg0.N) (r : Fin 2000) (q : Fin 64) : EReal :=
  k0_pay1 (F := Ideal) (k0_pay8 (iblk0 V c 0 t)) (k0_pay9 (iblk0 V c 1 t)) (k0_pay12 (iblk0 V c 2 t) (iblk0 V c 3 t))
    (k0_pay13 (iblk0 V c 2 t) (iblk0 V c 3 t)) (iblk0 V c 4 t) (ix2 r q)

/-- Point s's column sum at column q, and its column sum of squares (zero past the grid). -/
def tileS0 (q : Fin 64) (s : ℕ) : EReal := if h : s < cfg0.N then ∑ r : Fin 2000, o1blk V c ⟨s, h⟩ r q else 0
def tileQ0 (q : Fin 64) (s : ℕ) : EReal :=
  if h : s < cfg0.N then ∑ r : Fin 2000, o1blk V c ⟨s, h⟩ r q * o1blk V c ⟨s, h⟩ r q else 0

theorem acc0_fst (q : Fin 64) : ∀ k, k ≤ cfg0.N →
    (acc0 V c k).1 (ix2 (0 : Fin 1) q) = ∑ s ∈ Finset.range k, tileS0 V c q s :=
  Cert.Law.acc_eq_range_sum (fun n => (acc0 V c n).1 (ix2 (0 : Fin 1) q)) (tileS0 V c q) cfg0.N (k0_pay6_apply (ix2 (0 : Fin 1) q)) (fun t ht => by
    show (acc0 V c ((⟨t, ht⟩ : Fin cfg0.N).val + 1)).1 (ix2 (0 : Fin 1) q) = _
    rw [acc0_succ V c ⟨t, ht⟩]
    unfold step0
    dsimp only
    rw [k0_pay2_apply]
    unfold tileS0
    rw [dif_pos ht]
    rfl)

theorem acc0_snd (q : Fin 64) : ∀ k, k ≤ cfg0.N →
    (acc0 V c k).2 (ix2 (0 : Fin 1) q) = ∑ s ∈ Finset.range k, tileQ0 V c q s :=
  Cert.Law.acc_eq_range_sum (fun n => (acc0 V c n).2 (ix2 (0 : Fin 1) q)) (tileQ0 V c q) cfg0.N (k0_pay7_apply (ix2 (0 : Fin 1) q)) (fun t ht => by
    show (acc0 V c ((⟨t, ht⟩ : Fin cfg0.N).val + 1)).2 (ix2 (0 : Fin 1) q) = _
    rw [acc0_succ V c ⟨t, ht⟩]
    unfold step0
    dsimp only
    rw [k0_pay3_apply]
    unfold tileQ0
    rw [dif_pos ht]
    rfl)

/-- The mean row after the whole grid: S·(1/800000). -/
theorem mean0_apply (q : Fin 64) :
    mean0 V c cfg0.N (ix2 (0 : Fin 1) q) = (∑ s ∈ Finset.range cfg0.N, tileS0 V c q s) * ((1 / 800000 : ℝ) : EReal) := by
  unfold mean0
  rw [k0_pay4_apply, acc0_fst V c q cfg0.N le_rfl]

/-- The variance row after the whole grid: Q·κ − (S·κ)·(S·κ). -/
theorem var0_apply (q : Fin 64) :
    var0 V c cfg0.N (ix2 (0 : Fin 1) q)
      = (∑ s ∈ Finset.range cfg0.N, tileQ0 V c q s) * ((1 / 800000 : ℝ) : EReal)
        - (∑ s ∈ Finset.range cfg0.N, tileS0 V c q s) * ((1 / 800000 : ℝ) : EReal)
          * ((∑ s ∈ Finset.range cfg0.N, tileS0 V c q s) * ((1 / 800000 : ℝ) : EReal)) := by
  unfold var0
  rw [k0_pay5_apply, acc0_fst V c q cfg0.N le_rfl, acc0_snd V c q cfg0.N le_rfl]

/-! ## The node statistics -/

/-- The first node layer of the block at point t, at (r, q). -/
def o2blk (t : Fin cfg2.N) (r : Fin 2000) (q : Fin 64) : EReal :=
  k2_pay5 (F := Ideal) (iblk2 V c 0 t) (iblk2 V c 1 t) (iblk2 V c 2 t) (iblk2 V c 3 t) (iblk2 V c 4 t) (ix2 r q)

def tileS2 (q : Fin 64) (s : ℕ) : EReal := if h : s < cfg2.N then ∑ r : Fin 2000, o2blk V c ⟨s, h⟩ r q else 0
def tileQ2 (q : Fin 64) (s : ℕ) : EReal :=
  if h : s < cfg2.N then ∑ r : Fin 2000, o2blk V c ⟨s, h⟩ r q * o2blk V c ⟨s, h⟩ r q else 0

theorem acc2_fst (q : Fin 64) : ∀ k, k ≤ cfg2.N →
    (acc2 V c k).1 (ix2 (0 : Fin 1) q) = ∑ s ∈ Finset.range k, tileS2 V c q s :=
  Cert.Law.acc_eq_range_sum (fun n => (acc2 V c n).1 (ix2 (0 : Fin 1) q)) (tileS2 V c q) cfg2.N (k2_pay3_apply (ix2 (0 : Fin 1) q)) (fun t ht => by
    show (acc2 V c ((⟨t, ht⟩ : Fin cfg2.N).val + 1)).1 (ix2 (0 : Fin 1) q) = _
    rw [acc2_succ V c ⟨t, ht⟩]
    unfold step2
    dsimp only
    rw [k2_pay6_apply]
    unfold tileS2
    rw [dif_pos ht]
    rfl)

theorem acc2_snd (q : Fin 64) : ∀ k, k ≤ cfg2.N →
    (acc2 V c k).2 (ix2 (0 : Fin 1) q) = ∑ s ∈ Finset.range k, tileQ2 V c q s :=
  Cert.Law.acc_eq_range_sum (fun n => (acc2 V c n).2 (ix2 (0 : Fin 1) q)) (tileQ2 V c q) cfg2.N (k2_pay4_apply (ix2 (0 : Fin 1) q)) (fun t ht => by
    show (acc2 V c ((⟨t, ht⟩ : Fin cfg2.N).val + 1)).2 (ix2 (0 : Fin 1) q) = _
    rw [acc2_succ V c ⟨t, ht⟩]
    unfold step2
    dsimp only
    rw [k2_pay7_apply]
    unfold tileQ2
    rw [dif_pos ht]
    rfl)

theorem mean2_apply (q : Fin 64) :
    mean2 V c cfg2.N (ix2 (0 : Fin 1) q) = (∑ s ∈ Finset.range cfg2.N, tileS2 V c q s) * ((1 / 50000 : ℝ) : EReal) := by
  unfold mean2
  rw [k2_pay1_apply, acc2_fst V c q cfg2.N le_rfl]

theorem var2_apply (q : Fin 64) :
    var2 V c cfg2.N (ix2 (0 : Fin 1) q)
      = (∑ s ∈ Finset.range cfg2.N, tileQ2 V c q s) * ((1 / 50000 : ℝ) : EReal)
        - (∑ s ∈ Finset.range cfg2.N, tileS2 V c q s) * ((1 / 50000 : ℝ) : EReal)
          * ((∑ s ∈ Finset.range cfg2.N, tileS2 V c q s) * ((1 / 50000 : ℝ) : EReal)) := by
  unfold var2
  rw [k2_pay2_apply, acc2_fst V c q cfg2.N le_rfl, acc2_snd V c q cfg2.N le_rfl]

end Cert.KernelIdeal.KVal

end
-- ==== Proof.KvRow.lean ====
/-
  The edge MLP kernel's two output blocks at a grid point, at a row, as row-level functions of the point's input blocks:
  the payload lemmas composed along the kernel's own data flow.
-/
import proofs.«110093_j8770323219157_1_alg».proof.Proof.KData
import proofs.«110093_j8770323219157_1_alg».proof.Proof.KvEdge
import proofs.«110093_j8770323219157_1_alg».proof.Proof.KvStats
import proofs.«110093_j8770323219157_1_alg».proof.Proof.KvAcc

noncomputable section

namespace Cert.KernelIdeal.KVal

open Idealize.ShloMosaic Idealize.ShloMosaic.ValueIdx Cert.KernelIdeal Cert.KernelIdeal.Gen Cert.KernelIdeal.KRun

variable (V : KRun.VT Ideal) (c : Dev nD)

/-! Each window's block at a point, at its literal vector type. -/
abbrev B1_0 (t : Fin cfg1.N) : Vec Ideal S2000x64 .f32 := iblk1 V c 0 t
abbrev B1_1 (t : Fin cfg1.N) : Vec Ideal S2000x64 .f32 := iblk1 V c 1 t
abbrev B1_2 (t : Fin cfg1.N) : Vec Ideal S2000x4 .f32 := iblk1 V c 2 t
abbrev B1_3 (t : Fin cfg1.N) : Vec Ideal S2000x4 .f32 := iblk1 V c 3 t
abbrev B1_4 (t : Fin cfg1.N) : Vec Ideal S130x64 .f32 := iblk1 V c 4 t
abbrev B1_5 (t : Fin cfg1.N) : Vec Ideal S1x64 .f32 := iblk1 V c 5 t
abbrev B1_6 (t : Fin cfg1.N) : Vec Ideal S1x64 .f32 := iblk1 V c 6 t
abbrev B1_7 (t : Fin cfg1.N) : Vec Ideal S64x64 .f32 := iblk1 V c 7 t
abbrev B1_8 (t : Fin cfg1.N) : Vec Ideal S1x64 .f32 := iblk1 V c 8 t
abbrev B1_9 (t : Fin cfg1.N) : Vec Ideal S1x64 .f32 := iblk1 V c 9 t
abbrev B1_10 (t : Fin cfg1.N) : Vec Ideal S1x64 .f32 := iblk1 V c 10 t
abbrev B1_11 (t : Fin cfg1.N) : Vec Ideal S64x1 .f32 := iblk1 V c 11 t
abbrev B1_12 (t : Fin cfg1.N) : Vec Ideal S1x1 .f32 := iblk1 V c 12 t
abbrev B1_13 (t : Fin cfg1.N) : Vec Ideal S64x64 .f32 := iblk1 V c 13 t
abbrev B1_14 (t : Fin cfg1.N) : Vec Ideal S1x64 .f32 := iblk1 V c 14 t
abbrev B1_15 (t : Fin cfg1.N) : Vec Ideal S64x1 .f32 := iblk1 V c 15 t
abbrev B0_0 (t : Fin cfg0.N) : Vec Ideal S2000x64 .f32 := iblk0 V c 0 t
abbrev B0_1 (t : Fin cfg0.N) : Vec Ideal S2000x64 .f32 := iblk0 V c 1 t
abbrev B0_2 (t : Fin cfg0.N) : Vec Ideal S2000x4 .f32 := iblk0 V c 2 t
abbrev B0_3 (t : Fin cfg0.N) : Vec Ideal S2000x4 .f32 := iblk0 V c 3 t
abbrev B0_4 (t : Fin cfg0.N) : Vec Ideal S130x64 .f32 := iblk0 V c 4 t

/-- The first edge layer of row r of the blocks at point t of the edge MLP kernel, at column q. -/
def o1row (t : Fin cfg1.N) (r : Fin 2000) (q : Fin 64) : EReal :=
  Spec.rowDot (Cert.LibConcat.sel4 (fun k => B1_0 V c t (ix2 r k)) (fun k => B1_1 V c t (ix2 r k))
      (Spec.normFeat (fun k => B1_2 V c t (ix2 r k)) (fun k => B1_3 V c t (ix2 r k)))
      (Spec.dotFeat (fun k => B1_2 V c t (ix2 r k)) (fun k => B1_3 V c t (ix2 r k))))
    (fun k q => B1_4 V c t (ix2 k q)) q

/-- The second-layer pre-activation of row r at point t, at column q. -/
def p2row (t : Fin cfg1.N) (r : Fin 2000) (q : Fin 64) : EReal :=
  Spec.rowDot (fun q' => Spec.relu (Spec.bnK (o1row V c t r q')
      (B1_9 V c t (ix2 (0 : Fin 1) q')) (B1_10 V c t (ix2 (0 : Fin 1) q'))
      (B1_5 V c t (ix2 (0 : Fin 1) q')) (B1_6 V c t (ix2 (0 : Fin 1) q'))))
    (fun k q => B1_7 V c t (ix2 k q)) q + B1_8 V c t (ix2 (0 : Fin 1) q)

theorem hid1_apply (t : Fin cfg1.N) (r : Fin 2000) (q : Fin 64) : hid1 V c t (ix2 r q) = p2row V c t r q := by
  unfold hid1 p2row o1row
  rw [k1_pay11_apply, dcol_apply, k1_pay6_apply]
  unfold k1_pay1 k1_pay2
  simp only [shapeCast_self]

/-- The message block at point t, at (r, f). -/
theorem out1_16_apply (t : Fin cfg1.N) (r : Fin 2000) (f : Fin 64) :
    out1_16 V c t (ix2 r f)
      = Spec.msg (p2row V c t r) (fun k q => B1_11 V c t (ix2 k q)) (B1_12 V c t (ix2 (0 : Fin 1) (0 : Fin 1))) f := by
  unfold out1_16
  rw [k1_pay12_apply]
  simp only [hid1_apply]

/-- The translation block at point t, at (r, a). -/
theorem out1_17_apply (t : Fin cfg1.N) (r : Fin 2000) (a : Fin 4) :
    out1_17 V c t (ix2 r a)
      = Spec.trans (fun a => B1_2 V c t (ix2 r a) - B1_3 V c t (ix2 r a))
          (Spec.phx (Spec.msg (p2row V c t r) (fun k q => B1_11 V c t (ix2 k q)) (B1_12 V c t (ix2 (0 : Fin 1) (0 : Fin 1))))
            (fun k q => B1_13 V c t (ix2 k q)) (fun q => B1_14 V c t (ix2 (0 : Fin 1) q)) (fun k q => B1_15 V c t (ix2 k q))) a := by
  unfold out1_17
  rw [k1_pay13_apply]
  simp only [hid1_apply]
  unfold k1_pay5 k1_pay3 k1_pay4
  simp only [shapeCast_self]
  rfl

/-- The edge statistics kernel's first layer at point t, row r, column q, as the same row-level function of ITS blocks. -/
theorem o1blk_apply (t : Fin cfg0.N) (r : Fin 2000) (q : Fin 64) :
    o1blk V c t r q
      = Spec.rowDot (Cert.LibConcat.sel4 (fun k => B0_0 V c t (ix2 r k)) (fun k => B0_1 V c t (ix2 r k))
          (Spec.normFeat (fun k => B0_2 V c t (ix2 r k)) (fun k => B0_3 V c t (ix2 r k)))
          (Spec.dotFeat (fun k => B0_2 V c t (ix2 r k)) (fun k => B0_3 V c t (ix2 r k))))
        (fun k q => B0_4 V c t (ix2 k q)) q := by
  unfold o1blk
  rw [k0_pay1_apply, k0_pay12_apply, k0_pay13_apply]
  unfold k0_pay8 k0_pay9
  simp only [shapeCast_self]
  rfl

end Cert.KernelIdeal.KVal

end
-- ==== Proof.KvArrE.lean ====
/-
  The edge MLP kernel's two output arrays after its whole grid, index by index, as row-level functions of the arrays the
  region is entered with: row e of the message array is the message of edge e computed from row e of the four gathered
  arrays, the weights and the two statistics rows; likewise the translation array.
-/
import proofs.«110093_j8770323219157_1_alg».proof.Proof.KData
import proofs.«110093_j8770323219157_1_alg».proof.Proof.KArr1
import proofs.«110093_j8770323219157_1_alg».proof.Proof.KvRow

noncomputable section

namespace Cert.KernelIdeal.KVal

open Idealize.ShloMosaic Idealize.ShloMosaic.ValueIdx Cert.KernelIdeal Cert.KernelIdeal.Gen Cert.KernelIdeal.KRun Cert.KernelIdeal.KArr

variable (V : KRun.VT Ideal) (c : Dev nD)

/-! The region's entry arrays at their literal types. -/
abbrev A1_0 : FVec Ideal S800000x64 .f32 := V c (Pipeline.arrRef spec1 0)
abbrev A1_1 : FVec Ideal S800000x64 .f32 := V c (Pipeline.arrRef spec1 1)
abbrev A1_2 : FVec Ideal S800000x4 .f32 := V c (Pipeline.arrRef spec1 2)
abbrev A1_3 : FVec Ideal S800000x4 .f32 := V c (Pipeline.arrRef spec1 3)
abbrev A1_4 : FVec Ideal S130x64 .f32 := V c (Pipeline.arrRef spec1 4)
abbrev A1_5 : FVec Ideal S1x64 .f32 := V c (Pipeline.arrRef spec1 5)
abbrev A1_6 : FVec Ideal S1x64 .f32 := V c (Pipeline.arrRef spec1 6)
abbrev A1_7 : FVec Ideal S64x64 .f32 := V c (Pipeline.arrRef spec1 7)
abbrev A1_8 : FVec Ideal S1x64 .f32 := V c (Pipeline.arrRef spec1 8)
abbrev A1_9 : FVec Ideal S1x64 .f32 := V c (Pipeline.arrRef spec1 9)
abbrev A1_10 : FVec Ideal S1x64 .f32 := V c (Pipeline.arrRef spec1 10)
abbrev A1_11 : FVec Ideal S64x1 .f32 := V c (Pipeline.arrRef spec1 11)
abbrev A1_12 : FVec Ideal S1x1 .f32 := V c (Pipeline.arrRef spec1 12)
abbrev A1_13 : FVec Ideal S64x64 .f32 := V c (Pipeline.arrRef spec1 13)
abbrev A1_14 : FVec Ideal S1x64 .f32 := V c (Pipeline.arrRef spec1 14)
abbrev A1_15 : FVec Ideal S64x1 .f32 := V c (Pipeline.arrRef spec1 15)

/-- Row r of point t's block is row 2000·t + r of the array. -/
abbrev erow1 (t : Fin cfg1.N) (r : Fin 2000) : Fin 800000 :=
  ⟨t.val * 2000 + r.val, by have := t.isLt; have hN : cfg1.N = 400 := N_1; have := r.isLt; omega⟩

/-- Every row is some block's row. -/
theorem erow1_surj (e : Fin 800000) : ∃ (t : Fin cfg1.N) (r : Fin 2000), e = erow1 t r :=
  ⟨⟨e.val / 2000, by have h := e.isLt; have hN : cfg1.N = 400 := N_1; omega⟩, ⟨e.val % 2000, Nat.mod_lt _ (by decide)⟩,
    Fin.ext (by show e.val = e.val / 2000 * 2000 + e.val % 2000; omega)⟩

/-- The first edge layer of edge e at column q, from the region's entry arrays. -/
def O1arr (e : Fin 800000) (q : Fin 64) : EReal :=
  Spec.rowDot (Cert.LibConcat.sel4 (fun k => A1_0 V c (ix2 e k)) (fun k => A1_1 V c (ix2 e k))
      (Spec.normFeat (fun k => A1_2 V c (ix2 e k)) (fun k => A1_3 V c (ix2 e k)))
      (Spec.dotFeat (fun k => A1_2 V c (ix2 e k)) (fun k => A1_3 V c (ix2 e k))))
    (fun k q => A1_4 V c (ix2 k q)) q

/-- The second-layer pre-activation of edge e at column q. -/
def P2arr (e : Fin 800000) (q : Fin 64) : EReal :=
  Spec.rowDot (fun q' => Spec.relu (Spec.bnK (O1arr V c e q')
      (A1_9 V c (ix2 (0 : Fin 1) q')) (A1_10 V c (ix2 (0 : Fin 1) q')) (A1_5 V c (ix2 (0 : Fin 1) q')) (A1_6 V c (ix2 (0 : Fin 1) q'))))
    (fun k q => A1_7 V c (ix2 k q)) q + A1_8 V c (ix2 (0 : Fin 1) q)

/-- The message of edge e. -/
def Marr (e : Fin 800000) (f : Fin 64) : EReal :=
  Spec.msg (P2arr V c e) (fun k q => A1_11 V c (ix2 k q)) (A1_12 V c (ix2 (0 : Fin 1) (0 : Fin 1))) f

/-- The clipped translation of edge e. -/
def Tarr (e : Fin 800000) (a : Fin 4) : EReal :=
  Spec.trans (fun a => A1_2 V c (ix2 e a) - A1_3 V c (ix2 e a))
    (Spec.phx (Marr V c e) (fun k q => A1_13 V c (ix2 k q)) (fun q => A1_14 V c (ix2 (0 : Fin 1) q)) (fun k q => A1_15 V c (ix2 k q))) a

theorem o1row_eq (t : Fin cfg1.N) (r : Fin 2000) (q : Fin 64) : o1row V c t r q = O1arr V c (erow1 t r) q := by
  unfold o1row O1arr
  simp only [B1_0, B1_1, B1_2, B1_3, B1_4, iblk1_0_apply, iblk1_1_apply, iblk1_2_apply, iblk1_3_apply, iblk1_4_eq]

theorem p2row_eq (t : Fin cfg1.N) (r : Fin 2000) (q : Fin 64) : p2row V c t r q = P2arr V c (erow1 t r) q := by
  unfold p2row P2arr
  simp only [o1row_eq, B1_5, B1_6, B1_7, B1_8, B1_9, B1_10, iblk1_5_eq, iblk1_6_eq, iblk1_7_eq, iblk1_8_eq, iblk1_9_eq, iblk1_10_eq]

theorem p2row_fun (t : Fin cfg1.N) (r : Fin 2000) : p2row V c t r = P2arr V c (erow1 t r) := funext (p2row_eq V c t r)

/-- The message array at a block row. -/
theorem arr16_blk (t : Fin cfg1.N) (r : Fin 2000) (f : Fin 64) :
    ((dat1 V c).arrAt 16 cfg1.N : S800000x64.Idx → Elt Ideal .f32) (ix2 (erow1 t r) f) = Marr V c (erow1 t r) f := by
  refine (arr1_16_blk V c t r f).trans ?_
  unfold Marr
  rw [out1_16_apply]
  simp only [p2row_fun, B1_11, B1_12, iblk1_11_eq, iblk1_12_eq]

/-- The message array, index by index. -/
theorem arr16 (e : Fin 800000) (f : Fin 64) :
    ((dat1 V c).arrAt 16 cfg1.N : S800000x64.Idx → Elt Ideal .f32) (ix2 e f) = Marr V c e f := by
  obtain ⟨t, r, rfl⟩ := erow1_surj e
  exact arr16_blk V c t r f

/-- The translation array at a block row. -/
theorem arr17_blk (t : Fin cfg1.N) (r : Fin 2000) (a : Fin 4) :
    ((dat1 V c).arrAt 17 cfg1.N : S800000x4.Idx → Elt Ideal .f32) (ix2 (erow1 t r) a) = Tarr V c (erow1 t r) a := by
  refine (arr1_17_blk V c t r a).trans ?_
  unfold Tarr Marr
  rw [out1_17_apply]
  simp only [p2row_fun, B1_2, B1_3, B1_11, B1_12, B1_13, B1_14, B1_15, iblk1_2_apply, iblk1_3_apply, iblk1_11_eq, iblk1_12_eq, iblk1_13_eq, iblk1_14_eq,
    iblk1_15_eq]

/-- The translation array, index by index. -/
theorem arr17 (e : Fin 800000) (a : Fin 4) :
    ((dat1 V c).arrAt 17 cfg1.N : S800000x4.Idx → Elt Ideal .f32) (ix2 e a) = Tarr V c e a := by
  obtain ⟨t, r, rfl⟩ := erow1_surj e
  exact arr17_blk V c t r a

end Cert.KernelIdeal.KVal

end
-- ==== Proof.KArr0.lean ====
/- From blocks to arrays, region 0 (the edge statistics, grid 400): each input window's block as rows of its array as the region
   finds it, and the two statistics rows after the whole grid: what the last point stores, computed from the accumulated pair. -/
import proofs.«110093_j8770323219157_1_alg».proof.Proof.KData
import Idealize.ShloMosaic.Lib.Pipeline.Value
import Idealize.ShloMosaic.Lib.ValueIdx

set_option maxRecDepth 16384

noncomputable section

namespace Cert.KernelIdeal.KArr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.KRun

variable {F : FTy → Type} [FloatOps F] [Named F]
variable (V : VT F)

/-- Window 0's printed index map, decided over the grid: block row `t`, block column 0. -/
theorem idx0_0 : ∀ t : Fin cfg0.N, win0_0.index t (0 : Fin 2) = t.val ∧ win0_0.index t (1 : Fin 2) = 0 :=
  (by decide +kernel : ∀ t : Fin grid0.N, _)

/-- Window 0's block at point `t` is rows `2000·t … 2000·t + 1999` of its array. -/
theorem iblk0_0_apply (c : Dev nD) (t : Fin cfg0.N) (r : Fin 2000) (q : Fin 64) :
    (iblk0 V c 0 t : Vec F S2000x64 .f32) (ix2 r q)
      = (V c (Pipeline.arrRef spec0 0) : S800000x64.Idx → Elt F .f32) (ix2 ⟨t.val * 2000 + r.val, by have := t.isLt; have hN : cfg0.N = 400 := N_0; have := r.isLt; omega⟩ q) := by
  obtain ⟨e0, e1⟩ := idx0_0 t
  unfold iblk0
  rw [View.read_apply]
  show V c main_v6 _ = V c main_v6 _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 64 + 1 * q.val = q.val; rw [e1]; omega

/-- Window 1's printed index map, decided over the grid: block row `t`, block column 0. -/
theorem idx0_1 : ∀ t : Fin cfg0.N, win0_1.index t (0 : Fin 2) = t.val ∧ win0_1.index t (1 : Fin 2) = 0 :=
  (by decide +kernel : ∀ t : Fin grid0.N, _)

/-- Window 1's block at point `t` is rows `2000·t … 2000·t + 1999` of its array. -/
theorem iblk0_1_apply (c : Dev nD) (t : Fin cfg0.N) (r : Fin 2000) (q : Fin 64) :
    (iblk0 V c 1 t : Vec F S2000x64 .f32) (ix2 r q)
      = (V c (Pipeline.arrRef spec0 1) : S800000x64.Idx → Elt F .f32) (ix2 ⟨t.val * 2000 + r.val, by have := t.isLt; have hN : cfg0.N = 400 := N_0; have := r.isLt; omega⟩ q) := by
  obtain ⟨e0, e1⟩ := idx0_1 t
  unfold iblk0
  rw [View.read_apply]
  show V c main_v13 _ = V c main_v13 _
  congr 1
  funext a
  apply Fin.ext
  match a with
  | ⟨0, _⟩ => show win0_1.index t (0 : Fin 2) * 2000 + 1 * r.val = t.val * 2000 + r.val; rw [e0]; omega
  | ⟨1, _⟩ => show win0_1.index t (1 : Fin 2) * 64 + 1 * q.val = q.val; rw [e1]; omega

/-- Window 2's printed index map, decided over the grid: block row `t`, block column 0. -/
theorem idx0_2 : ∀ t : Fin cfg0.N, win0_2.index t (0 : Fin 2) = t.val ∧ win0_2.index t (1 : Fin 2) = 0 :=
  (by decide +kernel : ∀ t : Fin grid0.N, _)

/-- Window 2's block at point `t` is rows `2000·t … 2000·t + 1999` of its array. -/
theorem iblk0_2_apply (c : Dev nD) (t : Fin cfg0.N) (r : Fin 2000) (q : Fin 4) :
    (iblk0 V c 2 t : Vec F S2000x4 .f32) (ix2 r q)
      = (V c (Pipeline.arrRef spec0 2) : S800000x4.Idx → Elt F .f32) (ix2 ⟨t.val * 2000 + r.val, by have := t.isLt; have hN : cfg0.N = 400 := N_0; have := r.isLt; omega⟩ q) := by
  obtain ⟨e0, e1⟩ := idx0_2 t
  unfold iblk0
  rw [View.read_apply]
  show V c main_v20 _ = V c main_v20 _
  congr 1
  funext a
  apply Fin.ext
  match a with
  | ⟨0, _⟩ => show win0_2.index t (0 : Fin 2) * 2000 + 1 * r.val = t.val * 2000 + r.val; rw [e0]; omega
  | ⟨1, _⟩ => show win0_2.index t (1 : Fin 2) * 4 + 1 * q.val = q.val; rw [e1]; omega

/-- Window 3's printed index map, decided over the grid: block row `t`, block column 0. -/
theorem idx0_3 : ∀ t : Fin cfg0.N, win0_3.index t (0 : Fin 2) = t.val ∧ win0_3.index t (1 : Fin 2) = 0 :=
  (by decide +kernel : ∀ t : Fin grid0.N, _)

/-- Window 3's block at point `t` is rows `2000·t … 2000·t + 1999` of its array. -/
theorem iblk0_3_apply (c : Dev nD) (t : Fin cfg0.N) (r : Fin 2000) (q : Fin 4) :
    (iblk0 V c 3 t : Vec F S2000x4 .f32) (ix2 r q)
      = (V c (Pipeline.arrRef spec0 3) : S800000x4.Idx → Elt F .f32) (ix2 ⟨t.val * 2000 + r.val, by have := t.isLt; have hN : cfg0.N = 400 := N_0; have := r.isLt; omega⟩ q) := by
  obtain ⟨e0, e1⟩ := idx0_3 t
  unfold iblk0
  rw [View.read_apply]
  show V c main_v27 _ = V c main_v27 _
  congr 1
  funext a
  apply Fin.ext
  match a with
  | ⟨0, _⟩ => show win0_3.index t (0 : Fin 2) * 2000 + 1 * r.val = t.val * 2000 + r.val; rw [e0]; omega
  | ⟨1, _⟩ => show win0_3.index t (1 : Fin 2) * 4 + 1 * q.val = q.val; rw [e1]; omega

/-- Window 4's printed index map, decided over the grid: block (0, 0) at every point. -/
theorem idx0_4 : ∀ t : Fin cfg0.N, win0_4.index t (0 : Fin 2) = 0 ∧ win0_4.index t (1 : Fin 2) = 0 :=
  (by decide +kernel : ∀ t : Fin grid0.N, _)

/-- Window 4's block is its whole array at every point. -/
theorem iblk0_4_eq (c : Dev nD) (t : Fin cfg0.N) :
    (iblk0 V c 4 t : Vec F S130x64 .f32) = (V c (Pipeline.arrRef spec0 4) : S130x64.Idx → Elt F .f32) := by
  obtain ⟨e0, e1⟩ := idx0_4 t
  funext j
  unfold iblk0
  rw [View.read_apply]
  show V c main_arg5 _ = V c main_arg5 j
  congr 1
  funext a
  apply Fin.ext
  match a with
  | ⟨0, _⟩ => show win0_4.index t (0 : Fin 2) * 130 + 1 * (j 0).val = (j 0).val; rw [e0]; omega
  | ⟨1, _⟩ => show win0_4.index t (1 : Fin 2) * 64 + 1 * (j 1).val = (j 1).val; rw [e1]; omega

/-- Window 5's printed index map, decided over the grid: block (0, 0) at every point. -/
theorem idx0_5 : ∀ t : Fin cfg0.N, win0_5.index t (0 : Fin 2) = 0 ∧ win0_5.index t (1 : Fin 2) = 0 :=
  (by decide +kernel : ∀ t : Fin grid0.N, _)

/-- The one write-back, at the last point, writes the row computed from everything accumulated: block (0, 0) of the [1,64] array is the array. -/
theorem flushed0_5_eq (c : Dev nD) (t : Fin cfg0.N) (hf : (cfg0.win 5).flush t = true) :
    (dat0 V c).flushed 5 t = ((cfg0.win 5).blk t).view.read (Elt F) (mean0 V c 400) := by
  have hN : cfg0.N = 400 := N_0
  have h1 : t.val = 399 := by have := (flush0_5 t).mp hf; have := t.isLt; omega
  obtain ⟨e0, e1⟩ := idx0_5 t
  funext j
  rw [View.read_apply]
  show mean0 V c (t.val + 1) j = mean0 V c 400 (((cfg0.win 5).blk t).view.emb j)
  rw [h1]
  show mean0 V c 400 j = _
  congr 1
  funext a
  apply Fin.ext
  match a with
  | ⟨0, _⟩ => show (j 0).val = win0_5.index t (0 : Fin 2) * 1 + 1 * (j 0).val; rw [e0]; omega
  | ⟨1, _⟩ => show (j 1).val = win0_5.index t (1 : Fin 2) * 64 + 1 * (j 1).val; rw [e1]; omega

/-- An index of the array is in point `t`'s block iff each coordinate is in the block's range on its axis. -/
theorem mem_blk0_5 (t : Fin cfg0.N) (i : S1x64.Idx) :
    i ∈ ((cfg0.win 5).blk t).view.set ↔ ∀ a : Fin 2, win0_5.index t a * S1x64.size a ≤ (i a).val ∧ (i a).val < win0_5.index t a * S1x64.size a + S1x64.size a := by
  show i ∈ ((View.whole main_v37_0).slice (win0_5.rect t)).set ↔ _
  rw [View.set_slice_whole, Rect.mem_set_unit]
  exact Iff.rfl

/-- The last point's block covers the array. -/
theorem cover0_5 (i : S1x64.Idx) :
    ∃ t : Fin cfg0.N, (cfg0.win 5).flush t = true ∧ i ∈ ((cfg0.win 5).blk t).view.set := by
  have hi0 : (i 0).val < 1 := (i 0).isLt
  have hi1 : (i 1).val < 64 := (i 1).isLt
  have hN : cfg0.N = 400 := N_0
  obtain ⟨t, ht⟩ : ∃ t : Fin cfg0.N, t.val = 399 := ⟨⟨399, by omega⟩, rfl⟩
  obtain ⟨e0, e1⟩ := idx0_5 t
  refine ⟨t, (flush0_5 t).mpr (by rw [ht]), ?_⟩
  rw [mem_blk0_5]
  intro a
  match a with
  | ⟨0, _⟩ => show win0_5.index t (0 : Fin 2) * 1 ≤ (i 0).val ∧ (i 0).val < win0_5.index t (0 : Fin 2) * 1 + 1; rw [e0]; omega
  | ⟨1, _⟩ => show win0_5.index t (1 : Fin 2) * 64 ≤ (i 1).val ∧ (i 1).val < win0_5.index t (1 : Fin 2) * 64 + 64; rw [e1]; omega

/-- THE ARRAY after the whole grid: the row computed from the pair accumulated over all 400 points. -/
theorem arr0_5_eq (c : Dev nD) : (dat0 V c).arrAt 5 cfg0.N = mean0 V c 400 :=
  (dat0 V c).arrAt_eq_of_cover 5 (mean0 V c 400) (flushed0_5_eq V c) cover0_5

/-- Window 6's printed index map, decided over the grid: block (0, 0) at every point. -/
theorem idx0_6 : ∀ t : Fin cfg0.N, win0_6.index t (0 : Fin 2) = 0 ∧ win0_6.index t (1 : Fin 2) = 0 :=
  (by decide +kernel : ∀ t : Fin grid0.N, _)

/-- The one write-back, at the last point, writes the row computed from everything accumulated: block (0, 0) of the [1,64] array is the array. -/
theorem flushed0_6_eq (c : Dev nD) (t : Fin cfg0.N) (hf : (cfg0.win 6).flush t = true) :
    (dat0 V c).flushed 6 t = ((cfg0.win 6).blk t).view.read (Elt F) (var0 V c 400) := by
  have hN : cfg0.N = 400 := N_0
  have h1 : t.val = 399 := by have := (flush0_6 t).mp hf; have := t.isLt; omega
  obtain ⟨e0, e1⟩ := idx0_6 t
  funext j
  rw [View.read_apply]
  show var0 V c (t.val + 1) j = var0 V c 400 (((cfg0.win 6).blk t).view.emb j)
  rw [h1]
  show var0 V c 400 j = _
  congr 1
  funext a
  apply Fin.ext
  match a with
  | ⟨0, _⟩ => show (j 0).val = win0_6.index t (0 : Fin 2) * 1 + 1 * (j 0).val; rw [e0]; omega
  | ⟨1, _⟩ => show (j 1).val = win0_6.index t (1 : Fin 2) * 64 + 1 * (j 1).val; rw [e1]; omega

/-- An index of the array is in point `t`'s block iff each coordinate is in the block's range on its axis. -/
theorem mem_blk0_6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v37_1).slice (win0_6.rect t)).set ↔ _
  rw [View.set_slice_whole, Rect.mem_set_unit]
  exact Iff.rfl

/-- The last point's block covers the array. -/
theorem cover0_6 (i : S1x64.Idx) :
    ∃ t : Fin cfg0.N, (cfg0.win 6).flush t = true ∧ i ∈ ((cfg0.win 6).blk t).view.set := by
  have hi0 : (i 0).val < 1 := (i 0).isLt
  have hi1 : (i 1).val < 64 := (i 1).isLt
  have hN : cfg0.N = 400 := N_0
  obtain ⟨t, ht⟩ : ∃ t : Fin cfg0.N, t.val = 399 := ⟨⟨399, by omega⟩, rfl⟩
  obtain ⟨e0, e1⟩ := idx0_6 t
  refine ⟨t, (flush0_6 t).mpr (by rw [ht]), ?_⟩
  rw [mem_blk0_6]
  intro a
  match a with
  | ⟨0, _⟩ => show win0_6.index t (0 : Fin 2) * 1 ≤ (i 0).val ∧ (i 0).val < win0_6.index t (0 : Fin 2) * 1 + 1; rw [e0]; omega
  | ⟨1, _⟩ => show win0_6.index t (1 : Fin 2) * 64 ≤ (i 1).val ∧ (i 1).val < win0_6.index t (1 : Fin 2) * 64 + 64; rw [e1]; omega

/-- THE ARRAY after the whole grid: the row computed from the pair accumulated over all 400 points. -/
theorem arr0_6_eq (c : Dev nD) : (dat0 V c).arrAt 6 cfg0.N = var0 V c 400 :=
  (dat0 V c).arrAt_eq_of_cover 6 (var0 V c 400) (flushed0_6_eq V c) cover0_6

end Cert.KernelIdeal.KArr

end
-- ==== Proof.KvArrS.lean ====
/-
  The edge statistics kernel's two output rows after its whole grid: the mean row is S·κ and the variance row
  Q·κ − (S·κ)², with S and Q the sums over ALL 800000 edges of the first-layer output column and of its square — the 400
  per-point column sums re-indexed as one sum.
-/
import proofs.«110093_j8770323219157_1_alg».proof.Proof.KData
import proofs.«110093_j8770323219157_1_alg».proof.Proof.KArr0
import proofs.«110093_j8770323219157_1_alg».proof.Proof.KvRow
import proofs.«110093_j8770323219157_1_alg».proof.Proof.KvAcc
import proofs.«110093_j8770323219157_1_alg».proof.Proof.LibBlockSum

noncomputable section

namespace Cert.KernelIdeal.KVal

open Idealize.ShloMosaic Idealize.ShloMosaic.ValueIdx Cert.KernelIdeal Cert.KernelIdeal.Gen Cert.KernelIdeal.KRun Cert.KernelIdeal.KArr

variable (V : KRun.VT Ideal) (c : Dev nD)

/-! The region's entry arrays at their literal types. -/
abbrev A0_0 : FVec Ideal S800000x64 .f32 := V c (Pipeline.arrRef spec0 0)
abbrev A0_1 : FVec Ideal S800000x64 .f32 := V c (Pipeline.arrRef spec0 1)
abbrev A0_2 : FVec Ideal S800000x4 .f32 := V c (Pipeline.arrRef spec0 2)
abbrev A0_3 : FVec Ideal S800000x4 .f32 := V c (Pipeline.arrRef spec0 3)
abbrev A0_4 : FVec Ideal S130x64 .f32 := V c (Pipeline.arrRef spec0 4)

/-- The first edge layer of edge e at column q, from the statistics region's entry arrays. -/
def O1arr0 (e : Fin 800000) (q : Fin 64) : EReal :=
  Spec.rowDot (Cert.LibConcat.sel4 (fun k => A0_0 V c (ix2 e k)) (fun k => A0_1 V c (ix2 e k))
      (Spec.normFeat (fun k => A0_2 V c (ix2 e k)) (fun k => A0_3 V c (ix2 e k)))
      (Spec.dotFeat (fun k => A0_2 V c (ix2 e k)) (fun k => A0_3 V c (ix2 e k))))
    (fun k q => A0_4 V c (ix2 k q)) q

/-- The block's first layer at (r, q) is the array-level one at row 2000·t + r. -/
theorem o1blk_eq (t : Fin cfg0.N) (r : Fin 2000) (q : Fin 64) :
    o1blk V c t r q = O1arr0 V c ⟨t.val * 2000 + r.val, by have := t.isLt; have hN : cfg0.N = 400 := N_0; have := r.isLt; omega⟩ q := by
  rw [o1blk_apply]
  unfold O1arr0
  simp only [B0_0, B0_1, B0_2, B0_3, B0_4, iblk0_0_apply, iblk0_1_apply, iblk0_2_apply, iblk0_3_apply, iblk0_4_eq]

/-- The 400 per-point sums of any function of the block's first layer add up to the sum over all edges. -/
theorem sum_tiles0 (g : EReal → EReal) (q : Fin 64) :
    ∑ s ∈ Finset.range cfg0.N, (if h : s < cfg0.N then ∑ r : Fin 2000, g (o1blk V c ⟨s, h⟩ r q) else 0)
      = ∑ e : Fin 800000, g (O1arr0 V c e q) := by
  have hN : cfg0.N = 400 := N_0
  let f : ℕ → EReal := fun n => if h : n < 800000 then g (O1arr0 V c ⟨n, h⟩ q) else 0
  have h1 : ∀ s ∈ Finset.range cfg0.N,
      (if h : s < cfg0.N then ∑ r : Fin 2000, g (o1blk V c ⟨s, h⟩ r q) else 0) = ∑ r : Fin 2000, f (s * 2000 + r.val) := by
    intro s hs
    have hs' : s < cfg0.N := Finset.mem_range.mp hs
    rw [dif_pos hs']
    refine Finset.sum_congr rfl fun r _ => ?_
    rw [o1blk_eq]
    have hlt : s * 2000 + r.val < 800000 := by have := r.isLt; omega
    show _ = (if h : s * 2000 + r.val < 800000 then g (O1arr0 V c ⟨s * 2000 + r.val, h⟩ q) else 0)
    rw [dif_pos hlt]
  rw [Finset.sum_congr rfl h1, hN, Cert.BlockSum.sum_blocks 400 2000 f]
  show ∑ n : Fin 800000, f n.val = _
  refine Finset.sum_congr rfl fun n _ => ?_
  show (if h : n.val < 800000 then g (O1arr0 V c ⟨n.val, h⟩ q) else 0) = _
  rw [dif_pos n.isLt]

theorem sumS0 (q : Fin 64) : ∑ s ∈ Finset.range cfg0.N, tileS0 V c q s = ∑ e : Fin 800000, O1arr0 V c e q :=
  sum_tiles0 V c (fun x => x) q

theorem sumQ0 (q : Fin 64) : ∑ s ∈ Finset.range cfg0.N, tileQ0 V c q s = ∑ e : Fin 800000, O1arr0 V c e q * O1arr0 V c e q :=
  sum_tiles0 V c (fun x => x * x) q

/-- The mean row the statistics region leaves, at column q. -/
theorem arr0_5_apply (q : Fin 64) :
    ((dat0 V c).arrAt 5 cfg0.N : S1x64.Idx → EReal) (ix2 (0 : Fin 1) q)
      = (∑ e : Fin 800000, O1arr0 V c e q) * ((1 / 800000 : ℝ) : EReal) := by
  rw [arr0_5_eq, ← sumS0]
  have h := mean0_apply V c q
  rw [show cfg0.N = 400 from N_0] at h
  rw [show cfg0.N = 400 from N_0]
  exact h

/-- The variance row the statistics region leaves, at column q. -/
theorem arr0_6_apply (q : Fin 64) :
    ((dat0 V c).arrAt 6 cfg0.N : S1x64.Idx → EReal) (ix2 (0 : Fin 1) q)
      = (∑ e : Fin 800000, O1arr0 V c e q * O1arr0 V c e q) * ((1 / 800000 : ℝ) : EReal)
        - (∑ e : Fin 800000, O1arr0 V c e q) * ((1 / 800000 : ℝ) : EReal)
          * ((∑ e : Fin 800000, O1arr0 V c e q) * ((1 / 800000 : ℝ) : EReal)) := by
  rw [arr0_6_eq, ← sumS0, ← sumQ0]
  have h := var0_apply V c q
  rw [show cfg0.N = 400 from N_0] at h
  rw [show cfg0.N = 400 from N_0]
  exact h

end Cert.KernelIdeal.KVal

end
-- ==== Proof.KvEntry.lean ====
/-
  The arrays the two edge regions are entered with, at the run's own contents: the gathered rows and the parameter rows the
  first host stretch left, the weights as launched, and for the edge MLP the two statistics rows the statistics region left.
-/
import proofs.«110093_j8770323219157_1_alg».proof.Proof.KData
import proofs.«110093_j8770323219157_1_alg».proof.Proof.KvHost
import proofs.«110093_j8770323219157_1_alg».proof.Proof.KvArrE
import proofs.«110093_j8770323219157_1_alg».proof.Proof.KvArrS

noncomputable section

namespace Cert.KernelIdeal.KVal

open Idealize.ShloMosaic Idealize.ShloMosaic.TcCoe Idealize.ShloMosaic.ValueIdx Cert.KernelIdeal Cert.KernelIdeal.Gen Cert.KernelIdeal.KRun

variable (m : (ℓ : Loc nD τ sig) → Buf (Elt Ideal) ℓ) (c : Dev nD)

/-! ## The statistics region (entered from the first host stretch) -/

theorem e0_0 : A0_0 (Vin0 m) c = KHost.gatherH (V0 m c main_arg0) (V0 m c main_arg2) := KHost.V1_v6 m c
theorem e0_1 : A0_1 (Vin0 m) c = KHost.gatherH (V0 m c main_arg0) (V0 m c main_arg3) := KHost.V1_v13 m c
theorem e0_2 : A0_2 (Vin0 m) c = KHost.gatherX (V0 m c main_arg1) (V0 m c main_arg2) := KHost.V1_v20 m c
theorem e0_3 : A0_3 (Vin0 m) c = KHost.gatherX (V0 m c main_arg1) (V0 m c main_arg3) := KHost.V1_v27 m c
theorem e0_4 : A0_4 (Vin0 m) c = (V0 m c main_arg5 : S130x64.Idx → EReal) :=
  V1_of m c main_arg5 (by decide)

/-! ## The edge MLP region (the same buffers, and the statistics region's two rows) -/

theorem e1_0 : A1_0 (Vin1 m) c = KHost.gatherH (V0 m c main_arg0) (V0 m c main_arg2) :=
  (V2_of m (fun _ => o2 m) c main_v6 (by decide)).trans (KHost.V1_v6 m c)
theorem e1_1 : A1_1 (Vin1 m) c = KHost.gatherH (V0 m c main_arg0) (V0 m c main_arg3) :=
  (V2_of m (fun _ => o2 m) c main_v13 (by decide)).trans (KHost.V1_v13 m c)
theorem e1_2 : A1_2 (Vin1 m) c = KHost.gatherX (V0 m c main_arg1) (V0 m c main_arg2) :=
  (V2_of m (fun _ => o2 m) c main_v20 (by decide)).trans (KHost.V1_v20 m c)
theorem e1_3 : A1_3 (Vin1 m) c = KHost.gatherX (V0 m c main_arg1) (V0 m c main_arg3) :=
  (V2_of m (fun _ => o2 m) c main_v27 (by decide)).trans (KHost.V1_v27 m c)
theorem e1_4 : A1_4 (Vin1 m) c = (V0 m c main_arg5 : S130x64.Idx → EReal) :=
  (V2_of m (fun _ => o2 m) c main_arg5 (by decide)).trans (V1_of m c main_arg5 (by decide))
theorem e1_5 : A1_5 (Vin1 m) c = shapeCast S1x64 (V0 m c main_arg6 : S64.Idx → EReal) shapeCasts_S64_S1x64 :=
  (V2_of m (fun _ => o2 m) c main_v28 (by decide)).trans (KHost.V1_v28 m c)
theorem e1_6 : A1_6 (Vin1 m) c = shapeCast S1x64 (V0 m c main_arg7 : S64.Idx → EReal) shapeCasts_S64_S1x64 :=
  (V2_of m (fun _ => o2 m) c main_v29 (by decide)).trans (KHost.V1_v29 m c)
theorem e1_7 : A1_7 (Vin1 m) c = (V0 m c main_arg8 : S64x64.Idx → EReal) :=
  (V2_of m (fun _ => o2 m) c main_arg8 (by decide)).trans (V1_of m c main_arg8 (by decide))
theorem e1_8 : A1_8 (Vin1 m) c = shapeCast S1x64 (V0 m c main_arg9 : S64.Idx → EReal) shapeCasts_S64_S1x64 :=
  (V2_of m (fun _ => o2 m) c main_v30 (by decide)).trans (KHost.V1_v30 m c)
theorem e1_9 : A1_9 (Vin1 m) c = ((dat0 (Vin0 m) c).arrAt 5 cfg0.N : S1x64.Idx → EReal) := by
  have h1 : V2 m (fun _ => o2 m) c main_v37_0 = o2 m main_v37_0 c := by
    simp only [V2, Function.update_of_ne (StableHlo.devRef_ne_of_ne (by decide : (main_v37_0 : Ref sig .tc) ≠ main_v37_1) :
      (Proc.devRef .tc main_v37_0 : DevRef τ sig) ≠ Proc.devRef .tc main_v37_1), Function.update_self]
  show (V2 m (fun _ => o2 m) c main_v37_0 : S1x64.Idx → EReal) = _
  rw [h1]
  unfold o2
  rw [Function.update_of_ne (by decide : (main_v37_0 : Ref sig .tc) ≠ main_v37_1), Function.update_self]
theorem e1_10 : A1_10 (Vin1 m) c = ((dat0 (Vin0 m) c).arrAt 6 cfg0.N : S1x64.Idx → EReal) := by
  have h1 : V2 m (fun _ => o2 m) c main_v37_1 = o2 m main_v37_1 c := by
    simp only [V2, Function.update_self]
  show (V2 m (fun _ => o2 m) c main_v37_1 : S1x64.Idx → EReal) = _
  rw [h1]
  unfold o2
  rw [Function.update_self]
theorem e1_11 : A1_11 (Vin1 m) c = (V0 m c main_arg10 : S64x1.Idx → EReal) :=
  (V2_of m (fun _ => o2 m) c main_arg10 (by decide)).trans (V1_of m c main_arg10 (by decide))
theorem e1_12 : A1_12 (Vin1 m) c = shapeCast S1x1 (V0 m c main_arg11 : S1.Idx → EReal) shapeCasts_S1_S1x1 :=
  (V2_of m (fun _ => o2 m) c main_v31 (by decide)).trans (KHost.V1_v31 m c)
theorem e1_13 : A1_13 (Vin1 m) c = (V0 m c main_arg12 : S64x64.Idx → EReal) :=
  (V2_of m (fun _ => o2 m) c main_arg12 (by decide)).trans (V1_of m c main_arg12 (by decide))
theorem e1_14 : A1_14 (Vin1 m) c = shapeCast S1x64 (V0 m c main_arg13 : S64.Idx → EReal) shapeCasts_S64_S1x64 :=
  (V2_of m (fun _ => o2 m) c main_v32 (by decide)).trans (KHost.V1_v32 m c)
theorem e1_15 : A1_15 (Vin1 m) c = (V0 m c main_arg14 : S64x1.Idx → EReal) :=
  (V2_of m (fun _ => o2 m) c main_arg14 (by decide)).trans (V1_of m c main_arg14 (by decide))

/-- Both edge regions compute the first layer from the same arrays. -/
theorem O1arr_eq (e : Fin 800000) (q : Fin 64) : O1arr (Vin1 m) c e q = O1arr0 (Vin0 m) c e q := by
  unfold O1arr O1arr0
  rw [e1_0, e1_1, e1_2, e1_3, e1_4, e0_0, e0_1, e0_2, e0_3, e0_4]

end Cert.KernelIdeal.KVal

end
-- ==== Proof.RefValLib.lean ====
/-
  Host layout operations and reductions read at an index, at the exact instance, for arrays of rank one and two of
  any extents: a vector made a column or a row, a row or a column repeated along the other axis, a column array
  read as a vector, and the sum along the rows or the columns of a matrix from an initial value.
  Depends on no program.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.RefLib

open Idealize.ShloMosaic Idealize.ShloMosaic.ValueIdx

variable {α : Type}

/-- A vector [a] made a column [a, 1] reads, at (i, u), the vector at i. -/
theorem bcast_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A vector [b] made a row [1, b] reads, at (u, q), the vector at q. -/
theorem bcast_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A row [1, b] repeated down a rows reads, at (p, q), the row at q. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated along b columns reads, at (p, q), the column at p. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- A column array [a, 1] read as a vector [a]: at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The host's sum along each row of an [a, b] array, from an initial value: at p, the initial value plus the sum
    over the b columns k of the entry (p, k). -/
theorem host_row_sum {a b : ℕ} {u : Shape} (v : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd v init h' hu (ix1 p) = init (Shape.Idx.first hu) + ∑ k : Fin b, v (ix2 p k) := by
  have h : (⟨2, ![a, b]⟩ : Shape).Reduces [1] ⟨1, ![a]⟩ := ⟨h'.1, Nat.one_pos, h'.2⟩
  rw [hostReduceAdd_apply, Ideal.hostReduceAdd_single h' h]
  exact congrArg _ (Finset.sum_congr rfl fun k _ => congrArg v (funext fun c => Fin.ext (by
    match c with
    | ⟨0, _⟩ => rfl
    | ⟨1, _⟩ => rfl)))

/-- The host's sum down each column of an [a, b] array, from an initial value: at l, the initial value plus the sum
    over the a rows k of the entry (k, l). -/
theorem host_col_sum {a b : ℕ} {u : Shape} (v : FVec Ideal ⟨2, ![a, b]⟩ .f32) (init : u.Idx → Ideal .f32)
    (h' : (⟨2, ![a, b]⟩ : Shape).ReducesTo [0] ⟨1, ![b]⟩) (hu : 0 < u.numel) (l : Fin b) :
    Host.reduceAdd v init h' hu (ix1 l) = init (Shape.Idx.first hu) + ∑ k : Fin a, v (ix2 k l) := by
  have h : (⟨2, ![a, b]⟩ : Shape).Reduces [0] ⟨1, ![b]⟩ := ⟨h'.1, Nat.one_pos, h'.2⟩
  rw [hostReduceAdd_apply, Ideal.hostReduceAdd_single h' h]
  exact congrArg _ (Finset.sum_congr rfl fun k _ => congrArg v (funext fun c => Fin.ext (by
    match c with
    | ⟨0, _⟩ => rfl
    | ⟨1, _⟩ => rfl)))

end Cert.RefLib

end
-- ==== Proof.RefValFeat.lean ====
/-
  The reference's edge features and first linear layer read at an index, at the exact instance.

  Row e of the gathered coordinate arrays gives the two Minkowski features of edge e: twice the first entry of an
  entrywise product less the sum of its four entries, then the signed logarithm.  The feature matrix is the
  concatenation of the two gathered node rows and the two feature columns, and the first layer's output at
  (e, q) is the sum over the 130 columns k of the feature (e, k) times the weight (k, q).  The gathers are not read.
-/
import proofs.«110093_j8770323219157_1_alg».proof.Proof.RefStages
import proofs.«110093_j8770323219157_1_alg».proof.Proof.Spec
import proofs.«110093_j8770323219157_1_alg».proof.Proof.LibConcat
import proofs.«110093_j8770323219157_1_alg».proof.Proof.LibApply
import proofs.«110093_j8770323219157_1_alg».proof.Proof.LibPlainDot
import proofs.«110093_j8770323219157_1_alg».proof.Proof.RefValLib

noncomputable section

namespace Cert.ReferenceIdeal.RefVal

open Idealize.ShloMosaic Idealize.ShloMosaic.ValueIdx Cert.ReferenceIdeal Cert.ReferenceIdeal.Gen Cert.ReferenceIdeal.RefRun
  Cert.LibApply Cert.RefLib

/-- sign p * log (|p| + 1) over a vector of 800000 values, made a column: at (e, 0) it is the signed logarithm of
    the value at e. -/
theorem psi_vec (p : FVec Ideal S800000 .f32) (e : Fin 800000) :
    broadcastInDim S800000x1 ![0] bcast_S800000_S800000x1_0
        (mulf (Host.sign p) (Host.log (addf (Host.absf p)
          (broadcastInDim S800000 ![] bcast_S_S800000 (constant (F := Ideal) S_ .f32 0x3F800000#32)))))
        (ix2 e (0 : Fin 1))
      = Spec.psi (p (ix1 e)) := by
  rw [bcast_a_a1_apply]
  rfl

/-- Twice column 0 of a [800000, 4] array less the sum of its four columns (from a zero initial value): at e, the
    Minkowski form of row e. -/
theorem mink_vec (u : FVec Ideal S800000x4 .f32) (e : Fin 800000) :
    subf (mulf (broadcastInDim S800000 ![] bcast_S_S800000 (constant (F := Ideal) S_ .f32 0x40000000#32))
            (shapeCast S800000 (extractStridedSlice S800000x1 ![0, 0] u slices_S800000x4_S800000x1_0_0)
              shapeCasts_S800000x1_S800000))
         (Host.reduceAdd u (constant (F := Ideal) S_ .f32 0x00000000#32) reducesTo_S800000x4_S800000_d1 h_S_)
         (ix1 e)
      = Spec.mink fun k => u (ix2 e k) := by
  rw [subf_apply, mulf_apply, shapeCast_a1_a_apply,
    slice2_axis1_apply 0 u slices_S800000x4_S800000x1_0_0 e (0 : Fin 1) (0 : Fin 4) rfl, host_row_sum]
  show Ideal.ofBits .f32 0x40000000#32 * _ - (Ideal.ofBits .f32 0x00000000#32 + _) = _
  rw [Ideal.ofBits_zero_f32, zero_add]
  rfl

/-- The psi-norm column at row e is the psi-norm feature of the two gathered coordinate rows. -/
theorem val_v28_apply (a1 : FVec Ideal S50000x4 .f32) (a2 a3 : IVec S800000 32) (e : Fin 800000) :
    val_v28 (F := Ideal) a1 a2 a3 (ix2 e (0 : Fin 1))
      = Spec.normFeat (fun k => val_v6 (F := Ideal) a1 a2 (ix2 e k)) (fun k => val_v13 (F := Ideal) a1 a3 (ix2 e k)) := by
  unfold val_v28 val_v27 val_v22 val_v26 val_v25 val_v23 val_v24 val_cst_4 val_v21 val_v19 val_v18 val_cst val_v17 val_v16
    val_v20 val_cst_3 val_v15 val_v14
  unfold st_v28 st_v27 st_v22 st_v26 st_v25 st_v23 st_v24 st_cst_4 st_v21 st_v19 st_v18 st_cst st_v17 st_v16 st_v20 st_cst_3
    st_v15 st_v14
  rw [psi_vec, mink_vec]
  rfl

/-- The psi-dot column at row e is the psi-dot feature of the two gathered coordinate rows. -/
theorem val_v42_apply (a1 : FVec Ideal S50000x4 .f32) (a2 a3 : IVec S800000 32) (e : Fin 800000) :
    val_v42 (F := Ideal) a1 a2 a3 (ix2 e (0 : Fin 1))
      = Spec.dotFeat (fun k => val_v6 (F := Ideal) a1 a2 (ix2 e k)) (fun k => val_v13 (F := Ideal) a1 a3 (ix2 e k)) := by
  unfold val_v42 val_v41 val_v36 val_v40 val_v39 val_v37 val_v38 val_cst_7 val_v35 val_v33 val_v32 val_cst_5 val_v31 val_v30
    val_v34 val_cst_6 val_v29
  unfold st_v42 st_v41 st_v36 st_v40 st_v39 st_v37 st_v38 st_cst_7 st_v35 st_v33 st_v32 st_cst_5 st_v31 st_v30 st_v34 st_cst_6
    st_v29
  rw [psi_vec, mink_vec]
  rfl

theorem plain_130 : Cert.PlainDot.IsPlain dot_S800000x130_S130x64_S800000x64_1_0_0_1_n_n := ⟨rfl, rfl, rfl, rfl, rfl, rfl⟩

/-- R1. The first layer's output at (e, q): the feature row of edge e times column q of the weights. -/
theorem val_v58_apply (a0 : FVec Ideal S50000x64 .f32) (a1 : FVec Ideal S50000x4 .f32) (a2 a3 : IVec S800000 32)
    (a5 : FVec Ideal S130x64 .f32) (e : Fin 800000) (q : Fin 64) :
    val_v58 (F := Ideal) a0 a1 a2 a3 a5 (ix2 e q)
      = Spec.rowDot (Cert.LibConcat.sel4 (fun k => val_v49 (F := Ideal) a0 a2 (ix2 e k)) (fun k => val_v56 (F := Ideal) a0 a3 (ix2 e k))
            (Spec.normFeat (fun k => val_v6 (F := Ideal) a1 a2 (ix2 e k)) (fun k => val_v13 (F := Ideal) a1 a3 (ix2 e k)))
            (Spec.dotFeat (fun k => val_v6 (F := Ideal) a1 a2 (ix2 e k)) (fun k => val_v13 (F := Ideal) a1 a3 (ix2 e k))))
          (fun k q => a5 (ix2 k q)) q := by
  unfold val_v58 st_v58 val_v57 st_v57
  rw [Cert.PlainDot.dotGeneral_apply _ plain_130]
  simp only [Cert.LibConcat.concat4_apply, val_v28_apply, val_v42_apply]
  rfl

end Cert.ReferenceIdeal.RefVal

end
-- ==== Proof.RefValStats.lean ====
/-
  The host's batch statistics and normalisation of an [n, 64] array read at an index, at the exact instance, for
  any number n of rows.

  The mean of column q is the column's sum (from a zero initial value) divided by the constant that spells n.  The
  variance is computed in two passes: the column mean again, kept as a row and repeated down the rows, the squared
  deviations, their column sum, divided by n - 0 (the 0 is the degrees-of-freedom correction, an integer made a
  float); the result is selected against a not-a-number constant by the comparison n - 0 > 0, which is true.
  The normalised value at (e, q) is (x - mean) / sqrt (var + eps) * g + b with the four [64] vectors made rows and
  repeated down the rows.
-/
import proofs.«110093_j8770323219157_1_alg».proof.Proof.Spec
import proofs.«110093_j8770323219157_1_alg».proof.Proof.LibApply
import proofs.«110093_j8770323219157_1_alg».proof.Proof.RefValLib

noncomputable section

namespace Cert.RefLib

open Idealize.ShloMosaic Idealize.ShloMosaic.ValueIdx Cert.LibApply

variable {n : ℕ}

/-- The comparison "greater than" answers true when its right side is below its left side. -/
theorem cmp_ogt_eq_one {a b : EReal} (h : b < a) : Ideal.cmp .ogt a b = 1#1 := by
  unfold Ideal.cmp
  simp [h]

/-- The integer 0 made a float is 0. -/
theorem sitofp_zero : FloatOps.sitofp (F := Ideal) .f32 (0#32 : BitVec 32) = (0 : EReal) := by
  show (((0#32 : BitVec 32).toInt : ℝ) : EReal) = 0
  simp

/-- The column mean: the column sum from zero, divided by the constant w. -/
theorem mean_gen (x : FVec Ideal ⟨2, ![n, 64]⟩ .f32) (w : BitVec 32)
    (hred : (⟨2, ![n, 64]⟩ : Shape).ReducesTo [0] ⟨1, ![64]⟩) (hu : 0 < (⟨0, ![]⟩ : Shape).numel)
    (hb : (⟨0, ![]⟩ : Shape).BroadcastsInDim ⟨1, ![64]⟩ ![]) (q : Fin 64) :
    Host.divf (Host.reduceAdd x (constant (F := Ideal) ⟨0, ![]⟩ .f32 0x00000000#32) hred hu)
        (broadcastInDim ⟨1, ![64]⟩ ![] hb (constant (F := Ideal) ⟨0, ![]⟩ .f32 w)) (ix1 q)
      = Ideal.div (∑ e : Fin n, x (ix2 e q)) (Ideal.ofBits .f32 w) := by
  rw [host_divf_apply, host_col_sum, broadcastInDim_scalar_apply, constant_apply, constant_apply, Ideal.ofBits_zero_f32,
    zero_add]

/-- The two-pass column variance with its degrees-of-freedom guard, when the constant w denotes a positive real N. -/
theorem var_gen (x : FVec Ideal ⟨2, ![n, 64]⟩ .f32) (w : BitVec 32) {N : ℝ} (hw : Ideal.ofBits .f32 w = (N : EReal)) (hN : 0 < N)
    (hred : (⟨2, ![n, 64]⟩ : Shape).ReducesTo [0] ⟨1, ![64]⟩) (hu : 0 < (⟨0, ![]⟩ : Shape).numel)
    (hb : (⟨0, ![]⟩ : Shape).BroadcastsInDim ⟨1, ![64]⟩ ![])
    (hb1 : (⟨0, ![]⟩ : Shape).BroadcastsInDim ⟨2, ![1, 64]⟩ ![])
    (hrow : (⟨1, ![64]⟩ : Shape).BroadcastsInDim ⟨2, ![1, 64]⟩ ![1])
    (hfull : (⟨2, ![1, 64]⟩ : Shape).BroadcastsInDim ⟨2, ![n, 64]⟩ ![0, 1]) (q : Fin 64) :
    select
        (broadcastInDim ⟨1, ![64]⟩ ![] hb
          (cmpf .ogt (subf (constant (F := Ideal) ⟨0, ![]⟩ .f32 w) (sitofp .f32 (constantI ⟨0, ![]⟩ 32 0#32)))
            (constant (F := Ideal) ⟨0, ![]⟩ .f32 0x00000000#32)))
        (Host.divf
          (Host.reduceAdd
            (mulf
              (subf x (broadcastInDim ⟨2, ![n, 64]⟩ ![0, 1] hfull
                (Host.divf (broadcastInDim ⟨2, ![1, 64]⟩ ![1] hrow
                    (Host.reduceAdd x (constant (F := Ideal) ⟨0, ![]⟩ .f32 0x00000000#32) hred hu))
                  (broadcastInDim ⟨2, ![1, 64]⟩ ![] hb1 (constant (F := Ideal) ⟨0, ![]⟩ .f32 w)))))
              (subf x (broadcastInDim ⟨2, ![n, 64]⟩ ![0, 1] hfull
                (Host.divf (broadcastInDim ⟨2, ![1, 64]⟩ ![1] hrow
                    (Host.reduceAdd x (constant (F := Ideal) ⟨0, ![]⟩ .f32 0x00000000#32) hred hu))
                  (broadcastInDim ⟨2, ![1, 64]⟩ ![] hb1 (constant (F := Ideal) ⟨0, ![]⟩ .f32 w))))))
            (constant (F := Ideal) ⟨0, ![]⟩ .f32 0x00000000#32) hred hu)
          (broadcastInDim ⟨1, ![64]⟩ ![] hb
            (subf (constant (F := Ideal) ⟨0, ![]⟩ .f32 w) (sitofp .f32 (constantI ⟨0, ![]⟩ 32 0#32)))))
        (broadcastInDim ⟨1, ![64]⟩ ![] hb (constant (F := Ideal) ⟨0, ![]⟩ .f32 0x7FC00000#32))
        (ix1 q)
      = Ideal.div (∑ e : Fin n, (x (ix2 e q) - Ideal.div (∑ e' : Fin n, x (ix2 e' q)) (N : EReal))
            * (x (ix2 e q) - Ideal.div (∑ e' : Fin n, x (ix2 e' q)) (N : EReal))) (N : EReal) := by
  have hden : subf (constant (F := Ideal) ⟨0, ![]⟩ .f32 w) (sitofp .f32 (constantI ⟨0, ![]⟩ 32 0#32)) ix0 = (N : EReal) := by
    rw [subf_apply, constant_apply, sitofp_apply, constantI_apply, sitofp_zero, sub_zero, hw]
  have hc : broadcastInDim ⟨1, ![64]⟩ ![] hb
      (cmpf .ogt (subf (constant (F := Ideal) ⟨0, ![]⟩ .f32 w) (sitofp .f32 (constantI ⟨0, ![]⟩ 32 0#32)))
        (constant (F := Ideal) ⟨0, ![]⟩ .f32 0x00000000#32)) (ix1 q) = 1#1 := by
    rw [broadcastInDim_scalar_apply, cmpf_apply, hden, constant_apply, Ideal.ofBits_zero_f32]
    exact cmp_ogt_eq_one (EReal.coe_pos.mpr hN)
  rw [select_apply, hc, select_one, host_divf_apply, host_col_sum, broadcastInDim_scalar_apply, hden, constant_apply,
    Ideal.ofBits_zero_f32, zero_add]
  simp only [mulf_apply, subf_apply, bcast_1b_ab_apply (a := n) (b := 64), host_divf_apply, bcast_b_1b_apply (b := 64),
    host_col_sum (a := n) (b := 64), broadcastInDim_scalar_apply (T := ⟨2, ![1, 64]⟩), constant_apply, Ideal.ofBits_zero_f32, zero_add, hw]

/-- The normalisation with divisions: at (e, q), (x - mean) / sqrt (var + eps) * g + b of the column's quantities. -/
theorem bn_gen (x : FVec Ideal ⟨2, ![n, 64]⟩ .f32) (mean var g b : FVec Ideal ⟨1, ![64]⟩ .f32)
    (hb : (⟨0, ![]⟩ : Shape).BroadcastsInDim ⟨1, ![64]⟩ ![])
    (hrow : (⟨1, ![64]⟩ : Shape).BroadcastsInDim ⟨2, ![1, 64]⟩ ![1])
    (hfull : (⟨2, ![1, 64]⟩ : Shape).BroadcastsInDim ⟨2, ![n, 64]⟩ ![0, 1]) (e : Fin n) (q : Fin 64) :
    addf
        (mulf
          (Host.divf (subf x (broadcastInDim ⟨2, ![n, 64]⟩ ![0, 1] hfull (broadcastInDim ⟨2, ![1, 64]⟩ ![1] hrow mean)))
            (broadcastInDim ⟨2, ![n, 64]⟩ ![0, 1] hfull (broadcastInDim ⟨2, ![1, 64]⟩ ![1] hrow
              (Host.sqrt (addf var (broadcastInDim ⟨1, ![64]⟩ ![] hb (constant (F := Ideal) ⟨0, ![]⟩ .f32 0x3727C5AC#32)))))))
          (broadcastInDim ⟨2, ![n, 64]⟩ ![0, 1] hfull (broadcastInDim ⟨2, ![1, 64]⟩ ![1] hrow g)))
        (broadcastInDim ⟨2, ![n, 64]⟩ ![0, 1] hfull (broadcastInDim ⟨2, ![1, 64]⟩ ![1] hrow b))
        (ix2 e q)
      = Spec.bnR (x (ix2 e q)) (mean (ix1 q)) (var (ix1 q)) (g (ix1 q)) (b (ix1 q)) := by
  simp only [addf_apply, mulf_apply, subf_apply, host_divf_apply, host_sqrt_apply, bcast_1b_ab_apply (a := n) (b := 64),
    bcast_b_1b_apply (b := 64), broadcastInDim_scalar_apply (T := ⟨1, ![64]⟩), constant_apply]
  rfl

end Cert.RefLib

end
-- ==== Proof.LawPsi.lean ====
/-
  The float constants the two programs spell, as the extended reals their bit patterns denote at the exact
  instance.

  A 32-bit pattern with sign bit s, exponent field E (neither 0 nor 255) and fraction field F denotes the real
  (-1)^s * (2^23 + F) * 2^(E - 150).  Evaluating this for the patterns below gives 2, 100, -100, 1, -1, the two
  column lengths 800000 and 50000, and for the pattern nearest to one hundred-thousandth the positive rational
  10995116 / 2^40.  Each of them is therefore a real number, and the last one a positive real, which is all that
  is used of it.
-/
import proofs.«110093_j8770323219157_1_alg».proof.Proof.LibRealValued

open Idealize.ShloMosaic

namespace Cert.Law

open Cert.Lib

/-- The pattern 0x40000000 denotes 2: exponent field 128, fraction 0. -/
theorem ofBits_two : Ideal.ofBits .f32 0x40000000#32 = ((2 : ℝ) : EReal) := by
  simp [Ideal.ofBits, Ideal.ieee, -EReal.coe_mul]; norm_num

/-- The pattern 0x3F800000 denotes 1: exponent field 127, fraction 0. -/
theorem ofBits_one : Ideal.ofBits .f32 0x3F800000#32 = ((1 : ℝ) : EReal) := by
  simp [Ideal.ofBits, Ideal.ieee, -EReal.coe_mul]; norm_num

/-- The pattern 0xBF800000 denotes -1: the sign bit set on the pattern of 1. -/
theorem ofBits_neg_one : Ideal.ofBits .f32 0xBF800000#32 = ((-1 : ℝ) : EReal) := by
  simp [Ideal.ofBits, Ideal.ieee, -EReal.coe_mul, -EReal.coe_neg]; norm_num

/-- The pattern 0x42C80000 denotes 100: exponent field 133, fraction 0x480000, (2^23 + 4718592) / 2^17. -/
theorem ofBits_hundred : Ideal.ofBits .f32 0x42C80000#32 = ((100 : ℝ) : EReal) := by
  simp [Ideal.ofBits, Ideal.ieee, -EReal.coe_mul]; norm_num

/-- The pattern 0xC2C80000 denotes -100. -/
theorem ofBits_neg_hundred : Ideal.ofBits .f32 0xC2C80000#32 = ((-100 : ℝ) : EReal) := by
  simp [Ideal.ofBits, Ideal.ieee, -EReal.coe_mul, -EReal.coe_neg]; norm_num

/-- The pattern 0x49435000 denotes 800000: exponent field 146, fraction 0x435000, 12800000 / 2^4. -/
theorem ofBits_800000 : Ideal.ofBits .f32 0x49435000#32 = ((800000 : ℝ) : EReal) := by
  simp [Ideal.ofBits, Ideal.ieee, -EReal.coe_mul]; norm_num

/-- The pattern 0x47435000 denotes 50000: exponent field 142, fraction 0x435000, 12800000 / 2^8. -/
theorem ofBits_50000 : Ideal.ofBits .f32 0x47435000#32 = ((50000 : ℝ) : EReal) := by
  simp [Ideal.ofBits, Ideal.ieee, -EReal.coe_mul]; norm_num

/-- The pattern 0x3727C5AC, the single-precision number nearest to one hundred-thousandth, denotes
    10995116 / 2^40: exponent field 110, fraction 0x27C5AC = 2606508, and 2^23 + 2606508 = 10995116. -/
theorem ofBits_eps : Ideal.ofBits .f32 0x3727C5AC#32 = (((10995116 : ℝ) / 2 ^ 40 : ℝ) : EReal) := by
  simp [Ideal.ofBits, Ideal.ieee, -EReal.coe_mul]; norm_num

/-- That constant is a positive real. -/
theorem ofBits_eps_pos : ∃ ε : ℝ, 0 < ε ∧ Ideal.ofBits .f32 0x3727C5AC#32 = (ε : EReal) :=
  ⟨_, by positivity, ofBits_eps⟩

/-- The two column lengths as products of tile count and tile length. -/
theorem card_800000 : ((400 * 2000 : ℕ) : ℝ) = 800000 := by norm_num
theorem card_50000 : ((25 * 2000 : ℕ) : ℝ) = 50000 := by norm_num

/-! Each of the constants is a real number. -/

theorem isReal_two : IsReal (Ideal.ofBits .f32 0x40000000#32) := ⟨_, ofBits_two⟩
theorem isReal_one : IsReal (Ideal.ofBits .f32 0x3F800000#32) := ⟨_, ofBits_one⟩
theorem isReal_neg_one : IsReal (Ideal.ofBits .f32 0xBF800000#32) := ⟨_, ofBits_neg_one⟩
theorem isReal_hundred : IsReal (Ideal.ofBits .f32 0x42C80000#32) := ⟨_, ofBits_hundred⟩
theorem isReal_neg_hundred : IsReal (Ideal.ofBits .f32 0xC2C80000#32) := ⟨_, ofBits_neg_hundred⟩
theorem isReal_800000 : IsReal (Ideal.ofBits .f32 0x49435000#32) := ⟨_, ofBits_800000⟩
theorem isReal_50000 : IsReal (Ideal.ofBits .f32 0x47435000#32) := ⟨_, ofBits_50000⟩
theorem isReal_eps : IsReal (Ideal.ofBits .f32 0x3727C5AC#32) := ⟨_, ofBits_eps⟩
theorem isReal_zero : IsReal (Ideal.ofBits .f32 0x00000000#32) := ⟨0, by simp [Ideal.ofBits, Ideal.ieee]⟩

end Cert.Law
-- ==== Proof.RefValEdge.lean ====
/-
  The reference's edge batch statistics and normalisation read at an index, at the exact instance: the mean and the
  two-pass variance of each column of the first layer's [800000, 64] output, and the normalised value at (e, q).
  The first layer's output itself stays a name.
-/
import proofs.«110093_j8770323219157_1_alg».proof.Proof.RefStages
import proofs.«110093_j8770323219157_1_alg».proof.Proof.Spec
import proofs.«110093_j8770323219157_1_alg».proof.Proof.LibApply
import proofs.«110093_j8770323219157_1_alg».proof.Proof.RefValLib
import proofs.«110093_j8770323219157_1_alg».proof.Proof.RefValStats
import proofs.«110093_j8770323219157_1_alg».proof.Proof.LawPsi

noncomputable section

namespace Cert.ReferenceIdeal.RefVal

open Idealize.ShloMosaic Idealize.ShloMosaic.ValueIdx Cert.ReferenceIdeal Cert.ReferenceIdeal.Gen Cert.ReferenceIdeal.RefRun
  Cert.LibApply Cert.RefLib

/-- R2. The mean of column q of the first layer's output: the column sum divided by 800000. -/
theorem val_v61_apply (a0 : FVec Ideal S50000x64 .f32) (a1 : FVec Ideal S50000x4 .f32) (a2 : IVec S800000 32) (a3 : IVec S800000 32) (a5 : FVec Ideal S130x64 .f32) (q : Fin 64) :
    val_v61 (F := Ideal) a0 a1 a2 a3 a5 (ix1 q)
      = Ideal.div (∑ e : Fin 800000, val_v58 (F := Ideal) a0 a1 a2 a3 a5 (ix2 e q)) ((800000 : ℝ) : EReal) := by
  unfold val_v61 val_v60 val_cst_13 val_v59 val_cst_12
  unfold st_v61 st_v60 st_cst_13 st_v59 st_cst_12
  rw [← Cert.Law.ofBits_800000]
  exact mean_gen (n := 800000) _ _ _ _ _ q

/-- R3. The variance of column q: the mean of the squared deviations from the column mean (the guard on the
    divisor 800000 - 0 > 0 is true). -/
theorem val_v62_apply (a0 : FVec Ideal S50000x64 .f32) (a1 : FVec Ideal S50000x4 .f32) (a2 : IVec S800000 32) (a3 : IVec S800000 32) (a5 : FVec Ideal S130x64 .f32) (q : Fin 64) :
    val_v62 (F := Ideal) a0 a1 a2 a3 a5 (ix1 q)
      = Ideal.div (∑ e : Fin 800000,
            (val_v58 (F := Ideal) a0 a1 a2 a3 a5 (ix2 e q) - Ideal.div (∑ e' : Fin 800000, val_v58 (F := Ideal) a0 a1 a2 a3 a5 (ix2 e' q)) ((800000 : ℝ) : EReal))
              * (val_v58 (F := Ideal) a0 a1 a2 a3 a5 (ix2 e q) - Ideal.div (∑ e' : Fin 800000, val_v58 (F := Ideal) a0 a1 a2 a3 a5 (ix2 e' q)) ((800000 : ℝ) : EReal)))
          ((800000 : ℝ) : EReal) := by
  unfold val_v62 val_call0_call0_v1 val_call0_call0_v0 val_call0_cst_4 val_call0_v11 val_call0_v10 val_call0_v9 val_call0_cst_2 val_call0_v6 val_call0_v5 val_call0_v4 val_call0_v3 val_call0_v2 val_call0_cst_0 val_call0_v1 val_call0_v0 val_call0_cst val_call0_v12 val_call0_cst_3 val_call0_v8 val_call0_v7 val_c_14 val_call0_cst_1
  unfold st_v62 st_call0_call0_v1 st_call0_call0_v0 st_call0_cst_4 st_call0_v11 st_call0_v10 st_call0_v9 st_call0_cst_2 st_call0_v6 st_call0_v5 st_call0_v4 st_call0_v3 st_call0_v2 st_call0_cst_0 st_call0_v1 st_call0_v0 st_call0_cst st_call0_v12 st_call0_cst_3 st_call0_v8 st_call0_v7 st_c_14 st_call0_cst_1
  exact var_gen (n := 800000) _ _ Cert.Law.ofBits_800000 (by norm_num) _ _ _ _ _ _ q

/-- R4. The normalised first-layer output at (e, q). -/
theorem val_v77_apply (a0 : FVec Ideal S50000x64 .f32) (a1 : FVec Ideal S50000x4 .f32) (a2 : IVec S800000 32) (a3 : IVec S800000 32) (a5 : FVec Ideal S130x64 .f32) (a6 : FVec Ideal S64 .f32) (a7 : FVec Ideal S64 .f32) (e : Fin 800000) (q : Fin 64) :
    val_v77 (F := Ideal) a0 a1 a2 a3 a5 a6 a7 (ix2 e q)
      = Spec.bnR (val_v58 (F := Ideal) a0 a1 a2 a3 a5 (ix2 e q)) (val_v61 (F := Ideal) a0 a1 a2 a3 a5 (ix1 q)) (val_v62 (F := Ideal) a0 a1 a2 a3 a5 (ix1 q)) (a6 (ix1 q)) (a7 (ix1 q)) := by
  unfold val_v77 val_v76 val_v75 val_v74 val_v73 val_v72 val_v71 val_v70 val_v69 val_v68 val_v67 val_v66 val_cst_15 val_v65 val_v64 val_v63
  unfold st_v77 st_v76 st_v75 st_v74 st_v73 st_v72 st_v71 st_v70 st_v69 st_v68 st_v67 st_v66 st_cst_15 st_v65 st_v64 st_v63
  exact bn_gen (n := 800000) _ _ _ _ _ _ _ _ e q

end Cert.ReferenceIdeal.RefVal

end
-- ==== Proof.RefValMsg.lean ====
/-
  The reference's edge message and coordinate update read at an index, at the exact instance.  At (e, f) the message
  is relu of the second layer's pre-activation times the gate, the logistic function (spelt as 1 / (1 + exp (-x))) of
  the gate's linear form of the relu'd row; at (e, a) the update is the clipped product of the coordinate difference
  with the scalar the message row gives through two more layers.  Matrix products are sums over the contracted
  coordinate; [64] vectors are made rows and repeated down the rows; one-column arrays are repeated along the columns.
-/
import proofs.«110093_j8770323219157_1_alg».proof.Proof.RefStages
import proofs.«110093_j8770323219157_1_alg».proof.Proof.Spec
import proofs.«110093_j8770323219157_1_alg».proof.Proof.LibApply
import proofs.«110093_j8770323219157_1_alg».proof.Proof.LibPlainDot
import proofs.«110093_j8770323219157_1_alg».proof.Proof.RefValLib

noncomputable section

namespace Cert.ReferenceIdeal.RefVal

open Idealize.ShloMosaic Idealize.ShloMosaic.ValueIdx Cert.ReferenceIdeal Cert.ReferenceIdeal.Gen Cert.ReferenceIdeal.RefRun
  Cert.LibApply Cert.RefLib

theorem plain_64 : Cert.PlainDot.IsPlain dot_S800000x64_S64x64_S800000x64_1_0_0_1_n_n := ⟨rfl, rfl, rfl, rfl, rfl, rfl⟩
theorem plain_64x1 : Cert.PlainDot.IsPlain dot_S800000x64_S64x1_S800000x1_1_0_0_1_n_n := ⟨rfl, rfl, rfl, rfl, rfl, rfl⟩

/-- R5. The message at (e, f). -/
theorem val_v95_apply (a0 : FVec Ideal S50000x64 .f32) (a1 : FVec Ideal S50000x4 .f32) (a2 : IVec S800000 32) (a3 : IVec S800000 32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (e : Fin 800000) (f : Fin 64) :
    val_v95 (F := Ideal) a0 a1 a2 a3 a5 a6 a7 a8 a9 a10 a11 (ix2 e f)
      = Spec.msg (fun q => Spec.rowDot (fun q' => Spec.relu (val_v77 (F := Ideal) a0 a1 a2 a3 a5 a6 a7 (ix2 e q'))) (fun k q => a8 (ix2 k q)) q + a9 (ix1 q))
          (fun k q => a10 (ix2 k q)) (a11 (ix1 (0 : Fin 1))) f := by
  unfold val_v95 val_v94 val_v93 val_v91 val_v89 val_v88 val_v87 val_v86 val_v85 val_v84 val_v90 val_cst_16 val_v92 val_cst_17 val_v83 val_call2_v0 val_call2_cst val_v82 val_v81 val_v80 val_v79 val_v78 val_call1_v0 val_call1_cst
  unfold st_v95 st_v94 st_v93 st_v91 st_v89 st_v88 st_v87 st_v86 st_v85 st_v84 st_v90 st_cst_16 st_v92 st_cst_17 st_v83 st_call2_v0 st_call2_cst st_v82 st_v81 st_v80 st_v79 st_v78 st_call1_v0 st_call1_cst
  simp only [mulf_apply, maximumf_apply, addf_apply, Cert.PlainDot.dotGeneral_apply _ plain_64,
    Cert.PlainDot.dotGeneral_apply _ plain_64x1, bcast_1b_ab_apply (a := 800000) (b := 64),
    bcast_1b_ab_apply (a := 800000) (b := 1), bcast_b_1b_apply (b := 64), bcast_b_1b_apply (b := 1),
    bcast_a1_ab_apply (a := 800000) (b := 64), host_divf_apply, host_exp_apply, host_negf_apply,
    broadcastInDim_scalar_apply (T := S800000x64), broadcastInDim_scalar_apply (T := S800000x1), constant_apply,
    Ideal.ofBits_one_f32]
  rfl

/-- R6. The clipped coordinate update at (e, a). -/
theorem val_v104_apply (a0 : FVec Ideal S50000x64 .f32) (a1 : FVec Ideal S50000x4 .f32) (a2 : IVec S800000 32) (a3 : IVec S800000 32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a12 : FVec Ideal S64x64 .f32) (a13 : FVec Ideal S64 .f32) (a14 : FVec Ideal S64x1 .f32) (e : Fin 800000) (a : Fin 4) :
    val_v104 (F := Ideal) a0 a1 a2 a3 a5 a6 a7 a8 a9 a10 a11 a12 a13 a14 (ix2 e a)
      = Spec.trans (fun a => val_v6 (F := Ideal) a1 a2 (ix2 e a) - val_v13 (F := Ideal) a1 a3 (ix2 e a))
          (Spec.phx (fun f => val_v95 (F := Ideal) a0 a1 a2 a3 a5 a6 a7 a8 a9 a10 a11 (ix2 e f)) (fun k q => a12 (ix2 k q)) (fun q => a13 (ix1 q))
            (fun k q => a14 (ix2 k q))) a := by
  unfold val_v104 val_call4_v2 val_v103 val_v102 val_v101 val_v100 val_call3_v0 val_call3_cst val_v99 val_v98 val_v97 val_v96 val_v14 val_call4_v1 val_call4_v0 val_cst_18 val_call4_v4 val_call4_v3 val_cst_19
  unfold st_v104 st_call4_v2 st_v103 st_v102 st_v101 st_v100 st_call3_v0 st_call3_cst st_v99 st_v98 st_v97 st_v96 st_v14 st_call4_v1 st_call4_v0 st_cst_18 st_call4_v4 st_call4_v3 st_cst_19
  simp only [minimumf_apply, maximumf_apply, mulf_apply, subf_apply, addf_apply, Cert.PlainDot.dotGeneral_apply _ plain_64,
    Cert.PlainDot.dotGeneral_apply _ plain_64x1, bcast_a1_ab_apply (a := 800000) (b := 4),
    bcast_1b_ab_apply (a := 800000) (b := 64), bcast_b_1b_apply (b := 64), broadcastInDim_scalar_apply (T := S800000x4),
    broadcastInDim_scalar_apply (T := S800000x64), constant_apply]
  rfl

end Cert.ReferenceIdeal.RefVal

end
-- ==== Proof.BrHost.lean ====
/-
  The host operations the two programs share. The reference gathers the node rows through the same normalised index
  columns, and forms the updated coordinates and the aggregated messages by the same scatter-adds, as the kernel program
  does around its kernels: as functions of their operands the chains are one term.
-/
import proofs.«110093_j8770323219157_1_alg».proof.Proof.RefStages
import proofs.«110093_j8770323219157_1_alg».proof.Proof.KvHost

set_option maxRecDepth 16384

noncomputable section

namespace Cert.Bridge

open Idealize.ShloMosaic Cert.ReferenceIdeal.RefRun

theorem ref_v49 (a0 : FVec Ideal Cert.ReferenceIdeal.S50000x64 .f32) (a2 : IVec Cert.ReferenceIdeal.S800000 32) :
    val_v49 (F := Ideal) a0 a2 = Cert.KernelIdeal.KHost.gatherH a0 a2 := rfl
theorem ref_v56 (a0 : FVec Ideal Cert.ReferenceIdeal.S50000x64 .f32) (a3 : IVec Cert.ReferenceIdeal.S800000 32) :
    val_v56 (F := Ideal) a0 a3 = Cert.KernelIdeal.KHost.gatherH a0 a3 := rfl
theorem ref_v6 (a1 : FVec Ideal Cert.ReferenceIdeal.S50000x4 .f32) (a2 : IVec Cert.ReferenceIdeal.S800000 32) :
    val_v6 (F := Ideal) a1 a2 = Cert.KernelIdeal.KHost.gatherX a1 a2 := rfl
theorem ref_v13 (a1 : FVec Ideal Cert.ReferenceIdeal.S50000x4 .f32) (a3 : IVec Cert.ReferenceIdeal.S800000 32) :
    val_v13 (F := Ideal) a1 a3 = Cert.KernelIdeal.KHost.gatherX a1 a3 := rfl

/-- The reference's updated coordinates are the kernel program's host chain applied to the reference's translations. -/
theorem ref_v119 (a0 : FVec Ideal Cert.ReferenceIdeal.S50000x64 .f32) (a1 : FVec Ideal Cert.ReferenceIdeal.S50000x4 .f32)
    (a2 a3 : IVec Cert.ReferenceIdeal.S800000 32) (a5 : FVec Ideal Cert.ReferenceIdeal.S130x64 .f32)
    (a6 a7 : FVec Ideal Cert.ReferenceIdeal.S64 .f32) (a8 : FVec Ideal Cert.ReferenceIdeal.S64x64 .f32) (a9 : FVec Ideal Cert.ReferenceIdeal.S64 .f32)
    (a10 : FVec Ideal Cert.ReferenceIdeal.S64x1 .f32) (a11 : FVec Ideal Cert.ReferenceIdeal.S1 .f32) (a12 : FVec Ideal Cert.ReferenceIdeal.S64x64 .f32)
    (a13 : FVec Ideal Cert.ReferenceIdeal.S64 .f32) (a14 : FVec Ideal Cert.ReferenceIdeal.S64x1 .f32) :
    val_v119 (F := Ideal) a0 a1 a2 a3 a5 a6 a7 a8 a9 a10 a11 a12 a13 a14
      = Cert.KernelIdeal.KHost.xnewOf a1 a2 (val_v104 (F := Ideal) a0 a1 a2 a3 a5 a6 a7 a8 a9 a10 a11 a12 a13 a14) := rfl

/-- The reference's aggregated messages are the kernel program's host chain applied to the reference's messages. -/
theorem ref_v122 (a0 : FVec Ideal Cert.ReferenceIdeal.S50000x64 .f32) (a1 : FVec Ideal Cert.ReferenceIdeal.S50000x4 .f32)
    (a2 a3 : IVec Cert.ReferenceIdeal.S800000 32) (a5 : FVec Ideal Cert.ReferenceIdeal.S130x64 .f32)
    (a6 a7 : FVec Ideal Cert.ReferenceIdeal.S64 .f32) (a8 : FVec Ideal Cert.ReferenceIdeal.S64x64 .f32) (a9 : FVec Ideal Cert.ReferenceIdeal.S64 .f32)
    (a10 : FVec Ideal Cert.ReferenceIdeal.S64x1 .f32) (a11 : FVec Ideal Cert.ReferenceIdeal.S1 .f32) :
    val_v122 (F := Ideal) a0 a1 a2 a3 a5 a6 a7 a8 a9 a10 a11
      = Cert.KernelIdeal.KHost.aggOf a2 (val_v95 (F := Ideal) a0 a1 a2 a3 a5 a6 a7 a8 a9 a10 a11) := rfl

end Cert.Bridge

end
-- ==== Proof.BrLaw.lean ====
/-
  The join between the two BatchNorm spellings, at the row-level definitions: for a column of real numbers, normalising
  with the one-pass statistics S·κ, Q·κ − (S·κ)² and a reciprocal square root (the kernel) is normalising with the
  quotient mean, the two-pass variance and a quotient by the square root (the reference).
-/
import proofs.«110093_j8770323219157_1_alg».proof.Proof.Spec
import proofs.«110093_j8770323219157_1_alg».proof.Proof.LawStats
import proofs.«110093_j8770323219157_1_alg».proof.Proof.LawPsi

noncomputable section

namespace Cert.Bridge

open Idealize.ShloMosaic Cert.Lib

/-- 800000 rows. -/
theorem bn_join_E (x : Fin 800000 → EReal) (hx : ∀ e, IsReal (x e)) (y g b : EReal) :
    Spec.bnK y ((∑ e, x e) * ((1 / 800000 : ℝ) : EReal))
        ((∑ e, x e * x e) * ((1 / 800000 : ℝ) : EReal) - (∑ e, x e) * ((1 / 800000 : ℝ) : EReal) * ((∑ e, x e) * ((1 / 800000 : ℝ) : EReal))) g b
      = Spec.bnR y (Ideal.div (∑ e, x e) ((800000 : ℝ) : EReal))
          (Ideal.div (∑ e, (x e - Ideal.div (∑ e', x e') ((800000 : ℝ) : EReal)) * (x e - Ideal.div (∑ e', x e') ((800000 : ℝ) : EReal)))
            ((800000 : ℝ) : EReal)) g b := by
  obtain ⟨ε, hε, he⟩ := Cert.Law.ofBits_eps_pos
  unfold Spec.bnK Spec.bnR Spec.epsW
  rw [he]
  exact Cert.Law.batchnorm_eq x hx (n := 800000) (ε := ε) (by norm_num) (by simp) hε y g b

/-- 50000 rows. -/
theorem bn_join_N (x : Fin 50000 → EReal) (hx : ∀ e, IsReal (x e)) (y g b : EReal) :
    Spec.bnK y ((∑ e, x e) * ((1 / 50000 : ℝ) : EReal))
        ((∑ e, x e * x e) * ((1 / 50000 : ℝ) : EReal) - (∑ e, x e) * ((1 / 50000 : ℝ) : EReal) * ((∑ e, x e) * ((1 / 50000 : ℝ) : EReal))) g b
      = Spec.bnR y (Ideal.div (∑ e, x e) ((50000 : ℝ) : EReal))
          (Ideal.div (∑ e, (x e - Ideal.div (∑ e', x e') ((50000 : ℝ) : EReal)) * (x e - Ideal.div (∑ e', x e') ((50000 : ℝ) : EReal)))
            ((50000 : ℝ) : EReal)) g b := by
  obtain ⟨ε, hε, he⟩ := Cert.Law.ofBits_eps_pos
  unfold Spec.bnK Spec.bnR Spec.epsW
  rw [he]
  exact Cert.Law.batchnorm_eq x hx (n := 50000) (ε := ε) (by norm_num) (by simp) hε y g b

end Cert.Bridge

end
-- ==== Proof.BrEdge.lean ====
/-
  The edge half of the bridge: under real inputs the kernel program's message array and translation array are, index by
  index, the reference's. Both sides are the row-level functions of the same gathered rows and the same weights; the one
  place they differ is the BatchNorm of the first layer, joined by the one-pass/two-pass law for a real column.
-/
import proofs.«110093_j8770323219157_1_alg».proof.Proof.KvEntry
import proofs.«110093_j8770323219157_1_alg».proof.Proof.RefValFeat
import proofs.«110093_j8770323219157_1_alg».proof.Proof.RefValEdge
import proofs.«110093_j8770323219157_1_alg».proof.Proof.RefValMsg
import proofs.«110093_j8770323219157_1_alg».proof.Proof.BrHost
import proofs.«110093_j8770323219157_1_alg».proof.Proof.BrLaw

noncomputable section

namespace Cert.Bridge

open Idealize.ShloMosaic Idealize.ShloMosaic.TcCoe Idealize.ShloMosaic.ValueIdx Cert.Lib
open Cert.KernelIdeal Cert.KernelIdeal.Gen Cert.KernelIdeal.KRun Cert.KernelIdeal.KVal
open Cert.ReferenceIdeal.RefRun Cert.ReferenceIdeal.RefVal

variable (m : (ℓ : Loc nD τ sig) → Buf (Elt Ideal) ℓ) (c : Dev nD)

/-! The launch contents of the arguments, at their literal types. -/
abbrev g0 : FVec Ideal S50000x64 .f32 := V0 m c main_arg0
abbrev g1 : FVec Ideal S50000x4 .f32 := V0 m c main_arg1
abbrev g2 : IVec S800000 32 := V0 m c main_arg2
abbrev g3 : IVec S800000 32 := V0 m c main_arg3
abbrev g5 : FVec Ideal S130x64 .f32 := V0 m c main_arg5
abbrev g6 : FVec Ideal S64 .f32 := V0 m c main_arg6
abbrev g7 : FVec Ideal S64 .f32 := V0 m c main_arg7
abbrev g8 : FVec Ideal S64x64 .f32 := V0 m c main_arg8
abbrev g9 : FVec Ideal S64 .f32 := V0 m c main_arg9
abbrev g10 : FVec Ideal S64x1 .f32 := V0 m c main_arg10
abbrev g11 : FVec Ideal S1 .f32 := V0 m c main_arg11
abbrev g12 : FVec Ideal S64x64 .f32 := V0 m c main_arg12
abbrev g13 : FVec Ideal S64 .f32 := V0 m c main_arg13
abbrev g14 : FVec Ideal S64x1 .f32 := V0 m c main_arg14

/-- The reference's first edge layer at (e, q). -/
abbrev rO1 (e : Fin 800000) (q : Fin 64) : EReal := val_v58 (F := Ideal) (g0 m c) (g1 m c) (g2 m c) (g3 m c) (g5 m c) (ix2 e q)

theorem kO1_0 (e : Fin 800000) (q : Fin 64) : O1arr0 (Vin0 m) c e q = rO1 m c e q := by
  unfold O1arr0 rO1
  rw [e0_0, e0_1, e0_2, e0_3, e0_4, val_v58_apply, ref_v49, ref_v56, ref_v6, ref_v13]

theorem kO1_1 (e : Fin 800000) (q : Fin 64) : O1arr (Vin1 m) c e q = rO1 m c e q :=
  (O1arr_eq m c e q).trans (kO1_0 m c e q)

theorem kmean (q : Fin 64) :
    A1_9 (Vin1 m) c (ix2 (0 : Fin 1) q) = (∑ e : Fin 800000, rO1 m c e q) * ((1 / 800000 : ℝ) : EReal) := by
  rw [e1_9, arr0_5_apply]
  simp only [kO1_0]

theorem kvar (q : Fin 64) :
    A1_10 (Vin1 m) c (ix2 (0 : Fin 1) q)
      = (∑ e : Fin 800000, rO1 m c e q * rO1 m c e q) * ((1 / 800000 : ℝ) : EReal)
        - (∑ e : Fin 800000, rO1 m c e q) * ((1 / 800000 : ℝ) : EReal) * ((∑ e : Fin 800000, rO1 m c e q) * ((1 / 800000 : ℝ) : EReal)) := by
  rw [e1_10, arr0_6_apply]
  simp only [kO1_0]

theorem kg (q : Fin 64) : A1_5 (Vin1 m) c (ix2 (0 : Fin 1) q) = g6 m c (ix1 q) := by
  rw [e1_5]; exact shapeCast_a_1a_apply _ _ (0 : Fin 1) q
theorem kb (q : Fin 64) : A1_6 (Vin1 m) c (ix2 (0 : Fin 1) q) = g7 m c (ix1 q) := by
  rw [e1_6]; exact shapeCast_a_1a_apply _ _ (0 : Fin 1) q
theorem kb2 (q : Fin 64) : A1_8 (Vin1 m) c (ix2 (0 : Fin 1) q) = g9 m c (ix1 q) := by
  rw [e1_8]; exact shapeCast_a_1a_apply _ _ (0 : Fin 1) q
theorem kbm : A1_12 (Vin1 m) c (ix2 (0 : Fin 1) (0 : Fin 1)) = g11 m c (ix1 (0 : Fin 1)) := by
  rw [e1_12]; exact Cert.LibLayout.shapeCast_1_11_apply _ _ (0 : Fin 1) (0 : Fin 1)
theorem kbx1 (q : Fin 64) : A1_14 (Vin1 m) c (ix2 (0 : Fin 1) q) = g13 m c (ix1 q) := by
  rw [e1_14]; exact shapeCast_a_1a_apply _ _ (0 : Fin 1) q

/-- The normalised, activated first layer agrees, entry by entry. -/
theorem kbn (hx : ∀ e q, IsReal (rO1 m c e q)) (e : Fin 800000) (q : Fin 64) :
    Spec.relu (Spec.bnK (O1arr (Vin1 m) c e q) (A1_9 (Vin1 m) c (ix2 (0 : Fin 1) q)) (A1_10 (Vin1 m) c (ix2 (0 : Fin 1) q))
        (A1_5 (Vin1 m) c (ix2 (0 : Fin 1) q)) (A1_6 (Vin1 m) c (ix2 (0 : Fin 1) q)))
      = Spec.relu (val_v77 (F := Ideal) (g0 m c) (g1 m c) (g2 m c) (g3 m c) (g5 m c) (g6 m c) (g7 m c) (ix2 e q)) := by
  rw [kO1_1, kmean, kvar, kg, kb, val_v77_apply, val_v61_apply, val_v62_apply]
  exact congrArg Spec.relu (bn_join_E (fun e => rO1 m c e q) (fun e => hx e q) _ _ _)

/-- The second-layer pre-activation agrees, as a function of the column. -/
theorem kP2 (hx : ∀ e q, IsReal (rO1 m c e q)) (e : Fin 800000) :
    P2arr (Vin1 m) c e
      = fun q => Spec.rowDot (fun q' => Spec.relu (val_v77 (F := Ideal) (g0 m c) (g1 m c) (g2 m c) (g3 m c) (g5 m c) (g6 m c) (g7 m c) (ix2 e q')))
          (fun k q => g8 m c (ix2 k q)) q + g9 m c (ix1 q) := by
  funext q
  unfold P2arr
  simp only [kbn m c hx]
  rw [e1_7, kb2]

/-- THE MESSAGES: the edge MLP region's message array is the reference's, index by index. -/
theorem edge_m (hx : ∀ e q, IsReal (rO1 m c e q)) (e : Fin 800000) (f : Fin 64) :
    Marr (Vin1 m) c e f
      = val_v95 (F := Ideal) (g0 m c) (g1 m c) (g2 m c) (g3 m c) (g5 m c) (g6 m c) (g7 m c) (g8 m c) (g9 m c) (g10 m c) (g11 m c) (ix2 e f) := by
  unfold Marr
  rw [val_v95_apply, kP2 m c hx, e1_11, kbm]

theorem edge_m_fun (hx : ∀ e q, IsReal (rO1 m c e q)) (e : Fin 800000) :
    Marr (Vin1 m) c e
      = fun f => val_v95 (F := Ideal) (g0 m c) (g1 m c) (g2 m c) (g3 m c) (g5 m c) (g6 m c) (g7 m c) (g8 m c) (g9 m c) (g10 m c) (g11 m c) (ix2 e f) :=
  funext (edge_m m c hx e)

/-- THE TRANSLATIONS: the edge MLP region's translation array is the reference's, index by index. -/
theorem edge_t (hx : ∀ e q, IsReal (rO1 m c e q)) (e : Fin 800000) (a : Fin 4) :
    Tarr (Vin1 m) c e a
      = val_v104 (F := Ideal) (g0 m c) (g1 m c) (g2 m c) (g3 m c) (g5 m c) (g6 m c) (g7 m c) (g8 m c) (g9 m c) (g10 m c) (g11 m c)
          (g12 m c) (g13 m c) (g14 m c) (ix2 e a) := by
  unfold Tarr
  have hb : (fun q => A1_14 (Vin1 m) c (ix2 (0 : Fin 1) q)) = fun q => g13 m c (ix1 q) := funext (kbx1 m c)
  rw [val_v104_apply, edge_m_fun m c hx, e1_2, e1_3, e1_13, e1_15, ref_v6, ref_v13, hb]

end Cert.Bridge

end
-- ==== Proof.LawFinite.lean ====
/-
  An extended real whose absolute value is below plus infinity is a real number.

  The larger of x and -x is plus infinity exactly at the two infinities, so a strict comparison of it against
  plus infinity that comes out true leaves only the real numbers.  The 32-bit pattern with exponent field 255
  and fraction 0 denotes plus infinity.
-/
import proofs.«110093_j8770323219157_1_alg».proof.Proof.LibRealValued

open Idealize.ShloMosaic

namespace Cert.Law

open Cert.Lib

/-- The pattern 0x7F800000 denotes plus infinity. -/
theorem ofBits_inf : Ideal.ofBits .f32 0x7F800000#32 = (⊤ : EReal) := by
  simp [Ideal.ofBits, Ideal.ieee]

/-- If the larger of x and -x is below plus infinity then x is neither infinity. -/
theorem isReal_of_abs_lt_top {x : EReal} (h : max x (-x) < ⊤) : IsReal x := by
  induction x using EReal.rec with
  | bot => simp at h
  | top => simp at h
  | coe r => exact ⟨r, rfl⟩

/-- Conversely the absolute value of a real is below plus infinity. -/
theorem abs_lt_top_of_isReal {x : EReal} (hx : IsReal x) : max x (-x) < ⊤ := by
  obtain ⟨r, hr⟩ := hx.max hx.neg
  rw [hr]; exact EReal.coe_lt_top r

/-- The comparison "less than" answers true exactly when its left side is below its right side. -/
theorem cmp_olt_eq_one_iff (a b : EReal) : Ideal.cmp .olt a b = 1#1 ↔ a < b := by
  unfold Ideal.cmp
  by_cases h : a < b <;> simp [h]

/-- A true comparison of the absolute value against the pattern of plus infinity makes the value real. -/
theorem isReal_of_cmp_abs_inf {x : EReal}
    (h : Ideal.cmp .olt (max x (-x)) (Ideal.ofBits .f32 0x7F800000#32) = 1#1) : IsReal x := by
  rw [ofBits_inf, cmp_olt_eq_one_iff] at h
  exact isReal_of_abs_lt_top h

end Cert.Law
-- ==== Proof.LawPre.lean ====
/-
  The precondition "every float input is finite", read back as: every entry of every float input is a real
  number.

  The precondition is a conjunction, one conjunct per float array: the comparison |x| < +infinity, taken at every
  entry of the array, reduced by "and" from the constant true.  A conjunction of bits that is 1 has every
  conjunct 1; a reduction by "and" that is 1 met a 1 at every entry; and an extended real whose absolute value
  is below plus infinity is a real number.  The two integer index arrays are not constrained.
-/
import proofs.«110093_j8770323219157_1_alg».proof.Pre_finite_inputs
import proofs.«110093_j8770323219157_1_alg».proof.Proof.LawFinite
import Idealize.ShloMosaic.Lib.ReduceAll

open Idealize.ShloMosaic

namespace Cert.Law

open Cert.Lib Cert.Pre_finite_inputs

/-- A shape of rank 0 has one index. -/
instance subsingleton_S_Idx : Subsingleton S_.Idx := ⟨fun a b => funext fun d => d.elim0⟩

/-- One conjunct: if the "and" over all entries of the comparison |x| < +infinity is 1, every entry of x is real. -/
theorem all_isReal_of_reduce {s : Shape} {axes : List (Fin s.rank)} (x : FVec Ideal s .f32)
    (bc : S_.BroadcastsInDim s (![] : Fin 0 → Fin s.rank)) (h : s.ReducesTo axes S_) (hu : 0 < S_.numel) (j : S_.Idx)
    (e : Host.reduce IntOp.andi
          (cmpf .olt (Host.absf x) (broadcastInDim s ![] bc (constant (F := Ideal) S_ .f32 0x7F800000#32)))
          (constantI S_ 1 1#1) h hu j = 1#1) :
    ∀ i, IsReal (x i) := fun i =>
  isReal_of_cmp_abs_inf (x := x i) (Host.reduce_andi_all _ _ h hu j e i)

/-- The precondition at the exact instance gives: every entry of each of the nineteen float arrays is real. -/
theorem finite_inputs_decode [Cert.Pre_finite_inputs.Facts] (a0 : FVec Ideal S50000x64 .f32) (a1 : FVec Ideal S50000x4 .f32) (a2 a3 : IVec S800000 32)
    (a4 : FVec Ideal S50000x8 .f32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a12 : FVec Ideal S64x64 .f32) (a13 : FVec Ideal S64 .f32) (a14 : FVec Ideal S64x1 .f32) (a15 : FVec Ideal S136x64 .f32) (a16 : FVec Ideal S64 .f32) (a17 : FVec Ideal S64 .f32) (a18 : FVec Ideal S64 .f32) (a19 : FVec Ideal S64x64 .f32) (a20 : FVec Ideal S64 .f32)
    (h : Cert.Pre_finite_inputs.fn (F := Ideal) a0 a1 a2 a3 a4 a5 a6 a7 a8 a9 a10 a11 a12 a13 a14 a15 a16 a17 a18 a19 a20 = fun _ => 1#1) :
    (∀ i, IsReal (a0 i)) ∧ (∀ i, IsReal (a1 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) := by
  have h := congrFun h (fun a => a.elim0)
  dsimp only [fn, fn_part1, fn_part2, fn_part3, fn_part4, fn_part5, andi] at h
  simp only [IntOp.andi_eq_one, and_assoc] at h
  obtain ⟨h0, h1, h4, h5, h6, h7, h8, h9, h10, h11, h12, h13, h14, h15, h16, h17, h18, h19, h20⟩ := h
  exact ⟨all_isReal_of_reduce _ _ _ _ _ h0,
    all_isReal_of_reduce _ _ _ _ _ h1,
    all_isReal_of_reduce _ _ _ _ _ h4,
    all_isReal_of_reduce _ _ _ _ _ h5,
    all_isReal_of_reduce _ _ _ _ _ h6,
    all_isReal_of_reduce _ _ _ _ _ h7,
    all_isReal_of_reduce _ _ _ _ _ h8,
    all_isReal_of_reduce _ _ _ _ _ h9,
    all_isReal_of_reduce _ _ _ _ _ h10,
    all_isReal_of_reduce _ _ _ _ _ h11,
    all_isReal_of_reduce _ _ _ _ _ h12,
    all_isReal_of_reduce _ _ _ _ _ h13,
    all_isReal_of_reduce _ _ _ _ _ h14,
    all_isReal_of_reduce _ _ _ _ _ h15,
    all_isReal_of_reduce _ _ _ _ _ h16,
    all_isReal_of_reduce _ _ _ _ _ h17,
    all_isReal_of_reduce _ _ _ _ _ h18,
    all_isReal_of_reduce _ _ _ _ _ h19,
    all_isReal_of_reduce _ _ _ _ _ h20⟩

end Cert.Law
-- ==== Proof.BrReal.lean ====
/-
  The precondition, decoded at the kernel program's launch contents: every entry of every float argument is a real number.
-/
import proofs.«110093_j8770323219157_1_alg».proof.Defs
import proofs.«110093_j8770323219157_1_alg».proof.Proof.Gen.Pre_finite_inputs
import proofs.«110093_j8770323219157_1_alg».proof.Proof.BrEdge
import proofs.«110093_j8770323219157_1_alg».proof.Proof.LawPre

noncomputable section

namespace Cert.Bridge

open Idealize.ShloMosaic Idealize.ShloMosaic.TcCoe Cert.Lib
open Cert.KernelIdeal Cert.KernelIdeal.Gen

variable (m : (ℓ : Loc nD τ sig) → Buf (Elt Ideal) ℓ) (c : Dev nD)

/-! The remaining arguments' launch contents, at their literal types (g0 … g14 are stated with the edge bridge). -/
abbrev g4 : FVec Ideal S50000x8 .f32 := V0 m c main_arg4
abbrev g15 : FVec Ideal S136x64 .f32 := V0 m c main_arg15
abbrev g16 : FVec Ideal S64 .f32 := V0 m c main_arg16
abbrev g17 : FVec Ideal S64 .f32 := V0 m c main_arg17
abbrev g18 : FVec Ideal S64 .f32 := V0 m c main_arg18
abbrev g19 : FVec Ideal S64x64 .f32 := V0 m c main_arg19
abbrev g20 : FVec Ideal S64 .f32 := V0 m c main_arg20

/-- Every float argument's entries are real numbers. -/
structure RealAll : Prop where
  h0 : ∀ j, IsReal (g0 m c j)
  h1 : ∀ j, IsReal (g1 m c j)
  h4 : ∀ j, IsReal (g4 m c j)
  h5 : ∀ j, IsReal (g5 m c j)
  h6 : ∀ j, IsReal (g6 m c j)
  h7 : ∀ j, IsReal (g7 m c j)
  h8 : ∀ j, IsReal (g8 m c j)
  h9 : ∀ j, IsReal (g9 m c j)
  h10 : ∀ j, IsReal (g10 m c j)
  h11 : ∀ j, IsReal (g11 m c j)
  h12 : ∀ j, IsReal (g12 m c j)
  h13 : ∀ j, IsReal (g13 m c j)
  h14 : ∀ j, IsReal (g14 m c j)
  h15 : ∀ j, IsReal (g15 m c j)
  h16 : ∀ j, IsReal (g16 m c j)
  h17 : ∀ j, IsReal (g17 m c j)
  h18 : ∀ j, IsReal (g18 m c j)
  h19 : ∀ j, IsReal (g19 m c j)
  h20 : ∀ j, IsReal (g20 m c j)

/-- The precondition gives it, on every core. -/
theorem realAll_of_pre (hpre : Cert.Pre_KernelIdeal m) : RealAll m c := by
  obtain ⟨h0, h1, h4, h5, h6, h7, h8, h9, h10, h11, h12, h13, h14, h15, h16, h17, h18, h19, h20⟩ :=
    Cert.Law.finite_inputs_decode _ _ _ _ _ _ _ _ _ _ _ _ _ _ _ _ _ _ _ _ _ (hpre c)
  exact ⟨h0, h1, h4, h5, h6, h7, h8, h9, h10, h11, h12, h13, h14, h15, h16, h17, h18, h19, h20⟩

end Cert.Bridge

end
-- ==== Proof.KvFinal.lean ====
/-
  The kernel program's three results off its last valuation: the message array is what the edge MLP region left; the
  updated coordinates are the second host stretch's chain over the launch coordinates, the receiving-node indices and the
  translation array the edge MLP region left; the updated node features are what the node MLP region left.
-/
import proofs.«110093_j8770323219157_1_alg».proof.Proof.KData
import proofs.«110093_j8770323219157_1_alg».proof.Proof.KvHost

noncomputable section

namespace Cert.KernelIdeal.KVal

open Idealize.ShloMosaic Idealize.ShloMosaic.TcCoe Cert.KernelIdeal Cert.KernelIdeal.Gen Cert.KernelIdeal.KRun

variable (m : (ℓ : Loc nD τ sig) → Buf (Elt Ideal) ℓ) (c : Dev nD)

/-- After the edge MLP region the message buffer holds the region's message array. -/
theorem V3_v38_0 : V3 m (outs m) c main_v38_0 = (dat1 (Vin1 m) c).arrAt 16 cfg1.N := by
  have h1 : V3 m (outs m) c main_v38_0 = outs m 3 main_v38_0 c := by
    simp only [V3, Function.update_of_ne (StableHlo.devRef_ne_of_ne (by decide : (main_v38_0 : Ref sig .tc) ≠ main_v38_1) :
      (Proc.devRef .tc main_v38_0 : DevRef τ sig) ≠ Proc.devRef .tc main_v38_1), Function.update_self]
  rw [h1]
  show o3 m main_v38_0 c = _
  unfold o3
  rw [Function.update_of_ne (by decide : (main_v38_0 : Ref sig .tc) ≠ main_v38_1), Function.update_self]
/-- … and the translation buffer its translation array. -/
theorem V3_v38_1 : V3 m (outs m) c main_v38_1 = (dat1 (Vin1 m) c).arrAt 17 cfg1.N := by
  have h1 : V3 m (outs m) c main_v38_1 = outs m 3 main_v38_1 c := by
    simp only [V3, Function.update_self]
  rw [h1]
  show o3 m main_v38_1 c = _
  unfold o3
  rw [Function.update_self]

theorem V3_arg (r : Ref sig .tc) (h1 : r ∉ ([main_v38_0, main_v38_1] : List (Ref sig .tc)))
    (h2 : r ∉ ([main_v37_0, main_v37_1] : List (Ref sig .tc))) (h3 : r ∉ hostOps0_W) :
    V3 m (outs m) c r = V0 m c r :=
  (V3_of m (outs m) c r h1).trans ((V2_of m (outs m) c r h2).trans (V1_of m c r h3))

/-- The message result. -/
theorem res_m_eq : V6 m (outs m) c main_v38_0 = (dat1 (Vin1 m) c).arrAt 16 cfg1.N :=
  (V6_of m (outs m) c main_v38_0 (by decide)).trans ((V5_of m (outs m) c main_v38_0 (by decide)).trans
    ((V4_of m (outs m) c main_v38_0 (by decide)).trans (V3_v38_0 m c)))

/-- The coordinate result. -/
theorem res_x_eq : (V6 m (outs m) c main_v53 : S50000x4.Idx → EReal)
    = KHost.xnewOf (V0 m c main_arg1) (V0 m c main_arg2) ((dat1 (Vin1 m) c).arrAt 17 cfg1.N) := by
  rw [V6_of m (outs m) c main_v53 (by decide), V5_of m (outs m) c main_v53 (by decide), KHost.V4_v53,
    V3_arg m c main_arg1 (by decide) (by decide) (by decide), V3_arg m c main_arg2 (by decide) (by decide) (by decide), V3_v38_1]

/-- The node feature result. -/
theorem res_h_eq : V6 m (outs m) c main_v58 = (dat3 (Vin3 m) c).arrAt 11 cfg3.N := rfl

/-- The aggregated messages the node regions are entered with. -/
theorem V4_agg : (V4 m (outs m) c main_v56 : S50000x64.Idx → EReal)
    = KHost.aggOf (V0 m c main_arg2) ((dat1 (Vin1 m) c).arrAt 16 cfg1.N) := by
  rw [KHost.V4_v56, V3_arg m c main_arg2 (by decide) (by decide) (by decide), V3_v38_0]

end Cert.KernelIdeal.KVal

end
-- ==== Proof.RefValNode.lean ====
/-
  The reference's node update read at an index, at the exact instance.  Row n of the node input is the concatenation
  of the node's own row, its aggregated messages and its attributes; the first node layer at (n, q) is that row times
  column q of the weights plus the bias; its column statistics are the mean and the two-pass variance over the 50000
  rows; and the new node row is the old one plus the second layer of the relu'd normalised values.  The aggregated
  messages (a scatter-add) stay a name.
-/
import proofs.«110093_j8770323219157_1_alg».proof.Proof.RefStages
import proofs.«110093_j8770323219157_1_alg».proof.Proof.Spec
import proofs.«110093_j8770323219157_1_alg».proof.Proof.LibConcat
import proofs.«110093_j8770323219157_1_alg».proof.Proof.LibApply
import proofs.«110093_j8770323219157_1_alg».proof.Proof.LibPlainDot
import proofs.«110093_j8770323219157_1_alg».proof.Proof.RefValLib
import proofs.«110093_j8770323219157_1_alg».proof.Proof.RefValStats
import proofs.«110093_j8770323219157_1_alg».proof.Proof.LawPsi

noncomputable section

namespace Cert.ReferenceIdeal.RefVal

open Idealize.ShloMosaic Idealize.ShloMosaic.ValueIdx Cert.ReferenceIdeal Cert.ReferenceIdeal.Gen Cert.ReferenceIdeal.RefRun
  Cert.LibApply Cert.RefLib

theorem plain_136 : Cert.PlainDot.IsPlain dot_S50000x136_S136x64_S50000x64_1_0_0_1_n_n := ⟨rfl, rfl, rfl, rfl, rfl, rfl⟩
theorem plain_n64 : Cert.PlainDot.IsPlain dot_S50000x64_S64x64_S50000x64_1_0_0_1_n_n := ⟨rfl, rfl, rfl, rfl, rfl, rfl⟩

/-- R7. The first node layer at (n, q). -/
theorem val_v127_apply (a0 : FVec Ideal S50000x64 .f32) (a1 : FVec Ideal S50000x4 .f32) (a2 : IVec S800000 32) (a3 : IVec S800000 32) (a4 : FVec Ideal S50000x8 .f32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a15 : FVec Ideal S136x64 .f32) (a16 : FVec Ideal S64 .f32) (n : Fin 50000) (q : Fin 64) :
    val_v127 (F := Ideal) a0 a1 a2 a3 a4 a5 a6 a7 a8 a9 a10 a11 a15 a16 (ix2 n q)
      = Spec.rowDot (Cert.LibConcat.sel3 (fun k => a0 (ix2 n k)) (fun k => val_v122 (F := Ideal) a0 a1 a2 a3 a5 a6 a7 a8 a9 a10 a11 (ix2 n k)) (fun k => a4 (ix2 n k)))
          (fun k q => a15 (ix2 k q)) q + a16 (ix1 q) := by
  unfold val_v127 val_v126 val_v125 val_v124 val_v123
  unfold st_v127 st_v126 st_v125 st_v124 st_v123
  simp only [addf_apply, Cert.PlainDot.dotGeneral_apply _ plain_136, Cert.LibConcat.concat3_apply,
    bcast_1b_ab_apply (a := 50000) (b := 64), bcast_b_1b_apply (b := 64)]
  rfl

/-- R8. The mean of column q of the first node layer: the column sum divided by 50000. -/
theorem val_v130_apply (a0 : FVec Ideal S50000x64 .f32) (a1 : FVec Ideal S50000x4 .f32) (a2 : IVec S800000 32) (a3 : IVec S800000 32) (a4 : FVec Ideal S50000x8 .f32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a15 : FVec Ideal S136x64 .f32) (a16 : FVec Ideal S64 .f32) (q : Fin 64) :
    val_v130 (F := Ideal) a0 a1 a2 a3 a4 a5 a6 a7 a8 a9 a10 a11 a15 a16 (ix1 q) = Ideal.div (∑ n : Fin 50000, val_v127 (F := Ideal) a0 a1 a2 a3 a4 a5 a6 a7 a8 a9 a10 a11 a15 a16 (ix2 n q)) ((50000 : ℝ) : EReal) := by
  unfold val_v130 val_v129 val_cst_27 val_v128 val_cst_26
  unfold st_v130 st_v129 st_cst_27 st_v128 st_cst_26
  rw [← Cert.Law.ofBits_50000]
  exact mean_gen (n := 50000) _ _ _ _ _ q

/-- R9. The variance of column q: the mean of the squared deviations from the column mean. -/
theorem val_v131_apply (a0 : FVec Ideal S50000x64 .f32) (a1 : FVec Ideal S50000x4 .f32) (a2 : IVec S800000 32) (a3 : IVec S800000 32) (a4 : FVec Ideal S50000x8 .f32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a15 : FVec Ideal S136x64 .f32) (a16 : FVec Ideal S64 .f32) (q : Fin 64) :
    val_v131 (F := Ideal) a0 a1 a2 a3 a4 a5 a6 a7 a8 a9 a10 a11 a15 a16 (ix1 q)
      = Ideal.div (∑ n : Fin 50000,
            (val_v127 (F := Ideal) a0 a1 a2 a3 a4 a5 a6 a7 a8 a9 a10 a11 a15 a16 (ix2 n q) - Ideal.div (∑ n' : Fin 50000, val_v127 (F := Ideal) a0 a1 a2 a3 a4 a5 a6 a7 a8 a9 a10 a11 a15 a16 (ix2 n' q)) ((50000 : ℝ) : EReal))
              * (val_v127 (F := Ideal) a0 a1 a2 a3 a4 a5 a6 a7 a8 a9 a10 a11 a15 a16 (ix2 n q) - Ideal.div (∑ n' : Fin 50000, val_v127 (F := Ideal) a0 a1 a2 a3 a4 a5 a6 a7 a8 a9 a10 a11 a15 a16 (ix2 n' q)) ((50000 : ℝ) : EReal)))
          ((50000 : ℝ) : EReal) := by
  unfold val_v131 val_call5_call0_v1 val_call5_call0_v0 val_call5_cst_4 val_call5_v11 val_call5_v10 val_call5_v9 val_call5_cst_2 val_call5_v6 val_call5_v5 val_call5_v4 val_call5_v3 val_call5_v2 val_call5_cst_0 val_call5_v1 val_call5_v0 val_call5_cst val_call5_v12 val_call5_cst_3 val_call5_v8 val_call5_v7 val_c_28 val_call5_cst_1
  unfold st_v131 st_call5_call0_v1 st_call5_call0_v0 st_call5_cst_4 st_call5_v11 st_call5_v10 st_call5_v9 st_call5_cst_2 st_call5_v6 st_call5_v5 st_call5_v4 st_call5_v3 st_call5_v2 st_call5_cst_0 st_call5_v1 st_call5_v0 st_call5_cst st_call5_v12 st_call5_cst_3 st_call5_v8 st_call5_v7 st_c_28 st_call5_cst_1
  exact var_gen (n := 50000) _ _ Cert.Law.ofBits_50000 (by norm_num) _ _ _ _ _ _ q

/-- The normalised first node layer at (n, q), before the relu. -/
theorem val_v146_apply (a0 : FVec Ideal S50000x64 .f32) (a1 : FVec Ideal S50000x4 .f32) (a2 : IVec S800000 32) (a3 : IVec S800000 32) (a4 : FVec Ideal S50000x8 .f32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a15 : FVec Ideal S136x64 .f32) (a16 : FVec Ideal S64 .f32) (a17 : FVec Ideal S64 .f32) (a18 : FVec Ideal S64 .f32) (n : Fin 50000) (q : Fin 64) :
    val_v146 (F := Ideal) a0 a1 a2 a3 a4 a5 a6 a7 a8 a9 a10 a11 a15 a16 a17 a18 (ix2 n q)
      = Spec.bnR (val_v127 (F := Ideal) a0 a1 a2 a3 a4 a5 a6 a7 a8 a9 a10 a11 a15 a16 (ix2 n q)) (val_v130 (F := Ideal) a0 a1 a2 a3 a4 a5 a6 a7 a8 a9 a10 a11 a15 a16 (ix1 q)) (val_v131 (F := Ideal) a0 a1 a2 a3 a4 a5 a6 a7 a8 a9 a10 a11 a15 a16 (ix1 q)) (a17 (ix1 q)) (a18 (ix1 q)) := by
  unfold val_v146 val_v145 val_v144 val_v143 val_v142 val_v141 val_v140 val_v139 val_v138 val_v137 val_v136 val_v135 val_cst_29 val_v134 val_v133 val_v132
  unfold st_v146 st_v145 st_v144 st_v143 st_v142 st_v141 st_v140 st_v139 st_v138 st_v137 st_v136 st_v135 st_cst_29 st_v134 st_v133 st_v132
  exact bn_gen (n := 50000) _ _ _ _ _ _ _ _ n q

/-- R10. The new node row at (n, f): the old entry plus the second layer of the relu'd normalised row. -/
theorem val_v152_apply (a0 : FVec Ideal S50000x64 .f32) (a1 : FVec Ideal S50000x4 .f32) (a2 : IVec S800000 32) (a3 : IVec S800000 32) (a4 : FVec Ideal S50000x8 .f32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a15 : FVec Ideal S136x64 .f32) (a16 : FVec Ideal S64 .f32) (a17 : FVec Ideal S64 .f32) (a18 : FVec Ideal S64 .f32) (a19 : FVec Ideal S64x64 .f32) (a20 : FVec Ideal S64 .f32) (n : Fin 50000) (f : Fin 64) :
    val_v152 (F := Ideal) a0 a1 a2 a3 a4 a5 a6 a7 a8 a9 a10 a11 a15 a16 a17 a18 a19 a20 (ix2 n f)
      = a0 (ix2 n f) + (Spec.rowDot (fun q => Spec.relu (Spec.bnR (val_v127 (F := Ideal) a0 a1 a2 a3 a4 a5 a6 a7 a8 a9 a10 a11 a15 a16 (ix2 n q)) (val_v130 (F := Ideal) a0 a1 a2 a3 a4 a5 a6 a7 a8 a9 a10 a11 a15 a16 (ix1 q)) (val_v131 (F := Ideal) a0 a1 a2 a3 a4 a5 a6 a7 a8 a9 a10 a11 a15 a16 (ix1 q))
            (a17 (ix1 q)) (a18 (ix1 q)))) (fun k q => a19 (ix2 k q)) f + a20 (ix1 f)) := by
  unfold val_v152 val_v151 val_v150 val_v149 val_v148 val_v147 val_call6_v0 val_call6_cst
  unfold st_v152 st_v151 st_v150 st_v149 st_v148 st_v147 st_call6_v0 st_call6_cst
  simp only [addf_apply, maximumf_apply, Cert.PlainDot.dotGeneral_apply _ plain_n64, bcast_1b_ab_apply (a := 50000) (b := 64),
    bcast_b_1b_apply (b := 64), broadcastInDim_scalar_apply (T := S50000x64), constant_apply, val_v146_apply]
  rfl

end Cert.ReferenceIdeal.RefVal

end
-- ==== Proof.LawReal.lean ====
/-
  More operations that keep an extended real a real number, at the exact instance.

  Beside the sum, difference, product, larger and smaller of two values, finite sums, quotients by a nonzero
  real and the reciprocal square root of a positive real, the following keep a value real: the exponential
  and the logistic function of a real; the logarithm of a positive real, in particular of |p| + 1 for a real
  p, which is at least 1; the sign of ANY extended real (it is -1, 0 or 1, at the infinities too); the square
  root of a nonnegative real; a choice between two reals; the quotient of a real by a real that is at least 1,
  in particular by the larger of a real and 1; and a finite sum of products of reals.
-/
import proofs.«110093_j8770323219157_1_alg».proof.Proof.LibRealValued

open Idealize.ShloMosaic

namespace Cert.Lib

namespace IsReal

theorem one : IsReal (1 : EReal) := ⟨1, EReal.coe_one.symm⟩

theorem neg_one : IsReal (-1 : EReal) := one.neg

/-- The exponential of a real is real. -/
theorem exp {x : EReal} (hx : IsReal x) : IsReal (Ideal.exp x) := by
  obtain ⟨r, rfl⟩ := hx; exact ⟨Real.exp r, Ideal.exp_coe r⟩

/-- The exponential of a real is a positive real. -/
theorem exp_pos {x : EReal} (hx : IsReal x) : ∃ r : ℝ, 0 < r ∧ Ideal.exp x = (r : EReal) := by
  obtain ⟨r, rfl⟩ := hx; exact ⟨Real.exp r, Real.exp_pos r, Ideal.exp_coe r⟩

/-- The logistic function 1 / (1 + e^(-x)) of a real is real: the denominator is a real above 1. -/
theorem logistic {x : EReal} (hx : IsReal x) : IsReal (Ideal.logistic x) := by
  obtain ⟨r, rfl⟩ := hx; exact ⟨_, Ideal.logistic_coe r⟩

/-- The logarithm of a positive real is real. -/
theorem log_of_pos {r : ℝ} (hr : 0 < r) : IsReal (Ideal.log (r : EReal)) := by
  rw [Ideal.log_coe, if_neg (not_le.mpr hr)]; exact ⟨_, rfl⟩

/-- For a real p the absolute value max p (-p) plus one is a real that is at least 1. -/
theorem abs_add_one {x : EReal} (hx : IsReal x) : ∃ r : ℝ, 1 ≤ r ∧ Max.max x (-x) + 1 = (r : EReal) := by
  obtain ⟨p, rfl⟩ := hx
  refine ⟨|p| + 1, le_add_of_nonneg_left (abs_nonneg p), ?_⟩
  rw [EReal.coe_add, EReal.coe_one, abs_eq_max_neg, EReal.coe_strictMono.monotone.map_max, EReal.coe_neg]

/-- The absolute value max p (-p) of a real is real. -/
theorem absf {x : EReal} (hx : IsReal x) : IsReal (Max.max x (-x)) := hx.max hx.neg

/-- The logarithm of |p| + 1 is real for a real p. -/
theorem log_abs_add_one {x : EReal} (hx : IsReal x) : IsReal (Ideal.log (Max.max x (-x) + 1)) := by
  obtain ⟨r, hr, h⟩ := abs_add_one hx
  rw [h]; exact log_of_pos (lt_of_lt_of_le one_pos hr)

/-- The sign of every extended real is a real: -1 below zero, 0 at zero, 1 above, the infinities included. -/
theorem sign (x : EReal) : IsReal (Ideal.sign x) := by
  induction x using EReal.rec with
  | bot => rw [Ideal.sign_bot]; exact neg_one
  | top => rw [Ideal.sign_top]; exact one
  | coe r => exact ⟨_, Ideal.sign_coe r⟩

/-- The signed logarithm sign p * log (|p| + 1) of a real p is real. -/
theorem sign_mul_log {x : EReal} (hx : IsReal x) : IsReal (Ideal.sign x * Ideal.log (Max.max x (-x) + 1)) :=
  (sign x).mul (log_abs_add_one hx)

/-- The square root of a nonnegative real is real. -/
theorem sqrt_of_nonneg {r : ℝ} (hr : 0 ≤ r) : IsReal (Ideal.sqrt (r : EReal)) := by
  rw [Ideal.sqrt_coe, if_neg (not_lt.mpr hr)]; exact ⟨_, rfl⟩

/-- A choice between two reals is real. -/
theorem ifThenElse {c : Prop} [Decidable c] {a b : EReal} (ha : IsReal a) (hb : IsReal b) : IsReal (if c then a else b) := by
  split
  · exact ha
  · exact hb

/-- A select between two reals is real, whatever the condition bit. -/
theorem select (c : BitVec 1) {a b : EReal} (ha : IsReal a) (hb : IsReal b) : IsReal (Scalar.select c a b) :=
  ifThenElse ha hb

/-- The quotient of a real by a real that is at least 1 is real. -/
theorem div_of_one_le {x y : EReal} (hx : IsReal x) (hy : IsReal y) (h : 1 ≤ y) : IsReal (Ideal.div x y) := by
  obtain ⟨b, rfl⟩ := hy
  have hb : (1 : ℝ) ≤ b := by exact_mod_cast h
  exact hx.div_coe (lt_of_lt_of_le one_pos hb).ne'

/-- The quotient of a real by the larger of a real and 1 is real. -/
theorem div_max_one {x c : EReal} (hx : IsReal x) (hc : IsReal c) : IsReal (Ideal.div x (Max.max c 1)) :=
  div_of_one_le hx (hc.max one) (le_max_right c 1)

/-- A finite sum of products of reals is real. -/
theorem sum_mul {ι : Type*} (s : Finset ι) (a w : ι → EReal) (ha : ∀ i ∈ s, IsReal (a i)) (hw : ∀ i ∈ s, IsReal (w i)) :
    IsReal (∑ i ∈ s, a i * w i) :=
  IsReal.sum s _ fun i hi => (ha i hi).mul (hw i hi)

/-- An accumulator plus a finite sum of products of reals is real. -/
theorem add_sum_mul {ι : Type*} (s : Finset ι) {c : EReal} (hc : IsReal c) (a w : ι → EReal) (ha : ∀ i ∈ s, IsReal (a i))
    (hw : ∀ i ∈ s, IsReal (w i)) : IsReal (c + ∑ i ∈ s, a i * w i) :=
  hc.add (sum_mul s a w ha hw)

end IsReal

end Cert.Lib
-- ==== Proof.LawSpecReal.lean ====
/-
  The row-level quantities of the message-passing layer are real numbers when their inputs are.

  Each quantity is built from its inputs by sums, differences, products, finite sums of products, the larger
  and the smaller of two values, the sign, the logarithm of |p| + 1 (which is at least 1), the logistic
  function, and — in the normalisation — the reciprocal square root or the square root of v + eps for a real
  v >= 0 and the positive real eps; and the literals 0, 1, 2, 100, -100 and eps are real numbers.  All of these keep
  a real number real.  The two spellings of the normalisation agree for such a v.
-/
import proofs.«110093_j8770323219157_1_alg».proof.Proof.Spec
import proofs.«110093_j8770323219157_1_alg».proof.Proof.LibConcat
import proofs.«110093_j8770323219157_1_alg».proof.Proof.LawReal
import proofs.«110093_j8770323219157_1_alg».proof.Proof.LawStats
import proofs.«110093_j8770323219157_1_alg».proof.Proof.LawPsi

open Idealize.ShloMosaic

namespace Cert.Law

open Cert.Lib Cert.Spec

/-! ## The literals -/

theorem two_isReal : IsReal two := isReal_two
theorem one_isReal : IsReal one := isReal_one
theorem zeroW_isReal : IsReal zeroW := isReal_zero
theorem epsW_isReal : IsReal epsW := isReal_eps
theorem hiW_isReal : IsReal hiW := isReal_hundred
theorem loW_isReal : IsReal loW := isReal_neg_hundred

/-- The literal 1.0 is the extended real 1. -/
theorem one_eq : one = (1 : EReal) := by
  show Ideal.ofBits .f32 0x3F800000#32 = 1
  rw [ofBits_one, EReal.coe_one]

/-! ## The edge features -/

/-- The Minkowski form 2 u_0 - sum_k u_k of a real 4-vector is real. -/
theorem mink_isReal {u : Fin 4 → EReal} (hu : ∀ k, IsReal (u k)) : IsReal (mink u) :=
  (two_isReal.mul (hu 0)).sub (IsReal.sum _ _ fun k _ => hu k)

/-- The signed logarithm sign p * log (|p| + 1) of a real p is real: |p| + 1 >= 1. -/
theorem psi_isReal {p : EReal} (hp : IsReal p) : IsReal (psi p) := by
  unfold psi
  rw [one_eq]
  exact hp.sign_mul_log

theorem normFeat_isReal {xi xj : Fin 4 → EReal} (hi : ∀ a, IsReal (xi a)) (hj : ∀ a, IsReal (xj a)) :
    IsReal (normFeat xi xj) :=
  psi_isReal (mink_isReal fun a => ((hi a).sub (hj a)).mul ((hi a).sub (hj a)))

theorem dotFeat_isReal {xi xj : Fin 4 → EReal} (hi : ∀ a, IsReal (xi a)) (hj : ∀ a, IsReal (xj a)) :
    IsReal (dotFeat xi xj) :=
  psi_isReal (mink_isReal fun a => (hi a).mul (hj a))

/-- Every entry of the 130-entry feature row of an edge is real. -/
theorem feat_isReal {hi hj : Fin 64 → EReal} {xi xj : Fin 4 → EReal} (hhi : ∀ q, IsReal (hi q)) (hhj : ∀ q, IsReal (hj q))
    (hxi : ∀ a, IsReal (xi a)) (hxj : ∀ a, IsReal (xj a)) (k : Fin 130) : IsReal (feat hi hj xi xj k) := by
  unfold feat
  split_ifs
  · exact hhi _
  · exact hhj _
  · exact normFeat_isReal hxi hxj
  · exact dotFeat_isReal hxi hxj

/-- A row of four pieces 64 + 64 + 1 + 1 is real at every column when the pieces are. -/
theorem sel4_isReal {a b : Fin 64 → EReal} {c d : EReal} (ha : ∀ q, IsReal (a q)) (hb : ∀ q, IsReal (b q)) (hc : IsReal c)
    (hd : IsReal d) (k : Fin 130) : IsReal (Cert.LibConcat.sel4 a b c d k) := by
  unfold Cert.LibConcat.sel4
  split_ifs
  · exact ha _
  · exact hb _
  · exact hc
  · exact hd

/-- A row of three pieces 64 + 64 + 8 is real at every column when the pieces are. -/
theorem sel3_isReal {a b : Fin 64 → EReal} {c : Fin 8 → EReal} (ha : ∀ q, IsReal (a q)) (hb : ∀ q, IsReal (b q))
    (hc : ∀ q, IsReal (c q)) (k : Fin 136) : IsReal (Cert.LibConcat.sel3 a b c k) := by
  unfold Cert.LibConcat.sel3
  split_ifs
  · exact ha _
  · exact hb _
  · exact hc _

/-! ## Products with a weight matrix, relu, clip -/

/-- A real row times a real matrix is real at every column. -/
theorem rowDot_isReal {K N : ℕ} {row : Fin K → EReal} {W : Fin K → Fin N → EReal} (hrow : ∀ k, IsReal (row k))
    (hW : ∀ k f, IsReal (W k f)) (f : Fin N) : IsReal (rowDot row W f) :=
  IsReal.sum_mul _ _ _ (fun k _ => hrow k) (fun k _ => hW k f)

theorem relu_isReal {x : EReal} (hx : IsReal x) : IsReal (relu x) := hx.max zeroW_isReal

theorem clipT_isReal {x : EReal} (hx : IsReal x) : IsReal (clipT x) := hiW_isReal.min (loW_isReal.max hx)

/-! ## The normalisation -/

/-- The two spellings of the normalisation agree when the variance is a real v >= 0, for every o, mean, g, b. -/
theorem bnK_eq_bnR (o mean g b : EReal) {var : EReal} {v : ℝ} (hvar : var = (v : EReal)) (hv : 0 ≤ v) :
    bnK o mean var g b = bnR o mean var g b := by
  obtain ⟨ε, hε, he⟩ := ofBits_eps_pos
  unfold bnK bnR
  rw [show epsW = (ε : EReal) from he, hvar, norm_eq _ hv hε]

/-- The normalised, scaled and shifted value is real when the variance is a real v >= 0 and the rest is real. -/
theorem bnK_isReal {o mean var g b : EReal} {v : ℝ} (hvar : var = (v : EReal)) (hv : 0 ≤ v) (ho : IsReal o)
    (hmean : IsReal mean) (hg : IsReal g) (hb : IsReal b) : IsReal (bnK o mean var g b) := by
  obtain ⟨ε, hε, he⟩ := ofBits_eps_pos
  unfold bnK
  rw [show epsW = (ε : EReal) from he, hvar]
  exact (((ho.sub hmean).mul (rsqrt_add_isReal hv hε)).mul hg).add hb

theorem bnR_isReal {o mean var g b : EReal} {v : ℝ} (hvar : var = (v : EReal)) (hv : 0 ≤ v) (ho : IsReal o)
    (hmean : IsReal mean) (hg : IsReal g) (hb : IsReal b) : IsReal (bnR o mean var g b) := by
  rw [← bnK_eq_bnR o mean g b hvar hv]
  exact bnK_isReal hvar hv ho hmean hg hb

/-! ## The message, the gate and the coordinate update -/

theorem gate_isReal {o2 : Fin 64 → EReal} {Wm : Fin 64 → Fin 1 → EReal} {bm : EReal} (ho : ∀ q, IsReal (o2 q))
    (hW : ∀ k f, IsReal (Wm k f)) (hb : IsReal bm) : IsReal (gate o2 Wm bm) :=
  ((rowDot_isReal ho hW 0).add hb).logistic

theorem msg_isReal {p2 : Fin 64 → EReal} {Wm : Fin 64 → Fin 1 → EReal} {bm : EReal} (hp : ∀ q, IsReal (p2 q))
    (hW : ∀ k f, IsReal (Wm k f)) (hb : IsReal bm) (f : Fin 64) : IsReal (msg p2 Wm bm f) :=
  (relu_isReal (hp f)).mul (gate_isReal (fun q => relu_isReal (hp q)) hW hb)

theorem phx_isReal {m : Fin 64 → EReal} {Wx1 : Fin 64 → Fin 64 → EReal} {bx1 : Fin 64 → EReal} {Wx2 : Fin 64 → Fin 1 → EReal}
    (hm : ∀ q, IsReal (m q)) (hW1 : ∀ k f, IsReal (Wx1 k f)) (hb1 : ∀ q, IsReal (bx1 q)) (hW2 : ∀ k f, IsReal (Wx2 k f)) :
    IsReal (phx m Wx1 bx1 Wx2) :=
  rowDot_isReal (fun q => relu_isReal ((rowDot_isReal hm hW1 q).add (hb1 q))) hW2 0

theorem trans_isReal {xd : Fin 4 → EReal} {ph : EReal} (hx : ∀ a, IsReal (xd a)) (hp : IsReal ph) (a : Fin 4) :
    IsReal (trans xd ph a) :=
  clipT_isReal ((hx a).mul hp)

end Cert.Law
-- ==== Proof.RefReal.lean ====
/-
  Every entry the reference computes along its edge and node chains is a real number when every float input entry is.

  The gathered rows are entries of real tables; the features, the linear layers, relu, the gate and the clip keep real
  numbers real; the column statistics of a real column are a real mean and a nonnegative real variance, so the
  normalisation, which takes the square root of the variance plus a positive constant, stays real; and the aggregated
  messages are finite sums of real messages.  What the shared host chains (the gathers and the aggregation) do to
  real operands is taken as a hypothesis here.
-/
import proofs.«110093_j8770323219157_1_alg».proof.Proof.RefValFeat
import proofs.«110093_j8770323219157_1_alg».proof.Proof.RefValEdge
import proofs.«110093_j8770323219157_1_alg».proof.Proof.RefValMsg
import proofs.«110093_j8770323219157_1_alg».proof.Proof.RefValNode
import proofs.«110093_j8770323219157_1_alg».proof.Proof.LawSpecReal
import proofs.«110093_j8770323219157_1_alg».proof.Proof.BrHost

noncomputable section

namespace Cert.ReferenceIdeal.RefVal

open Idealize.ShloMosaic Idealize.ShloMosaic.ValueIdx Cert.ReferenceIdeal Cert.ReferenceIdeal.Gen Cert.ReferenceIdeal.RefRun
  Cert.Lib Cert.Law

/-- (1) Every entry of the first edge layer's output is real. -/
theorem val_v58_isReal (hgH : ∀ (h : FVec Ideal S50000x64 .f32), (∀ j, IsReal (h j)) → ∀ (a : IVec S800000 32) i, IsReal (Cert.KernelIdeal.KHost.gatherH h a i))
    (hgX : ∀ (x : FVec Ideal S50000x4 .f32), (∀ j, IsReal (x j)) → ∀ (a : IVec S800000 32) i, IsReal (Cert.KernelIdeal.KHost.gatherX x a i))
    (a0 : FVec Ideal S50000x64 .f32) (a1 : FVec Ideal S50000x4 .f32) (a2 : IVec S800000 32) (a3 : IVec S800000 32) (a5 : FVec Ideal S130x64 .f32) (h0 : ∀ j, IsReal (a0 j)) (h1 : ∀ j, IsReal (a1 j)) (h5 : ∀ j, IsReal (a5 j)) (e : Fin 800000) (q : Fin 64) :
    IsReal (val_v58 (F := Ideal) a0 a1 a2 a3 a5 (ix2 e q)) := by
  rw [val_v58_apply]
  have hxi : ∀ k : Fin 4, IsReal (val_v6 (F := Ideal) a1 a2 (ix2 e k)) := fun k => by
    rw [Cert.Bridge.ref_v6]; exact hgX a1 h1 a2 _
  have hxj : ∀ k : Fin 4, IsReal (val_v13 (F := Ideal) a1 a3 (ix2 e k)) := fun k => by
    rw [Cert.Bridge.ref_v13]; exact hgX a1 h1 a3 _
  refine rowDot_isReal (fun k => sel4_isReal (fun k => ?_) (fun k => ?_) (normFeat_isReal hxi hxj) (dotFeat_isReal hxi hxj) k)
    (fun k f => h5 _) q
  · rw [Cert.Bridge.ref_v49]; exact hgH a0 h0 a2 _
  · rw [Cert.Bridge.ref_v56]; exact hgH a0 h0 a3 _

/-- (2a) The edge column mean is real. -/
theorem val_v61_isReal (hgH : ∀ (h : FVec Ideal S50000x64 .f32), (∀ j, IsReal (h j)) → ∀ (a : IVec S800000 32) i, IsReal (Cert.KernelIdeal.KHost.gatherH h a i))
    (hgX : ∀ (x : FVec Ideal S50000x4 .f32), (∀ j, IsReal (x j)) → ∀ (a : IVec S800000 32) i, IsReal (Cert.KernelIdeal.KHost.gatherX x a i))
    (a0 : FVec Ideal S50000x64 .f32) (a1 : FVec Ideal S50000x4 .f32) (a2 : IVec S800000 32) (a3 : IVec S800000 32) (a5 : FVec Ideal S130x64 .f32) (h0 : ∀ j, IsReal (a0 j)) (h1 : ∀ j, IsReal (a1 j)) (h5 : ∀ j, IsReal (a5 j)) (q : Fin 64) :
    IsReal (val_v61 (F := Ideal) a0 a1 a2 a3 a5 (ix1 q)) := by
  rw [val_v61_apply]
  exact (IsReal.sum _ _ fun e _ => val_v58_isReal hgH hgX a0 a1 a2 a3 a5 h0 h1 h5 e q).div_coe (by norm_num)

/-- (2b) The edge column variance is a nonnegative real. -/
theorem val_v62_nonneg (hgH : ∀ (h : FVec Ideal S50000x64 .f32), (∀ j, IsReal (h j)) → ∀ (a : IVec S800000 32) i, IsReal (Cert.KernelIdeal.KHost.gatherH h a i))
    (hgX : ∀ (x : FVec Ideal S50000x4 .f32), (∀ j, IsReal (x j)) → ∀ (a : IVec S800000 32) i, IsReal (Cert.KernelIdeal.KHost.gatherX x a i))
    (a0 : FVec Ideal S50000x64 .f32) (a1 : FVec Ideal S50000x4 .f32) (a2 : IVec S800000 32) (a3 : IVec S800000 32) (a5 : FVec Ideal S130x64 .f32) (h0 : ∀ j, IsReal (a0 j)) (h1 : ∀ j, IsReal (a1 j)) (h5 : ∀ j, IsReal (a5 j)) (q : Fin 64) :
    ∃ v : ℝ, 0 ≤ v ∧ val_v62 (F := Ideal) a0 a1 a2 a3 a5 (ix1 q) = (v : EReal) := by
  rw [val_v62_apply]
  obtain ⟨v, hv, _, h2⟩ := var_eq (fun e : Fin 800000 => val_v58 (F := Ideal) a0 a1 a2 a3 a5 (ix2 e q))
    (fun e => val_v58_isReal hgH hgX a0 a1 a2 a3 a5 h0 h1 h5 e q) (n := 800000) (by norm_num) (by simp)
  exact ⟨v, hv, h2⟩

/-- (3a) Every entry of the normalised first edge layer is real. -/
theorem val_v77_isReal (hgH : ∀ (h : FVec Ideal S50000x64 .f32), (∀ j, IsReal (h j)) → ∀ (a : IVec S800000 32) i, IsReal (Cert.KernelIdeal.KHost.gatherH h a i))
    (hgX : ∀ (x : FVec Ideal S50000x4 .f32), (∀ j, IsReal (x j)) → ∀ (a : IVec S800000 32) i, IsReal (Cert.KernelIdeal.KHost.gatherX x a i))
    (a0 : FVec Ideal S50000x64 .f32) (a1 : FVec Ideal S50000x4 .f32) (a2 : IVec S800000 32) (a3 : IVec S800000 32) (a5 : FVec Ideal S130x64 .f32) (a6 : FVec Ideal S64 .f32) (a7 : FVec Ideal S64 .f32) (h0 : ∀ j, IsReal (a0 j)) (h1 : ∀ j, IsReal (a1 j)) (h5 : ∀ j, IsReal (a5 j)) (h6 : ∀ j, IsReal (a6 j)) (h7 : ∀ j, IsReal (a7 j)) (e : Fin 800000) (q : Fin 64) :
    IsReal (val_v77 (F := Ideal) a0 a1 a2 a3 a5 a6 a7 (ix2 e q)) := by
  rw [val_v77_apply]
  obtain ⟨v, hv, hvar⟩ := val_v62_nonneg hgH hgX a0 a1 a2 a3 a5 h0 h1 h5 q
  exact bnR_isReal hvar hv (val_v58_isReal hgH hgX a0 a1 a2 a3 a5 h0 h1 h5 e q) (val_v61_isReal hgH hgX a0 a1 a2 a3 a5 h0 h1 h5 q) (h6 _) (h7 _)

/-- (3b) Every entry of the edge messages is real. -/
theorem val_v95_isReal (hgH : ∀ (h : FVec Ideal S50000x64 .f32), (∀ j, IsReal (h j)) → ∀ (a : IVec S800000 32) i, IsReal (Cert.KernelIdeal.KHost.gatherH h a i))
    (hgX : ∀ (x : FVec Ideal S50000x4 .f32), (∀ j, IsReal (x j)) → ∀ (a : IVec S800000 32) i, IsReal (Cert.KernelIdeal.KHost.gatherX x a i))
    (a0 : FVec Ideal S50000x64 .f32) (a1 : FVec Ideal S50000x4 .f32) (a2 : IVec S800000 32) (a3 : IVec S800000 32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (h0 : ∀ j, IsReal (a0 j)) (h1 : ∀ j, IsReal (a1 j)) (h5 : ∀ j, IsReal (a5 j)) (h6 : ∀ j, IsReal (a6 j)) (h7 : ∀ j, IsReal (a7 j)) (h8 : ∀ j, IsReal (a8 j)) (h9 : ∀ j, IsReal (a9 j)) (h10 : ∀ j, IsReal (a10 j)) (h11 : ∀ j, IsReal (a11 j)) (e : Fin 800000) (f : Fin 64) :
    IsReal (val_v95 (F := Ideal) a0 a1 a2 a3 a5 a6 a7 a8 a9 a10 a11 (ix2 e f)) := by
  rw [val_v95_apply]
  exact msg_isReal (fun q => (rowDot_isReal (fun q' => relu_isReal (val_v77_isReal hgH hgX a0 a1 a2 a3 a5 a6 a7 h0 h1 h5 h6 h7 e q'))
    (fun k f => h8 _) q).add (h9 _)) (fun k f => h10 _) (h11 _) f

/-- (4a) Every entry of the aggregated messages is real. -/
theorem val_v122_isReal (hgH : ∀ (h : FVec Ideal S50000x64 .f32), (∀ j, IsReal (h j)) → ∀ (a : IVec S800000 32) i, IsReal (Cert.KernelIdeal.KHost.gatherH h a i))
    (hgX : ∀ (x : FVec Ideal S50000x4 .f32), (∀ j, IsReal (x j)) → ∀ (a : IVec S800000 32) i, IsReal (Cert.KernelIdeal.KHost.gatherX x a i))
    (hagg : ∀ (mm : FVec Ideal S800000x64 .f32), (∀ j, IsReal (mm j)) → ∀ (a : IVec S800000 32) i, IsReal (Cert.KernelIdeal.KHost.aggOf a mm i))
    (a0 : FVec Ideal S50000x64 .f32) (a1 : FVec Ideal S50000x4 .f32) (a2 : IVec S800000 32) (a3 : IVec S800000 32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (h0 : ∀ j, IsReal (a0 j)) (h1 : ∀ j, IsReal (a1 j)) (h5 : ∀ j, IsReal (a5 j)) (h6 : ∀ j, IsReal (a6 j)) (h7 : ∀ j, IsReal (a7 j)) (h8 : ∀ j, IsReal (a8 j)) (h9 : ∀ j, IsReal (a9 j)) (h10 : ∀ j, IsReal (a10 j)) (h11 : ∀ j, IsReal (a11 j)) (i : S50000x64.Idx) :
    IsReal (val_v122 (F := Ideal) a0 a1 a2 a3 a5 a6 a7 a8 a9 a10 a11 i) := by
  rw [Cert.Bridge.ref_v122]
  refine hagg _ (fun j => ?_) a2 i
  rw [eq_ix2 j]
  exact val_v95_isReal hgH hgX a0 a1 a2 a3 a5 a6 a7 a8 a9 a10 a11 h0 h1 h5 h6 h7 h8 h9 h10 h11 _ _

/-- (4b) Every entry of the first node layer's output is real. -/
theorem val_v127_isReal (hgH : ∀ (h : FVec Ideal S50000x64 .f32), (∀ j, IsReal (h j)) → ∀ (a : IVec S800000 32) i, IsReal (Cert.KernelIdeal.KHost.gatherH h a i))
    (hgX : ∀ (x : FVec Ideal S50000x4 .f32), (∀ j, IsReal (x j)) → ∀ (a : IVec S800000 32) i, IsReal (Cert.KernelIdeal.KHost.gatherX x a i))
    (hagg : ∀ (mm : FVec Ideal S800000x64 .f32), (∀ j, IsReal (mm j)) → ∀ (a : IVec S800000 32) i, IsReal (Cert.KernelIdeal.KHost.aggOf a mm i))
    (a0 : FVec Ideal S50000x64 .f32) (a1 : FVec Ideal S50000x4 .f32) (a2 : IVec S800000 32) (a3 : IVec S800000 32) (a4 : FVec Ideal S50000x8 .f32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a15 : FVec Ideal S136x64 .f32) (a16 : FVec Ideal S64 .f32) (h0 : ∀ j, IsReal (a0 j)) (h1 : ∀ j, IsReal (a1 j)) (h4 : ∀ j, IsReal (a4 j)) (h5 : ∀ j, IsReal (a5 j)) (h6 : ∀ j, IsReal (a6 j)) (h7 : ∀ j, IsReal (a7 j)) (h8 : ∀ j, IsReal (a8 j)) (h9 : ∀ j, IsReal (a9 j)) (h10 : ∀ j, IsReal (a10 j)) (h11 : ∀ j, IsReal (a11 j)) (h15 : ∀ j, IsReal (a15 j)) (h16 : ∀ j, IsReal (a16 j)) (n : Fin 50000) (q : Fin 64) :
    IsReal (val_v127 (F := Ideal) a0 a1 a2 a3 a4 a5 a6 a7 a8 a9 a10 a11 a15 a16 (ix2 n q)) := by
  rw [val_v127_apply]
  exact (rowDot_isReal (fun k => sel3_isReal (fun k => h0 _)
    (fun k => val_v122_isReal hgH hgX hagg a0 a1 a2 a3 a5 a6 a7 a8 a9 a10 a11 h0 h1 h5 h6 h7 h8 h9 h10 h11 _) (fun k => h4 _) k) (fun k f => h15 _) q).add (h16 _)

/-- (5a) The node column mean is real. -/
theorem val_v130_isReal (hgH : ∀ (h : FVec Ideal S50000x64 .f32), (∀ j, IsReal (h j)) → ∀ (a : IVec S800000 32) i, IsReal (Cert.KernelIdeal.KHost.gatherH h a i))
    (hgX : ∀ (x : FVec Ideal S50000x4 .f32), (∀ j, IsReal (x j)) → ∀ (a : IVec S800000 32) i, IsReal (Cert.KernelIdeal.KHost.gatherX x a i))
    (hagg : ∀ (mm : FVec Ideal S800000x64 .f32), (∀ j, IsReal (mm j)) → ∀ (a : IVec S800000 32) i, IsReal (Cert.KernelIdeal.KHost.aggOf a mm i))
    (a0 : FVec Ideal S50000x64 .f32) (a1 : FVec Ideal S50000x4 .f32) (a2 : IVec S800000 32) (a3 : IVec S800000 32) (a4 : FVec Ideal S50000x8 .f32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a15 : FVec Ideal S136x64 .f32) (a16 : FVec Ideal S64 .f32) (h0 : ∀ j, IsReal (a0 j)) (h1 : ∀ j, IsReal (a1 j)) (h4 : ∀ j, IsReal (a4 j)) (h5 : ∀ j, IsReal (a5 j)) (h6 : ∀ j, IsReal (a6 j)) (h7 : ∀ j, IsReal (a7 j)) (h8 : ∀ j, IsReal (a8 j)) (h9 : ∀ j, IsReal (a9 j)) (h10 : ∀ j, IsReal (a10 j)) (h11 : ∀ j, IsReal (a11 j)) (h15 : ∀ j, IsReal (a15 j)) (h16 : ∀ j, IsReal (a16 j)) (q : Fin 64) :
    IsReal (val_v130 (F := Ideal) a0 a1 a2 a3 a4 a5 a6 a7 a8 a9 a10 a11 a15 a16 (ix1 q)) := by
  rw [val_v130_apply]
  exact (IsReal.sum _ _ fun n _ => val_v127_isReal hgH hgX hagg a0 a1 a2 a3 a4 a5 a6 a7 a8 a9 a10 a11 a15 a16 h0 h1 h4 h5 h6 h7 h8 h9 h10 h11 h15 h16 n q).div_coe (by norm_num)

/-- (5b) The node column variance is a nonnegative real. -/
theorem val_v131_nonneg (hgH : ∀ (h : FVec Ideal S50000x64 .f32), (∀ j, IsReal (h j)) → ∀ (a : IVec S800000 32) i, IsReal (Cert.KernelIdeal.KHost.gatherH h a i))
    (hgX : ∀ (x : FVec Ideal S50000x4 .f32), (∀ j, IsReal (x j)) → ∀ (a : IVec S800000 32) i, IsReal (Cert.KernelIdeal.KHost.gatherX x a i))
    (hagg : ∀ (mm : FVec Ideal S800000x64 .f32), (∀ j, IsReal (mm j)) → ∀ (a : IVec S800000 32) i, IsReal (Cert.KernelIdeal.KHost.aggOf a mm i))
    (a0 : FVec Ideal S50000x64 .f32) (a1 : FVec Ideal S50000x4 .f32) (a2 : IVec S800000 32) (a3 : IVec S800000 32) (a4 : FVec Ideal S50000x8 .f32) (a5 : FVec Ideal S130x64 .f32) (a6 : FVec Ideal S64 .f32) (a7 : FVec Ideal S64 .f32) (a8 : FVec Ideal S64x64 .f32) (a9 : FVec Ideal S64 .f32) (a10 : FVec Ideal S64x1 .f32) (a11 : FVec Ideal S1 .f32) (a15 : FVec Ideal S136x64 .f32) (a16 : FVec Ideal S64 .f32) (h0 : ∀ j, IsReal (a0 j)) (h1 : ∀ j, IsReal (a1 j)) (h4 : ∀ j, IsReal (a4 j)) (h5 : ∀ j, IsReal (a5 j)) (h6 : ∀ j, IsReal (a6 j)) (h7 : ∀ j, IsReal (a7 j)) (h8 : ∀ j, IsReal (a8 j)) (h9 : ∀ j, IsReal (a9 j)) (h10 : ∀ j, IsReal (a10 j)) (h11 : ∀ j, IsReal (a11 j)) (h15 : ∀ j, IsReal (a15 j)) (h16 : ∀ j, IsReal (a16 j)) (q : Fin 64) :
    ∃ v : ℝ, 0 ≤ v ∧ val_v131 (F := Ideal) a0 a1 a2 a3 a4 a5 a6 a7 a8 a9 a10 a11 a15 a16 (ix1 q) = (v : EReal) := by
  rw [val_v131_apply]
  obtain ⟨v, hv, _, h2⟩ := var_eq (fun n : Fin 50000 => val_v127 (F := Ideal) a0 a1 a2 a3 a4 a5 a6 a7 a8 a9 a10 a11 a15 a16 (ix2 n q))
    (fun n => val_v127_isReal hgH hgX hagg a0 a1 a2 a3 a4 a5 a6 a7 a8 a9 a10 a11 a15 a16 h0 h1 h4 h5 h6 h7 h8 h9 h10 h11 h15 h16 n q) (n := 50000) (by norm_num) (by simp)
  exact ⟨v, hv, h2⟩

end Cert.ReferenceIdeal.RefVal

end
-- ==== Proof.LibIndexOps.lean ====
import Idealize.ShloMosaic.PureOps.Ideal
import Idealize.ShloMosaic.PureOps.Ideal.Laws
import Idealize.ShloMosaic.Lib.ValueIdx

/-!
# Scatter-add and gather along the leading axis, read at an index

A scatter that adds rows (or scalars) of an update array into an operand at integer row positions, and a
gather that takes rows (or scalars) of an operand at integer row positions, are read here element by element.
For the scatter the result element `(g, f)` is the operand's element plus the sum of the update elements
`(n, f)` over the update rows `n` whose position word, read as a signed integer, is exactly `g` (a position
outside the operand contributes nowhere). For the gather the result element `(e, f)` is the operand's
element at the row whose number is the position word of `e`, read signed and clamped into the operand.

Also here: a finite sum of extended reals times a nonnegative real is the sum of the products.
-/

noncomputable section

namespace Cert.LibIndexOps

open Idealize.ShloMosaic Idealize.ShloMosaic.ValueIdx

/-! ## Sums of extended reals and a nonnegative real factor -/

/-- A finite sum of extended reals times a nonnegative real is the sum of the products
    (multiplication by a nonnegative real distributes over every sum of extended reals). -/
theorem sum_mul_coe_nonneg {ι : Type} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A sum of two extended reals times a nonnegative real. -/
theorem add_mul_coe_nonneg (x y : EReal) (c : ℝ) (hc : 0 ≤ c) : (x + y) * (c : EReal) = x * (c : EReal) + y * (c : EReal) := by
  exact EReal.right_distrib_of_nonneg_of_ne_top (EReal.coe_nonneg.2 hc) (EReal.coe_ne_top c) x y

/-- `k` copies of an extended real `b`, divided by `k > 0`, are `b`. -/
theorem nsmul_mul_inv (k : ℕ) (hk : 0 < k) (b : EReal) : (k • b) * (((k : ℝ)⁻¹ : ℝ) : EReal) = b := by
  have hk' : (0 : ℝ) < (k : ℝ) := Nat.cast_pos.2 hk
  have hinv : (0 : ℝ) < ((k : ℝ)⁻¹ : ℝ) := inv_pos.2 hk'
  have hkE : (0 : EReal) < (k : EReal) := by exact_mod_cast hk
  induction b using EReal.rec with
  | bot =>
    -- a positive multiple of ⊥ is ⊥, and ⊥ times a positive real is ⊥
    rw [EReal.nsmul_eq_mul, EReal.mul_bot_of_pos hkE, EReal.bot_mul_coe_of_pos hinv]
  | top =>
    -- a positive multiple of ⊤ is ⊤, and ⊤ times a positive real is ⊤
    rw [EReal.nsmul_eq_mul, EReal.mul_top_of_pos hkE, EReal.top_mul_coe_of_pos hinv]
  | coe r =>
    -- for a real it is the real identity k * r * k⁻¹ = r
    rw [← EReal.coe_nsmul, ← EReal.coe_mul]
    congr 1
    rw [nsmul_eq_mul]
    field_simp

/-! ## The dimension numbers -/

/-- Rows of `[B, D]` updates added into an `[A, D]` operand at the positions `[B, 1]`. -/
abbrev rowScatterDims (A B D : Nat)
    (wf : ScatterDims.WF ⟨2, ![A, D]⟩ ⟨2, ![B, 1]⟩ ⟨2, ![B, D]⟩ [1] [0] [0] 1) :
    ScatterDims ⟨2, ![A, D]⟩ ⟨2, ![B, 1]⟩ ⟨2, ![B, D]⟩ where
  updateWindowDims := [1]
  insertedWindowDims := [0]
  scatterDimsToOperandDims := [0]
  indexVectorDim := 1
  wf := wf

/-- Scalars of `[B]` updates added into an `[A]` operand at the positions `[B, 1]`. -/
abbrev vecScatterDims (A B : Nat)
    (wf : ScatterDims.WF ⟨1, ![A]⟩ ⟨2, ![B, 1]⟩ ⟨1, ![B]⟩ [] [0] [0] 1) :
    ScatterDims ⟨1, ![A]⟩ ⟨2, ![B, 1]⟩ ⟨1, ![B]⟩ where
  updateWindowDims := []
  insertedWindowDims := [0]
  scatterDimsToOperandDims := [0]
  indexVectorDim := 1
  wf := wf

/-- Rows of an `[N, D]` operand taken at the positions `[E, 1]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Scalars of an `[N]` operand taken at the positions `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The position word of update (or result) row `n`. -/
abbrev pos {B w : Nat} (idx : IVec ⟨2, ![B, 1]⟩ w) (n : Fin B) : BitVec w := idx (ix2 n ⟨0, Nat.one_pos⟩)

/-! ## The scatters read at an index -/

/-- On the operand's row axis the window of update `(n, f')` of a row scatter starts at row `n`'s position. -/
theorem rowScatter_start0 {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (h0 : 0 < 2) :
    (rowScatterDims A B D wf).start (ix2 n f') idx ⟨0, h0⟩ = (pos idx n).toInt := by
  unfold ScatterDims.start
  rw [dif_pos (show (⟨0, h0⟩ : Fin 2) ∈ (rowScatterDims A B D wf).scatterDimsToOperandDims from List.mem_singleton.mpr rfl)]
  have hsi : (rowScatterDims A B D wf).siIdx (ix2 n f') ⟨List.idxOf (⟨0, h0⟩ : Fin 2) (rowScatterDims A B D wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- On the operand's column axis the window of a row scatter's update starts at `0`. -/
theorem rowScatter_start1 {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (h1 : 1 < 2) :
    (rowScatterDims A B D wf).start (ix2 n f') idx ⟨1, h1⟩ = 0 := by
  unfold ScatterDims.start
  rw [dif_neg]
  intro h; have := List.mem_singleton.mp h; exact absurd (congrArg Fin.val this) Nat.one_ne_zero

/-- The row axis is an inserted axis: the window coordinate of a row scatter's update there is `0`. -/
theorem rowScatter_window0 {A B D : Nat}
    (wf : ScatterDims.WF ⟨2, ![A, D]⟩ ⟨2, ![B, 1]⟩ ⟨2, ![B, D]⟩ [1] [0] [0] 1)
    (n : Fin B) (f' : Fin D) (h0 : 0 < 2) :
    (rowScatterDims A B D wf).window (ix2 n f') ⟨0, h0⟩ = 0 := by
  unfold ScatterDims.window
  rw [dif_neg]
  intro h
  simp [ScatterDims.sKept, Shape.kept, List.mem_filter] at h

/-- On the column axis the window coordinate of update `(n, f')` of a row scatter is `f'`. -/
theorem rowScatter_window1 {A B D : Nat}
    (wf : ScatterDims.WF ⟨2, ![A, D]⟩ ⟨2, ![B, 1]⟩ ⟨2, ![B, D]⟩ [1] [0] [0] 1)
    (n : Fin B) (f' : Fin D) (h1 : 1 < 2) :
    (rowScatterDims A B D wf).window (ix2 n f') ⟨1, h1⟩ = f'.val := by
  unfold ScatterDims.window
  rw [dif_pos]
  · rfl
  · simp [ScatterDims.sKept, Shape.kept, List.mem_filter]

/-- The window of update `n` of a scalar scatter starts at `n`'s position. -/
theorem vecScatter_start0 {A B w : Nat}
    (wf : ScatterDims.WF ⟨1, ![A]⟩ ⟨2, ![B, 1]⟩ ⟨1, ![B]⟩ [] [0] [0] 1)
    (idx : IVec ⟨2, ![B, 1]⟩ w) (n : Fin B) (h0 : 0 < 1) :
    (vecScatterDims A B wf).start (ix1 n) idx ⟨0, h0⟩ = (pos idx n).toInt := by
  unfold ScatterDims.start
  rw [dif_pos (show (⟨0, h0⟩ : Fin 1) ∈ (vecScatterDims A B wf).scatterDimsToOperandDims from List.mem_singleton.mpr rfl)]
  have hsi : (vecScatterDims A B wf).siIdx (ix1 n) ⟨List.idxOf (⟨0, h0⟩ : Fin 1) (vecScatterDims A B wf).scatterDimsToOperandDims,
      List.idxOf_lt_length_iff.2 (List.mem_singleton.mpr rfl)⟩ = ix2 n ⟨0, Nat.one_pos⟩ := by
    funext b; refine Fin.ext ?_
    match b with
    | ⟨0, _⟩ => rfl
    | ⟨1, _⟩ => rfl
  rw [hsi]

/-- The operand's one axis is an inserted axis: the window coordinate of a scalar scatter's update is `0`. -/
theorem vecScatter_window0 {A B : Nat}
    (wf : ScatterDims.WF ⟨1, ![A]⟩ ⟨2, ![B, 1]⟩ ⟨1, ![B]⟩ [] [0] [0] 1)
    (n : Fin B) (h0 : 0 < 1) :
    (vecScatterDims A B wf).window (ix1 n) ⟨0, h0⟩ = 0 := by
  unfold ScatterDims.window
  rw [dif_neg]
  intro h
  simp [ScatterDims.sKept, Shape.kept, List.mem_filter] at h

/-- Update `(n, f')` of a row scatter lands on `(g, f)` exactly when row `n`'s position is `g` and `f' = f`. -/
theorem rowScatter_resultIdx?_eq_some {A B D w : Nat}
    (wf : ScatterDims.WF ⟨2, ![A, D]⟩ ⟨2, ![B, 1]⟩ ⟨2, ![B, D]⟩ [1] [0] [0] 1)
    (idx : IVec ⟨2, ![B, 1]⟩ w) (n : Fin B) (f' : Fin D) (g : Fin A) (f : Fin D) :
    (rowScatterDims A B D wf).resultIdx? (ix2 n f') idx = some (ix2 g f) ↔ (pos idx n).toInt = (g.val : Int) ∧ f' = f := by
  have hg := g.isLt
  have hf' := f'.isLt
  unfold ScatterDims.resultIdx?
  constructor
  · intro h
    split at h
    · rename_i hc
      have h' := Option.some.inj h
      have e0 : ((rowScatterDims A B D wf).start (ix2 n f') idx ⟨0, Nat.zero_lt_two⟩
          + ((rowScatterDims A B D wf).window (ix2 n f') ⟨0, Nat.zero_lt_two⟩ : Int)).toNat = g.val :=
        congrArg (fun i : (⟨2, ![A, D]⟩ : Shape).Idx => (i ⟨0, Nat.zero_lt_two⟩).val) h'
      have e1 : ((rowScatterDims A B D wf).start (ix2 n f') idx ⟨1, Nat.one_lt_two⟩
          + ((rowScatterDims A B D wf).window (ix2 n f') ⟨1, Nat.one_lt_two⟩ : Int)).toNat = f.val :=
        congrArg (fun i : (⟨2, ![A, D]⟩ : Shape).Idx => (i ⟨1, Nat.one_lt_two⟩).val) h'
      have c0 := (hc ⟨0, Nat.zero_lt_two⟩).1
      rw [rowScatter_start0, rowScatter_window0] at e0 c0
      rw [rowScatter_start1, rowScatter_window1] at e1
      refine ⟨by omega, Fin.ext (by omega)⟩
    · exact absurd h (by simp)
  · rintro ⟨hp, rfl⟩
    have hc : ∀ a, 0 ≤ (rowScatterDims A B D wf).start (ix2 n f') idx a + ((rowScatterDims A B D wf).window (ix2 n f') a : Int)
        ∧ (rowScatterDims A B D wf).start (ix2 n f') idx a + ((rowScatterDims A B D wf).window (ix2 n f') a : Int)
          < ((⟨2, ![A, D]⟩ : Shape).size a : Int) := by
      intro a
      match a with
      | ⟨0, h0⟩ =>
        rw [rowScatter_start0, rowScatter_window0, hp]
        show (0 : Int) ≤ (g.val : Int) + ((0 : Nat) : Int) ∧ (g.val : Int) + ((0 : Nat) : Int) < (A : Int)
        omega
      | ⟨1, h1⟩ =>
        rw [rowScatter_start1, rowScatter_window1]
        show (0 : Int) ≤ 0 + (f'.val : Int) ∧ 0 + (f'.val : Int) < (D : Int)
        omega
    rw [dif_pos hc]
    congr 1
    funext a
    refine Fin.ext ?_
    match a with
    | ⟨0, h0⟩ =>
      show ((rowScatterDims A B D wf).start (ix2 n f') idx ⟨0, h0⟩
          + ((rowScatterDims A B D wf).window (ix2 n f') ⟨0, h0⟩ : Int)).toNat = g.val
      rw [rowScatter_start0, rowScatter_window0, hp]; omega
    | ⟨1, h1⟩ =>
      show ((rowScatterDims A B D wf).start (ix2 n f') idx ⟨1, h1⟩
          + ((rowScatterDims A B D wf).window (ix2 n f') ⟨1, h1⟩ : Int)).toNat = f'.val
      rw [rowScatter_start1, rowScatter_window1]; omega

/-- Update `n` of a scalar scatter lands on `g` exactly when its position is `g`. -/
theorem vecScatter_resultIdx?_eq_some {A B w : Nat}
    (wf : ScatterDims.WF ⟨1, ![A]⟩ ⟨2, ![B, 1]⟩ ⟨1, ![B]⟩ [] [0] [0] 1)
    (idx : IVec ⟨2, ![B, 1]⟩ w) (n : Fin B) (g : Fin A) :
    (vecScatterDims A B wf).resultIdx? (ix1 n) idx = some (ix1 g) ↔ (pos idx n).toInt = (g.val : Int) := by
  have hg := g.isLt
  unfold ScatterDims.resultIdx?
  constructor
  · intro h
    split at h
    · rename_i hc
      have h' := Option.some.inj h
      have e0 : ((vecScatterDims A B wf).start (ix1 n) idx ⟨0, Nat.one_pos⟩
          + ((vecScatterDims A B wf).window (ix1 n) ⟨0, Nat.one_pos⟩ : Int)).toNat = g.val :=
        congrArg (fun i : (⟨1, ![A]⟩ : Shape).Idx => (i ⟨0, Nat.one_pos⟩).val) h'
      have c0 := (hc ⟨0, Nat.one_pos⟩).1
      rw [vecScatter_start0, vecScatter_window0] at e0 c0
      omega
    · exact absurd h (by simp)
  · intro hp
    have hc : ∀ a, 0 ≤ (vecScatterDims A B wf).start (ix1 n) idx a + ((vecScatterDims A B wf).window (ix1 n) a : Int)
        ∧ (vecScatterDims A B wf).start (ix1 n) idx a + ((vecScatterDims A B wf).window (ix1 n) a : Int)
          < ((⟨1, ![A]⟩ : Shape).size a : Int) := by
      intro a
      match a with
      | ⟨0, h0⟩ =>
        rw [vecScatter_start0, vecScatter_window0, hp]
        show (0 : Int) ≤ (g.val : Int) + ((0 : Nat) : Int) ∧ (g.val : Int) + ((0 : Nat) : Int) < (A : Int)
        omega
    rw [dif_pos hc]
    congr 1
    funext a
    refine Fin.ext ?_
    match a with
    | ⟨0, h0⟩ =>
      show ((vecScatterDims A B wf).start (ix1 n) idx ⟨0, h0⟩
          + ((vecScatterDims A B wf).window (ix1 n) ⟨0, h0⟩ : Int)).toNat = g.val
      rw [vecScatter_start0, vecScatter_window0, hp]; omega

/-- THE ROW SCATTER-ADD READ AT `(g, f)`: the operand's element plus the sum, over the update rows whose
    position is `g`, of the update's element in column `f`. -/
theorem rowScatterAdd_apply {A B D w : Nat}
    (wf : ScatterDims.WF ⟨2, ![A, D]⟩ ⟨2, ![B, 1]⟩ ⟨2, ![B, D]⟩ [1] [0] [0] 1)
    (x : (⟨2, ![A, D]⟩ : Shape).Idx → EReal) (idx : IVec ⟨2, ![B, 1]⟩ w) (upd : (⟨2, ![B, D]⟩ : Shape).Idx → EReal)
    (g : Fin A) (f : Fin D) :
    Ideal.hostScatterAdd (rowScatterDims A B D wf) x idx upd (ix2 g f)
      = x (ix2 g f) + ∑ n ∈ Finset.univ.filter (fun n : Fin B => (pos idx n).toInt = (g.val : Int)), upd (ix2 n f) := by
  unfold Ideal.hostScatterAdd
  congr 1
  have key : ∀ j : (⟨2, ![B, D]⟩ : Shape).Idx, (rowScatterDims A B D wf).resultIdx? j idx = some (ix2 g f) →
      (pos idx (j 0)).toInt = (g.val : Int) ∧ j = ix2 (j 0) f := by
    intro j hj
    rw [eq_ix2 j] at hj
    have h := (rowScatter_resultIdx?_eq_some wf idx (j 0) (j 1) g f).mp hj
    refine ⟨h.1, ?_⟩
    rw [← h.2]; exact eq_ix2 j
  refine Finset.sum_nbij' (fun j => j 0) (fun n => ix2 n f) ?_ ?_ ?_ ?_ ?_
  · intro j hj
    exact Finset.mem_filter.mpr ⟨Finset.mem_univ _, (key j (Finset.mem_filter.mp hj).2).1⟩
  · intro n hn
    exact Finset.mem_filter.mpr ⟨Finset.mem_univ _,
      (rowScatter_resultIdx?_eq_some wf idx n f g f).mpr ⟨(Finset.mem_filter.mp hn).2, rfl⟩⟩
  · intro j hj
    exact (key j (Finset.mem_filter.mp hj).2).2.symm
  · intro n _
    rfl
  · intro j hj
    exact congrArg upd (key j (Finset.mem_filter.mp hj).2).2

/-- THE SCALAR SCATTER-ADD READ AT `g`: the operand's element plus the sum of the updates whose position is `g`. -/
theorem vecScatterAdd_apply {A B w : Nat}
    (wf : ScatterDims.WF ⟨1, ![A]⟩ ⟨2, ![B, 1]⟩ ⟨1, ![B]⟩ [] [0] [0] 1)
    (x : (⟨1, ![A]⟩ : Shape).Idx → EReal) (idx : IVec ⟨2, ![B, 1]⟩ w) (upd : (⟨1, ![B]⟩ : Shape).Idx → EReal)
    (g : Fin A) :
    Ideal.hostScatterAdd (vecScatterDims A B wf) x idx upd (ix1 g)
      = x (ix1 g) + ∑ n ∈ Finset.univ.filter (fun n : Fin B => (pos idx n).toInt = (g.val : Int)), upd (ix1 n) := by
  unfold Ideal.hostScatterAdd
  congr 1
  have key : ∀ j : (⟨1, ![B]⟩ : Shape).Idx, (vecScatterDims A B wf).resultIdx? j idx = some (ix1 g) →
      (pos idx (j 0)).toInt = (g.val : Int) := by
    intro j hj
    rw [eq_ix1 j] at hj
    exact (vecScatter_resultIdx?_eq_some wf idx (j 0) g).mp hj
  refine Finset.sum_nbij' (fun j => j 0) (fun n => ix1 n) ?_ ?_ ?_ ?_ ?_
  · intro j hj
    exact Finset.mem_filter.mpr ⟨Finset.mem_univ _, key j (Finset.mem_filter.mp hj).2⟩
  · intro n hn
    exact Finset.mem_filter.mpr ⟨Finset.mem_univ _,
      (vecScatter_resultIdx?_eq_some wf idx n g).mpr (Finset.mem_filter.mp hn).2⟩
  · intro j _
    exact (eq_ix1 j).symm
  · intro n _
    rfl
  · intro j _
    exact congrArg upd (eq_ix1 j)

/-! ## The gathers read at an index -/

/-- The operand row a position word names: read signed, clamped into `[0, N - 1]`. -/
def clampRow {w : Nat} (N : Nat) (hN : 0 < N) (p : BitVec w) : Fin N := ⟨min p.toInt.toNat (N - 1), by omega⟩

/-- THE ROW GATHER READ AT `(e, f)`: the operand at the clamped position of row `e`, column `f`. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (rowGatherDims N E D wf) x idx (ix2 e f) = x (ix2 (clampRow N hN (pos idx e)) f) := by
  unfold Host.gather
  congr 1
  funext a
  refine Fin.ext ?_
  show (rowGatherDims N E D wf).start (ix2 e f) idx a + (rowGatherDims N E D wf).batchCoord (ix2 e f) a
    + (rowGatherDims N E D wf).offCoord (ix2 e f) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E D wf).startIndexMap from List.mem_singleton.mpr rfl)]
    have hsi : (rowGatherDims N E D wf).siIdx (ix2 e f) ⟨List.idxOf (⟨0, h0⟩ : Fin 2) (rowGatherDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hns : (⟨1, h1⟩ : Fin 2) ∉ (rowGatherDims N E D wf).startIndexMap := by
      intro h; have := List.mem_singleton.mp h; exact absurd (congrArg Fin.val this) Nat.one_ne_zero
    have hk : (⟨1, h1⟩ : Fin 2) ∈ (rowGatherDims N E D wf).sKept :=
      (GatherDims.mem_sKept _ _).mpr ⟨by intro h; have := List.mem_singleton.mp h; exact absurd (congrArg Fin.val this) Nat.one_ne_zero, List.not_mem_nil⟩
    unfold GatherDims.start GatherDims.offCoord
    rw [dif_neg hns, dif_pos hk]
    simp only [Nat.zero_add, Nat.add_zero]
    rfl

/-- THE SCALAR GATHER READ AT `e`: the operand at the clamped position of `e`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (pos idx e))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- A position that is a row number of the operand is its own clamp. -/
theorem clampRow_of_toInt_eq {w : Nat} (N : Nat) (hN : 0 < N) (p : BitVec w) (g : Fin N) (h : p.toInt = (g.val : Int)) :
    clampRow N hN p = g := by
  refine Fin.ext ?_
  show min p.toInt.toNat (N - 1) = g.val
  have := g.isLt
  rw [h]
  omega

end Cert.LibIndexOps

end
-- ==== Proof.RealHost.lean ====
/-
  Real values through the host operations the two programs share: an entry of a row gather is an entry of the table, and an
  entry of the scatter-add into zeros is a finite sum of update entries; so real tables give real gathered rows and real
  messages give real aggregated messages.
-/
import proofs.«110093_j8770323219157_1_alg».proof.Proof.KvHost
import proofs.«110093_j8770323219157_1_alg».proof.Proof.LibIndexOps
import proofs.«110093_j8770323219157_1_alg».proof.Proof.LibRealValued
import Idealize.ShloMosaic.Lib.IdealHost

noncomputable section

namespace Cert.RealHost

open Idealize.ShloMosaic Idealize.ShloMosaic.ValueIdx Cert.Lib Cert.LibIndexOps Cert.KernelIdeal Cert.KernelIdeal.KHost

/-- The program's dimension records are the row gather's and the row scatter's. -/
theorem gatherH_dims : gather_S50000x64_S800000x1_S800000x64_1_0_n_n_0_1_164
    = rowGatherDims 50000 800000 64 Cert.KernelIdeal.Gen.gather_S50000x64_S800000x1_S800000x64_1_0_n_n_0_1_164_wf := rfl
theorem gatherX_dims : gather_S50000x4_S800000x1_S800000x4_1_0_n_n_0_1_14
    = rowGatherDims 50000 800000 4 Cert.KernelIdeal.Gen.gather_S50000x4_S800000x1_S800000x4_1_0_n_n_0_1_14_wf := rfl
theorem agg_dims : scatter_S50000x64_S800000x1_S800000x64_1_0_0_1
    = rowScatterDims 50000 800000 64 Cert.KernelIdeal.Gen.scatter_S50000x64_S800000x1_S800000x64_1_0_0_1_wf := rfl

/-- An entry of the gathered feature rows is an entry of the feature table. -/
theorem gatherH_apply (h : FVec Ideal S50000x64 .f32) (a : IVec S800000 32) (e : Fin 800000) (f : Fin 64) :
    gatherH h a (ix2 e f) = h (ix2 (clampRow 50000 (by decide) (pos (normIdx a) e)) f) := by
  unfold gatherH
  rw [gatherH_dims]
  exact rowGather_apply (by decide) _ h (normIdx a) e f

/-- An entry of the gathered coordinate rows is an entry of the coordinate table. -/
theorem gatherX_apply (x : FVec Ideal S50000x4 .f32) (a : IVec S800000 32) (e : Fin 800000) (f : Fin 4) :
    gatherX x a (ix2 e f) = x (ix2 (clampRow 50000 (by decide) (pos (normIdx a) e)) f) := by
  unfold gatherX
  rw [gatherX_dims]
  exact rowGather_apply (by decide) _ x (normIdx a) e f

/-- Gathered rows of a real table are real. -/
theorem gatherH_real (h : FVec Ideal S50000x64 .f32) (hh : ∀ j, IsReal (h j)) (a : IVec S800000 32) :
    ∀ i, IsReal (gatherH h a i) := by
  intro i
  obtain ⟨e, f, rfl⟩ : ∃ (e : Fin 800000) (f : Fin 64), i = ix2 e f := ⟨i 0, i 1, eq_ix2 i⟩
  rw [gatherH_apply]
  exact hh _

theorem gatherX_real (x : FVec Ideal S50000x4 .f32) (hx : ∀ j, IsReal (x j)) (a : IVec S800000 32) :
    ∀ i, IsReal (gatherX x a i) := by
  intro i
  obtain ⟨e, f, rfl⟩ : ∃ (e : Fin 800000) (f : Fin 4), i = ix2 e f := ⟨i 0, i 1, eq_ix2 i⟩
  rw [gatherX_apply]
  exact hx _

/-- The aggregated messages are the exact scatter-add of the messages into zeros. -/
theorem aggOf_eq (a : IVec S800000 32) (mm : FVec Ideal S800000x64 .f32) :
    aggOf a mm = Ideal.hostScatterAdd scatter_S50000x64_S800000x1_S800000x64_1_0_0_1
      (broadcastInDim S50000x64 ![] Cert.KernelIdeal.Gen.bcast_S_S50000x64 (constant (F := Ideal) S_ .f32 0x00000000#32))
      (broadcastInDim S800000x1 ![0] Cert.KernelIdeal.Gen.bcast_S800000_S800000x1_0 a) mm := rfl

/-- An entry of the aggregated messages: the sum of the messages of the edges received at that node. -/
theorem aggOf_apply (a : IVec S800000 32) (mm : FVec Ideal S800000x64 .f32) (g : Fin 50000) (f : Fin 64) :
    aggOf a mm (ix2 g f)
      = ∑ n ∈ Finset.univ.filter (fun n : Fin 800000 =>
          (pos (broadcastInDim S800000x1 ![0] Cert.KernelIdeal.Gen.bcast_S800000_S800000x1_0 a) n).toInt = (g.val : Int)), mm (ix2 n f) := by
  rw [aggOf_eq, agg_dims, rowScatterAdd_apply, broadcastInDim_scalar_apply, constant_apply,
    Ideal.ofBits_zero_f32, zero_add]

/-- Aggregated real messages are real. -/
theorem aggOf_real (mm : FVec Ideal S800000x64 .f32) (hm : ∀ j, IsReal (mm j)) (a : IVec S800000 32) :
    ∀ i, IsReal (aggOf a mm i) := by
  intro i
  obtain ⟨g, f, rfl⟩ : ∃ (g : Fin 50000) (f : Fin 64), i = ix2 g f := ⟨i 0, i 1, eq_ix2 i⟩
  rw [aggOf_apply]
  exact IsReal.sum _ _ fun n _ => hm _

end Cert.RealHost

end
-- ==== Proof.BrOut.lean ====
/-
  The kernel program's message result and coordinate result are the reference's, under real inputs: the message array
  index by index (the edge bridge), the coordinates because both programs apply the same host chain to equal translations.
-/
import proofs.«110093_j8770323219157_1_alg».proof.Proof.BrEdge
import proofs.«110093_j8770323219157_1_alg».proof.Proof.BrReal
import proofs.«110093_j8770323219157_1_alg».proof.Proof.KvFinal
import proofs.«110093_j8770323219157_1_alg».proof.Proof.RefReal
import proofs.«110093_j8770323219157_1_alg».proof.Proof.RealHost

noncomputable section

namespace Cert.Bridge

open Idealize.ShloMosaic Idealize.ShloMosaic.TcCoe Idealize.ShloMosaic.ValueIdx Cert.Lib
open Cert.KernelIdeal Cert.KernelIdeal.Gen Cert.KernelIdeal.KRun Cert.KernelIdeal.KVal
open Cert.ReferenceIdeal.RefRun Cert.ReferenceIdeal.RefVal

variable (m : (ℓ : Loc nD τ sig) → Buf (Elt Ideal) ℓ) (c : Dev nD)

/-- The first edge layer is real, entry by entry. -/
theorem rO1_isReal (hR : RealAll m c) (e : Fin 800000) (q : Fin 64) : IsReal (rO1 m c e q) :=
  val_v58_isReal Cert.RealHost.gatherH_real Cert.RealHost.gatherX_real _ _ _ _ _ hR.h0 hR.h1 hR.h5 e q

/-- THE MESSAGE RESULT. -/
theorem bridge_m (hR : RealAll m c) :
    (V6 m (outs m) c main_v38_0 : S800000x64.Idx → EReal)
      = res_m (F := Ideal) (g0 m c) (g1 m c) (g2 m c) (g3 m c) (g5 m c) (g6 m c) (g7 m c) (g8 m c) (g9 m c) (g10 m c) (g11 m c) := by
  rw [res_m_eq]
  funext i
  rw [eq_ix2 i]
  exact (arr16 (Vin1 m) c _ _).trans (edge_m m c (rO1_isReal m c hR) _ _)

/-- The translation arrays agree as whole arrays. -/
theorem trans_eq (hR : RealAll m c) :
    ((dat1 (Vin1 m) c).arrAt 17 cfg1.N : S800000x4.Idx → EReal)
      = val_v104 (F := Ideal) (g0 m c) (g1 m c) (g2 m c) (g3 m c) (g5 m c) (g6 m c) (g7 m c) (g8 m c) (g9 m c) (g10 m c) (g11 m c)
          (g12 m c) (g13 m c) (g14 m c) := by
  funext i
  rw [eq_ix2 i]
  exact (arr17 (Vin1 m) c _ _).trans (edge_t m c (rO1_isReal m c hR) _ _)

/-- THE COORDINATE RESULT. -/
theorem bridge_x (hR : RealAll m c) :
    (V6 m (outs m) c main_v53 : S50000x4.Idx → EReal)
      = res_x (F := Ideal) (g0 m c) (g1 m c) (g2 m c) (g3 m c) (g5 m c) (g6 m c) (g7 m c) (g8 m c) (g9 m c) (g10 m c) (g11 m c)
          (g12 m c) (g13 m c) (g14 m c) := by
  rw [res_x_eq, trans_eq m c hR]
  exact (ref_v119 _ _ _ _ _ _ _ _ _ _ _ _ _ _).symm

end Cert.Bridge

end
-- ==== Proof.KArr2.lean ====
/- From blocks to arrays, region 2 (the node statistics, grid 25): each input window's block as rows of its array as the region
   finds it, and the two statistics rows after the whole grid: what the last point stores, computed from the accumulated pair. -/
import proofs.«110093_j8770323219157_1_alg».proof.Proof.KData
import Idealize.ShloMosaic.Lib.Pipeline.Value
import Idealize.ShloMosaic.Lib.ValueIdx

set_option maxRecDepth 16384

noncomputable section

namespace Cert.KernelIdeal.KArr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.KRun

variable {F : FTy → Type} [FloatOps F] [Named F]
variable (V : VT F)

/-- Window 0's printed index map, decided over the grid: block row `t`, block column 0. -/
theorem idx2_0 : ∀ t : Fin cfg2.N, win2_0.index t (0 : Fin 2) = t.val ∧ win2_0.index t (1 : Fin 2) = 0 :=
  (by decide +kernel : ∀ t : Fin grid2.N, _)

/-- Window 0's block at point `t` is rows `2000·t … 2000·t + 1999` of its array. -/
theorem iblk2_0_apply (c : Dev nD) (t : Fin cfg2.N) (r : Fin 2000) (q : Fin 64) :
    (iblk2 V c 0 t : Vec F S2000x64 .f32) (ix2 r q)
      = (V c (Pipeline.arrRef spec2 0) : S50000x64.Idx → Elt F .f32) (ix2 ⟨t.val * 2000 + r.val, by have := t.isLt; have hN : cfg2.N = 25 := N_2; have := r.isLt; omega⟩ q) := by
  obtain ⟨e0, e1⟩ := idx2_0 t
  unfold iblk2
  rw [View.read_apply]
  show V c main_arg0 _ = V c main_arg0 _
  congr 1
  funext a
  apply Fin.ext
  match a with
  | ⟨0, _⟩ => show win2_0.index t (0 : Fin 2) * 2000 + 1 * r.val = t.val * 2000 + r.val; rw [e0]; omega
  | ⟨1, _⟩ => show win2_0.index t (1 : Fin 2) * 64 + 1 * q.val = q.val; rw [e1]; omega

/-- Window 1's printed index map, decided over the grid: block row `t`, block column 0. -/
theorem idx2_1 : ∀ t : Fin cfg2.N, win2_1.index t (0 : Fin 2) = t.val ∧ win2_1.index t (1 : Fin 2) = 0 :=
  (by decide +kernel : ∀ t : Fin grid2.N, _)

/-- Window 1's block at point `t` is rows `2000·t … 2000·t + 1999` of its array. -/
theorem iblk2_1_apply (c : Dev nD) (t : Fin cfg2.N) (r : Fin 2000) (q : Fin 64) :
    (iblk2 V c 1 t : Vec F S2000x64 .f32) (ix2 r q)
      = (V c (Pipeline.arrRef spec2 1) : S50000x64.Idx → Elt F .f32) (ix2 ⟨t.val * 2000 + r.val, by have := t.isLt; have hN : cfg2.N = 25 := N_2; have := r.isLt; omega⟩ q) := by
  obtain ⟨e0, e1⟩ := idx2_1 t
  unfold iblk2
  rw [View.read_apply]
  show V c main_v56 _ = V c main_v56 _
  congr 1
  funext a
  apply Fin.ext
  match a with
  | ⟨0, _⟩ => show win2_1.index t (0 : Fin 2) * 2000 + 1 * r.val = t.val * 2000 + r.val; rw [e0]; omega
  | ⟨1, _⟩ => show win2_1.index t (1 : Fin 2) * 64 + 1 * q.val = q.val; rw [e1]; omega

/-- Window 2's printed index map, decided over the grid: block row `t`, block column 0. -/
theorem idx2_2 : ∀ t : Fin cfg2.N, win2_2.index t (0 : Fin 2) = t.val ∧ win2_2.index t (1 : Fin 2) = 0 :=
  (by decide +kernel : ∀ t : Fin grid2.N, _)

/-- Window 2's block at point `t` is rows `2000·t … 2000·t + 1999` of its array. -/
theorem iblk2_2_apply (c : Dev nD) (t : Fin cfg2.N) (r : Fin 2000) (q : Fin 8) :
    (iblk2 V c 2 t : Vec F S2000x8 .f32) (ix2 r q)
      = (V c (Pipeline.arrRef spec2 2) : S50000x8.Idx → Elt F .f32) (ix2 ⟨t.val * 2000 + r.val, by have := t.isLt; have hN : cfg2.N = 25 := N_2; have := r.isLt; omega⟩ q) := by
  obtain ⟨e0, e1⟩ := idx2_2 t
  unfold iblk2
  rw [View.read_apply]
  show V c main_arg4 _ = V c main_arg4 _
  congr 1
  funext a
  apply Fin.ext
  match a with
  | ⟨0, _⟩ => show win2_2.index t (0 : Fin 2) * 2000 + 1 * r.val = t.val * 2000 + r.val; rw [e0]; omega
  | ⟨1, _⟩ => show win2_2.index t (1 : Fin 2) * 8 + 1 * q.val = q.val; rw [e1]; omega

/-- Window 3's printed index map, decided over the grid: block (0, 0) at every point. -/
theorem idx2_3 : ∀ t : Fin cfg2.N, win2_3.index t (0 : Fin 2) = 0 ∧ win2_3.index t (1 : Fin 2) = 0 :=
  (by decide +kernel : ∀ t : Fin grid2.N, _)

/-- Window 3's block is its whole array at every point. -/
theorem iblk2_3_eq (c : Dev nD) (t : Fin cfg2.N) :
    (iblk2 V c 3 t : Vec F S136x64 .f32) = (V c (Pipeline.arrRef spec2 3) : S136x64.Idx → Elt F .f32) := by
  obtain ⟨e0, e1⟩ := idx2_3 t
  funext j
  unfold iblk2
  rw [View.read_apply]
  show V c main_arg15 _ = V c main_arg15 j
  congr 1
  funext a
  apply Fin.ext
  match a with
  | ⟨0, _⟩ => show win2_3.index t (0 : Fin 2) * 136 + 1 * (j 0).val = (j 0).val; rw [e0]; omega
  | ⟨1, _⟩ => show win2_3.index t (1 : Fin 2) * 64 + 1 * (j 1).val = (j 1).val; rw [e1]; omega

/-- Window 4's printed index map, decided over the grid: block (0, 0) at every point. -/
theorem idx2_4 : ∀ t : Fin cfg2.N, win2_4.index t (0 : Fin 2) = 0 ∧ win2_4.index t (1 : Fin 2) = 0 :=
  (by decide +kernel : ∀ t : Fin grid2.N, _)

/-- Window 4's block is its whole array at every point. -/
theorem iblk2_4_eq (c : Dev nD) (t : Fin cfg2.N) :
    (iblk2 V c 4 t : Vec F S1x64 .f32) = (V c (Pipeline.arrRef spec2 4) : S1x64.Idx → Elt F .f32) := by
  obtain ⟨e0, e1⟩ := idx2_4 t
  funext j
  unfold iblk2
  rw [View.read_apply]
  show V c main_v33 _ = V c main_v33 j
  congr 1
  funext a
  apply Fin.ext
  match a with
  | ⟨0, _⟩ => show win2_4.index t (0 : Fin 2) * 1 + 1 * (j 0).val = (j 0).val; rw [e0]; omega
  | ⟨1, _⟩ => show win2_4.index t (1 : Fin 2) * 64 + 1 * (j 1).val = (j 1).val; rw [e1]; omega

/-- Window 5's printed index map, decided over the grid: block (0, 0) at every point. -/
theorem idx2_5 : ∀ t : Fin cfg2.N, win2_5.index t (0 : Fin 2) = 0 ∧ win2_5.index t (1 : Fin 2) = 0 :=
  (by decide +kernel : ∀ t : Fin grid2.N, _)

/-- The one write-back, at the last point, writes the row computed from everything accumulated: block (0, 0) of the [1,64] array is the array. -/
theorem flushed2_5_eq (c : Dev nD) (t : Fin cfg2.N) (hf : (cfg2.win 5).flush t = true) :
    (dat2 V c).flushed 5 t = ((cfg2.win 5).blk t).view.read (Elt F) (mean2 V c 25) := by
  have hN : cfg2.N = 25 := N_2
  have h1 : t.val = 24 := by have := (flush2_5 t).mp hf; have := t.isLt; omega
  obtain ⟨e0, e1⟩ := idx2_5 t
  funext j
  rw [View.read_apply]
  show mean2 V c (t.val + 1) j = mean2 V c 25 (((cfg2.win 5).blk t).view.emb j)
  rw [h1]
  show mean2 V c 25 j = _
  congr 1
  funext a
  apply Fin.ext
  match a with
  | ⟨0, _⟩ => show (j 0).val = win2_5.index t (0 : Fin 2) * 1 + 1 * (j 0).val; rw [e0]; omega
  | ⟨1, _⟩ => show (j 1).val = win2_5.index t (1 : Fin 2) * 64 + 1 * (j 1).val; rw [e1]; omega

/-- An index of the array is in point `t`'s block iff each coordinate is in the block's range on its axis. -/
theorem mem_blk2_5 (t : Fin cfg2.N) (i : S1x64.Idx) :
    i ∈ ((cfg2.win 5).blk t).view.set ↔ ∀ a : Fin 2, win2_5.index t a * S1x64.size a ≤ (i a).val ∧ (i a).val < win2_5.index t a * S1x64.size a + S1x64.size a := by
  show i ∈ ((View.whole main_v57_0).slice (win2_5.rect t)).set ↔ _
  rw [View.set_slice_whole, Rect.mem_set_unit]
  exact Iff.rfl

/-- The last point's block covers the array. -/
theorem cover2_5 (i : S1x64.Idx) :
    ∃ t : Fin cfg2.N, (cfg2.win 5).flush t = true ∧ i ∈ ((cfg2.win 5).blk t).view.set := by
  have hi0 : (i 0).val < 1 := (i 0).isLt
  have hi1 : (i 1).val < 64 := (i 1).isLt
  have hN : cfg2.N = 25 := N_2
  obtain ⟨t, ht⟩ : ∃ t : Fin cfg2.N, t.val = 24 := ⟨⟨24, by omega⟩, rfl⟩
  obtain ⟨e0, e1⟩ := idx2_5 t
  refine ⟨t, (flush2_5 t).mpr (by rw [ht]), ?_⟩
  rw [mem_blk2_5]
  intro a
  match a with
  | ⟨0, _⟩ => show win2_5.index t (0 : Fin 2) * 1 ≤ (i 0).val ∧ (i 0).val < win2_5.index t (0 : Fin 2) * 1 + 1; rw [e0]; omega
  | ⟨1, _⟩ => show win2_5.index t (1 : Fin 2) * 64 ≤ (i 1).val ∧ (i 1).val < win2_5.index t (1 : Fin 2) * 64 + 64; rw [e1]; omega

/-- THE ARRAY after the whole grid: the row computed from the pair accumulated over all 25 points. -/
theorem arr2_5_eq (c : Dev nD) : (dat2 V c).arrAt 5 cfg2.N = mean2 V c 25 :=
  (dat2 V c).arrAt_eq_of_cover 5 (mean2 V c 25) (flushed2_5_eq V c) cover2_5

/-- Window 6's printed index map, decided over the grid: block (0, 0) at every point. -/
theorem idx2_6 : ∀ t : Fin cfg2.N, win2_6.index t (0 : Fin 2) = 0 ∧ win2_6.index t (1 : Fin 2) = 0 :=
  (by decide +kernel : ∀ t : Fin grid2.N, _)

/-- The one write-back, at the last point, writes the row computed from everything accumulated: block (0, 0) of the [1,64] array is the array. -/
theorem flushed2_6_eq (c : Dev nD) (t : Fin cfg2.N) (hf : (cfg2.win 6).flush t = true) :
    (dat2 V c).flushed 6 t = ((cfg2.win 6).blk t).view.read (Elt F) (var2 V c 25) := by
  have hN : cfg2.N = 25 := N_2
  have h1 : t.val = 24 := by have := (flush2_6 t).mp hf; have := t.isLt; omega
  obtain ⟨e0, e1⟩ := idx2_6 t
  funext j
  rw [View.read_apply]
  show var2 V c (t.val + 1) j = var2 V c 25 (((cfg2.win 6).blk t).view.emb j)
  rw [h1]
  show var2 V c 25 j = _
  congr 1
  funext a
  apply Fin.ext
  match a with
  | ⟨0, _⟩ => show (j 0).val = win2_6.index t (0 : Fin 2) * 1 + 1 * (j 0).val; rw [e0]; omega
  | ⟨1, _⟩ => show (j 1).val = win2_6.index t (1 : Fin 2) * 64 + 1 * (j 1).val; rw [e1]; omega

/-- An index of the array is in point `t`'s block iff each coordinate is in the block's range on its axis. -/
theorem mem_blk2_6 (t : Fin cfg2.N) (i : S1x64.Idx) :
    i ∈ ((cfg2.win 6).blk t).view.set ↔ ∀ a : Fin 2, win2_6.index t a * S1x64.size a ≤ (i a).val ∧ (i a).val < win2_6.index t a * S1x64.size a + S1x64.size a := by
  show i ∈ ((View.whole main_v57_1).slice (win2_6.rect t)).set ↔ _
  rw [View.set_slice_whole, Rect.mem_set_unit]
  exact Iff.rfl

/-- The last point's block covers the array. -/
theorem cover2_6 (i : S1x64.Idx) :
    ∃ t : Fin cfg2.N, (cfg2.win 6).flush t = true ∧ i ∈ ((cfg2.win 6).blk t).view.set := by
  have hi0 : (i 0).val < 1 := (i 0).isLt
  have hi1 : (i 1).val < 64 := (i 1).isLt
  have hN : cfg2.N = 25 := N_2
  obtain ⟨t, ht⟩ : ∃ t : Fin cfg2.N, t.val = 24 := ⟨⟨24, by omega⟩, rfl⟩
  obtain ⟨e0, e1⟩ := idx2_6 t
  refine ⟨t, (flush2_6 t).mpr (by rw [ht]), ?_⟩
  rw [mem_blk2_6]
  intro a
  match a with
  | ⟨0, _⟩ => show win2_6.index t (0 : Fin 2) * 1 ≤ (i 0).val ∧ (i 0).val < win2_6.index t (0 : Fin 2) * 1 + 1; rw [e0]; omega
  | ⟨1, _⟩ => show win2_6.index t (1 : Fin 2) * 64 ≤ (i 1).val ∧ (i 1).val < win2_6.index t (1 : Fin 2) * 64 + 64; rw [e1]; omega

/-- THE ARRAY after the whole grid: the row computed from the pair accumulated over all 25 points. -/
theorem arr2_6_eq (c : Dev nD) : (dat2 V c).arrAt 6 cfg2.N = var2 V c 25 :=
  (dat2 V c).arrAt_eq_of_cover 6 (var2 V c 25) (flushed2_6_eq V c) cover2_6

end Cert.KernelIdeal.KArr

end
-- ==== Proof.KvRowN.lean ====
/-
  The node kernels' blocks at a grid point, at a row, as row-level functions of the point's input blocks.
-/
import proofs.«110093_j8770323219157_1_alg».proof.Proof.KData
import proofs.«110093_j8770323219157_1_alg».proof.Proof.KvStats
import proofs.«110093_j8770323219157_1_alg».proof.Proof.KvAcc

noncomputable section

namespace Cert.KernelIdeal.KVal

open Idealize.ShloMosaic Idealize.ShloMosaic.ValueIdx Cert.KernelIdeal Cert.KernelIdeal.Gen Cert.KernelIdeal.KRun

variable (V : KRun.VT Ideal) (c : Dev nD)

/-! Each window's block at a point, at its literal vector type. -/
abbrev B3_0 (t : Fin cfg3.N) : Vec Ideal S2000x64 .f32 := iblk3 V c 0 t
abbrev B3_1 (t : Fin cfg3.N) : Vec Ideal S2000x64 .f32 := iblk3 V c 1 t
abbrev B3_2 (t : Fin cfg3.N) : Vec Ideal S2000x8 .f32 := iblk3 V c 2 t
abbrev B3_3 (t : Fin cfg3.N) : Vec Ideal S136x64 .f32 := iblk3 V c 3 t
abbrev B3_4 (t : Fin cfg3.N) : Vec Ideal S1x64 .f32 := iblk3 V c 4 t
abbrev B3_5 (t : Fin cfg3.N) : Vec Ideal S1x64 .f32 := iblk3 V c 5 t
abbrev B3_6 (t : Fin cfg3.N) : Vec Ideal S1x64 .f32 := iblk3 V c 6 t
abbrev B3_7 (t : Fin cfg3.N) : Vec Ideal S1x64 .f32 := iblk3 V c 7 t
abbrev B3_8 (t : Fin cfg3.N) : Vec Ideal S1x64 .f32 := iblk3 V c 8 t
abbrev B3_9 (t : Fin cfg3.N) : Vec Ideal S64x64 .f32 := iblk3 V c 9 t
abbrev B3_10 (t : Fin cfg3.N) : Vec Ideal S1x64 .f32 := iblk3 V c 10 t
abbrev B2_0 (t : Fin cfg2.N) : Vec Ideal S2000x64 .f32 := iblk2 V c 0 t
abbrev B2_1 (t : Fin cfg2.N) : Vec Ideal S2000x64 .f32 := iblk2 V c 1 t
abbrev B2_2 (t : Fin cfg2.N) : Vec Ideal S2000x8 .f32 := iblk2 V c 2 t
abbrev B2_3 (t : Fin cfg2.N) : Vec Ideal S136x64 .f32 := iblk2 V c 3 t
abbrev B2_4 (t : Fin cfg2.N) : Vec Ideal S1x64 .f32 := iblk2 V c 4 t

/-- The first node layer of row r of the blocks at point t of the node MLP kernel, at column q. -/
def h1row (t : Fin cfg3.N) (r : Fin 2000) (q : Fin 64) : EReal :=
  Spec.rowDot (Cert.LibConcat.sel3 (fun k => B3_0 V c t (ix2 r k)) (fun k => B3_1 V c t (ix2 r k)) (fun k => B3_2 V c t (ix2 r k)))
    (fun k q => B3_3 V c t (ix2 k q)) q + B3_4 V c t (ix2 (0 : Fin 1) q)

/-- The updated node block at point t, at (r, f): h + (Σ_q relu(bn(first layer))·W_h2 q f + b_h2 f). -/
theorem out3_11_apply (t : Fin cfg3.N) (r : Fin 2000) (f : Fin 64) :
    out3_11 V c t (ix2 r f)
      = B3_0 V c t (ix2 r f)
        + (Spec.rowDot (fun q => Spec.relu (Spec.bnK (h1row V c t r q)
              (B3_7 V c t (ix2 (0 : Fin 1) q)) (B3_8 V c t (ix2 (0 : Fin 1) q))
              (B3_5 V c t (ix2 (0 : Fin 1) q)) (B3_6 V c t (ix2 (0 : Fin 1) q))))
            (fun k q => B3_9 V c t (ix2 k q)) f
          + B3_10 V c t (ix2 (0 : Fin 1) f)) := by
  unfold out3_11 h1row
  rw [k3_pay1_apply]
  simp only [k3_pay2_apply]

/-- The node statistics kernel's first layer at point t, row r, column q, as the same function of ITS blocks. -/
theorem o2blk_apply (t : Fin cfg2.N) (r : Fin 2000) (q : Fin 64) :
    o2blk V c t r q
      = Spec.rowDot (Cert.LibConcat.sel3 (fun k => B2_0 V c t (ix2 r k)) (fun k => B2_1 V c t (ix2 r k)) (fun k => B2_2 V c t (ix2 r k)))
          (fun k q => B2_3 V c t (ix2 k q)) q + B2_4 V c t (ix2 (0 : Fin 1) q) := by
  unfold o2blk
  rw [k2_pay5_apply]

end Cert.KernelIdeal.KVal

end
-- ==== Proof.KvArrS2.lean ====
/-
  The node statistics kernel's two output rows after its whole grid: the mean row is S·κ and the variance row
  Q·κ − (S·κ)², with S and Q the sums over ALL 50000 nodes of the first-layer output column and of its square — the 25
  per-point column sums re-indexed as one sum.
-/
import proofs.«110093_j8770323219157_1_alg».proof.Proof.KData
import proofs.«110093_j8770323219157_1_alg».proof.Proof.KArr2
import proofs.«110093_j8770323219157_1_alg».proof.Proof.KvRowN
import proofs.«110093_j8770323219157_1_alg».proof.Proof.KvAcc
import proofs.«110093_j8770323219157_1_alg».proof.Proof.LibBlockSum

noncomputable section

namespace Cert.KernelIdeal.KVal

open Idealize.ShloMosaic Idealize.ShloMosaic.ValueIdx Cert.KernelIdeal Cert.KernelIdeal.Gen Cert.KernelIdeal.KRun Cert.KernelIdeal.KArr

variable (V : KRun.VT Ideal) (c : Dev nD)

/-! The region's entry arrays at their literal types. -/
abbrev A2_0 : FVec Ideal S50000x64 .f32 := V c (Pipeline.arrRef spec2 0)
abbrev A2_1 : FVec Ideal S50000x64 .f32 := V c (Pipeline.arrRef spec2 1)
abbrev A2_2 : FVec Ideal S50000x8 .f32 := V c (Pipeline.arrRef spec2 2)
abbrev A2_3 : FVec Ideal S136x64 .f32 := V c (Pipeline.arrRef spec2 3)
abbrev A2_4 : FVec Ideal S1x64 .f32 := V c (Pipeline.arrRef spec2 4)

/-- The first node layer of node n at column q, from the statistics region's entry arrays. -/
def O2arr (n : Fin 50000) (q : Fin 64) : EReal :=
  Spec.rowDot (Cert.LibConcat.sel3 (fun k => A2_0 V c (ix2 n k)) (fun k => A2_1 V c (ix2 n k)) (fun k => A2_2 V c (ix2 n k)))
    (fun k q => A2_3 V c (ix2 k q)) q + A2_4 V c (ix2 (0 : Fin 1) q)

/-- The block's first layer at (r, q) is the array-level one at row 2000·t + r. -/
theorem o2blk_eq (t : Fin cfg2.N) (r : Fin 2000) (q : Fin 64) :
    o2blk V c t r q = O2arr V c ⟨t.val * 2000 + r.val, by have := t.isLt; have hN : cfg2.N = 25 := N_2; have := r.isLt; omega⟩ q := by
  rw [o2blk_apply]
  unfold O2arr
  simp only [B2_0, B2_1, B2_2, B2_3, B2_4, iblk2_0_apply, iblk2_1_apply, iblk2_2_apply, iblk2_3_eq, iblk2_4_eq]

/-- The 25 per-point sums of any function of the block's first layer add up to the sum over all nodes. -/
theorem sum_tiles2 (g : EReal → EReal) (q : Fin 64) :
    ∑ s ∈ Finset.range cfg2.N, (if h : s < cfg2.N then ∑ r : Fin 2000, g (o2blk V c ⟨s, h⟩ r q) else 0)
      = ∑ n : Fin 50000, g (O2arr V c n q) := by
  have hN : cfg2.N = 25 := N_2
  let f : ℕ → EReal := fun n => if h : n < 50000 then g (O2arr V c ⟨n, h⟩ q) else 0
  have h1 : ∀ s ∈ Finset.range cfg2.N,
      (if h : s < cfg2.N then ∑ r : Fin 2000, g (o2blk V c ⟨s, h⟩ r q) else 0) = ∑ r : Fin 2000, f (s * 2000 + r.val) := by
    intro s hs
    have hs' : s < cfg2.N := Finset.mem_range.mp hs
    rw [dif_pos hs']
    refine Finset.sum_congr rfl fun r _ => ?_
    rw [o2blk_eq]
    have hlt : s * 2000 + r.val < 50000 := by have := r.isLt; omega
    show _ = (if h : s * 2000 + r.val < 50000 then g (O2arr V c ⟨s * 2000 + r.val, h⟩ q) else 0)
    rw [dif_pos hlt]
  rw [Finset.sum_congr rfl h1, hN, Cert.BlockSum.sum_blocks 25 2000 f]
  show ∑ n : Fin 50000, f n.val = _
  refine Finset.sum_congr rfl fun n _ => ?_
  show (if h : n.val < 50000 then g (O2arr V c ⟨n.val, h⟩ q) else 0) = _
  rw [dif_pos n.isLt]

theorem sumS2 (q : Fin 64) : ∑ s ∈ Finset.range cfg2.N, tileS2 V c q s = ∑ n : Fin 50000, O2arr V c n q :=
  sum_tiles2 V c (fun x => x) q

theorem sumQ2 (q : Fin 64) : ∑ s ∈ Finset.range cfg2.N, tileQ2 V c q s = ∑ n : Fin 50000, O2arr V c n q * O2arr V c n q :=
  sum_tiles2 V c (fun x => x * x) q

/-- The mean row the statistics region leaves, at column q. -/
theorem arr2_5_apply (q : Fin 64) :
    ((dat2 V c).arrAt 5 cfg2.N : S1x64.Idx → EReal) (ix2 (0 : Fin 1) q)
      = (∑ n : Fin 50000, O2arr V c n q) * ((1 / 50000 : ℝ) : EReal) := by
  rw [arr2_5_eq, ← sumS2]
  have h := mean2_apply V c q
  rw [show cfg2.N = 25 from N_2] at h
  rw [show cfg2.N = 25 from N_2]
  exact h

/-- The variance row the statistics region leaves, at column q. -/
theorem arr2_6_apply (q : Fin 64) :
    ((dat2 V c).arrAt 6 cfg2.N : S1x64.Idx → EReal) (ix2 (0 : Fin 1) q)
      = (∑ n : Fin 50000, O2arr V c n q * O2arr V c n q) * ((1 / 50000 : ℝ) : EReal)
        - (∑ n : Fin 50000, O2arr V c n q) * ((1 / 50000 : ℝ) : EReal)
          * ((∑ n : Fin 50000, O2arr V c n q) * ((1 / 50000 : ℝ) : EReal)) := by
  rw [arr2_6_eq, ← sumS2, ← sumQ2]
  have h := var2_apply V c q
  rw [show cfg2.N = 25 from N_2] at h
  rw [show cfg2.N = 25 from N_2]
  exact h

end Cert.KernelIdeal.KVal

end
-- ==== Proof.KArr3.lean ====
/- From blocks to arrays, region 3 (the node MLP, grid 25): each input window's block as rows of its array as the region finds it,
   and the output array after the whole grid, index by index, from what every point left in its block. -/
import proofs.«110093_j8770323219157_1_alg».proof.Proof.KData
import Idealize.ShloMosaic.Lib.Pipeline.Value
import Idealize.ShloMosaic.Lib.ValueIdx

set_option maxRecDepth 16384

noncomputable section

namespace Cert.KernelIdeal.KArr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.KRun

variable {F : FTy → Type} [FloatOps F] [Named F]
variable (V : VT F)

/-- Window 0's printed index map, decided over the grid: block row `t`, block column 0. -/
theorem idx3_0 : ∀ t : Fin cfg3.N, win3_0.index t (0 : Fin 2) = t.val ∧ win3_0.index t (1 : Fin 2) = 0 :=
  (by decide +kernel : ∀ t : Fin grid3.N, _)

/-- Window 0's block at point `t` is rows `2000·t … 2000·t + 1999` of its array. -/
theorem iblk3_0_apply (c : Dev nD) (t : Fin cfg3.N) (r : Fin 2000) (q : Fin 64) :
    (iblk3 V c 0 t : Vec F S2000x64 .f32) (ix2 r q)
      = (V c (Pipeline.arrRef spec3 0) : S50000x64.Idx → Elt F .f32) (ix2 ⟨t.val * 2000 + r.val, by have := t.isLt; have hN : cfg3.N = 25 := N_3; have := r.isLt; omega⟩ q) := by
  obtain ⟨e0, e1⟩ := idx3_0 t
  unfold iblk3
  rw [View.read_apply]
  show V c main_arg0 _ = V c main_arg0 _
  congr 1
  funext a
  apply Fin.ext
  match a with
  | ⟨0, _⟩ => show win3_0.index t (0 : Fin 2) * 2000 + 1 * r.val = t.val * 2000 + r.val; rw [e0]; omega
  | ⟨1, _⟩ => show win3_0.index t (1 : Fin 2) * 64 + 1 * q.val = q.val; rw [e1]; omega

/-- Window 1's printed index map, decided over the grid: block row `t`, block column 0. -/
theorem idx3_1 : ∀ t : Fin cfg3.N, win3_1.index t (0 : Fin 2) = t.val ∧ win3_1.index t (1 : Fin 2) = 0 :=
  (by decide +kernel : ∀ t : Fin grid3.N, _)

/-- Window 1's block at point `t` is rows `2000·t … 2000·t + 1999` of its array. -/
theorem iblk3_1_apply (c : Dev nD) (t : Fin cfg3.N) (r : Fin 2000) (q : Fin 64) :
    (iblk3 V c 1 t : Vec F S2000x64 .f32) (ix2 r q)
      = (V c (Pipeline.arrRef spec3 1) : S50000x64.Idx → Elt F .f32) (ix2 ⟨t.val * 2000 + r.val, by have := t.isLt; have hN : cfg3.N = 25 := N_3; have := r.isLt; omega⟩ q) := by
  obtain ⟨e0, e1⟩ := idx3_1 t
  unfold iblk3
  rw [View.read_apply]
  show V c main_v56 _ = V c main_v56 _
  congr 1
  funext a
  apply Fin.ext
  match a with
  | ⟨0, _⟩ => show win3_1.index t (0 : Fin 2) * 2000 + 1 * r.val = t.val * 2000 + r.val; rw [e0]; omega
  | ⟨1, _⟩ => show win3_1.index t (1 : Fin 2) * 64 + 1 * q.val = q.val; rw [e1]; omega

/-- Window 2's printed index map, decided over the grid: block row `t`, block column 0. -/
theorem idx3_2 : ∀ t : Fin cfg3.N, win3_2.index t (0 : Fin 2) = t.val ∧ win3_2.index t (1 : Fin 2) = 0 :=
  (by decide +kernel : ∀ t : Fin grid3.N, _)

/-- Window 2's block at point `t` is rows `2000·t … 2000·t + 1999` of its array. -/
theorem iblk3_2_apply (c : Dev nD) (t : Fin cfg3.N) (r : Fin 2000) (q : Fin 8) :
    (iblk3 V c 2 t : Vec F S2000x8 .f32) (ix2 r q)
      = (V c (Pipeline.arrRef spec3 2) : S50000x8.Idx → Elt F .f32) (ix2 ⟨t.val * 2000 + r.val, by have := t.isLt; have hN : cfg3.N = 25 := N_3; have := r.isLt; omega⟩ q) := by
  obtain ⟨e0, e1⟩ := idx3_2 t
  unfold iblk3
  rw [View.read_apply]
  show V c main_arg4 _ = V c main_arg4 _
  congr 1
  funext a
  apply Fin.ext
  match a with
  | ⟨0, _⟩ => show win3_2.index t (0 : Fin 2) * 2000 + 1 * r.val = t.val * 2000 + r.val; rw [e0]; omega
  | ⟨1, _⟩ => show win3_2.index t (1 : Fin 2) * 8 + 1 * q.val = q.val; rw [e1]; omega

/-- Window 3's printed index map, decided over the grid: block (0, 0) at every point. -/
theorem idx3_3 : ∀ t : Fin cfg3.N, win3_3.index t (0 : Fin 2) = 0 ∧ win3_3.index t (1 : Fin 2) = 0 :=
  (by decide +kernel : ∀ t : Fin grid3.N, _)

/-- Window 3's block is its whole array at every point. -/
theorem iblk3_3_eq (c : Dev nD) (t : Fin cfg3.N) :
    (iblk3 V c 3 t : Vec F S136x64 .f32) = (V c (Pipeline.arrRef spec3 3) : S136x64.Idx → Elt F .f32) := by
  obtain ⟨e0, e1⟩ := idx3_3 t
  funext j
  unfold iblk3
  rw [View.read_apply]
  show V c main_arg15 _ = V c main_arg15 j
  congr 1
  funext a
  apply Fin.ext
  match a with
  | ⟨0, _⟩ => show win3_3.index t (0 : Fin 2) * 136 + 1 * (j 0).val = (j 0).val; rw [e0]; omega
  | ⟨1, _⟩ => show win3_3.index t (1 : Fin 2) * 64 + 1 * (j 1).val = (j 1).val; rw [e1]; omega

/-- Window 4's printed index map, decided over the grid: block (0, 0) at every point. -/
theorem idx3_4 : ∀ t : Fin cfg3.N, win3_4.index t (0 : Fin 2) = 0 ∧ win3_4.index t (1 : Fin 2) = 0 :=
  (by decide +kernel : ∀ t : Fin grid3.N, _)

/-- Window 4's block is its whole array at every point. -/
theorem iblk3_4_eq (c : Dev nD) (t : Fin cfg3.N) :
    (iblk3 V c 4 t : Vec F S1x64 .f32) = (V c (Pipeline.arrRef spec3 4) : S1x64.Idx → Elt F .f32) := by
  obtain ⟨e0, e1⟩ := idx3_4 t
  funext j
  unfold iblk3
  rw [View.read_apply]
  show V c main_v33 _ = V c main_v33 j
  congr 1
  funext a
  apply Fin.ext
  match a with
  | ⟨0, _⟩ => show win3_4.index t (0 : Fin 2) * 1 + 1 * (j 0).val = (j 0).val; rw [e0]; omega
  | ⟨1, _⟩ => show win3_4.index t (1 : Fin 2) * 64 + 1 * (j 1).val = (j 1).val; rw [e1]; omega

/-- Window 5's printed index map, decided over the grid: block (0, 0) at every point. -/
theorem idx3_5 : ∀ t : Fin cfg3.N, win3_5.index t (0 : Fin 2) = 0 ∧ win3_5.index t (1 : Fin 2) = 0 :=
  (by decide +kernel : ∀ t : Fin grid3.N, _)

/-- Window 5's block is its whole array at every point. -/
theorem iblk3_5_eq (c : Dev nD) (t : Fin cfg3.N) :
    (iblk3 V c 5 t : Vec F S1x64 .f32) = (V c (Pipeline.arrRef spec3 5) : S1x64.Idx → Elt F .f32) := by
  obtain ⟨e0, e1⟩ := idx3_5 t
  funext j
  unfold iblk3
  rw [View.read_apply]
  show V c main_v34 _ = V c main_v34 j
  congr 1
  funext a
  apply Fin.ext
  match a with
  | ⟨0, _⟩ => show win3_5.index t (0 : Fin 2) * 1 + 1 * (j 0).val = (j 0).val; rw [e0]; omega
  | ⟨1, _⟩ => show win3_5.index t (1 : Fin 2) * 64 + 1 * (j 1).val = (j 1).val; rw [e1]; omega

/-- Window 6's printed index map, decided over the grid: block (0, 0) at every point. -/
theorem idx3_6 : ∀ t : Fin cfg3.N, win3_6.index t (0 : Fin 2) = 0 ∧ win3_6.index t (1 : Fin 2) = 0 :=
  (by decide +kernel : ∀ t : Fin grid3.N, _)

/-- Window 6's block is its whole array at every point. -/
theorem iblk3_6_eq (c : Dev nD) (t : Fin cfg3.N) :
    (iblk3 V c 6 t : Vec F S1x64 .f32) = (V c (Pipeline.arrRef spec3 6) : S1x64.Idx → Elt F .f32) := by
  obtain ⟨e0, e1⟩ := idx3_6 t
  funext j
  unfold iblk3
  rw [View.read_apply]
  show V c main_v35 _ = V c main_v35 j
  congr 1
  funext a
  apply Fin.ext
  match a with
  | ⟨0, _⟩ => show win3_6.index t (0 : Fin 2) * 1 + 1 * (j 0).val = (j 0).val; rw [e0]; omega
  | ⟨1, _⟩ => show win3_6.index t (1 : Fin 2) * 64 + 1 * (j 1).val = (j 1).val; rw [e1]; omega

/-- Window 7's printed index map, decided over the grid: block (0, 0) at every point. -/
theorem idx3_7 : ∀ t : Fin cfg3.N, win3_7.index t (0 : Fin 2) = 0 ∧ win3_7.index t (1 : Fin 2) = 0 :=
  (by decide +kernel : ∀ t : Fin grid3.N, _)

/-- Window 7's block is its whole array at every point. -/
theorem iblk3_7_eq (c : Dev nD) (t : Fin cfg3.N) :
    (iblk3 V c 7 t : Vec F S1x64 .f32) = (V c (Pipeline.arrRef spec3 7) : S1x64.Idx → Elt F .f32) := by
  obtain ⟨e0, e1⟩ := idx3_7 t
  funext j
  unfold iblk3
  rw [View.read_apply]
  show V c main_v57_0 _ = V c main_v57_0 j
  congr 1
  funext a
  apply Fin.ext
  match a with
  | ⟨0, _⟩ => show win3_7.index t (0 : Fin 2) * 1 + 1 * (j 0).val = (j 0).val; rw [e0]; omega
  | ⟨1, _⟩ => show win3_7.index t (1 : Fin 2) * 64 + 1 * (j 1).val = (j 1).val; rw [e1]; omega

/-- Window 8's printed index map, decided over the grid: block (0, 0) at every point. -/
theorem idx3_8 : ∀ t : Fin cfg3.N, win3_8.index t (0 : Fin 2) = 0 ∧ win3_8.index t (1 : Fin 2) = 0 :=
  (by decide +kernel : ∀ t : Fin grid3.N, _)

/-- Window 8's block is its whole array at every point. -/
theorem iblk3_8_eq (c : Dev nD) (t : Fin cfg3.N) :
    (iblk3 V c 8 t : Vec F S1x64 .f32) = (V c (Pipeline.arrRef spec3 8) : S1x64.Idx → Elt F .f32) := by
  obtain ⟨e0, e1⟩ := idx3_8 t
  funext j
  unfold iblk3
  rw [View.read_apply]
  show V c main_v57_1 _ = V c main_v57_1 j
  congr 1
  funext a
  apply Fin.ext
  match a with
  | ⟨0, _⟩ => show win3_8.index t (0 : Fin 2) * 1 + 1 * (j 0).val = (j 0).val; rw [e0]; omega
  | ⟨1, _⟩ => show win3_8.index t (1 : Fin 2) * 64 + 1 * (j 1).val = (j 1).val; rw [e1]; omega

/-- Window 9's printed index map, decided over the grid: block (0, 0) at every point. -/
theorem idx3_9 : ∀ t : Fin cfg3.N, win3_9.index t (0 : Fin 2) = 0 ∧ win3_9.index t (1 : Fin 2) = 0 :=
  (by decide +kernel : ∀ t : Fin grid3.N, _)

/-- Window 9's block is its whole array at every point. -/
theorem iblk3_9_eq (c : Dev nD) (t : Fin cfg3.N) :
    (iblk3 V c 9 t : Vec F S64x64 .f32) = (V c (Pipeline.arrRef spec3 9) : S64x64.Idx → Elt F .f32) := by
  obtain ⟨e0, e1⟩ := idx3_9 t
  funext j
  unfold iblk3
  rw [View.read_apply]
  show V c main_arg19 _ = V c main_arg19 j
  congr 1
  funext a
  apply Fin.ext
  match a with
  | ⟨0, _⟩ => show win3_9.index t (0 : Fin 2) * 64 + 1 * (j 0).val = (j 0).val; rw [e0]; omega
  | ⟨1, _⟩ => show win3_9.index t (1 : Fin 2) * 64 + 1 * (j 1).val = (j 1).val; rw [e1]; omega

/-- Window 10's printed index map, decided over the grid: block (0, 0) at every point. -/
theorem idx3_10 : ∀ t : Fin cfg3.N, win3_10.index t (0 : Fin 2) = 0 ∧ win3_10.index t (1 : Fin 2) = 0 :=
  (by decide +kernel : ∀ t : Fin grid3.N, _)

/-- Window 10's block is its whole array at every point. -/
theorem iblk3_10_eq (c : Dev nD) (t : Fin cfg3.N) :
    (iblk3 V c 10 t : Vec F S1x64 .f32) = (V c (Pipeline.arrRef spec3 10) : S1x64.Idx → Elt F .f32) := by
  obtain ⟨e0, e1⟩ := idx3_10 t
  funext j
  unfold iblk3
  rw [View.read_apply]
  show V c main_v36 _ = V c main_v36 j
  congr 1
  funext a
  apply Fin.ext
  match a with
  | ⟨0, _⟩ => show win3_10.index t (0 : Fin 2) * 1 + 1 * (j 0).val = (j 0).val; rw [e0]; omega
  | ⟨1, _⟩ => show win3_10.index t (1 : Fin 2) * 64 + 1 * (j 1).val = (j 1).val; rw [e1]; omega

/-- Window 11's printed index map, decided over the grid: block row `t`, block column 0. -/
theorem idx3_11 : ∀ t : Fin cfg3.N, win3_11.index t (0 : Fin 2) = t.val ∧ win3_11.index t (1 : Fin 2) = 0 :=
  (by decide +kernel : ∀ t : Fin grid3.N, _)

/-- What window 11's array holds after the run, index by index: row `e` is row `e % 2000` of what point `e / 2000` left. -/
def G3_11 (c : Dev nD) : S50000x64.Idx → Elt F .f32 := fun i =>
  out3_11 V c ⟨(i 0).val / 2000, by have h : (i 0).val < 50000 := (i 0).isLt; have hN : cfg3.N = 25 := N_3; omega⟩
    (ix2 ⟨(i 0).val % 2000, Nat.mod_lt _ (by decide)⟩ ⟨(i 1).val, (i 1).isLt⟩)

/-- At an index of point `t`'s block it is that point's element. -/
theorem G3_11_at (c : Dev nD) (t : Fin cfg3.N) (j : S2000x64.Idx) (i : S50000x64.Idx)
    (h0 : (i 0).val = t.val * 2000 + (j 0).val) (h1 : (i 1).val = (j 1).val) : G3_11 V c i = out3_11 V c t j := by
  have hj : (j 0).val < 2000 := (j 0).isLt
  have key : ∀ (t' : Fin cfg3.N) (x : S2000x64.Idx), t' = t → x = j → out3_11 V c t' x = out3_11 V c t j := by
    rintro _ _ rfl rfl; rfl
  unfold G3_11
  refine key _ _ (Fin.ext ?_) (funext fun a => ?_)
  · show (i 0).val / 2000 = t.val; omega
  · match a with
    | ⟨0, _⟩ => exact Fin.ext (by show (i 0).val % 2000 = (j 0).val; omega)
    | ⟨1, _⟩ => exact Fin.ext h1

/-- What point `t` writes back is block `t` of that array. -/
theorem flushed3_11_eq (c : Dev nD) (t : Fin cfg3.N) :
    (dat3 V c).flushed 11 t = ((cfg3.win 11).blk t).view.read (Elt F) (G3_11 V c) := by
  obtain ⟨e0, e1⟩ := idx3_11 t
  funext j
  rw [View.read_apply]
  show out3_11 V c t j = G3_11 V c (((cfg3.win 11).blk t).view.emb j)
  refine (G3_11_at V c t j _ ?_ ?_).symm
  · show win3_11.index t (0 : Fin 2) * 2000 + 1 * (j 0).val = t.val * 2000 + (j 0).val; rw [e0]; omega
  · show win3_11.index t (1 : Fin 2) * 64 + 1 * (j 1).val = (j 1).val; rw [e1]; omega

/-- An index of the array is in point `t`'s block iff each coordinate is in the block's range on its axis. -/
theorem mem_blk3_11 (t : Fin cfg3.N) (i : S50000x64.Idx) :
    i ∈ ((cfg3.win 11).blk t).view.set ↔ ∀ a : Fin 2, win3_11.index t a * S2000x64.size a ≤ (i a).val ∧ (i a).val < win3_11.index t a * S2000x64.size a + S2000x64.size a := by
  show i ∈ ((View.whole main_v58).slice (win3_11.rect t)).set ↔ _
  rw [View.set_slice_whole, Rect.mem_set_unit]
  exact Iff.rfl

/-- Every index of the array is in the block of the point its row falls in. -/
theorem cover3_11 (i : S50000x64.Idx) :
    ∃ t : Fin cfg3.N, (cfg3.win 11).flush t = true ∧ i ∈ ((cfg3.win 11).blk t).view.set := by
  have hi0 : (i 0).val < 50000 := (i 0).isLt
  have hi1 : (i 1).val < 64 := (i 1).isLt
  have hN : cfg3.N = 25 := N_3
  obtain ⟨t, ht⟩ : ∃ t : Fin cfg3.N, t.val = (i 0).val / 2000 := ⟨⟨(i 0).val / 2000, by omega⟩, rfl⟩
  obtain ⟨e0, e1⟩ := idx3_11 t
  refine ⟨t, flush3_11 t, ?_⟩
  rw [mem_blk3_11]
  intro a
  match a with
  | ⟨0, _⟩ => show win3_11.index t (0 : Fin 2) * 2000 ≤ (i 0).val ∧ (i 0).val < win3_11.index t (0 : Fin 2) * 2000 + 2000; rw [e0]; omega
  | ⟨1, _⟩ => show win3_11.index t (1 : Fin 2) * 64 ≤ (i 1).val ∧ (i 1).val < win3_11.index t (1 : Fin 2) * 64 + 64; rw [e1]; omega

/-- THE ARRAY after the whole grid. -/
theorem arr3_11_eq (c : Dev nD) : (dat3 V c).arrAt 11 cfg3.N = G3_11 V c :=
  (dat3 V c).arrAt_eq_of_cover 11 (G3_11 V c) (fun t _ => flushed3_11_eq V c t) cover3_11

/-- The same, at an index given by its row and column. -/
theorem arr3_11 (c : Dev nD) (e : Fin 50000) (f : Fin 64) :
    ((dat3 V c).arrAt 11 cfg3.N : S50000x64.Idx → Elt F .f32) (ix2 e f)
      = out3_11 V c ⟨e.val / 2000, by have h := e.isLt; have hN : cfg3.N = 25 := N_3; omega⟩ (ix2 ⟨e.val % 2000, Nat.mod_lt _ (by decide)⟩ f) := by
  rw [arr3_11_eq]; rfl

/-- The same, at row `r` of point `t`'s block. -/
theorem arr3_11_blk (c : Dev nD) (t : Fin cfg3.N) (r : Fin 2000) (q : Fin 64) :
    ((dat3 V c).arrAt 11 cfg3.N : S50000x64.Idx → Elt F .f32) (ix2 ⟨t.val * 2000 + r.val, by have := t.isLt; have hN : cfg3.N = 25 := N_3; have := r.isLt; omega⟩ q)
      = out3_11 V c t (ix2 r q) := by
  rw [arr3_11_eq]; exact G3_11_at V c t (ix2 r q) _ rfl rfl

end Cert.KernelIdeal.KArr

end
-- ==== Proof.KvArrN.lean ====
/-
  The node MLP kernel's output array after its whole grid, index by index, as a row-level function of the arrays the region
  is entered with: row n of the updated node array is the update of node n computed from row n of the node features, of the
  aggregated messages and of the node attributes, the weights and the two statistics rows.
-/
import proofs.«110093_j8770323219157_1_alg».proof.Proof.KData
import proofs.«110093_j8770323219157_1_alg».proof.Proof.KArr3
import proofs.«110093_j8770323219157_1_alg».proof.Proof.KvRowN

noncomputable section

namespace Cert.KernelIdeal.KVal

open Idealize.ShloMosaic Idealize.ShloMosaic.ValueIdx Cert.KernelIdeal Cert.KernelIdeal.Gen Cert.KernelIdeal.KRun Cert.KernelIdeal.KArr

variable (V : KRun.VT Ideal) (c : Dev nD)

/-! The region's entry arrays at their literal types. -/
abbrev A3_0 : FVec Ideal S50000x64 .f32 := V c (Pipeline.arrRef spec3 0)
abbrev A3_1 : FVec Ideal S50000x64 .f32 := V c (Pipeline.arrRef spec3 1)
abbrev A3_2 : FVec Ideal S50000x8 .f32 := V c (Pipeline.arrRef spec3 2)
abbrev A3_3 : FVec Ideal S136x64 .f32 := V c (Pipeline.arrRef spec3 3)
abbrev A3_4 : FVec Ideal S1x64 .f32 := V c (Pipeline.arrRef spec3 4)
abbrev A3_5 : FVec Ideal S1x64 .f32 := V c (Pipeline.arrRef spec3 5)
abbrev A3_6 : FVec Ideal S1x64 .f32 := V c (Pipeline.arrRef spec3 6)
abbrev A3_7 : FVec Ideal S1x64 .f32 := V c (Pipeline.arrRef spec3 7)
abbrev A3_8 : FVec Ideal S1x64 .f32 := V c (Pipeline.arrRef spec3 8)
abbrev A3_9 : FVec Ideal S64x64 .f32 := V c (Pipeline.arrRef spec3 9)
abbrev A3_10 : FVec Ideal S1x64 .f32 := V c (Pipeline.arrRef spec3 10)

/-- Row r of point t's block is row 2000·t + r of the array. -/
abbrev erow3 (t : Fin cfg3.N) (r : Fin 2000) : Fin 50000 :=
  ⟨t.val * 2000 + r.val, by have := t.isLt; have hN : cfg3.N = 25 := N_3; have := r.isLt; omega⟩

/-- Every row is some block's row. -/
theorem erow3_surj (n : Fin 50000) : ∃ (t : Fin cfg3.N) (r : Fin 2000), n = erow3 t r :=
  ⟨⟨n.val / 2000, by have h := n.isLt; have hN : cfg3.N = 25 := N_3; omega⟩, ⟨n.val % 2000, Nat.mod_lt _ (by decide)⟩,
    Fin.ext (by show n.val = n.val / 2000 * 2000 + n.val % 2000; omega)⟩

/-- The first node layer of node n at column q, from the region's entry arrays. -/
def H1arr (n : Fin 50000) (q : Fin 64) : EReal :=
  Spec.rowDot (Cert.LibConcat.sel3 (fun k => A3_0 V c (ix2 n k)) (fun k => A3_1 V c (ix2 n k)) (fun k => A3_2 V c (ix2 n k)))
    (fun k q => A3_3 V c (ix2 k q)) q + A3_4 V c (ix2 (0 : Fin 1) q)

/-- The updated features of node n: h + (Σ_q relu(bn(first layer))·W q f + b f). -/
def Harr (n : Fin 50000) (f : Fin 64) : EReal :=
  A3_0 V c (ix2 n f)
    + (Spec.rowDot (fun q => Spec.relu (Spec.bnK (H1arr V c n q)
          (A3_7 V c (ix2 (0 : Fin 1) q)) (A3_8 V c (ix2 (0 : Fin 1) q))
          (A3_5 V c (ix2 (0 : Fin 1) q)) (A3_6 V c (ix2 (0 : Fin 1) q))))
        (fun k q => A3_9 V c (ix2 k q)) f
      + A3_10 V c (ix2 (0 : Fin 1) f))

theorem h1row_eq (t : Fin cfg3.N) (r : Fin 2000) (q : Fin 64) : h1row V c t r q = H1arr V c (erow3 t r) q := by
  unfold h1row H1arr
  simp only [B3_0, B3_1, B3_2, B3_3, B3_4, iblk3_0_apply, iblk3_1_apply, iblk3_2_apply, iblk3_3_eq, iblk3_4_eq]

/-- The updated node array at a block row. -/
theorem arr11_blk (t : Fin cfg3.N) (r : Fin 2000) (f : Fin 64) :
    ((dat3 V c).arrAt 11 cfg3.N : S50000x64.Idx → Elt Ideal .f32) (ix2 (erow3 t r) f) = Harr V c (erow3 t r) f := by
  refine (arr3_11_blk V c t r f).trans ?_
  unfold Harr
  rw [out3_11_apply]
  simp only [h1row_eq, B3_0, B3_5, B3_6, B3_7, B3_8, B3_9, B3_10, iblk3_0_apply, iblk3_5_eq, iblk3_6_eq, iblk3_7_eq, iblk3_8_eq,
    iblk3_9_eq, iblk3_10_eq]

/-- The updated node array, index by index. -/
theorem arr11 (n : Fin 50000) (f : Fin 64) :
    ((dat3 V c).arrAt 11 cfg3.N : S50000x64.Idx → Elt Ideal .f32) (ix2 n f) = Harr V c n f := by
  obtain ⟨t, r, rfl⟩ := erow3_surj n
  exact arr11_blk V c t r f

end Cert.KernelIdeal.KVal

end
-- ==== Proof.KvEntryN.lean ====
/-
  The arrays the two node regions are entered with, at the run's own contents: the node features, the node attributes
  and the weights as launched; the aggregated messages the second host stretch formed from the edge MLP region's
  message array; the parameter rows the first host stretch left; and for the node MLP the two statistics rows the node
  statistics region left.  Both node regions compute the first node layer from the same arrays.
-/
import proofs.«110093_j8770323219157_1_alg».proof.Proof.KData
import proofs.«110093_j8770323219157_1_alg».proof.Proof.KvHost
import proofs.«110093_j8770323219157_1_alg».proof.Proof.KvArrS2
import proofs.«110093_j8770323219157_1_alg».proof.Proof.KvArrN

noncomputable section

namespace Cert.KernelIdeal.KVal

open Idealize.ShloMosaic Idealize.ShloMosaic.TcCoe Idealize.ShloMosaic.ValueIdx Cert.KernelIdeal Cert.KernelIdeal.Gen Cert.KernelIdeal.KRun

variable (m : (ℓ : Loc nD τ sig) → Buf (Elt Ideal) ℓ) (c : Dev nD)

/-! ## A buffer that nothing before the node regions writes -/

/-- A buffer neither host stretch nor edge region writes holds its launch contents before the node statistics region. -/
theorem V4_arg (outs : Gen.Outs (F := Ideal)) (r : Ref sig .tc) (h4 : r ∉ hostOps2_W)
    (h3 : r ∉ ([main_v38_0, main_v38_1] : List (Ref sig .tc))) (h2 : r ∉ ([main_v37_0, main_v37_1] : List (Ref sig .tc)))
    (h1 : r ∉ hostOps0_W) : V4 m outs c r = V0 m c r :=
  (V4_of m outs c r h4).trans ((V3_of m outs c r h3).trans ((V2_of m outs c r h2).trans (V1_of m c r h1)))

/-- A buffer the first host stretch wrote and nothing after it holds, before the node statistics region, what that
    stretch left. -/
theorem V4_v1 (outs : Gen.Outs (F := Ideal)) (r : Ref sig .tc) (h4 : r ∉ hostOps2_W)
    (h3 : r ∉ ([main_v38_0, main_v38_1] : List (Ref sig .tc))) (h2 : r ∉ ([main_v37_0, main_v37_1] : List (Ref sig .tc))) :
    V4 m outs c r = V1 m c r :=
  (V4_of m outs c r h4).trans ((V3_of m outs c r h3).trans (V2_of m outs c r h2))

/-- The same two facts before the node MLP region, which follows the node statistics region. -/
theorem V5_arg (outs : Gen.Outs (F := Ideal)) (r : Ref sig .tc) (h5 : r ∉ ([main_v57_0, main_v57_1] : List (Ref sig .tc)))
    (h4 : r ∉ hostOps2_W) (h3 : r ∉ ([main_v38_0, main_v38_1] : List (Ref sig .tc)))
    (h2 : r ∉ ([main_v37_0, main_v37_1] : List (Ref sig .tc))) (h1 : r ∉ hostOps0_W) : V5 m outs c r = V0 m c r :=
  (V5_of m outs c r h5).trans (V4_arg m c outs r h4 h3 h2 h1)

theorem V5_v1 (outs : Gen.Outs (F := Ideal)) (r : Ref sig .tc) (h5 : r ∉ ([main_v57_0, main_v57_1] : List (Ref sig .tc)))
    (h4 : r ∉ hostOps2_W) (h3 : r ∉ ([main_v38_0, main_v38_1] : List (Ref sig .tc)))
    (h2 : r ∉ ([main_v37_0, main_v37_1] : List (Ref sig .tc))) : V5 m outs c r = V1 m c r :=
  (V5_of m outs c r h5).trans (V4_v1 m c outs r h4 h3 h2)

/-- After the edge MLP region the message buffer holds what that region left there. -/
theorem V3_msg (outs : Gen.Outs (F := Ideal)) : V3 m outs c main_v38_0 = outs 3 main_v38_0 c := by
  simp only [V3, Function.update_of_ne (StableHlo.devRef_ne_of_ne (by decide : (main_v38_0 : Ref sig .tc) ≠ main_v38_1) :
    (Proc.devRef .tc main_v38_0 : DevRef τ sig) ≠ Proc.devRef .tc main_v38_1), Function.update_self]

/-- What the edge MLP region leaves in the message buffer is its message array. -/
theorem o3_v38_0 : o3 m main_v38_0 c = (dat1 (Vin1 m) c).arrAt 16 cfg1.N := by
  unfold o3
  rw [Function.update_of_ne (by decide : (main_v38_0 : Ref sig .tc) ≠ main_v38_1), Function.update_self]

/-- The aggregated messages after the second host stretch: the shared host chain over the receiving-node indices as
    launched and the message array. -/
theorem V4_agg' (outs : Gen.Outs (F := Ideal)) (h : outs 3 main_v38_0 c = (dat1 (Vin1 m) c).arrAt 16 cfg1.N) :
    (V4 m outs c main_v56 : S50000x64.Idx → EReal) = KHost.aggOf (V0 m c main_arg2) ((dat1 (Vin1 m) c).arrAt 16 cfg1.N) := by
  rw [KHost.V4_v56, (V3_of m outs c main_arg2 (by decide)).trans ((V2_of m outs c main_arg2 (by decide)).trans
    (V1_of m c main_arg2 (by decide))), V3_msg, h]

/-! ## The node statistics region (entered from the second host stretch) -/

theorem e2_0 : A2_0 (Vin2 m) c = (V0 m c main_arg0 : S50000x64.Idx → EReal) :=
  V4_arg m c _ main_arg0 (by decide) (by decide) (by decide) (by decide)
theorem e2_1 : A2_1 (Vin2 m) c = KHost.aggOf (V0 m c main_arg2) ((dat1 (Vin1 m) c).arrAt 16 cfg1.N) :=
  V4_agg' m c _ (o3_v38_0 m c)
theorem e2_2 : A2_2 (Vin2 m) c = (V0 m c main_arg4 : S50000x8.Idx → EReal) :=
  V4_arg m c _ main_arg4 (by decide) (by decide) (by decide) (by decide)
theorem e2_3 : A2_3 (Vin2 m) c = (V0 m c main_arg15 : S136x64.Idx → EReal) :=
  V4_arg m c _ main_arg15 (by decide) (by decide) (by decide) (by decide)
theorem e2_4 : A2_4 (Vin2 m) c = shapeCast S1x64 (V0 m c main_arg16 : S64.Idx → EReal) shapeCasts_S64_S1x64 :=
  (V4_v1 m c _ main_v33 (by decide) (by decide) (by decide)).trans (KHost.V1_v33 m c)

/-! ## The node MLP region (the same buffers, and the node statistics region's two rows) -/

/-- After the node statistics region its two output buffers hold what that region left there. -/
theorem V5_mean (outs : Gen.Outs (F := Ideal)) : V5 m outs c main_v57_0 = outs 5 main_v57_0 c := by
  simp only [V5, Function.update_of_ne (StableHlo.devRef_ne_of_ne (by decide : (main_v57_0 : Ref sig .tc) ≠ main_v57_1) :
    (Proc.devRef .tc main_v57_0 : DevRef τ sig) ≠ Proc.devRef .tc main_v57_1), Function.update_self]
theorem V5_var (outs : Gen.Outs (F := Ideal)) : V5 m outs c main_v57_1 = outs 5 main_v57_1 c := by
  simp only [V5, Function.update_self]

/-- What the node statistics region leaves: its mean row and its variance row. -/
theorem o5_v57_0 : o5 m main_v57_0 c = (dat2 (Vin2 m) c).arrAt 5 cfg2.N := by
  unfold o5
  rw [Function.update_of_ne (by decide : (main_v57_0 : Ref sig .tc) ≠ main_v57_1), Function.update_self]
theorem o5_v57_1 : o5 m main_v57_1 c = (dat2 (Vin2 m) c).arrAt 6 cfg2.N := by
  unfold o5
  rw [Function.update_self]

theorem e3_0 : A3_0 (Vin3 m) c = (V0 m c main_arg0 : S50000x64.Idx → EReal) :=
  V5_arg m c _ main_arg0 (by decide) (by decide) (by decide) (by decide) (by decide)
theorem e3_1 : A3_1 (Vin3 m) c = KHost.aggOf (V0 m c main_arg2) ((dat1 (Vin1 m) c).arrAt 16 cfg1.N) :=
  (V5_of m _ c main_v56 (by decide)).trans (e2_1 m c)
theorem e3_2 : A3_2 (Vin3 m) c = (V0 m c main_arg4 : S50000x8.Idx → EReal) :=
  V5_arg m c _ main_arg4 (by decide) (by decide) (by decide) (by decide) (by decide)
theorem e3_3 : A3_3 (Vin3 m) c = (V0 m c main_arg15 : S136x64.Idx → EReal) :=
  V5_arg m c _ main_arg15 (by decide) (by decide) (by decide) (by decide) (by decide)
theorem e3_4 : A3_4 (Vin3 m) c = shapeCast S1x64 (V0 m c main_arg16 : S64.Idx → EReal) shapeCasts_S64_S1x64 :=
  (V5_v1 m c _ main_v33 (by decide) (by decide) (by decide) (by decide)).trans (KHost.V1_v33 m c)
theorem e3_5 : A3_5 (Vin3 m) c = shapeCast S1x64 (V0 m c main_arg17 : S64.Idx → EReal) shapeCasts_S64_S1x64 :=
  (V5_v1 m c _ main_v34 (by decide) (by decide) (by decide) (by decide)).trans (KHost.V1_v34 m c)
theorem e3_6 : A3_6 (Vin3 m) c = shapeCast S1x64 (V0 m c main_arg18 : S64.Idx → EReal) shapeCasts_S64_S1x64 :=
  (V5_v1 m c _ main_v35 (by decide) (by decide) (by decide) (by decide)).trans (KHost.V1_v35 m c)
theorem e3_7 : A3_7 (Vin3 m) c = ((dat2 (Vin2 m) c).arrAt 5 cfg2.N : S1x64.Idx → EReal) :=
  (V5_mean m c _).trans (o5_v57_0 m c)
theorem e3_8 : A3_8 (Vin3 m) c = ((dat2 (Vin2 m) c).arrAt 6 cfg2.N : S1x64.Idx → EReal) :=
  (V5_var m c _).trans (o5_v57_1 m c)
theorem e3_9 : A3_9 (Vin3 m) c = (V0 m c main_arg19 : S64x64.Idx → EReal) :=
  V5_arg m c _ main_arg19 (by decide) (by decide) (by decide) (by decide) (by decide)
theorem e3_10 : A3_10 (Vin3 m) c = shapeCast S1x64 (V0 m c main_arg20 : S64.Idx → EReal) shapeCasts_S64_S1x64 :=
  (V5_v1 m c _ main_v36 (by decide) (by decide) (by decide) (by decide)).trans (KHost.V1_v36 m c)

/-- Both node regions compute the first node layer from the same arrays. -/
theorem H1arr_eq (n : Fin 50000) (q : Fin 64) : H1arr (Vin3 m) c n q = O2arr (Vin2 m) c n q := by
  unfold H1arr O2arr
  rw [e3_0, e3_1, e3_2, e3_3, e3_4, e2_0, e2_1, e2_2, e2_3, e2_4]

end Cert.KernelIdeal.KVal

end
-- ==== Proof.BrNode.lean ====
/-
  The node half of the bridge: under real inputs the kernel program's updated node features are, index by index, the
  reference's.  Both node regions and the reference form the first node layer from the same rows: the node features, the
  aggregated messages (the shared host chain applied to message arrays that agree), the node attributes and the weights;
  the one place they differ is the BatchNorm of that layer, joined by the one-pass/two-pass law for a real column of
  50000 entries.
-/
import proofs.«110093_j8770323219157_1_alg».proof.Proof.KvEntryN
import proofs.«110093_j8770323219157_1_alg».proof.Proof.BrEdge
import proofs.«110093_j8770323219157_1_alg».proof.Proof.RefValNode

noncomputable section

namespace Cert.Bridge

open Idealize.ShloMosaic Idealize.ShloMosaic.TcCoe Idealize.ShloMosaic.ValueIdx Cert.Lib
open Cert.KernelIdeal Cert.KernelIdeal.Gen Cert.KernelIdeal.KRun Cert.KernelIdeal.KVal
open Cert.ReferenceIdeal.RefRun Cert.ReferenceIdeal.RefVal

variable (m : (ℓ : Loc nD τ sig) → Buf (Elt Ideal) ℓ) (c : Dev nD)

/-! The launch contents of the node-side arguments, at their literal types. -/
abbrev gN4 : FVec Ideal S50000x8 .f32 := V0 m c main_arg4
abbrev gN15 : FVec Ideal S136x64 .f32 := V0 m c main_arg15
abbrev gN16 : FVec Ideal S64 .f32 := V0 m c main_arg16
abbrev gN17 : FVec Ideal S64 .f32 := V0 m c main_arg17
abbrev gN18 : FVec Ideal S64 .f32 := V0 m c main_arg18
abbrev gN19 : FVec Ideal S64x64 .f32 := V0 m c main_arg19
abbrev gN20 : FVec Ideal S64 .f32 := V0 m c main_arg20

/-- The reference's first node layer at (n, q). -/
abbrev rO2 (n : Fin 50000) (q : Fin 64) : EReal := val_v127 (F := Ideal) (g0 m c) (g1 m c) (g2 m c) (g3 m c) (gN4 m c) (g5 m c) (g6 m c) (g7 m c) (g8 m c) (g9 m c) (g10 m c) (g11 m c) (gN15 m c) (gN16 m c) (ix2 n q)

/-- The edge MLP region's message array is the reference's message array, as functions of the index. -/
theorem marr_fun (hx : ∀ e q, IsReal (rO1 m c e q)) :
    ((dat1 (Vin1 m) c).arrAt 16 cfg1.N : S800000x64.Idx → EReal) = val_v95 (F := Ideal) (g0 m c) (g1 m c) (g2 m c) (g3 m c) (g5 m c) (g6 m c) (g7 m c) (g8 m c) (g9 m c) (g10 m c) (g11 m c) := by
  funext i
  rw [eq_ix2 i]
  exact (arr16 (Vin1 m) c _ _).trans (edge_m m c hx _ _)

/-- The aggregated messages both node regions are entered with are the reference's. -/
theorem kagg (hx : ∀ e q, IsReal (rO1 m c e q)) : A2_1 (Vin2 m) c = val_v122 (F := Ideal) (g0 m c) (g1 m c) (g2 m c) (g3 m c) (g5 m c) (g6 m c) (g7 m c) (g8 m c) (g9 m c) (g10 m c) (g11 m c) := by
  rw [e2_1, marr_fun m c hx, ref_v122]

/-- The first node layer agrees, entry by entry. -/
theorem kO2 (hx : ∀ e q, IsReal (rO1 m c e q)) (n : Fin 50000) (q : Fin 64) : O2arr (Vin2 m) c n q = rO2 m c n q := by
  unfold O2arr rO2
  rw [kagg m c hx, e2_0, e2_2, e2_3, e2_4, val_v127_apply, shapeCast_a_1a_apply]

theorem kH1 (hx : ∀ e q, IsReal (rO1 m c e q)) (n : Fin 50000) (q : Fin 64) : H1arr (Vin3 m) c n q = rO2 m c n q :=
  (H1arr_eq m c n q).trans (kO2 m c hx n q)

theorem kmeanN (hx : ∀ e q, IsReal (rO1 m c e q)) (q : Fin 64) :
    A3_7 (Vin3 m) c (ix2 (0 : Fin 1) q) = (∑ n : Fin 50000, rO2 m c n q) * ((1 / 50000 : ℝ) : EReal) := by
  rw [e3_7, arr2_5_apply]
  simp only [kO2 m c hx]

theorem kvarN (hx : ∀ e q, IsReal (rO1 m c e q)) (q : Fin 64) :
    A3_8 (Vin3 m) c (ix2 (0 : Fin 1) q)
      = (∑ n : Fin 50000, rO2 m c n q * rO2 m c n q) * ((1 / 50000 : ℝ) : EReal)
        - (∑ n : Fin 50000, rO2 m c n q) * ((1 / 50000 : ℝ) : EReal) * ((∑ n : Fin 50000, rO2 m c n q) * ((1 / 50000 : ℝ) : EReal)) := by
  rw [e3_8, arr2_6_apply]
  simp only [kO2 m c hx]

theorem kgN (q : Fin 64) : A3_5 (Vin3 m) c (ix2 (0 : Fin 1) q) = gN17 m c (ix1 q) := by
  rw [e3_5]; exact shapeCast_a_1a_apply _ _ (0 : Fin 1) q
theorem kbN (q : Fin 64) : A3_6 (Vin3 m) c (ix2 (0 : Fin 1) q) = gN18 m c (ix1 q) := by
  rw [e3_6]; exact shapeCast_a_1a_apply _ _ (0 : Fin 1) q
theorem kb2N (q : Fin 64) : A3_10 (Vin3 m) c (ix2 (0 : Fin 1) q) = gN20 m c (ix1 q) := by
  rw [e3_10]; exact shapeCast_a_1a_apply _ _ (0 : Fin 1) q

/-- The normalised, activated first node layer agrees, entry by entry. -/
theorem kbnN (hx : ∀ e q, IsReal (rO1 m c e q)) (hy : ∀ n q, IsReal (rO2 m c n q)) (n : Fin 50000) (q : Fin 64) :
    Spec.relu (Spec.bnK (H1arr (Vin3 m) c n q) (A3_7 (Vin3 m) c (ix2 (0 : Fin 1) q)) (A3_8 (Vin3 m) c (ix2 (0 : Fin 1) q))
        (A3_5 (Vin3 m) c (ix2 (0 : Fin 1) q)) (A3_6 (Vin3 m) c (ix2 (0 : Fin 1) q)))
      = Spec.relu (Spec.bnR (rO2 m c n q) (val_v130 (F := Ideal) (g0 m c) (g1 m c) (g2 m c) (g3 m c) (gN4 m c) (g5 m c) (g6 m c) (g7 m c) (g8 m c) (g9 m c) (g10 m c) (g11 m c) (gN15 m c) (gN16 m c) (ix1 q)) (val_v131 (F := Ideal) (g0 m c) (g1 m c) (g2 m c) (g3 m c) (gN4 m c) (g5 m c) (g6 m c) (g7 m c) (g8 m c) (g9 m c) (g10 m c) (g11 m c) (gN15 m c) (gN16 m c) (ix1 q))
          (gN17 m c (ix1 q)) (gN18 m c (ix1 q))) := by
  rw [kH1 m c hx, kmeanN m c hx, kvarN m c hx, kgN, kbN, val_v130_apply, val_v131_apply]
  exact congrArg Spec.relu (bn_join_N (fun n => rO2 m c n q) (fun n => hy n q) _ _ _)

/-- THE NODE FEATURES: the node MLP region's output array is the reference's, index by index. -/
theorem node_h (hx : ∀ e q, IsReal (rO1 m c e q)) (hy : ∀ n q, IsReal (rO2 m c n q)) (n : Fin 50000) (f : Fin 64) :
    Harr (Vin3 m) c n f = val_v152 (F := Ideal) (g0 m c) (g1 m c) (g2 m c) (g3 m c) (gN4 m c) (g5 m c) (g6 m c) (g7 m c) (g8 m c) (g9 m c) (g10 m c) (g11 m c) (gN15 m c) (gN16 m c) (gN17 m c) (gN18 m c) (gN19 m c) (gN20 m c) (ix2 n f) := by
  unfold Harr
  rw [val_v152_apply]
  simp only [kbnN m c hx hy]
  rw [e3_0, e3_9, kb2N]

end Cert.Bridge

end
-- ==== Proof.BrNodeOut.lean ====
/-
  The kernel program's node feature result is the reference's, under real inputs: the node MLP region's output array
  index by index (the node bridge), read off the last valuation.
-/
import proofs.«110093_j8770323219157_1_alg».proof.Proof.BrNode
import proofs.«110093_j8770323219157_1_alg».proof.Proof.BrOut

noncomputable section

namespace Cert.Bridge

open Idealize.ShloMosaic Idealize.ShloMosaic.TcCoe Idealize.ShloMosaic.ValueIdx Cert.Lib
open Cert.KernelIdeal Cert.KernelIdeal.Gen Cert.KernelIdeal.KRun Cert.KernelIdeal.KVal
open Cert.ReferenceIdeal.RefRun Cert.ReferenceIdeal.RefVal

variable (m : (ℓ : Loc nD τ sig) → Buf (Elt Ideal) ℓ) (c : Dev nD)

/-- The first node layer is real, entry by entry. -/
theorem rO2_isReal (hR : RealAll m c) (n : Fin 50000) (q : Fin 64) : IsReal (rO2 m c n q) :=
  val_v127_isReal Cert.RealHost.gatherH_real Cert.RealHost.gatherX_real Cert.RealHost.aggOf_real _ _ _ _ _ _ _ _ _ _ _ _ _ _
    hR.h0 hR.h1 hR.h4 hR.h5 hR.h6 hR.h7 hR.h8 hR.h9 hR.h10 hR.h11 hR.h15 hR.h16 n q

/-- THE NODE FEATURE RESULT. -/
theorem bridge_h (hA : RealAll m c) :
    (V6 m (outs m) c main_v58 : S50000x64.Idx → EReal)
      = res_h (F := Ideal) (g0 m c) (g1 m c) (g2 m c) (g3 m c) (g4 m c) (g5 m c) (g6 m c) (g7 m c) (g8 m c) (g9 m c) (g10 m c) (g11 m c) (g15 m c) (g16 m c) (g17 m c) (g18 m c) (g19 m c) (g20 m c) := by
  rw [res_h_eq]
  funext i
  rw [eq_ix2 i]
  exact (arr11 (Vin3 m) c _ _).trans (node_h m c (rO1_isReal m c hA) (rO2_isReal m c hA) _ _)

end Cert.Bridge

end
-- ==== Proof.PAlg.lean ====
/-
  The two claims about the idealized kernel program. It runs and leaves its arguments unchanged (the run's post, the
  results dropped). And against the idealized reference, from memories agreeing on the arguments: both run, and the three
  results are equal — the kernel program's results are named off its last valuation, the reference's are its composed
  terms, and under the precondition (every float argument real) the bridge theorems say they are the same arrays.
-/
import proofs.«110093_j8770323219157_1_alg».proof.Defs
import proofs.«110093_j8770323219157_1_alg».proof.Proof.Gen.KernelIdeal
import proofs.«110093_j8770323219157_1_alg».proof.Proof.Gen.ReferenceIdeal
import proofs.«110093_j8770323219157_1_alg».proof.Proof.Gen.Pre_finite_inputs
import proofs.«110093_j8770323219157_1_alg».proof.Proof.KRun
import proofs.«110093_j8770323219157_1_alg».proof.Proof.RefRun
import proofs.«110093_j8770323219157_1_alg».proof.Proof.BrReal
import proofs.«110093_j8770323219157_1_alg».proof.Proof.BrOut
import proofs.«110093_j8770323219157_1_alg».proof.Proof.BrNodeOut

noncomputable section

namespace Cert.Proof.Parts

open Idealize.ShloMosaic Idealize.ShloMosaic.TcCoe Idealize.SL.Sem
open Cert.KernelIdeal Cert.KernelIdeal.Gen Cert.KernelIdeal.KRun Cert.Bridge

theorem frame_ki : Cert.frame_KernelIdeal := fun m g _ =>
  (θ_run Cert.KernelIdeal.defs _ _).mono (fun _ h c => (h c).2.2.2) (Cert.KernelIdeal.KRun.run_main (F := Ideal) m g)

theorem algebraic : Cert.algebraic_KernelIdeal_ReferenceIdeal := by
  intro m g m' g' hpre hagree
  refine ⟨fun c => V6 m (outs m) c main_v58, fun c => V6 m (outs m) c main_v53, fun c => V6 m (outs m) c main_v38_0,
    Cert.KernelIdeal.KRun.run_main (F := Ideal) m g, ?_⟩
  refine (θ_run Cert.ReferenceIdeal.defs _ _).mono (fun r h c => ?_) (Cert.ReferenceIdeal.RefRun.run (F := Ideal) m' g')
  have hA : RealAll m c := realAll_of_pre m c hpre
  obtain ⟨e0, e1, e2, e3, e4, e5, e6, e7, e8, e9, e10, e11, e12, e13, e14, e15, e16, e17, e18, e19, e20⟩ := hagree c
  obtain ⟨hh, hx, hm, hargs⟩ := h c
  refine ⟨?_, ?_, ?_, hargs⟩
  · rw [hh, e0, e1, e2, e3, e4, e5, e6, e7, e8, e9, e10, e11, e15, e16, e17, e18, e19, e20]
    exact (bridge_h m c hA).symm
  · rw [hx, e0, e1, e2, e3, e5, e6, e7, e8, e9, e10, e11, e12, e13, e14]
    exact (bridge_x m c hA).symm
  · rw [hm, e0, e1, e2, e3, e5, e6, e7, e8, e9, e10, e11]
    exact (bridge_m m c hA).symm

end Cert.Proof.Parts

end
-- ==== Proof.lean ====
/-
  The certificate: an EGNN-style message-passing layer (node features h, coordinates x, 800000 edges over 50000 nodes)
  computed by four kernel regions — edge BatchNorm statistics, edge MLP, node BatchNorm statistics, node MLP — between
  host gathers and segment sums, against the plain array program.
  * The three frames: each program runs to the end, faults nowhere and leaves its argument arrays unchanged. The two kernel
    programs run region after region, each region's body obligation proved per grid point (the statistics regions carry
    their two accumulator rows in the region invariant); the reference is a line of host operations.
  * The idealized kernel is the kernel's sanctioned idealization: four sign-bit reads and four named reciprocals.
  * At exact real arithmetic the two idealized programs return the same three arrays. Row by row both compute the same
    features, products and activations; the statistics differ in spelling only — per-block sums accumulated over the grid
    and multiplied by the named 1/n, a one-pass variance and a reciprocal square root, against whole-array sums divided by
    n, a two-pass variance and a quotient by the square root — and agree for columns of real numbers, which the
    precondition (finite inputs) provides.
-/
import proofs.«110093_j8770323219157_1_alg».proof.Defs
import proofs.«110093_j8770323219157_1_alg».proof.Proof.Gen.Kernel
import proofs.«110093_j8770323219157_1_alg».proof.Proof.Gen.KernelIdeal
import proofs.«110093_j8770323219157_1_alg».proof.Proof.Gen.ReferenceIdeal
import proofs.«110093_j8770323219157_1_alg».proof.Proof.Gen.Pre_finite_inputs
import proofs.«110093_j8770323219157_1_alg».proof.Proof.PFrameW
import proofs.«110093_j8770323219157_1_alg».proof.Proof.PFrameRef
import proofs.«110093_j8770323219157_1_alg».proof.Proof.PPreserves
import proofs.«110093_j8770323219157_1_alg».proof.Proof.PAlg

noncomputable section

namespace Cert.Proof

open Idealize.ShloMosaic

theorem claim : Cert.Claim :=
  ⟨Cert.Kernel.Gen.facts, Cert.KernelIdeal.Gen.facts, Cert.ReferenceIdeal.Gen.facts, Cert.Pre_finite_inputs.Gen.facts,
    Parts.frame_w, Parts.frame_ki, Parts.frame_ri, Parts.preserves, Parts.algebraic⟩

end Cert.Proof

end
